-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v168)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v168) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1159) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x2 : Shape := ⟨2, ![262144, 2]⟩
abbrev S8x8192x8 : Shape := ⟨3, ![8, 8192, 8]⟩
abbrev S64x256 : Shape := ⟨2, ![64, 256]⟩
abbrev S256x256 : Shape := ⟨2, ![256, 256]⟩
abbrev S256x1 : Shape := ⟨2, ![256, 1]⟩
abbrev S_ : Shape := ⟨0, ![]⟩

class Facts : Prop where
  bcast_S_S262144x2 : S_.BroadcastsInDim S262144x2 (![] : Fin 0 → Fin S262144x2.rank)
  reducesTo_S262144x2_S_d0_1 : S262144x2.ReducesTo [0, 1] S_
  h_S_ : 0 < S_.numel
  bcast_S_S8x8192x8 : S_.BroadcastsInDim S8x8192x8 (![] : Fin 0 → Fin S8x8192x8.rank)
  reducesTo_S8x8192x8_S_d0_1_2 : S8x8192x8.ReducesTo [0, 1, 2] S_
  bcast_S_S64x256 : S_.BroadcastsInDim S64x256 (![] : Fin 0 → Fin S64x256.rank)
  reducesTo_S64x256_S_d0_1 : S64x256.ReducesTo [0, 1] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_

variable [Facts]

def fn_part2 {F : FTy → Type} [FloatOps F] (main_v28 : IVec S_ 1) (main_v33 : IVec S262144x2 1) : IVec S_ 1 :=
  let main_c_12 : IVec S_ 1 := constantI S_ 1 1#1
  let main_v34 : IVec S_ 1 := (fun x v => Host.reduce IntOp.andi x v reducesTo_S262144x2_S_d0_1 h_S_) main_v33 main_c_12
  let main_v35 : IVec S_ 1 := andi main_v28 main_v34
  main_v35

def fn_part1 {F : FTy → Type} [FloatOps F] (main_arg0 : FVec F S262144x2 .f32) (main_arg4 : FVec F S256x256 .f32) (main_arg5 : FVec F S256x1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x1 .f32 := Host.absf main_arg5
  let main_cst_8 : FVec F S_ .f32 := constant S_ .f32 0x7F800000#32
  let main_v25 : FVec F S256x1 .f32 := broadcastInDim S256x1 ![] bcast_S_S256x1 main_cst_8
  let main_v26 : IVec S256x1 1 := cmpf .olt main_v24 main_v25
  let main_c_9 : IVec S_ 1 := constantI S_ 1 1#1
  let main_v27 : IVec S_ 1 := (fun x v => Host.reduce IntOp.andi x v reducesTo_S256x1_S_d0_1 h_S_) main_v26 main_c_9
  let main_v28 : IVec S_ 1 := andi main_v23 main_v27
  let main_cst_10 : FVec F S_ .f32 := constant S_ .f32 0x00000000#32
  let main_v29 : FVec F S262144x2 .f32 := broadcastInDim S262144x2 ![] bcast_S_S262144x2 main_cst_10
  let main_v30 : IVec S262144x2 1 := cmpf .oge main_arg0 main_v29
  let main_cst_11 : FVec F S_ .f32 := constant S_ .f32 0x3F800000#32
  let main_v31 : FVec F S262144x2 .f32 := broadcastInDim S262144x2 ![] bcast_S_S262144x2 main_cst_11
  let main_v32 : IVec S262144x2 1 := cmpf .olt main_arg0 main_v31
  let main_v33 : IVec S262144x2 1 := andi main_v30 main_v32
  fn_part2 (F := F) main_v28 main_v33

def fn {F : FTy → Type} [FloatOps F] (main_arg0 : FVec F S262144x2 .f32) (main_arg1 : FVec F S8x8192x8 .f32) (main_arg2 : FVec F S64x256 .f32) (main_arg3 : FVec F S256x256 .f32) (main_arg4 : FVec F S256x256 .f32) (main_arg5 : FVec F S256x1 .f32) : IVec S_ 1 :=
  let main_v0 : FVec F S262144x2 .f32 := Host.absf main_arg0
  let main_cst : FVec F S_ .f32 := constant S_ .f32 0x7F800000#32
  let main_v1 : FVec F S262144x2 .f32 := broadcastInDim S262144x2 ![] bcast_S_S262144x2 main_cst
  let main_v2 : IVec S262144x2 1 := cmpf .olt main_v0 main_v1
  let main_c : IVec S_ 1 := constantI S_ 1 1#1
  let main_v3 : IVec S_ 1 := (fun x v => Host.reduce IntOp.andi x v reducesTo_S262144x2_S_d0_1 h_S_) main_v2 main_c
  let main_v4 : FVec F S8x8192x8 .f32 := Host.absf main_arg1
  let main_cst_0 : FVec F S_ .f32 := constant S_ .f32 0x7F800000#32
  let main_v5 : FVec F S8x8192x8 .f32 := broadcastInDim S8x8192x8 ![] bcast_S_S8x8192x8 main_cst_0
  let main_v6 : IVec S8x8192x8 1 := cmpf .olt main_v4 main_v5
  let main_c_1 : IVec S_ 1 := constantI S_ 1 1#1
  let main_v7 : IVec S_ 1 := (fun x v => Host.reduce IntOp.andi x v reducesTo_S8x8192x8_S_d0_1_2 h_S_) main_v6 main_c_1
  let main_v8 : IVec S_ 1 := andi main_v3 main_v7
  let main_v9 : FVec F S64x256 .f32 := Host.absf main_arg2
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg0 main_arg4 main_arg5 main_v13 main_v16
-- ==== Kernel.lean ====
abbrev S262144x2 : Shape := ⟨2, ![262144, 2]⟩
abbrev S8x8192x8 : Shape := ⟨3, ![8, 8192, 8]⟩
abbrev S64x256 : Shape := ⟨2, ![64, 256]⟩
abbrev S256x256 : Shape := ⟨2, ![256, 256]⟩
abbrev S256x1 : Shape := ⟨2, ![256, 1]⟩
abbrev S17 : Shape := ⟨1, ![17]⟩
abbrev S1x17 : Shape := ⟨2, ![1, 17]⟩
abbrev S17x1 : Shape := ⟨2, ![17, 1]⟩
abbrev S_ : Shape := ⟨0, ![]⟩
abbrev S17x17 : Shape := ⟨2, ![17, 17]⟩
abbrev S1x8192x8 : Shape := ⟨3, ![1, 8192, 8]⟩
abbrev S8192x8 : Shape := ⟨2, ![8192, 8]⟩
abbrev S17x17x1 : Shape := ⟨3, ![17, 17, 1]⟩
abbrev S17x17x8 : Shape := ⟨3, ![17, 17, 8]⟩
abbrev S17x136 : Shape := ⟨2, ![17, 136]⟩
abbrev S22 : Shape := ⟨1, ![22]⟩
abbrev S1x22 : Shape := ⟨2, ![1, 22]⟩
abbrev S22x1 : Shape := ⟨2, ![22, 1]⟩
abbrev S22x22 : Shape := ⟨2, ![22, 22]⟩
abbrev S22x22x1 : Shape := ⟨3, ![22, 22, 1]⟩
abbrev S22x22x8 : Shape := ⟨3, ![22, 22, 8]⟩
abbrev S22x176 : Shape := ⟨2, ![22, 176]⟩
abbrev S27 : Shape := ⟨1, ![27]⟩
abbrev S1x27 : Shape := ⟨2, ![1, 27]⟩
abbrev S27x1 : Shape := ⟨2, ![27, 1]⟩
abbrev S27x27 : Shape := ⟨2, ![27, 27]⟩
abbrev S27x27x1 : Shape := ⟨3, ![27, 27, 1]⟩
abbrev S27x27x8 : Shape := ⟨3, ![27, 27, 8]⟩
abbrev S27x216 : Shape := ⟨2, ![27, 216]⟩
abbrev S34 : Shape := ⟨1, ![34]⟩
abbrev S1x34 : Shape := ⟨2, ![1, 34]⟩
abbrev S34x1 : Shape := ⟨2, ![34, 1]⟩
abbrev S34x34 : Shape := ⟨2, ![34, 34]⟩
abbrev S34x34x1 : Shape := ⟨3, ![34, 34, 1]⟩
abbrev S34x34x8 : Shape := ⟨3, ![34, 34, 8]⟩
abbrev S34x272 : Shape := ⟨2, ![34, 272]⟩
abbrev S42 : Shape := ⟨1, ![42]⟩
abbrev S1x42 : Shape := ⟨2, ![1, 42]⟩
abbrev S42x1 : Shape := ⟨2, ![42, 1]⟩
abbrev S42x42 : Shape := ⟨2, ![42, 42]⟩
abbrev S42x42x1 : Shape := ⟨3, ![42, 42, 1]⟩
abbrev S42x42x8 : Shape := ⟨3, ![42, 42, 8]⟩
abbrev S42x336 : Shape := ⟨2, ![42, 336]⟩
abbrev S52 : Shape := ⟨1, ![52]⟩
abbrev S1x52 : Shape := ⟨2, ![1, 52]⟩
abbrev S52x1 : Shape := ⟨2, ![52, 1]⟩
abbrev S52x52 : Shape := ⟨2, ![52, 52]⟩
abbrev S52x52x1 : Shape := ⟨3, ![52, 52, 1]⟩
abbrev S52x52x8 : Shape := ⟨3, ![52, 52, 8]⟩
abbrev S52x416 : Shape := ⟨2, ![52, 416]⟩
abbrev S66 : Shape := ⟨1, ![66]⟩
abbrev S1x66 : Shape := ⟨2, ![1, 66]⟩
abbrev S66x1 : Shape := ⟨2, ![66, 1]⟩
abbrev S66x66 : Shape := ⟨2, ![66, 66]⟩
abbrev S66x66x1 : Shape := ⟨3, ![66, 66, 1]⟩
abbrev S66x66x8 : Shape := ⟨3, ![66, 66, 8]⟩
abbrev S66x528 : Shape := ⟨2, ![66, 528]⟩
abbrev S82 : Shape := ⟨1, ![82]⟩
abbrev S1x82 : Shape := ⟨2, ![1, 82]⟩
abbrev S82x1 : Shape := ⟨2, ![82, 1]⟩
abbrev S82x82 : Shape := ⟨2, ![82, 82]⟩
abbrev S82x82x1 : Shape := ⟨3, ![82, 82, 1]⟩
abbrev S82x82x8 : Shape := ⟨3, ![82, 82, 8]⟩
abbrev S82x656 : Shape := ⟨2, ![82, 656]⟩
abbrev S262144x1 : Shape := ⟨2, ![262144, 1]⟩
abbrev S512x2 : Shape := ⟨2, ![512, 2]⟩
abbrev S512x1 : Shape := ⟨2, ![512, 1]⟩
abbrev S512x17 : Shape := ⟨2, ![512, 17]⟩
abbrev S512x136 : Shape := ⟨2, ![512, 136]⟩
abbrev S512x17x8 : Shape := ⟨3, ![512, 17, 8]⟩
abbrev S512x17x1 : Shape := ⟨3, ![512, 17, 1]⟩
abbrev S512x8 : Shape := ⟨2, ![512, 8]⟩
abbrev S512x22 : Shape := ⟨2, ![512, 22]⟩
abbrev S512x176 : Shape := ⟨2, ![512, 176]⟩
abbrev S512x22x8 : Shape := ⟨3, ![512, 22, 8]⟩
abbrev S512x22x1 : Shape := ⟨3, ![512, 22, 1]⟩
abbrev S512x27 : Shape := ⟨2, ![512, 27]⟩
abbrev S512x216 : Shape := ⟨2, ![512, 216]⟩
abbrev S512x27x8 : Shape := ⟨3, ![512, 27, 8]⟩
abbrev S512x27x1 : Shape := ⟨3, ![512, 27, 1]⟩
abbrev S512x34 : Shape := ⟨2, ![512, 34]⟩
abbrev S512x272 : Shape := ⟨2, ![512, 272]⟩
abbrev S512x34x8 : Shape := ⟨3, ![512, 34, 8]⟩
abbrev S512x34x1 : Shape := ⟨3, ![512, 34, 1]⟩
abbrev S512x42 : Shape := ⟨2, ![512, 42]⟩
abbrev S512x336 : Shape := ⟨2, ![512, 336]⟩
abbrev S512x42x8 : Shape := ⟨3, ![512, 42, 8]⟩
abbrev S512x42x1 : Shape := ⟨3, ![512, 42, 1]⟩
abbrev S512x52 : Shape := ⟨2, ![512, 52]⟩
abbrev S512x416 : Shape := ⟨2, ![512, 416]⟩
abbrev S512x52x8 : Shape := ⟨3, ![512, 52, 8]⟩
abbrev S512x52x1 : Shape := ⟨3, ![512, 52, 1]⟩
abbrev S512x66 : Shape := ⟨2, ![512, 66]⟩
abbrev S512x528 : Shape := ⟨2, ![512, 528]⟩
abbrev S512x66x8 : Shape := ⟨3, ![512, 66, 8]⟩
abbrev S512x66x1 : Shape := ⟨3, ![512, 66, 1]⟩
abbrev S512x82 : Shape := ⟨2, ![512, 82]⟩
abbrev S512x656 : Shape := ⟨2, ![512, 656]⟩
abbrev S512x82x8 : Shape := ⟨3, ![512, 82, 8]⟩
abbrev S512x82x1 : Shape := ⟨3, ![512, 82, 1]⟩
abbrev S512x64 : Shape := ⟨2, ![512, 64]⟩
abbrev S512x256 : Shape := ⟨2, ![512, 256]⟩

abbrev nBuf : Space → Nat
  | .hbm => 367
  | .vmem => 16
  | .smem => 0
  | _ => 0

abbrev hbmTy0_0 (i : Nat) : BufTy := match i % 128 with
  | 0 => ⟨S262144x2, .f32⟩
  | 1 => ⟨S8x8192x8, .f32⟩
  | 2 => ⟨S64x256, .f32⟩
  | 3 => ⟨S256x256, .f32⟩
  | 4 => ⟨S256x256, .f32⟩
  | 5 => ⟨S256x1, .f32⟩
  | 6 => ⟨S17, .i32⟩
  | 7 => ⟨S17, .i32⟩
  | 8 => ⟨S1x17, .i32⟩
  | 9 => ⟨S17x1, .i32⟩
  | 10 => ⟨S_, .i32⟩
  | 11 => ⟨S17x1, .i32⟩
  | 12 => ⟨S17x1, .i32⟩
  | 13 => ⟨S17x17, .i32⟩
  | 14 => ⟨S17x17, .i32⟩
  | 15 => ⟨S17x17, .i32⟩
  | 16 => ⟨S_, .i32⟩
  | 17 => ⟨S_, .i32⟩
  | 18 => ⟨S_, .i32⟩
  | 19 => ⟨S_, .i1⟩
  | 20 => ⟨S_, .i32⟩
  | 21 => ⟨S_, .i32⟩
  | 22 => ⟨S17x17, .i32⟩
  | 23 => ⟨S17x17, .i32⟩
  | 24 => ⟨S_, .i32⟩
  | 25 => ⟨S17x17, .i32⟩
  | 26 => ⟨S17x17, .i1⟩
  | 27 => ⟨S_, .i32⟩
  | 28 => ⟨S17x17, .i32⟩
  | 29 => ⟨S17x17, .i1⟩
  | 30 => ⟨S_, .i32⟩
  | 31 => ⟨S_, .i1⟩
  | 32 => ⟨S17x17, .i1⟩
  | 33 => ⟨S17x17, .i1⟩
  | 34 => ⟨S17x17, .i1⟩
  | 35 => ⟨S17x17, .i32⟩
  | 36 => ⟨S17x17, .i32⟩
  | 37 => ⟨S17x17, .i32⟩
  | 38 => ⟨S1x8192x8, .f32⟩
  | 39 => ⟨S8192x8, .f32⟩
  | 40 => ⟨S_, .i32⟩
  | 41 => ⟨S17x17, .i32⟩
  | 42 => ⟨S17x17, .i1⟩
  | 43 => ⟨S_, .i32⟩
  | 44 => ⟨S17x17, .i32⟩
  | 45 => ⟨S17x17, .i32⟩
  | 46 => ⟨S17x17, .i32⟩
  | 47 => ⟨S17x17x1, .i32⟩
  | 48 => ⟨S17x17x8, .f32⟩
  | 49 => ⟨S17x17x8, .f32⟩
  | 50 => ⟨S17x136, .f32⟩
  | 51 => ⟨S22, .i32⟩
  | 52 => ⟨S22, .i32⟩
  | 53 => ⟨S1x22, .i32⟩
  | 54 => ⟨S22x1, .i32⟩
  | 55 => ⟨S_, .i32⟩
  | 56 => ⟨S22x1, .i32⟩
  | 57 => ⟨S22x1, .i32⟩
  | 58 => ⟨S22x22, .i32⟩
  | 59 => ⟨S22x22, .i32⟩
  | 60 => ⟨S22x22, .i32⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S22x22, .i32⟩
  | 68 => ⟨S22x22, .i32⟩
  | 69 => ⟨S_, .i32⟩
  | 70 => ⟨S22x22, .i32⟩
  | 71 => ⟨S22x22, .i1⟩
  | 72 => ⟨S_, .i32⟩
  | 73 => ⟨S22x22, .i32⟩
  | 74 => ⟨S22x22, .i1⟩
  | 75 => ⟨S_, .i32⟩
  | 76 => ⟨S_, .i1⟩
  | 77 => ⟨S22x22, .i1⟩
  | 78 => ⟨S22x22, .i1⟩
  | 79 => ⟨S22x22, .i1⟩
  | 80 => ⟨S22x22, .i32⟩
  | 81 => ⟨S22x22, .i32⟩
  | 82 => ⟨S22x22, .i32⟩
  | 83 => ⟨S1x8192x8, .f32⟩
  | 84 => ⟨S8192x8, .f32⟩
  | 85 => ⟨S_, .i32⟩
  | 86 => ⟨S22x22, .i32⟩
  | 87 => ⟨S22x22, .i1⟩
  | 88 => ⟨S_, .i32⟩
  | 89 => ⟨S22x22, .i32⟩
  | 90 => ⟨S22x22, .i32⟩
  | 91 => ⟨S22x22, .i32⟩
  | 92 => ⟨S22x22x1, .i32⟩
  | 93 => ⟨S22x22x8, .f32⟩
  | 94 => ⟨S22x22x8, .f32⟩
  | 95 => ⟨S22x176, .f32⟩
  | 96 => ⟨S27, .i32⟩
  | 97 => ⟨S27, .i32⟩
  | 98 => ⟨S1x27, .i32⟩
  | 99 => ⟨S27x1, .i32⟩
  | 100 => ⟨S_, .i32⟩
  | 101 => ⟨S27x1, .i32⟩
  | 102 => ⟨S27x1, .i32⟩
  | 103 => ⟨S27x27, .i32⟩
  | 104 => ⟨S27x27, .i32⟩
  | 105 => ⟨S27x27, .i32⟩
  | 106 => ⟨S_, .i32⟩
  | 107 => ⟨S_, .i32⟩
  | 108 => ⟨S_, .i32⟩
  | 109 => ⟨S_, .i1⟩
  | 110 => ⟨S_, .i32⟩
  | 111 => ⟨S_, .i32⟩
  | 112 => ⟨S27x27, .i32⟩
  | 113 => ⟨S27x27, .i32⟩
  | 114 => ⟨S_, .i32⟩
  | 115 => ⟨S27x27, .i32⟩
  | 116 => ⟨S27x27, .i1⟩
  | 117 => ⟨S_, .i32⟩
  | 118 => ⟨S27x27, .i32⟩
  | 119 => ⟨S27x27, .i1⟩
  | 120 => ⟨S_, .i32⟩
  | 121 => ⟨S_, .i1⟩
  | 122 => ⟨S27x27, .i1⟩
  | 123 => ⟨S27x27, .i1⟩
  | 124 => ⟨S27x27, .i1⟩
  | 125 => ⟨S27x27, .i32⟩
  | 126 => ⟨S27x27, .i32⟩
  | 127 => ⟨S27x27, .i32⟩
  | _ => ⟨S262144x2, .f32⟩

abbrev hbmTy0_1 (i : Nat) : BufTy := match i % 128 with
  | 0 => ⟨S1x8192x8, .f32⟩
  | 1 => ⟨S8192x8, .f32⟩
  | 2 => ⟨S_, .i32⟩
  | 3 => ⟨S27x27, .i32⟩
  | 4 => ⟨S27x27, .i1⟩
  | 5 => ⟨S_, .i32⟩
  | 6 => ⟨S27x27, .i32⟩
  | 7 => ⟨S27x27, .i32⟩
  | 8 => ⟨S27x27, .i32⟩
  | 9 => ⟨S27x27x1, .i32⟩
  | 10 => ⟨S27x27x8, .f32⟩
  | 11 => ⟨S27x27x8, .f32⟩
  | 12 => ⟨S27x216, .f32⟩
  | 13 => ⟨S34, .i32⟩
  | 14 => ⟨S34, .i32⟩
  | 15 => ⟨S1x34, .i32⟩
  | 16 => ⟨S34x1, .i32⟩
  | 17 => ⟨S_, .i32⟩
  | 18 => ⟨S34x1, .i32⟩
  | 19 => ⟨S34x1, .i32⟩
  | 20 => ⟨S34x34, .i32⟩
  | 21 => ⟨S34x34, .i32⟩
  | 22 => ⟨S34x34, .i32⟩
  | 23 => ⟨S_, .i32⟩
  | 24 => ⟨S_, .i32⟩
  | 25 => ⟨S_, .i32⟩
  | 26 => ⟨S_, .i1⟩
  | 27 => ⟨S_, .i32⟩
  | 28 => ⟨S_, .i32⟩
  | 29 => ⟨S34x34, .i32⟩
  | 30 => ⟨S34x34, .i32⟩
  | 31 => ⟨S_, .i32⟩
  | 32 => ⟨S34x34, .i32⟩
  | 33 => ⟨S34x34, .i1⟩
  | 34 => ⟨S_, .i32⟩
  | 35 => ⟨S34x34, .i32⟩
  | 36 => ⟨S34x34, .i1⟩
  | 37 => ⟨S_, .i32⟩
  | 38 => ⟨S_, .i1⟩
  | 39 => ⟨S34x34, .i1⟩
  | 40 => ⟨S34x34, .i1⟩
  | 41 => ⟨S34x34, .i1⟩
  | 42 => ⟨S34x34, .i32⟩
  | 43 => ⟨S34x34, .i32⟩
  | 44 => ⟨S34x34, .i32⟩
  | 45 => ⟨S1x8192x8, .f32⟩
  | 46 => ⟨S8192x8, .f32⟩
  | 47 => ⟨S_, .i32⟩
  | 48 => ⟨S34x34, .i32⟩
  | 49 => ⟨S34x34, .i1⟩
  | 50 => ⟨S_, .i32⟩
  | 51 => ⟨S34x34, .i32⟩
  | 52 => ⟨S34x34, .i32⟩
  | 53 => ⟨S34x34, .i32⟩
  | 54 => ⟨S34x34x1, .i32⟩
  | 55 => ⟨S34x34x8, .f32⟩
  | 56 => ⟨S34x34x8, .f32⟩
  | 57 => ⟨S34x272, .f32⟩
  | 58 => ⟨S42, .i32⟩
  | 59 => ⟨S42, .i32⟩
  | 60 => ⟨S1x42, .i32⟩
  | 61 => ⟨S42x1, .i32⟩
  | 62 => ⟨S_, .i32⟩
  | 63 => ⟨S42x1, .i32⟩
  | 64 => ⟨S42x1, .i32⟩
  | 65 => ⟨S42x42, .i32⟩
  | 66 => ⟨S42x42, .i32⟩
  | 67 => ⟨S42x42, .i32⟩
  | 68 => ⟨S_, .i32⟩
  | 69 => ⟨S_, .i32⟩
  | 70 => ⟨S_, .i32⟩
  | 71 => ⟨S_, .i1⟩
  | 72 => ⟨S_, .i32⟩
  | 73 => ⟨S_, .i32⟩
  | 74 => ⟨S42x42, .i32⟩
  | 75 => ⟨S42x42, .i32⟩
  | 76 => ⟨S_, .i32⟩
  | 77 => ⟨S42x42, .i32⟩
  | 78 => ⟨S42x42, .i1⟩
  | 79 => ⟨S_, .i32⟩
  | 80 => ⟨S42x42, .i32⟩
  | 81 => ⟨S42x42, .i1⟩
  | 82 => ⟨S_, .i32⟩
  | 83 => ⟨S_, .i1⟩
  | 84 => ⟨S42x42, .i1⟩
  | 85 => ⟨S42x42, .i1⟩
  | 86 => ⟨S42x42, .i1⟩
  | 87 => ⟨S42x42, .i32⟩
  | 88 => ⟨S42x42, .i32⟩
  | 89 => ⟨S42x42, .i32⟩
  | 90 => ⟨S1x8192x8, .f32⟩
  | 91 => ⟨S8192x8, .f32⟩
  | 92 => ⟨S_, .i32⟩
  | 93 => ⟨S42x42, .i32⟩
  | 94 => ⟨S42x42, .i1⟩
  | 95 => ⟨S_, .i32⟩
  | 96 => ⟨S42x42, .i32⟩
  | 97 => ⟨S42x42, .i32⟩
  | 98 => ⟨S42x42, .i32⟩
  | 99 => ⟨S42x42x1, .i32⟩
  | 100 => ⟨S42x42x8, .f32⟩
  | 101 => ⟨S42x42x8, .f32⟩
  | 102 => ⟨S42x336, .f32⟩
  | 103 => ⟨S52, .i32⟩
  | 104 => ⟨S52, .i32⟩
  | 105 => ⟨S1x52, .i32⟩
  | 106 => ⟨S52x1, .i32⟩
  | 107 => ⟨S_, .i32⟩
  | 108 => ⟨S52x1, .i32⟩
  | 109 => ⟨S52x1, .i32⟩
  | 110 => ⟨S52x52, .i32⟩
  | 111 => ⟨S52x52, .i32⟩
  | 112 => ⟨S52x52, .i32⟩
  | 113 => ⟨S_, .i32⟩
  | 114 => ⟨S_, .i32⟩
  | 115 => ⟨S_, .i32⟩
  | 116 => ⟨S_, .i1⟩
  | 117 => ⟨S_, .i32⟩
  | 118 => ⟨S_, .i32⟩
  | 119 => ⟨S52x52, .i32⟩
  | 120 => ⟨S52x52, .i32⟩
  | 121 => ⟨S_, .i32⟩
  | 122 => ⟨S52x52, .i32⟩
  | 123 => ⟨S52x52, .i1⟩
  | 124 => ⟨S_, .i32⟩
  | 125 => ⟨S52x52, .i32⟩
  | 126 => ⟨S52x52, .i1⟩
  | 127 => ⟨S_, .i32⟩
  | _ => ⟨S262144x2, .f32⟩

abbrev hbmTy0_2 (i : Nat) : BufTy := match i % 128 with
  | 0 => ⟨S_, .i1⟩
  | 1 => ⟨S52x52, .i1⟩
  | 2 => ⟨S52x52, .i1⟩
  | 3 => ⟨S52x52, .i1⟩
  | 4 => ⟨S52x52, .i32⟩
  | 5 => ⟨S52x52, .i32⟩
  | 6 => ⟨S52x52, .i32⟩
  | 7 => ⟨S1x8192x8, .f32⟩
  | 8 => ⟨S8192x8, .f32⟩
  | 9 => ⟨S_, .i32⟩
  | 10 => ⟨S52x52, .i32⟩
  | 11 => ⟨S52x52, .i1⟩
  | 12 => ⟨S_, .i32⟩
  | 13 => ⟨S52x52, .i32⟩
  | 14 => ⟨S52x52, .i32⟩
  | 15 => ⟨S52x52, .i32⟩
  | 16 => ⟨S52x52x1, .i32⟩
  | 17 => ⟨S52x52x8, .f32⟩
  | 18 => ⟨S52x52x8, .f32⟩
  | 19 => ⟨S52x416, .f32⟩
  | 20 => ⟨S66, .i32⟩
  | 21 => ⟨S66, .i32⟩
  | 22 => ⟨S1x66, .i32⟩
  | 23 => ⟨S66x1, .i32⟩
  | 24 => ⟨S_, .i32⟩
  | 25 => ⟨S66x1, .i32⟩
  | 26 => ⟨S66x1, .i32⟩
  | 27 => ⟨S66x66, .i32⟩
  | 28 => ⟨S66x66, .i32⟩
  | 29 => ⟨S66x66, .i32⟩
  | 30 => ⟨S_, .i32⟩
  | 31 => ⟨S_, .i32⟩
  | 32 => ⟨S_, .i32⟩
  | 33 => ⟨S_, .i1⟩
  | 34 => ⟨S_, .i32⟩
  | 35 => ⟨S_, .i32⟩
  | 36 => ⟨S66x66, .i32⟩
  | 37 => ⟨S66x66, .i32⟩
  | 38 => ⟨S_, .i32⟩
  | 39 => ⟨S66x66, .i32⟩
  | 40 => ⟨S66x66, .i1⟩
  | 41 => ⟨S_, .i32⟩
  | 42 => ⟨S66x66, .i32⟩
  | 43 => ⟨S66x66, .i1⟩
  | 44 => ⟨S_, .i32⟩
  | 45 => ⟨S_, .i1⟩
  | 46 => ⟨S66x66, .i1⟩
  | 47 => ⟨S66x66, .i1⟩
  | 48 => ⟨S66x66, .i1⟩
  | 49 => ⟨S66x66, .i32⟩
  | 50 => ⟨S66x66, .i32⟩
  | 51 => ⟨S66x66, .i32⟩
  | 52 => ⟨S1x8192x8, .f32⟩
  | 53 => ⟨S8192x8, .f32⟩
  | 54 => ⟨S_, .i32⟩
  | 55 => ⟨S66x66, .i32⟩
  | 56 => ⟨S66x66, .i1⟩
  | 57 => ⟨S_, .i32⟩
  | 58 => ⟨S66x66, .i32⟩
  | 59 => ⟨S66x66, .i32⟩
  | 60 => ⟨S66x66, .i32⟩
  | 61 => ⟨S66x66x1, .i32⟩
  | 62 => ⟨S66x66x8, .f32⟩
  | 63 => ⟨S66x66x8, .f32⟩
  | 64 => ⟨S66x528, .f32⟩
  | 65 => ⟨S82, .i32⟩
  | 66 => ⟨S82, .i32⟩
  | 67 => ⟨S1x82, .i32⟩
  | 68 => ⟨S82x1, .i32⟩
  | 69 => ⟨S_, .i32⟩
  | 70 => ⟨S82x1, .i32⟩
  | 71 => ⟨S82x1, .i32⟩
  | 72 => ⟨S82x82, .i32⟩
  | 73 => ⟨S82x82, .i32⟩
  | 74 => ⟨S82x82, .i32⟩
  | 75 => ⟨S_, .i32⟩
  | 76 => ⟨S_, .i32⟩
  | 77 => ⟨S_, .i32⟩
  | 78 => ⟨S_, .i1⟩
  | 79 => ⟨S_, .i32⟩
  | 80 => ⟨S_, .i32⟩
  | 81 => ⟨S82x82, .i32⟩
  | 82 => ⟨S82x82, .i32⟩
  | 83 => ⟨S_, .i32⟩
  | 84 => ⟨S82x82, .i32⟩
  | 85 => ⟨S82x82, .i1⟩
  | 86 => ⟨S_, .i32⟩
  | 87 => ⟨S82x82, .i32⟩
  | 88 => ⟨S82x82, .i1⟩
  | 89 => ⟨S_, .i32⟩
  | 90 => ⟨S_, .i1⟩
  | 91 => ⟨S82x82, .i1⟩
  | 92 => ⟨S82x82, .i1⟩
  | 93 => ⟨S82x82, .i1⟩
  | 94 => ⟨S82x82, .i32⟩
  | 95 => ⟨S82x82, .i32⟩
  | 96 => ⟨S82x82, .i32⟩
  | 97 => ⟨S1x8192x8, .f32⟩
  | 98 => ⟨S8192x8, .f32⟩
  | 99 => ⟨S_, .i32⟩
  | 100 => ⟨S82x82, .i32⟩
  | 101 => ⟨S82x82, .i1⟩
  | 102 => ⟨S_, .i32⟩
  | 103 => ⟨S82x82, .i32⟩
  | 104 => ⟨S82x82, .i32⟩
  | 105 => ⟨S82x82, .i32⟩
  | 106 => ⟨S82x82x1, .i32⟩
  | 107 => ⟨S82x82x8, .f32⟩
  | 108 => ⟨S82x82x8, .f32⟩
  | 109 => ⟨S82x656, .f32⟩
  | 110 => ⟨S262144x1, .f32⟩
  | _ => ⟨S262144x2, .f32⟩

abbrev hbmTy (i : Nat) : BufTy := match i / 128 with
  | 0 => hbmTy0_0 i
  | 1 => hbmTy0_1 i
  | 2 => hbmTy0_2 i
  | _ => ⟨S262144x2, .f32⟩

abbrev bufTy : (tb : Table) → Fin (tcTables nBuf tb) → BufTy
  | .hbm, ⟨i, _⟩ => hbmTy i
  | .local _ .vmem, ⟨0, _⟩ => ⟨S512x2, .f32⟩
  | .local _ .vmem, ⟨1, _⟩ => ⟨S512x2, .f32⟩
  | .local _ .vmem, ⟨2, _⟩ => ⟨S17x136, .f32⟩
  | .local _ .vmem, ⟨3, _⟩ => ⟨S22x176, .f32⟩
  | .local _ .vmem, ⟨4, _⟩ => ⟨S27x216, .f32⟩
  | .local _ .vmem, ⟨5, _⟩ => ⟨S34x272, .f32⟩
  | .local _ .vmem, ⟨6, _⟩ => ⟨S42x336, .f32⟩
  | .local _ .vmem, ⟨7, _⟩ => ⟨S52x416, .f32⟩
  | .local _ .vmem, ⟨8, _⟩ => ⟨S66x528, .f32⟩
  | .local _ .vmem, ⟨9, _⟩ => ⟨S82x656, .f32⟩
  | .local _ .vmem, ⟨10, _⟩ => ⟨S64x256, .f32⟩
  | .local _ .vmem, ⟨11, _⟩ => ⟨S256x256, .f32⟩
  | .local _ .vmem, ⟨12, _⟩ => ⟨S256x256, .f32⟩
  | .local _ .vmem, ⟨13, _⟩ => ⟨S256x1, .f32⟩
  | .local _ .vmem, ⟨14, _⟩ => ⟨S512x1, .f32⟩
  | .local _ .vmem, ⟨15, _⟩ => ⟨S512x1, .f32⟩
  | _, _ => ⟨S262144x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_c_1 : Ref sig .tc := ⟨.hbm, 24, rfl⟩
abbrev main_call0_v5 : Ref sig .tc := ⟨.hbm, 25, rfl⟩
abbrev main_call0_v6 : Ref sig .tc := ⟨.hbm, 26, rfl⟩
abbrev main_call0_c_2 : Ref sig .tc := ⟨.hbm, 27, rfl⟩
abbrev main_call0_v7 : Ref sig .tc := ⟨.hbm, 28, rfl⟩
abbrev main_call0_v8 : Ref sig .tc := ⟨.hbm, 29, rfl⟩
abbrev main_call0_c_3 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_c_1 : Ref sig .tc := ⟨.hbm, 40, rfl⟩
abbrev main_v12 : Ref sig .tc := ⟨.hbm, 41, rfl⟩
abbrev main_v13 : Ref sig .tc := ⟨.hbm, 42, rfl⟩
abbrev main_c_2 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_c_3 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_c_4 : Ref sig .tc := ⟨.hbm, 61, rfl⟩
abbrev main_call1_v0 : Ref sig .tc := ⟨.hbm, 62, rfl⟩
abbrev main_call1_c : Ref sig .tc := ⟨.hbm, 63, rfl⟩
abbrev main_call1_v1 : Ref sig .tc := ⟨.hbm, 64, rfl⟩
abbrev main_call1_c_0 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_c_1 : Ref sig .tc := ⟨.hbm, 69, rfl⟩
abbrev main_call1_v5 : Ref sig .tc := ⟨.hbm, 70, rfl⟩
abbrev main_call1_v6 : Ref sig .tc := ⟨.hbm, 71, rfl⟩
abbrev main_call1_c_2 : Ref sig .tc := ⟨.hbm, 72, rfl⟩
abbrev main_call1_v7 : Ref sig .tc := ⟨.hbm, 73, rfl⟩
abbrev main_call1_v8 : Ref sig .tc := ⟨.hbm, 74, rfl⟩
abbrev main_call1_c_3 : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_call1_v12 : Ref sig .tc := ⟨.hbm, 79, rfl⟩
abbrev main_call1_v13 : Ref sig .tc := ⟨.hbm, 80, rfl⟩
abbrev main_call1_v14 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_c_5 : Ref sig .tc := ⟨.hbm, 85, rfl⟩
abbrev main_v33 : Ref sig .tc := ⟨.hbm, 86, rfl⟩
abbrev main_v34 : Ref sig .tc := ⟨.hbm, 87, rfl⟩
abbrev main_c_6 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_c_7 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_c_8 : Ref sig .tc := ⟨.hbm, 106, rfl⟩
abbrev main_call2_v0 : Ref sig .tc := ⟨.hbm, 107, rfl⟩
abbrev main_call2_c : Ref sig .tc := ⟨.hbm, 108, rfl⟩
abbrev main_call2_v1 : Ref sig .tc := ⟨.hbm, 109, rfl⟩
abbrev main_call2_c_0 : Ref sig .tc := ⟨.hbm, 110, rfl⟩
abbrev main_call2_v2 : Ref sig .tc := ⟨.hbm, 111, rfl⟩
abbrev main_call2_v3 : Ref sig .tc := ⟨.hbm, 112, rfl⟩
abbrev main_call2_v4 : Ref sig .tc := ⟨.hbm, 113, rfl⟩
abbrev main_call2_c_1 : Ref sig .tc := ⟨.hbm, 114, rfl⟩
abbrev main_call2_v5 : Ref sig .tc := ⟨.hbm, 115, rfl⟩
abbrev main_call2_v6 : Ref sig .tc := ⟨.hbm, 116, rfl⟩
abbrev main_call2_c_2 : Ref sig .tc := ⟨.hbm, 117, rfl⟩
abbrev main_call2_v7 : Ref sig .tc := ⟨.hbm, 118, rfl⟩
abbrev main_call2_v8 : Ref sig .tc := ⟨.hbm, 119, rfl⟩
abbrev main_call2_c_3 : Ref sig .tc := ⟨.hbm, 120, rfl⟩
abbrev main_call2_v9 : Ref sig .tc := ⟨.hbm, 121, rfl⟩
abbrev main_call2_v10 : Ref sig .tc := ⟨.hbm, 122, rfl⟩
abbrev main_call2_v11 : Ref sig .tc := ⟨.hbm, 123, rfl⟩
abbrev main_call2_v12 : Ref sig .tc := ⟨.hbm, 124, rfl⟩
abbrev main_call2_v13 : Ref sig .tc := ⟨.hbm, 125, rfl⟩
abbrev main_call2_v14 : Ref sig .tc := ⟨.hbm, 126, rfl⟩
abbrev main_v51 : Ref sig .tc := ⟨.hbm, 127, rfl⟩
abbrev main_v52 : Ref sig .tc := ⟨.hbm, 128, rfl⟩
abbrev main_v53 : Ref sig .tc := ⟨.hbm, 129, rfl⟩
abbrev main_c_9 : Ref sig .tc := ⟨.hbm, 130, rfl⟩
abbrev main_v54 : Ref sig .tc := ⟨.hbm, 131, rfl⟩
abbrev main_v55 : Ref sig .tc := ⟨.hbm, 132, rfl⟩
abbrev main_c_10 : Ref sig .tc := ⟨.hbm, 133, rfl⟩
abbrev main_v56 : Ref sig .tc := ⟨.hbm, 134, rfl⟩
abbrev main_v57 : Ref sig .tc := ⟨.hbm, 135, rfl⟩
abbrev main_v58 : Ref sig .tc := ⟨.hbm, 136, rfl⟩
abbrev main_v59 : Ref sig .tc := ⟨.hbm, 137, rfl⟩
abbrev main_v60 : Ref sig .tc := ⟨.hbm, 138, rfl⟩
abbrev main_v61 : Ref sig .tc := ⟨.hbm, 139, rfl⟩
abbrev main_v62 : Ref sig .tc := ⟨.hbm, 140, rfl⟩
abbrev main_v63 : Ref sig .tc := ⟨.hbm, 141, rfl⟩
abbrev main_v64 : Ref sig .tc := ⟨.hbm, 142, rfl⟩
abbrev main_v65 : Ref sig .tc := ⟨.hbm, 143, rfl⟩
abbrev main_v66 : Ref sig .tc := ⟨.hbm, 144, rfl⟩
abbrev main_c_11 : Ref sig .tc := ⟨.hbm, 145, rfl⟩
abbrev main_v67 : Ref sig .tc := ⟨.hbm, 146, rfl⟩
abbrev main_v68 : Ref sig .tc := ⟨.hbm, 147, rfl⟩
abbrev main_v69 : Ref sig .tc := ⟨.hbm, 148, rfl⟩
abbrev main_v70 : Ref sig .tc := ⟨.hbm, 149, rfl⟩
abbrev main_v71 : Ref sig .tc := ⟨.hbm, 150, rfl⟩
abbrev main_c_12 : Ref sig .tc := ⟨.hbm, 151, rfl⟩
abbrev main_call3_v0 : Ref sig .tc := ⟨.hbm, 152, rfl⟩
abbrev main_call3_c : Ref sig .tc := ⟨.hbm, 153, rfl⟩
abbrev main_call3_v1 : Ref sig .tc := ⟨.hbm, 154, rfl⟩
abbrev main_call3_c_0 : Ref sig .tc := ⟨.hbm, 155, rfl⟩
abbrev main_call3_v2 : Ref sig .tc := ⟨.hbm, 156, rfl⟩
abbrev main_call3_v3 : Ref sig .tc := ⟨.hbm, 157, rfl⟩
abbrev main_call3_v4 : Ref sig .tc := ⟨.hbm, 158, rfl⟩
abbrev main_call3_c_1 : Ref sig .tc := ⟨.hbm, 159, rfl⟩
abbrev main_call3_v5 : Ref sig .tc := ⟨.hbm, 160, rfl⟩
abbrev main_call3_v6 : Ref sig .tc := ⟨.hbm, 161, rfl⟩
abbrev main_call3_c_2 : Ref sig .tc := ⟨.hbm, 162, rfl⟩
abbrev main_call3_v7 : Ref sig .tc := ⟨.hbm, 163, rfl⟩
abbrev main_call3_v8 : Ref sig .tc := ⟨.hbm, 164, rfl⟩
abbrev main_call3_c_3 : Ref sig .tc := ⟨.hbm, 165, rfl⟩
abbrev main_call3_v9 : Ref sig .tc := ⟨.hbm, 166, rfl⟩
abbrev main_call3_v10 : Ref sig .tc := ⟨.hbm, 167, rfl⟩
abbrev main_call3_v11 : Ref sig .tc := ⟨.hbm, 168, rfl⟩
abbrev main_call3_v12 : Ref sig .tc := ⟨.hbm, 169, rfl⟩
abbrev main_call3_v13 : Ref sig .tc := ⟨.hbm, 170, rfl⟩
abbrev main_call3_v14 : Ref sig .tc := ⟨.hbm, 171, rfl⟩
abbrev main_v72 : Ref sig .tc := ⟨.hbm, 172, rfl⟩
abbrev main_v73 : Ref sig .tc := ⟨.hbm, 173, rfl⟩
abbrev main_v74 : Ref sig .tc := ⟨.hbm, 174, rfl⟩
abbrev main_c_13 : Ref sig .tc := ⟨.hbm, 175, rfl⟩
abbrev main_v75 : Ref sig .tc := ⟨.hbm, 176, rfl⟩
abbrev main_v76 : Ref sig .tc := ⟨.hbm, 177, rfl⟩
abbrev main_c_14 : Ref sig .tc := ⟨.hbm, 178, rfl⟩
abbrev main_v77 : Ref sig .tc := ⟨.hbm, 179, rfl⟩
abbrev main_v78 : Ref sig .tc := ⟨.hbm, 180, rfl⟩
abbrev main_v79 : Ref sig .tc := ⟨.hbm, 181, rfl⟩
abbrev main_v80 : Ref sig .tc := ⟨.hbm, 182, rfl⟩
abbrev main_v81 : Ref sig .tc := ⟨.hbm, 183, rfl⟩
abbrev main_v82 : Ref sig .tc := ⟨.hbm, 184, rfl⟩
abbrev main_v83 : Ref sig .tc := ⟨.hbm, 185, rfl⟩
abbrev main_v84 : Ref sig .tc := ⟨.hbm, 186, rfl⟩
abbrev main_v85 : Ref sig .tc := ⟨.hbm, 187, rfl⟩
abbrev main_v86 : Ref sig .tc := ⟨.hbm, 188, rfl⟩
abbrev main_v87 : Ref sig .tc := ⟨.hbm, 189, rfl⟩
abbrev main_c_15 : Ref sig .tc := ⟨.hbm, 190, rfl⟩
abbrev main_v88 : Ref sig .tc := ⟨.hbm, 191, rfl⟩
abbrev main_v89 : Ref sig .tc := ⟨.hbm, 192, rfl⟩
abbrev main_v90 : Ref sig .tc := ⟨.hbm, 193, rfl⟩
abbrev main_v91 : Ref sig .tc := ⟨.hbm, 194, rfl⟩
abbrev main_v92 : Ref sig .tc := ⟨.hbm, 195, rfl⟩
abbrev main_c_16 : Ref sig .tc := ⟨.hbm, 196, rfl⟩
abbrev main_call4_v0 : Ref sig .tc := ⟨.hbm, 197, rfl⟩
abbrev main_call4_c : Ref sig .tc := ⟨.hbm, 198, rfl⟩
abbrev main_call4_v1 : Ref sig .tc := ⟨.hbm, 199, rfl⟩
abbrev main_call4_c_0 : Ref sig .tc := ⟨.hbm, 200, rfl⟩
abbrev main_call4_v2 : Ref sig .tc := ⟨.hbm, 201, rfl⟩
abbrev main_call4_v3 : Ref sig .tc := ⟨.hbm, 202, rfl⟩
abbrev main_call4_v4 : Ref sig .tc := ⟨.hbm, 203, rfl⟩
abbrev main_call4_c_1 : Ref sig .tc := ⟨.hbm, 204, rfl⟩
abbrev main_call4_v5 : Ref sig .tc := ⟨.hbm, 205, rfl⟩
abbrev main_call4_v6 : Ref sig .tc := ⟨.hbm, 206, rfl⟩
abbrev main_call4_c_2 : Ref sig .tc := ⟨.hbm, 207, rfl⟩
abbrev main_call4_v7 : Ref sig .tc := ⟨.hbm, 208, rfl⟩
abbrev main_call4_v8 : Ref sig .tc := ⟨.hbm, 209, rfl⟩
abbrev main_call4_c_3 : Ref sig .tc := ⟨.hbm, 210, rfl⟩
abbrev main_call4_v9 : Ref sig .tc := ⟨.hbm, 211, rfl⟩
abbrev main_call4_v10 : Ref sig .tc := ⟨.hbm, 212, rfl⟩
abbrev main_call4_v11 : Ref sig .tc := ⟨.hbm, 213, rfl⟩
abbrev main_call4_v12 : Ref sig .tc := ⟨.hbm, 214, rfl⟩
abbrev main_call4_v13 : Ref sig .tc := ⟨.hbm, 215, rfl⟩
abbrev main_call4_v14 : Ref sig .tc := ⟨.hbm, 216, rfl⟩
abbrev main_v93 : Ref sig .tc := ⟨.hbm, 217, rfl⟩
abbrev main_v94 : Ref sig .tc := ⟨.hbm, 218, rfl⟩
abbrev main_v95 : Ref sig .tc := ⟨.hbm, 219, rfl⟩
abbrev main_c_17 : Ref sig .tc := ⟨.hbm, 220, rfl⟩
abbrev main_v96 : Ref sig .tc := ⟨.hbm, 221, rfl⟩
abbrev main_v97 : Ref sig .tc := ⟨.hbm, 222, rfl⟩
abbrev main_c_18 : Ref sig .tc := ⟨.hbm, 223, rfl⟩
abbrev main_v98 : Ref sig .tc := ⟨.hbm, 224, rfl⟩
abbrev main_v99 : Ref sig .tc := ⟨.hbm, 225, rfl⟩
abbrev main_v100 : Ref sig .tc := ⟨.hbm, 226, rfl⟩
abbrev main_v101 : Ref sig .tc := ⟨.hbm, 227, rfl⟩
abbrev main_v102 : Ref sig .tc := ⟨.hbm, 228, rfl⟩
abbrev main_v103 : Ref sig .tc := ⟨.hbm, 229, rfl⟩
abbrev main_v104 : Ref sig .tc := ⟨.hbm, 230, rfl⟩
abbrev main_v105 : Ref sig .tc := ⟨.hbm, 231, rfl⟩
abbrev main_v106 : Ref sig .tc := ⟨.hbm, 232, rfl⟩
abbrev main_v107 : Ref sig .tc := ⟨.hbm, 233, rfl⟩
abbrev main_v108 : Ref sig .tc := ⟨.hbm, 234, rfl⟩
abbrev main_c_19 : Ref sig .tc := ⟨.hbm, 235, rfl⟩
abbrev main_v109 : Ref sig .tc := ⟨.hbm, 236, rfl⟩
abbrev main_v110 : Ref sig .tc := ⟨.hbm, 237, rfl⟩
abbrev main_v111 : Ref sig .tc := ⟨.hbm, 238, rfl⟩
abbrev main_v112 : Ref sig .tc := ⟨.hbm, 239, rfl⟩
abbrev main_v113 : Ref sig .tc := ⟨.hbm, 240, rfl⟩
abbrev main_c_20 : Ref sig .tc := ⟨.hbm, 241, rfl⟩
abbrev main_call5_v0 : Ref sig .tc := ⟨.hbm, 242, rfl⟩
abbrev main_call5_c : Ref sig .tc := ⟨.hbm, 243, rfl⟩
abbrev main_call5_v1 : Ref sig .tc := ⟨.hbm, 244, rfl⟩
abbrev main_call5_c_0 : Ref sig .tc := ⟨.hbm, 245, rfl⟩
abbrev main_call5_v2 : Ref sig .tc := ⟨.hbm, 246, rfl⟩
abbrev main_call5_v3 : Ref sig .tc := ⟨.hbm, 247, rfl⟩
abbrev main_call5_v4 : Ref sig .tc := ⟨.hbm, 248, rfl⟩
abbrev main_call5_c_1 : Ref sig .tc := ⟨.hbm, 249, rfl⟩
abbrev main_call5_v5 : Ref sig .tc := ⟨.hbm, 250, rfl⟩
abbrev main_call5_v6 : Ref sig .tc := ⟨.hbm, 251, rfl⟩
abbrev main_call5_c_2 : Ref sig .tc := ⟨.hbm, 252, rfl⟩
abbrev main_call5_v7 : Ref sig .tc := ⟨.hbm, 253, rfl⟩
abbrev main_call5_v8 : Ref sig .tc := ⟨.hbm, 254, rfl⟩
abbrev main_call5_c_3 : Ref sig .tc := ⟨.hbm, 255, rfl⟩
abbrev main_call5_v9 : Ref sig .tc := ⟨.hbm, 256, rfl⟩
abbrev main_call5_v10 : Ref sig .tc := ⟨.hbm, 257, rfl⟩
abbrev main_call5_v11 : Ref sig .tc := ⟨.hbm, 258, rfl⟩
abbrev main_call5_v12 : Ref sig .tc := ⟨.hbm, 259, rfl⟩
abbrev main_call5_v13 : Ref sig .tc := ⟨.hbm, 260, rfl⟩
abbrev main_call5_v14 : Ref sig .tc := ⟨.hbm, 261, rfl⟩
abbrev main_v114 : Ref sig .tc := ⟨.hbm, 262, rfl⟩
abbrev main_v115 : Ref sig .tc := ⟨.hbm, 263, rfl⟩
abbrev main_v116 : Ref sig .tc := ⟨.hbm, 264, rfl⟩
abbrev main_c_21 : Ref sig .tc := ⟨.hbm, 265, rfl⟩
abbrev main_v117 : Ref sig .tc := ⟨.hbm, 266, rfl⟩
abbrev main_v118 : Ref sig .tc := ⟨.hbm, 267, rfl⟩
abbrev main_c_22 : Ref sig .tc := ⟨.hbm, 268, rfl⟩
abbrev main_v119 : Ref sig .tc := ⟨.hbm, 269, rfl⟩
abbrev main_v120 : Ref sig .tc := ⟨.hbm, 270, rfl⟩
abbrev main_v121 : Ref sig .tc := ⟨.hbm, 271, rfl⟩
abbrev main_v122 : Ref sig .tc := ⟨.hbm, 272, rfl⟩
abbrev main_v123 : Ref sig .tc := ⟨.hbm, 273, rfl⟩
abbrev main_v124 : Ref sig .tc := ⟨.hbm, 274, rfl⟩
abbrev main_v125 : Ref sig .tc := ⟨.hbm, 275, rfl⟩
abbrev main_v126 : Ref sig .tc := ⟨.hbm, 276, rfl⟩
abbrev main_v127 : Ref sig .tc := ⟨.hbm, 277, rfl⟩
abbrev main_v128 : Ref sig .tc := ⟨.hbm, 278, rfl⟩
abbrev main_v129 : Ref sig .tc := ⟨.hbm, 279, rfl⟩
abbrev main_c_23 : Ref sig .tc := ⟨.hbm, 280, rfl⟩
abbrev main_v130 : Ref sig .tc := ⟨.hbm, 281, rfl⟩
abbrev main_v131 : Ref sig .tc := ⟨.hbm, 282, rfl⟩
abbrev main_v132 : Ref sig .tc := ⟨.hbm, 283, rfl⟩
abbrev main_v133 : Ref sig .tc := ⟨.hbm, 284, rfl⟩
abbrev main_v134 : Ref sig .tc := ⟨.hbm, 285, rfl⟩
abbrev main_c_24 : Ref sig .tc := ⟨.hbm, 286, rfl⟩
abbrev main_call6_v0 : Ref sig .tc := ⟨.hbm, 287, rfl⟩
abbrev main_call6_c : Ref sig .tc := ⟨.hbm, 288, rfl⟩
abbrev main_call6_v1 : Ref sig .tc := ⟨.hbm, 289, rfl⟩
abbrev main_call6_c_0 : Ref sig .tc := ⟨.hbm, 290, rfl⟩
abbrev main_call6_v2 : Ref sig .tc := ⟨.hbm, 291, rfl⟩
abbrev main_call6_v3 : Ref sig .tc := ⟨.hbm, 292, rfl⟩
abbrev main_call6_v4 : Ref sig .tc := ⟨.hbm, 293, rfl⟩
abbrev main_call6_c_1 : Ref sig .tc := ⟨.hbm, 294, rfl⟩
abbrev main_call6_v5 : Ref sig .tc := ⟨.hbm, 295, rfl⟩
abbrev main_call6_v6 : Ref sig .tc := ⟨.hbm, 296, rfl⟩
abbrev main_call6_c_2 : Ref sig .tc := ⟨.hbm, 297, rfl⟩
abbrev main_call6_v7 : Ref sig .tc := ⟨.hbm, 298, rfl⟩
abbrev main_call6_v8 : Ref sig .tc := ⟨.hbm, 299, rfl⟩
abbrev main_call6_c_3 : Ref sig .tc := ⟨.hbm, 300, rfl⟩
abbrev main_call6_v9 : Ref sig .tc := ⟨.hbm, 301, rfl⟩
abbrev main_call6_v10 : Ref sig .tc := ⟨.hbm, 302, rfl⟩
abbrev main_call6_v11 : Ref sig .tc := ⟨.hbm, 303, rfl⟩
abbrev main_call6_v12 : Ref sig .tc := ⟨.hbm, 304, rfl⟩
abbrev main_call6_v13 : Ref sig .tc := ⟨.hbm, 305, rfl⟩
abbrev main_call6_v14 : Ref sig .tc := ⟨.hbm, 306, rfl⟩
abbrev main_v135 : Ref sig .tc := ⟨.hbm, 307, rfl⟩
abbrev main_v136 : Ref sig .tc := ⟨.hbm, 308, rfl⟩
abbrev main_v137 : Ref sig .tc := ⟨.hbm, 309, rfl⟩
abbrev main_c_25 : Ref sig .tc := ⟨.hbm, 310, rfl⟩
abbrev main_v138 : Ref sig .tc := ⟨.hbm, 311, rfl⟩
abbrev main_v139 : Ref sig .tc := ⟨.hbm, 312, rfl⟩
abbrev main_c_26 : Ref sig .tc := ⟨.hbm, 313, rfl⟩
abbrev main_v140 : Ref sig .tc := ⟨.hbm, 314, rfl⟩
abbrev main_v141 : Ref sig .tc := ⟨.hbm, 315, rfl⟩
abbrev main_v142 : Ref sig .tc := ⟨.hbm, 316, rfl⟩
abbrev main_v143 : Ref sig .tc := ⟨.hbm, 317, rfl⟩
abbrev main_v144 : Ref sig .tc := ⟨.hbm, 318, rfl⟩
abbrev main_v145 : Ref sig .tc := ⟨.hbm, 319, rfl⟩
abbrev main_v146 : Ref sig .tc := ⟨.hbm, 320, rfl⟩
abbrev main_v147 : Ref sig .tc := ⟨.hbm, 321, rfl⟩
abbrev main_v148 : Ref sig .tc := ⟨.hbm, 322, rfl⟩
abbrev main_v149 : Ref sig .tc := ⟨.hbm, 323, rfl⟩
abbrev main_v150 : Ref sig .tc := ⟨.hbm, 324, rfl⟩
abbrev main_c_27 : Ref sig .tc := ⟨.hbm, 325, rfl⟩
abbrev main_v151 : Ref sig .tc := ⟨.hbm, 326, rfl⟩
abbrev main_v152 : Ref sig .tc := ⟨.hbm, 327, rfl⟩
abbrev main_v153 : Ref sig .tc := ⟨.hbm, 328, rfl⟩
abbrev main_v154 : Ref sig .tc := ⟨.hbm, 329, rfl⟩
abbrev main_v155 : Ref sig .tc := ⟨.hbm, 330, rfl⟩
abbrev main_c_28 : Ref sig .tc := ⟨.hbm, 331, rfl⟩
abbrev main_call7_v0 : Ref sig .tc := ⟨.hbm, 332, rfl⟩
abbrev main_call7_c : Ref sig .tc := ⟨.hbm, 333, rfl⟩
abbrev main_call7_v1 : Ref sig .tc := ⟨.hbm, 334, rfl⟩
abbrev main_call7_c_0 : Ref sig .tc := ⟨.hbm, 335, rfl⟩
abbrev main_call7_v2 : Ref sig .tc := ⟨.hbm, 336, rfl⟩
abbrev main_call7_v3 : Ref sig .tc := ⟨.hbm, 337, rfl⟩
abbrev main_call7_v4 : Ref sig .tc := ⟨.hbm, 338, rfl⟩
abbrev main_call7_c_1 : Ref sig .tc := ⟨.hbm, 339, rfl⟩
abbrev main_call7_v5 : Ref sig .tc := ⟨.hbm, 340, rfl⟩
abbrev main_call7_v6 : Ref sig .tc := ⟨.hbm, 341, rfl⟩
abbrev main_call7_c_2 : Ref sig .tc := ⟨.hbm, 342, rfl⟩
abbrev main_call7_v7 : Ref sig .tc := ⟨.hbm, 343, rfl⟩
abbrev main_call7_v8 : Ref sig .tc := ⟨.hbm, 344, rfl⟩
abbrev main_call7_c_3 : Ref sig .tc := ⟨.hbm, 345, rfl⟩
abbrev main_call7_v9 : Ref sig .tc := ⟨.hbm, 346, rfl⟩
abbrev main_call7_v10 : Ref sig .tc := ⟨.hbm, 347, rfl⟩
abbrev main_call7_v11 : Ref sig .tc := ⟨.hbm, 348, rfl⟩
abbrev main_call7_v12 : Ref sig .tc := ⟨.hbm, 349, rfl⟩
abbrev main_call7_v13 : Ref sig .tc := ⟨.hbm, 350, rfl⟩
abbrev main_call7_v14 : Ref sig .tc := ⟨.hbm, 351, rfl⟩
abbrev main_v156 : Ref sig .tc := ⟨.hbm, 352, rfl⟩
abbrev main_v157 : Ref sig .tc := ⟨.hbm, 353, rfl⟩
abbrev main_v158 : Ref sig .tc := ⟨.hbm, 354, rfl⟩
abbrev main_c_29 : Ref sig .tc := ⟨.hbm, 355, rfl⟩
abbrev main_v159 : Ref sig .tc := ⟨.hbm, 356, rfl⟩
abbrev main_v160 : Ref sig .tc := ⟨.hbm, 357, rfl⟩
abbrev main_c_30 : Ref sig .tc := ⟨.hbm, 358, rfl⟩
abbrev main_v161 : Ref sig .tc := ⟨.hbm, 359, rfl⟩
abbrev main_v162 : Ref sig .tc := ⟨.hbm, 360, rfl⟩
abbrev main_v163 : Ref sig .tc := ⟨.hbm, 361, rfl⟩
abbrev main_v164 : Ref sig .tc := ⟨.hbm, 362, rfl⟩
abbrev main_v165 : Ref sig .tc := ⟨.hbm, 363, rfl⟩
abbrev main_v166 : Ref sig .tc := ⟨.hbm, 364, rfl⟩
abbrev main_v167 : Ref sig .tc := ⟨.hbm, 365, rfl⟩
abbrev main_v168 : Ref sig .tc := ⟨.hbm, 366, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S17x136 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S22x176 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S27x216 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S34x272 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S42x336 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S52x416 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S66x528 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S82x656 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  bcast_S17_S1x17_1 : S17.BroadcastsInDim S1x17 (![1] : Fin 1 → Fin S1x17.rank)
  bcast_S17_S17x1_0 : S17.BroadcastsInDim S17x1 (![0] : Fin 1 → Fin S17x1.rank)
  bcast_S_S17x1 : S_.BroadcastsInDim S17x1 (![] : Fin 0 → Fin S17x1.rank)
  bcast_S1x17_S17x17_0_1 : S1x17.BroadcastsInDim S17x17 (![0, 1] : Fin 2 → Fin S17x17.rank)
  bcast_S17x1_S17x17_0_1 : S17x1.BroadcastsInDim S17x17 (![0, 1] : Fin 2 → Fin S17x17.rank)
  bcast_S_S17x17 : S_.BroadcastsInDim S17x17 (![] : Fin 0 → Fin S17x17.rank)
  slices_S8x8192x8_S1x8192x8_0_0_0 : S8x8192x8.Slices ![0, 0, 0] S1x8192x8
  shapeCasts_S1x8192x8_S8192x8 : S1x8192x8.ShapeCasts S8192x8
  bcast_S17x17_S17x17x1_0_1 : S17x17.BroadcastsInDim S17x17x1 (![0, 1] : Fin 2 → Fin S17x17x1.rank)
  transposes_S17x17x8_S17x17x8_1_0_2 : S17x17x8.Transposes [1, 0, 2] S17x17x8
  shapeCasts_S17x17x8_S17x136 : S17x17x8.ShapeCasts S17x136
  bcast_S22_S1x22_1 : S22.BroadcastsInDim S1x22 (![1] : Fin 1 → Fin S1x22.rank)
  bcast_S22_S22x1_0 : S22.BroadcastsInDim S22x1 (![0] : Fin 1 → Fin S22x1.rank)
  bcast_S_S22x1 : S_.BroadcastsInDim S22x1 (![] : Fin 0 → Fin S22x1.rank)
  bcast_S1x22_S22x22_0_1 : S1x22.BroadcastsInDim S22x22 (![0, 1] : Fin 2 → Fin S22x22.rank)
  bcast_S22x1_S22x22_0_1 : S22x1.BroadcastsInDim S22x22 (![0, 1] : Fin 2 → Fin S22x22.rank)
  bcast_S_S22x22 : S_.BroadcastsInDim S22x22 (![] : Fin 0 → Fin S22x22.rank)
  slices_S8x8192x8_S1x8192x8_1_0_0 : S8x8192x8.Slices ![1, 0, 0] S1x8192x8
  bcast_S22x22_S22x22x1_0_1 : S22x22.BroadcastsInDim S22x22x1 (![0, 1] : Fin 2 → Fin S22x22x1.rank)
  transposes_S22x22x8_S22x22x8_1_0_2 : S22x22x8.Transposes [1, 0, 2] S22x22x8
  shapeCasts_S22x22x8_S22x176 : S22x22x8.ShapeCasts S22x176
  bcast_S27_S1x27_1 : S27.BroadcastsInDim S1x27 (![1] : Fin 1 → Fin S1x27.rank)
  bcast_S27_S27x1_0 : S27.BroadcastsInDim S27x1 (![0] : Fin 1 → Fin S27x1.rank)
  bcast_S_S27x1 : S_.BroadcastsInDim S27x1 (![] : Fin 0 → Fin S27x1.rank)
  bcast_S1x27_S27x27_0_1 : S1x27.BroadcastsInDim S27x27 (![0, 1] : Fin 2 → Fin S27x27.rank)
  bcast_S27x1_S27x27_0_1 : S27x1.BroadcastsInDim S27x27 (![0, 1] : Fin 2 → Fin S27x27.rank)
  bcast_S_S27x27 : S_.BroadcastsInDim S27x27 (![] : Fin 0 → Fin S27x27.rank)
  slices_S8x8192x8_S1x8192x8_2_0_0 : S8x8192x8.Slices ![2, 0, 0] S1x8192x8
  bcast_S27x27_S27x27x1_0_1 : S27x27.BroadcastsInDim S27x27x1 (![0, 1] : Fin 2 → Fin S27x27x1.rank)
  transposes_S27x27x8_S27x27x8_1_0_2 : S27x27x8.Transposes [1, 0, 2] S27x27x8
  shapeCasts_S27x27x8_S27x216 : S27x27x8.ShapeCasts S27x216
  bcast_S34_S1x34_1 : S34.BroadcastsInDim S1x34 (![1] : Fin 1 → Fin S1x34.rank)
  bcast_S34_S34x1_0 : S34.BroadcastsInDim S34x1 (![0] : Fin 1 → Fin S34x1.rank)
  bcast_S_S34x1 : S_.BroadcastsInDim S34x1 (![] : Fin 0 → Fin S34x1.rank)
  bcast_S1x34_S34x34_0_1 : S1x34.BroadcastsInDim S34x34 (![0, 1] : Fin 2 → Fin S34x34.rank)
  bcast_S34x1_S34x34_0_1 : S34x1.BroadcastsInDim S34x34 (![0, 1] : Fin 2 → Fin S34x34.rank)
  bcast_S_S34x34 : S_.BroadcastsInDim S34x34 (![] : Fin 0 → Fin S34x34.rank)
  slices_S8x8192x8_S1x8192x8_3_0_0 : S8x8192x8.Slices ![3, 0, 0] S1x8192x8
  bcast_S34x34_S34x34x1_0_1 : S34x34.BroadcastsInDim S34x34x1 (![0, 1] : Fin 2 → Fin S34x34x1.rank)
  transposes_S34x34x8_S34x34x8_1_0_2 : S34x34x8.Transposes [1, 0, 2] S34x34x8
  shapeCasts_S34x34x8_S34x272 : S34x34x8.ShapeCasts S34x272
  bcast_S42_S1x42_1 : S42.BroadcastsInDim S1x42 (![1] : Fin 1 → Fin S1x42.rank)
  bcast_S42_S42x1_0 : S42.BroadcastsInDim S42x1 (![0] : Fin 1 → Fin S42x1.rank)
  bcast_S_S42x1 : S_.BroadcastsInDim S42x1 (![] : Fin 0 → Fin S42x1.rank)
  bcast_S1x42_S42x42_0_1 : S1x42.BroadcastsInDim S42x42 (![0, 1] : Fin 2 → Fin S42x42.rank)
  bcast_S42x1_S42x42_0_1 : S42x1.BroadcastsInDim S42x42 (![0, 1] : Fin 2 → Fin S42x42.rank)
  bcast_S_S42x42 : S_.BroadcastsInDim S42x42 (![] : Fin 0 → Fin S42x42.rank)
  slices_S8x8192x8_S1x8192x8_4_0_0 : S8x8192x8.Slices ![4, 0, 0] S1x8192x8
  bcast_S42x42_S42x42x1_0_1 : S42x42.BroadcastsInDim S42x42x1 (![0, 1] : Fin 2 → Fin S42x42x1.rank)
  transposes_S42x42x8_S42x42x8_1_0_2 : S42x42x8.Transposes [1, 0, 2] S42x42x8
  shapeCasts_S42x42x8_S42x336 : S42x42x8.ShapeCasts S42x336
  bcast_S52_S1x52_1 : S52.BroadcastsInDim S1x52 (![1] : Fin 1 → Fin S1x52.rank)
  bcast_S52_S52x1_0 : S52.BroadcastsInDim S52x1 (![0] : Fin 1 → Fin S52x1.rank)
  bcast_S_S52x1 : S_.BroadcastsInDim S52x1 (![] : Fin 0 → Fin S52x1.rank)
  bcast_S1x52_S52x52_0_1 : S1x52.BroadcastsInDim S52x52 (![0, 1] : Fin 2 → Fin S52x52.rank)
  bcast_S52x1_S52x52_0_1 : S52x1.BroadcastsInDim S52x52 (![0, 1] : Fin 2 → Fin S52x52.rank)
  bcast_S_S52x52 : S_.BroadcastsInDim S52x52 (![] : Fin 0 → Fin S52x52.rank)
  slices_S8x8192x8_S1x8192x8_5_0_0 : S8x8192x8.Slices ![5, 0, 0] S1x8192x8
  bcast_S52x52_S52x52x1_0_1 : S52x52.BroadcastsInDim S52x52x1 (![0, 1] : Fin 2 → Fin S52x52x1.rank)
  transposes_S52x52x8_S52x52x8_1_0_2 : S52x52x8.Transposes [1, 0, 2] S52x52x8
  shapeCasts_S52x52x8_S52x416 : S52x52x8.ShapeCasts S52x416
  bcast_S66_S1x66_1 : S66.BroadcastsInDim S1x66 (![1] : Fin 1 → Fin S1x66.rank)
  bcast_S66_S66x1_0 : S66.BroadcastsInDim S66x1 (![0] : Fin 1 → Fin S66x1.rank)
  bcast_S_S66x1 : S_.BroadcastsInDim S66x1 (![] : Fin 0 → Fin S66x1.rank)
  bcast_S1x66_S66x66_0_1 : S1x66.BroadcastsInDim S66x66 (![0, 1] : Fin 2 → Fin S66x66.rank)
  bcast_S66x1_S66x66_0_1 : S66x1.BroadcastsInDim S66x66 (![0, 1] : Fin 2 → Fin S66x66.rank)
  bcast_S_S66x66 : S_.BroadcastsInDim S66x66 (![] : Fin 0 → Fin S66x66.rank)
  slices_S8x8192x8_S1x8192x8_6_0_0 : S8x8192x8.Slices ![6, 0, 0] S1x8192x8
  bcast_S66x66_S66x66x1_0_1 : S66x66.BroadcastsInDim S66x66x1 (![0, 1] : Fin 2 → Fin S66x66x1.rank)
  transposes_S66x66x8_S66x66x8_1_0_2 : S66x66x8.Transposes [1, 0, 2] S66x66x8
  shapeCasts_S66x66x8_S66x528 : S66x66x8.ShapeCasts S66x528
  bcast_S82_S1x82_1 : S82.BroadcastsInDim S1x82 (![1] : Fin 1 → Fin S1x82.rank)
  bcast_S82_S82x1_0 : S82.BroadcastsInDim S82x1 (![0] : Fin 1 → Fin S82x1.rank)
  bcast_S_S82x1 : S_.BroadcastsInDim S82x1 (![] : Fin 0 → Fin S82x1.rank)
  bcast_S1x82_S82x82_0_1 : S1x82.BroadcastsInDim S82x82 (![0, 1] : Fin 2 → Fin S82x82.rank)
  bcast_S82x1_S82x82_0_1 : S82x1.BroadcastsInDim S82x82 (![0, 1] : Fin 2 → Fin S82x82.rank)
  bcast_S_S82x82 : S_.BroadcastsInDim S82x82 (![] : Fin 0 → Fin S82x82.rank)
  slices_S8x8192x8_S1x8192x8_7_0_0 : S8x8192x8.Slices ![7, 0, 0] S1x8192x8
  bcast_S82x82_S82x82x1_0_1 : S82x82.BroadcastsInDim S82x82x1 (![0, 1] : Fin 2 → Fin S82x82x1.rank)
  transposes_S82x82x8_S82x82x8_1_0_2 : S82x82x8.Transposes [1, 0, 2] S82x82x8
  shapeCasts_S82x82x8_S82x656 : S82x82x8.ShapeCasts S82x656
  inb_S512x2_S512x2_0_0 : ∀ a, (![0, 0] : Fin 2 → Nat) a + S512x2.size a ≤ S512x2.size a
  h_S512x2 : 0 < S512x2.numel
  slices_S512x2_o0_0_S512x1 : S512x2.Slices ![0, 0] S512x1
  slices_S512x2_o0_1_S512x1 : S512x2.Slices ![0, 1] S512x1
  iota_S512x17_d1_w32 : S512x17.Iotas .tc 32 [1]
  broadcasts_S512x1_S512x17 : S512x1.Broadcasts S512x17
  shapeCasts_S512x1_S512x1 : S512x1.ShapeCasts S512x1
  inb_S17x136_S17x136_0_0 : ∀ a, (![0, 0] : Fin 2 → Nat) a + S17x136.size a ≤ S17x136.size a
  h_S17x136 : 0 < S17x136.numel
  shapeCasts_S17x136_S17x136 : S17x136.ShapeCasts S17x136
  bitsLt_bf16_f32 : FTy.bits .bf16 < FTy.bits .f32
  shapeCasts_S512x136_S512x17x8 : S512x136.ShapeCasts S512x17x8
  shapeCasts_S512x17_S512x17x1 : S512x17.ShapeCasts S512x17x1
  broadcasts_S512x17x1_S512x17x8 : S512x17x1.Broadcasts S512x17x8
  reduces_S512x17x8_S512x8 : S512x17x8.Reduces [1] S512x8
  iota_S512x22_d1_w32 : S512x22.Iotas .tc 32 [1]
  broadcasts_S512x1_S512x22 : S512x1.Broadcasts S512x22
  inb_S22x176_S22x176_0_0 : ∀ a, (![0, 0] : Fin 2 → Nat) a + S22x176.size a ≤ S22x176.size a
  h_S22x176 : 0 < S22x176.numel
  shapeCasts_S22x176_S22x176 : S22x176.ShapeCasts S22x176
  shapeCasts_S512x176_S512x22x8 : S512x176.ShapeCasts S512x22x8
  shapeCasts_S512x22_S512x22x1 : S512x22.ShapeCasts S512x22x1
  broadcasts_S512x22x1_S512x22x8 : S512x22x1.Broadcasts S512x22x8
  reduces_S512x22x8_S512x8 : S512x22x8.Reduces [1] S512x8
  iota_S512x27_d1_w32 : S512x27.Iotas .tc 32 [1]
  broadcasts_S512x1_S512x27 : S512x1.Broadcasts S512x27
  inb_S27x216_S27x216_0_0 : ∀ a, (![0, 0] : Fin 2 → Nat) a + S27x216.size a ≤ S27x216.size a
  h_S27x216 : 0 < S27x216.numel
  shapeCasts_S27x216_S27x216 : S27x216.ShapeCasts S27x216
  shapeCasts_S512x216_S512x27x8 : S512x216.ShapeCasts S512x27x8
  shapeCasts_S512x27_S512x27x1 : S512x27.ShapeCasts S512x27x1
  broadcasts_S512x27x1_S512x27x8 : S512x27x1.Broadcasts S512x27x8
  reduces_S512x27x8_S512x8 : S512x27x8.Reduces [1] S512x8
  iota_S512x34_d1_w32 : S512x34.Iotas .tc 32 [1]
  broadcasts_S512x1_S512x34 : S512x1.Broadcasts S512x34
  inb_S34x272_S34x272_0_0 : ∀ a, (![0, 0] : Fin 2 → Nat) a + S34x272.size a ≤ S34x272.size a
  h_S34x272 : 0 < S34x272.numel
  shapeCasts_S34x272_S34x272 : S34x272.ShapeCasts S34x272
  shapeCasts_S512x272_S512x34x8 : S512x272.ShapeCasts S512x34x8
  shapeCasts_S512x34_S512x34x1 : S512x34.ShapeCasts S512x34x1
  broadcasts_S512x34x1_S512x34x8 : S512x34x1.Broadcasts S512x34x8
  reduces_S512x34x8_S512x8 : S512x34x8.Reduces [1] S512x8
  iota_S512x42_d1_w32 : S512x42.Iotas .tc 32 [1]
  broadcasts_S512x1_S512x42 : S512x1.Broadcasts S512x42
  inb_S42x336_S42x336_0_0 : ∀ a, (![0, 0] : Fin 2 → Nat) a + S42x336.size a ≤ S42x336.size a
  h_S42x336 : 0 < S42x336.numel
  shapeCasts_S42x336_S42x336 : S42x336.ShapeCasts S42x336
  shapeCasts_S512x336_S512x42x8 : S512x336.ShapeCasts S512x42x8
  shapeCasts_S512x42_S512x42x1 : S512x42.ShapeCasts S512x42x1
  broadcasts_S512x42x1_S512x42x8 : S512x42x1.Broadcasts S512x42x8
  reduces_S512x42x8_S512x8 : S512x42x8.Reduces [1] S512x8
  iota_S512x52_d1_w32 : S512x52.Iotas .tc 32 [1]
  broadcasts_S512x1_S512x52 : S512x1.Broadcasts S512x52
  inb_S52x416_S52x416_0_0 : ∀ a, (![0, 0] : Fin 2 → Nat) a + S52x416.size a ≤ S52x416.size a
  h_S52x416 : 0 < S52x416.numel
  shapeCasts_S52x416_S52x416 : S52x416.ShapeCasts S52x416
  shapeCasts_S512x416_S512x52x8 : S512x416.ShapeCasts S512x52x8
  shapeCasts_S512x52_S512x52x1 : S512x52.ShapeCasts S512x52x1
  broadcasts_S512x52x1_S512x52x8 : S512x52x1.Broadcasts S512x52x8
  reduces_S512x52x8_S512x8 : S512x52x8.Reduces [1] S512x8
  iota_S512x66_d1_w32 : S512x66.Iotas .tc 32 [1]
  broadcasts_S512x1_S512x66 : S512x1.Broadcasts S512x66
  inb_S66x528_S66x528_0_0 : ∀ a, (![0, 0] : Fin 2 → Nat) a + S66x528.size a ≤ S66x528.size a
  h_S66x528 : 0 < S66x528.numel
  shapeCasts_S66x528_S66x528 : S66x528.ShapeCasts S66x528
  shapeCasts_S512x528_S512x66x8 : S512x528.ShapeCasts S512x66x8
  shapeCasts_S512x66_S512x66x1 : S512x66.ShapeCasts S512x66x1
  broadcasts_S512x66x1_S512x66x8 : S512x66x1.Broadcasts S512x66x8
  reduces_S512x66x8_S512x8 : S512x66x8.Reduces [1] S512x8
  iota_S512x82_d1_w32 : S512x82.Iotas .tc 32 [1]
  broadcasts_S512x1_S512x82 : S512x1.Broadcasts S512x82
  inb_S82x656_S82x656_0_0 : ∀ a, (![0, 0] : Fin 2 → Nat) a + S82x656.size a ≤ S82x656.size a
  h_S82x656 : 0 < S82x656.numel
  shapeCasts_S82x656_S82x656 : S82x656.ShapeCasts S82x656
  shapeCasts_S512x656_S512x82x8 : S512x656.ShapeCasts S512x82x8
  shapeCasts_S512x82_S512x82x1 : S512x82.ShapeCasts S512x82x1
  broadcasts_S512x82x1_S512x82x8 : S512x82x1.Broadcasts S512x82x8
  reduces_S512x82x8_S512x8 : S512x82x8.Reduces [1] S512x8
  concatenates_S512x8_S512x8_S512x8_S512x8_S512x8_S512x8_S512x8_S512x8_S512x64_d1 : Shape.Concatenates [S512x8, S512x8, S512x8, S512x8, S512x8, S512x8, S512x8, S512x8] S512x64 1
  inb_S64x256_S64x256_0_0 : ∀ a, (![0, 0] : Fin 2 → Nat) a + S64x256.size a ≤ S64x256.size a
  h_S64x256 : 0 < S64x256.numel
  inb_S256x256_S256x256_0_0 : ∀ a, (![0, 0] : Fin 2 → Nat) a + S256x256.size a ≤ S256x256.size a
  h_S256x256 : 0 < S256x256.numel
  inb_S256x1_S256x1_0_0 : ∀ a, (![0, 0] : Fin 2 → Nat) a + S256x1.size a ≤ S256x1.size a
  h_S256x1 : 0 < S256x1.numel
  inb_S512x1_S512x1_0_0 : ∀ a, (![0, 0] : Fin 2 → Nat) a + S512x1.size a ≤ S512x1.size a
  h_S512x1 : 0 < S512x1.numel
  gather_S8192x8_S17x17x1_S17x17x8_2_0_n_n_0_2_18_wf : GatherDims.WF S8192x8 S17x17x1 S17x17x8 [2] [0] [] [0] [] 2 ![1, 8]
  gather_S8192x8_S22x22x1_S22x22x8_2_0_n_n_0_2_18_wf : GatherDims.WF S8192x8 S22x22x1 S22x22x8 [2] [0] [] [0] [] 2 ![1, 8]
  gather_S8192x8_S27x27x1_S27x27x8_2_0_n_n_0_2_18_wf : GatherDims.WF S8192x8 S27x27x1 S27x27x8 [2] [0] [] [0] [] 2 ![1, 8]
  gather_S8192x8_S34x34x1_S34x34x8_2_0_n_n_0_2_18_wf : GatherDims.WF S8192x8 S34x34x1 S34x34x8 [2] [0] [] [0] [] 2 ![1, 8]
  gather_S8192x8_S42x42x1_S42x42x8_2_0_n_n_0_2_18_wf : GatherDims.WF S8192x8 S42x42x1 S42x42x8 [2] [0] [] [0] [] 2 ![1, 8]
  gather_S8192x8_S52x52x1_S52x52x8_2_0_n_n_0_2_18_wf : GatherDims.WF S8192x8 S52x52x1 S52x52x8 [2] [0] [] [0] [] 2 ![1, 8]
  gather_S8192x8_S66x66x1_S66x66x8_2_0_n_n_0_2_18_wf : GatherDims.WF S8192x8 S66x66x1 S66x66x8 [2] [0] [] [0] [] 2 ![1, 8]
  gather_S8192x8_S82x82x1_S82x82x8_2_0_n_n_0_2_18_wf : GatherDims.WF S8192x8 S82x82x1 S82x82x8 [2] [0] [] [0] [] 2 ![1, 8]
  dot_S512x17_S17x136_S512x136_1_0_0_1_n_n_wf : DotDims.WF S512x17 S17x136 S512x136 [1] [0] [0] [1] [] []
  dot_S512x22_S22x176_S512x176_1_0_0_1_n_n_wf : DotDims.WF S512x22 S22x176 S512x176 [1] [0] [0] [1] [] []
  dot_S512x27_S27x216_S512x216_1_0_0_1_n_n_wf : DotDims.WF S512x27 S27x216 S512x216 [1] [0] [0] [1] [] []
  dot_S512x34_S34x272_S512x272_1_0_0_1_n_n_wf : DotDims.WF S512x34 S34x272 S512x272 [1] [0] [0] [1] [] []
  dot_S512x42_S42x336_S512x336_1_0_0_1_n_n_wf : DotDims.WF S512x42 S42x336 S512x336 [1] [0] [0] [1] [] []
  dot_S512x52_S52x416_S512x416_1_0_0_1_n_n_wf : DotDims.WF S512x52 S52x416 S512x416 [1] [0] [0] [1] [] []
  dot_S512x66_S66x528_S512x528_1_0_0_1_n_n_wf : DotDims.WF S512x66 S66x528 S512x528 [1] [0] [0] [1] [] []
  dot_S512x82_S82x656_S512x656_1_0_0_1_n_n_wf : DotDims.WF S512x82 S82x656 S512x656 [1] [0] [0] [1] [] []
  dot_S512x64_S64x256_S512x256_1_0_0_1_n_n_wf : DotDims.WF S512x64 S64x256 S512x256 [1] [0] [0] [1] [] []
  dot_S512x256_S256x256_S512x256_1_0_0_1_n_n_wf : DotDims.WF S512x256 S256x256 S512x256 [1] [0] [0] [1] [] []
  dot_S512x256_S256x1_S512x1_1_0_0_1_n_n_wf : DotDims.WF S512x256 S256x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2.size a ≤ S262144x2.size a
  hwx0_0 : ∀ i : grid0.Coords, EltTy.bits .f32 = 32 ∨ (Rect.block (s := S262144x2) S512x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S17x136.size a ≤ S17x136.size a
  hwx0_1 : ∀ i : grid0.Coords, EltTy.bits .f32 = 32 ∨ (Rect.block (s := S17x136) S17x136.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S22x176.size a ≤ S22x176.size a
  hwx0_2 : ∀ i : grid0.Coords, EltTy.bits .f32 = 32 ∨ (Rect.block (s := S22x176) S22x176.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S27x216.size a ≤ S27x216.size a
  hwx0_3 : ∀ i : grid0.Coords, EltTy.bits .f32 = 32 ∨ (Rect.block (s := S27x216) S27x216.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S34x272.size a ≤ S34x272.size a
  hwx0_4 : ∀ i : grid0.Coords, EltTy.bits .f32 = 32 ∨ (Rect.block (s := S34x272) S34x272.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S42x336.size a ≤ S42x336.size a
  hwx0_5 : ∀ i : grid0.Coords, EltTy.bits .f32 = 32 ∨ (Rect.block (s := S42x336) S42x336.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S52x416.size a ≤ S52x416.size a
  hwx0_6 : ∀ i : grid0.Coords, EltTy.bits .f32 = 32 ∨ (Rect.block (s := S52x416) S52x416.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S66x528.size a ≤ S66x528.size a
  hwx0_7 : ∀ i : grid0.Coords, EltTy.bits .f32 = 32 ∨ (Rect.block (s := S66x528) S66x528.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S82x656.size a ≤ S82x656.size a
  hwx0_8 : ∀ i : grid0.Coords, EltTy.bits .f32 = 32 ∨ (Rect.block (s := S82x656) S82x656.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x256.size a ≤ S64x256.size a
  hwx0_9 : ∀ i : grid0.Coords, EltTy.bits .f32 = 32 ∨ (Rect.block (s := S64x256) S64x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x256.size a ≤ S256x256.size a
  hwx0_10 : ∀ i : grid0.Coords, EltTy.bits .f32 = 32 ∨ (Rect.block (s := S256x256) S256x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x256.size a ≤ S256x256.size a
  hwx0_11 : ∀ i : grid0.Coords, EltTy.bits .f32 = 32 ∨ (Rect.block (s := S256x256) S256x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x1.size a ≤ S256x1.size a
  hwx0_12 : ∀ i : grid0.Coords, EltTy.bits .f32 = 32 ∨ (Rect.block (s := S256x1) S256x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S512x1.size a ≤ S262144x1.size a
  hwx0_13 : ∀ i : grid0.Coords, EltTy.bits .f32 = 32 ∨ (Rect.block (s := S262144x1) S512x1.size (cc0_transform_13 i) (hinb0_13 i)).WholeWords (EltTy.packing .f32)

variable [Facts₀]

def gather_S8192x8_S17x17x1_S17x17x8_2_0_n_n_0_2_18 : GatherDims S8192x8 S17x17x1 S17x17x8 where
  offsetDims := [2]
  collapsedSliceDims := [0]
  operandBatchingDims := []
  startIndicesBatchingDims := []
  startIndexMap := [0]
  indexVectorDim := 2
  sliceSizes := ![1, 8]
  wf := gather_S8192x8_S17x17x1_S17x17x8_2_0_n_n_0_2_18_wf
def gather_S8192x8_S22x22x1_S22x22x8_2_0_n_n_0_2_18 : GatherDims S8192x8 S22x22x1 S22x22x8 where
  offsetDims := [2]
  collapsedSliceDims := [0]
  operandBatchingDims := []
  startIndicesBatchingDims := []
  startIndexMap := [0]
  indexVectorDim := 2
  sliceSizes := ![1, 8]
  wf := gather_S8192x8_S22x22x1_S22x22x8_2_0_n_n_0_2_18_wf
def gather_S8192x8_S27x27x1_S27x27x8_2_0_n_n_0_2_18 : GatherDims S8192x8 S27x27x1 S27x27x8 where
  offsetDims := [2]
  collapsedSliceDims := [0]
  operandBatchingDims := []
  startIndicesBatchingDims := []
  startIndexMap := [0]
  indexVectorDim := 2
  sliceSizes := ![1, 8]
  wf := gather_S8192x8_S27x27x1_S27x27x8_2_0_n_n_0_2_18_wf
def gather_S8192x8_S34x34x1_S34x34x8_2_0_n_n_0_2_18 : GatherDims S8192x8 S34x34x1 S34x34x8 where
  offsetDims := [2]
  collapsedSliceDims := [0]
  operandBatchingDims := []
  startIndicesBatchingDims := []
  startIndexMap := [0]
  indexVectorDim := 2
  sliceSizes := ![1, 8]
  wf := gather_S8192x8_S34x34x1_S34x34x8_2_0_n_n_0_2_18_wf
def gather_S8192x8_S42x42x1_S42x42x8_2_0_n_n_0_2_18 : GatherDims S8192x8 S42x42x1 S42x42x8 where
  offsetDims := [2]
  collapsedSliceDims := [0]
  operandBatchingDims := []
  startIndicesBatchingDims := []
  startIndexMap := [0]
  indexVectorDim := 2
  sliceSizes := ![1, 8]
  wf := gather_S8192x8_S42x42x1_S42x42x8_2_0_n_n_0_2_18_wf
def gather_S8192x8_S52x52x1_S52x52x8_2_0_n_n_0_2_18 : GatherDims S8192x8 S52x52x1 S52x52x8 where
  offsetDims := [2]
  collapsedSliceDims := [0]
  operandBatchingDims := []
  startIndicesBatchingDims := []
  startIndexMap := [0]
  indexVectorDim := 2
  sliceSizes := ![1, 8]
  wf := gather_S8192x8_S52x52x1_S52x52x8_2_0_n_n_0_2_18_wf
def gather_S8192x8_S66x66x1_S66x66x8_2_0_n_n_0_2_18 : GatherDims S8192x8 S66x66x1 S66x66x8 where
  offsetDims := [2]
  collapsedSliceDims := [0]
  operandBatchingDims := []
  startIndicesBatchingDims := []
  startIndexMap := [0]
  indexVectorDim := 2
  sliceSizes := ![1, 8]
  wf := gather_S8192x8_S66x66x1_S66x66x8_2_0_n_n_0_2_18_wf
def gather_S8192x8_S82x82x1_S82x82x8_2_0_n_n_0_2_18 : GatherDims S8192x8 S82x82x1 S82x82x8 where
  offsetDims := [2]
  collapsedSliceDims := [0]
  operandBatchingDims := []
  startIndicesBatchingDims := []
  startIndexMap := [0]
  indexVectorDim := 2
  sliceSizes := ![1, 8]
  wf := gather_S8192x8_S82x82x1_S82x82x8_2_0_n_n_0_2_18_wf
def dot_S512x17_S17x136_S512x136_1_0_0_1_n_n : DotDims S512x17 S17x136 S512x136 where
  lhsContracting := [1]
  rhsContracting := [0]
  lhsNonContracting := [0]
  rhsNonContracting := [1]
  lhsBatch := []
  rhsBatch := []
  wf := dot_S512x17_S17x136_S512x136_1_0_0_1_n_n_wf
def dot_S512x22_S22x176_S512x176_1_0_0_1_n_n : DotDims S512x22 S22x176 S512x176 where
  lhsContracting := [1]
  rhsContracting := [0]
  lhsNonContracting := [0]
  rhsNonContracting := [1]
  lhsBatch := []
  rhsBatch := []
  wf := dot_S512x22_S22x176_S512x176_1_0_0_1_n_n_wf
def dot_S512x27_S27x216_S512x216_1_0_0_1_n_n : DotDims S512x27 S27x216 S512x216 where
  lhsContracting := [1]
  rhsContracting := [0]
  lhsNonContracting := [0]
  rhsNonContracting := [1]
  lhsBatch := []
  rhsBatch := []
  wf := dot_S512x27_S27x216_S512x216_1_0_0_1_n_n_wf
def dot_S512x34_S34x272_S512x272_1_0_0_1_n_n : DotDims S512x34 S34x272 S512x272 where
  lhsContracting := [1]
  rhsContracting := [0]
  lhsNonContracting := [0]
  rhsNonContracting := [1]
  lhsBatch := []
  rhsBatch := []
  wf := dot_S512x34_S34x272_S512x272_1_0_0_1_n_n_wf
def dot_S512x42_S42x336_S512x336_1_0_0_1_n_n : DotDims S512x42 S42x336 S512x336 where
  lhsContracting := [1]
  rhsContracting := [0]
  lhsNonContracting := [0]
  rhsNonContracting := [1]
  lhsBatch := []
  rhsBatch := []
  wf := dot_S512x42_S42x336_S512x336_1_0_0_1_n_n_wf
def dot_S512x52_S52x416_S512x416_1_0_0_1_n_n : DotDims S512x52 S52x416 S512x416 where
  lhsContracting := [1]
  rhsContracting := [0]
  lhsNonContracting := [0]
  rhsNonContracting := [1]
  lhsBatch := []
  rhsBatch := []
  wf := dot_S512x52_S52x416_S512x416_1_0_0_1_n_n_wf
def dot_S512x66_S66x528_S512x528_1_0_0_1_n_n : DotDims S512x66 S66x528 S512x528 where
  lhsContracting := [1]
  rhsContracting := [0]
  lhsNonContracting := [0]
  rhsNonContracting := [1]
  lhsBatch := []
  rhsBatch := []
  wf := dot_S512x66_S66x528_S512x528_1_0_0_1_n_n_wf
def dot_S512x82_S82x656_S512x656_1_0_0_1_n_n : DotDims S512x82 S82x656 S512x656 where
  lhsContracting := [1]
  rhsContracting := [0]
  lhsNonContracting := [0]
  rhsNonContracting := [1]
  lhsBatch := []
  rhsBatch := []
  wf := dot_S512x82_S82x656_S512x656_1_0_0_1_n_n_wf
def dot_S512x64_S64x256_S512x256_1_0_0_1_n_n : DotDims S512x64 S64x256 S512x256 where
  lhsContracting := [1]
  rhsContracting := [0]
  lhsNonContracting := [0]
  rhsNonContracting := [1]
  lhsBatch := []
  rhsBatch := []
  wf := dot_S512x64_S64x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S256x1_S512x1_1_0_0_1_n_n : DotDims S512x256 S256x1 S512x1 where
  lhsContracting := [1]
  rhsContracting := [0]
  lhsNonContracting := [0]
  rhsNonContracting := [1]
  lhsBatch := []
  rhsBatch := []
  wf := dot_S512x256_S256x1_S512x1_1_0_0_1_n_n_wf

abbrev win0_0 : Pipeline.Window sig grid0 :=
  Pipeline.Window.ofSpec (Memref.whole main_arg0) S512x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S17x136.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v41) S22x176.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v62) S27x216.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v83) S34x272.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v104) S42x336.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v125) S52x416.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v146) S66x528.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v167) S82x656.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg2) S64x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg3) S256x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg4) S256x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg5) S256x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v168) S512x1.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S262144x2 : Shape := ⟨2, ![262144, 2]⟩
abbrev S8x8192x8 : Shape := ⟨3, ![8, 8192, 8]⟩
abbrev S64x256 : Shape := ⟨2, ![64, 256]⟩
abbrev S256x256 : Shape := ⟨2, ![256, 256]⟩
abbrev S256x1 : Shape := ⟨2, ![256, 1]⟩
abbrev S_ : Shape := ⟨0, ![]⟩
abbrev S262144x8 : Shape := ⟨2, ![262144, 8]⟩
abbrev S262144x1 : Shape := ⟨2, ![262144, 1]⟩
abbrev S262144 : Shape := ⟨1, ![262144]⟩
abbrev S262144x64 : Shape := ⟨2, ![262144, 64]⟩
abbrev S262144x256 : Shape := ⟨2, ![262144, 256]⟩

abbrev nBuf : Space → Nat
  | .hbm => 2100
  | .vmem => 0
  | .smem => 0
  | _ => 0

abbrev hbmTy0_0 (i : Nat) : BufTy := match i % 128 with
  | 0 => ⟨S262144x2, .f32⟩
  | 1 => ⟨S8x8192x8, .f32⟩
  | 2 => ⟨S64x256, .f32⟩
  | 3 => ⟨S256x256, .f32⟩
  | 4 => ⟨S256x256, .f32⟩
  | 5 => ⟨S256x1, .f32⟩
  | 6 => ⟨S_, .f32⟩
  | 7 => ⟨S262144x2, .f32⟩
  | 8 => ⟨S262144x2, .f32⟩
  | 9 => ⟨S_, .f32⟩
  | 10 => ⟨S262144x2, .f32⟩
  | 11 => ⟨S262144x2, .f32⟩
  | 12 => ⟨S262144x2, .f32⟩
  | 13 => ⟨S262144x2, .f32⟩
  | 14 => ⟨S262144x2, .i32⟩
  | 15 => ⟨S262144x2, .f32⟩
  | 16 => ⟨S_, .f32⟩
  | 17 => ⟨S262144x2, .f32⟩
  | 18 => ⟨S262144x2, .f32⟩
  | 19 => ⟨S_, .f32⟩
  | 20 => ⟨S262144x2, .f32⟩
  | 21 => ⟨S262144x2, .f32⟩
  | 22 => ⟨S262144x2, .f32⟩
  | 23 => ⟨S_, .f32⟩
  | 24 => ⟨S262144x8, .f32⟩
  | 25 => ⟨S262144x1, .f32⟩
  | 26 => ⟨S262144, .f32⟩
  | 27 => ⟨S_, .f32⟩
  | 28 => ⟨S262144, .f32⟩
  | 29 => ⟨S262144, .f32⟩
  | 30 => ⟨S262144x1, .f32⟩
  | 31 => ⟨S262144, .f32⟩
  | 32 => ⟨S_, .f32⟩
  | 33 => ⟨S262144, .f32⟩
  | 34 => ⟨S262144, .f32⟩
  | 35 => ⟨S262144x1, .i32⟩
  | 36 => ⟨S262144, .i32⟩
  | 37 => ⟨S_, .i32⟩
  | 38 => ⟨S262144, .i32⟩
  | 39 => ⟨S262144, .i32⟩
  | 40 => ⟨S262144x1, .i32⟩
  | 41 => ⟨S262144, .i32⟩
  | 42 => ⟨S_, .i32⟩
  | 43 => ⟨S262144, .i32⟩
  | 44 => ⟨S262144, .i32⟩
  | 45 => ⟨S_, .i32⟩
  | 46 => ⟨S262144, .i32⟩
  | 47 => ⟨S262144, .i32⟩
  | 48 => ⟨S262144, .i32⟩
  | 49 => ⟨S_, .i32⟩
  | 50 => ⟨S_, .i32⟩
  | 51 => ⟨S_, .i32⟩
  | 52 => ⟨S_, .i1⟩
  | 53 => ⟨S_, .i32⟩
  | 54 => ⟨S_, .i32⟩
  | 55 => ⟨S262144, .i32⟩
  | 56 => ⟨S262144, .i32⟩
  | 57 => ⟨S_, .i32⟩
  | 58 => ⟨S262144, .i32⟩
  | 59 => ⟨S262144, .i1⟩
  | 60 => ⟨S_, .i32⟩
  | 61 => ⟨S262144, .i32⟩
  | 62 => ⟨S262144, .i1⟩
  | 63 => ⟨S_, .i32⟩
  | 64 => ⟨S_, .i1⟩
  | 65 => ⟨S262144, .i1⟩
  | 66 => ⟨S262144, .i1⟩
  | 67 => ⟨S262144, .i1⟩
  | 68 => ⟨S262144, .i32⟩
  | 69 => ⟨S262144, .i32⟩
  | 70 => ⟨S262144, .i32⟩
  | 71 => ⟨S262144, .f32⟩
  | 72 => ⟨S262144x1, .f32⟩
  | 73 => ⟨S_, .i32⟩
  | 74 => ⟨S262144, .i32⟩
  | 75 => ⟨S262144, .i1⟩
  | 76 => ⟨S_, .i32⟩
  | 77 => ⟨S262144, .i32⟩
  | 78 => ⟨S262144, .i32⟩
  | 79 => ⟨S262144, .i32⟩
  | 80 => ⟨S_, .i32⟩
  | 81 => ⟨S262144, .i32⟩
  | 82 => ⟨S262144, .i32⟩
  | 83 => ⟨S262144x1, .i32⟩
  | 84 => ⟨S262144x1, .i32⟩
  | 85 => ⟨S262144x2, .i32⟩
  | 86 => ⟨S262144x8, .f32⟩
  | 87 => ⟨S262144x8, .f32⟩
  | 88 => ⟨S262144x8, .f32⟩
  | 89 => ⟨S262144x8, .f32⟩
  | 90 => ⟨S262144x1, .f32⟩
  | 91 => ⟨S262144, .f32⟩
  | 92 => ⟨S262144x1, .i32⟩
  | 93 => ⟨S262144, .i32⟩
  | 94 => ⟨S_, .i32⟩
  | 95 => ⟨S262144, .i32⟩
  | 96 => ⟨S262144, .i32⟩
  | 97 => ⟨S262144x1, .i32⟩
  | 98 => ⟨S262144, .i32⟩
  | 99 => ⟨S_, .i32⟩
  | 100 => ⟨S262144, .i32⟩
  | 101 => ⟨S262144, .i32⟩
  | 102 => ⟨S_, .i32⟩
  | 103 => ⟨S262144, .i32⟩
  | 104 => ⟨S262144, .i32⟩
  | 105 => ⟨S262144, .i32⟩
  | 106 => ⟨S_, .i32⟩
  | 107 => ⟨S_, .i32⟩
  | 108 => ⟨S_, .i32⟩
  | 109 => ⟨S_, .i1⟩
  | 110 => ⟨S_, .i32⟩
  | 111 => ⟨S_, .i32⟩
  | 112 => ⟨S262144, .i32⟩
  | 113 => ⟨S262144, .i32⟩
  | 114 => ⟨S_, .i32⟩
  | 115 => ⟨S262144, .i32⟩
  | 116 => ⟨S262144, .i1⟩
  | 117 => ⟨S_, .i32⟩
  | 118 => ⟨S262144, .i32⟩
  | 119 => ⟨S262144, .i1⟩
  | 120 => ⟨S_, .i32⟩
  | 121 => ⟨S_, .i1⟩
  | 122 => ⟨S262144, .i1⟩
  | 123 => ⟨S262144, .i1⟩
  | 124 => ⟨S262144, .i1⟩
  | 125 => ⟨S262144, .i32⟩
  | 126 => ⟨S262144, .i32⟩
  | 127 => ⟨S262144, .i32⟩
  | _ => ⟨S262144x2, .f32⟩

abbrev hbmTy0_1 (i : Nat) : BufTy := match i % 128 with
  | 0 => ⟨S262144, .f32⟩
  | 1 => ⟨S262144x1, .f32⟩
  | 2 => ⟨S_, .i32⟩
  | 3 => ⟨S262144, .i32⟩
  | 4 => ⟨S262144, .i1⟩
  | 5 => ⟨S_, .i32⟩
  | 6 => ⟨S262144, .i32⟩
  | 7 => ⟨S262144, .i32⟩
  | 8 => ⟨S262144, .i32⟩
  | 9 => ⟨S_, .i32⟩
  | 10 => ⟨S262144, .i32⟩
  | 11 => ⟨S262144, .i32⟩
  | 12 => ⟨S262144x1, .i32⟩
  | 13 => ⟨S262144x1, .i32⟩
  | 14 => ⟨S262144x2, .i32⟩
  | 15 => ⟨S262144x8, .f32⟩
  | 16 => ⟨S262144x8, .f32⟩
  | 17 => ⟨S262144x8, .f32⟩
  | 18 => ⟨S262144x8, .f32⟩
  | 19 => ⟨S262144x1, .f32⟩
  | 20 => ⟨S262144, .f32⟩
  | 21 => ⟨S262144x1, .f32⟩
  | 22 => ⟨S262144, .f32⟩
  | 23 => ⟨S_, .f32⟩
  | 24 => ⟨S262144, .f32⟩
  | 25 => ⟨S262144, .f32⟩
  | 26 => ⟨S262144x1, .i32⟩
  | 27 => ⟨S262144, .i32⟩
  | 28 => ⟨S_, .i32⟩
  | 29 => ⟨S262144, .i32⟩
  | 30 => ⟨S262144, .i32⟩
  | 31 => ⟨S262144x1, .i32⟩
  | 32 => ⟨S262144, .i32⟩
  | 33 => ⟨S_, .i32⟩
  | 34 => ⟨S262144, .i32⟩
  | 35 => ⟨S262144, .i32⟩
  | 36 => ⟨S_, .i32⟩
  | 37 => ⟨S262144, .i32⟩
  | 38 => ⟨S262144, .i32⟩
  | 39 => ⟨S262144, .i32⟩
  | 40 => ⟨S_, .i32⟩
  | 41 => ⟨S_, .i32⟩
  | 42 => ⟨S_, .i32⟩
  | 43 => ⟨S_, .i1⟩
  | 44 => ⟨S_, .i32⟩
  | 45 => ⟨S_, .i32⟩
  | 46 => ⟨S262144, .i32⟩
  | 47 => ⟨S262144, .i32⟩
  | 48 => ⟨S_, .i32⟩
  | 49 => ⟨S262144, .i32⟩
  | 50 => ⟨S262144, .i1⟩
  | 51 => ⟨S_, .i32⟩
  | 52 => ⟨S262144, .i32⟩
  | 53 => ⟨S262144, .i1⟩
  | 54 => ⟨S_, .i32⟩
  | 55 => ⟨S_, .i1⟩
  | 56 => ⟨S262144, .i1⟩
  | 57 => ⟨S262144, .i1⟩
  | 58 => ⟨S262144, .i1⟩
  | 59 => ⟨S262144, .i32⟩
  | 60 => ⟨S262144, .i32⟩
  | 61 => ⟨S262144, .i32⟩
  | 62 => ⟨S262144, .f32⟩
  | 63 => ⟨S262144x1, .f32⟩
  | 64 => ⟨S_, .i32⟩
  | 65 => ⟨S262144, .i32⟩
  | 66 => ⟨S262144, .i1⟩
  | 67 => ⟨S_, .i32⟩
  | 68 => ⟨S262144, .i32⟩
  | 69 => ⟨S262144, .i32⟩
  | 70 => ⟨S262144, .i32⟩
  | 71 => ⟨S_, .i32⟩
  | 72 => ⟨S262144, .i32⟩
  | 73 => ⟨S262144, .i32⟩
  | 74 => ⟨S262144x1, .i32⟩
  | 75 => ⟨S262144x1, .i32⟩
  | 76 => ⟨S262144x2, .i32⟩
  | 77 => ⟨S262144x8, .f32⟩
  | 78 => ⟨S262144x8, .f32⟩
  | 79 => ⟨S262144x8, .f32⟩
  | 80 => ⟨S262144x8, .f32⟩
  | 81 => ⟨S262144x1, .f32⟩
  | 82 => ⟨S262144, .f32⟩
  | 83 => ⟨S262144x1, .i32⟩
  | 84 => ⟨S262144, .i32⟩
  | 85 => ⟨S_, .i32⟩
  | 86 => ⟨S262144, .i32⟩
  | 87 => ⟨S262144, .i32⟩
  | 88 => ⟨S262144x1, .i32⟩
  | 89 => ⟨S262144, .i32⟩
  | 90 => ⟨S_, .i32⟩
  | 91 => ⟨S262144, .i32⟩
  | 92 => ⟨S262144, .i32⟩
  | 93 => ⟨S_, .i32⟩
  | 94 => ⟨S262144, .i32⟩
  | 95 => ⟨S262144, .i32⟩
  | 96 => ⟨S262144, .i32⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S262144, .i32⟩
  | 104 => ⟨S262144, .i32⟩
  | 105 => ⟨S_, .i32⟩
  | 106 => ⟨S262144, .i32⟩
  | 107 => ⟨S262144, .i1⟩
  | 108 => ⟨S_, .i32⟩
  | 109 => ⟨S262144, .i32⟩
  | 110 => ⟨S262144, .i1⟩
  | 111 => ⟨S_, .i32⟩
  | 112 => ⟨S_, .i1⟩
  | 113 => ⟨S262144, .i1⟩
  | 114 => ⟨S262144, .i1⟩
  | 115 => ⟨S262144, .i1⟩
  | 116 => ⟨S262144, .i32⟩
  | 117 => ⟨S262144, .i32⟩
  | 118 => ⟨S262144, .i32⟩
  | 119 => ⟨S262144, .f32⟩
  | 120 => ⟨S262144x1, .f32⟩
  | 121 => ⟨S_, .i32⟩
  | 122 => ⟨S262144, .i32⟩
  | 123 => ⟨S262144, .i1⟩
  | 124 => ⟨S_, .i32⟩
  | 125 => ⟨S262144, .i32⟩
  | 126 => ⟨S262144, .i32⟩
  | 127 => ⟨S262144, .i32⟩
  | _ => ⟨S262144x2, .f32⟩

abbrev hbmTy0_2 (i : Nat) : BufTy := match i % 128 with
  | 0 => ⟨S_, .i32⟩
  | 1 => ⟨S262144, .i32⟩
  | 2 => ⟨S262144, .i32⟩
  | 3 => ⟨S262144x1, .i32⟩
  | 4 => ⟨S262144x1, .i32⟩
  | 5 => ⟨S262144x2, .i32⟩
  | 6 => ⟨S262144x8, .f32⟩
  | 7 => ⟨S262144x8, .f32⟩
  | 8 => ⟨S262144x8, .f32⟩
  | 9 => ⟨S262144x8, .f32⟩
  | 10 => ⟨S_, .f32⟩
  | 11 => ⟨S262144x2, .f32⟩
  | 12 => ⟨S262144x2, .f32⟩
  | 13 => ⟨S_, .f32⟩
  | 14 => ⟨S262144x2, .f32⟩
  | 15 => ⟨S262144x2, .f32⟩
  | 16 => ⟨S262144x2, .f32⟩
  | 17 => ⟨S262144x2, .f32⟩
  | 18 => ⟨S262144x2, .i32⟩
  | 19 => ⟨S262144x2, .f32⟩
  | 20 => ⟨S_, .f32⟩
  | 21 => ⟨S262144x2, .f32⟩
  | 22 => ⟨S262144x2, .f32⟩
  | 23 => ⟨S_, .f32⟩
  | 24 => ⟨S262144x2, .f32⟩
  | 25 => ⟨S262144x2, .f32⟩
  | 26 => ⟨S262144x2, .f32⟩
  | 27 => ⟨S_, .f32⟩
  | 28 => ⟨S262144x8, .f32⟩
  | 29 => ⟨S262144x1, .f32⟩
  | 30 => ⟨S262144, .f32⟩
  | 31 => ⟨S_, .f32⟩
  | 32 => ⟨S262144, .f32⟩
  | 33 => ⟨S262144, .f32⟩
  | 34 => ⟨S262144x1, .f32⟩
  | 35 => ⟨S262144, .f32⟩
  | 36 => ⟨S_, .f32⟩
  | 37 => ⟨S262144, .f32⟩
  | 38 => ⟨S262144, .f32⟩
  | 39 => ⟨S262144x1, .i32⟩
  | 40 => ⟨S262144, .i32⟩
  | 41 => ⟨S_, .i32⟩
  | 42 => ⟨S262144, .i32⟩
  | 43 => ⟨S262144, .i32⟩
  | 44 => ⟨S262144x1, .i32⟩
  | 45 => ⟨S262144, .i32⟩
  | 46 => ⟨S_, .i32⟩
  | 47 => ⟨S262144, .i32⟩
  | 48 => ⟨S262144, .i32⟩
  | 49 => ⟨S_, .i32⟩
  | 50 => ⟨S262144, .i32⟩
  | 51 => ⟨S262144, .i32⟩
  | 52 => ⟨S262144, .i32⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S262144, .i32⟩
  | 60 => ⟨S262144, .i32⟩
  | 61 => ⟨S_, .i32⟩
  | 62 => ⟨S262144, .i32⟩
  | 63 => ⟨S262144, .i1⟩
  | 64 => ⟨S_, .i32⟩
  | 65 => ⟨S262144, .i32⟩
  | 66 => ⟨S262144, .i1⟩
  | 67 => ⟨S_, .i32⟩
  | 68 => ⟨S_, .i1⟩
  | 69 => ⟨S262144, .i1⟩
  | 70 => ⟨S262144, .i1⟩
  | 71 => ⟨S262144, .i1⟩
  | 72 => ⟨S262144, .i32⟩
  | 73 => ⟨S262144, .i32⟩
  | 74 => ⟨S262144, .i32⟩
  | 75 => ⟨S262144, .f32⟩
  | 76 => ⟨S262144x1, .f32⟩
  | 77 => ⟨S_, .i32⟩
  | 78 => ⟨S262144, .i32⟩
  | 79 => ⟨S262144, .i1⟩
  | 80 => ⟨S_, .i32⟩
  | 81 => ⟨S262144, .i32⟩
  | 82 => ⟨S262144, .i32⟩
  | 83 => ⟨S262144, .i32⟩
  | 84 => ⟨S_, .i32⟩
  | 85 => ⟨S262144, .i32⟩
  | 86 => ⟨S262144, .i32⟩
  | 87 => ⟨S262144x1, .i32⟩
  | 88 => ⟨S262144x1, .i32⟩
  | 89 => ⟨S262144x2, .i32⟩
  | 90 => ⟨S262144x8, .f32⟩
  | 91 => ⟨S262144x8, .f32⟩
  | 92 => ⟨S262144x8, .f32⟩
  | 93 => ⟨S262144x8, .f32⟩
  | 94 => ⟨S262144x1, .f32⟩
  | 95 => ⟨S262144, .f32⟩
  | 96 => ⟨S262144x1, .i32⟩
  | 97 => ⟨S262144, .i32⟩
  | 98 => ⟨S_, .i32⟩
  | 99 => ⟨S262144, .i32⟩
  | 100 => ⟨S262144, .i32⟩
  | 101 => ⟨S262144x1, .i32⟩
  | 102 => ⟨S262144, .i32⟩
  | 103 => ⟨S_, .i32⟩
  | 104 => ⟨S262144, .i32⟩
  | 105 => ⟨S262144, .i32⟩
  | 106 => ⟨S_, .i32⟩
  | 107 => ⟨S262144, .i32⟩
  | 108 => ⟨S262144, .i32⟩
  | 109 => ⟨S262144, .i32⟩
  | 110 => ⟨S_, .i32⟩
  | 111 => ⟨S_, .i32⟩
  | 112 => ⟨S_, .i32⟩
  | 113 => ⟨S_, .i1⟩
  | 114 => ⟨S_, .i32⟩
  | 115 => ⟨S_, .i32⟩
  | 116 => ⟨S262144, .i32⟩
  | 117 => ⟨S262144, .i32⟩
  | 118 => ⟨S_, .i32⟩
  | 119 => ⟨S262144, .i32⟩
  | 120 => ⟨S262144, .i1⟩
  | 121 => ⟨S_, .i32⟩
  | 122 => ⟨S262144, .i32⟩
  | 123 => ⟨S262144, .i1⟩
  | 124 => ⟨S_, .i32⟩
  | 125 => ⟨S_, .i1⟩
  | 126 => ⟨S262144, .i1⟩
  | 127 => ⟨S262144, .i1⟩
  | _ => ⟨S262144x2, .f32⟩

abbrev hbmTy0_3 (i : Nat) : BufTy := match i % 128 with
  | 0 => ⟨S262144, .i1⟩
  | 1 => ⟨S262144, .i32⟩
  | 2 => ⟨S262144, .i32⟩
  | 3 => ⟨S262144, .i32⟩
  | 4 => ⟨S262144, .f32⟩
  | 5 => ⟨S262144x1, .f32⟩
  | 6 => ⟨S_, .i32⟩
  | 7 => ⟨S262144, .i32⟩
  | 8 => ⟨S262144, .i1⟩
  | 9 => ⟨S_, .i32⟩
  | 10 => ⟨S262144, .i32⟩
  | 11 => ⟨S262144, .i32⟩
  | 12 => ⟨S262144, .i32⟩
  | 13 => ⟨S_, .i32⟩
  | 14 => ⟨S262144, .i32⟩
  | 15 => ⟨S262144, .i32⟩
  | 16 => ⟨S262144x1, .i32⟩
  | 17 => ⟨S262144x1, .i32⟩
  | 18 => ⟨S262144x2, .i32⟩
  | 19 => ⟨S262144x8, .f32⟩
  | 20 => ⟨S262144x8, .f32⟩
  | 21 => ⟨S262144x8, .f32⟩
  | 22 => ⟨S262144x8, .f32⟩
  | 23 => ⟨S262144x1, .f32⟩
  | 24 => ⟨S262144, .f32⟩
  | 25 => ⟨S262144x1, .f32⟩
  | 26 => ⟨S262144, .f32⟩
  | 27 => ⟨S_, .f32⟩
  | 28 => ⟨S262144, .f32⟩
  | 29 => ⟨S262144, .f32⟩
  | 30 => ⟨S262144x1, .i32⟩
  | 31 => ⟨S262144, .i32⟩
  | 32 => ⟨S_, .i32⟩
  | 33 => ⟨S262144, .i32⟩
  | 34 => ⟨S262144, .i32⟩
  | 35 => ⟨S262144x1, .i32⟩
  | 36 => ⟨S262144, .i32⟩
  | 37 => ⟨S_, .i32⟩
  | 38 => ⟨S262144, .i32⟩
  | 39 => ⟨S262144, .i32⟩
  | 40 => ⟨S_, .i32⟩
  | 41 => ⟨S262144, .i32⟩
  | 42 => ⟨S262144, .i32⟩
  | 43 => ⟨S262144, .i32⟩
  | 44 => ⟨S_, .i32⟩
  | 45 => ⟨S_, .i32⟩
  | 46 => ⟨S_, .i32⟩
  | 47 => ⟨S_, .i1⟩
  | 48 => ⟨S_, .i32⟩
  | 49 => ⟨S_, .i32⟩
  | 50 => ⟨S262144, .i32⟩
  | 51 => ⟨S262144, .i32⟩
  | 52 => ⟨S_, .i32⟩
  | 53 => ⟨S262144, .i32⟩
  | 54 => ⟨S262144, .i1⟩
  | 55 => ⟨S_, .i32⟩
  | 56 => ⟨S262144, .i32⟩
  | 57 => ⟨S262144, .i1⟩
  | 58 => ⟨S_, .i32⟩
  | 59 => ⟨S_, .i1⟩
  | 60 => ⟨S262144, .i1⟩
  | 61 => ⟨S262144, .i1⟩
  | 62 => ⟨S262144, .i1⟩
  | 63 => ⟨S262144, .i32⟩
  | 64 => ⟨S262144, .i32⟩
  | 65 => ⟨S262144, .i32⟩
  | 66 => ⟨S262144, .f32⟩
  | 67 => ⟨S262144x1, .f32⟩
  | 68 => ⟨S_, .i32⟩
  | 69 => ⟨S262144, .i32⟩
  | 70 => ⟨S262144, .i1⟩
  | 71 => ⟨S_, .i32⟩
  | 72 => ⟨S262144, .i32⟩
  | 73 => ⟨S262144, .i32⟩
  | 74 => ⟨S262144, .i32⟩
  | 75 => ⟨S_, .i32⟩
  | 76 => ⟨S262144, .i32⟩
  | 77 => ⟨S262144, .i32⟩
  | 78 => ⟨S262144x1, .i32⟩
  | 79 => ⟨S262144x1, .i32⟩
  | 80 => ⟨S262144x2, .i32⟩
  | 81 => ⟨S262144x8, .f32⟩
  | 82 => ⟨S262144x8, .f32⟩
  | 83 => ⟨S262144x8, .f32⟩
  | 84 => ⟨S262144x8, .f32⟩
  | 85 => ⟨S262144x1, .f32⟩
  | 86 => ⟨S262144, .f32⟩
  | 87 => ⟨S262144x1, .i32⟩
  | 88 => ⟨S262144, .i32⟩
  | 89 => ⟨S_, .i32⟩
  | 90 => ⟨S262144, .i32⟩
  | 91 => ⟨S262144, .i32⟩
  | 92 => ⟨S262144x1, .i32⟩
  | 93 => ⟨S262144, .i32⟩
  | 94 => ⟨S_, .i32⟩
  | 95 => ⟨S262144, .i32⟩
  | 96 => ⟨S262144, .i32⟩
  | 97 => ⟨S_, .i32⟩
  | 98 => ⟨S262144, .i32⟩
  | 99 => ⟨S262144, .i32⟩
  | 100 => ⟨S262144, .i32⟩
  | 101 => ⟨S_, .i32⟩
  | 102 => ⟨S_, .i32⟩
  | 103 => ⟨S_, .i32⟩
  | 104 => ⟨S_, .i1⟩
  | 105 => ⟨S_, .i32⟩
  | 106 => ⟨S_, .i32⟩
  | 107 => ⟨S262144, .i32⟩
  | 108 => ⟨S262144, .i32⟩
  | 109 => ⟨S_, .i32⟩
  | 110 => ⟨S262144, .i32⟩
  | 111 => ⟨S262144, .i1⟩
  | 112 => ⟨S_, .i32⟩
  | 113 => ⟨S262144, .i32⟩
  | 114 => ⟨S262144, .i1⟩
  | 115 => ⟨S_, .i32⟩
  | 116 => ⟨S_, .i1⟩
  | 117 => ⟨S262144, .i1⟩
  | 118 => ⟨S262144, .i1⟩
  | 119 => ⟨S262144, .i1⟩
  | 120 => ⟨S262144, .i32⟩
  | 121 => ⟨S262144, .i32⟩
  | 122 => ⟨S262144, .i32⟩
  | 123 => ⟨S262144, .f32⟩
  | 124 => ⟨S262144x1, .f32⟩
  | 125 => ⟨S_, .i32⟩
  | 126 => ⟨S262144, .i32⟩
  | 127 => ⟨S262144, .i1⟩
  | _ => ⟨S262144x2, .f32⟩

abbrev hbmTy0_4 (i : Nat) : BufTy := match i % 128 with
  | 0 => ⟨S_, .i32⟩
  | 1 => ⟨S262144, .i32⟩
  | 2 => ⟨S262144, .i32⟩
  | 3 => ⟨S262144, .i32⟩
  | 4 => ⟨S_, .i32⟩
  | 5 => ⟨S262144, .i32⟩
  | 6 => ⟨S262144, .i32⟩
  | 7 => ⟨S262144x1, .i32⟩
  | 8 => ⟨S262144x1, .i32⟩
  | 9 => ⟨S262144x2, .i32⟩
  | 10 => ⟨S262144x8, .f32⟩
  | 11 => ⟨S262144x8, .f32⟩
  | 12 => ⟨S262144x8, .f32⟩
  | 13 => ⟨S262144x8, .f32⟩
  | 14 => ⟨S_, .f32⟩
  | 15 => ⟨S262144x2, .f32⟩
  | 16 => ⟨S262144x2, .f32⟩
  | 17 => ⟨S_, .f32⟩
  | 18 => ⟨S262144x2, .f32⟩
  | 19 => ⟨S262144x2, .f32⟩
  | 20 => ⟨S262144x2, .f32⟩
  | 21 => ⟨S262144x2, .f32⟩
  | 22 => ⟨S262144x2, .i32⟩
  | 23 => ⟨S262144x2, .f32⟩
  | 24 => ⟨S_, .f32⟩
  | 25 => ⟨S262144x2, .f32⟩
  | 26 => ⟨S262144x2, .f32⟩
  | 27 => ⟨S_, .f32⟩
  | 28 => ⟨S262144x2, .f32⟩
  | 29 => ⟨S262144x2, .f32⟩
  | 30 => ⟨S262144x2, .f32⟩
  | 31 => ⟨S_, .f32⟩
  | 32 => ⟨S262144x8, .f32⟩
  | 33 => ⟨S262144x1, .f32⟩
  | 34 => ⟨S262144, .f32⟩
  | 35 => ⟨S_, .f32⟩
  | 36 => ⟨S262144, .f32⟩
  | 37 => ⟨S262144, .f32⟩
  | 38 => ⟨S262144x1, .f32⟩
  | 39 => ⟨S262144, .f32⟩
  | 40 => ⟨S_, .f32⟩
  | 41 => ⟨S262144, .f32⟩
  | 42 => ⟨S262144, .f32⟩
  | 43 => ⟨S262144x1, .i32⟩
  | 44 => ⟨S262144, .i32⟩
  | 45 => ⟨S_, .i32⟩
  | 46 => ⟨S262144, .i32⟩
  | 47 => ⟨S262144, .i32⟩
  | 48 => ⟨S262144x1, .i32⟩
  | 49 => ⟨S262144, .i32⟩
  | 50 => ⟨S_, .i32⟩
  | 51 => ⟨S262144, .i32⟩
  | 52 => ⟨S262144, .i32⟩
  | 53 => ⟨S_, .i32⟩
  | 54 => ⟨S262144, .i32⟩
  | 55 => ⟨S262144, .i32⟩
  | 56 => ⟨S262144, .i32⟩
  | 57 => ⟨S_, .i32⟩
  | 58 => ⟨S_, .i32⟩
  | 59 => ⟨S_, .i32⟩
  | 60 => ⟨S_, .i1⟩
  | 61 => ⟨S_, .i32⟩
  | 62 => ⟨S_, .i32⟩
  | 63 => ⟨S262144, .i32⟩
  | 64 => ⟨S262144, .i32⟩
  | 65 => ⟨S_, .i32⟩
  | 66 => ⟨S262144, .i32⟩
  | 67 => ⟨S262144, .i1⟩
  | 68 => ⟨S_, .i32⟩
  | 69 => ⟨S262144, .i32⟩
  | 70 => ⟨S262144, .i1⟩
  | 71 => ⟨S_, .i32⟩
  | 72 => ⟨S_, .i1⟩
  | 73 => ⟨S262144, .i1⟩
  | 74 => ⟨S262144, .i1⟩
  | 75 => ⟨S262144, .i1⟩
  | 76 => ⟨S262144, .i32⟩
  | 77 => ⟨S262144, .i32⟩
  | 78 => ⟨S262144, .i32⟩
  | 79 => ⟨S262144, .f32⟩
  | 80 => ⟨S262144x1, .f32⟩
  | 81 => ⟨S_, .i32⟩
  | 82 => ⟨S262144, .i32⟩
  | 83 => ⟨S262144, .i1⟩
  | 84 => ⟨S_, .i32⟩
  | 85 => ⟨S262144, .i32⟩
  | 86 => ⟨S262144, .i32⟩
  | 87 => ⟨S262144, .i32⟩
  | 88 => ⟨S_, .i32⟩
  | 89 => ⟨S262144, .i32⟩
  | 90 => ⟨S262144, .i32⟩
  | 91 => ⟨S262144x1, .i32⟩
  | 92 => ⟨S262144x1, .i32⟩
  | 93 => ⟨S262144x2, .i32⟩
  | 94 => ⟨S262144x8, .f32⟩
  | 95 => ⟨S262144x8, .f32⟩
  | 96 => ⟨S262144x8, .f32⟩
  | 97 => ⟨S262144x8, .f32⟩
  | 98 => ⟨S262144x1, .f32⟩
  | 99 => ⟨S262144, .f32⟩
  | 100 => ⟨S262144x1, .i32⟩
  | 101 => ⟨S262144, .i32⟩
  | 102 => ⟨S_, .i32⟩
  | 103 => ⟨S262144, .i32⟩
  | 104 => ⟨S262144, .i32⟩
  | 105 => ⟨S262144x1, .i32⟩
  | 106 => ⟨S262144, .i32⟩
  | 107 => ⟨S_, .i32⟩
  | 108 => ⟨S262144, .i32⟩
  | 109 => ⟨S262144, .i32⟩
  | 110 => ⟨S_, .i32⟩
  | 111 => ⟨S262144, .i32⟩
  | 112 => ⟨S262144, .i32⟩
  | 113 => ⟨S262144, .i32⟩
  | 114 => ⟨S_, .i32⟩
  | 115 => ⟨S_, .i32⟩
  | 116 => ⟨S_, .i32⟩
  | 117 => ⟨S_, .i1⟩
  | 118 => ⟨S_, .i32⟩
  | 119 => ⟨S_, .i32⟩
  | 120 => ⟨S262144, .i32⟩
  | 121 => ⟨S262144, .i32⟩
  | 122 => ⟨S_, .i32⟩
  | 123 => ⟨S262144, .i32⟩
  | 124 => ⟨S262144, .i1⟩
  | 125 => ⟨S_, .i32⟩
  | 126 => ⟨S262144, .i32⟩
  | 127 => ⟨S262144, .i1⟩
  | _ => ⟨S262144x2, .f32⟩

abbrev hbmTy0_5 (i : Nat) : BufTy := match i % 128 with
  | 0 => ⟨S_, .i32⟩
  | 1 => ⟨S_, .i1⟩
  | 2 => ⟨S262144, .i1⟩
  | 3 => ⟨S262144, .i1⟩
  | 4 => ⟨S262144, .i1⟩
  | 5 => ⟨S262144, .i32⟩
  | 6 => ⟨S262144, .i32⟩
  | 7 => ⟨S262144, .i32⟩
  | 8 => ⟨S262144, .f32⟩
  | 9 => ⟨S262144x1, .f32⟩
  | 10 => ⟨S_, .i32⟩
  | 11 => ⟨S262144, .i32⟩
  | 12 => ⟨S262144, .i1⟩
  | 13 => ⟨S_, .i32⟩
  | 14 => ⟨S262144, .i32⟩
  | 15 => ⟨S262144, .i32⟩
  | 16 => ⟨S262144, .i32⟩
  | 17 => ⟨S_, .i32⟩
  | 18 => ⟨S262144, .i32⟩
  | 19 => ⟨S262144, .i32⟩
  | 20 => ⟨S262144x1, .i32⟩
  | 21 => ⟨S262144x1, .i32⟩
  | 22 => ⟨S262144x2, .i32⟩
  | 23 => ⟨S262144x8, .f32⟩
  | 24 => ⟨S262144x8, .f32⟩
  | 25 => ⟨S262144x8, .f32⟩
  | 26 => ⟨S262144x8, .f32⟩
  | 27 => ⟨S262144x1, .f32⟩
  | 28 => ⟨S262144, .f32⟩
  | 29 => ⟨S262144x1, .f32⟩
  | 30 => ⟨S262144, .f32⟩
  | 31 => ⟨S_, .f32⟩
  | 32 => ⟨S262144, .f32⟩
  | 33 => ⟨S262144, .f32⟩
  | 34 => ⟨S262144x1, .i32⟩
  | 35 => ⟨S262144, .i32⟩
  | 36 => ⟨S_, .i32⟩
  | 37 => ⟨S262144, .i32⟩
  | 38 => ⟨S262144, .i32⟩
  | 39 => ⟨S262144x1, .i32⟩
  | 40 => ⟨S262144, .i32⟩
  | 41 => ⟨S_, .i32⟩
  | 42 => ⟨S262144, .i32⟩
  | 43 => ⟨S262144, .i32⟩
  | 44 => ⟨S_, .i32⟩
  | 45 => ⟨S262144, .i32⟩
  | 46 => ⟨S262144, .i32⟩
  | 47 => ⟨S262144, .i32⟩
  | 48 => ⟨S_, .i32⟩
  | 49 => ⟨S_, .i32⟩
  | 50 => ⟨S_, .i32⟩
  | 51 => ⟨S_, .i1⟩
  | 52 => ⟨S_, .i32⟩
  | 53 => ⟨S_, .i32⟩
  | 54 => ⟨S262144, .i32⟩
  | 55 => ⟨S262144, .i32⟩
  | 56 => ⟨S_, .i32⟩
  | 57 => ⟨S262144, .i32⟩
  | 58 => ⟨S262144, .i1⟩
  | 59 => ⟨S_, .i32⟩
  | 60 => ⟨S262144, .i32⟩
  | 61 => ⟨S262144, .i1⟩
  | 62 => ⟨S_, .i32⟩
  | 63 => ⟨S_, .i1⟩
  | 64 => ⟨S262144, .i1⟩
  | 65 => ⟨S262144, .i1⟩
  | 66 => ⟨S262144, .i1⟩
  | 67 => ⟨S262144, .i32⟩
  | 68 => ⟨S262144, .i32⟩
  | 69 => ⟨S262144, .i32⟩
  | 70 => ⟨S262144, .f32⟩
  | 71 => ⟨S262144x1, .f32⟩
  | 72 => ⟨S_, .i32⟩
  | 73 => ⟨S262144, .i32⟩
  | 74 => ⟨S262144, .i1⟩
  | 75 => ⟨S_, .i32⟩
  | 76 => ⟨S262144, .i32⟩
  | 77 => ⟨S262144, .i32⟩
  | 78 => ⟨S262144, .i32⟩
  | 79 => ⟨S_, .i32⟩
  | 80 => ⟨S262144, .i32⟩
  | 81 => ⟨S262144, .i32⟩
  | 82 => ⟨S262144x1, .i32⟩
  | 83 => ⟨S262144x1, .i32⟩
  | 84 => ⟨S262144x2, .i32⟩
  | 85 => ⟨S262144x8, .f32⟩
  | 86 => ⟨S262144x8, .f32⟩
  | 87 => ⟨S262144x8, .f32⟩
  | 88 => ⟨S262144x8, .f32⟩
  | 89 => ⟨S262144x1, .f32⟩
  | 90 => ⟨S262144, .f32⟩
  | 91 => ⟨S262144x1, .i32⟩
  | 92 => ⟨S262144, .i32⟩
  | 93 => ⟨S_, .i32⟩
  | 94 => ⟨S262144, .i32⟩
  | 95 => ⟨S262144, .i32⟩
  | 96 => ⟨S262144x1, .i32⟩
  | 97 => ⟨S262144, .i32⟩
  | 98 => ⟨S_, .i32⟩
  | 99 => ⟨S262144, .i32⟩
  | 100 => ⟨S262144, .i32⟩
  | 101 => ⟨S_, .i32⟩
  | 102 => ⟨S262144, .i32⟩
  | 103 => ⟨S262144, .i32⟩
  | 104 => ⟨S262144, .i32⟩
  | 105 => ⟨S_, .i32⟩
  | 106 => ⟨S_, .i32⟩
  | 107 => ⟨S_, .i32⟩
  | 108 => ⟨S_, .i1⟩
  | 109 => ⟨S_, .i32⟩
  | 110 => ⟨S_, .i32⟩
  | 111 => ⟨S262144, .i32⟩
  | 112 => ⟨S262144, .i32⟩
  | 113 => ⟨S_, .i32⟩
  | 114 => ⟨S262144, .i32⟩
  | 115 => ⟨S262144, .i1⟩
  | 116 => ⟨S_, .i32⟩
  | 117 => ⟨S262144, .i32⟩
  | 118 => ⟨S262144, .i1⟩
  | 119 => ⟨S_, .i32⟩
  | 120 => ⟨S_, .i1⟩
  | 121 => ⟨S262144, .i1⟩
  | 122 => ⟨S262144, .i1⟩
  | 123 => ⟨S262144, .i1⟩
  | 124 => ⟨S262144, .i32⟩
  | 125 => ⟨S262144, .i32⟩
  | 126 => ⟨S262144, .i32⟩
  | 127 => ⟨S262144, .f32⟩
  | _ => ⟨S262144x2, .f32⟩

abbrev hbmTy0_6 (i : Nat) : BufTy := match i % 128 with
  | 0 => ⟨S262144x1, .f32⟩
  | 1 => ⟨S_, .i32⟩
  | 2 => ⟨S262144, .i32⟩
  | 3 => ⟨S262144, .i1⟩
  | 4 => ⟨S_, .i32⟩
  | 5 => ⟨S262144, .i32⟩
  | 6 => ⟨S262144, .i32⟩
  | 7 => ⟨S262144, .i32⟩
  | 8 => ⟨S_, .i32⟩
  | 9 => ⟨S262144, .i32⟩
  | 10 => ⟨S262144, .i32⟩
  | 11 => ⟨S262144x1, .i32⟩
  | 12 => ⟨S262144x1, .i32⟩
  | 13 => ⟨S262144x2, .i32⟩
  | 14 => ⟨S262144x8, .f32⟩
  | 15 => ⟨S262144x8, .f32⟩
  | 16 => ⟨S262144x8, .f32⟩
  | 17 => ⟨S262144x8, .f32⟩
  | 18 => ⟨S_, .f32⟩
  | 19 => ⟨S262144x2, .f32⟩
  | 20 => ⟨S262144x2, .f32⟩
  | 21 => ⟨S_, .f32⟩
  | 22 => ⟨S262144x2, .f32⟩
  | 23 => ⟨S262144x2, .f32⟩
  | 24 => ⟨S262144x2, .f32⟩
  | 25 => ⟨S262144x2, .f32⟩
  | 26 => ⟨S262144x2, .i32⟩
  | 27 => ⟨S262144x2, .f32⟩
  | 28 => ⟨S_, .f32⟩
  | 29 => ⟨S262144x2, .f32⟩
  | 30 => ⟨S262144x2, .f32⟩
  | 31 => ⟨S_, .f32⟩
  | 32 => ⟨S262144x2, .f32⟩
  | 33 => ⟨S262144x2, .f32⟩
  | 34 => ⟨S262144x2, .f32⟩
  | 35 => ⟨S_, .f32⟩
  | 36 => ⟨S262144x8, .f32⟩
  | 37 => ⟨S262144x1, .f32⟩
  | 38 => ⟨S262144, .f32⟩
  | 39 => ⟨S_, .f32⟩
  | 40 => ⟨S262144, .f32⟩
  | 41 => ⟨S262144, .f32⟩
  | 42 => ⟨S262144x1, .f32⟩
  | 43 => ⟨S262144, .f32⟩
  | 44 => ⟨S_, .f32⟩
  | 45 => ⟨S262144, .f32⟩
  | 46 => ⟨S262144, .f32⟩
  | 47 => ⟨S262144x1, .i32⟩
  | 48 => ⟨S262144, .i32⟩
  | 49 => ⟨S_, .i32⟩
  | 50 => ⟨S262144, .i32⟩
  | 51 => ⟨S262144, .i32⟩
  | 52 => ⟨S262144x1, .i32⟩
  | 53 => ⟨S262144, .i32⟩
  | 54 => ⟨S_, .i32⟩
  | 55 => ⟨S262144, .i32⟩
  | 56 => ⟨S262144, .i32⟩
  | 57 => ⟨S_, .i32⟩
  | 58 => ⟨S262144, .i32⟩
  | 59 => ⟨S262144, .i32⟩
  | 60 => ⟨S262144, .i32⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S262144, .i32⟩
  | 68 => ⟨S262144, .i32⟩
  | 69 => ⟨S_, .i32⟩
  | 70 => ⟨S262144, .i32⟩
  | 71 => ⟨S262144, .i1⟩
  | 72 => ⟨S_, .i32⟩
  | 73 => ⟨S262144, .i32⟩
  | 74 => ⟨S262144, .i1⟩
  | 75 => ⟨S_, .i32⟩
  | 76 => ⟨S_, .i1⟩
  | 77 => ⟨S262144, .i1⟩
  | 78 => ⟨S262144, .i1⟩
  | 79 => ⟨S262144, .i1⟩
  | 80 => ⟨S262144, .i32⟩
  | 81 => ⟨S262144, .i32⟩
  | 82 => ⟨S262144, .i32⟩
  | 83 => ⟨S262144, .f32⟩
  | 84 => ⟨S262144x1, .f32⟩
  | 85 => ⟨S_, .i32⟩
  | 86 => ⟨S262144, .i32⟩
  | 87 => ⟨S262144, .i1⟩
  | 88 => ⟨S_, .i32⟩
  | 89 => ⟨S262144, .i32⟩
  | 90 => ⟨S262144, .i32⟩
  | 91 => ⟨S262144, .i32⟩
  | 92 => ⟨S_, .i32⟩
  | 93 => ⟨S262144, .i32⟩
  | 94 => ⟨S262144, .i32⟩
  | 95 => ⟨S262144x1, .i32⟩
  | 96 => ⟨S262144x1, .i32⟩
  | 97 => ⟨S262144x2, .i32⟩
  | 98 => ⟨S262144x8, .f32⟩
  | 99 => ⟨S262144x8, .f32⟩
  | 100 => ⟨S262144x8, .f32⟩
  | 101 => ⟨S262144x8, .f32⟩
  | 102 => ⟨S262144x1, .f32⟩
  | 103 => ⟨S262144, .f32⟩
  | 104 => ⟨S262144x1, .i32⟩
  | 105 => ⟨S262144, .i32⟩
  | 106 => ⟨S_, .i32⟩
  | 107 => ⟨S262144, .i32⟩
  | 108 => ⟨S262144, .i32⟩
  | 109 => ⟨S262144x1, .i32⟩
  | 110 => ⟨S262144, .i32⟩
  | 111 => ⟨S_, .i32⟩
  | 112 => ⟨S262144, .i32⟩
  | 113 => ⟨S262144, .i32⟩
  | 114 => ⟨S_, .i32⟩
  | 115 => ⟨S262144, .i32⟩
  | 116 => ⟨S262144, .i32⟩
  | 117 => ⟨S262144, .i32⟩
  | 118 => ⟨S_, .i32⟩
  | 119 => ⟨S_, .i32⟩
  | 120 => ⟨S_, .i32⟩
  | 121 => ⟨S_, .i1⟩
  | 122 => ⟨S_, .i32⟩
  | 123 => ⟨S_, .i32⟩
  | 124 => ⟨S262144, .i32⟩
  | 125 => ⟨S262144, .i32⟩
  | 126 => ⟨S_, .i32⟩
  | 127 => ⟨S262144, .i32⟩
  | _ => ⟨S262144x2, .f32⟩

abbrev hbmTy0_7 (i : Nat) : BufTy := match i % 128 with
  | 0 => ⟨S262144, .i1⟩
  | 1 => ⟨S_, .i32⟩
  | 2 => ⟨S262144, .i32⟩
  | 3 => ⟨S262144, .i1⟩
  | 4 => ⟨S_, .i32⟩
  | 5 => ⟨S_, .i1⟩
  | 6 => ⟨S262144, .i1⟩
  | 7 => ⟨S262144, .i1⟩
  | 8 => ⟨S262144, .i1⟩
  | 9 => ⟨S262144, .i32⟩
  | 10 => ⟨S262144, .i32⟩
  | 11 => ⟨S262144, .i32⟩
  | 12 => ⟨S262144, .f32⟩
  | 13 => ⟨S262144x1, .f32⟩
  | 14 => ⟨S_, .i32⟩
  | 15 => ⟨S262144, .i32⟩
  | 16 => ⟨S262144, .i1⟩
  | 17 => ⟨S_, .i32⟩
  | 18 => ⟨S262144, .i32⟩
  | 19 => ⟨S262144, .i32⟩
  | 20 => ⟨S262144, .i32⟩
  | 21 => ⟨S_, .i32⟩
  | 22 => ⟨S262144, .i32⟩
  | 23 => ⟨S262144, .i32⟩
  | 24 => ⟨S262144x1, .i32⟩
  | 25 => ⟨S262144x1, .i32⟩
  | 26 => ⟨S262144x2, .i32⟩
  | 27 => ⟨S262144x8, .f32⟩
  | 28 => ⟨S262144x8, .f32⟩
  | 29 => ⟨S262144x8, .f32⟩
  | 30 => ⟨S262144x8, .f32⟩
  | 31 => ⟨S262144x1, .f32⟩
  | 32 => ⟨S262144, .f32⟩
  | 33 => ⟨S262144x1, .f32⟩
  | 34 => ⟨S262144, .f32⟩
  | 35 => ⟨S_, .f32⟩
  | 36 => ⟨S262144, .f32⟩
  | 37 => ⟨S262144, .f32⟩
  | 38 => ⟨S262144x1, .i32⟩
  | 39 => ⟨S262144, .i32⟩
  | 40 => ⟨S_, .i32⟩
  | 41 => ⟨S262144, .i32⟩
  | 42 => ⟨S262144, .i32⟩
  | 43 => ⟨S262144x1, .i32⟩
  | 44 => ⟨S262144, .i32⟩
  | 45 => ⟨S_, .i32⟩
  | 46 => ⟨S262144, .i32⟩
  | 47 => ⟨S262144, .i32⟩
  | 48 => ⟨S_, .i32⟩
  | 49 => ⟨S262144, .i32⟩
  | 50 => ⟨S262144, .i32⟩
  | 51 => ⟨S262144, .i32⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S262144, .i32⟩
  | 59 => ⟨S262144, .i32⟩
  | 60 => ⟨S_, .i32⟩
  | 61 => ⟨S262144, .i32⟩
  | 62 => ⟨S262144, .i1⟩
  | 63 => ⟨S_, .i32⟩
  | 64 => ⟨S262144, .i32⟩
  | 65 => ⟨S262144, .i1⟩
  | 66 => ⟨S_, .i32⟩
  | 67 => ⟨S_, .i1⟩
  | 68 => ⟨S262144, .i1⟩
  | 69 => ⟨S262144, .i1⟩
  | 70 => ⟨S262144, .i1⟩
  | 71 => ⟨S262144, .i32⟩
  | 72 => ⟨S262144, .i32⟩
  | 73 => ⟨S262144, .i32⟩
  | 74 => ⟨S262144, .f32⟩
  | 75 => ⟨S262144x1, .f32⟩
  | 76 => ⟨S_, .i32⟩
  | 77 => ⟨S262144, .i32⟩
  | 78 => ⟨S262144, .i1⟩
  | 79 => ⟨S_, .i32⟩
  | 80 => ⟨S262144, .i32⟩
  | 81 => ⟨S262144, .i32⟩
  | 82 => ⟨S262144, .i32⟩
  | 83 => ⟨S_, .i32⟩
  | 84 => ⟨S262144, .i32⟩
  | 85 => ⟨S262144, .i32⟩
  | 86 => ⟨S262144x1, .i32⟩
  | 87 => ⟨S262144x1, .i32⟩
  | 88 => ⟨S262144x2, .i32⟩
  | 89 => ⟨S262144x8, .f32⟩
  | 90 => ⟨S262144x8, .f32⟩
  | 91 => ⟨S262144x8, .f32⟩
  | 92 => ⟨S262144x8, .f32⟩
  | 93 => ⟨S262144x1, .f32⟩
  | 94 => ⟨S262144, .f32⟩
  | 95 => ⟨S262144x1, .i32⟩
  | 96 => ⟨S262144, .i32⟩
  | 97 => ⟨S_, .i32⟩
  | 98 => ⟨S262144, .i32⟩
  | 99 => ⟨S262144, .i32⟩
  | 100 => ⟨S262144x1, .i32⟩
  | 101 => ⟨S262144, .i32⟩
  | 102 => ⟨S_, .i32⟩
  | 103 => ⟨S262144, .i32⟩
  | 104 => ⟨S262144, .i32⟩
  | 105 => ⟨S_, .i32⟩
  | 106 => ⟨S262144, .i32⟩
  | 107 => ⟨S262144, .i32⟩
  | 108 => ⟨S262144, .i32⟩
  | 109 => ⟨S_, .i32⟩
  | 110 => ⟨S_, .i32⟩
  | 111 => ⟨S_, .i32⟩
  | 112 => ⟨S_, .i1⟩
  | 113 => ⟨S_, .i32⟩
  | 114 => ⟨S_, .i32⟩
  | 115 => ⟨S262144, .i32⟩
  | 116 => ⟨S262144, .i32⟩
  | 117 => ⟨S_, .i32⟩
  | 118 => ⟨S262144, .i32⟩
  | 119 => ⟨S262144, .i1⟩
  | 120 => ⟨S_, .i32⟩
  | 121 => ⟨S262144, .i32⟩
  | 122 => ⟨S262144, .i1⟩
  | 123 => ⟨S_, .i32⟩
  | 124 => ⟨S_, .i1⟩
  | 125 => ⟨S262144, .i1⟩
  | 126 => ⟨S262144, .i1⟩
  | 127 => ⟨S262144, .i1⟩
  | _ => ⟨S262144x2, .f32⟩

abbrev hbmTy0_8 (i : Nat) : BufTy := match i % 128 with
  | 0 => ⟨S262144, .i32⟩
  | 1 => ⟨S262144, .i32⟩
  | 2 => ⟨S262144, .i32⟩
  | 3 => ⟨S262144, .f32⟩
  | 4 => ⟨S262144x1, .f32⟩
  | 5 => ⟨S_, .i32⟩
  | 6 => ⟨S262144, .i32⟩
  | 7 => ⟨S262144, .i1⟩
  | 8 => ⟨S_, .i32⟩
  | 9 => ⟨S262144, .i32⟩
  | 10 => ⟨S262144, .i32⟩
  | 11 => ⟨S262144, .i32⟩
  | 12 => ⟨S_, .i32⟩
  | 13 => ⟨S262144, .i32⟩
  | 14 => ⟨S262144, .i32⟩
  | 15 => ⟨S262144x1, .i32⟩
  | 16 => ⟨S262144x1, .i32⟩
  | 17 => ⟨S262144x2, .i32⟩
  | 18 => ⟨S262144x8, .f32⟩
  | 19 => ⟨S262144x8, .f32⟩
  | 20 => ⟨S262144x8, .f32⟩
  | 21 => ⟨S262144x8, .f32⟩
  | 22 => ⟨S_, .f32⟩
  | 23 => ⟨S262144x2, .f32⟩
  | 24 => ⟨S262144x2, .f32⟩
  | 25 => ⟨S_, .f32⟩
  | 26 => ⟨S262144x2, .f32⟩
  | 27 => ⟨S262144x2, .f32⟩
  | 28 => ⟨S262144x2, .f32⟩
  | 29 => ⟨S262144x2, .f32⟩
  | 30 => ⟨S262144x2, .i32⟩
  | 31 => ⟨S262144x2, .f32⟩
  | 32 => ⟨S_, .f32⟩
  | 33 => ⟨S262144x2, .f32⟩
  | 34 => ⟨S262144x2, .f32⟩
  | 35 => ⟨S_, .f32⟩
  | 36 => ⟨S262144x2, .f32⟩
  | 37 => ⟨S262144x2, .f32⟩
  | 38 => ⟨S262144x2, .f32⟩
  | 39 => ⟨S_, .f32⟩
  | 40 => ⟨S262144x8, .f32⟩
  | 41 => ⟨S262144x1, .f32⟩
  | 42 => ⟨S262144, .f32⟩
  | 43 => ⟨S_, .f32⟩
  | 44 => ⟨S262144, .f32⟩
  | 45 => ⟨S262144, .f32⟩
  | 46 => ⟨S262144x1, .f32⟩
  | 47 => ⟨S262144, .f32⟩
  | 48 => ⟨S_, .f32⟩
  | 49 => ⟨S262144, .f32⟩
  | 50 => ⟨S262144, .f32⟩
  | 51 => ⟨S262144x1, .i32⟩
  | 52 => ⟨S262144, .i32⟩
  | 53 => ⟨S_, .i32⟩
  | 54 => ⟨S262144, .i32⟩
  | 55 => ⟨S262144, .i32⟩
  | 56 => ⟨S262144x1, .i32⟩
  | 57 => ⟨S262144, .i32⟩
  | 58 => ⟨S_, .i32⟩
  | 59 => ⟨S262144, .i32⟩
  | 60 => ⟨S262144, .i32⟩
  | 61 => ⟨S_, .i32⟩
  | 62 => ⟨S262144, .i32⟩
  | 63 => ⟨S262144, .i32⟩
  | 64 => ⟨S262144, .i32⟩
  | 65 => ⟨S_, .i32⟩
  | 66 => ⟨S_, .i32⟩
  | 67 => ⟨S_, .i32⟩
  | 68 => ⟨S_, .i1⟩
  | 69 => ⟨S_, .i32⟩
  | 70 => ⟨S_, .i32⟩
  | 71 => ⟨S262144, .i32⟩
  | 72 => ⟨S262144, .i32⟩
  | 73 => ⟨S_, .i32⟩
  | 74 => ⟨S262144, .i32⟩
  | 75 => ⟨S262144, .i1⟩
  | 76 => ⟨S_, .i32⟩
  | 77 => ⟨S262144, .i32⟩
  | 78 => ⟨S262144, .i1⟩
  | 79 => ⟨S_, .i32⟩
  | 80 => ⟨S_, .i1⟩
  | 81 => ⟨S262144, .i1⟩
  | 82 => ⟨S262144, .i1⟩
  | 83 => ⟨S262144, .i1⟩
  | 84 => ⟨S262144, .i32⟩
  | 85 => ⟨S262144, .i32⟩
  | 86 => ⟨S262144, .i32⟩
  | 87 => ⟨S262144, .f32⟩
  | 88 => ⟨S262144x1, .f32⟩
  | 89 => ⟨S_, .i32⟩
  | 90 => ⟨S262144, .i32⟩
  | 91 => ⟨S262144, .i1⟩
  | 92 => ⟨S_, .i32⟩
  | 93 => ⟨S262144, .i32⟩
  | 94 => ⟨S262144, .i32⟩
  | 95 => ⟨S262144, .i32⟩
  | 96 => ⟨S_, .i32⟩
  | 97 => ⟨S262144, .i32⟩
  | 98 => ⟨S262144, .i32⟩
  | 99 => ⟨S262144x1, .i32⟩
  | 100 => ⟨S262144x1, .i32⟩
  | 101 => ⟨S262144x2, .i32⟩
  | 102 => ⟨S262144x8, .f32⟩
  | 103 => ⟨S262144x8, .f32⟩
  | 104 => ⟨S262144x8, .f32⟩
  | 105 => ⟨S262144x8, .f32⟩
  | 106 => ⟨S262144x1, .f32⟩
  | 107 => ⟨S262144, .f32⟩
  | 108 => ⟨S262144x1, .i32⟩
  | 109 => ⟨S262144, .i32⟩
  | 110 => ⟨S_, .i32⟩
  | 111 => ⟨S262144, .i32⟩
  | 112 => ⟨S262144, .i32⟩
  | 113 => ⟨S262144x1, .i32⟩
  | 114 => ⟨S262144, .i32⟩
  | 115 => ⟨S_, .i32⟩
  | 116 => ⟨S262144, .i32⟩
  | 117 => ⟨S262144, .i32⟩
  | 118 => ⟨S_, .i32⟩
  | 119 => ⟨S262144, .i32⟩
  | 120 => ⟨S262144, .i32⟩
  | 121 => ⟨S262144, .i32⟩
  | 122 => ⟨S_, .i32⟩
  | 123 => ⟨S_, .i32⟩
  | 124 => ⟨S_, .i32⟩
  | 125 => ⟨S_, .i1⟩
  | 126 => ⟨S_, .i32⟩
  | 127 => ⟨S_, .i32⟩
  | _ => ⟨S262144x2, .f32⟩

abbrev hbmTy0_9 (i : Nat) : BufTy := match i % 128 with
  | 0 => ⟨S262144, .i32⟩
  | 1 => ⟨S262144, .i32⟩
  | 2 => ⟨S_, .i32⟩
  | 3 => ⟨S262144, .i32⟩
  | 4 => ⟨S262144, .i1⟩
  | 5 => ⟨S_, .i32⟩
  | 6 => ⟨S262144, .i32⟩
  | 7 => ⟨S262144, .i1⟩
  | 8 => ⟨S_, .i32⟩
  | 9 => ⟨S_, .i1⟩
  | 10 => ⟨S262144, .i1⟩
  | 11 => ⟨S262144, .i1⟩
  | 12 => ⟨S262144, .i1⟩
  | 13 => ⟨S262144, .i32⟩
  | 14 => ⟨S262144, .i32⟩
  | 15 => ⟨S262144, .i32⟩
  | 16 => ⟨S262144, .f32⟩
  | 17 => ⟨S262144x1, .f32⟩
  | 18 => ⟨S_, .i32⟩
  | 19 => ⟨S262144, .i32⟩
  | 20 => ⟨S262144, .i1⟩
  | 21 => ⟨S_, .i32⟩
  | 22 => ⟨S262144, .i32⟩
  | 23 => ⟨S262144, .i32⟩
  | 24 => ⟨S262144, .i32⟩
  | 25 => ⟨S_, .i32⟩
  | 26 => ⟨S262144, .i32⟩
  | 27 => ⟨S262144, .i32⟩
  | 28 => ⟨S262144x1, .i32⟩
  | 29 => ⟨S262144x1, .i32⟩
  | 30 => ⟨S262144x2, .i32⟩
  | 31 => ⟨S262144x8, .f32⟩
  | 32 => ⟨S262144x8, .f32⟩
  | 33 => ⟨S262144x8, .f32⟩
  | 34 => ⟨S262144x8, .f32⟩
  | 35 => ⟨S262144x1, .f32⟩
  | 36 => ⟨S262144, .f32⟩
  | 37 => ⟨S262144x1, .f32⟩
  | 38 => ⟨S262144, .f32⟩
  | 39 => ⟨S_, .f32⟩
  | 40 => ⟨S262144, .f32⟩
  | 41 => ⟨S262144, .f32⟩
  | 42 => ⟨S262144x1, .i32⟩
  | 43 => ⟨S262144, .i32⟩
  | 44 => ⟨S_, .i32⟩
  | 45 => ⟨S262144, .i32⟩
  | 46 => ⟨S262144, .i32⟩
  | 47 => ⟨S262144x1, .i32⟩
  | 48 => ⟨S262144, .i32⟩
  | 49 => ⟨S_, .i32⟩
  | 50 => ⟨S262144, .i32⟩
  | 51 => ⟨S262144, .i32⟩
  | 52 => ⟨S_, .i32⟩
  | 53 => ⟨S262144, .i32⟩
  | 54 => ⟨S262144, .i32⟩
  | 55 => ⟨S262144, .i32⟩
  | 56 => ⟨S_, .i32⟩
  | 57 => ⟨S_, .i32⟩
  | 58 => ⟨S_, .i32⟩
  | 59 => ⟨S_, .i1⟩
  | 60 => ⟨S_, .i32⟩
  | 61 => ⟨S_, .i32⟩
  | 62 => ⟨S262144, .i32⟩
  | 63 => ⟨S262144, .i32⟩
  | 64 => ⟨S_, .i32⟩
  | 65 => ⟨S262144, .i32⟩
  | 66 => ⟨S262144, .i1⟩
  | 67 => ⟨S_, .i32⟩
  | 68 => ⟨S262144, .i32⟩
  | 69 => ⟨S262144, .i1⟩
  | 70 => ⟨S_, .i32⟩
  | 71 => ⟨S_, .i1⟩
  | 72 => ⟨S262144, .i1⟩
  | 73 => ⟨S262144, .i1⟩
  | 74 => ⟨S262144, .i1⟩
  | 75 => ⟨S262144, .i32⟩
  | 76 => ⟨S262144, .i32⟩
  | 77 => ⟨S262144, .i32⟩
  | 78 => ⟨S262144, .f32⟩
  | 79 => ⟨S262144x1, .f32⟩
  | 80 => ⟨S_, .i32⟩
  | 81 => ⟨S262144, .i32⟩
  | 82 => ⟨S262144, .i1⟩
  | 83 => ⟨S_, .i32⟩
  | 84 => ⟨S262144, .i32⟩
  | 85 => ⟨S262144, .i32⟩
  | 86 => ⟨S262144, .i32⟩
  | 87 => ⟨S_, .i32⟩
  | 88 => ⟨S262144, .i32⟩
  | 89 => ⟨S262144, .i32⟩
  | 90 => ⟨S262144x1, .i32⟩
  | 91 => ⟨S262144x1, .i32⟩
  | 92 => ⟨S262144x2, .i32⟩
  | 93 => ⟨S262144x8, .f32⟩
  | 94 => ⟨S262144x8, .f32⟩
  | 95 => ⟨S262144x8, .f32⟩
  | 96 => ⟨S262144x8, .f32⟩
  | 97 => ⟨S262144x1, .f32⟩
  | 98 => ⟨S262144, .f32⟩
  | 99 => ⟨S262144x1, .i32⟩
  | 100 => ⟨S262144, .i32⟩
  | 101 => ⟨S_, .i32⟩
  | 102 => ⟨S262144, .i32⟩
  | 103 => ⟨S262144, .i32⟩
  | 104 => ⟨S262144x1, .i32⟩
  | 105 => ⟨S262144, .i32⟩
  | 106 => ⟨S_, .i32⟩
  | 107 => ⟨S262144, .i32⟩
  | 108 => ⟨S262144, .i32⟩
  | 109 => ⟨S_, .i32⟩
  | 110 => ⟨S262144, .i32⟩
  | 111 => ⟨S262144, .i32⟩
  | 112 => ⟨S262144, .i32⟩
  | 113 => ⟨S_, .i32⟩
  | 114 => ⟨S_, .i32⟩
  | 115 => ⟨S_, .i32⟩
  | 116 => ⟨S_, .i1⟩
  | 117 => ⟨S_, .i32⟩
  | 118 => ⟨S_, .i32⟩
  | 119 => ⟨S262144, .i32⟩
  | 120 => ⟨S262144, .i32⟩
  | 121 => ⟨S_, .i32⟩
  | 122 => ⟨S262144, .i32⟩
  | 123 => ⟨S262144, .i1⟩
  | 124 => ⟨S_, .i32⟩
  | 125 => ⟨S262144, .i32⟩
  | 126 => ⟨S262144, .i1⟩
  | 127 => ⟨S_, .i32⟩
  | _ => ⟨S262144x2, .f32⟩

abbrev hbmTy0_10 (i : Nat) : BufTy := match i % 128 with
  | 0 => ⟨S_, .i1⟩
  | 1 => ⟨S262144, .i1⟩
  | 2 => ⟨S262144, .i1⟩
  | 3 => ⟨S262144, .i1⟩
  | 4 => ⟨S262144, .i32⟩
  | 5 => ⟨S262144, .i32⟩
  | 6 => ⟨S262144, .i32⟩
  | 7 => ⟨S262144, .f32⟩
  | 8 => ⟨S262144x1, .f32⟩
  | 9 => ⟨S_, .i32⟩
  | 10 => ⟨S262144, .i32⟩
  | 11 => ⟨S262144, .i1⟩
  | 12 => ⟨S_, .i32⟩
  | 13 => ⟨S262144, .i32⟩
  | 14 => ⟨S262144, .i32⟩
  | 15 => ⟨S262144, .i32⟩
  | 16 => ⟨S_, .i32⟩
  | 17 => ⟨S262144, .i32⟩
  | 18 => ⟨S262144, .i32⟩
  | 19 => ⟨S262144x1, .i32⟩
  | 20 => ⟨S262144x1, .i32⟩
  | 21 => ⟨S262144x2, .i32⟩
  | 22 => ⟨S262144x8, .f32⟩
  | 23 => ⟨S262144x8, .f32⟩
  | 24 => ⟨S262144x8, .f32⟩
  | 25 => ⟨S262144x8, .f32⟩
  | 26 => ⟨S_, .f32⟩
  | 27 => ⟨S262144x2, .f32⟩
  | 28 => ⟨S262144x2, .f32⟩
  | 29 => ⟨S_, .f32⟩
  | 30 => ⟨S262144x2, .f32⟩
  | 31 => ⟨S262144x2, .f32⟩
  | 32 => ⟨S262144x2, .f32⟩
  | 33 => ⟨S262144x2, .f32⟩
  | 34 => ⟨S262144x2, .i32⟩
  | 35 => ⟨S262144x2, .f32⟩
  | 36 => ⟨S_, .f32⟩
  | 37 => ⟨S262144x2, .f32⟩
  | 38 => ⟨S262144x2, .f32⟩
  | 39 => ⟨S_, .f32⟩
  | 40 => ⟨S262144x2, .f32⟩
  | 41 => ⟨S262144x2, .f32⟩
  | 42 => ⟨S262144x2, .f32⟩
  | 43 => ⟨S_, .f32⟩
  | 44 => ⟨S262144x8, .f32⟩
  | 45 => ⟨S262144x1, .f32⟩
  | 46 => ⟨S262144, .f32⟩
  | 47 => ⟨S_, .f32⟩
  | 48 => ⟨S262144, .f32⟩
  | 49 => ⟨S262144, .f32⟩
  | 50 => ⟨S262144x1, .f32⟩
  | 51 => ⟨S262144, .f32⟩
  | 52 => ⟨S_, .f32⟩
  | 53 => ⟨S262144, .f32⟩
  | 54 => ⟨S262144, .f32⟩
  | 55 => ⟨S262144x1, .i32⟩
  | 56 => ⟨S262144, .i32⟩
  | 57 => ⟨S_, .i32⟩
  | 58 => ⟨S262144, .i32⟩
  | 59 => ⟨S262144, .i32⟩
  | 60 => ⟨S262144x1, .i32⟩
  | 61 => ⟨S262144, .i32⟩
  | 62 => ⟨S_, .i32⟩
  | 63 => ⟨S262144, .i32⟩
  | 64 => ⟨S262144, .i32⟩
  | 65 => ⟨S_, .i32⟩
  | 66 => ⟨S262144, .i32⟩
  | 67 => ⟨S262144, .i32⟩
  | 68 => ⟨S262144, .i32⟩
  | 69 => ⟨S_, .i32⟩
  | 70 => ⟨S_, .i32⟩
  | 71 => ⟨S_, .i32⟩
  | 72 => ⟨S_, .i1⟩
  | 73 => ⟨S_, .i32⟩
  | 74 => ⟨S_, .i32⟩
  | 75 => ⟨S262144, .i32⟩
  | 76 => ⟨S262144, .i32⟩
  | 77 => ⟨S_, .i32⟩
  | 78 => ⟨S262144, .i32⟩
  | 79 => ⟨S262144, .i1⟩
  | 80 => ⟨S_, .i32⟩
  | 81 => ⟨S262144, .i32⟩
  | 82 => ⟨S262144, .i1⟩
  | 83 => ⟨S_, .i32⟩
  | 84 => ⟨S_, .i1⟩
  | 85 => ⟨S262144, .i1⟩
  | 86 => ⟨S262144, .i1⟩
  | 87 => ⟨S262144, .i1⟩
  | 88 => ⟨S262144, .i32⟩
  | 89 => ⟨S262144, .i32⟩
  | 90 => ⟨S262144, .i32⟩
  | 91 => ⟨S262144, .f32⟩
  | 92 => ⟨S262144x1, .f32⟩
  | 93 => ⟨S_, .i32⟩
  | 94 => ⟨S262144, .i32⟩
  | 95 => ⟨S262144, .i1⟩
  | 96 => ⟨S_, .i32⟩
  | 97 => ⟨S262144, .i32⟩
  | 98 => ⟨S262144, .i32⟩
  | 99 => ⟨S262144, .i32⟩
  | 100 => ⟨S_, .i32⟩
  | 101 => ⟨S262144, .i32⟩
  | 102 => ⟨S262144, .i32⟩
  | 103 => ⟨S262144x1, .i32⟩
  | 104 => ⟨S262144x1, .i32⟩
  | 105 => ⟨S262144x2, .i32⟩
  | 106 => ⟨S262144x8, .f32⟩
  | 107 => ⟨S262144x8, .f32⟩
  | 108 => ⟨S262144x8, .f32⟩
  | 109 => ⟨S262144x8, .f32⟩
  | 110 => ⟨S262144x1, .f32⟩
  | 111 => ⟨S262144, .f32⟩
  | 112 => ⟨S262144x1, .i32⟩
  | 113 => ⟨S262144, .i32⟩
  | 114 => ⟨S_, .i32⟩
  | 115 => ⟨S262144, .i32⟩
  | 116 => ⟨S262144, .i32⟩
  | 117 => ⟨S262144x1, .i32⟩
  | 118 => ⟨S262144, .i32⟩
  | 119 => ⟨S_, .i32⟩
  | 120 => ⟨S262144, .i32⟩
  | 121 => ⟨S262144, .i32⟩
  | 122 => ⟨S_, .i32⟩
  | 123 => ⟨S262144, .i32⟩
  | 124 => ⟨S262144, .i32⟩
  | 125 => ⟨S262144, .i32⟩
  | 126 => ⟨S_, .i32⟩
  | 127 => ⟨S_, .i32⟩
  | _ => ⟨S262144x2, .f32⟩

abbrev hbmTy0_11 (i : Nat) : BufTy := match i % 128 with
  | 0 => ⟨S_, .i32⟩
  | 1 => ⟨S_, .i1⟩
  | 2 => ⟨S_, .i32⟩
  | 3 => ⟨S_, .i32⟩
  | 4 => ⟨S262144, .i32⟩
  | 5 => ⟨S262144, .i32⟩
  | 6 => ⟨S_, .i32⟩
  | 7 => ⟨S262144, .i32⟩
  | 8 => ⟨S262144, .i1⟩
  | 9 => ⟨S_, .i32⟩
  | 10 => ⟨S262144, .i32⟩
  | 11 => ⟨S262144, .i1⟩
  | 12 => ⟨S_, .i32⟩
  | 13 => ⟨S_, .i1⟩
  | 14 => ⟨S262144, .i1⟩
  | 15 => ⟨S262144, .i1⟩
  | 16 => ⟨S262144, .i1⟩
  | 17 => ⟨S262144, .i32⟩
  | 18 => ⟨S262144, .i32⟩
  | 19 => ⟨S262144, .i32⟩
  | 20 => ⟨S262144, .f32⟩
  | 21 => ⟨S262144x1, .f32⟩
  | 22 => ⟨S_, .i32⟩
  | 23 => ⟨S262144, .i32⟩
  | 24 => ⟨S262144, .i1⟩
  | 25 => ⟨S_, .i32⟩
  | 26 => ⟨S262144, .i32⟩
  | 27 => ⟨S262144, .i32⟩
  | 28 => ⟨S262144, .i32⟩
  | 29 => ⟨S_, .i32⟩
  | 30 => ⟨S262144, .i32⟩
  | 31 => ⟨S262144, .i32⟩
  | 32 => ⟨S262144x1, .i32⟩
  | 33 => ⟨S262144x1, .i32⟩
  | 34 => ⟨S262144x2, .i32⟩
  | 35 => ⟨S262144x8, .f32⟩
  | 36 => ⟨S262144x8, .f32⟩
  | 37 => ⟨S262144x8, .f32⟩
  | 38 => ⟨S262144x8, .f32⟩
  | 39 => ⟨S262144x1, .f32⟩
  | 40 => ⟨S262144, .f32⟩
  | 41 => ⟨S262144x1, .f32⟩
  | 42 => ⟨S262144, .f32⟩
  | 43 => ⟨S_, .f32⟩
  | 44 => ⟨S262144, .f32⟩
  | 45 => ⟨S262144, .f32⟩
  | 46 => ⟨S262144x1, .i32⟩
  | 47 => ⟨S262144, .i32⟩
  | 48 => ⟨S_, .i32⟩
  | 49 => ⟨S262144, .i32⟩
  | 50 => ⟨S262144, .i32⟩
  | 51 => ⟨S262144x1, .i32⟩
  | 52 => ⟨S262144, .i32⟩
  | 53 => ⟨S_, .i32⟩
  | 54 => ⟨S262144, .i32⟩
  | 55 => ⟨S262144, .i32⟩
  | 56 => ⟨S_, .i32⟩
  | 57 => ⟨S262144, .i32⟩
  | 58 => ⟨S262144, .i32⟩
  | 59 => ⟨S262144, .i32⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S262144, .i32⟩
  | 67 => ⟨S262144, .i32⟩
  | 68 => ⟨S_, .i32⟩
  | 69 => ⟨S262144, .i32⟩
  | 70 => ⟨S262144, .i1⟩
  | 71 => ⟨S_, .i32⟩
  | 72 => ⟨S262144, .i32⟩
  | 73 => ⟨S262144, .i1⟩
  | 74 => ⟨S_, .i32⟩
  | 75 => ⟨S_, .i1⟩
  | 76 => ⟨S262144, .i1⟩
  | 77 => ⟨S262144, .i1⟩
  | 78 => ⟨S262144, .i1⟩
  | 79 => ⟨S262144, .i32⟩
  | 80 => ⟨S262144, .i32⟩
  | 81 => ⟨S262144, .i32⟩
  | 82 => ⟨S262144, .f32⟩
  | 83 => ⟨S262144x1, .f32⟩
  | 84 => ⟨S_, .i32⟩
  | 85 => ⟨S262144, .i32⟩
  | 86 => ⟨S262144, .i1⟩
  | 87 => ⟨S_, .i32⟩
  | 88 => ⟨S262144, .i32⟩
  | 89 => ⟨S262144, .i32⟩
  | 90 => ⟨S262144, .i32⟩
  | 91 => ⟨S_, .i32⟩
  | 92 => ⟨S262144, .i32⟩
  | 93 => ⟨S262144, .i32⟩
  | 94 => ⟨S262144x1, .i32⟩
  | 95 => ⟨S262144x1, .i32⟩
  | 96 => ⟨S262144x2, .i32⟩
  | 97 => ⟨S262144x8, .f32⟩
  | 98 => ⟨S262144x8, .f32⟩
  | 99 => ⟨S262144x8, .f32⟩
  | 100 => ⟨S262144x8, .f32⟩
  | 101 => ⟨S262144x1, .f32⟩
  | 102 => ⟨S262144, .f32⟩
  | 103 => ⟨S262144x1, .i32⟩
  | 104 => ⟨S262144, .i32⟩
  | 105 => ⟨S_, .i32⟩
  | 106 => ⟨S262144, .i32⟩
  | 107 => ⟨S262144, .i32⟩
  | 108 => ⟨S262144x1, .i32⟩
  | 109 => ⟨S262144, .i32⟩
  | 110 => ⟨S_, .i32⟩
  | 111 => ⟨S262144, .i32⟩
  | 112 => ⟨S262144, .i32⟩
  | 113 => ⟨S_, .i32⟩
  | 114 => ⟨S262144, .i32⟩
  | 115 => ⟨S262144, .i32⟩
  | 116 => ⟨S262144, .i32⟩
  | 117 => ⟨S_, .i32⟩
  | 118 => ⟨S_, .i32⟩
  | 119 => ⟨S_, .i32⟩
  | 120 => ⟨S_, .i1⟩
  | 121 => ⟨S_, .i32⟩
  | 122 => ⟨S_, .i32⟩
  | 123 => ⟨S262144, .i32⟩
  | 124 => ⟨S262144, .i32⟩
  | 125 => ⟨S_, .i32⟩
  | 126 => ⟨S262144, .i32⟩
  | 127 => ⟨S262144, .i1⟩
  | _ => ⟨S262144x2, .f32⟩

abbrev hbmTy0_12 (i : Nat) : BufTy := match i % 128 with
  | 0 => ⟨S_, .i32⟩
  | 1 => ⟨S262144, .i32⟩
  | 2 => ⟨S262144, .i1⟩
  | 3 => ⟨S_, .i32⟩
  | 4 => ⟨S_, .i1⟩
  | 5 => ⟨S262144, .i1⟩
  | 6 => ⟨S262144, .i1⟩
  | 7 => ⟨S262144, .i1⟩
  | 8 => ⟨S262144, .i32⟩
  | 9 => ⟨S262144, .i32⟩
  | 10 => ⟨S262144, .i32⟩
  | 11 => ⟨S262144, .f32⟩
  | 12 => ⟨S262144x1, .f32⟩
  | 13 => ⟨S_, .i32⟩
  | 14 => ⟨S262144, .i32⟩
  | 15 => ⟨S262144, .i1⟩
  | 16 => ⟨S_, .i32⟩
  | 17 => ⟨S262144, .i32⟩
  | 18 => ⟨S262144, .i32⟩
  | 19 => ⟨S262144, .i32⟩
  | 20 => ⟨S_, .i32⟩
  | 21 => ⟨S262144, .i32⟩
  | 22 => ⟨S262144, .i32⟩
  | 23 => ⟨S262144x1, .i32⟩
  | 24 => ⟨S262144x1, .i32⟩
  | 25 => ⟨S262144x2, .i32⟩
  | 26 => ⟨S262144x8, .f32⟩
  | 27 => ⟨S262144x8, .f32⟩
  | 28 => ⟨S262144x8, .f32⟩
  | 29 => ⟨S262144x8, .f32⟩
  | 30 => ⟨S_, .f32⟩
  | 31 => ⟨S262144x2, .f32⟩
  | 32 => ⟨S262144x2, .f32⟩
  | 33 => ⟨S_, .f32⟩
  | 34 => ⟨S262144x2, .f32⟩
  | 35 => ⟨S262144x2, .f32⟩
  | 36 => ⟨S262144x2, .f32⟩
  | 37 => ⟨S262144x2, .f32⟩
  | 38 => ⟨S262144x2, .i32⟩
  | 39 => ⟨S262144x2, .f32⟩
  | 40 => ⟨S_, .f32⟩
  | 41 => ⟨S262144x2, .f32⟩
  | 42 => ⟨S262144x2, .f32⟩
  | 43 => ⟨S_, .f32⟩
  | 44 => ⟨S262144x2, .f32⟩
  | 45 => ⟨S262144x2, .f32⟩
  | 46 => ⟨S262144x2, .f32⟩
  | 47 => ⟨S_, .f32⟩
  | 48 => ⟨S262144x8, .f32⟩
  | 49 => ⟨S262144x1, .f32⟩
  | 50 => ⟨S262144, .f32⟩
  | 51 => ⟨S_, .f32⟩
  | 52 => ⟨S262144, .f32⟩
  | 53 => ⟨S262144, .f32⟩
  | 54 => ⟨S262144x1, .f32⟩
  | 55 => ⟨S262144, .f32⟩
  | 56 => ⟨S_, .f32⟩
  | 57 => ⟨S262144, .f32⟩
  | 58 => ⟨S262144, .f32⟩
  | 59 => ⟨S262144x1, .i32⟩
  | 60 => ⟨S262144, .i32⟩
  | 61 => ⟨S_, .i32⟩
  | 62 => ⟨S262144, .i32⟩
  | 63 => ⟨S262144, .i32⟩
  | 64 => ⟨S262144x1, .i32⟩
  | 65 => ⟨S262144, .i32⟩
  | 66 => ⟨S_, .i32⟩
  | 67 => ⟨S262144, .i32⟩
  | 68 => ⟨S262144, .i32⟩
  | 69 => ⟨S_, .i32⟩
  | 70 => ⟨S262144, .i32⟩
  | 71 => ⟨S262144, .i32⟩
  | 72 => ⟨S262144, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S262144, .i32⟩
  | 80 => ⟨S262144, .i32⟩
  | 81 => ⟨S_, .i32⟩
  | 82 => ⟨S262144, .i32⟩
  | 83 => ⟨S262144, .i1⟩
  | 84 => ⟨S_, .i32⟩
  | 85 => ⟨S262144, .i32⟩
  | 86 => ⟨S262144, .i1⟩
  | 87 => ⟨S_, .i32⟩
  | 88 => ⟨S_, .i1⟩
  | 89 => ⟨S262144, .i1⟩
  | 90 => ⟨S262144, .i1⟩
  | 91 => ⟨S262144, .i1⟩
  | 92 => ⟨S262144, .i32⟩
  | 93 => ⟨S262144, .i32⟩
  | 94 => ⟨S262144, .i32⟩
  | 95 => ⟨S262144, .f32⟩
  | 96 => ⟨S262144x1, .f32⟩
  | 97 => ⟨S_, .i32⟩
  | 98 => ⟨S262144, .i32⟩
  | 99 => ⟨S262144, .i1⟩
  | 100 => ⟨S_, .i32⟩
  | 101 => ⟨S262144, .i32⟩
  | 102 => ⟨S262144, .i32⟩
  | 103 => ⟨S262144, .i32⟩
  | 104 => ⟨S_, .i32⟩
  | 105 => ⟨S262144, .i32⟩
  | 106 => ⟨S262144, .i32⟩
  | 107 => ⟨S262144x1, .i32⟩
  | 108 => ⟨S262144x1, .i32⟩
  | 109 => ⟨S262144x2, .i32⟩
  | 110 => ⟨S262144x8, .f32⟩
  | 111 => ⟨S262144x8, .f32⟩
  | 112 => ⟨S262144x8, .f32⟩
  | 113 => ⟨S262144x8, .f32⟩
  | 114 => ⟨S262144x1, .f32⟩
  | 115 => ⟨S262144, .f32⟩
  | 116 => ⟨S262144x1, .i32⟩
  | 117 => ⟨S262144, .i32⟩
  | 118 => ⟨S_, .i32⟩
  | 119 => ⟨S262144, .i32⟩
  | 120 => ⟨S262144, .i32⟩
  | 121 => ⟨S262144x1, .i32⟩
  | 122 => ⟨S262144, .i32⟩
  | 123 => ⟨S_, .i32⟩
  | 124 => ⟨S262144, .i32⟩
  | 125 => ⟨S262144, .i32⟩
  | 126 => ⟨S_, .i32⟩
  | 127 => ⟨S262144, .i32⟩
  | _ => ⟨S262144x2, .f32⟩

abbrev hbmTy0_13 (i : Nat) : BufTy := match i % 128 with
  | 0 => ⟨S262144, .i32⟩
  | 1 => ⟨S262144, .i32⟩
  | 2 => ⟨S_, .i32⟩
  | 3 => ⟨S_, .i32⟩
  | 4 => ⟨S_, .i32⟩
  | 5 => ⟨S_, .i1⟩
  | 6 => ⟨S_, .i32⟩
  | 7 => ⟨S_, .i32⟩
  | 8 => ⟨S262144, .i32⟩
  | 9 => ⟨S262144, .i32⟩
  | 10 => ⟨S_, .i32⟩
  | 11 => ⟨S262144, .i32⟩
  | 12 => ⟨S262144, .i1⟩
  | 13 => ⟨S_, .i32⟩
  | 14 => ⟨S262144, .i32⟩
  | 15 => ⟨S262144, .i1⟩
  | 16 => ⟨S_, .i32⟩
  | 17 => ⟨S_, .i1⟩
  | 18 => ⟨S262144, .i1⟩
  | 19 => ⟨S262144, .i1⟩
  | 20 => ⟨S262144, .i1⟩
  | 21 => ⟨S262144, .i32⟩
  | 22 => ⟨S262144, .i32⟩
  | 23 => ⟨S262144, .i32⟩
  | 24 => ⟨S262144, .f32⟩
  | 25 => ⟨S262144x1, .f32⟩
  | 26 => ⟨S_, .i32⟩
  | 27 => ⟨S262144, .i32⟩
  | 28 => ⟨S262144, .i1⟩
  | 29 => ⟨S_, .i32⟩
  | 30 => ⟨S262144, .i32⟩
  | 31 => ⟨S262144, .i32⟩
  | 32 => ⟨S262144, .i32⟩
  | 33 => ⟨S_, .i32⟩
  | 34 => ⟨S262144, .i32⟩
  | 35 => ⟨S262144, .i32⟩
  | 36 => ⟨S262144x1, .i32⟩
  | 37 => ⟨S262144x1, .i32⟩
  | 38 => ⟨S262144x2, .i32⟩
  | 39 => ⟨S262144x8, .f32⟩
  | 40 => ⟨S262144x8, .f32⟩
  | 41 => ⟨S262144x8, .f32⟩
  | 42 => ⟨S262144x8, .f32⟩
  | 43 => ⟨S262144x1, .f32⟩
  | 44 => ⟨S262144, .f32⟩
  | 45 => ⟨S262144x1, .f32⟩
  | 46 => ⟨S262144, .f32⟩
  | 47 => ⟨S_, .f32⟩
  | 48 => ⟨S262144, .f32⟩
  | 49 => ⟨S262144, .f32⟩
  | 50 => ⟨S262144x1, .i32⟩
  | 51 => ⟨S262144, .i32⟩
  | 52 => ⟨S_, .i32⟩
  | 53 => ⟨S262144, .i32⟩
  | 54 => ⟨S262144, .i32⟩
  | 55 => ⟨S262144x1, .i32⟩
  | 56 => ⟨S262144, .i32⟩
  | 57 => ⟨S_, .i32⟩
  | 58 => ⟨S262144, .i32⟩
  | 59 => ⟨S262144, .i32⟩
  | 60 => ⟨S_, .i32⟩
  | 61 => ⟨S262144, .i32⟩
  | 62 => ⟨S262144, .i32⟩
  | 63 => ⟨S262144, .i32⟩
  | 64 => ⟨S_, .i32⟩
  | 65 => ⟨S_, .i32⟩
  | 66 => ⟨S_, .i32⟩
  | 67 => ⟨S_, .i1⟩
  | 68 => ⟨S_, .i32⟩
  | 69 => ⟨S_, .i32⟩
  | 70 => ⟨S262144, .i32⟩
  | 71 => ⟨S262144, .i32⟩
  | 72 => ⟨S_, .i32⟩
  | 73 => ⟨S262144, .i32⟩
  | 74 => ⟨S262144, .i1⟩
  | 75 => ⟨S_, .i32⟩
  | 76 => ⟨S262144, .i32⟩
  | 77 => ⟨S262144, .i1⟩
  | 78 => ⟨S_, .i32⟩
  | 79 => ⟨S_, .i1⟩
  | 80 => ⟨S262144, .i1⟩
  | 81 => ⟨S262144, .i1⟩
  | 82 => ⟨S262144, .i1⟩
  | 83 => ⟨S262144, .i32⟩
  | 84 => ⟨S262144, .i32⟩
  | 85 => ⟨S262144, .i32⟩
  | 86 => ⟨S262144, .f32⟩
  | 87 => ⟨S262144x1, .f32⟩
  | 88 => ⟨S_, .i32⟩
  | 89 => ⟨S262144, .i32⟩
  | 90 => ⟨S262144, .i1⟩
  | 91 => ⟨S_, .i32⟩
  | 92 => ⟨S262144, .i32⟩
  | 93 => ⟨S262144, .i32⟩
  | 94 => ⟨S262144, .i32⟩
  | 95 => ⟨S_, .i32⟩
  | 96 => ⟨S262144, .i32⟩
  | 97 => ⟨S262144, .i32⟩
  | 98 => ⟨S262144x1, .i32⟩
  | 99 => ⟨S262144x1, .i32⟩
  | 100 => ⟨S262144x2, .i32⟩
  | 101 => ⟨S262144x8, .f32⟩
  | 102 => ⟨S262144x8, .f32⟩
  | 103 => ⟨S262144x8, .f32⟩
  | 104 => ⟨S262144x8, .f32⟩
  | 105 => ⟨S262144x1, .f32⟩
  | 106 => ⟨S262144, .f32⟩
  | 107 => ⟨S262144x1, .i32⟩
  | 108 => ⟨S262144, .i32⟩
  | 109 => ⟨S_, .i32⟩
  | 110 => ⟨S262144, .i32⟩
  | 111 => ⟨S262144, .i32⟩
  | 112 => ⟨S262144x1, .i32⟩
  | 113 => ⟨S262144, .i32⟩
  | 114 => ⟨S_, .i32⟩
  | 115 => ⟨S262144, .i32⟩
  | 116 => ⟨S262144, .i32⟩
  | 117 => ⟨S_, .i32⟩
  | 118 => ⟨S262144, .i32⟩
  | 119 => ⟨S262144, .i32⟩
  | 120 => ⟨S262144, .i32⟩
  | 121 => ⟨S_, .i32⟩
  | 122 => ⟨S_, .i32⟩
  | 123 => ⟨S_, .i32⟩
  | 124 => ⟨S_, .i1⟩
  | 125 => ⟨S_, .i32⟩
  | 126 => ⟨S_, .i32⟩
  | 127 => ⟨S262144, .i32⟩
  | _ => ⟨S262144x2, .f32⟩

abbrev hbmTy0_14 (i : Nat) : BufTy := match i % 128 with
  | 0 => ⟨S262144, .i32⟩
  | 1 => ⟨S_, .i32⟩
  | 2 => ⟨S262144, .i32⟩
  | 3 => ⟨S262144, .i1⟩
  | 4 => ⟨S_, .i32⟩
  | 5 => ⟨S262144, .i32⟩
  | 6 => ⟨S262144, .i1⟩
  | 7 => ⟨S_, .i32⟩
  | 8 => ⟨S_, .i1⟩
  | 9 => ⟨S262144, .i1⟩
  | 10 => ⟨S262144, .i1⟩
  | 11 => ⟨S262144, .i1⟩
  | 12 => ⟨S262144, .i32⟩
  | 13 => ⟨S262144, .i32⟩
  | 14 => ⟨S262144, .i32⟩
  | 15 => ⟨S262144, .f32⟩
  | 16 => ⟨S262144x1, .f32⟩
  | 17 => ⟨S_, .i32⟩
  | 18 => ⟨S262144, .i32⟩
  | 19 => ⟨S262144, .i1⟩
  | 20 => ⟨S_, .i32⟩
  | 21 => ⟨S262144, .i32⟩
  | 22 => ⟨S262144, .i32⟩
  | 23 => ⟨S262144, .i32⟩
  | 24 => ⟨S_, .i32⟩
  | 25 => ⟨S262144, .i32⟩
  | 26 => ⟨S262144, .i32⟩
  | 27 => ⟨S262144x1, .i32⟩
  | 28 => ⟨S262144x1, .i32⟩
  | 29 => ⟨S262144x2, .i32⟩
  | 30 => ⟨S262144x8, .f32⟩
  | 31 => ⟨S262144x8, .f32⟩
  | 32 => ⟨S262144x8, .f32⟩
  | 33 => ⟨S262144x8, .f32⟩
  | 34 => ⟨S_, .f32⟩
  | 35 => ⟨S262144x2, .f32⟩
  | 36 => ⟨S262144x2, .f32⟩
  | 37 => ⟨S_, .f32⟩
  | 38 => ⟨S262144x2, .f32⟩
  | 39 => ⟨S262144x2, .f32⟩
  | 40 => ⟨S262144x2, .f32⟩
  | 41 => ⟨S262144x2, .f32⟩
  | 42 => ⟨S262144x2, .i32⟩
  | 43 => ⟨S262144x2, .f32⟩
  | 44 => ⟨S_, .f32⟩
  | 45 => ⟨S262144x2, .f32⟩
  | 46 => ⟨S262144x2, .f32⟩
  | 47 => ⟨S_, .f32⟩
  | 48 => ⟨S262144x2, .f32⟩
  | 49 => ⟨S262144x2, .f32⟩
  | 50 => ⟨S262144x2, .f32⟩
  | 51 => ⟨S_, .f32⟩
  | 52 => ⟨S262144x8, .f32⟩
  | 53 => ⟨S262144x1, .f32⟩
  | 54 => ⟨S262144, .f32⟩
  | 55 => ⟨S_, .f32⟩
  | 56 => ⟨S262144, .f32⟩
  | 57 => ⟨S262144, .f32⟩
  | 58 => ⟨S262144x1, .f32⟩
  | 59 => ⟨S262144, .f32⟩
  | 60 => ⟨S_, .f32⟩
  | 61 => ⟨S262144, .f32⟩
  | 62 => ⟨S262144, .f32⟩
  | 63 => ⟨S262144x1, .i32⟩
  | 64 => ⟨S262144, .i32⟩
  | 65 => ⟨S_, .i32⟩
  | 66 => ⟨S262144, .i32⟩
  | 67 => ⟨S262144, .i32⟩
  | 68 => ⟨S262144x1, .i32⟩
  | 69 => ⟨S262144, .i32⟩
  | 70 => ⟨S_, .i32⟩
  | 71 => ⟨S262144, .i32⟩
  | 72 => ⟨S262144, .i32⟩
  | 73 => ⟨S_, .i32⟩
  | 74 => ⟨S262144, .i32⟩
  | 75 => ⟨S262144, .i32⟩
  | 76 => ⟨S262144, .i32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S262144, .i32⟩
  | 84 => ⟨S262144, .i32⟩
  | 85 => ⟨S_, .i32⟩
  | 86 => ⟨S262144, .i32⟩
  | 87 => ⟨S262144, .i1⟩
  | 88 => ⟨S_, .i32⟩
  | 89 => ⟨S262144, .i32⟩
  | 90 => ⟨S262144, .i1⟩
  | 91 => ⟨S_, .i32⟩
  | 92 => ⟨S_, .i1⟩
  | 93 => ⟨S262144, .i1⟩
  | 94 => ⟨S262144, .i1⟩
  | 95 => ⟨S262144, .i1⟩
  | 96 => ⟨S262144, .i32⟩
  | 97 => ⟨S262144, .i32⟩
  | 98 => ⟨S262144, .i32⟩
  | 99 => ⟨S262144, .f32⟩
  | 100 => ⟨S262144x1, .f32⟩
  | 101 => ⟨S_, .i32⟩
  | 102 => ⟨S262144, .i32⟩
  | 103 => ⟨S262144, .i1⟩
  | 104 => ⟨S_, .i32⟩
  | 105 => ⟨S262144, .i32⟩
  | 106 => ⟨S262144, .i32⟩
  | 107 => ⟨S262144, .i32⟩
  | 108 => ⟨S_, .i32⟩
  | 109 => ⟨S262144, .i32⟩
  | 110 => ⟨S262144, .i32⟩
  | 111 => ⟨S262144x1, .i32⟩
  | 112 => ⟨S262144x1, .i32⟩
  | 113 => ⟨S262144x2, .i32⟩
  | 114 => ⟨S262144x8, .f32⟩
  | 115 => ⟨S262144x8, .f32⟩
  | 116 => ⟨S262144x8, .f32⟩
  | 117 => ⟨S262144x8, .f32⟩
  | 118 => ⟨S262144x1, .f32⟩
  | 119 => ⟨S262144, .f32⟩
  | 120 => ⟨S262144x1, .i32⟩
  | 121 => ⟨S262144, .i32⟩
  | 122 => ⟨S_, .i32⟩
  | 123 => ⟨S262144, .i32⟩
  | 124 => ⟨S262144, .i32⟩
  | 125 => ⟨S262144x1, .i32⟩
  | 126 => ⟨S262144, .i32⟩
  | 127 => ⟨S_, .i32⟩
  | _ => ⟨S262144x2, .f32⟩

abbrev hbmTy0_15 (i : Nat) : BufTy := match i % 128 with
  | 0 => ⟨S262144, .i32⟩
  | 1 => ⟨S262144, .i32⟩
  | 2 => ⟨S_, .i32⟩
  | 3 => ⟨S262144, .i32⟩
  | 4 => ⟨S262144, .i32⟩
  | 5 => ⟨S262144, .i32⟩
  | 6 => ⟨S_, .i32⟩
  | 7 => ⟨S_, .i32⟩
  | 8 => ⟨S_, .i32⟩
  | 9 => ⟨S_, .i1⟩
  | 10 => ⟨S_, .i32⟩
  | 11 => ⟨S_, .i32⟩
  | 12 => ⟨S262144, .i32⟩
  | 13 => ⟨S262144, .i32⟩
  | 14 => ⟨S_, .i32⟩
  | 15 => ⟨S262144, .i32⟩
  | 16 => ⟨S262144, .i1⟩
  | 17 => ⟨S_, .i32⟩
  | 18 => ⟨S262144, .i32⟩
  | 19 => ⟨S262144, .i1⟩
  | 20 => ⟨S_, .i32⟩
  | 21 => ⟨S_, .i1⟩
  | 22 => ⟨S262144, .i1⟩
  | 23 => ⟨S262144, .i1⟩
  | 24 => ⟨S262144, .i1⟩
  | 25 => ⟨S262144, .i32⟩
  | 26 => ⟨S262144, .i32⟩
  | 27 => ⟨S262144, .i32⟩
  | 28 => ⟨S262144, .f32⟩
  | 29 => ⟨S262144x1, .f32⟩
  | 30 => ⟨S_, .i32⟩
  | 31 => ⟨S262144, .i32⟩
  | 32 => ⟨S262144, .i1⟩
  | 33 => ⟨S_, .i32⟩
  | 34 => ⟨S262144, .i32⟩
  | 35 => ⟨S262144, .i32⟩
  | 36 => ⟨S262144, .i32⟩
  | 37 => ⟨S_, .i32⟩
  | 38 => ⟨S262144, .i32⟩
  | 39 => ⟨S262144, .i32⟩
  | 40 => ⟨S262144x1, .i32⟩
  | 41 => ⟨S262144x1, .i32⟩
  | 42 => ⟨S262144x2, .i32⟩
  | 43 => ⟨S262144x8, .f32⟩
  | 44 => ⟨S262144x8, .f32⟩
  | 45 => ⟨S262144x8, .f32⟩
  | 46 => ⟨S262144x8, .f32⟩
  | 47 => ⟨S262144x1, .f32⟩
  | 48 => ⟨S262144, .f32⟩
  | 49 => ⟨S262144x1, .f32⟩
  | 50 => ⟨S262144, .f32⟩
  | 51 => ⟨S_, .f32⟩
  | 52 => ⟨S262144, .f32⟩
  | 53 => ⟨S262144, .f32⟩
  | 54 => ⟨S262144x1, .i32⟩
  | 55 => ⟨S262144, .i32⟩
  | 56 => ⟨S_, .i32⟩
  | 57 => ⟨S262144, .i32⟩
  | 58 => ⟨S262144, .i32⟩
  | 59 => ⟨S262144x1, .i32⟩
  | 60 => ⟨S262144, .i32⟩
  | 61 => ⟨S_, .i32⟩
  | 62 => ⟨S262144, .i32⟩
  | 63 => ⟨S262144, .i32⟩
  | 64 => ⟨S_, .i32⟩
  | 65 => ⟨S262144, .i32⟩
  | 66 => ⟨S262144, .i32⟩
  | 67 => ⟨S262144, .i32⟩
  | 68 => ⟨S_, .i32⟩
  | 69 => ⟨S_, .i32⟩
  | 70 => ⟨S_, .i32⟩
  | 71 => ⟨S_, .i1⟩
  | 72 => ⟨S_, .i32⟩
  | 73 => ⟨S_, .i32⟩
  | 74 => ⟨S262144, .i32⟩
  | 75 => ⟨S262144, .i32⟩
  | 76 => ⟨S_, .i32⟩
  | 77 => ⟨S262144, .i32⟩
  | 78 => ⟨S262144, .i1⟩
  | 79 => ⟨S_, .i32⟩
  | 80 => ⟨S262144, .i32⟩
  | 81 => ⟨S262144, .i1⟩
  | 82 => ⟨S_, .i32⟩
  | 83 => ⟨S_, .i1⟩
  | 84 => ⟨S262144, .i1⟩
  | 85 => ⟨S262144, .i1⟩
  | 86 => ⟨S262144, .i1⟩
  | 87 => ⟨S262144, .i32⟩
  | 88 => ⟨S262144, .i32⟩
  | 89 => ⟨S262144, .i32⟩
  | 90 => ⟨S262144, .f32⟩
  | 91 => ⟨S262144x1, .f32⟩
  | 92 => ⟨S_, .i32⟩
  | 93 => ⟨S262144, .i32⟩
  | 94 => ⟨S262144, .i1⟩
  | 95 => ⟨S_, .i32⟩
  | 96 => ⟨S262144, .i32⟩
  | 97 => ⟨S262144, .i32⟩
  | 98 => ⟨S262144, .i32⟩
  | 99 => ⟨S_, .i32⟩
  | 100 => ⟨S262144, .i32⟩
  | 101 => ⟨S262144, .i32⟩
  | 102 => ⟨S262144x1, .i32⟩
  | 103 => ⟨S262144x1, .i32⟩
  | 104 => ⟨S262144x2, .i32⟩
  | 105 => ⟨S262144x8, .f32⟩
  | 106 => ⟨S262144x8, .f32⟩
  | 107 => ⟨S262144x8, .f32⟩
  | 108 => ⟨S262144x8, .f32⟩
  | 109 => ⟨S262144x1, .f32⟩
  | 110 => ⟨S262144, .f32⟩
  | 111 => ⟨S262144x1, .i32⟩
  | 112 => ⟨S262144, .i32⟩
  | 113 => ⟨S_, .i32⟩
  | 114 => ⟨S262144, .i32⟩
  | 115 => ⟨S262144, .i32⟩
  | 116 => ⟨S262144x1, .i32⟩
  | 117 => ⟨S262144, .i32⟩
  | 118 => ⟨S_, .i32⟩
  | 119 => ⟨S262144, .i32⟩
  | 120 => ⟨S262144, .i32⟩
  | 121 => ⟨S_, .i32⟩
  | 122 => ⟨S262144, .i32⟩
  | 123 => ⟨S262144, .i32⟩
  | 124 => ⟨S262144, .i32⟩
  | 125 => ⟨S_, .i32⟩
  | 126 => ⟨S_, .i32⟩
  | 127 => ⟨S_, .i32⟩
  | _ => ⟨S262144x2, .f32⟩

abbrev hbmTy0_16 (i : Nat) : BufTy := match i % 128 with
  | 0 => ⟨S_, .i1⟩
  | 1 => ⟨S_, .i32⟩
  | 2 => ⟨S_, .i32⟩
  | 3 => ⟨S262144, .i32⟩
  | 4 => ⟨S262144, .i32⟩
  | 5 => ⟨S_, .i32⟩
  | 6 => ⟨S262144, .i32⟩
  | 7 => ⟨S262144, .i1⟩
  | 8 => ⟨S_, .i32⟩
  | 9 => ⟨S262144, .i32⟩
  | 10 => ⟨S262144, .i1⟩
  | 11 => ⟨S_, .i32⟩
  | 12 => ⟨S_, .i1⟩
  | 13 => ⟨S262144, .i1⟩
  | 14 => ⟨S262144, .i1⟩
  | 15 => ⟨S262144, .i1⟩
  | 16 => ⟨S262144, .i32⟩
  | 17 => ⟨S262144, .i32⟩
  | 18 => ⟨S262144, .i32⟩
  | 19 => ⟨S262144, .f32⟩
  | 20 => ⟨S262144x1, .f32⟩
  | 21 => ⟨S_, .i32⟩
  | 22 => ⟨S262144, .i32⟩
  | 23 => ⟨S262144, .i1⟩
  | 24 => ⟨S_, .i32⟩
  | 25 => ⟨S262144, .i32⟩
  | 26 => ⟨S262144, .i32⟩
  | 27 => ⟨S262144, .i32⟩
  | 28 => ⟨S_, .i32⟩
  | 29 => ⟨S262144, .i32⟩
  | 30 => ⟨S262144, .i32⟩
  | 31 => ⟨S262144x1, .i32⟩
  | 32 => ⟨S262144x1, .i32⟩
  | 33 => ⟨S262144x2, .i32⟩
  | 34 => ⟨S262144x8, .f32⟩
  | 35 => ⟨S262144x8, .f32⟩
  | 36 => ⟨S262144x8, .f32⟩
  | 37 => ⟨S262144x8, .f32⟩
  | 38 => ⟨S262144x64, .f32⟩
  | 39 => ⟨S262144x256, .f32⟩
  | 40 => ⟨S_, .f32⟩
  | 41 => ⟨S262144x256, .f32⟩
  | 42 => ⟨S262144x256, .f32⟩
  | 43 => ⟨S262144x256, .f32⟩
  | 44 => ⟨S_, .f32⟩
  | 45 => ⟨S262144x256, .f32⟩
  | 46 => ⟨S262144x256, .f32⟩
  | 47 => ⟨S262144x256, .f32⟩
  | 48 => ⟨S_, .f32⟩
  | 49 => ⟨S262144x256, .f32⟩
  | 50 => ⟨S262144x256, .f32⟩
  | 51 => ⟨S262144x1, .f32⟩
  | _ => ⟨S262144x2, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | _ => ⟨S262144x2, .f32⟩

abbrev bufTy : (tb : Table) → Fin (tcTables nBuf tb) → BufTy
  | .hbm, ⟨i, _⟩ => hbmTy i
  | _, _ => ⟨S262144x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_6 : Ref sig .tc := ⟨.hbm, 42, rfl⟩
abbrev main_v28 : Ref sig .tc := ⟨.hbm, 43, rfl⟩
abbrev main_v29 : Ref sig .tc := ⟨.hbm, 44, rfl⟩
abbrev main_c_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_8 : Ref sig .tc := ⟨.hbm, 49, rfl⟩
abbrev main_call0_v0 : Ref sig .tc := ⟨.hbm, 50, rfl⟩
abbrev main_call0_c : Ref sig .tc := ⟨.hbm, 51, rfl⟩
abbrev main_call0_v1 : Ref sig .tc := ⟨.hbm, 52, rfl⟩
abbrev main_call0_c_0 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_c_1 : Ref sig .tc := ⟨.hbm, 57, rfl⟩
abbrev main_call0_v5 : Ref sig .tc := ⟨.hbm, 58, rfl⟩
abbrev main_call0_v6 : Ref sig .tc := ⟨.hbm, 59, rfl⟩
abbrev main_call0_c_2 : Ref sig .tc := ⟨.hbm, 60, rfl⟩
abbrev main_call0_v7 : Ref sig .tc := ⟨.hbm, 61, rfl⟩
abbrev main_call0_v8 : Ref sig .tc := ⟨.hbm, 62, rfl⟩
abbrev main_call0_c_3 : Ref sig .tc := ⟨.hbm, 63, rfl⟩
abbrev main_call0_v9 : Ref sig .tc := ⟨.hbm, 64, rfl⟩
abbrev main_call0_v10 : Ref sig .tc := ⟨.hbm, 65, rfl⟩
abbrev main_call0_v11 : Ref sig .tc := ⟨.hbm, 66, rfl⟩
abbrev main_call0_v12 : Ref sig .tc := ⟨.hbm, 67, rfl⟩
abbrev main_call0_v13 : Ref sig .tc := ⟨.hbm, 68, rfl⟩
abbrev main_call0_v14 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_c_9 : Ref sig .tc := ⟨.hbm, 73, rfl⟩
abbrev main_v36 : Ref sig .tc := ⟨.hbm, 74, rfl⟩
abbrev main_v37 : Ref sig .tc := ⟨.hbm, 75, rfl⟩
abbrev main_c_10 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_c_11 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_c_12 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_c_13 : Ref sig .tc := ⟨.hbm, 99, rfl⟩
abbrev main_v58 : Ref sig .tc := ⟨.hbm, 100, rfl⟩
abbrev main_v59 : Ref sig .tc := ⟨.hbm, 101, rfl⟩
abbrev main_c_14 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_c_15 : Ref sig .tc := ⟨.hbm, 106, rfl⟩
abbrev main_call1_v0 : Ref sig .tc := ⟨.hbm, 107, rfl⟩
abbrev main_call1_c : Ref sig .tc := ⟨.hbm, 108, rfl⟩
abbrev main_call1_v1 : Ref sig .tc := ⟨.hbm, 109, rfl⟩
abbrev main_call1_c_0 : Ref sig .tc := ⟨.hbm, 110, rfl⟩
abbrev main_call1_v2 : Ref sig .tc := ⟨.hbm, 111, rfl⟩
abbrev main_call1_v3 : Ref sig .tc := ⟨.hbm, 112, rfl⟩
abbrev main_call1_v4 : Ref sig .tc := ⟨.hbm, 113, rfl⟩
abbrev main_call1_c_1 : Ref sig .tc := ⟨.hbm, 114, rfl⟩
abbrev main_call1_v5 : Ref sig .tc := ⟨.hbm, 115, rfl⟩
abbrev main_call1_v6 : Ref sig .tc := ⟨.hbm, 116, rfl⟩
abbrev main_call1_c_2 : Ref sig .tc := ⟨.hbm, 117, rfl⟩
abbrev main_call1_v7 : Ref sig .tc := ⟨.hbm, 118, rfl⟩
abbrev main_call1_v8 : Ref sig .tc := ⟨.hbm, 119, rfl⟩
abbrev main_call1_c_3 : Ref sig .tc := ⟨.hbm, 120, rfl⟩
abbrev main_call1_v9 : Ref sig .tc := ⟨.hbm, 121, rfl⟩
abbrev main_call1_v10 : Ref sig .tc := ⟨.hbm, 122, rfl⟩
abbrev main_call1_v11 : Ref sig .tc := ⟨.hbm, 123, rfl⟩
abbrev main_call1_v12 : Ref sig .tc := ⟨.hbm, 124, rfl⟩
abbrev main_call1_v13 : Ref sig .tc := ⟨.hbm, 125, rfl⟩
abbrev main_call1_v14 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_c_16 : Ref sig .tc := ⟨.hbm, 130, rfl⟩
abbrev main_v66 : Ref sig .tc := ⟨.hbm, 131, rfl⟩
abbrev main_v67 : Ref sig .tc := ⟨.hbm, 132, rfl⟩
abbrev main_c_17 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_c_18 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev main_v74 : Ref sig .tc := ⟨.hbm, 141, rfl⟩
abbrev main_v75 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_cst_19 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_c_20 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_v91 : Ref sig .tc := ⟨.hbm, 160, rfl⟩
abbrev main_c_21 : Ref sig .tc := ⟨.hbm, 161, rfl⟩
abbrev main_v92 : Ref sig .tc := ⟨.hbm, 162, rfl⟩
abbrev main_v93 : Ref sig .tc := ⟨.hbm, 163, rfl⟩
abbrev main_c_22 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_c_23 : Ref sig .tc := ⟨.hbm, 168, rfl⟩
abbrev main_call2_v0 : Ref sig .tc := ⟨.hbm, 169, rfl⟩
abbrev main_call2_c : Ref sig .tc := ⟨.hbm, 170, rfl⟩
abbrev main_call2_v1 : Ref sig .tc := ⟨.hbm, 171, rfl⟩
abbrev main_call2_c_0 : Ref sig .tc := ⟨.hbm, 172, rfl⟩
abbrev main_call2_v2 : Ref sig .tc := ⟨.hbm, 173, rfl⟩
abbrev main_call2_v3 : Ref sig .tc := ⟨.hbm, 174, rfl⟩
abbrev main_call2_v4 : Ref sig .tc := ⟨.hbm, 175, rfl⟩
abbrev main_call2_c_1 : Ref sig .tc := ⟨.hbm, 176, rfl⟩
abbrev main_call2_v5 : Ref sig .tc := ⟨.hbm, 177, rfl⟩
abbrev main_call2_v6 : Ref sig .tc := ⟨.hbm, 178, rfl⟩
abbrev main_call2_c_2 : Ref sig .tc := ⟨.hbm, 179, rfl⟩
abbrev main_call2_v7 : Ref sig .tc := ⟨.hbm, 180, rfl⟩
abbrev main_call2_v8 : Ref sig .tc := ⟨.hbm, 181, rfl⟩
abbrev main_call2_c_3 : Ref sig .tc := ⟨.hbm, 182, rfl⟩
abbrev main_call2_v9 : Ref sig .tc := ⟨.hbm, 183, rfl⟩
abbrev main_call2_v10 : Ref sig .tc := ⟨.hbm, 184, rfl⟩
abbrev main_call2_v11 : Ref sig .tc := ⟨.hbm, 185, rfl⟩
abbrev main_call2_v12 : Ref sig .tc := ⟨.hbm, 186, rfl⟩
abbrev main_call2_v13 : Ref sig .tc := ⟨.hbm, 187, rfl⟩
abbrev main_call2_v14 : Ref sig .tc := ⟨.hbm, 188, rfl⟩
abbrev main_v97 : Ref sig .tc := ⟨.hbm, 189, rfl⟩
abbrev main_v98 : Ref sig .tc := ⟨.hbm, 190, rfl⟩
abbrev main_v99 : Ref sig .tc := ⟨.hbm, 191, rfl⟩
abbrev main_c_24 : Ref sig .tc := ⟨.hbm, 192, rfl⟩
abbrev main_v100 : Ref sig .tc := ⟨.hbm, 193, rfl⟩
abbrev main_v101 : Ref sig .tc := ⟨.hbm, 194, rfl⟩
abbrev main_c_25 : Ref sig .tc := ⟨.hbm, 195, rfl⟩
abbrev main_v102 : Ref sig .tc := ⟨.hbm, 196, rfl⟩
abbrev main_v103 : Ref sig .tc := ⟨.hbm, 197, rfl⟩
abbrev main_v104 : Ref sig .tc := ⟨.hbm, 198, rfl⟩
abbrev main_c_26 : Ref sig .tc := ⟨.hbm, 199, rfl⟩
abbrev main_v105 : Ref sig .tc := ⟨.hbm, 200, rfl⟩
abbrev main_v106 : Ref sig .tc := ⟨.hbm, 201, rfl⟩
abbrev main_v107 : Ref sig .tc := ⟨.hbm, 202, rfl⟩
abbrev main_v108 : Ref sig .tc := ⟨.hbm, 203, rfl⟩
abbrev main_v109 : Ref sig .tc := ⟨.hbm, 204, rfl⟩
abbrev main_v110 : Ref sig .tc := ⟨.hbm, 205, rfl⟩
abbrev main_v111 : Ref sig .tc := ⟨.hbm, 206, rfl⟩
abbrev main_v112 : Ref sig .tc := ⟨.hbm, 207, rfl⟩
abbrev main_v113 : Ref sig .tc := ⟨.hbm, 208, rfl⟩
abbrev main_v114 : Ref sig .tc := ⟨.hbm, 209, rfl⟩
abbrev main_v115 : Ref sig .tc := ⟨.hbm, 210, rfl⟩
abbrev main_v116 : Ref sig .tc := ⟨.hbm, 211, rfl⟩
abbrev main_v117 : Ref sig .tc := ⟨.hbm, 212, rfl⟩
abbrev main_c_27 : Ref sig .tc := ⟨.hbm, 213, rfl⟩
abbrev main_v118 : Ref sig .tc := ⟨.hbm, 214, rfl⟩
abbrev main_v119 : Ref sig .tc := ⟨.hbm, 215, rfl⟩
abbrev main_v120 : Ref sig .tc := ⟨.hbm, 216, rfl⟩
abbrev main_v121 : Ref sig .tc := ⟨.hbm, 217, rfl⟩
abbrev main_c_28 : Ref sig .tc := ⟨.hbm, 218, rfl⟩
abbrev main_v122 : Ref sig .tc := ⟨.hbm, 219, rfl⟩
abbrev main_v123 : Ref sig .tc := ⟨.hbm, 220, rfl⟩
abbrev main_c_29 : Ref sig .tc := ⟨.hbm, 221, rfl⟩
abbrev main_v124 : Ref sig .tc := ⟨.hbm, 222, rfl⟩
abbrev main_v125 : Ref sig .tc := ⟨.hbm, 223, rfl⟩
abbrev main_v126 : Ref sig .tc := ⟨.hbm, 224, rfl⟩
abbrev main_c_30 : Ref sig .tc := ⟨.hbm, 225, rfl⟩
abbrev main_call3_v0 : Ref sig .tc := ⟨.hbm, 226, rfl⟩
abbrev main_call3_c : Ref sig .tc := ⟨.hbm, 227, rfl⟩
abbrev main_call3_v1 : Ref sig .tc := ⟨.hbm, 228, rfl⟩
abbrev main_call3_c_0 : Ref sig .tc := ⟨.hbm, 229, rfl⟩
abbrev main_call3_v2 : Ref sig .tc := ⟨.hbm, 230, rfl⟩
abbrev main_call3_v3 : Ref sig .tc := ⟨.hbm, 231, rfl⟩
abbrev main_call3_v4 : Ref sig .tc := ⟨.hbm, 232, rfl⟩
abbrev main_call3_c_1 : Ref sig .tc := ⟨.hbm, 233, rfl⟩
abbrev main_call3_v5 : Ref sig .tc := ⟨.hbm, 234, rfl⟩
abbrev main_call3_v6 : Ref sig .tc := ⟨.hbm, 235, rfl⟩
abbrev main_call3_c_2 : Ref sig .tc := ⟨.hbm, 236, rfl⟩
abbrev main_call3_v7 : Ref sig .tc := ⟨.hbm, 237, rfl⟩
abbrev main_call3_v8 : Ref sig .tc := ⟨.hbm, 238, rfl⟩
abbrev main_call3_c_3 : Ref sig .tc := ⟨.hbm, 239, rfl⟩
abbrev main_call3_v9 : Ref sig .tc := ⟨.hbm, 240, rfl⟩
abbrev main_call3_v10 : Ref sig .tc := ⟨.hbm, 241, rfl⟩
abbrev main_call3_v11 : Ref sig .tc := ⟨.hbm, 242, rfl⟩
abbrev main_call3_v12 : Ref sig .tc := ⟨.hbm, 243, rfl⟩
abbrev main_call3_v13 : Ref sig .tc := ⟨.hbm, 244, rfl⟩
abbrev main_call3_v14 : Ref sig .tc := ⟨.hbm, 245, rfl⟩
abbrev main_v127 : Ref sig .tc := ⟨.hbm, 246, rfl⟩
abbrev main_v128 : Ref sig .tc := ⟨.hbm, 247, rfl⟩
abbrev main_v129 : Ref sig .tc := ⟨.hbm, 248, rfl⟩
abbrev main_c_31 : Ref sig .tc := ⟨.hbm, 249, rfl⟩
abbrev main_v130 : Ref sig .tc := ⟨.hbm, 250, rfl⟩
abbrev main_v131 : Ref sig .tc := ⟨.hbm, 251, rfl⟩
abbrev main_c_32 : Ref sig .tc := ⟨.hbm, 252, rfl⟩
abbrev main_v132 : Ref sig .tc := ⟨.hbm, 253, rfl⟩
abbrev main_v133 : Ref sig .tc := ⟨.hbm, 254, rfl⟩
abbrev main_v134 : Ref sig .tc := ⟨.hbm, 255, rfl⟩
abbrev main_c_33 : Ref sig .tc := ⟨.hbm, 256, rfl⟩
abbrev main_v135 : Ref sig .tc := ⟨.hbm, 257, rfl⟩
abbrev main_v136 : Ref sig .tc := ⟨.hbm, 258, rfl⟩
abbrev main_v137 : Ref sig .tc := ⟨.hbm, 259, rfl⟩
abbrev main_v138 : Ref sig .tc := ⟨.hbm, 260, rfl⟩
abbrev main_v139 : Ref sig .tc := ⟨.hbm, 261, rfl⟩
abbrev main_v140 : Ref sig .tc := ⟨.hbm, 262, rfl⟩
abbrev main_v141 : Ref sig .tc := ⟨.hbm, 263, rfl⟩
abbrev main_v142 : Ref sig .tc := ⟨.hbm, 264, rfl⟩
abbrev main_v143 : Ref sig .tc := ⟨.hbm, 265, rfl⟩
abbrev main_cst_34 : Ref sig .tc := ⟨.hbm, 266, rfl⟩
abbrev main_v144 : Ref sig .tc := ⟨.hbm, 267, rfl⟩
abbrev main_v145 : Ref sig .tc := ⟨.hbm, 268, rfl⟩
abbrev main_cst_35 : Ref sig .tc := ⟨.hbm, 269, rfl⟩
abbrev main_v146 : Ref sig .tc := ⟨.hbm, 270, rfl⟩
abbrev main_v147 : Ref sig .tc := ⟨.hbm, 271, rfl⟩
abbrev main_v148 : Ref sig .tc := ⟨.hbm, 272, rfl⟩
abbrev main_v149 : Ref sig .tc := ⟨.hbm, 273, rfl⟩
abbrev main_v150 : Ref sig .tc := ⟨.hbm, 274, rfl⟩
abbrev main_v151 : Ref sig .tc := ⟨.hbm, 275, rfl⟩
abbrev main_cst_36 : Ref sig .tc := ⟨.hbm, 276, rfl⟩
abbrev main_v152 : Ref sig .tc := ⟨.hbm, 277, rfl⟩
abbrev main_v153 : Ref sig .tc := ⟨.hbm, 278, rfl⟩
abbrev main_cst_37 : Ref sig .tc := ⟨.hbm, 279, rfl⟩
abbrev main_v154 : Ref sig .tc := ⟨.hbm, 280, rfl⟩
abbrev main_v155 : Ref sig .tc := ⟨.hbm, 281, rfl⟩
abbrev main_v156 : Ref sig .tc := ⟨.hbm, 282, rfl⟩
abbrev main_cst_38 : Ref sig .tc := ⟨.hbm, 283, rfl⟩
abbrev main_v157 : Ref sig .tc := ⟨.hbm, 284, rfl⟩
abbrev main_v158 : Ref sig .tc := ⟨.hbm, 285, rfl⟩
abbrev main_v159 : Ref sig .tc := ⟨.hbm, 286, rfl⟩
abbrev main_cst_39 : Ref sig .tc := ⟨.hbm, 287, rfl⟩
abbrev main_v160 : Ref sig .tc := ⟨.hbm, 288, rfl⟩
abbrev main_v161 : Ref sig .tc := ⟨.hbm, 289, rfl⟩
abbrev main_v162 : Ref sig .tc := ⟨.hbm, 290, rfl⟩
abbrev main_v163 : Ref sig .tc := ⟨.hbm, 291, rfl⟩
abbrev main_cst_40 : Ref sig .tc := ⟨.hbm, 292, rfl⟩
abbrev main_v164 : Ref sig .tc := ⟨.hbm, 293, rfl⟩
abbrev main_v165 : Ref sig .tc := ⟨.hbm, 294, rfl⟩
abbrev main_v166 : Ref sig .tc := ⟨.hbm, 295, rfl⟩
abbrev main_v167 : Ref sig .tc := ⟨.hbm, 296, rfl⟩
abbrev main_c_41 : Ref sig .tc := ⟨.hbm, 297, rfl⟩
abbrev main_v168 : Ref sig .tc := ⟨.hbm, 298, rfl⟩
abbrev main_v169 : Ref sig .tc := ⟨.hbm, 299, rfl⟩
abbrev main_v170 : Ref sig .tc := ⟨.hbm, 300, rfl⟩
abbrev main_v171 : Ref sig .tc := ⟨.hbm, 301, rfl⟩
abbrev main_c_42 : Ref sig .tc := ⟨.hbm, 302, rfl⟩
abbrev main_v172 : Ref sig .tc := ⟨.hbm, 303, rfl⟩
abbrev main_v173 : Ref sig .tc := ⟨.hbm, 304, rfl⟩
abbrev main_c_43 : Ref sig .tc := ⟨.hbm, 305, rfl⟩
abbrev main_v174 : Ref sig .tc := ⟨.hbm, 306, rfl⟩
abbrev main_v175 : Ref sig .tc := ⟨.hbm, 307, rfl⟩
abbrev main_v176 : Ref sig .tc := ⟨.hbm, 308, rfl⟩
abbrev main_c_44 : Ref sig .tc := ⟨.hbm, 309, rfl⟩
abbrev main_call4_v0 : Ref sig .tc := ⟨.hbm, 310, rfl⟩
abbrev main_call4_c : Ref sig .tc := ⟨.hbm, 311, rfl⟩
abbrev main_call4_v1 : Ref sig .tc := ⟨.hbm, 312, rfl⟩
abbrev main_call4_c_0 : Ref sig .tc := ⟨.hbm, 313, rfl⟩
abbrev main_call4_v2 : Ref sig .tc := ⟨.hbm, 314, rfl⟩
abbrev main_call4_v3 : Ref sig .tc := ⟨.hbm, 315, rfl⟩
abbrev main_call4_v4 : Ref sig .tc := ⟨.hbm, 316, rfl⟩
abbrev main_call4_c_1 : Ref sig .tc := ⟨.hbm, 317, rfl⟩
abbrev main_call4_v5 : Ref sig .tc := ⟨.hbm, 318, rfl⟩
abbrev main_call4_v6 : Ref sig .tc := ⟨.hbm, 319, rfl⟩
abbrev main_call4_c_2 : Ref sig .tc := ⟨.hbm, 320, rfl⟩
abbrev main_call4_v7 : Ref sig .tc := ⟨.hbm, 321, rfl⟩
abbrev main_call4_v8 : Ref sig .tc := ⟨.hbm, 322, rfl⟩
abbrev main_call4_c_3 : Ref sig .tc := ⟨.hbm, 323, rfl⟩
abbrev main_call4_v9 : Ref sig .tc := ⟨.hbm, 324, rfl⟩
abbrev main_call4_v10 : Ref sig .tc := ⟨.hbm, 325, rfl⟩
abbrev main_call4_v11 : Ref sig .tc := ⟨.hbm, 326, rfl⟩
abbrev main_call4_v12 : Ref sig .tc := ⟨.hbm, 327, rfl⟩
abbrev main_call4_v13 : Ref sig .tc := ⟨.hbm, 328, rfl⟩
abbrev main_call4_v14 : Ref sig .tc := ⟨.hbm, 329, rfl⟩
abbrev main_v177 : Ref sig .tc := ⟨.hbm, 330, rfl⟩
abbrev main_v178 : Ref sig .tc := ⟨.hbm, 331, rfl⟩
abbrev main_v179 : Ref sig .tc := ⟨.hbm, 332, rfl⟩
abbrev main_c_45 : Ref sig .tc := ⟨.hbm, 333, rfl⟩
abbrev main_v180 : Ref sig .tc := ⟨.hbm, 334, rfl⟩
abbrev main_v181 : Ref sig .tc := ⟨.hbm, 335, rfl⟩
abbrev main_c_46 : Ref sig .tc := ⟨.hbm, 336, rfl⟩
abbrev main_v182 : Ref sig .tc := ⟨.hbm, 337, rfl⟩
abbrev main_v183 : Ref sig .tc := ⟨.hbm, 338, rfl⟩
abbrev main_v184 : Ref sig .tc := ⟨.hbm, 339, rfl⟩
abbrev main_c_47 : Ref sig .tc := ⟨.hbm, 340, rfl⟩
abbrev main_v185 : Ref sig .tc := ⟨.hbm, 341, rfl⟩
abbrev main_v186 : Ref sig .tc := ⟨.hbm, 342, rfl⟩
abbrev main_v187 : Ref sig .tc := ⟨.hbm, 343, rfl⟩
abbrev main_v188 : Ref sig .tc := ⟨.hbm, 344, rfl⟩
abbrev main_v189 : Ref sig .tc := ⟨.hbm, 345, rfl⟩
abbrev main_v190 : Ref sig .tc := ⟨.hbm, 346, rfl⟩
abbrev main_v191 : Ref sig .tc := ⟨.hbm, 347, rfl⟩
abbrev main_v192 : Ref sig .tc := ⟨.hbm, 348, rfl⟩
abbrev main_v193 : Ref sig .tc := ⟨.hbm, 349, rfl⟩
abbrev main_v194 : Ref sig .tc := ⟨.hbm, 350, rfl⟩
abbrev main_v195 : Ref sig .tc := ⟨.hbm, 351, rfl⟩
abbrev main_v196 : Ref sig .tc := ⟨.hbm, 352, rfl⟩
abbrev main_v197 : Ref sig .tc := ⟨.hbm, 353, rfl⟩
abbrev main_c_48 : Ref sig .tc := ⟨.hbm, 354, rfl⟩
abbrev main_v198 : Ref sig .tc := ⟨.hbm, 355, rfl⟩
abbrev main_v199 : Ref sig .tc := ⟨.hbm, 356, rfl⟩
abbrev main_v200 : Ref sig .tc := ⟨.hbm, 357, rfl⟩
abbrev main_v201 : Ref sig .tc := ⟨.hbm, 358, rfl⟩
abbrev main_c_49 : Ref sig .tc := ⟨.hbm, 359, rfl⟩
abbrev main_v202 : Ref sig .tc := ⟨.hbm, 360, rfl⟩
abbrev main_v203 : Ref sig .tc := ⟨.hbm, 361, rfl⟩
abbrev main_c_50 : Ref sig .tc := ⟨.hbm, 362, rfl⟩
abbrev main_v204 : Ref sig .tc := ⟨.hbm, 363, rfl⟩
abbrev main_v205 : Ref sig .tc := ⟨.hbm, 364, rfl⟩
abbrev main_v206 : Ref sig .tc := ⟨.hbm, 365, rfl⟩
abbrev main_c_51 : Ref sig .tc := ⟨.hbm, 366, rfl⟩
abbrev main_call5_v0 : Ref sig .tc := ⟨.hbm, 367, rfl⟩
abbrev main_call5_c : Ref sig .tc := ⟨.hbm, 368, rfl⟩
abbrev main_call5_v1 : Ref sig .tc := ⟨.hbm, 369, rfl⟩
abbrev main_call5_c_0 : Ref sig .tc := ⟨.hbm, 370, rfl⟩
abbrev main_call5_v2 : Ref sig .tc := ⟨.hbm, 371, rfl⟩
abbrev main_call5_v3 : Ref sig .tc := ⟨.hbm, 372, rfl⟩
abbrev main_call5_v4 : Ref sig .tc := ⟨.hbm, 373, rfl⟩
abbrev main_call5_c_1 : Ref sig .tc := ⟨.hbm, 374, rfl⟩
abbrev main_call5_v5 : Ref sig .tc := ⟨.hbm, 375, rfl⟩
abbrev main_call5_v6 : Ref sig .tc := ⟨.hbm, 376, rfl⟩
abbrev main_call5_c_2 : Ref sig .tc := ⟨.hbm, 377, rfl⟩
abbrev main_call5_v7 : Ref sig .tc := ⟨.hbm, 378, rfl⟩
abbrev main_call5_v8 : Ref sig .tc := ⟨.hbm, 379, rfl⟩
abbrev main_call5_c_3 : Ref sig .tc := ⟨.hbm, 380, rfl⟩
abbrev main_call5_v9 : Ref sig .tc := ⟨.hbm, 381, rfl⟩
abbrev main_call5_v10 : Ref sig .tc := ⟨.hbm, 382, rfl⟩
abbrev main_call5_v11 : Ref sig .tc := ⟨.hbm, 383, rfl⟩
abbrev main_call5_v12 : Ref sig .tc := ⟨.hbm, 384, rfl⟩
abbrev main_call5_v13 : Ref sig .tc := ⟨.hbm, 385, rfl⟩
abbrev main_call5_v14 : Ref sig .tc := ⟨.hbm, 386, rfl⟩
abbrev main_v207 : Ref sig .tc := ⟨.hbm, 387, rfl⟩
abbrev main_v208 : Ref sig .tc := ⟨.hbm, 388, rfl⟩
abbrev main_v209 : Ref sig .tc := ⟨.hbm, 389, rfl⟩
abbrev main_c_52 : Ref sig .tc := ⟨.hbm, 390, rfl⟩
abbrev main_v210 : Ref sig .tc := ⟨.hbm, 391, rfl⟩
abbrev main_v211 : Ref sig .tc := ⟨.hbm, 392, rfl⟩
abbrev main_c_53 : Ref sig .tc := ⟨.hbm, 393, rfl⟩
abbrev main_v212 : Ref sig .tc := ⟨.hbm, 394, rfl⟩
abbrev main_v213 : Ref sig .tc := ⟨.hbm, 395, rfl⟩
abbrev main_v214 : Ref sig .tc := ⟨.hbm, 396, rfl⟩
abbrev main_c_54 : Ref sig .tc := ⟨.hbm, 397, rfl⟩
abbrev main_v215 : Ref sig .tc := ⟨.hbm, 398, rfl⟩
abbrev main_v216 : Ref sig .tc := ⟨.hbm, 399, rfl⟩
abbrev main_v217 : Ref sig .tc := ⟨.hbm, 400, rfl⟩
abbrev main_v218 : Ref sig .tc := ⟨.hbm, 401, rfl⟩
abbrev main_v219 : Ref sig .tc := ⟨.hbm, 402, rfl⟩
abbrev main_v220 : Ref sig .tc := ⟨.hbm, 403, rfl⟩
abbrev main_v221 : Ref sig .tc := ⟨.hbm, 404, rfl⟩
abbrev main_v222 : Ref sig .tc := ⟨.hbm, 405, rfl⟩
abbrev main_v223 : Ref sig .tc := ⟨.hbm, 406, rfl⟩
abbrev main_v224 : Ref sig .tc := ⟨.hbm, 407, rfl⟩
abbrev main_v225 : Ref sig .tc := ⟨.hbm, 408, rfl⟩
abbrev main_v226 : Ref sig .tc := ⟨.hbm, 409, rfl⟩
abbrev main_v227 : Ref sig .tc := ⟨.hbm, 410, rfl⟩
abbrev main_cst_55 : Ref sig .tc := ⟨.hbm, 411, rfl⟩
abbrev main_v228 : Ref sig .tc := ⟨.hbm, 412, rfl⟩
abbrev main_v229 : Ref sig .tc := ⟨.hbm, 413, rfl⟩
abbrev main_v230 : Ref sig .tc := ⟨.hbm, 414, rfl⟩
abbrev main_v231 : Ref sig .tc := ⟨.hbm, 415, rfl⟩
abbrev main_c_56 : Ref sig .tc := ⟨.hbm, 416, rfl⟩
abbrev main_v232 : Ref sig .tc := ⟨.hbm, 417, rfl⟩
abbrev main_v233 : Ref sig .tc := ⟨.hbm, 418, rfl⟩
abbrev main_v234 : Ref sig .tc := ⟨.hbm, 419, rfl⟩
abbrev main_v235 : Ref sig .tc := ⟨.hbm, 420, rfl⟩
abbrev main_c_57 : Ref sig .tc := ⟨.hbm, 421, rfl⟩
abbrev main_v236 : Ref sig .tc := ⟨.hbm, 422, rfl⟩
abbrev main_v237 : Ref sig .tc := ⟨.hbm, 423, rfl⟩
abbrev main_c_58 : Ref sig .tc := ⟨.hbm, 424, rfl⟩
abbrev main_v238 : Ref sig .tc := ⟨.hbm, 425, rfl⟩
abbrev main_v239 : Ref sig .tc := ⟨.hbm, 426, rfl⟩
abbrev main_v240 : Ref sig .tc := ⟨.hbm, 427, rfl⟩
abbrev main_c_59 : Ref sig .tc := ⟨.hbm, 428, rfl⟩
abbrev main_call6_v0 : Ref sig .tc := ⟨.hbm, 429, rfl⟩
abbrev main_call6_c : Ref sig .tc := ⟨.hbm, 430, rfl⟩
abbrev main_call6_v1 : Ref sig .tc := ⟨.hbm, 431, rfl⟩
abbrev main_call6_c_0 : Ref sig .tc := ⟨.hbm, 432, rfl⟩
abbrev main_call6_v2 : Ref sig .tc := ⟨.hbm, 433, rfl⟩
abbrev main_call6_v3 : Ref sig .tc := ⟨.hbm, 434, rfl⟩
abbrev main_call6_v4 : Ref sig .tc := ⟨.hbm, 435, rfl⟩
abbrev main_call6_c_1 : Ref sig .tc := ⟨.hbm, 436, rfl⟩
abbrev main_call6_v5 : Ref sig .tc := ⟨.hbm, 437, rfl⟩
abbrev main_call6_v6 : Ref sig .tc := ⟨.hbm, 438, rfl⟩
abbrev main_call6_c_2 : Ref sig .tc := ⟨.hbm, 439, rfl⟩
abbrev main_call6_v7 : Ref sig .tc := ⟨.hbm, 440, rfl⟩
abbrev main_call6_v8 : Ref sig .tc := ⟨.hbm, 441, rfl⟩
abbrev main_call6_c_3 : Ref sig .tc := ⟨.hbm, 442, rfl⟩
abbrev main_call6_v9 : Ref sig .tc := ⟨.hbm, 443, rfl⟩
abbrev main_call6_v10 : Ref sig .tc := ⟨.hbm, 444, rfl⟩
abbrev main_call6_v11 : Ref sig .tc := ⟨.hbm, 445, rfl⟩
abbrev main_call6_v12 : Ref sig .tc := ⟨.hbm, 446, rfl⟩
abbrev main_call6_v13 : Ref sig .tc := ⟨.hbm, 447, rfl⟩
abbrev main_call6_v14 : Ref sig .tc := ⟨.hbm, 448, rfl⟩
abbrev main_v241 : Ref sig .tc := ⟨.hbm, 449, rfl⟩
abbrev main_v242 : Ref sig .tc := ⟨.hbm, 450, rfl⟩
abbrev main_v243 : Ref sig .tc := ⟨.hbm, 451, rfl⟩
abbrev main_c_60 : Ref sig .tc := ⟨.hbm, 452, rfl⟩
abbrev main_v244 : Ref sig .tc := ⟨.hbm, 453, rfl⟩
abbrev main_v245 : Ref sig .tc := ⟨.hbm, 454, rfl⟩
abbrev main_c_61 : Ref sig .tc := ⟨.hbm, 455, rfl⟩
abbrev main_v246 : Ref sig .tc := ⟨.hbm, 456, rfl⟩
abbrev main_v247 : Ref sig .tc := ⟨.hbm, 457, rfl⟩
abbrev main_v248 : Ref sig .tc := ⟨.hbm, 458, rfl⟩
abbrev main_c_62 : Ref sig .tc := ⟨.hbm, 459, rfl⟩
abbrev main_v249 : Ref sig .tc := ⟨.hbm, 460, rfl⟩
abbrev main_v250 : Ref sig .tc := ⟨.hbm, 461, rfl⟩
abbrev main_v251 : Ref sig .tc := ⟨.hbm, 462, rfl⟩
abbrev main_v252 : Ref sig .tc := ⟨.hbm, 463, rfl⟩
abbrev main_v253 : Ref sig .tc := ⟨.hbm, 464, rfl⟩
abbrev main_v254 : Ref sig .tc := ⟨.hbm, 465, rfl⟩
abbrev main_v255 : Ref sig .tc := ⟨.hbm, 466, rfl⟩
abbrev main_v256 : Ref sig .tc := ⟨.hbm, 467, rfl⟩
abbrev main_v257 : Ref sig .tc := ⟨.hbm, 468, rfl⟩
abbrev main_v258 : Ref sig .tc := ⟨.hbm, 469, rfl⟩
abbrev main_v259 : Ref sig .tc := ⟨.hbm, 470, rfl⟩
abbrev main_v260 : Ref sig .tc := ⟨.hbm, 471, rfl⟩
abbrev main_v261 : Ref sig .tc := ⟨.hbm, 472, rfl⟩
abbrev main_c_63 : Ref sig .tc := ⟨.hbm, 473, rfl⟩
abbrev main_v262 : Ref sig .tc := ⟨.hbm, 474, rfl⟩
abbrev main_v263 : Ref sig .tc := ⟨.hbm, 475, rfl⟩
abbrev main_v264 : Ref sig .tc := ⟨.hbm, 476, rfl⟩
abbrev main_v265 : Ref sig .tc := ⟨.hbm, 477, rfl⟩
abbrev main_c_64 : Ref sig .tc := ⟨.hbm, 478, rfl⟩
abbrev main_v266 : Ref sig .tc := ⟨.hbm, 479, rfl⟩
abbrev main_v267 : Ref sig .tc := ⟨.hbm, 480, rfl⟩
abbrev main_c_65 : Ref sig .tc := ⟨.hbm, 481, rfl⟩
abbrev main_v268 : Ref sig .tc := ⟨.hbm, 482, rfl⟩
abbrev main_v269 : Ref sig .tc := ⟨.hbm, 483, rfl⟩
abbrev main_v270 : Ref sig .tc := ⟨.hbm, 484, rfl⟩
abbrev main_c_66 : Ref sig .tc := ⟨.hbm, 485, rfl⟩
abbrev main_call7_v0 : Ref sig .tc := ⟨.hbm, 486, rfl⟩
abbrev main_call7_c : Ref sig .tc := ⟨.hbm, 487, rfl⟩
abbrev main_call7_v1 : Ref sig .tc := ⟨.hbm, 488, rfl⟩
abbrev main_call7_c_0 : Ref sig .tc := ⟨.hbm, 489, rfl⟩
abbrev main_call7_v2 : Ref sig .tc := ⟨.hbm, 490, rfl⟩
abbrev main_call7_v3 : Ref sig .tc := ⟨.hbm, 491, rfl⟩
abbrev main_call7_v4 : Ref sig .tc := ⟨.hbm, 492, rfl⟩
abbrev main_call7_c_1 : Ref sig .tc := ⟨.hbm, 493, rfl⟩
abbrev main_call7_v5 : Ref sig .tc := ⟨.hbm, 494, rfl⟩
abbrev main_call7_v6 : Ref sig .tc := ⟨.hbm, 495, rfl⟩
abbrev main_call7_c_2 : Ref sig .tc := ⟨.hbm, 496, rfl⟩
abbrev main_call7_v7 : Ref sig .tc := ⟨.hbm, 497, rfl⟩
abbrev main_call7_v8 : Ref sig .tc := ⟨.hbm, 498, rfl⟩
abbrev main_call7_c_3 : Ref sig .tc := ⟨.hbm, 499, rfl⟩
abbrev main_call7_v9 : Ref sig .tc := ⟨.hbm, 500, rfl⟩
abbrev main_call7_v10 : Ref sig .tc := ⟨.hbm, 501, rfl⟩
abbrev main_call7_v11 : Ref sig .tc := ⟨.hbm, 502, rfl⟩
abbrev main_call7_v12 : Ref sig .tc := ⟨.hbm, 503, rfl⟩
abbrev main_call7_v13 : Ref sig .tc := ⟨.hbm, 504, rfl⟩
abbrev main_call7_v14 : Ref sig .tc := ⟨.hbm, 505, rfl⟩
abbrev main_v271 : Ref sig .tc := ⟨.hbm, 506, rfl⟩
abbrev main_v272 : Ref sig .tc := ⟨.hbm, 507, rfl⟩
abbrev main_v273 : Ref sig .tc := ⟨.hbm, 508, rfl⟩
abbrev main_c_67 : Ref sig .tc := ⟨.hbm, 509, rfl⟩
abbrev main_v274 : Ref sig .tc := ⟨.hbm, 510, rfl⟩
abbrev main_v275 : Ref sig .tc := ⟨.hbm, 511, rfl⟩
abbrev main_c_68 : Ref sig .tc := ⟨.hbm, 512, rfl⟩
abbrev main_v276 : Ref sig .tc := ⟨.hbm, 513, rfl⟩
abbrev main_v277 : Ref sig .tc := ⟨.hbm, 514, rfl⟩
abbrev main_v278 : Ref sig .tc := ⟨.hbm, 515, rfl⟩
abbrev main_c_69 : Ref sig .tc := ⟨.hbm, 516, rfl⟩
abbrev main_v279 : Ref sig .tc := ⟨.hbm, 517, rfl⟩
abbrev main_v280 : Ref sig .tc := ⟨.hbm, 518, rfl⟩
abbrev main_v281 : Ref sig .tc := ⟨.hbm, 519, rfl⟩
abbrev main_v282 : Ref sig .tc := ⟨.hbm, 520, rfl⟩
abbrev main_v283 : Ref sig .tc := ⟨.hbm, 521, rfl⟩
abbrev main_v284 : Ref sig .tc := ⟨.hbm, 522, rfl⟩
abbrev main_v285 : Ref sig .tc := ⟨.hbm, 523, rfl⟩
abbrev main_v286 : Ref sig .tc := ⟨.hbm, 524, rfl⟩
abbrev main_v287 : Ref sig .tc := ⟨.hbm, 525, rfl⟩
abbrev main_cst_70 : Ref sig .tc := ⟨.hbm, 526, rfl⟩
abbrev main_v288 : Ref sig .tc := ⟨.hbm, 527, rfl⟩
abbrev main_v289 : Ref sig .tc := ⟨.hbm, 528, rfl⟩
abbrev main_cst_71 : Ref sig .tc := ⟨.hbm, 529, rfl⟩
abbrev main_v290 : Ref sig .tc := ⟨.hbm, 530, rfl⟩
abbrev main_v291 : Ref sig .tc := ⟨.hbm, 531, rfl⟩
abbrev main_v292 : Ref sig .tc := ⟨.hbm, 532, rfl⟩
abbrev main_v293 : Ref sig .tc := ⟨.hbm, 533, rfl⟩
abbrev main_v294 : Ref sig .tc := ⟨.hbm, 534, rfl⟩
abbrev main_v295 : Ref sig .tc := ⟨.hbm, 535, rfl⟩
abbrev main_cst_72 : Ref sig .tc := ⟨.hbm, 536, rfl⟩
abbrev main_v296 : Ref sig .tc := ⟨.hbm, 537, rfl⟩
abbrev main_v297 : Ref sig .tc := ⟨.hbm, 538, rfl⟩
abbrev main_cst_73 : Ref sig .tc := ⟨.hbm, 539, rfl⟩
abbrev main_v298 : Ref sig .tc := ⟨.hbm, 540, rfl⟩
abbrev main_v299 : Ref sig .tc := ⟨.hbm, 541, rfl⟩
abbrev main_v300 : Ref sig .tc := ⟨.hbm, 542, rfl⟩
abbrev main_cst_74 : Ref sig .tc := ⟨.hbm, 543, rfl⟩
abbrev main_v301 : Ref sig .tc := ⟨.hbm, 544, rfl⟩
abbrev main_v302 : Ref sig .tc := ⟨.hbm, 545, rfl⟩
abbrev main_v303 : Ref sig .tc := ⟨.hbm, 546, rfl⟩
abbrev main_cst_75 : Ref sig .tc := ⟨.hbm, 547, rfl⟩
abbrev main_v304 : Ref sig .tc := ⟨.hbm, 548, rfl⟩
abbrev main_v305 : Ref sig .tc := ⟨.hbm, 549, rfl⟩
abbrev main_v306 : Ref sig .tc := ⟨.hbm, 550, rfl⟩
abbrev main_v307 : Ref sig .tc := ⟨.hbm, 551, rfl⟩
abbrev main_cst_76 : Ref sig .tc := ⟨.hbm, 552, rfl⟩
abbrev main_v308 : Ref sig .tc := ⟨.hbm, 553, rfl⟩
abbrev main_v309 : Ref sig .tc := ⟨.hbm, 554, rfl⟩
abbrev main_v310 : Ref sig .tc := ⟨.hbm, 555, rfl⟩
abbrev main_v311 : Ref sig .tc := ⟨.hbm, 556, rfl⟩
abbrev main_c_77 : Ref sig .tc := ⟨.hbm, 557, rfl⟩
abbrev main_v312 : Ref sig .tc := ⟨.hbm, 558, rfl⟩
abbrev main_v313 : Ref sig .tc := ⟨.hbm, 559, rfl⟩
abbrev main_v314 : Ref sig .tc := ⟨.hbm, 560, rfl⟩
abbrev main_v315 : Ref sig .tc := ⟨.hbm, 561, rfl⟩
abbrev main_c_78 : Ref sig .tc := ⟨.hbm, 562, rfl⟩
abbrev main_v316 : Ref sig .tc := ⟨.hbm, 563, rfl⟩
abbrev main_v317 : Ref sig .tc := ⟨.hbm, 564, rfl⟩
abbrev main_c_79 : Ref sig .tc := ⟨.hbm, 565, rfl⟩
abbrev main_v318 : Ref sig .tc := ⟨.hbm, 566, rfl⟩
abbrev main_v319 : Ref sig .tc := ⟨.hbm, 567, rfl⟩
abbrev main_v320 : Ref sig .tc := ⟨.hbm, 568, rfl⟩
abbrev main_c_80 : Ref sig .tc := ⟨.hbm, 569, rfl⟩
abbrev main_call8_v0 : Ref sig .tc := ⟨.hbm, 570, rfl⟩
abbrev main_call8_c : Ref sig .tc := ⟨.hbm, 571, rfl⟩
abbrev main_call8_v1 : Ref sig .tc := ⟨.hbm, 572, rfl⟩
abbrev main_call8_c_0 : Ref sig .tc := ⟨.hbm, 573, rfl⟩
abbrev main_call8_v2 : Ref sig .tc := ⟨.hbm, 574, rfl⟩
abbrev main_call8_v3 : Ref sig .tc := ⟨.hbm, 575, rfl⟩
abbrev main_call8_v4 : Ref sig .tc := ⟨.hbm, 576, rfl⟩
abbrev main_call8_c_1 : Ref sig .tc := ⟨.hbm, 577, rfl⟩
abbrev main_call8_v5 : Ref sig .tc := ⟨.hbm, 578, rfl⟩
abbrev main_call8_v6 : Ref sig .tc := ⟨.hbm, 579, rfl⟩
abbrev main_call8_c_2 : Ref sig .tc := ⟨.hbm, 580, rfl⟩
abbrev main_call8_v7 : Ref sig .tc := ⟨.hbm, 581, rfl⟩
abbrev main_call8_v8 : Ref sig .tc := ⟨.hbm, 582, rfl⟩
abbrev main_call8_c_3 : Ref sig .tc := ⟨.hbm, 583, rfl⟩
abbrev main_call8_v9 : Ref sig .tc := ⟨.hbm, 584, rfl⟩
abbrev main_call8_v10 : Ref sig .tc := ⟨.hbm, 585, rfl⟩
abbrev main_call8_v11 : Ref sig .tc := ⟨.hbm, 586, rfl⟩
abbrev main_call8_v12 : Ref sig .tc := ⟨.hbm, 587, rfl⟩
abbrev main_call8_v13 : Ref sig .tc := ⟨.hbm, 588, rfl⟩
abbrev main_call8_v14 : Ref sig .tc := ⟨.hbm, 589, rfl⟩
abbrev main_v321 : Ref sig .tc := ⟨.hbm, 590, rfl⟩
abbrev main_v322 : Ref sig .tc := ⟨.hbm, 591, rfl⟩
abbrev main_v323 : Ref sig .tc := ⟨.hbm, 592, rfl⟩
abbrev main_c_81 : Ref sig .tc := ⟨.hbm, 593, rfl⟩
abbrev main_v324 : Ref sig .tc := ⟨.hbm, 594, rfl⟩
abbrev main_v325 : Ref sig .tc := ⟨.hbm, 595, rfl⟩
abbrev main_c_82 : Ref sig .tc := ⟨.hbm, 596, rfl⟩
abbrev main_v326 : Ref sig .tc := ⟨.hbm, 597, rfl⟩
abbrev main_v327 : Ref sig .tc := ⟨.hbm, 598, rfl⟩
abbrev main_v328 : Ref sig .tc := ⟨.hbm, 599, rfl⟩
abbrev main_c_83 : Ref sig .tc := ⟨.hbm, 600, rfl⟩
abbrev main_v329 : Ref sig .tc := ⟨.hbm, 601, rfl⟩
abbrev main_v330 : Ref sig .tc := ⟨.hbm, 602, rfl⟩
abbrev main_v331 : Ref sig .tc := ⟨.hbm, 603, rfl⟩
abbrev main_v332 : Ref sig .tc := ⟨.hbm, 604, rfl⟩
abbrev main_v333 : Ref sig .tc := ⟨.hbm, 605, rfl⟩
abbrev main_v334 : Ref sig .tc := ⟨.hbm, 606, rfl⟩
abbrev main_v335 : Ref sig .tc := ⟨.hbm, 607, rfl⟩
abbrev main_v336 : Ref sig .tc := ⟨.hbm, 608, rfl⟩
abbrev main_v337 : Ref sig .tc := ⟨.hbm, 609, rfl⟩
abbrev main_v338 : Ref sig .tc := ⟨.hbm, 610, rfl⟩
abbrev main_v339 : Ref sig .tc := ⟨.hbm, 611, rfl⟩
abbrev main_v340 : Ref sig .tc := ⟨.hbm, 612, rfl⟩
abbrev main_v341 : Ref sig .tc := ⟨.hbm, 613, rfl⟩
abbrev main_c_84 : Ref sig .tc := ⟨.hbm, 614, rfl⟩
abbrev main_v342 : Ref sig .tc := ⟨.hbm, 615, rfl⟩
abbrev main_v343 : Ref sig .tc := ⟨.hbm, 616, rfl⟩
abbrev main_v344 : Ref sig .tc := ⟨.hbm, 617, rfl⟩
abbrev main_v345 : Ref sig .tc := ⟨.hbm, 618, rfl⟩
abbrev main_c_85 : Ref sig .tc := ⟨.hbm, 619, rfl⟩
abbrev main_v346 : Ref sig .tc := ⟨.hbm, 620, rfl⟩
abbrev main_v347 : Ref sig .tc := ⟨.hbm, 621, rfl⟩
abbrev main_c_86 : Ref sig .tc := ⟨.hbm, 622, rfl⟩
abbrev main_v348 : Ref sig .tc := ⟨.hbm, 623, rfl⟩
abbrev main_v349 : Ref sig .tc := ⟨.hbm, 624, rfl⟩
abbrev main_v350 : Ref sig .tc := ⟨.hbm, 625, rfl⟩
abbrev main_c_87 : Ref sig .tc := ⟨.hbm, 626, rfl⟩
abbrev main_call9_v0 : Ref sig .tc := ⟨.hbm, 627, rfl⟩
abbrev main_call9_c : Ref sig .tc := ⟨.hbm, 628, rfl⟩
abbrev main_call9_v1 : Ref sig .tc := ⟨.hbm, 629, rfl⟩
abbrev main_call9_c_0 : Ref sig .tc := ⟨.hbm, 630, rfl⟩
abbrev main_call9_v2 : Ref sig .tc := ⟨.hbm, 631, rfl⟩
abbrev main_call9_v3 : Ref sig .tc := ⟨.hbm, 632, rfl⟩
abbrev main_call9_v4 : Ref sig .tc := ⟨.hbm, 633, rfl⟩
abbrev main_call9_c_1 : Ref sig .tc := ⟨.hbm, 634, rfl⟩
abbrev main_call9_v5 : Ref sig .tc := ⟨.hbm, 635, rfl⟩
abbrev main_call9_v6 : Ref sig .tc := ⟨.hbm, 636, rfl⟩
abbrev main_call9_c_2 : Ref sig .tc := ⟨.hbm, 637, rfl⟩
abbrev main_call9_v7 : Ref sig .tc := ⟨.hbm, 638, rfl⟩
abbrev main_call9_v8 : Ref sig .tc := ⟨.hbm, 639, rfl⟩
abbrev main_call9_c_3 : Ref sig .tc := ⟨.hbm, 640, rfl⟩
abbrev main_call9_v9 : Ref sig .tc := ⟨.hbm, 641, rfl⟩
abbrev main_call9_v10 : Ref sig .tc := ⟨.hbm, 642, rfl⟩
abbrev main_call9_v11 : Ref sig .tc := ⟨.hbm, 643, rfl⟩
abbrev main_call9_v12 : Ref sig .tc := ⟨.hbm, 644, rfl⟩
abbrev main_call9_v13 : Ref sig .tc := ⟨.hbm, 645, rfl⟩
abbrev main_call9_v14 : Ref sig .tc := ⟨.hbm, 646, rfl⟩
abbrev main_v351 : Ref sig .tc := ⟨.hbm, 647, rfl⟩
abbrev main_v352 : Ref sig .tc := ⟨.hbm, 648, rfl⟩
abbrev main_v353 : Ref sig .tc := ⟨.hbm, 649, rfl⟩
abbrev main_c_88 : Ref sig .tc := ⟨.hbm, 650, rfl⟩
abbrev main_v354 : Ref sig .tc := ⟨.hbm, 651, rfl⟩
abbrev main_v355 : Ref sig .tc := ⟨.hbm, 652, rfl⟩
abbrev main_c_89 : Ref sig .tc := ⟨.hbm, 653, rfl⟩
abbrev main_v356 : Ref sig .tc := ⟨.hbm, 654, rfl⟩
abbrev main_v357 : Ref sig .tc := ⟨.hbm, 655, rfl⟩
abbrev main_v358 : Ref sig .tc := ⟨.hbm, 656, rfl⟩
abbrev main_c_90 : Ref sig .tc := ⟨.hbm, 657, rfl⟩
abbrev main_v359 : Ref sig .tc := ⟨.hbm, 658, rfl⟩
abbrev main_v360 : Ref sig .tc := ⟨.hbm, 659, rfl⟩
abbrev main_v361 : Ref sig .tc := ⟨.hbm, 660, rfl⟩
abbrev main_v362 : Ref sig .tc := ⟨.hbm, 661, rfl⟩
abbrev main_v363 : Ref sig .tc := ⟨.hbm, 662, rfl⟩
abbrev main_v364 : Ref sig .tc := ⟨.hbm, 663, rfl⟩
abbrev main_v365 : Ref sig .tc := ⟨.hbm, 664, rfl⟩
abbrev main_v366 : Ref sig .tc := ⟨.hbm, 665, rfl⟩
abbrev main_v367 : Ref sig .tc := ⟨.hbm, 666, rfl⟩
abbrev main_v368 : Ref sig .tc := ⟨.hbm, 667, rfl⟩
abbrev main_v369 : Ref sig .tc := ⟨.hbm, 668, rfl⟩
abbrev main_v370 : Ref sig .tc := ⟨.hbm, 669, rfl⟩
abbrev main_v371 : Ref sig .tc := ⟨.hbm, 670, rfl⟩
abbrev main_cst_91 : Ref sig .tc := ⟨.hbm, 671, rfl⟩
abbrev main_v372 : Ref sig .tc := ⟨.hbm, 672, rfl⟩
abbrev main_v373 : Ref sig .tc := ⟨.hbm, 673, rfl⟩
abbrev main_v374 : Ref sig .tc := ⟨.hbm, 674, rfl⟩
abbrev main_v375 : Ref sig .tc := ⟨.hbm, 675, rfl⟩
abbrev main_c_92 : Ref sig .tc := ⟨.hbm, 676, rfl⟩
abbrev main_v376 : Ref sig .tc := ⟨.hbm, 677, rfl⟩
abbrev main_v377 : Ref sig .tc := ⟨.hbm, 678, rfl⟩
abbrev main_v378 : Ref sig .tc := ⟨.hbm, 679, rfl⟩
abbrev main_v379 : Ref sig .tc := ⟨.hbm, 680, rfl⟩
abbrev main_c_93 : Ref sig .tc := ⟨.hbm, 681, rfl⟩
abbrev main_v380 : Ref sig .tc := ⟨.hbm, 682, rfl⟩
abbrev main_v381 : Ref sig .tc := ⟨.hbm, 683, rfl⟩
abbrev main_c_94 : Ref sig .tc := ⟨.hbm, 684, rfl⟩
abbrev main_v382 : Ref sig .tc := ⟨.hbm, 685, rfl⟩
abbrev main_v383 : Ref sig .tc := ⟨.hbm, 686, rfl⟩
abbrev main_v384 : Ref sig .tc := ⟨.hbm, 687, rfl⟩
abbrev main_c_95 : Ref sig .tc := ⟨.hbm, 688, rfl⟩
abbrev main_call10_v0 : Ref sig .tc := ⟨.hbm, 689, rfl⟩
abbrev main_call10_c : Ref sig .tc := ⟨.hbm, 690, rfl⟩
abbrev main_call10_v1 : Ref sig .tc := ⟨.hbm, 691, rfl⟩
abbrev main_call10_c_0 : Ref sig .tc := ⟨.hbm, 692, rfl⟩
abbrev main_call10_v2 : Ref sig .tc := ⟨.hbm, 693, rfl⟩
abbrev main_call10_v3 : Ref sig .tc := ⟨.hbm, 694, rfl⟩
abbrev main_call10_v4 : Ref sig .tc := ⟨.hbm, 695, rfl⟩
abbrev main_call10_c_1 : Ref sig .tc := ⟨.hbm, 696, rfl⟩
abbrev main_call10_v5 : Ref sig .tc := ⟨.hbm, 697, rfl⟩
abbrev main_call10_v6 : Ref sig .tc := ⟨.hbm, 698, rfl⟩
abbrev main_call10_c_2 : Ref sig .tc := ⟨.hbm, 699, rfl⟩
abbrev main_call10_v7 : Ref sig .tc := ⟨.hbm, 700, rfl⟩
abbrev main_call10_v8 : Ref sig .tc := ⟨.hbm, 701, rfl⟩
abbrev main_call10_c_3 : Ref sig .tc := ⟨.hbm, 702, rfl⟩
abbrev main_call10_v9 : Ref sig .tc := ⟨.hbm, 703, rfl⟩
abbrev main_call10_v10 : Ref sig .tc := ⟨.hbm, 704, rfl⟩
abbrev main_call10_v11 : Ref sig .tc := ⟨.hbm, 705, rfl⟩
abbrev main_call10_v12 : Ref sig .tc := ⟨.hbm, 706, rfl⟩
abbrev main_call10_v13 : Ref sig .tc := ⟨.hbm, 707, rfl⟩
abbrev main_call10_v14 : Ref sig .tc := ⟨.hbm, 708, rfl⟩
abbrev main_v385 : Ref sig .tc := ⟨.hbm, 709, rfl⟩
abbrev main_v386 : Ref sig .tc := ⟨.hbm, 710, rfl⟩
abbrev main_v387 : Ref sig .tc := ⟨.hbm, 711, rfl⟩
abbrev main_c_96 : Ref sig .tc := ⟨.hbm, 712, rfl⟩
abbrev main_v388 : Ref sig .tc := ⟨.hbm, 713, rfl⟩
abbrev main_v389 : Ref sig .tc := ⟨.hbm, 714, rfl⟩
abbrev main_c_97 : Ref sig .tc := ⟨.hbm, 715, rfl⟩
abbrev main_v390 : Ref sig .tc := ⟨.hbm, 716, rfl⟩
abbrev main_v391 : Ref sig .tc := ⟨.hbm, 717, rfl⟩
abbrev main_v392 : Ref sig .tc := ⟨.hbm, 718, rfl⟩
abbrev main_c_98 : Ref sig .tc := ⟨.hbm, 719, rfl⟩
abbrev main_v393 : Ref sig .tc := ⟨.hbm, 720, rfl⟩
abbrev main_v394 : Ref sig .tc := ⟨.hbm, 721, rfl⟩
abbrev main_v395 : Ref sig .tc := ⟨.hbm, 722, rfl⟩
abbrev main_v396 : Ref sig .tc := ⟨.hbm, 723, rfl⟩
abbrev main_v397 : Ref sig .tc := ⟨.hbm, 724, rfl⟩
abbrev main_v398 : Ref sig .tc := ⟨.hbm, 725, rfl⟩
abbrev main_v399 : Ref sig .tc := ⟨.hbm, 726, rfl⟩
abbrev main_v400 : Ref sig .tc := ⟨.hbm, 727, rfl⟩
abbrev main_v401 : Ref sig .tc := ⟨.hbm, 728, rfl⟩
abbrev main_v402 : Ref sig .tc := ⟨.hbm, 729, rfl⟩
abbrev main_v403 : Ref sig .tc := ⟨.hbm, 730, rfl⟩
abbrev main_v404 : Ref sig .tc := ⟨.hbm, 731, rfl⟩
abbrev main_v405 : Ref sig .tc := ⟨.hbm, 732, rfl⟩
abbrev main_c_99 : Ref sig .tc := ⟨.hbm, 733, rfl⟩
abbrev main_v406 : Ref sig .tc := ⟨.hbm, 734, rfl⟩
abbrev main_v407 : Ref sig .tc := ⟨.hbm, 735, rfl⟩
abbrev main_v408 : Ref sig .tc := ⟨.hbm, 736, rfl⟩
abbrev main_v409 : Ref sig .tc := ⟨.hbm, 737, rfl⟩
abbrev main_c_100 : Ref sig .tc := ⟨.hbm, 738, rfl⟩
abbrev main_v410 : Ref sig .tc := ⟨.hbm, 739, rfl⟩
abbrev main_v411 : Ref sig .tc := ⟨.hbm, 740, rfl⟩
abbrev main_c_101 : Ref sig .tc := ⟨.hbm, 741, rfl⟩
abbrev main_v412 : Ref sig .tc := ⟨.hbm, 742, rfl⟩
abbrev main_v413 : Ref sig .tc := ⟨.hbm, 743, rfl⟩
abbrev main_v414 : Ref sig .tc := ⟨.hbm, 744, rfl⟩
abbrev main_c_102 : Ref sig .tc := ⟨.hbm, 745, rfl⟩
abbrev main_call11_v0 : Ref sig .tc := ⟨.hbm, 746, rfl⟩
abbrev main_call11_c : Ref sig .tc := ⟨.hbm, 747, rfl⟩
abbrev main_call11_v1 : Ref sig .tc := ⟨.hbm, 748, rfl⟩
abbrev main_call11_c_0 : Ref sig .tc := ⟨.hbm, 749, rfl⟩
abbrev main_call11_v2 : Ref sig .tc := ⟨.hbm, 750, rfl⟩
abbrev main_call11_v3 : Ref sig .tc := ⟨.hbm, 751, rfl⟩
abbrev main_call11_v4 : Ref sig .tc := ⟨.hbm, 752, rfl⟩
abbrev main_call11_c_1 : Ref sig .tc := ⟨.hbm, 753, rfl⟩
abbrev main_call11_v5 : Ref sig .tc := ⟨.hbm, 754, rfl⟩
abbrev main_call11_v6 : Ref sig .tc := ⟨.hbm, 755, rfl⟩
abbrev main_call11_c_2 : Ref sig .tc := ⟨.hbm, 756, rfl⟩
abbrev main_call11_v7 : Ref sig .tc := ⟨.hbm, 757, rfl⟩
abbrev main_call11_v8 : Ref sig .tc := ⟨.hbm, 758, rfl⟩
abbrev main_call11_c_3 : Ref sig .tc := ⟨.hbm, 759, rfl⟩
abbrev main_call11_v9 : Ref sig .tc := ⟨.hbm, 760, rfl⟩
abbrev main_call11_v10 : Ref sig .tc := ⟨.hbm, 761, rfl⟩
abbrev main_call11_v11 : Ref sig .tc := ⟨.hbm, 762, rfl⟩
abbrev main_call11_v12 : Ref sig .tc := ⟨.hbm, 763, rfl⟩
abbrev main_call11_v13 : Ref sig .tc := ⟨.hbm, 764, rfl⟩
abbrev main_call11_v14 : Ref sig .tc := ⟨.hbm, 765, rfl⟩
abbrev main_v415 : Ref sig .tc := ⟨.hbm, 766, rfl⟩
abbrev main_v416 : Ref sig .tc := ⟨.hbm, 767, rfl⟩
abbrev main_v417 : Ref sig .tc := ⟨.hbm, 768, rfl⟩
abbrev main_c_103 : Ref sig .tc := ⟨.hbm, 769, rfl⟩
abbrev main_v418 : Ref sig .tc := ⟨.hbm, 770, rfl⟩
abbrev main_v419 : Ref sig .tc := ⟨.hbm, 771, rfl⟩
abbrev main_c_104 : Ref sig .tc := ⟨.hbm, 772, rfl⟩
abbrev main_v420 : Ref sig .tc := ⟨.hbm, 773, rfl⟩
abbrev main_v421 : Ref sig .tc := ⟨.hbm, 774, rfl⟩
abbrev main_v422 : Ref sig .tc := ⟨.hbm, 775, rfl⟩
abbrev main_c_105 : Ref sig .tc := ⟨.hbm, 776, rfl⟩
abbrev main_v423 : Ref sig .tc := ⟨.hbm, 777, rfl⟩
abbrev main_v424 : Ref sig .tc := ⟨.hbm, 778, rfl⟩
abbrev main_v425 : Ref sig .tc := ⟨.hbm, 779, rfl⟩
abbrev main_v426 : Ref sig .tc := ⟨.hbm, 780, rfl⟩
abbrev main_v427 : Ref sig .tc := ⟨.hbm, 781, rfl⟩
abbrev main_v428 : Ref sig .tc := ⟨.hbm, 782, rfl⟩
abbrev main_v429 : Ref sig .tc := ⟨.hbm, 783, rfl⟩
abbrev main_v430 : Ref sig .tc := ⟨.hbm, 784, rfl⟩
abbrev main_v431 : Ref sig .tc := ⟨.hbm, 785, rfl⟩
abbrev main_cst_106 : Ref sig .tc := ⟨.hbm, 786, rfl⟩
abbrev main_v432 : Ref sig .tc := ⟨.hbm, 787, rfl⟩
abbrev main_v433 : Ref sig .tc := ⟨.hbm, 788, rfl⟩
abbrev main_cst_107 : Ref sig .tc := ⟨.hbm, 789, rfl⟩
abbrev main_v434 : Ref sig .tc := ⟨.hbm, 790, rfl⟩
abbrev main_v435 : Ref sig .tc := ⟨.hbm, 791, rfl⟩
abbrev main_v436 : Ref sig .tc := ⟨.hbm, 792, rfl⟩
abbrev main_v437 : Ref sig .tc := ⟨.hbm, 793, rfl⟩
abbrev main_v438 : Ref sig .tc := ⟨.hbm, 794, rfl⟩
abbrev main_v439 : Ref sig .tc := ⟨.hbm, 795, rfl⟩
abbrev main_cst_108 : Ref sig .tc := ⟨.hbm, 796, rfl⟩
abbrev main_v440 : Ref sig .tc := ⟨.hbm, 797, rfl⟩
abbrev main_v441 : Ref sig .tc := ⟨.hbm, 798, rfl⟩
abbrev main_cst_109 : Ref sig .tc := ⟨.hbm, 799, rfl⟩
abbrev main_v442 : Ref sig .tc := ⟨.hbm, 800, rfl⟩
abbrev main_v443 : Ref sig .tc := ⟨.hbm, 801, rfl⟩
abbrev main_v444 : Ref sig .tc := ⟨.hbm, 802, rfl⟩
abbrev main_cst_110 : Ref sig .tc := ⟨.hbm, 803, rfl⟩
abbrev main_v445 : Ref sig .tc := ⟨.hbm, 804, rfl⟩
abbrev main_v446 : Ref sig .tc := ⟨.hbm, 805, rfl⟩
abbrev main_v447 : Ref sig .tc := ⟨.hbm, 806, rfl⟩
abbrev main_cst_111 : Ref sig .tc := ⟨.hbm, 807, rfl⟩
abbrev main_v448 : Ref sig .tc := ⟨.hbm, 808, rfl⟩
abbrev main_v449 : Ref sig .tc := ⟨.hbm, 809, rfl⟩
abbrev main_v450 : Ref sig .tc := ⟨.hbm, 810, rfl⟩
abbrev main_v451 : Ref sig .tc := ⟨.hbm, 811, rfl⟩
abbrev main_cst_112 : Ref sig .tc := ⟨.hbm, 812, rfl⟩
abbrev main_v452 : Ref sig .tc := ⟨.hbm, 813, rfl⟩
abbrev main_v453 : Ref sig .tc := ⟨.hbm, 814, rfl⟩
abbrev main_v454 : Ref sig .tc := ⟨.hbm, 815, rfl⟩
abbrev main_v455 : Ref sig .tc := ⟨.hbm, 816, rfl⟩
abbrev main_c_113 : Ref sig .tc := ⟨.hbm, 817, rfl⟩
abbrev main_v456 : Ref sig .tc := ⟨.hbm, 818, rfl⟩
abbrev main_v457 : Ref sig .tc := ⟨.hbm, 819, rfl⟩
abbrev main_v458 : Ref sig .tc := ⟨.hbm, 820, rfl⟩
abbrev main_v459 : Ref sig .tc := ⟨.hbm, 821, rfl⟩
abbrev main_c_114 : Ref sig .tc := ⟨.hbm, 822, rfl⟩
abbrev main_v460 : Ref sig .tc := ⟨.hbm, 823, rfl⟩
abbrev main_v461 : Ref sig .tc := ⟨.hbm, 824, rfl⟩
abbrev main_c_115 : Ref sig .tc := ⟨.hbm, 825, rfl⟩
abbrev main_v462 : Ref sig .tc := ⟨.hbm, 826, rfl⟩
abbrev main_v463 : Ref sig .tc := ⟨.hbm, 827, rfl⟩
abbrev main_v464 : Ref sig .tc := ⟨.hbm, 828, rfl⟩
abbrev main_c_116 : Ref sig .tc := ⟨.hbm, 829, rfl⟩
abbrev main_call12_v0 : Ref sig .tc := ⟨.hbm, 830, rfl⟩
abbrev main_call12_c : Ref sig .tc := ⟨.hbm, 831, rfl⟩
abbrev main_call12_v1 : Ref sig .tc := ⟨.hbm, 832, rfl⟩
abbrev main_call12_c_0 : Ref sig .tc := ⟨.hbm, 833, rfl⟩
abbrev main_call12_v2 : Ref sig .tc := ⟨.hbm, 834, rfl⟩
abbrev main_call12_v3 : Ref sig .tc := ⟨.hbm, 835, rfl⟩
abbrev main_call12_v4 : Ref sig .tc := ⟨.hbm, 836, rfl⟩
abbrev main_call12_c_1 : Ref sig .tc := ⟨.hbm, 837, rfl⟩
abbrev main_call12_v5 : Ref sig .tc := ⟨.hbm, 838, rfl⟩
abbrev main_call12_v6 : Ref sig .tc := ⟨.hbm, 839, rfl⟩
abbrev main_call12_c_2 : Ref sig .tc := ⟨.hbm, 840, rfl⟩
abbrev main_call12_v7 : Ref sig .tc := ⟨.hbm, 841, rfl⟩
abbrev main_call12_v8 : Ref sig .tc := ⟨.hbm, 842, rfl⟩
abbrev main_call12_c_3 : Ref sig .tc := ⟨.hbm, 843, rfl⟩
abbrev main_call12_v9 : Ref sig .tc := ⟨.hbm, 844, rfl⟩
abbrev main_call12_v10 : Ref sig .tc := ⟨.hbm, 845, rfl⟩
abbrev main_call12_v11 : Ref sig .tc := ⟨.hbm, 846, rfl⟩
abbrev main_call12_v12 : Ref sig .tc := ⟨.hbm, 847, rfl⟩
abbrev main_call12_v13 : Ref sig .tc := ⟨.hbm, 848, rfl⟩
abbrev main_call12_v14 : Ref sig .tc := ⟨.hbm, 849, rfl⟩
abbrev main_v465 : Ref sig .tc := ⟨.hbm, 850, rfl⟩
abbrev main_v466 : Ref sig .tc := ⟨.hbm, 851, rfl⟩
abbrev main_v467 : Ref sig .tc := ⟨.hbm, 852, rfl⟩
abbrev main_c_117 : Ref sig .tc := ⟨.hbm, 853, rfl⟩
abbrev main_v468 : Ref sig .tc := ⟨.hbm, 854, rfl⟩
abbrev main_v469 : Ref sig .tc := ⟨.hbm, 855, rfl⟩
abbrev main_c_118 : Ref sig .tc := ⟨.hbm, 856, rfl⟩
abbrev main_v470 : Ref sig .tc := ⟨.hbm, 857, rfl⟩
abbrev main_v471 : Ref sig .tc := ⟨.hbm, 858, rfl⟩
abbrev main_v472 : Ref sig .tc := ⟨.hbm, 859, rfl⟩
abbrev main_c_119 : Ref sig .tc := ⟨.hbm, 860, rfl⟩
abbrev main_v473 : Ref sig .tc := ⟨.hbm, 861, rfl⟩
abbrev main_v474 : Ref sig .tc := ⟨.hbm, 862, rfl⟩
abbrev main_v475 : Ref sig .tc := ⟨.hbm, 863, rfl⟩
abbrev main_v476 : Ref sig .tc := ⟨.hbm, 864, rfl⟩
abbrev main_v477 : Ref sig .tc := ⟨.hbm, 865, rfl⟩
abbrev main_v478 : Ref sig .tc := ⟨.hbm, 866, rfl⟩
abbrev main_v479 : Ref sig .tc := ⟨.hbm, 867, rfl⟩
abbrev main_v480 : Ref sig .tc := ⟨.hbm, 868, rfl⟩
abbrev main_v481 : Ref sig .tc := ⟨.hbm, 869, rfl⟩
abbrev main_v482 : Ref sig .tc := ⟨.hbm, 870, rfl⟩
abbrev main_v483 : Ref sig .tc := ⟨.hbm, 871, rfl⟩
abbrev main_v484 : Ref sig .tc := ⟨.hbm, 872, rfl⟩
abbrev main_v485 : Ref sig .tc := ⟨.hbm, 873, rfl⟩
abbrev main_c_120 : Ref sig .tc := ⟨.hbm, 874, rfl⟩
abbrev main_v486 : Ref sig .tc := ⟨.hbm, 875, rfl⟩
abbrev main_v487 : Ref sig .tc := ⟨.hbm, 876, rfl⟩
abbrev main_v488 : Ref sig .tc := ⟨.hbm, 877, rfl⟩
abbrev main_v489 : Ref sig .tc := ⟨.hbm, 878, rfl⟩
abbrev main_c_121 : Ref sig .tc := ⟨.hbm, 879, rfl⟩
abbrev main_v490 : Ref sig .tc := ⟨.hbm, 880, rfl⟩
abbrev main_v491 : Ref sig .tc := ⟨.hbm, 881, rfl⟩
abbrev main_c_122 : Ref sig .tc := ⟨.hbm, 882, rfl⟩
abbrev main_v492 : Ref sig .tc := ⟨.hbm, 883, rfl⟩
abbrev main_v493 : Ref sig .tc := ⟨.hbm, 884, rfl⟩
abbrev main_v494 : Ref sig .tc := ⟨.hbm, 885, rfl⟩
abbrev main_c_123 : Ref sig .tc := ⟨.hbm, 886, rfl⟩
abbrev main_call13_v0 : Ref sig .tc := ⟨.hbm, 887, rfl⟩
abbrev main_call13_c : Ref sig .tc := ⟨.hbm, 888, rfl⟩
abbrev main_call13_v1 : Ref sig .tc := ⟨.hbm, 889, rfl⟩
abbrev main_call13_c_0 : Ref sig .tc := ⟨.hbm, 890, rfl⟩
abbrev main_call13_v2 : Ref sig .tc := ⟨.hbm, 891, rfl⟩
abbrev main_call13_v3 : Ref sig .tc := ⟨.hbm, 892, rfl⟩
abbrev main_call13_v4 : Ref sig .tc := ⟨.hbm, 893, rfl⟩
abbrev main_call13_c_1 : Ref sig .tc := ⟨.hbm, 894, rfl⟩
abbrev main_call13_v5 : Ref sig .tc := ⟨.hbm, 895, rfl⟩
abbrev main_call13_v6 : Ref sig .tc := ⟨.hbm, 896, rfl⟩
abbrev main_call13_c_2 : Ref sig .tc := ⟨.hbm, 897, rfl⟩
abbrev main_call13_v7 : Ref sig .tc := ⟨.hbm, 898, rfl⟩
abbrev main_call13_v8 : Ref sig .tc := ⟨.hbm, 899, rfl⟩
abbrev main_call13_c_3 : Ref sig .tc := ⟨.hbm, 900, rfl⟩
abbrev main_call13_v9 : Ref sig .tc := ⟨.hbm, 901, rfl⟩
abbrev main_call13_v10 : Ref sig .tc := ⟨.hbm, 902, rfl⟩
abbrev main_call13_v11 : Ref sig .tc := ⟨.hbm, 903, rfl⟩
abbrev main_call13_v12 : Ref sig .tc := ⟨.hbm, 904, rfl⟩
abbrev main_call13_v13 : Ref sig .tc := ⟨.hbm, 905, rfl⟩
abbrev main_call13_v14 : Ref sig .tc := ⟨.hbm, 906, rfl⟩
abbrev main_v495 : Ref sig .tc := ⟨.hbm, 907, rfl⟩
abbrev main_v496 : Ref sig .tc := ⟨.hbm, 908, rfl⟩
abbrev main_v497 : Ref sig .tc := ⟨.hbm, 909, rfl⟩
abbrev main_c_124 : Ref sig .tc := ⟨.hbm, 910, rfl⟩
abbrev main_v498 : Ref sig .tc := ⟨.hbm, 911, rfl⟩
abbrev main_v499 : Ref sig .tc := ⟨.hbm, 912, rfl⟩
abbrev main_c_125 : Ref sig .tc := ⟨.hbm, 913, rfl⟩
abbrev main_v500 : Ref sig .tc := ⟨.hbm, 914, rfl⟩
abbrev main_v501 : Ref sig .tc := ⟨.hbm, 915, rfl⟩
abbrev main_v502 : Ref sig .tc := ⟨.hbm, 916, rfl⟩
abbrev main_c_126 : Ref sig .tc := ⟨.hbm, 917, rfl⟩
abbrev main_v503 : Ref sig .tc := ⟨.hbm, 918, rfl⟩
abbrev main_v504 : Ref sig .tc := ⟨.hbm, 919, rfl⟩
abbrev main_v505 : Ref sig .tc := ⟨.hbm, 920, rfl⟩
abbrev main_v506 : Ref sig .tc := ⟨.hbm, 921, rfl⟩
abbrev main_v507 : Ref sig .tc := ⟨.hbm, 922, rfl⟩
abbrev main_v508 : Ref sig .tc := ⟨.hbm, 923, rfl⟩
abbrev main_v509 : Ref sig .tc := ⟨.hbm, 924, rfl⟩
abbrev main_v510 : Ref sig .tc := ⟨.hbm, 925, rfl⟩
abbrev main_v511 : Ref sig .tc := ⟨.hbm, 926, rfl⟩
abbrev main_v512 : Ref sig .tc := ⟨.hbm, 927, rfl⟩
abbrev main_v513 : Ref sig .tc := ⟨.hbm, 928, rfl⟩
abbrev main_v514 : Ref sig .tc := ⟨.hbm, 929, rfl⟩
abbrev main_v515 : Ref sig .tc := ⟨.hbm, 930, rfl⟩
abbrev main_cst_127 : Ref sig .tc := ⟨.hbm, 931, rfl⟩
abbrev main_v516 : Ref sig .tc := ⟨.hbm, 932, rfl⟩
abbrev main_v517 : Ref sig .tc := ⟨.hbm, 933, rfl⟩
abbrev main_v518 : Ref sig .tc := ⟨.hbm, 934, rfl⟩
abbrev main_v519 : Ref sig .tc := ⟨.hbm, 935, rfl⟩
abbrev main_c_128 : Ref sig .tc := ⟨.hbm, 936, rfl⟩
abbrev main_v520 : Ref sig .tc := ⟨.hbm, 937, rfl⟩
abbrev main_v521 : Ref sig .tc := ⟨.hbm, 938, rfl⟩
abbrev main_v522 : Ref sig .tc := ⟨.hbm, 939, rfl⟩
abbrev main_v523 : Ref sig .tc := ⟨.hbm, 940, rfl⟩
abbrev main_c_129 : Ref sig .tc := ⟨.hbm, 941, rfl⟩
abbrev main_v524 : Ref sig .tc := ⟨.hbm, 942, rfl⟩
abbrev main_v525 : Ref sig .tc := ⟨.hbm, 943, rfl⟩
abbrev main_c_130 : Ref sig .tc := ⟨.hbm, 944, rfl⟩
abbrev main_v526 : Ref sig .tc := ⟨.hbm, 945, rfl⟩
abbrev main_v527 : Ref sig .tc := ⟨.hbm, 946, rfl⟩
abbrev main_v528 : Ref sig .tc := ⟨.hbm, 947, rfl⟩
abbrev main_c_131 : Ref sig .tc := ⟨.hbm, 948, rfl⟩
abbrev main_call14_v0 : Ref sig .tc := ⟨.hbm, 949, rfl⟩
abbrev main_call14_c : Ref sig .tc := ⟨.hbm, 950, rfl⟩
abbrev main_call14_v1 : Ref sig .tc := ⟨.hbm, 951, rfl⟩
abbrev main_call14_c_0 : Ref sig .tc := ⟨.hbm, 952, rfl⟩
abbrev main_call14_v2 : Ref sig .tc := ⟨.hbm, 953, rfl⟩
abbrev main_call14_v3 : Ref sig .tc := ⟨.hbm, 954, rfl⟩
abbrev main_call14_v4 : Ref sig .tc := ⟨.hbm, 955, rfl⟩
abbrev main_call14_c_1 : Ref sig .tc := ⟨.hbm, 956, rfl⟩
abbrev main_call14_v5 : Ref sig .tc := ⟨.hbm, 957, rfl⟩
abbrev main_call14_v6 : Ref sig .tc := ⟨.hbm, 958, rfl⟩
abbrev main_call14_c_2 : Ref sig .tc := ⟨.hbm, 959, rfl⟩
abbrev main_call14_v7 : Ref sig .tc := ⟨.hbm, 960, rfl⟩
abbrev main_call14_v8 : Ref sig .tc := ⟨.hbm, 961, rfl⟩
abbrev main_call14_c_3 : Ref sig .tc := ⟨.hbm, 962, rfl⟩
abbrev main_call14_v9 : Ref sig .tc := ⟨.hbm, 963, rfl⟩
abbrev main_call14_v10 : Ref sig .tc := ⟨.hbm, 964, rfl⟩
abbrev main_call14_v11 : Ref sig .tc := ⟨.hbm, 965, rfl⟩
abbrev main_call14_v12 : Ref sig .tc := ⟨.hbm, 966, rfl⟩
abbrev main_call14_v13 : Ref sig .tc := ⟨.hbm, 967, rfl⟩
abbrev main_call14_v14 : Ref sig .tc := ⟨.hbm, 968, rfl⟩
abbrev main_v529 : Ref sig .tc := ⟨.hbm, 969, rfl⟩
abbrev main_v530 : Ref sig .tc := ⟨.hbm, 970, rfl⟩
abbrev main_v531 : Ref sig .tc := ⟨.hbm, 971, rfl⟩
abbrev main_c_132 : Ref sig .tc := ⟨.hbm, 972, rfl⟩
abbrev main_v532 : Ref sig .tc := ⟨.hbm, 973, rfl⟩
abbrev main_v533 : Ref sig .tc := ⟨.hbm, 974, rfl⟩
abbrev main_c_133 : Ref sig .tc := ⟨.hbm, 975, rfl⟩
abbrev main_v534 : Ref sig .tc := ⟨.hbm, 976, rfl⟩
abbrev main_v535 : Ref sig .tc := ⟨.hbm, 977, rfl⟩
abbrev main_v536 : Ref sig .tc := ⟨.hbm, 978, rfl⟩
abbrev main_c_134 : Ref sig .tc := ⟨.hbm, 979, rfl⟩
abbrev main_v537 : Ref sig .tc := ⟨.hbm, 980, rfl⟩
abbrev main_v538 : Ref sig .tc := ⟨.hbm, 981, rfl⟩
abbrev main_v539 : Ref sig .tc := ⟨.hbm, 982, rfl⟩
abbrev main_v540 : Ref sig .tc := ⟨.hbm, 983, rfl⟩
abbrev main_v541 : Ref sig .tc := ⟨.hbm, 984, rfl⟩
abbrev main_v542 : Ref sig .tc := ⟨.hbm, 985, rfl⟩
abbrev main_v543 : Ref sig .tc := ⟨.hbm, 986, rfl⟩
abbrev main_v544 : Ref sig .tc := ⟨.hbm, 987, rfl⟩
abbrev main_v545 : Ref sig .tc := ⟨.hbm, 988, rfl⟩
abbrev main_v546 : Ref sig .tc := ⟨.hbm, 989, rfl⟩
abbrev main_v547 : Ref sig .tc := ⟨.hbm, 990, rfl⟩
abbrev main_v548 : Ref sig .tc := ⟨.hbm, 991, rfl⟩
abbrev main_v549 : Ref sig .tc := ⟨.hbm, 992, rfl⟩
abbrev main_c_135 : Ref sig .tc := ⟨.hbm, 993, rfl⟩
abbrev main_v550 : Ref sig .tc := ⟨.hbm, 994, rfl⟩
abbrev main_v551 : Ref sig .tc := ⟨.hbm, 995, rfl⟩
abbrev main_v552 : Ref sig .tc := ⟨.hbm, 996, rfl⟩
abbrev main_v553 : Ref sig .tc := ⟨.hbm, 997, rfl⟩
abbrev main_c_136 : Ref sig .tc := ⟨.hbm, 998, rfl⟩
abbrev main_v554 : Ref sig .tc := ⟨.hbm, 999, rfl⟩
abbrev main_v555 : Ref sig .tc := ⟨.hbm, 1000, rfl⟩
abbrev main_c_137 : Ref sig .tc := ⟨.hbm, 1001, rfl⟩
abbrev main_v556 : Ref sig .tc := ⟨.hbm, 1002, rfl⟩
abbrev main_v557 : Ref sig .tc := ⟨.hbm, 1003, rfl⟩
abbrev main_v558 : Ref sig .tc := ⟨.hbm, 1004, rfl⟩
abbrev main_c_138 : Ref sig .tc := ⟨.hbm, 1005, rfl⟩
abbrev main_call15_v0 : Ref sig .tc := ⟨.hbm, 1006, rfl⟩
abbrev main_call15_c : Ref sig .tc := ⟨.hbm, 1007, rfl⟩
abbrev main_call15_v1 : Ref sig .tc := ⟨.hbm, 1008, rfl⟩
abbrev main_call15_c_0 : Ref sig .tc := ⟨.hbm, 1009, rfl⟩
abbrev main_call15_v2 : Ref sig .tc := ⟨.hbm, 1010, rfl⟩
abbrev main_call15_v3 : Ref sig .tc := ⟨.hbm, 1011, rfl⟩
abbrev main_call15_v4 : Ref sig .tc := ⟨.hbm, 1012, rfl⟩
abbrev main_call15_c_1 : Ref sig .tc := ⟨.hbm, 1013, rfl⟩
abbrev main_call15_v5 : Ref sig .tc := ⟨.hbm, 1014, rfl⟩
abbrev main_call15_v6 : Ref sig .tc := ⟨.hbm, 1015, rfl⟩
abbrev main_call15_c_2 : Ref sig .tc := ⟨.hbm, 1016, rfl⟩
abbrev main_call15_v7 : Ref sig .tc := ⟨.hbm, 1017, rfl⟩
abbrev main_call15_v8 : Ref sig .tc := ⟨.hbm, 1018, rfl⟩
abbrev main_call15_c_3 : Ref sig .tc := ⟨.hbm, 1019, rfl⟩
abbrev main_call15_v9 : Ref sig .tc := ⟨.hbm, 1020, rfl⟩
abbrev main_call15_v10 : Ref sig .tc := ⟨.hbm, 1021, rfl⟩
abbrev main_call15_v11 : Ref sig .tc := ⟨.hbm, 1022, rfl⟩
abbrev main_call15_v12 : Ref sig .tc := ⟨.hbm, 1023, rfl⟩
abbrev main_call15_v13 : Ref sig .tc := ⟨.hbm, 1024, rfl⟩
abbrev main_call15_v14 : Ref sig .tc := ⟨.hbm, 1025, rfl⟩
abbrev main_v559 : Ref sig .tc := ⟨.hbm, 1026, rfl⟩
abbrev main_v560 : Ref sig .tc := ⟨.hbm, 1027, rfl⟩
abbrev main_v561 : Ref sig .tc := ⟨.hbm, 1028, rfl⟩
abbrev main_c_139 : Ref sig .tc := ⟨.hbm, 1029, rfl⟩
abbrev main_v562 : Ref sig .tc := ⟨.hbm, 1030, rfl⟩
abbrev main_v563 : Ref sig .tc := ⟨.hbm, 1031, rfl⟩
abbrev main_c_140 : Ref sig .tc := ⟨.hbm, 1032, rfl⟩
abbrev main_v564 : Ref sig .tc := ⟨.hbm, 1033, rfl⟩
abbrev main_v565 : Ref sig .tc := ⟨.hbm, 1034, rfl⟩
abbrev main_v566 : Ref sig .tc := ⟨.hbm, 1035, rfl⟩
abbrev main_c_141 : Ref sig .tc := ⟨.hbm, 1036, rfl⟩
abbrev main_v567 : Ref sig .tc := ⟨.hbm, 1037, rfl⟩
abbrev main_v568 : Ref sig .tc := ⟨.hbm, 1038, rfl⟩
abbrev main_v569 : Ref sig .tc := ⟨.hbm, 1039, rfl⟩
abbrev main_v570 : Ref sig .tc := ⟨.hbm, 1040, rfl⟩
abbrev main_v571 : Ref sig .tc := ⟨.hbm, 1041, rfl⟩
abbrev main_v572 : Ref sig .tc := ⟨.hbm, 1042, rfl⟩
abbrev main_v573 : Ref sig .tc := ⟨.hbm, 1043, rfl⟩
abbrev main_v574 : Ref sig .tc := ⟨.hbm, 1044, rfl⟩
abbrev main_v575 : Ref sig .tc := ⟨.hbm, 1045, rfl⟩
abbrev main_cst_142 : Ref sig .tc := ⟨.hbm, 1046, rfl⟩
abbrev main_v576 : Ref sig .tc := ⟨.hbm, 1047, rfl⟩
abbrev main_v577 : Ref sig .tc := ⟨.hbm, 1048, rfl⟩
abbrev main_cst_143 : Ref sig .tc := ⟨.hbm, 1049, rfl⟩
abbrev main_v578 : Ref sig .tc := ⟨.hbm, 1050, rfl⟩
abbrev main_v579 : Ref sig .tc := ⟨.hbm, 1051, rfl⟩
abbrev main_v580 : Ref sig .tc := ⟨.hbm, 1052, rfl⟩
abbrev main_v581 : Ref sig .tc := ⟨.hbm, 1053, rfl⟩
abbrev main_v582 : Ref sig .tc := ⟨.hbm, 1054, rfl⟩
abbrev main_v583 : Ref sig .tc := ⟨.hbm, 1055, rfl⟩
abbrev main_cst_144 : Ref sig .tc := ⟨.hbm, 1056, rfl⟩
abbrev main_v584 : Ref sig .tc := ⟨.hbm, 1057, rfl⟩
abbrev main_v585 : Ref sig .tc := ⟨.hbm, 1058, rfl⟩
abbrev main_cst_145 : Ref sig .tc := ⟨.hbm, 1059, rfl⟩
abbrev main_v586 : Ref sig .tc := ⟨.hbm, 1060, rfl⟩
abbrev main_v587 : Ref sig .tc := ⟨.hbm, 1061, rfl⟩
abbrev main_v588 : Ref sig .tc := ⟨.hbm, 1062, rfl⟩
abbrev main_cst_146 : Ref sig .tc := ⟨.hbm, 1063, rfl⟩
abbrev main_v589 : Ref sig .tc := ⟨.hbm, 1064, rfl⟩
abbrev main_v590 : Ref sig .tc := ⟨.hbm, 1065, rfl⟩
abbrev main_v591 : Ref sig .tc := ⟨.hbm, 1066, rfl⟩
abbrev main_cst_147 : Ref sig .tc := ⟨.hbm, 1067, rfl⟩
abbrev main_v592 : Ref sig .tc := ⟨.hbm, 1068, rfl⟩
abbrev main_v593 : Ref sig .tc := ⟨.hbm, 1069, rfl⟩
abbrev main_v594 : Ref sig .tc := ⟨.hbm, 1070, rfl⟩
abbrev main_v595 : Ref sig .tc := ⟨.hbm, 1071, rfl⟩
abbrev main_cst_148 : Ref sig .tc := ⟨.hbm, 1072, rfl⟩
abbrev main_v596 : Ref sig .tc := ⟨.hbm, 1073, rfl⟩
abbrev main_v597 : Ref sig .tc := ⟨.hbm, 1074, rfl⟩
abbrev main_v598 : Ref sig .tc := ⟨.hbm, 1075, rfl⟩
abbrev main_v599 : Ref sig .tc := ⟨.hbm, 1076, rfl⟩
abbrev main_c_149 : Ref sig .tc := ⟨.hbm, 1077, rfl⟩
abbrev main_v600 : Ref sig .tc := ⟨.hbm, 1078, rfl⟩
abbrev main_v601 : Ref sig .tc := ⟨.hbm, 1079, rfl⟩
abbrev main_v602 : Ref sig .tc := ⟨.hbm, 1080, rfl⟩
abbrev main_v603 : Ref sig .tc := ⟨.hbm, 1081, rfl⟩
abbrev main_c_150 : Ref sig .tc := ⟨.hbm, 1082, rfl⟩
abbrev main_v604 : Ref sig .tc := ⟨.hbm, 1083, rfl⟩
abbrev main_v605 : Ref sig .tc := ⟨.hbm, 1084, rfl⟩
abbrev main_c_151 : Ref sig .tc := ⟨.hbm, 1085, rfl⟩
abbrev main_v606 : Ref sig .tc := ⟨.hbm, 1086, rfl⟩
abbrev main_v607 : Ref sig .tc := ⟨.hbm, 1087, rfl⟩
abbrev main_v608 : Ref sig .tc := ⟨.hbm, 1088, rfl⟩
abbrev main_c_152 : Ref sig .tc := ⟨.hbm, 1089, rfl⟩
abbrev main_call16_v0 : Ref sig .tc := ⟨.hbm, 1090, rfl⟩
abbrev main_call16_c : Ref sig .tc := ⟨.hbm, 1091, rfl⟩
abbrev main_call16_v1 : Ref sig .tc := ⟨.hbm, 1092, rfl⟩
abbrev main_call16_c_0 : Ref sig .tc := ⟨.hbm, 1093, rfl⟩
abbrev main_call16_v2 : Ref sig .tc := ⟨.hbm, 1094, rfl⟩
abbrev main_call16_v3 : Ref sig .tc := ⟨.hbm, 1095, rfl⟩
abbrev main_call16_v4 : Ref sig .tc := ⟨.hbm, 1096, rfl⟩
abbrev main_call16_c_1 : Ref sig .tc := ⟨.hbm, 1097, rfl⟩
abbrev main_call16_v5 : Ref sig .tc := ⟨.hbm, 1098, rfl⟩
abbrev main_call16_v6 : Ref sig .tc := ⟨.hbm, 1099, rfl⟩
abbrev main_call16_c_2 : Ref sig .tc := ⟨.hbm, 1100, rfl⟩
abbrev main_call16_v7 : Ref sig .tc := ⟨.hbm, 1101, rfl⟩
abbrev main_call16_v8 : Ref sig .tc := ⟨.hbm, 1102, rfl⟩
abbrev main_call16_c_3 : Ref sig .tc := ⟨.hbm, 1103, rfl⟩
abbrev main_call16_v9 : Ref sig .tc := ⟨.hbm, 1104, rfl⟩
abbrev main_call16_v10 : Ref sig .tc := ⟨.hbm, 1105, rfl⟩
abbrev main_call16_v11 : Ref sig .tc := ⟨.hbm, 1106, rfl⟩
abbrev main_call16_v12 : Ref sig .tc := ⟨.hbm, 1107, rfl⟩
abbrev main_call16_v13 : Ref sig .tc := ⟨.hbm, 1108, rfl⟩
abbrev main_call16_v14 : Ref sig .tc := ⟨.hbm, 1109, rfl⟩
abbrev main_v609 : Ref sig .tc := ⟨.hbm, 1110, rfl⟩
abbrev main_v610 : Ref sig .tc := ⟨.hbm, 1111, rfl⟩
abbrev main_v611 : Ref sig .tc := ⟨.hbm, 1112, rfl⟩
abbrev main_c_153 : Ref sig .tc := ⟨.hbm, 1113, rfl⟩
abbrev main_v612 : Ref sig .tc := ⟨.hbm, 1114, rfl⟩
abbrev main_v613 : Ref sig .tc := ⟨.hbm, 1115, rfl⟩
abbrev main_c_154 : Ref sig .tc := ⟨.hbm, 1116, rfl⟩
abbrev main_v614 : Ref sig .tc := ⟨.hbm, 1117, rfl⟩
abbrev main_v615 : Ref sig .tc := ⟨.hbm, 1118, rfl⟩
abbrev main_v616 : Ref sig .tc := ⟨.hbm, 1119, rfl⟩
abbrev main_c_155 : Ref sig .tc := ⟨.hbm, 1120, rfl⟩
abbrev main_v617 : Ref sig .tc := ⟨.hbm, 1121, rfl⟩
abbrev main_v618 : Ref sig .tc := ⟨.hbm, 1122, rfl⟩
abbrev main_v619 : Ref sig .tc := ⟨.hbm, 1123, rfl⟩
abbrev main_v620 : Ref sig .tc := ⟨.hbm, 1124, rfl⟩
abbrev main_v621 : Ref sig .tc := ⟨.hbm, 1125, rfl⟩
abbrev main_v622 : Ref sig .tc := ⟨.hbm, 1126, rfl⟩
abbrev main_v623 : Ref sig .tc := ⟨.hbm, 1127, rfl⟩
abbrev main_v624 : Ref sig .tc := ⟨.hbm, 1128, rfl⟩
abbrev main_v625 : Ref sig .tc := ⟨.hbm, 1129, rfl⟩
abbrev main_v626 : Ref sig .tc := ⟨.hbm, 1130, rfl⟩
abbrev main_v627 : Ref sig .tc := ⟨.hbm, 1131, rfl⟩
abbrev main_v628 : Ref sig .tc := ⟨.hbm, 1132, rfl⟩
abbrev main_v629 : Ref sig .tc := ⟨.hbm, 1133, rfl⟩
abbrev main_c_156 : Ref sig .tc := ⟨.hbm, 1134, rfl⟩
abbrev main_v630 : Ref sig .tc := ⟨.hbm, 1135, rfl⟩
abbrev main_v631 : Ref sig .tc := ⟨.hbm, 1136, rfl⟩
abbrev main_v632 : Ref sig .tc := ⟨.hbm, 1137, rfl⟩
abbrev main_v633 : Ref sig .tc := ⟨.hbm, 1138, rfl⟩
abbrev main_c_157 : Ref sig .tc := ⟨.hbm, 1139, rfl⟩
abbrev main_v634 : Ref sig .tc := ⟨.hbm, 1140, rfl⟩
abbrev main_v635 : Ref sig .tc := ⟨.hbm, 1141, rfl⟩
abbrev main_c_158 : Ref sig .tc := ⟨.hbm, 1142, rfl⟩
abbrev main_v636 : Ref sig .tc := ⟨.hbm, 1143, rfl⟩
abbrev main_v637 : Ref sig .tc := ⟨.hbm, 1144, rfl⟩
abbrev main_v638 : Ref sig .tc := ⟨.hbm, 1145, rfl⟩
abbrev main_c_159 : Ref sig .tc := ⟨.hbm, 1146, rfl⟩
abbrev main_call17_v0 : Ref sig .tc := ⟨.hbm, 1147, rfl⟩
abbrev main_call17_c : Ref sig .tc := ⟨.hbm, 1148, rfl⟩
abbrev main_call17_v1 : Ref sig .tc := ⟨.hbm, 1149, rfl⟩
abbrev main_call17_c_0 : Ref sig .tc := ⟨.hbm, 1150, rfl⟩
abbrev main_call17_v2 : Ref sig .tc := ⟨.hbm, 1151, rfl⟩
abbrev main_call17_v3 : Ref sig .tc := ⟨.hbm, 1152, rfl⟩
abbrev main_call17_v4 : Ref sig .tc := ⟨.hbm, 1153, rfl⟩
abbrev main_call17_c_1 : Ref sig .tc := ⟨.hbm, 1154, rfl⟩
abbrev main_call17_v5 : Ref sig .tc := ⟨.hbm, 1155, rfl⟩
abbrev main_call17_v6 : Ref sig .tc := ⟨.hbm, 1156, rfl⟩
abbrev main_call17_c_2 : Ref sig .tc := ⟨.hbm, 1157, rfl⟩
abbrev main_call17_v7 : Ref sig .tc := ⟨.hbm, 1158, rfl⟩
abbrev main_call17_v8 : Ref sig .tc := ⟨.hbm, 1159, rfl⟩
abbrev main_call17_c_3 : Ref sig .tc := ⟨.hbm, 1160, rfl⟩
abbrev main_call17_v9 : Ref sig .tc := ⟨.hbm, 1161, rfl⟩
abbrev main_call17_v10 : Ref sig .tc := ⟨.hbm, 1162, rfl⟩
abbrev main_call17_v11 : Ref sig .tc := ⟨.hbm, 1163, rfl⟩
abbrev main_call17_v12 : Ref sig .tc := ⟨.hbm, 1164, rfl⟩
abbrev main_call17_v13 : Ref sig .tc := ⟨.hbm, 1165, rfl⟩
abbrev main_call17_v14 : Ref sig .tc := ⟨.hbm, 1166, rfl⟩
abbrev main_v639 : Ref sig .tc := ⟨.hbm, 1167, rfl⟩
abbrev main_v640 : Ref sig .tc := ⟨.hbm, 1168, rfl⟩
abbrev main_v641 : Ref sig .tc := ⟨.hbm, 1169, rfl⟩
abbrev main_c_160 : Ref sig .tc := ⟨.hbm, 1170, rfl⟩
abbrev main_v642 : Ref sig .tc := ⟨.hbm, 1171, rfl⟩
abbrev main_v643 : Ref sig .tc := ⟨.hbm, 1172, rfl⟩
abbrev main_c_161 : Ref sig .tc := ⟨.hbm, 1173, rfl⟩
abbrev main_v644 : Ref sig .tc := ⟨.hbm, 1174, rfl⟩
abbrev main_v645 : Ref sig .tc := ⟨.hbm, 1175, rfl⟩
abbrev main_v646 : Ref sig .tc := ⟨.hbm, 1176, rfl⟩
abbrev main_c_162 : Ref sig .tc := ⟨.hbm, 1177, rfl⟩
abbrev main_v647 : Ref sig .tc := ⟨.hbm, 1178, rfl⟩
abbrev main_v648 : Ref sig .tc := ⟨.hbm, 1179, rfl⟩
abbrev main_v649 : Ref sig .tc := ⟨.hbm, 1180, rfl⟩
abbrev main_v650 : Ref sig .tc := ⟨.hbm, 1181, rfl⟩
abbrev main_v651 : Ref sig .tc := ⟨.hbm, 1182, rfl⟩
abbrev main_v652 : Ref sig .tc := ⟨.hbm, 1183, rfl⟩
abbrev main_v653 : Ref sig .tc := ⟨.hbm, 1184, rfl⟩
abbrev main_v654 : Ref sig .tc := ⟨.hbm, 1185, rfl⟩
abbrev main_v655 : Ref sig .tc := ⟨.hbm, 1186, rfl⟩
abbrev main_v656 : Ref sig .tc := ⟨.hbm, 1187, rfl⟩
abbrev main_v657 : Ref sig .tc := ⟨.hbm, 1188, rfl⟩
abbrev main_v658 : Ref sig .tc := ⟨.hbm, 1189, rfl⟩
abbrev main_v659 : Ref sig .tc := ⟨.hbm, 1190, rfl⟩
abbrev main_cst_163 : Ref sig .tc := ⟨.hbm, 1191, rfl⟩
abbrev main_v660 : Ref sig .tc := ⟨.hbm, 1192, rfl⟩
abbrev main_v661 : Ref sig .tc := ⟨.hbm, 1193, rfl⟩
abbrev main_v662 : Ref sig .tc := ⟨.hbm, 1194, rfl⟩
abbrev main_v663 : Ref sig .tc := ⟨.hbm, 1195, rfl⟩
abbrev main_c_164 : Ref sig .tc := ⟨.hbm, 1196, rfl⟩
abbrev main_v664 : Ref sig .tc := ⟨.hbm, 1197, rfl⟩
abbrev main_v665 : Ref sig .tc := ⟨.hbm, 1198, rfl⟩
abbrev main_v666 : Ref sig .tc := ⟨.hbm, 1199, rfl⟩
abbrev main_v667 : Ref sig .tc := ⟨.hbm, 1200, rfl⟩
abbrev main_c_165 : Ref sig .tc := ⟨.hbm, 1201, rfl⟩
abbrev main_v668 : Ref sig .tc := ⟨.hbm, 1202, rfl⟩
abbrev main_v669 : Ref sig .tc := ⟨.hbm, 1203, rfl⟩
abbrev main_c_166 : Ref sig .tc := ⟨.hbm, 1204, rfl⟩
abbrev main_v670 : Ref sig .tc := ⟨.hbm, 1205, rfl⟩
abbrev main_v671 : Ref sig .tc := ⟨.hbm, 1206, rfl⟩
abbrev main_v672 : Ref sig .tc := ⟨.hbm, 1207, rfl⟩
abbrev main_c_167 : Ref sig .tc := ⟨.hbm, 1208, rfl⟩
abbrev main_call18_v0 : Ref sig .tc := ⟨.hbm, 1209, rfl⟩
abbrev main_call18_c : Ref sig .tc := ⟨.hbm, 1210, rfl⟩
abbrev main_call18_v1 : Ref sig .tc := ⟨.hbm, 1211, rfl⟩
abbrev main_call18_c_0 : Ref sig .tc := ⟨.hbm, 1212, rfl⟩
abbrev main_call18_v2 : Ref sig .tc := ⟨.hbm, 1213, rfl⟩
abbrev main_call18_v3 : Ref sig .tc := ⟨.hbm, 1214, rfl⟩
abbrev main_call18_v4 : Ref sig .tc := ⟨.hbm, 1215, rfl⟩
abbrev main_call18_c_1 : Ref sig .tc := ⟨.hbm, 1216, rfl⟩
abbrev main_call18_v5 : Ref sig .tc := ⟨.hbm, 1217, rfl⟩
abbrev main_call18_v6 : Ref sig .tc := ⟨.hbm, 1218, rfl⟩
abbrev main_call18_c_2 : Ref sig .tc := ⟨.hbm, 1219, rfl⟩
abbrev main_call18_v7 : Ref sig .tc := ⟨.hbm, 1220, rfl⟩
abbrev main_call18_v8 : Ref sig .tc := ⟨.hbm, 1221, rfl⟩
abbrev main_call18_c_3 : Ref sig .tc := ⟨.hbm, 1222, rfl⟩
abbrev main_call18_v9 : Ref sig .tc := ⟨.hbm, 1223, rfl⟩
abbrev main_call18_v10 : Ref sig .tc := ⟨.hbm, 1224, rfl⟩
abbrev main_call18_v11 : Ref sig .tc := ⟨.hbm, 1225, rfl⟩
abbrev main_call18_v12 : Ref sig .tc := ⟨.hbm, 1226, rfl⟩
abbrev main_call18_v13 : Ref sig .tc := ⟨.hbm, 1227, rfl⟩
abbrev main_call18_v14 : Ref sig .tc := ⟨.hbm, 1228, rfl⟩
abbrev main_v673 : Ref sig .tc := ⟨.hbm, 1229, rfl⟩
abbrev main_v674 : Ref sig .tc := ⟨.hbm, 1230, rfl⟩
abbrev main_v675 : Ref sig .tc := ⟨.hbm, 1231, rfl⟩
abbrev main_c_168 : Ref sig .tc := ⟨.hbm, 1232, rfl⟩
abbrev main_v676 : Ref sig .tc := ⟨.hbm, 1233, rfl⟩
abbrev main_v677 : Ref sig .tc := ⟨.hbm, 1234, rfl⟩
abbrev main_c_169 : Ref sig .tc := ⟨.hbm, 1235, rfl⟩
abbrev main_v678 : Ref sig .tc := ⟨.hbm, 1236, rfl⟩
abbrev main_v679 : Ref sig .tc := ⟨.hbm, 1237, rfl⟩
abbrev main_v680 : Ref sig .tc := ⟨.hbm, 1238, rfl⟩
abbrev main_c_170 : Ref sig .tc := ⟨.hbm, 1239, rfl⟩
abbrev main_v681 : Ref sig .tc := ⟨.hbm, 1240, rfl⟩
abbrev main_v682 : Ref sig .tc := ⟨.hbm, 1241, rfl⟩
abbrev main_v683 : Ref sig .tc := ⟨.hbm, 1242, rfl⟩
abbrev main_v684 : Ref sig .tc := ⟨.hbm, 1243, rfl⟩
abbrev main_v685 : Ref sig .tc := ⟨.hbm, 1244, rfl⟩
abbrev main_v686 : Ref sig .tc := ⟨.hbm, 1245, rfl⟩
abbrev main_v687 : Ref sig .tc := ⟨.hbm, 1246, rfl⟩
abbrev main_v688 : Ref sig .tc := ⟨.hbm, 1247, rfl⟩
abbrev main_v689 : Ref sig .tc := ⟨.hbm, 1248, rfl⟩
abbrev main_v690 : Ref sig .tc := ⟨.hbm, 1249, rfl⟩
abbrev main_v691 : Ref sig .tc := ⟨.hbm, 1250, rfl⟩
abbrev main_v692 : Ref sig .tc := ⟨.hbm, 1251, rfl⟩
abbrev main_v693 : Ref sig .tc := ⟨.hbm, 1252, rfl⟩
abbrev main_c_171 : Ref sig .tc := ⟨.hbm, 1253, rfl⟩
abbrev main_v694 : Ref sig .tc := ⟨.hbm, 1254, rfl⟩
abbrev main_v695 : Ref sig .tc := ⟨.hbm, 1255, rfl⟩
abbrev main_v696 : Ref sig .tc := ⟨.hbm, 1256, rfl⟩
abbrev main_v697 : Ref sig .tc := ⟨.hbm, 1257, rfl⟩
abbrev main_c_172 : Ref sig .tc := ⟨.hbm, 1258, rfl⟩
abbrev main_v698 : Ref sig .tc := ⟨.hbm, 1259, rfl⟩
abbrev main_v699 : Ref sig .tc := ⟨.hbm, 1260, rfl⟩
abbrev main_c_173 : Ref sig .tc := ⟨.hbm, 1261, rfl⟩
abbrev main_v700 : Ref sig .tc := ⟨.hbm, 1262, rfl⟩
abbrev main_v701 : Ref sig .tc := ⟨.hbm, 1263, rfl⟩
abbrev main_v702 : Ref sig .tc := ⟨.hbm, 1264, rfl⟩
abbrev main_c_174 : Ref sig .tc := ⟨.hbm, 1265, rfl⟩
abbrev main_call19_v0 : Ref sig .tc := ⟨.hbm, 1266, rfl⟩
abbrev main_call19_c : Ref sig .tc := ⟨.hbm, 1267, rfl⟩
abbrev main_call19_v1 : Ref sig .tc := ⟨.hbm, 1268, rfl⟩
abbrev main_call19_c_0 : Ref sig .tc := ⟨.hbm, 1269, rfl⟩
abbrev main_call19_v2 : Ref sig .tc := ⟨.hbm, 1270, rfl⟩
abbrev main_call19_v3 : Ref sig .tc := ⟨.hbm, 1271, rfl⟩
abbrev main_call19_v4 : Ref sig .tc := ⟨.hbm, 1272, rfl⟩
abbrev main_call19_c_1 : Ref sig .tc := ⟨.hbm, 1273, rfl⟩
abbrev main_call19_v5 : Ref sig .tc := ⟨.hbm, 1274, rfl⟩
abbrev main_call19_v6 : Ref sig .tc := ⟨.hbm, 1275, rfl⟩
abbrev main_call19_c_2 : Ref sig .tc := ⟨.hbm, 1276, rfl⟩
abbrev main_call19_v7 : Ref sig .tc := ⟨.hbm, 1277, rfl⟩
abbrev main_call19_v8 : Ref sig .tc := ⟨.hbm, 1278, rfl⟩
abbrev main_call19_c_3 : Ref sig .tc := ⟨.hbm, 1279, rfl⟩
abbrev main_call19_v9 : Ref sig .tc := ⟨.hbm, 1280, rfl⟩
abbrev main_call19_v10 : Ref sig .tc := ⟨.hbm, 1281, rfl⟩
abbrev main_call19_v11 : Ref sig .tc := ⟨.hbm, 1282, rfl⟩
abbrev main_call19_v12 : Ref sig .tc := ⟨.hbm, 1283, rfl⟩
abbrev main_call19_v13 : Ref sig .tc := ⟨.hbm, 1284, rfl⟩
abbrev main_call19_v14 : Ref sig .tc := ⟨.hbm, 1285, rfl⟩
abbrev main_v703 : Ref sig .tc := ⟨.hbm, 1286, rfl⟩
abbrev main_v704 : Ref sig .tc := ⟨.hbm, 1287, rfl⟩
abbrev main_v705 : Ref sig .tc := ⟨.hbm, 1288, rfl⟩
abbrev main_c_175 : Ref sig .tc := ⟨.hbm, 1289, rfl⟩
abbrev main_v706 : Ref sig .tc := ⟨.hbm, 1290, rfl⟩
abbrev main_v707 : Ref sig .tc := ⟨.hbm, 1291, rfl⟩
abbrev main_c_176 : Ref sig .tc := ⟨.hbm, 1292, rfl⟩
abbrev main_v708 : Ref sig .tc := ⟨.hbm, 1293, rfl⟩
abbrev main_v709 : Ref sig .tc := ⟨.hbm, 1294, rfl⟩
abbrev main_v710 : Ref sig .tc := ⟨.hbm, 1295, rfl⟩
abbrev main_c_177 : Ref sig .tc := ⟨.hbm, 1296, rfl⟩
abbrev main_v711 : Ref sig .tc := ⟨.hbm, 1297, rfl⟩
abbrev main_v712 : Ref sig .tc := ⟨.hbm, 1298, rfl⟩
abbrev main_v713 : Ref sig .tc := ⟨.hbm, 1299, rfl⟩
abbrev main_v714 : Ref sig .tc := ⟨.hbm, 1300, rfl⟩
abbrev main_v715 : Ref sig .tc := ⟨.hbm, 1301, rfl⟩
abbrev main_v716 : Ref sig .tc := ⟨.hbm, 1302, rfl⟩
abbrev main_v717 : Ref sig .tc := ⟨.hbm, 1303, rfl⟩
abbrev main_v718 : Ref sig .tc := ⟨.hbm, 1304, rfl⟩
abbrev main_v719 : Ref sig .tc := ⟨.hbm, 1305, rfl⟩
abbrev main_cst_178 : Ref sig .tc := ⟨.hbm, 1306, rfl⟩
abbrev main_v720 : Ref sig .tc := ⟨.hbm, 1307, rfl⟩
abbrev main_v721 : Ref sig .tc := ⟨.hbm, 1308, rfl⟩
abbrev main_cst_179 : Ref sig .tc := ⟨.hbm, 1309, rfl⟩
abbrev main_v722 : Ref sig .tc := ⟨.hbm, 1310, rfl⟩
abbrev main_v723 : Ref sig .tc := ⟨.hbm, 1311, rfl⟩
abbrev main_v724 : Ref sig .tc := ⟨.hbm, 1312, rfl⟩
abbrev main_v725 : Ref sig .tc := ⟨.hbm, 1313, rfl⟩
abbrev main_v726 : Ref sig .tc := ⟨.hbm, 1314, rfl⟩
abbrev main_v727 : Ref sig .tc := ⟨.hbm, 1315, rfl⟩
abbrev main_cst_180 : Ref sig .tc := ⟨.hbm, 1316, rfl⟩
abbrev main_v728 : Ref sig .tc := ⟨.hbm, 1317, rfl⟩
abbrev main_v729 : Ref sig .tc := ⟨.hbm, 1318, rfl⟩
abbrev main_cst_181 : Ref sig .tc := ⟨.hbm, 1319, rfl⟩
abbrev main_v730 : Ref sig .tc := ⟨.hbm, 1320, rfl⟩
abbrev main_v731 : Ref sig .tc := ⟨.hbm, 1321, rfl⟩
abbrev main_v732 : Ref sig .tc := ⟨.hbm, 1322, rfl⟩
abbrev main_cst_182 : Ref sig .tc := ⟨.hbm, 1323, rfl⟩
abbrev main_v733 : Ref sig .tc := ⟨.hbm, 1324, rfl⟩
abbrev main_v734 : Ref sig .tc := ⟨.hbm, 1325, rfl⟩
abbrev main_v735 : Ref sig .tc := ⟨.hbm, 1326, rfl⟩
abbrev main_cst_183 : Ref sig .tc := ⟨.hbm, 1327, rfl⟩
abbrev main_v736 : Ref sig .tc := ⟨.hbm, 1328, rfl⟩
abbrev main_v737 : Ref sig .tc := ⟨.hbm, 1329, rfl⟩
abbrev main_v738 : Ref sig .tc := ⟨.hbm, 1330, rfl⟩
abbrev main_v739 : Ref sig .tc := ⟨.hbm, 1331, rfl⟩
abbrev main_cst_184 : Ref sig .tc := ⟨.hbm, 1332, rfl⟩
abbrev main_v740 : Ref sig .tc := ⟨.hbm, 1333, rfl⟩
abbrev main_v741 : Ref sig .tc := ⟨.hbm, 1334, rfl⟩
abbrev main_v742 : Ref sig .tc := ⟨.hbm, 1335, rfl⟩
abbrev main_v743 : Ref sig .tc := ⟨.hbm, 1336, rfl⟩
abbrev main_c_185 : Ref sig .tc := ⟨.hbm, 1337, rfl⟩
abbrev main_v744 : Ref sig .tc := ⟨.hbm, 1338, rfl⟩
abbrev main_v745 : Ref sig .tc := ⟨.hbm, 1339, rfl⟩
abbrev main_v746 : Ref sig .tc := ⟨.hbm, 1340, rfl⟩
abbrev main_v747 : Ref sig .tc := ⟨.hbm, 1341, rfl⟩
abbrev main_c_186 : Ref sig .tc := ⟨.hbm, 1342, rfl⟩
abbrev main_v748 : Ref sig .tc := ⟨.hbm, 1343, rfl⟩
abbrev main_v749 : Ref sig .tc := ⟨.hbm, 1344, rfl⟩
abbrev main_c_187 : Ref sig .tc := ⟨.hbm, 1345, rfl⟩
abbrev main_v750 : Ref sig .tc := ⟨.hbm, 1346, rfl⟩
abbrev main_v751 : Ref sig .tc := ⟨.hbm, 1347, rfl⟩
abbrev main_v752 : Ref sig .tc := ⟨.hbm, 1348, rfl⟩
abbrev main_c_188 : Ref sig .tc := ⟨.hbm, 1349, rfl⟩
abbrev main_call20_v0 : Ref sig .tc := ⟨.hbm, 1350, rfl⟩
abbrev main_call20_c : Ref sig .tc := ⟨.hbm, 1351, rfl⟩
abbrev main_call20_v1 : Ref sig .tc := ⟨.hbm, 1352, rfl⟩
abbrev main_call20_c_0 : Ref sig .tc := ⟨.hbm, 1353, rfl⟩
abbrev main_call20_v2 : Ref sig .tc := ⟨.hbm, 1354, rfl⟩
abbrev main_call20_v3 : Ref sig .tc := ⟨.hbm, 1355, rfl⟩
abbrev main_call20_v4 : Ref sig .tc := ⟨.hbm, 1356, rfl⟩
abbrev main_call20_c_1 : Ref sig .tc := ⟨.hbm, 1357, rfl⟩
abbrev main_call20_v5 : Ref sig .tc := ⟨.hbm, 1358, rfl⟩
abbrev main_call20_v6 : Ref sig .tc := ⟨.hbm, 1359, rfl⟩
abbrev main_call20_c_2 : Ref sig .tc := ⟨.hbm, 1360, rfl⟩
abbrev main_call20_v7 : Ref sig .tc := ⟨.hbm, 1361, rfl⟩
abbrev main_call20_v8 : Ref sig .tc := ⟨.hbm, 1362, rfl⟩
abbrev main_call20_c_3 : Ref sig .tc := ⟨.hbm, 1363, rfl⟩
abbrev main_call20_v9 : Ref sig .tc := ⟨.hbm, 1364, rfl⟩
abbrev main_call20_v10 : Ref sig .tc := ⟨.hbm, 1365, rfl⟩
abbrev main_call20_v11 : Ref sig .tc := ⟨.hbm, 1366, rfl⟩
abbrev main_call20_v12 : Ref sig .tc := ⟨.hbm, 1367, rfl⟩
abbrev main_call20_v13 : Ref sig .tc := ⟨.hbm, 1368, rfl⟩
abbrev main_call20_v14 : Ref sig .tc := ⟨.hbm, 1369, rfl⟩
abbrev main_v753 : Ref sig .tc := ⟨.hbm, 1370, rfl⟩
abbrev main_v754 : Ref sig .tc := ⟨.hbm, 1371, rfl⟩
abbrev main_v755 : Ref sig .tc := ⟨.hbm, 1372, rfl⟩
abbrev main_c_189 : Ref sig .tc := ⟨.hbm, 1373, rfl⟩
abbrev main_v756 : Ref sig .tc := ⟨.hbm, 1374, rfl⟩
abbrev main_v757 : Ref sig .tc := ⟨.hbm, 1375, rfl⟩
abbrev main_c_190 : Ref sig .tc := ⟨.hbm, 1376, rfl⟩
abbrev main_v758 : Ref sig .tc := ⟨.hbm, 1377, rfl⟩
abbrev main_v759 : Ref sig .tc := ⟨.hbm, 1378, rfl⟩
abbrev main_v760 : Ref sig .tc := ⟨.hbm, 1379, rfl⟩
abbrev main_c_191 : Ref sig .tc := ⟨.hbm, 1380, rfl⟩
abbrev main_v761 : Ref sig .tc := ⟨.hbm, 1381, rfl⟩
abbrev main_v762 : Ref sig .tc := ⟨.hbm, 1382, rfl⟩
abbrev main_v763 : Ref sig .tc := ⟨.hbm, 1383, rfl⟩
abbrev main_v764 : Ref sig .tc := ⟨.hbm, 1384, rfl⟩
abbrev main_v765 : Ref sig .tc := ⟨.hbm, 1385, rfl⟩
abbrev main_v766 : Ref sig .tc := ⟨.hbm, 1386, rfl⟩
abbrev main_v767 : Ref sig .tc := ⟨.hbm, 1387, rfl⟩
abbrev main_v768 : Ref sig .tc := ⟨.hbm, 1388, rfl⟩
abbrev main_v769 : Ref sig .tc := ⟨.hbm, 1389, rfl⟩
abbrev main_v770 : Ref sig .tc := ⟨.hbm, 1390, rfl⟩
abbrev main_v771 : Ref sig .tc := ⟨.hbm, 1391, rfl⟩
abbrev main_v772 : Ref sig .tc := ⟨.hbm, 1392, rfl⟩
abbrev main_v773 : Ref sig .tc := ⟨.hbm, 1393, rfl⟩
abbrev main_c_192 : Ref sig .tc := ⟨.hbm, 1394, rfl⟩
abbrev main_v774 : Ref sig .tc := ⟨.hbm, 1395, rfl⟩
abbrev main_v775 : Ref sig .tc := ⟨.hbm, 1396, rfl⟩
abbrev main_v776 : Ref sig .tc := ⟨.hbm, 1397, rfl⟩
abbrev main_v777 : Ref sig .tc := ⟨.hbm, 1398, rfl⟩
abbrev main_c_193 : Ref sig .tc := ⟨.hbm, 1399, rfl⟩
abbrev main_v778 : Ref sig .tc := ⟨.hbm, 1400, rfl⟩
abbrev main_v779 : Ref sig .tc := ⟨.hbm, 1401, rfl⟩
abbrev main_c_194 : Ref sig .tc := ⟨.hbm, 1402, rfl⟩
abbrev main_v780 : Ref sig .tc := ⟨.hbm, 1403, rfl⟩
abbrev main_v781 : Ref sig .tc := ⟨.hbm, 1404, rfl⟩
abbrev main_v782 : Ref sig .tc := ⟨.hbm, 1405, rfl⟩
abbrev main_c_195 : Ref sig .tc := ⟨.hbm, 1406, rfl⟩
abbrev main_call21_v0 : Ref sig .tc := ⟨.hbm, 1407, rfl⟩
abbrev main_call21_c : Ref sig .tc := ⟨.hbm, 1408, rfl⟩
abbrev main_call21_v1 : Ref sig .tc := ⟨.hbm, 1409, rfl⟩
abbrev main_call21_c_0 : Ref sig .tc := ⟨.hbm, 1410, rfl⟩
abbrev main_call21_v2 : Ref sig .tc := ⟨.hbm, 1411, rfl⟩
abbrev main_call21_v3 : Ref sig .tc := ⟨.hbm, 1412, rfl⟩
abbrev main_call21_v4 : Ref sig .tc := ⟨.hbm, 1413, rfl⟩
abbrev main_call21_c_1 : Ref sig .tc := ⟨.hbm, 1414, rfl⟩
abbrev main_call21_v5 : Ref sig .tc := ⟨.hbm, 1415, rfl⟩
abbrev main_call21_v6 : Ref sig .tc := ⟨.hbm, 1416, rfl⟩
abbrev main_call21_c_2 : Ref sig .tc := ⟨.hbm, 1417, rfl⟩
abbrev main_call21_v7 : Ref sig .tc := ⟨.hbm, 1418, rfl⟩
abbrev main_call21_v8 : Ref sig .tc := ⟨.hbm, 1419, rfl⟩
abbrev main_call21_c_3 : Ref sig .tc := ⟨.hbm, 1420, rfl⟩
abbrev main_call21_v9 : Ref sig .tc := ⟨.hbm, 1421, rfl⟩
abbrev main_call21_v10 : Ref sig .tc := ⟨.hbm, 1422, rfl⟩
abbrev main_call21_v11 : Ref sig .tc := ⟨.hbm, 1423, rfl⟩
abbrev main_call21_v12 : Ref sig .tc := ⟨.hbm, 1424, rfl⟩
abbrev main_call21_v13 : Ref sig .tc := ⟨.hbm, 1425, rfl⟩
abbrev main_call21_v14 : Ref sig .tc := ⟨.hbm, 1426, rfl⟩
abbrev main_v783 : Ref sig .tc := ⟨.hbm, 1427, rfl⟩
abbrev main_v784 : Ref sig .tc := ⟨.hbm, 1428, rfl⟩
abbrev main_v785 : Ref sig .tc := ⟨.hbm, 1429, rfl⟩
abbrev main_c_196 : Ref sig .tc := ⟨.hbm, 1430, rfl⟩
abbrev main_v786 : Ref sig .tc := ⟨.hbm, 1431, rfl⟩
abbrev main_v787 : Ref sig .tc := ⟨.hbm, 1432, rfl⟩
abbrev main_c_197 : Ref sig .tc := ⟨.hbm, 1433, rfl⟩
abbrev main_v788 : Ref sig .tc := ⟨.hbm, 1434, rfl⟩
abbrev main_v789 : Ref sig .tc := ⟨.hbm, 1435, rfl⟩
abbrev main_v790 : Ref sig .tc := ⟨.hbm, 1436, rfl⟩
abbrev main_c_198 : Ref sig .tc := ⟨.hbm, 1437, rfl⟩
abbrev main_v791 : Ref sig .tc := ⟨.hbm, 1438, rfl⟩
abbrev main_v792 : Ref sig .tc := ⟨.hbm, 1439, rfl⟩
abbrev main_v793 : Ref sig .tc := ⟨.hbm, 1440, rfl⟩
abbrev main_v794 : Ref sig .tc := ⟨.hbm, 1441, rfl⟩
abbrev main_v795 : Ref sig .tc := ⟨.hbm, 1442, rfl⟩
abbrev main_v796 : Ref sig .tc := ⟨.hbm, 1443, rfl⟩
abbrev main_v797 : Ref sig .tc := ⟨.hbm, 1444, rfl⟩
abbrev main_v798 : Ref sig .tc := ⟨.hbm, 1445, rfl⟩
abbrev main_v799 : Ref sig .tc := ⟨.hbm, 1446, rfl⟩
abbrev main_v800 : Ref sig .tc := ⟨.hbm, 1447, rfl⟩
abbrev main_v801 : Ref sig .tc := ⟨.hbm, 1448, rfl⟩
abbrev main_v802 : Ref sig .tc := ⟨.hbm, 1449, rfl⟩
abbrev main_v803 : Ref sig .tc := ⟨.hbm, 1450, rfl⟩
abbrev main_cst_199 : Ref sig .tc := ⟨.hbm, 1451, rfl⟩
abbrev main_v804 : Ref sig .tc := ⟨.hbm, 1452, rfl⟩
abbrev main_v805 : Ref sig .tc := ⟨.hbm, 1453, rfl⟩
abbrev main_v806 : Ref sig .tc := ⟨.hbm, 1454, rfl⟩
abbrev main_v807 : Ref sig .tc := ⟨.hbm, 1455, rfl⟩
abbrev main_c_200 : Ref sig .tc := ⟨.hbm, 1456, rfl⟩
abbrev main_v808 : Ref sig .tc := ⟨.hbm, 1457, rfl⟩
abbrev main_v809 : Ref sig .tc := ⟨.hbm, 1458, rfl⟩
abbrev main_v810 : Ref sig .tc := ⟨.hbm, 1459, rfl⟩
abbrev main_v811 : Ref sig .tc := ⟨.hbm, 1460, rfl⟩
abbrev main_c_201 : Ref sig .tc := ⟨.hbm, 1461, rfl⟩
abbrev main_v812 : Ref sig .tc := ⟨.hbm, 1462, rfl⟩
abbrev main_v813 : Ref sig .tc := ⟨.hbm, 1463, rfl⟩
abbrev main_c_202 : Ref sig .tc := ⟨.hbm, 1464, rfl⟩
abbrev main_v814 : Ref sig .tc := ⟨.hbm, 1465, rfl⟩
abbrev main_v815 : Ref sig .tc := ⟨.hbm, 1466, rfl⟩
abbrev main_v816 : Ref sig .tc := ⟨.hbm, 1467, rfl⟩
abbrev main_c_203 : Ref sig .tc := ⟨.hbm, 1468, rfl⟩
abbrev main_call22_v0 : Ref sig .tc := ⟨.hbm, 1469, rfl⟩
abbrev main_call22_c : Ref sig .tc := ⟨.hbm, 1470, rfl⟩
abbrev main_call22_v1 : Ref sig .tc := ⟨.hbm, 1471, rfl⟩
abbrev main_call22_c_0 : Ref sig .tc := ⟨.hbm, 1472, rfl⟩
abbrev main_call22_v2 : Ref sig .tc := ⟨.hbm, 1473, rfl⟩
abbrev main_call22_v3 : Ref sig .tc := ⟨.hbm, 1474, rfl⟩
abbrev main_call22_v4 : Ref sig .tc := ⟨.hbm, 1475, rfl⟩
abbrev main_call22_c_1 : Ref sig .tc := ⟨.hbm, 1476, rfl⟩
abbrev main_call22_v5 : Ref sig .tc := ⟨.hbm, 1477, rfl⟩
abbrev main_call22_v6 : Ref sig .tc := ⟨.hbm, 1478, rfl⟩
abbrev main_call22_c_2 : Ref sig .tc := ⟨.hbm, 1479, rfl⟩
abbrev main_call22_v7 : Ref sig .tc := ⟨.hbm, 1480, rfl⟩
abbrev main_call22_v8 : Ref sig .tc := ⟨.hbm, 1481, rfl⟩
abbrev main_call22_c_3 : Ref sig .tc := ⟨.hbm, 1482, rfl⟩
abbrev main_call22_v9 : Ref sig .tc := ⟨.hbm, 1483, rfl⟩
abbrev main_call22_v10 : Ref sig .tc := ⟨.hbm, 1484, rfl⟩
abbrev main_call22_v11 : Ref sig .tc := ⟨.hbm, 1485, rfl⟩
abbrev main_call22_v12 : Ref sig .tc := ⟨.hbm, 1486, rfl⟩
abbrev main_call22_v13 : Ref sig .tc := ⟨.hbm, 1487, rfl⟩
abbrev main_call22_v14 : Ref sig .tc := ⟨.hbm, 1488, rfl⟩
abbrev main_v817 : Ref sig .tc := ⟨.hbm, 1489, rfl⟩
abbrev main_v818 : Ref sig .tc := ⟨.hbm, 1490, rfl⟩
abbrev main_v819 : Ref sig .tc := ⟨.hbm, 1491, rfl⟩
abbrev main_c_204 : Ref sig .tc := ⟨.hbm, 1492, rfl⟩
abbrev main_v820 : Ref sig .tc := ⟨.hbm, 1493, rfl⟩
abbrev main_v821 : Ref sig .tc := ⟨.hbm, 1494, rfl⟩
abbrev main_c_205 : Ref sig .tc := ⟨.hbm, 1495, rfl⟩
abbrev main_v822 : Ref sig .tc := ⟨.hbm, 1496, rfl⟩
abbrev main_v823 : Ref sig .tc := ⟨.hbm, 1497, rfl⟩
abbrev main_v824 : Ref sig .tc := ⟨.hbm, 1498, rfl⟩
abbrev main_c_206 : Ref sig .tc := ⟨.hbm, 1499, rfl⟩
abbrev main_v825 : Ref sig .tc := ⟨.hbm, 1500, rfl⟩
abbrev main_v826 : Ref sig .tc := ⟨.hbm, 1501, rfl⟩
abbrev main_v827 : Ref sig .tc := ⟨.hbm, 1502, rfl⟩
abbrev main_v828 : Ref sig .tc := ⟨.hbm, 1503, rfl⟩
abbrev main_v829 : Ref sig .tc := ⟨.hbm, 1504, rfl⟩
abbrev main_v830 : Ref sig .tc := ⟨.hbm, 1505, rfl⟩
abbrev main_v831 : Ref sig .tc := ⟨.hbm, 1506, rfl⟩
abbrev main_v832 : Ref sig .tc := ⟨.hbm, 1507, rfl⟩
abbrev main_v833 : Ref sig .tc := ⟨.hbm, 1508, rfl⟩
abbrev main_v834 : Ref sig .tc := ⟨.hbm, 1509, rfl⟩
abbrev main_v835 : Ref sig .tc := ⟨.hbm, 1510, rfl⟩
abbrev main_v836 : Ref sig .tc := ⟨.hbm, 1511, rfl⟩
abbrev main_v837 : Ref sig .tc := ⟨.hbm, 1512, rfl⟩
abbrev main_c_207 : Ref sig .tc := ⟨.hbm, 1513, rfl⟩
abbrev main_v838 : Ref sig .tc := ⟨.hbm, 1514, rfl⟩
abbrev main_v839 : Ref sig .tc := ⟨.hbm, 1515, rfl⟩
abbrev main_v840 : Ref sig .tc := ⟨.hbm, 1516, rfl⟩
abbrev main_v841 : Ref sig .tc := ⟨.hbm, 1517, rfl⟩
abbrev main_c_208 : Ref sig .tc := ⟨.hbm, 1518, rfl⟩
abbrev main_v842 : Ref sig .tc := ⟨.hbm, 1519, rfl⟩
abbrev main_v843 : Ref sig .tc := ⟨.hbm, 1520, rfl⟩
abbrev main_c_209 : Ref sig .tc := ⟨.hbm, 1521, rfl⟩
abbrev main_v844 : Ref sig .tc := ⟨.hbm, 1522, rfl⟩
abbrev main_v845 : Ref sig .tc := ⟨.hbm, 1523, rfl⟩
abbrev main_v846 : Ref sig .tc := ⟨.hbm, 1524, rfl⟩
abbrev main_c_210 : Ref sig .tc := ⟨.hbm, 1525, rfl⟩
abbrev main_call23_v0 : Ref sig .tc := ⟨.hbm, 1526, rfl⟩
abbrev main_call23_c : Ref sig .tc := ⟨.hbm, 1527, rfl⟩
abbrev main_call23_v1 : Ref sig .tc := ⟨.hbm, 1528, rfl⟩
abbrev main_call23_c_0 : Ref sig .tc := ⟨.hbm, 1529, rfl⟩
abbrev main_call23_v2 : Ref sig .tc := ⟨.hbm, 1530, rfl⟩
abbrev main_call23_v3 : Ref sig .tc := ⟨.hbm, 1531, rfl⟩
abbrev main_call23_v4 : Ref sig .tc := ⟨.hbm, 1532, rfl⟩
abbrev main_call23_c_1 : Ref sig .tc := ⟨.hbm, 1533, rfl⟩
abbrev main_call23_v5 : Ref sig .tc := ⟨.hbm, 1534, rfl⟩
abbrev main_call23_v6 : Ref sig .tc := ⟨.hbm, 1535, rfl⟩
abbrev main_call23_c_2 : Ref sig .tc := ⟨.hbm, 1536, rfl⟩
abbrev main_call23_v7 : Ref sig .tc := ⟨.hbm, 1537, rfl⟩
abbrev main_call23_v8 : Ref sig .tc := ⟨.hbm, 1538, rfl⟩
abbrev main_call23_c_3 : Ref sig .tc := ⟨.hbm, 1539, rfl⟩
abbrev main_call23_v9 : Ref sig .tc := ⟨.hbm, 1540, rfl⟩
abbrev main_call23_v10 : Ref sig .tc := ⟨.hbm, 1541, rfl⟩
abbrev main_call23_v11 : Ref sig .tc := ⟨.hbm, 1542, rfl⟩
abbrev main_call23_v12 : Ref sig .tc := ⟨.hbm, 1543, rfl⟩
abbrev main_call23_v13 : Ref sig .tc := ⟨.hbm, 1544, rfl⟩
abbrev main_call23_v14 : Ref sig .tc := ⟨.hbm, 1545, rfl⟩
abbrev main_v847 : Ref sig .tc := ⟨.hbm, 1546, rfl⟩
abbrev main_v848 : Ref sig .tc := ⟨.hbm, 1547, rfl⟩
abbrev main_v849 : Ref sig .tc := ⟨.hbm, 1548, rfl⟩
abbrev main_c_211 : Ref sig .tc := ⟨.hbm, 1549, rfl⟩
abbrev main_v850 : Ref sig .tc := ⟨.hbm, 1550, rfl⟩
abbrev main_v851 : Ref sig .tc := ⟨.hbm, 1551, rfl⟩
abbrev main_c_212 : Ref sig .tc := ⟨.hbm, 1552, rfl⟩
abbrev main_v852 : Ref sig .tc := ⟨.hbm, 1553, rfl⟩
abbrev main_v853 : Ref sig .tc := ⟨.hbm, 1554, rfl⟩
abbrev main_v854 : Ref sig .tc := ⟨.hbm, 1555, rfl⟩
abbrev main_c_213 : Ref sig .tc := ⟨.hbm, 1556, rfl⟩
abbrev main_v855 : Ref sig .tc := ⟨.hbm, 1557, rfl⟩
abbrev main_v856 : Ref sig .tc := ⟨.hbm, 1558, rfl⟩
abbrev main_v857 : Ref sig .tc := ⟨.hbm, 1559, rfl⟩
abbrev main_v858 : Ref sig .tc := ⟨.hbm, 1560, rfl⟩
abbrev main_v859 : Ref sig .tc := ⟨.hbm, 1561, rfl⟩
abbrev main_v860 : Ref sig .tc := ⟨.hbm, 1562, rfl⟩
abbrev main_v861 : Ref sig .tc := ⟨.hbm, 1563, rfl⟩
abbrev main_v862 : Ref sig .tc := ⟨.hbm, 1564, rfl⟩
abbrev main_v863 : Ref sig .tc := ⟨.hbm, 1565, rfl⟩
abbrev main_cst_214 : Ref sig .tc := ⟨.hbm, 1566, rfl⟩
abbrev main_v864 : Ref sig .tc := ⟨.hbm, 1567, rfl⟩
abbrev main_v865 : Ref sig .tc := ⟨.hbm, 1568, rfl⟩
abbrev main_cst_215 : Ref sig .tc := ⟨.hbm, 1569, rfl⟩
abbrev main_v866 : Ref sig .tc := ⟨.hbm, 1570, rfl⟩
abbrev main_v867 : Ref sig .tc := ⟨.hbm, 1571, rfl⟩
abbrev main_v868 : Ref sig .tc := ⟨.hbm, 1572, rfl⟩
abbrev main_v869 : Ref sig .tc := ⟨.hbm, 1573, rfl⟩
abbrev main_v870 : Ref sig .tc := ⟨.hbm, 1574, rfl⟩
abbrev main_v871 : Ref sig .tc := ⟨.hbm, 1575, rfl⟩
abbrev main_cst_216 : Ref sig .tc := ⟨.hbm, 1576, rfl⟩
abbrev main_v872 : Ref sig .tc := ⟨.hbm, 1577, rfl⟩
abbrev main_v873 : Ref sig .tc := ⟨.hbm, 1578, rfl⟩
abbrev main_cst_217 : Ref sig .tc := ⟨.hbm, 1579, rfl⟩
abbrev main_v874 : Ref sig .tc := ⟨.hbm, 1580, rfl⟩
abbrev main_v875 : Ref sig .tc := ⟨.hbm, 1581, rfl⟩
abbrev main_v876 : Ref sig .tc := ⟨.hbm, 1582, rfl⟩
abbrev main_cst_218 : Ref sig .tc := ⟨.hbm, 1583, rfl⟩
abbrev main_v877 : Ref sig .tc := ⟨.hbm, 1584, rfl⟩
abbrev main_v878 : Ref sig .tc := ⟨.hbm, 1585, rfl⟩
abbrev main_v879 : Ref sig .tc := ⟨.hbm, 1586, rfl⟩
abbrev main_cst_219 : Ref sig .tc := ⟨.hbm, 1587, rfl⟩
abbrev main_v880 : Ref sig .tc := ⟨.hbm, 1588, rfl⟩
abbrev main_v881 : Ref sig .tc := ⟨.hbm, 1589, rfl⟩
abbrev main_v882 : Ref sig .tc := ⟨.hbm, 1590, rfl⟩
abbrev main_v883 : Ref sig .tc := ⟨.hbm, 1591, rfl⟩
abbrev main_cst_220 : Ref sig .tc := ⟨.hbm, 1592, rfl⟩
abbrev main_v884 : Ref sig .tc := ⟨.hbm, 1593, rfl⟩
abbrev main_v885 : Ref sig .tc := ⟨.hbm, 1594, rfl⟩
abbrev main_v886 : Ref sig .tc := ⟨.hbm, 1595, rfl⟩
abbrev main_v887 : Ref sig .tc := ⟨.hbm, 1596, rfl⟩
abbrev main_c_221 : Ref sig .tc := ⟨.hbm, 1597, rfl⟩
abbrev main_v888 : Ref sig .tc := ⟨.hbm, 1598, rfl⟩
abbrev main_v889 : Ref sig .tc := ⟨.hbm, 1599, rfl⟩
abbrev main_v890 : Ref sig .tc := ⟨.hbm, 1600, rfl⟩
abbrev main_v891 : Ref sig .tc := ⟨.hbm, 1601, rfl⟩
abbrev main_c_222 : Ref sig .tc := ⟨.hbm, 1602, rfl⟩
abbrev main_v892 : Ref sig .tc := ⟨.hbm, 1603, rfl⟩
abbrev main_v893 : Ref sig .tc := ⟨.hbm, 1604, rfl⟩
abbrev main_c_223 : Ref sig .tc := ⟨.hbm, 1605, rfl⟩
abbrev main_v894 : Ref sig .tc := ⟨.hbm, 1606, rfl⟩
abbrev main_v895 : Ref sig .tc := ⟨.hbm, 1607, rfl⟩
abbrev main_v896 : Ref sig .tc := ⟨.hbm, 1608, rfl⟩
abbrev main_c_224 : Ref sig .tc := ⟨.hbm, 1609, rfl⟩
abbrev main_call24_v0 : Ref sig .tc := ⟨.hbm, 1610, rfl⟩
abbrev main_call24_c : Ref sig .tc := ⟨.hbm, 1611, rfl⟩
abbrev main_call24_v1 : Ref sig .tc := ⟨.hbm, 1612, rfl⟩
abbrev main_call24_c_0 : Ref sig .tc := ⟨.hbm, 1613, rfl⟩
abbrev main_call24_v2 : Ref sig .tc := ⟨.hbm, 1614, rfl⟩
abbrev main_call24_v3 : Ref sig .tc := ⟨.hbm, 1615, rfl⟩
abbrev main_call24_v4 : Ref sig .tc := ⟨.hbm, 1616, rfl⟩
abbrev main_call24_c_1 : Ref sig .tc := ⟨.hbm, 1617, rfl⟩
abbrev main_call24_v5 : Ref sig .tc := ⟨.hbm, 1618, rfl⟩
abbrev main_call24_v6 : Ref sig .tc := ⟨.hbm, 1619, rfl⟩
abbrev main_call24_c_2 : Ref sig .tc := ⟨.hbm, 1620, rfl⟩
abbrev main_call24_v7 : Ref sig .tc := ⟨.hbm, 1621, rfl⟩
abbrev main_call24_v8 : Ref sig .tc := ⟨.hbm, 1622, rfl⟩
abbrev main_call24_c_3 : Ref sig .tc := ⟨.hbm, 1623, rfl⟩
abbrev main_call24_v9 : Ref sig .tc := ⟨.hbm, 1624, rfl⟩
abbrev main_call24_v10 : Ref sig .tc := ⟨.hbm, 1625, rfl⟩
abbrev main_call24_v11 : Ref sig .tc := ⟨.hbm, 1626, rfl⟩
abbrev main_call24_v12 : Ref sig .tc := ⟨.hbm, 1627, rfl⟩
abbrev main_call24_v13 : Ref sig .tc := ⟨.hbm, 1628, rfl⟩
abbrev main_call24_v14 : Ref sig .tc := ⟨.hbm, 1629, rfl⟩
abbrev main_v897 : Ref sig .tc := ⟨.hbm, 1630, rfl⟩
abbrev main_v898 : Ref sig .tc := ⟨.hbm, 1631, rfl⟩
abbrev main_v899 : Ref sig .tc := ⟨.hbm, 1632, rfl⟩
abbrev main_c_225 : Ref sig .tc := ⟨.hbm, 1633, rfl⟩
abbrev main_v900 : Ref sig .tc := ⟨.hbm, 1634, rfl⟩
abbrev main_v901 : Ref sig .tc := ⟨.hbm, 1635, rfl⟩
abbrev main_c_226 : Ref sig .tc := ⟨.hbm, 1636, rfl⟩
abbrev main_v902 : Ref sig .tc := ⟨.hbm, 1637, rfl⟩
abbrev main_v903 : Ref sig .tc := ⟨.hbm, 1638, rfl⟩
abbrev main_v904 : Ref sig .tc := ⟨.hbm, 1639, rfl⟩
abbrev main_c_227 : Ref sig .tc := ⟨.hbm, 1640, rfl⟩
abbrev main_v905 : Ref sig .tc := ⟨.hbm, 1641, rfl⟩
abbrev main_v906 : Ref sig .tc := ⟨.hbm, 1642, rfl⟩
abbrev main_v907 : Ref sig .tc := ⟨.hbm, 1643, rfl⟩
abbrev main_v908 : Ref sig .tc := ⟨.hbm, 1644, rfl⟩
abbrev main_v909 : Ref sig .tc := ⟨.hbm, 1645, rfl⟩
abbrev main_v910 : Ref sig .tc := ⟨.hbm, 1646, rfl⟩
abbrev main_v911 : Ref sig .tc := ⟨.hbm, 1647, rfl⟩
abbrev main_v912 : Ref sig .tc := ⟨.hbm, 1648, rfl⟩
abbrev main_v913 : Ref sig .tc := ⟨.hbm, 1649, rfl⟩
abbrev main_v914 : Ref sig .tc := ⟨.hbm, 1650, rfl⟩
abbrev main_v915 : Ref sig .tc := ⟨.hbm, 1651, rfl⟩
abbrev main_v916 : Ref sig .tc := ⟨.hbm, 1652, rfl⟩
abbrev main_v917 : Ref sig .tc := ⟨.hbm, 1653, rfl⟩
abbrev main_c_228 : Ref sig .tc := ⟨.hbm, 1654, rfl⟩
abbrev main_v918 : Ref sig .tc := ⟨.hbm, 1655, rfl⟩
abbrev main_v919 : Ref sig .tc := ⟨.hbm, 1656, rfl⟩
abbrev main_v920 : Ref sig .tc := ⟨.hbm, 1657, rfl⟩
abbrev main_v921 : Ref sig .tc := ⟨.hbm, 1658, rfl⟩
abbrev main_c_229 : Ref sig .tc := ⟨.hbm, 1659, rfl⟩
abbrev main_v922 : Ref sig .tc := ⟨.hbm, 1660, rfl⟩
abbrev main_v923 : Ref sig .tc := ⟨.hbm, 1661, rfl⟩
abbrev main_c_230 : Ref sig .tc := ⟨.hbm, 1662, rfl⟩
abbrev main_v924 : Ref sig .tc := ⟨.hbm, 1663, rfl⟩
abbrev main_v925 : Ref sig .tc := ⟨.hbm, 1664, rfl⟩
abbrev main_v926 : Ref sig .tc := ⟨.hbm, 1665, rfl⟩
abbrev main_c_231 : Ref sig .tc := ⟨.hbm, 1666, rfl⟩
abbrev main_call25_v0 : Ref sig .tc := ⟨.hbm, 1667, rfl⟩
abbrev main_call25_c : Ref sig .tc := ⟨.hbm, 1668, rfl⟩
abbrev main_call25_v1 : Ref sig .tc := ⟨.hbm, 1669, rfl⟩
abbrev main_call25_c_0 : Ref sig .tc := ⟨.hbm, 1670, rfl⟩
abbrev main_call25_v2 : Ref sig .tc := ⟨.hbm, 1671, rfl⟩
abbrev main_call25_v3 : Ref sig .tc := ⟨.hbm, 1672, rfl⟩
abbrev main_call25_v4 : Ref sig .tc := ⟨.hbm, 1673, rfl⟩
abbrev main_call25_c_1 : Ref sig .tc := ⟨.hbm, 1674, rfl⟩
abbrev main_call25_v5 : Ref sig .tc := ⟨.hbm, 1675, rfl⟩
abbrev main_call25_v6 : Ref sig .tc := ⟨.hbm, 1676, rfl⟩
abbrev main_call25_c_2 : Ref sig .tc := ⟨.hbm, 1677, rfl⟩
abbrev main_call25_v7 : Ref sig .tc := ⟨.hbm, 1678, rfl⟩
abbrev main_call25_v8 : Ref sig .tc := ⟨.hbm, 1679, rfl⟩
abbrev main_call25_c_3 : Ref sig .tc := ⟨.hbm, 1680, rfl⟩
abbrev main_call25_v9 : Ref sig .tc := ⟨.hbm, 1681, rfl⟩
abbrev main_call25_v10 : Ref sig .tc := ⟨.hbm, 1682, rfl⟩
abbrev main_call25_v11 : Ref sig .tc := ⟨.hbm, 1683, rfl⟩
abbrev main_call25_v12 : Ref sig .tc := ⟨.hbm, 1684, rfl⟩
abbrev main_call25_v13 : Ref sig .tc := ⟨.hbm, 1685, rfl⟩
abbrev main_call25_v14 : Ref sig .tc := ⟨.hbm, 1686, rfl⟩
abbrev main_v927 : Ref sig .tc := ⟨.hbm, 1687, rfl⟩
abbrev main_v928 : Ref sig .tc := ⟨.hbm, 1688, rfl⟩
abbrev main_v929 : Ref sig .tc := ⟨.hbm, 1689, rfl⟩
abbrev main_c_232 : Ref sig .tc := ⟨.hbm, 1690, rfl⟩
abbrev main_v930 : Ref sig .tc := ⟨.hbm, 1691, rfl⟩
abbrev main_v931 : Ref sig .tc := ⟨.hbm, 1692, rfl⟩
abbrev main_c_233 : Ref sig .tc := ⟨.hbm, 1693, rfl⟩
abbrev main_v932 : Ref sig .tc := ⟨.hbm, 1694, rfl⟩
abbrev main_v933 : Ref sig .tc := ⟨.hbm, 1695, rfl⟩
abbrev main_v934 : Ref sig .tc := ⟨.hbm, 1696, rfl⟩
abbrev main_c_234 : Ref sig .tc := ⟨.hbm, 1697, rfl⟩
abbrev main_v935 : Ref sig .tc := ⟨.hbm, 1698, rfl⟩
abbrev main_v936 : Ref sig .tc := ⟨.hbm, 1699, rfl⟩
abbrev main_v937 : Ref sig .tc := ⟨.hbm, 1700, rfl⟩
abbrev main_v938 : Ref sig .tc := ⟨.hbm, 1701, rfl⟩
abbrev main_v939 : Ref sig .tc := ⟨.hbm, 1702, rfl⟩
abbrev main_v940 : Ref sig .tc := ⟨.hbm, 1703, rfl⟩
abbrev main_v941 : Ref sig .tc := ⟨.hbm, 1704, rfl⟩
abbrev main_v942 : Ref sig .tc := ⟨.hbm, 1705, rfl⟩
abbrev main_v943 : Ref sig .tc := ⟨.hbm, 1706, rfl⟩
abbrev main_v944 : Ref sig .tc := ⟨.hbm, 1707, rfl⟩
abbrev main_v945 : Ref sig .tc := ⟨.hbm, 1708, rfl⟩
abbrev main_v946 : Ref sig .tc := ⟨.hbm, 1709, rfl⟩
abbrev main_v947 : Ref sig .tc := ⟨.hbm, 1710, rfl⟩
abbrev main_cst_235 : Ref sig .tc := ⟨.hbm, 1711, rfl⟩
abbrev main_v948 : Ref sig .tc := ⟨.hbm, 1712, rfl⟩
abbrev main_v949 : Ref sig .tc := ⟨.hbm, 1713, rfl⟩
abbrev main_v950 : Ref sig .tc := ⟨.hbm, 1714, rfl⟩
abbrev main_v951 : Ref sig .tc := ⟨.hbm, 1715, rfl⟩
abbrev main_c_236 : Ref sig .tc := ⟨.hbm, 1716, rfl⟩
abbrev main_v952 : Ref sig .tc := ⟨.hbm, 1717, rfl⟩
abbrev main_v953 : Ref sig .tc := ⟨.hbm, 1718, rfl⟩
abbrev main_v954 : Ref sig .tc := ⟨.hbm, 1719, rfl⟩
abbrev main_v955 : Ref sig .tc := ⟨.hbm, 1720, rfl⟩
abbrev main_c_237 : Ref sig .tc := ⟨.hbm, 1721, rfl⟩
abbrev main_v956 : Ref sig .tc := ⟨.hbm, 1722, rfl⟩
abbrev main_v957 : Ref sig .tc := ⟨.hbm, 1723, rfl⟩
abbrev main_c_238 : Ref sig .tc := ⟨.hbm, 1724, rfl⟩
abbrev main_v958 : Ref sig .tc := ⟨.hbm, 1725, rfl⟩
abbrev main_v959 : Ref sig .tc := ⟨.hbm, 1726, rfl⟩
abbrev main_v960 : Ref sig .tc := ⟨.hbm, 1727, rfl⟩
abbrev main_c_239 : Ref sig .tc := ⟨.hbm, 1728, rfl⟩
abbrev main_call26_v0 : Ref sig .tc := ⟨.hbm, 1729, rfl⟩
abbrev main_call26_c : Ref sig .tc := ⟨.hbm, 1730, rfl⟩
abbrev main_call26_v1 : Ref sig .tc := ⟨.hbm, 1731, rfl⟩
abbrev main_call26_c_0 : Ref sig .tc := ⟨.hbm, 1732, rfl⟩
abbrev main_call26_v2 : Ref sig .tc := ⟨.hbm, 1733, rfl⟩
abbrev main_call26_v3 : Ref sig .tc := ⟨.hbm, 1734, rfl⟩
abbrev main_call26_v4 : Ref sig .tc := ⟨.hbm, 1735, rfl⟩
abbrev main_call26_c_1 : Ref sig .tc := ⟨.hbm, 1736, rfl⟩
abbrev main_call26_v5 : Ref sig .tc := ⟨.hbm, 1737, rfl⟩
abbrev main_call26_v6 : Ref sig .tc := ⟨.hbm, 1738, rfl⟩
abbrev main_call26_c_2 : Ref sig .tc := ⟨.hbm, 1739, rfl⟩
abbrev main_call26_v7 : Ref sig .tc := ⟨.hbm, 1740, rfl⟩
abbrev main_call26_v8 : Ref sig .tc := ⟨.hbm, 1741, rfl⟩
abbrev main_call26_c_3 : Ref sig .tc := ⟨.hbm, 1742, rfl⟩
abbrev main_call26_v9 : Ref sig .tc := ⟨.hbm, 1743, rfl⟩
abbrev main_call26_v10 : Ref sig .tc := ⟨.hbm, 1744, rfl⟩
abbrev main_call26_v11 : Ref sig .tc := ⟨.hbm, 1745, rfl⟩
abbrev main_call26_v12 : Ref sig .tc := ⟨.hbm, 1746, rfl⟩
abbrev main_call26_v13 : Ref sig .tc := ⟨.hbm, 1747, rfl⟩
abbrev main_call26_v14 : Ref sig .tc := ⟨.hbm, 1748, rfl⟩
abbrev main_v961 : Ref sig .tc := ⟨.hbm, 1749, rfl⟩
abbrev main_v962 : Ref sig .tc := ⟨.hbm, 1750, rfl⟩
abbrev main_v963 : Ref sig .tc := ⟨.hbm, 1751, rfl⟩
abbrev main_c_240 : Ref sig .tc := ⟨.hbm, 1752, rfl⟩
abbrev main_v964 : Ref sig .tc := ⟨.hbm, 1753, rfl⟩
abbrev main_v965 : Ref sig .tc := ⟨.hbm, 1754, rfl⟩
abbrev main_c_241 : Ref sig .tc := ⟨.hbm, 1755, rfl⟩
abbrev main_v966 : Ref sig .tc := ⟨.hbm, 1756, rfl⟩
abbrev main_v967 : Ref sig .tc := ⟨.hbm, 1757, rfl⟩
abbrev main_v968 : Ref sig .tc := ⟨.hbm, 1758, rfl⟩
abbrev main_c_242 : Ref sig .tc := ⟨.hbm, 1759, rfl⟩
abbrev main_v969 : Ref sig .tc := ⟨.hbm, 1760, rfl⟩
abbrev main_v970 : Ref sig .tc := ⟨.hbm, 1761, rfl⟩
abbrev main_v971 : Ref sig .tc := ⟨.hbm, 1762, rfl⟩
abbrev main_v972 : Ref sig .tc := ⟨.hbm, 1763, rfl⟩
abbrev main_v973 : Ref sig .tc := ⟨.hbm, 1764, rfl⟩
abbrev main_v974 : Ref sig .tc := ⟨.hbm, 1765, rfl⟩
abbrev main_v975 : Ref sig .tc := ⟨.hbm, 1766, rfl⟩
abbrev main_v976 : Ref sig .tc := ⟨.hbm, 1767, rfl⟩
abbrev main_v977 : Ref sig .tc := ⟨.hbm, 1768, rfl⟩
abbrev main_v978 : Ref sig .tc := ⟨.hbm, 1769, rfl⟩
abbrev main_v979 : Ref sig .tc := ⟨.hbm, 1770, rfl⟩
abbrev main_v980 : Ref sig .tc := ⟨.hbm, 1771, rfl⟩
abbrev main_v981 : Ref sig .tc := ⟨.hbm, 1772, rfl⟩
abbrev main_c_243 : Ref sig .tc := ⟨.hbm, 1773, rfl⟩
abbrev main_v982 : Ref sig .tc := ⟨.hbm, 1774, rfl⟩
abbrev main_v983 : Ref sig .tc := ⟨.hbm, 1775, rfl⟩
abbrev main_v984 : Ref sig .tc := ⟨.hbm, 1776, rfl⟩
abbrev main_v985 : Ref sig .tc := ⟨.hbm, 1777, rfl⟩
abbrev main_c_244 : Ref sig .tc := ⟨.hbm, 1778, rfl⟩
abbrev main_v986 : Ref sig .tc := ⟨.hbm, 1779, rfl⟩
abbrev main_v987 : Ref sig .tc := ⟨.hbm, 1780, rfl⟩
abbrev main_c_245 : Ref sig .tc := ⟨.hbm, 1781, rfl⟩
abbrev main_v988 : Ref sig .tc := ⟨.hbm, 1782, rfl⟩
abbrev main_v989 : Ref sig .tc := ⟨.hbm, 1783, rfl⟩
abbrev main_v990 : Ref sig .tc := ⟨.hbm, 1784, rfl⟩
abbrev main_c_246 : Ref sig .tc := ⟨.hbm, 1785, rfl⟩
abbrev main_call27_v0 : Ref sig .tc := ⟨.hbm, 1786, rfl⟩
abbrev main_call27_c : Ref sig .tc := ⟨.hbm, 1787, rfl⟩
abbrev main_call27_v1 : Ref sig .tc := ⟨.hbm, 1788, rfl⟩
abbrev main_call27_c_0 : Ref sig .tc := ⟨.hbm, 1789, rfl⟩
abbrev main_call27_v2 : Ref sig .tc := ⟨.hbm, 1790, rfl⟩
abbrev main_call27_v3 : Ref sig .tc := ⟨.hbm, 1791, rfl⟩
abbrev main_call27_v4 : Ref sig .tc := ⟨.hbm, 1792, rfl⟩
abbrev main_call27_c_1 : Ref sig .tc := ⟨.hbm, 1793, rfl⟩
abbrev main_call27_v5 : Ref sig .tc := ⟨.hbm, 1794, rfl⟩
abbrev main_call27_v6 : Ref sig .tc := ⟨.hbm, 1795, rfl⟩
abbrev main_call27_c_2 : Ref sig .tc := ⟨.hbm, 1796, rfl⟩
abbrev main_call27_v7 : Ref sig .tc := ⟨.hbm, 1797, rfl⟩
abbrev main_call27_v8 : Ref sig .tc := ⟨.hbm, 1798, rfl⟩
abbrev main_call27_c_3 : Ref sig .tc := ⟨.hbm, 1799, rfl⟩
abbrev main_call27_v9 : Ref sig .tc := ⟨.hbm, 1800, rfl⟩
abbrev main_call27_v10 : Ref sig .tc := ⟨.hbm, 1801, rfl⟩
abbrev main_call27_v11 : Ref sig .tc := ⟨.hbm, 1802, rfl⟩
abbrev main_call27_v12 : Ref sig .tc := ⟨.hbm, 1803, rfl⟩
abbrev main_call27_v13 : Ref sig .tc := ⟨.hbm, 1804, rfl⟩
abbrev main_call27_v14 : Ref sig .tc := ⟨.hbm, 1805, rfl⟩
abbrev main_v991 : Ref sig .tc := ⟨.hbm, 1806, rfl⟩
abbrev main_v992 : Ref sig .tc := ⟨.hbm, 1807, rfl⟩
abbrev main_v993 : Ref sig .tc := ⟨.hbm, 1808, rfl⟩
abbrev main_c_247 : Ref sig .tc := ⟨.hbm, 1809, rfl⟩
abbrev main_v994 : Ref sig .tc := ⟨.hbm, 1810, rfl⟩
abbrev main_v995 : Ref sig .tc := ⟨.hbm, 1811, rfl⟩
abbrev main_c_248 : Ref sig .tc := ⟨.hbm, 1812, rfl⟩
abbrev main_v996 : Ref sig .tc := ⟨.hbm, 1813, rfl⟩
abbrev main_v997 : Ref sig .tc := ⟨.hbm, 1814, rfl⟩
abbrev main_v998 : Ref sig .tc := ⟨.hbm, 1815, rfl⟩
abbrev main_c_249 : Ref sig .tc := ⟨.hbm, 1816, rfl⟩
abbrev main_v999 : Ref sig .tc := ⟨.hbm, 1817, rfl⟩
abbrev main_v1000 : Ref sig .tc := ⟨.hbm, 1818, rfl⟩
abbrev main_v1001 : Ref sig .tc := ⟨.hbm, 1819, rfl⟩
abbrev main_v1002 : Ref sig .tc := ⟨.hbm, 1820, rfl⟩
abbrev main_v1003 : Ref sig .tc := ⟨.hbm, 1821, rfl⟩
abbrev main_v1004 : Ref sig .tc := ⟨.hbm, 1822, rfl⟩
abbrev main_v1005 : Ref sig .tc := ⟨.hbm, 1823, rfl⟩
abbrev main_v1006 : Ref sig .tc := ⟨.hbm, 1824, rfl⟩
abbrev main_v1007 : Ref sig .tc := ⟨.hbm, 1825, rfl⟩
abbrev main_cst_250 : Ref sig .tc := ⟨.hbm, 1826, rfl⟩
abbrev main_v1008 : Ref sig .tc := ⟨.hbm, 1827, rfl⟩
abbrev main_v1009 : Ref sig .tc := ⟨.hbm, 1828, rfl⟩
abbrev main_cst_251 : Ref sig .tc := ⟨.hbm, 1829, rfl⟩
abbrev main_v1010 : Ref sig .tc := ⟨.hbm, 1830, rfl⟩
abbrev main_v1011 : Ref sig .tc := ⟨.hbm, 1831, rfl⟩
abbrev main_v1012 : Ref sig .tc := ⟨.hbm, 1832, rfl⟩
abbrev main_v1013 : Ref sig .tc := ⟨.hbm, 1833, rfl⟩
abbrev main_v1014 : Ref sig .tc := ⟨.hbm, 1834, rfl⟩
abbrev main_v1015 : Ref sig .tc := ⟨.hbm, 1835, rfl⟩
abbrev main_cst_252 : Ref sig .tc := ⟨.hbm, 1836, rfl⟩
abbrev main_v1016 : Ref sig .tc := ⟨.hbm, 1837, rfl⟩
abbrev main_v1017 : Ref sig .tc := ⟨.hbm, 1838, rfl⟩
abbrev main_cst_253 : Ref sig .tc := ⟨.hbm, 1839, rfl⟩
abbrev main_v1018 : Ref sig .tc := ⟨.hbm, 1840, rfl⟩
abbrev main_v1019 : Ref sig .tc := ⟨.hbm, 1841, rfl⟩
abbrev main_v1020 : Ref sig .tc := ⟨.hbm, 1842, rfl⟩
abbrev main_cst_254 : Ref sig .tc := ⟨.hbm, 1843, rfl⟩
abbrev main_v1021 : Ref sig .tc := ⟨.hbm, 1844, rfl⟩
abbrev main_v1022 : Ref sig .tc := ⟨.hbm, 1845, rfl⟩
abbrev main_v1023 : Ref sig .tc := ⟨.hbm, 1846, rfl⟩
abbrev main_cst_255 : Ref sig .tc := ⟨.hbm, 1847, rfl⟩
abbrev main_v1024 : Ref sig .tc := ⟨.hbm, 1848, rfl⟩
abbrev main_v1025 : Ref sig .tc := ⟨.hbm, 1849, rfl⟩
abbrev main_v1026 : Ref sig .tc := ⟨.hbm, 1850, rfl⟩
abbrev main_v1027 : Ref sig .tc := ⟨.hbm, 1851, rfl⟩
abbrev main_cst_256 : Ref sig .tc := ⟨.hbm, 1852, rfl⟩
abbrev main_v1028 : Ref sig .tc := ⟨.hbm, 1853, rfl⟩
abbrev main_v1029 : Ref sig .tc := ⟨.hbm, 1854, rfl⟩
abbrev main_v1030 : Ref sig .tc := ⟨.hbm, 1855, rfl⟩
abbrev main_v1031 : Ref sig .tc := ⟨.hbm, 1856, rfl⟩
abbrev main_c_257 : Ref sig .tc := ⟨.hbm, 1857, rfl⟩
abbrev main_v1032 : Ref sig .tc := ⟨.hbm, 1858, rfl⟩
abbrev main_v1033 : Ref sig .tc := ⟨.hbm, 1859, rfl⟩
abbrev main_v1034 : Ref sig .tc := ⟨.hbm, 1860, rfl⟩
abbrev main_v1035 : Ref sig .tc := ⟨.hbm, 1861, rfl⟩
abbrev main_c_258 : Ref sig .tc := ⟨.hbm, 1862, rfl⟩
abbrev main_v1036 : Ref sig .tc := ⟨.hbm, 1863, rfl⟩
abbrev main_v1037 : Ref sig .tc := ⟨.hbm, 1864, rfl⟩
abbrev main_c_259 : Ref sig .tc := ⟨.hbm, 1865, rfl⟩
abbrev main_v1038 : Ref sig .tc := ⟨.hbm, 1866, rfl⟩
abbrev main_v1039 : Ref sig .tc := ⟨.hbm, 1867, rfl⟩
abbrev main_v1040 : Ref sig .tc := ⟨.hbm, 1868, rfl⟩
abbrev main_c_260 : Ref sig .tc := ⟨.hbm, 1869, rfl⟩
abbrev main_call28_v0 : Ref sig .tc := ⟨.hbm, 1870, rfl⟩
abbrev main_call28_c : Ref sig .tc := ⟨.hbm, 1871, rfl⟩
abbrev main_call28_v1 : Ref sig .tc := ⟨.hbm, 1872, rfl⟩
abbrev main_call28_c_0 : Ref sig .tc := ⟨.hbm, 1873, rfl⟩
abbrev main_call28_v2 : Ref sig .tc := ⟨.hbm, 1874, rfl⟩
abbrev main_call28_v3 : Ref sig .tc := ⟨.hbm, 1875, rfl⟩
abbrev main_call28_v4 : Ref sig .tc := ⟨.hbm, 1876, rfl⟩
abbrev main_call28_c_1 : Ref sig .tc := ⟨.hbm, 1877, rfl⟩
abbrev main_call28_v5 : Ref sig .tc := ⟨.hbm, 1878, rfl⟩
abbrev main_call28_v6 : Ref sig .tc := ⟨.hbm, 1879, rfl⟩
abbrev main_call28_c_2 : Ref sig .tc := ⟨.hbm, 1880, rfl⟩
abbrev main_call28_v7 : Ref sig .tc := ⟨.hbm, 1881, rfl⟩
abbrev main_call28_v8 : Ref sig .tc := ⟨.hbm, 1882, rfl⟩
abbrev main_call28_c_3 : Ref sig .tc := ⟨.hbm, 1883, rfl⟩
abbrev main_call28_v9 : Ref sig .tc := ⟨.hbm, 1884, rfl⟩
abbrev main_call28_v10 : Ref sig .tc := ⟨.hbm, 1885, rfl⟩
abbrev main_call28_v11 : Ref sig .tc := ⟨.hbm, 1886, rfl⟩
abbrev main_call28_v12 : Ref sig .tc := ⟨.hbm, 1887, rfl⟩
abbrev main_call28_v13 : Ref sig .tc := ⟨.hbm, 1888, rfl⟩
abbrev main_call28_v14 : Ref sig .tc := ⟨.hbm, 1889, rfl⟩
abbrev main_v1041 : Ref sig .tc := ⟨.hbm, 1890, rfl⟩
abbrev main_v1042 : Ref sig .tc := ⟨.hbm, 1891, rfl⟩
abbrev main_v1043 : Ref sig .tc := ⟨.hbm, 1892, rfl⟩
abbrev main_c_261 : Ref sig .tc := ⟨.hbm, 1893, rfl⟩
abbrev main_v1044 : Ref sig .tc := ⟨.hbm, 1894, rfl⟩
abbrev main_v1045 : Ref sig .tc := ⟨.hbm, 1895, rfl⟩
abbrev main_c_262 : Ref sig .tc := ⟨.hbm, 1896, rfl⟩
abbrev main_v1046 : Ref sig .tc := ⟨.hbm, 1897, rfl⟩
abbrev main_v1047 : Ref sig .tc := ⟨.hbm, 1898, rfl⟩
abbrev main_v1048 : Ref sig .tc := ⟨.hbm, 1899, rfl⟩
abbrev main_c_263 : Ref sig .tc := ⟨.hbm, 1900, rfl⟩
abbrev main_v1049 : Ref sig .tc := ⟨.hbm, 1901, rfl⟩
abbrev main_v1050 : Ref sig .tc := ⟨.hbm, 1902, rfl⟩
abbrev main_v1051 : Ref sig .tc := ⟨.hbm, 1903, rfl⟩
abbrev main_v1052 : Ref sig .tc := ⟨.hbm, 1904, rfl⟩
abbrev main_v1053 : Ref sig .tc := ⟨.hbm, 1905, rfl⟩
abbrev main_v1054 : Ref sig .tc := ⟨.hbm, 1906, rfl⟩
abbrev main_v1055 : Ref sig .tc := ⟨.hbm, 1907, rfl⟩
abbrev main_v1056 : Ref sig .tc := ⟨.hbm, 1908, rfl⟩
abbrev main_v1057 : Ref sig .tc := ⟨.hbm, 1909, rfl⟩
abbrev main_v1058 : Ref sig .tc := ⟨.hbm, 1910, rfl⟩
abbrev main_v1059 : Ref sig .tc := ⟨.hbm, 1911, rfl⟩
abbrev main_v1060 : Ref sig .tc := ⟨.hbm, 1912, rfl⟩
abbrev main_v1061 : Ref sig .tc := ⟨.hbm, 1913, rfl⟩
abbrev main_c_264 : Ref sig .tc := ⟨.hbm, 1914, rfl⟩
abbrev main_v1062 : Ref sig .tc := ⟨.hbm, 1915, rfl⟩
abbrev main_v1063 : Ref sig .tc := ⟨.hbm, 1916, rfl⟩
abbrev main_v1064 : Ref sig .tc := ⟨.hbm, 1917, rfl⟩
abbrev main_v1065 : Ref sig .tc := ⟨.hbm, 1918, rfl⟩
abbrev main_c_265 : Ref sig .tc := ⟨.hbm, 1919, rfl⟩
abbrev main_v1066 : Ref sig .tc := ⟨.hbm, 1920, rfl⟩
abbrev main_v1067 : Ref sig .tc := ⟨.hbm, 1921, rfl⟩
abbrev main_c_266 : Ref sig .tc := ⟨.hbm, 1922, rfl⟩
abbrev main_v1068 : Ref sig .tc := ⟨.hbm, 1923, rfl⟩
abbrev main_v1069 : Ref sig .tc := ⟨.hbm, 1924, rfl⟩
abbrev main_v1070 : Ref sig .tc := ⟨.hbm, 1925, rfl⟩
abbrev main_c_267 : Ref sig .tc := ⟨.hbm, 1926, rfl⟩
abbrev main_call29_v0 : Ref sig .tc := ⟨.hbm, 1927, rfl⟩
abbrev main_call29_c : Ref sig .tc := ⟨.hbm, 1928, rfl⟩
abbrev main_call29_v1 : Ref sig .tc := ⟨.hbm, 1929, rfl⟩
abbrev main_call29_c_0 : Ref sig .tc := ⟨.hbm, 1930, rfl⟩
abbrev main_call29_v2 : Ref sig .tc := ⟨.hbm, 1931, rfl⟩
abbrev main_call29_v3 : Ref sig .tc := ⟨.hbm, 1932, rfl⟩
abbrev main_call29_v4 : Ref sig .tc := ⟨.hbm, 1933, rfl⟩
abbrev main_call29_c_1 : Ref sig .tc := ⟨.hbm, 1934, rfl⟩
abbrev main_call29_v5 : Ref sig .tc := ⟨.hbm, 1935, rfl⟩
abbrev main_call29_v6 : Ref sig .tc := ⟨.hbm, 1936, rfl⟩
abbrev main_call29_c_2 : Ref sig .tc := ⟨.hbm, 1937, rfl⟩
abbrev main_call29_v7 : Ref sig .tc := ⟨.hbm, 1938, rfl⟩
abbrev main_call29_v8 : Ref sig .tc := ⟨.hbm, 1939, rfl⟩
abbrev main_call29_c_3 : Ref sig .tc := ⟨.hbm, 1940, rfl⟩
abbrev main_call29_v9 : Ref sig .tc := ⟨.hbm, 1941, rfl⟩
abbrev main_call29_v10 : Ref sig .tc := ⟨.hbm, 1942, rfl⟩
abbrev main_call29_v11 : Ref sig .tc := ⟨.hbm, 1943, rfl⟩
abbrev main_call29_v12 : Ref sig .tc := ⟨.hbm, 1944, rfl⟩
abbrev main_call29_v13 : Ref sig .tc := ⟨.hbm, 1945, rfl⟩
abbrev main_call29_v14 : Ref sig .tc := ⟨.hbm, 1946, rfl⟩
abbrev main_v1071 : Ref sig .tc := ⟨.hbm, 1947, rfl⟩
abbrev main_v1072 : Ref sig .tc := ⟨.hbm, 1948, rfl⟩
abbrev main_v1073 : Ref sig .tc := ⟨.hbm, 1949, rfl⟩
abbrev main_c_268 : Ref sig .tc := ⟨.hbm, 1950, rfl⟩
abbrev main_v1074 : Ref sig .tc := ⟨.hbm, 1951, rfl⟩
abbrev main_v1075 : Ref sig .tc := ⟨.hbm, 1952, rfl⟩
abbrev main_c_269 : Ref sig .tc := ⟨.hbm, 1953, rfl⟩
abbrev main_v1076 : Ref sig .tc := ⟨.hbm, 1954, rfl⟩
abbrev main_v1077 : Ref sig .tc := ⟨.hbm, 1955, rfl⟩
abbrev main_v1078 : Ref sig .tc := ⟨.hbm, 1956, rfl⟩
abbrev main_c_270 : Ref sig .tc := ⟨.hbm, 1957, rfl⟩
abbrev main_v1079 : Ref sig .tc := ⟨.hbm, 1958, rfl⟩
abbrev main_v1080 : Ref sig .tc := ⟨.hbm, 1959, rfl⟩
abbrev main_v1081 : Ref sig .tc := ⟨.hbm, 1960, rfl⟩
abbrev main_v1082 : Ref sig .tc := ⟨.hbm, 1961, rfl⟩
abbrev main_v1083 : Ref sig .tc := ⟨.hbm, 1962, rfl⟩
abbrev main_v1084 : Ref sig .tc := ⟨.hbm, 1963, rfl⟩
abbrev main_v1085 : Ref sig .tc := ⟨.hbm, 1964, rfl⟩
abbrev main_v1086 : Ref sig .tc := ⟨.hbm, 1965, rfl⟩
abbrev main_v1087 : Ref sig .tc := ⟨.hbm, 1966, rfl⟩
abbrev main_v1088 : Ref sig .tc := ⟨.hbm, 1967, rfl⟩
abbrev main_v1089 : Ref sig .tc := ⟨.hbm, 1968, rfl⟩
abbrev main_v1090 : Ref sig .tc := ⟨.hbm, 1969, rfl⟩
abbrev main_v1091 : Ref sig .tc := ⟨.hbm, 1970, rfl⟩
abbrev main_cst_271 : Ref sig .tc := ⟨.hbm, 1971, rfl⟩
abbrev main_v1092 : Ref sig .tc := ⟨.hbm, 1972, rfl⟩
abbrev main_v1093 : Ref sig .tc := ⟨.hbm, 1973, rfl⟩
abbrev main_v1094 : Ref sig .tc := ⟨.hbm, 1974, rfl⟩
abbrev main_v1095 : Ref sig .tc := ⟨.hbm, 1975, rfl⟩
abbrev main_c_272 : Ref sig .tc := ⟨.hbm, 1976, rfl⟩
abbrev main_v1096 : Ref sig .tc := ⟨.hbm, 1977, rfl⟩
abbrev main_v1097 : Ref sig .tc := ⟨.hbm, 1978, rfl⟩
abbrev main_v1098 : Ref sig .tc := ⟨.hbm, 1979, rfl⟩
abbrev main_v1099 : Ref sig .tc := ⟨.hbm, 1980, rfl⟩
abbrev main_c_273 : Ref sig .tc := ⟨.hbm, 1981, rfl⟩
abbrev main_v1100 : Ref sig .tc := ⟨.hbm, 1982, rfl⟩
abbrev main_v1101 : Ref sig .tc := ⟨.hbm, 1983, rfl⟩
abbrev main_c_274 : Ref sig .tc := ⟨.hbm, 1984, rfl⟩
abbrev main_v1102 : Ref sig .tc := ⟨.hbm, 1985, rfl⟩
abbrev main_v1103 : Ref sig .tc := ⟨.hbm, 1986, rfl⟩
abbrev main_v1104 : Ref sig .tc := ⟨.hbm, 1987, rfl⟩
abbrev main_c_275 : Ref sig .tc := ⟨.hbm, 1988, rfl⟩
abbrev main_call30_v0 : Ref sig .tc := ⟨.hbm, 1989, rfl⟩
abbrev main_call30_c : Ref sig .tc := ⟨.hbm, 1990, rfl⟩
abbrev main_call30_v1 : Ref sig .tc := ⟨.hbm, 1991, rfl⟩
abbrev main_call30_c_0 : Ref sig .tc := ⟨.hbm, 1992, rfl⟩
abbrev main_call30_v2 : Ref sig .tc := ⟨.hbm, 1993, rfl⟩
abbrev main_call30_v3 : Ref sig .tc := ⟨.hbm, 1994, rfl⟩
abbrev main_call30_v4 : Ref sig .tc := ⟨.hbm, 1995, rfl⟩
abbrev main_call30_c_1 : Ref sig .tc := ⟨.hbm, 1996, rfl⟩
abbrev main_call30_v5 : Ref sig .tc := ⟨.hbm, 1997, rfl⟩
abbrev main_call30_v6 : Ref sig .tc := ⟨.hbm, 1998, rfl⟩
abbrev main_call30_c_2 : Ref sig .tc := ⟨.hbm, 1999, rfl⟩
abbrev main_call30_v7 : Ref sig .tc := ⟨.hbm, 2000, rfl⟩
abbrev main_call30_v8 : Ref sig .tc := ⟨.hbm, 2001, rfl⟩
abbrev main_call30_c_3 : Ref sig .tc := ⟨.hbm, 2002, rfl⟩
abbrev main_call30_v9 : Ref sig .tc := ⟨.hbm, 2003, rfl⟩
abbrev main_call30_v10 : Ref sig .tc := ⟨.hbm, 2004, rfl⟩
abbrev main_call30_v11 : Ref sig .tc := ⟨.hbm, 2005, rfl⟩
abbrev main_call30_v12 : Ref sig .tc := ⟨.hbm, 2006, rfl⟩
abbrev main_call30_v13 : Ref sig .tc := ⟨.hbm, 2007, rfl⟩
abbrev main_call30_v14 : Ref sig .tc := ⟨.hbm, 2008, rfl⟩
abbrev main_v1105 : Ref sig .tc := ⟨.hbm, 2009, rfl⟩
abbrev main_v1106 : Ref sig .tc := ⟨.hbm, 2010, rfl⟩
abbrev main_v1107 : Ref sig .tc := ⟨.hbm, 2011, rfl⟩
abbrev main_c_276 : Ref sig .tc := ⟨.hbm, 2012, rfl⟩
abbrev main_v1108 : Ref sig .tc := ⟨.hbm, 2013, rfl⟩
abbrev main_v1109 : Ref sig .tc := ⟨.hbm, 2014, rfl⟩
abbrev main_c_277 : Ref sig .tc := ⟨.hbm, 2015, rfl⟩
abbrev main_v1110 : Ref sig .tc := ⟨.hbm, 2016, rfl⟩
abbrev main_v1111 : Ref sig .tc := ⟨.hbm, 2017, rfl⟩
abbrev main_v1112 : Ref sig .tc := ⟨.hbm, 2018, rfl⟩
abbrev main_c_278 : Ref sig .tc := ⟨.hbm, 2019, rfl⟩
abbrev main_v1113 : Ref sig .tc := ⟨.hbm, 2020, rfl⟩
abbrev main_v1114 : Ref sig .tc := ⟨.hbm, 2021, rfl⟩
abbrev main_v1115 : Ref sig .tc := ⟨.hbm, 2022, rfl⟩
abbrev main_v1116 : Ref sig .tc := ⟨.hbm, 2023, rfl⟩
abbrev main_v1117 : Ref sig .tc := ⟨.hbm, 2024, rfl⟩
abbrev main_v1118 : Ref sig .tc := ⟨.hbm, 2025, rfl⟩
abbrev main_v1119 : Ref sig .tc := ⟨.hbm, 2026, rfl⟩
abbrev main_v1120 : Ref sig .tc := ⟨.hbm, 2027, rfl⟩
abbrev main_v1121 : Ref sig .tc := ⟨.hbm, 2028, rfl⟩
abbrev main_v1122 : Ref sig .tc := ⟨.hbm, 2029, rfl⟩
abbrev main_v1123 : Ref sig .tc := ⟨.hbm, 2030, rfl⟩
abbrev main_v1124 : Ref sig .tc := ⟨.hbm, 2031, rfl⟩
abbrev main_v1125 : Ref sig .tc := ⟨.hbm, 2032, rfl⟩
abbrev main_c_279 : Ref sig .tc := ⟨.hbm, 2033, rfl⟩
abbrev main_v1126 : Ref sig .tc := ⟨.hbm, 2034, rfl⟩
abbrev main_v1127 : Ref sig .tc := ⟨.hbm, 2035, rfl⟩
abbrev main_v1128 : Ref sig .tc := ⟨.hbm, 2036, rfl⟩
abbrev main_v1129 : Ref sig .tc := ⟨.hbm, 2037, rfl⟩
abbrev main_c_280 : Ref sig .tc := ⟨.hbm, 2038, rfl⟩
abbrev main_v1130 : Ref sig .tc := ⟨.hbm, 2039, rfl⟩
abbrev main_v1131 : Ref sig .tc := ⟨.hbm, 2040, rfl⟩
abbrev main_c_281 : Ref sig .tc := ⟨.hbm, 2041, rfl⟩
abbrev main_v1132 : Ref sig .tc := ⟨.hbm, 2042, rfl⟩
abbrev main_v1133 : Ref sig .tc := ⟨.hbm, 2043, rfl⟩
abbrev main_v1134 : Ref sig .tc := ⟨.hbm, 2044, rfl⟩
abbrev main_c_282 : Ref sig .tc := ⟨.hbm, 2045, rfl⟩
abbrev main_call31_v0 : Ref sig .tc := ⟨.hbm, 2046, rfl⟩
abbrev main_call31_c : Ref sig .tc := ⟨.hbm, 2047, rfl⟩
abbrev main_call31_v1 : Ref sig .tc := ⟨.hbm, 2048, rfl⟩
abbrev main_call31_c_0 : Ref sig .tc := ⟨.hbm, 2049, rfl⟩
abbrev main_call31_v2 : Ref sig .tc := ⟨.hbm, 2050, rfl⟩
abbrev main_call31_v3 : Ref sig .tc := ⟨.hbm, 2051, rfl⟩
abbrev main_call31_v4 : Ref sig .tc := ⟨.hbm, 2052, rfl⟩
abbrev main_call31_c_1 : Ref sig .tc := ⟨.hbm, 2053, rfl⟩
abbrev main_call31_v5 : Ref sig .tc := ⟨.hbm, 2054, rfl⟩
abbrev main_call31_v6 : Ref sig .tc := ⟨.hbm, 2055, rfl⟩
abbrev main_call31_c_2 : Ref sig .tc := ⟨.hbm, 2056, rfl⟩
abbrev main_call31_v7 : Ref sig .tc := ⟨.hbm, 2057, rfl⟩
abbrev main_call31_v8 : Ref sig .tc := ⟨.hbm, 2058, rfl⟩
abbrev main_call31_c_3 : Ref sig .tc := ⟨.hbm, 2059, rfl⟩
abbrev main_call31_v9 : Ref sig .tc := ⟨.hbm, 2060, rfl⟩
abbrev main_call31_v10 : Ref sig .tc := ⟨.hbm, 2061, rfl⟩
abbrev main_call31_v11 : Ref sig .tc := ⟨.hbm, 2062, rfl⟩
abbrev main_call31_v12 : Ref sig .tc := ⟨.hbm, 2063, rfl⟩
abbrev main_call31_v13 : Ref sig .tc := ⟨.hbm, 2064, rfl⟩
abbrev main_call31_v14 : Ref sig .tc := ⟨.hbm, 2065, rfl⟩
abbrev main_v1135 : Ref sig .tc := ⟨.hbm, 2066, rfl⟩
abbrev main_v1136 : Ref sig .tc := ⟨.hbm, 2067, rfl⟩
abbrev main_v1137 : Ref sig .tc := ⟨.hbm, 2068, rfl⟩
abbrev main_c_283 : Ref sig .tc := ⟨.hbm, 2069, rfl⟩
abbrev main_v1138 : Ref sig .tc := ⟨.hbm, 2070, rfl⟩
abbrev main_v1139 : Ref sig .tc := ⟨.hbm, 2071, rfl⟩
abbrev main_c_284 : Ref sig .tc := ⟨.hbm, 2072, rfl⟩
abbrev main_v1140 : Ref sig .tc := ⟨.hbm, 2073, rfl⟩
abbrev main_v1141 : Ref sig .tc := ⟨.hbm, 2074, rfl⟩
abbrev main_v1142 : Ref sig .tc := ⟨.hbm, 2075, rfl⟩
abbrev main_c_285 : Ref sig .tc := ⟨.hbm, 2076, rfl⟩
abbrev main_v1143 : Ref sig .tc := ⟨.hbm, 2077, rfl⟩
abbrev main_v1144 : Ref sig .tc := ⟨.hbm, 2078, rfl⟩
abbrev main_v1145 : Ref sig .tc := ⟨.hbm, 2079, rfl⟩
abbrev main_v1146 : Ref sig .tc := ⟨.hbm, 2080, rfl⟩
abbrev main_v1147 : Ref sig .tc := ⟨.hbm, 2081, rfl⟩
abbrev main_v1148 : Ref sig .tc := ⟨.hbm, 2082, rfl⟩
abbrev main_v1149 : Ref sig .tc := ⟨.hbm, 2083, rfl⟩
abbrev main_v1150 : Ref sig .tc := ⟨.hbm, 2084, rfl⟩
abbrev main_v1151 : Ref sig .tc := ⟨.hbm, 2085, rfl⟩
abbrev main_v1152 : Ref sig .tc := ⟨.hbm, 2086, rfl⟩
abbrev main_v1153 : Ref sig .tc := ⟨.hbm, 2087, rfl⟩
abbrev main_call32_cst : Ref sig .tc := ⟨.hbm, 2088, rfl⟩
abbrev main_call32_v0 : Ref sig .tc := ⟨.hbm, 2089, rfl⟩
abbrev main_v1154 : Ref sig .tc := ⟨.hbm, 2090, rfl⟩
abbrev main_v1155 : Ref sig .tc := ⟨.hbm, 2091, rfl⟩
abbrev main_call33_cst : Ref sig .tc := ⟨.hbm, 2092, rfl⟩
abbrev main_call33_v0 : Ref sig .tc := ⟨.hbm, 2093, rfl⟩
abbrev main_v1156 : Ref sig .tc := ⟨.hbm, 2094, rfl⟩
abbrev main_v1157 : Ref sig .tc := ⟨.hbm, 2095, rfl⟩
abbrev main_call34_cst : Ref sig .tc := ⟨.hbm, 2096, rfl⟩
abbrev main_call34_v0 : Ref sig .tc := ⟨.hbm, 2097, rfl⟩
abbrev main_v1158 : Ref sig .tc := ⟨.hbm, 2098, rfl⟩
abbrev main_v1159 : Ref sig .tc := ⟨.hbm, 2099, rfl⟩

abbrev nD : Nat := 1
abbrev τ : Topo := Topo.v7x

variable {F : FTy → Type} [FloatOps F]

class Facts₀ : Prop where
  bcast_S_S262144x2 : S_.BroadcastsInDim S262144x2 (![] : Fin 0 → Fin S262144x2.rank)
  bcast_S_S262144x8 : S_.BroadcastsInDim S262144x8 (![] : Fin 0 → Fin S262144x8.rank)
  slices_S262144x2_S262144x1_0_0 : S262144x2.Slices ![0, 0] S262144x1
  shapeCasts_S262144x1_S262144 : S262144x1.ShapeCasts S262144
  bcast_S_S262144 : S_.BroadcastsInDim S262144 (![] : Fin 0 → Fin S262144.rank)
  slices_S262144x2_S262144x1_0_1 : S262144x2.Slices ![0, 1] S262144x1
  bcast_S262144_S262144x1_0 : S262144.BroadcastsInDim S262144x1 (![0] : Fin 1 → Fin S262144x1.rank)
  concatenates_S262144x1_S262144x1_S262144x2_d1 : Shape.Concatenates [S262144x1, S262144x1] S262144x2 1
  bcast_S262144x1_S262144x8_0_1 : S262144x1.BroadcastsInDim S262144x8 (![0, 1] : Fin 2 → Fin S262144x8.rank)
  concatenates_S262144x8_S262144x8_S262144x8_S262144x8_S262144x8_S262144x8_S262144x8_S262144x8_S262144x64_d1 : Shape.Concatenates [S262144x8, S262144x8, S262144x8, S262144x8, S262144x8, S262144x8, S262144x8, S262144x8] S262144x64 1
  bcast_S_S262144x256 : S_.BroadcastsInDim S262144x256 (![] : Fin 0 → Fin S262144x256.rank)
  gather_S8x8192x8_S262144x2_S262144x8_1_01_n_n_01_1_118_wf : GatherDims.WF S8x8192x8 S262144x2 S262144x8 [1] [0, 1] [] [0, 1] [] 1 ![1, 1, 8]
  dot_S262144x64_S64x256_S262144x256_1_0_0_1_n_n_wf : DotDims.WF S262144x64 S64x256 S262144x256 [1] [0] [0] [1] [] []
  dot_S262144x256_S256x256_S262144x256_1_0_0_1_n_n_wf : DotDims.WF S262144x256 S256x256 S262144x256 [1] [0] [0] [1] [] []
  dot_S262144x256_S256x1_S262144x1_1_0_0_1_n_n_wf : DotDims.WF S262144x256 S256x1 S262144x1 [1] [0] [0] [1] [] []

variable [Facts₀]

def gather_S8x8192x8_S262144x2_S262144x8_1_01_n_n_01_1_118 : GatherDims S8x8192x8 S262144x2 S262144x8 where
  offsetDims := [1]
  collapsedSliceDims := [0, 1]
  operandBatchingDims := []
  startIndicesBatchingDims := []
  startIndexMap := [0, 1]
  indexVectorDim := 1
  sliceSizes := ![1, 1, 8]
  wf := gather_S8x8192x8_S262144x2_S262144x8_1_01_n_n_01_1_118_wf
def dot_S262144x64_S64x256_S262144x256_1_0_0_1_n_n : DotDims S262144x64 S64x256 S262144x256 where
  lhsContracting := [1]
  rhsContracting := [0]
  lhsNonContracting := [0]
  rhsNonContracting := [1]
  lhsBatch := []
  rhsBatch := []
  wf := dot_S262144x64_S64x256_S262144x256_1_0_0_1_n_n_wf
def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf
def dot_S262144x256_S256x1_S262144x1_1_0_0_1_n_n : DotDims S262144x256 S256x1 S262144x1 where
  lhsContracting := [1]
  rhsContracting := [0]
  lhsNonContracting := [0]
  rhsNonContracting := [1]
  lhsBatch := []
  rhsBatch := []
  wf := dot_S262144x256_S256x1_S262144x1_1_0_0_1_n_n_wf

class Facts : Prop extends Facts₀ where

variable [Facts]
-- ==== Proof.Spec.lean ====
/-
  The neural field, element by element, on the extended reals.

  A point (u, v) of the plane is encoded, at each of eight resolutions, by interpolating a grid of
  feature vectors; the eight encodings are concatenated and passed through a perceptron of three hidden
  layers (rectified) and a linear output.

  At one resolution with scale `sc`: the point's grid position is `pos = u * sc + 1/2`, its cell
  `cell = ⌊pos⌋`, the offset inside the cell `d = pos - cell` and its smoothstep weight
  `wgt = d * d * (3 - 2 * d)`. The cell's number as a 32-bit word is `gidx`.

  Two spellings of one interpolation are stated here. `hat g w a` is the weight a grid line `a` gets from
  a point whose cell is `g` and whose weight is `w`: `1 - w` on line `g`, `w` on line `g + 1`, nothing
  elsewhere; `tent` sums a grid of values `T a b f` against the product of the two axes' hats (the separable
  form). `corners` adds the four corners of the cell one after the other, each with the product of its two
  weights.
-/
import Idealize.ShloMosaic.PureOps.Ideal
import Idealize.ShloMosaic.Lib.ValueIdx

noncomputable section

open scoped BigOperators

namespace Cert.Field

open Idealize.ShloMosaic

/-- The grid position of a coordinate at a resolution's scale (the scale as its 32-bit pattern). -/
def pos (sc : BitVec 32) (u : EReal) : EReal := u * Ideal.ofBits .f32 sc + Ideal.ofBits .f32 0x3F000000#32

/-- The cell a coordinate falls in. -/
def cell (sc : BitVec 32) (u : EReal) : EReal := Ideal.liftRound Int.floor (pos sc u)

/-- The smoothstep weight of the offset inside the cell: d² (3 − 2 d). -/
def wgt (sc : BitVec 32) (u : EReal) : EReal :=
  ((pos sc u - cell sc u) * (pos sc u - cell sc u))
    * (Ideal.ofBits .f32 0x40400000#32 - Ideal.ofBits .f32 0x40000000#32 * (pos sc u - cell sc u))

/-- The cell's number as a 32-bit word. -/
def gidx (sc : BitVec 32) (u : EReal) : BitVec 32 := Ideal.fptosi 32 (cell sc u)

/-- The weight of grid line `a` for a point in cell `g` with weight `w`. -/
def hat (g : BitVec 32) (w : EReal) (a : Nat) : EReal :=
  (if BitVec.ofNat 32 a = g then Ideal.ofBits .f32 0x3F800000#32 - w else Ideal.ofBits .f32 0x00000000#32)
    + (if BitVec.ofNat 32 a = g + 1#32 then w else Ideal.ofBits .f32 0x00000000#32)

/-- The separable form: the grid `T` summed against the two axes' hats, first along the first axis. -/
def tent (R : Nat) (sc : BitVec 32) (u v : EReal) (T : Fin R → Fin R → EReal) : EReal :=
  ∑ b : Fin R, hat (gidx sc v) (wgt sc v) b.val * ∑ a : Fin R, hat (gidx sc u) (wgt sc u) a.val * T a b

/-- The remainder of 32-bit integers with the sign of the modulus (a zero modulus read as one): the truncated
    remainder, moved by the modulus when it is not zero and its sign is not the modulus's. -/
def jmod (x n : BitVec 32) : BitVec 32 :=
  Scalar.select
    (IntOp.andi
      (IntOp.cmpi .ne (IntOp.cmpi .slt (IntOp.remsi .host x (Scalar.select (IntOp.cmpi .eq n 0#32) 1#32 n)) 0#32)
        (IntOp.cmpi .slt (Scalar.select (IntOp.cmpi .eq n 0#32) 1#32 n) 0#32))
      (IntOp.cmpi .ne (IntOp.remsi .host x (Scalar.select (IntOp.cmpi .eq n 0#32) 1#32 n)) 0#32))
    (IntOp.addi (IntOp.remsi .host x (Scalar.select (IntOp.cmpi .eq n 0#32) 1#32 n))
      (Scalar.select (IntOp.cmpi .eq n 0#32) 1#32 n))
    (IntOp.remsi .host x (Scalar.select (IntOp.cmpi .eq n 0#32) 1#32 n))

/-- A negative row number counts from the end of the table of 8192 rows. -/
def wrapNeg (r : BitVec 32) : BitVec 32 := Scalar.select (IntOp.cmpi .slt r 0#32) (IntOp.addi r 8192#32) r

/-- The table row of the grid node (A, B) at a resolution of `res` nodes a line and `size` rows: node number
    `A + B · res` modulo `size`. -/
def rowWord (res size A B : BitVec 32) : BitVec 32 := wrapNeg (jmod (IntOp.addi A (IntOp.muli B res)) size)

/-- Feature `f` of the row numbered by the word `row` (read signed, clamped into the table) of table `lv`. -/
def tableAt (tbl : (⟨3, ![8, 8192, 8]⟩ : Shape).Idx → EReal) (lv : Fin 8) (row : BitVec 32) (f : Fin 8) : EReal :=
  tbl (ValueIdx.ix3 lv ⟨min row.toInt.toNat 8191, by omega⟩ f)

/-- The four corners of the point's cell, one after the other, each with the product of its two weights. -/
def corners (sc res size : BitVec 32) (lv : Fin 8) (u v : EReal) (tbl : (⟨3, ![8, 8192, 8]⟩ : Shape).Idx → EReal)
    (f : Fin 8) : EReal :=
  (((Ideal.ofBits .f32 0x00000000#32
        + ((Ideal.ofBits .f32 0x3F800000#32 - wgt sc u) * (Ideal.ofBits .f32 0x3F800000#32 - wgt sc v))
          * tableAt tbl lv (rowWord res size (IntOp.addi (gidx sc u) 0#32) (IntOp.addi (gidx sc v) 0#32)) f)
      + ((Ideal.ofBits .f32 0x3F800000#32 - wgt sc u) * wgt sc v)
        * tableAt tbl lv (rowWord res size (IntOp.addi (gidx sc u) 0#32) (IntOp.addi (gidx sc v) 1#32)) f)
    + (wgt sc u * (Ideal.ofBits .f32 0x3F800000#32 - wgt sc v))
      * tableAt tbl lv (rowWord res size (IntOp.addi (gidx sc u) 1#32) (IntOp.addi (gidx sc v) 0#32)) f)
  + (wgt sc u * wgt sc v)
    * tableAt tbl lv (rowWord res size (IntOp.addi (gidx sc u) 1#32) (IntOp.addi (gidx sc v) 1#32)) f

/-- A dense layer: the weighted sums of the inputs, one per output. -/
def dense {n m : Nat} (v : Fin n → EReal) (W : Fin n → Fin m → EReal) (j : Fin m) : EReal := ∑ i : Fin n, v i * W i j

/-- The rectifier: the larger of the value and zero. -/
def relu (x : EReal) : EReal := max x (Ideal.ofBits .f32 0x00000000#32)

/-- The perceptron on one point's 64 encoded features: three rectified layers of 256 and a linear output. -/
def mlp (e : Fin 64 → EReal) (W0 : Fin 64 → Fin 256 → EReal) (W1 W2 : Fin 256 → Fin 256 → EReal)
    (W3 : Fin 256 → Fin 1 → EReal) : EReal :=
  dense (fun k3 => relu (dense (fun k2 => relu (dense (fun k1 => relu (dense e W0 k1)) W1 k2)) W2 k3)) W3 0

end Cert.Field

end
-- ==== Proof.Layout.lean ====
/-
  Reading one element of a re-laid array.

  The arrays met here have rank two or three with a leading extent of 512 points; a point's row is cut into
  `R` grid lines of 8 features. Each statement says which element of the operand one element of the result is,
  for any number `R` of grid lines:
  a column of the two-column point array; a one-column array spread over `R` columns; a column number;
  a row of `R` entries given a trailing unit axis and spread over the 8 features; a row of `R * 8` entries
  cut into `R` groups of 8; a product of matrices as a sum over the contracted grid line; a sum over the
  middle axis.
-/
import Idealize.ShloMosaic.PureOps.Ideal.Laws
import Idealize.ShloMosaic.Lib.ValueIdx
import Idealize.ShloMosaic.Lib.Pipeline.Value

noncomputable section

open scoped BigOperators

namespace Cert.Field

open Idealize.ShloMosaic Idealize.ShloMosaic.ValueIdx

variable {α : Type}

/-- Column `c` of an array of `n` rows and two columns, as a one-column array, holds at row `p` the array's
    entry (p, c). -/
theorem slice_col {n : Nat} (c : Fin 2) (x : (⟨2, ![n, 2]⟩ : Shape).Idx → α)
    (h : (⟨2, ![n, 2]⟩ : Shape).Slices ![0, c.val] ⟨2, ![n, 1]⟩) (p : Fin n) (q : Fin 1) :
    extractStridedSlice (⟨2, ![n, 1]⟩ : Shape) ![0, c.val] x h (ix2 p q) = x (ix2 p c) := by
  refine extractStridedSlice_apply _ x h _ _ fun a => ?_
  match a with
  | ⟨0, _⟩ => show p.val = 0 + p.val; omega
  | ⟨1, _⟩ => show c.val = c.val + q.val; omega

/-- A one-column array spread over `R` columns holds its row's entry in every column. -/
theorem spread_col {n R : Nat} (x : (⟨2, ![n, 1]⟩ : Shape).Idx → α)
    (h : (⟨2, ![n, 1]⟩ : Shape).Broadcasts ⟨2, ![n, R]⟩) (p : Fin n) (a : Fin R) :
    broadcastTo (⟨2, ![n, R]⟩ : Shape) x h (ix2 p a) = x (ix2 p (0 : Fin 1)) := by
  refine broadcastTo_apply x h _ _ fun b => ?_
  match b with
  | ⟨0, _⟩ =>
    show p.val = if n = 1 then 0 else p.val
    have := p.isLt
    split <;> omega
  | ⟨1, _⟩ => rfl

/-- The column number of an entry, as a 32-bit word. -/
theorem col_number {n R : Nat} (h : (⟨2, ![n, R]⟩ : Shape).Iotas .tc 32 [1]) (p : Fin n) (a : Fin R) :
    iota .tc (⟨2, ![n, R]⟩ : Shape) 32 [1] h (ix2 p a) = BitVec.ofNat 32 a.val :=
  iota_single_apply .tc _ 32 1 h _

/-- A row of `R` entries given a trailing unit axis keeps its entries. -/
theorem add_unit_axis {n R : Nat} (x : (⟨2, ![n, R]⟩ : Shape).Idx → α)
    (h : (⟨2, ![n, R]⟩ : Shape).ShapeCasts ⟨3, ![n, R, 1]⟩) (p : Fin n) (b : Fin R) (z : Fin 1) :
    shapeCast (⟨3, ![n, R, 1]⟩ : Shape) x h (ix3 p b z) = x (ix2 p b) := by
  refine shapeCast_apply x h _ _ ?_
  rw [Shape.rowMajor_val_two, Shape.rowMajor_val_three]
  show p.val * R + b.val = (p.val * R + b.val) * 1 + z.val
  have := z.isLt
  omega

/-- An array with a trailing unit axis spread over `m` entries holds, in each, the entry of the unit axis. -/
theorem spread_last {n R m : Nat} (x : (⟨3, ![n, R, 1]⟩ : Shape).Idx → α)
    (h : (⟨3, ![n, R, 1]⟩ : Shape).Broadcasts ⟨3, ![n, R, m]⟩) (p : Fin n) (b : Fin R) (f : Fin m) :
    broadcastTo (⟨3, ![n, R, m]⟩ : Shape) x h (ix3 p b f) = x (ix3 p b (0 : Fin 1)) := by
  refine broadcastTo_apply x h _ _ fun c => ?_
  match c with
  | ⟨0, _⟩ =>
    show p.val = if n = 1 then 0 else p.val
    have := p.isLt
    split <;> omega
  | ⟨1, _⟩ =>
    show b.val = if R = 1 then 0 else b.val
    have := b.isLt
    split <;> omega
  | ⟨2, _⟩ => rfl

/-- A row of `K = R * m` entries cut into `R` groups of `m`: entry `f` of group `b` is the row's entry
    `b * m + f`. -/
theorem cut_groups {n K R m : Nat} (hK : K = R * m) (x : (⟨2, ![n, K]⟩ : Shape).Idx → α)
    (h : (⟨2, ![n, K]⟩ : Shape).ShapeCasts ⟨3, ![n, R, m]⟩) (p : Fin n) (b : Fin R) (f : Fin m) (q : Fin K)
    (hq : q.val = b.val * m + f.val) :
    shapeCast (⟨3, ![n, R, m]⟩ : Shape) x h (ix3 p b f) = x (ix2 p q) := by
  refine shapeCast_apply x h _ _ ?_
  rw [Shape.rowMajor_val_two, Shape.rowMajor_val_three]
  show p.val * K + q.val = (p.val * R + b.val) * m + f.val
  rw [hq, hK, Nat.add_mul, Nat.mul_assoc, Nat.add_assoc]

/-- An axis of a matrix is its first or its second. -/
theorem two : ∀ a : Fin 2, a = 0 ∨ a = 1 := by decide

/-- A product of an `M × K` matrix and a `K × N` matrix into a zero accumulator is, entry by entry, the sum over
    the contracted position of the products. -/
theorem matmul_plain_apply (M K N : Nat) {φ₁ φ₂ : FTy} (lhs : FVec Ideal ⟨2, ![M, K]⟩ φ₁) (rhs : FVec Ideal ⟨2, ![K, N]⟩ φ₂)
    (p : Fin M) (q : Fin N) :
    matmul (DotDims.plain M K N) none lhs rhs (constant (⟨2, ![M, N]⟩ : Shape) .f32 0x00000000#32) (ix2 p q)
      = ∑ k : Fin K, lhs (ix2 p k) * rhs (ix2 k q) := by
  show FloatOps.matmul (DotDims.plain M K N) none lhs rhs (constant (⟨2, ![M, N]⟩ : Shape) .f32 0x00000000#32) (ix2 p q) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      obtain rfl | rfl := two a
      · unfold DotDims.lhsIdx
        rw [dif_neg (show ¬((0 : Fin 2) ∈ (DotDims.plain M K N).lhsBatch) by simp [DotDims.plain]),
          dif_pos (show (0 : Fin 2) ∈ (DotDims.plain M K N).lhsNonContracting by simp [DotDims.plain])]
        rfl
      · exact ((DotDims.plain M K N).lhsIdx_val_of_single (cl := (1 : Fin 2)) rfl _ _).trans hk)
  have er : (DotDims.plain M K N).rhsIdx (ix2 p q) ((contrEquiv1 (DotDims.plain M K N) K rfl rfl).symm k) = ix2 k q :=
    funext fun a => Fin.ext (by
      obtain rfl | rfl := two a
      · exact ((DotDims.plain M K N).rhsIdx_val_of_single (cr := (0 : Fin 2)) rfl _ _).trans hk
      · unfold DotDims.rhsIdx
        rw [dif_neg (show ¬((1 : Fin 2) ∈ (DotDims.plain M K N).rhsBatch) by simp [DotDims.plain]),
          dif_pos (show (1 : Fin 2) ∈ (DotDims.plain M K N).rhsNonContracting by simp [DotDims.plain])]
        rfl)
  rw [el, er]

/-- The sum over the middle axis of an `n × R × m` array, from zero. -/
theorem mid_sum {n R m : Nat} (src : FVec Ideal ⟨3, ![n, R, m]⟩ .f32)
    (h : (⟨3, ![n, R, m]⟩ : Shape).Reduces [1] ⟨2, ![n, m]⟩) (hφ : FKind.Formats .f32)
    (hacc : (0x00000000#32 : BitVec 32) = 0x00000000#32) (p : Fin n) (f : Fin m) :
    multiReduction .add [1] (⟨2, ![n, m]⟩ : Shape) src 0x00000000#32 h hφ hacc (ix2 p f) = ∑ b : Fin R, src (ix3 p b f) := by
  refine (Ideal.multiReduction_add_single src 0x00000000#32 h hφ hacc (ix2 p f)).trans ?_
  refine Finset.sum_congr rfl fun b _ => congrArg src ?_
  funext c
  match c with
  | ⟨0, _⟩ => rfl
  | ⟨1, _⟩ => rfl
  | ⟨2, _⟩ => rfl

section Pointwise
variable {s : Shape} {w : Nat} {φ : FTy}

/-- The integer operations on arrays act entry by entry. -/
theorem cmpi_apply (p : CmpIPredicate) (x y : IVec s w) (i : s.Idx) : cmpi p x y i = IntOp.cmpi p (x i) (y i) := rfl
theorem andi_apply (x y : IVec s w) (i : s.Idx) : andi x y i = IntOp.andi (x i) (y i) := rfl
theorem addi_apply (x y : IVec s w) (i : s.Idx) : addi x y i = IntOp.addi (x i) (y i) := rfl
theorem muli_apply (x y : IVec s w) (i : s.Idx) : muli x y i = IntOp.muli (x i) (y i) := rfl
theorem remsi_apply (x y : IVec s w) (i : s.Idx) : Host.remsi x y i = IntOp.remsi .host (x i) (y i) := rfl
theorem constantI_apply (b : BitVec w) (i : s.Idx) : constantI s w b i = b := rfl
theorem iotaInDim_apply (d : Fin s.rank) (i : s.Idx) : iotaInDim s w d i = BitVec.ofNat w (i d).val := rfl
/-- The float-to-integer conversion and the two floors act entry by entry. -/
theorem fptosi_apply (x : FVec Ideal s φ) (i : s.Idx) : fptosi w x i = Ideal.fptosi w (x i) := rfl
theorem hfloor_apply (x : FVec Ideal s φ) (i : s.Idx) : Host.floor x i = Ideal.liftRound Int.floor (x i) := rfl
theorem floor_apply (x : FVec Ideal s φ) (i : s.Idx) : floor x i = Ideal.liftRound Int.floor (x i) := rfl

end Pointwise

/-- Column 0 of a two-column array. -/
theorem slice_c0 {n : Nat} (x : (⟨2, ![n, 2]⟩ : Shape).Idx → α)
    (h : (⟨2, ![n, 2]⟩ : Shape).Slices ![0, 0] ⟨2, ![n, 1]⟩) (p : Fin n) (q : Fin 1) :
    extractStridedSlice (⟨2, ![n, 1]⟩ : Shape) ![0, 0] x h (ix2 p q) = x (ix2 p (0 : Fin 2)) :=
  slice_col 0 x h p q

/-- Column 1 of a two-column array. -/
theorem slice_c1 {n : Nat} (x : (⟨2, ![n, 2]⟩ : Shape).Idx → α)
    (h : (⟨2, ![n, 2]⟩ : Shape).Slices ![0, 1] ⟨2, ![n, 1]⟩) (p : Fin n) (q : Fin 1) :
    extractStridedSlice (⟨2, ![n, 1]⟩ : Shape) ![0, 1] x h (ix2 p q) = x (ix2 p (1 : Fin 2)) :=
  slice_col 1 x h p q

/-- A scalar spread over an array holds the scalar everywhere. -/
theorem bcast_scalar {t : Shape} (x : (⟨0, ![]⟩ : Shape).Idx → α) (h : (⟨0, ![]⟩ : Shape).BroadcastsInDim t ![]) (j : t.Idx) :
    broadcastInDim t ![] h x j = x ix0 :=
  congrArg x (funext fun a => a.elim0)

/-- A one-column array read as a vector. -/
theorem col_to_vec {n : Nat} (x : (⟨2, ![n, 1]⟩ : Shape).Idx → α)
    (h : (⟨2, ![n, 1]⟩ : Shape).ShapeCasts ⟨1, ![n]⟩) (p : Fin n) :
    shapeCast (⟨1, ![n]⟩ : Shape) x h (ix1 p) = x (ix2 p (0 : Fin 1)) := by
  refine shapeCast_apply x h _ _ ?_
  rw [Shape.rowMajor_val_two, Shape.rowMajor_val_one]
  show p.val * 1 + 0 = p.val
  omega

/-- A vector set up as one column. -/
theorem vec_to_col {n : Nat} (v : (⟨1, ![n]⟩ : Shape).Idx → α)
    (h : (⟨1, ![n]⟩ : Shape).BroadcastsInDim ⟨2, ![n, 1]⟩ ![0]) (p : Fin n) (z : Fin 1) :
    broadcastInDim (⟨2, ![n, 1]⟩ : Shape) ![0] h v (ix2 p z) = v (ix1 p) := by
  refine broadcastInDim_apply _ h v _ _ fun a => ?_
  obtain rfl : a = 0 := Subsingleton.elim _ _
  show p.val = if n = 1 then 0 else p.val
  have := p.isLt
  split <;> omega

/-- A column spread over `m` columns. -/
theorem col_to_wide {n m : Nat} (c : (⟨2, ![n, 1]⟩ : Shape).Idx → α)
    (h : (⟨2, ![n, 1]⟩ : Shape).BroadcastsInDim ⟨2, ![n, m]⟩ ![0, 1]) (p : Fin n) (f : Fin m) :
    broadcastInDim (⟨2, ![n, m]⟩ : Shape) ![0, 1] h c (ix2 p f) = c (ix2 p (0 : Fin 1)) := by
  refine broadcastInDim_apply _ h c _ _ fun a => ?_
  obtain rfl | rfl := two a
  · show p.val = if n = 1 then 0 else p.val
    have := p.isLt
    split <;> omega
  · rfl

/-- A vector set up as one row. -/
theorem vec_to_row {n : Nat} (v : (⟨1, ![n]⟩ : Shape).Idx → α)
    (h : (⟨1, ![n]⟩ : Shape).BroadcastsInDim ⟨2, ![1, n]⟩ ![1]) (z : Fin 1) (a : Fin n) :
    broadcastInDim (⟨2, ![1, n]⟩ : Shape) ![1] h v (ix2 z a) = v (ix1 a) := by
  refine broadcastInDim_apply _ h v _ _ fun c => ?_
  obtain rfl : c = 0 := Subsingleton.elim _ _
  show a.val = if n = 1 then 0 else a.val
  have := a.isLt
  split <;> omega

/-- A row repeated over `m` rows. -/
theorem row_to_sq {m n : Nat} (r : (⟨2, ![1, n]⟩ : Shape).Idx → α)
    (h : (⟨2, ![1, n]⟩ : Shape).BroadcastsInDim ⟨2, ![m, n]⟩ ![0, 1]) (b : Fin m) (a : Fin n) :
    broadcastInDim (⟨2, ![m, n]⟩ : Shape) ![0, 1] h r (ix2 b a) = r (ix2 (0 : Fin 1) a) := by
  refine broadcastInDim_apply _ h r _ _ fun c => ?_
  obtain rfl | rfl := two c
  · rfl
  · show a.val = if n = 1 then 0 else a.val
    have := a.isLt
    split <;> omega

/-- A matrix given a trailing unit axis. -/
theorem sq_to_cube {m n : Nat} (q : (⟨2, ![m, n]⟩ : Shape).Idx → α)
    (h : (⟨2, ![m, n]⟩ : Shape).BroadcastsInDim ⟨3, ![m, n, 1]⟩ ![0, 1]) (b : Fin m) (a : Fin n) (z : Fin 1) :
    broadcastInDim (⟨3, ![m, n, 1]⟩ : Shape) ![0, 1] h q (ix3 b a z) = q (ix2 b a) := by
  refine broadcastInDim_apply _ h q _ _ fun c => ?_
  obtain rfl | rfl := two c
  · show b.val = if m = 1 then 0 else b.val
    have := b.isLt
    split <;> omega
  · show a.val = if n = 1 then 0 else a.val
    have := a.isLt
    split <;> omega

/-- The first two axes of a rank-three array exchanged. -/
theorem swap01 {m n k : Nat} (x : (⟨3, ![m, n, k]⟩ : Shape).Idx → α)
    (h : (⟨3, ![m, n, k]⟩ : Shape).Transposes [1, 0, 2] ⟨3, ![n, m, k]⟩) (a : Fin n) (b : Fin m) (f : Fin k) :
    transpose (⟨3, ![n, m, k]⟩ : Shape) [1, 0, 2] x h (ix3 a b f) = x (ix3 b a f) := by
  refine transpose_apply _ x h _ _ fun c => ?_
  match c with
  | ⟨0, _⟩ => rfl
  | ⟨1, _⟩ => rfl
  | ⟨2, _⟩ => rfl

/-- The last two axes of a rank-three array run together: entry `b * k + f` of row `a` is entry (a, b, f). -/
theorem flatten23 {n m k K : Nat} (hK : K = m * k) (x : (⟨3, ![n, m, k]⟩ : Shape).Idx → α)
    (h : (⟨3, ![n, m, k]⟩ : Shape).ShapeCasts ⟨2, ![n, K]⟩) (a : Fin n) (b : Fin m) (f : Fin k) (q : Fin K)
    (hq : q.val = b.val * k + f.val) :
    shapeCast (⟨2, ![n, K]⟩ : Shape) x h (ix2 a q) = x (ix3 a b f) := by
  refine shapeCast_apply x h _ _ ?_
  rw [Shape.rowMajor_val_two, Shape.rowMajor_val_three]
  show (a.val * m + b.val) * k + f.val = a.val * K + q.val
  rw [hq, hK, Nat.add_mul, Nat.mul_assoc, Nat.add_assoc]

/-- Table `l` of a stack of tables, taken out as a matrix of rows. -/
theorem table_slice {T r k : Nat} (l : Nat) (hl : l < T) (x : (⟨3, ![T, r, k]⟩ : Shape).Idx → α)
    (hs : (⟨3, ![T, r, k]⟩ : Shape).Slices ![l, 0, 0] ⟨3, ![1, r, k]⟩)
    (hc : (⟨3, ![1, r, k]⟩ : Shape).ShapeCasts ⟨2, ![r, k]⟩) (i : Fin r) (f : Fin k) :
    shapeCast (⟨2, ![r, k]⟩ : Shape) (extractStridedSlice (⟨3, ![1, r, k]⟩ : Shape) ![l, 0, 0] x hs) hc (ix2 i f)
      = x (ix3 ⟨l, hl⟩ i f) := by
  refine (shapeCast_apply _ hc _ (ix3 (0 : Fin 1) i f) ?_).trans ?_
  · rw [Shape.rowMajor_val_two, Shape.rowMajor_val_three]
    show (0 * r + i.val) * k + f.val = i.val * k + f.val
    rw [Nat.zero_mul, Nat.zero_add]
  · refine extractStridedSlice_apply _ x hs _ _ fun c => ?_
    match c with
    | ⟨0, _⟩ => show l = l + 0; omega
    | ⟨1, _⟩ => show i.val = 0 + i.val; omega
    | ⟨2, _⟩ => show f.val = 0 + f.val; omega

/-- Two columns side by side: the first column of the pair. -/
theorem pair_left {n : Nat} (x₁ x₂ : (⟨2, ![n, 1]⟩ : Shape).Idx → α)
    (h : Shape.Concatenates [(⟨2, ![n, 1]⟩ : Shape), ⟨2, ![n, 1]⟩] ⟨2, ![n, 2]⟩ 1) (p : Fin n) :
    concatenate (⟨2, ![n, 2]⟩ : Shape) 1 [⟨⟨2, ![n, 1]⟩, x₁⟩, ⟨⟨2, ![n, 1]⟩, x₂⟩] h (ix2 p (0 : Fin 2)) = x₁ (ix2 p (0 : Fin 1)) :=
  concatenate_pair_apply_left 1 x₁ x₂ h _ rfl _ fun b => by
    obtain rfl | rfl := two b <;> rfl

/-- Two columns side by side: the second column of the pair. -/
theorem pair_right {n : Nat} (x₁ x₂ : (⟨2, ![n, 1]⟩ : Shape).Idx → α)
    (h : Shape.Concatenates [(⟨2, ![n, 1]⟩ : Shape), ⟨2, ![n, 1]⟩] ⟨2, ![n, 2]⟩ 1) (p : Fin n) :
    concatenate (⟨2, ![n, 2]⟩ : Shape) 1 [⟨⟨2, ![n, 1]⟩, x₁⟩, ⟨⟨2, ![n, 1]⟩, x₂⟩] h (ix2 p (1 : Fin 2)) = x₂ (ix2 p (0 : Fin 1)) :=
  concatenate_pair_apply_right 1 x₁ x₂ h _ rfl rfl _ (fun b hb => by
    obtain rfl | rfl := two b
    · rfl
    · exact absurd rfl hb) rfl

end Cert.Field

end
-- ==== Proof.Level.lean ====
/-
  One resolution of the encoding, as a function of whole blocks of 512 points.

  The weights of the `R` grid lines for each point (`lineWeights`): line `a` gets `1 - w` when it is the
  point's cell `g`, `w` when it is the next line, and the two are added. The block's encoding
  (`blockFeat`): the weights along the first axis multiply the grid matrix (`R` rows; each row `R` groups of 8
  features), the product is cut into its groups, each group is scaled by the weight of its line along the second
  axis, and the groups are summed. Entry by entry this is the separable interpolation `tent`.
-/
import proofs.«139053_j36180804501977_2_alg».proof.Proof.Spec
import proofs.«139053_j36180804501977_2_alg».proof.Proof.Layout

noncomputable section

open scoped BigOperators

namespace Cert.Field

open Idealize.ShloMosaic Idealize.ShloMosaic.ValueIdx

/-- A choice between two values on the equality of two words is the `if`. -/
theorem select_eq {α : Type} {w : Nat} (x y : BitVec w) (A B : α) :
    Scalar.select (IntOp.cmpi .eq x y) A B = if x = y then A else B := by
  by_cases h : x = y
  · subst h; simp [Scalar.select, IntOp.cmpi]
  · have hb : (x == y) = false := by simpa using h
    simp [Scalar.select, IntOp.cmpi, hb, h]

section
variable {R : Nat}

/-- The weights of the `R` grid lines for each of 512 points with cells `g` and weights `w`. -/
def lineWeights (hI : (⟨2, ![512, R]⟩ : Shape).Iotas .tc 32 [1])
    (hB : (⟨2, ![512, 1]⟩ : Shape).Broadcasts ⟨2, ![512, R]⟩) (hC : (⟨2, ![512, 1]⟩ : Shape).ShapeCasts ⟨2, ![512, 1]⟩)
    (g : IVec ⟨2, ![512, 1]⟩ 32) (w : FVec Ideal ⟨2, ![512, 1]⟩ .f32) : FVec Ideal ⟨2, ![512, R]⟩ .f32 :=
  addf
    (select (cmpi .eq (iota .tc ⟨2, ![512, R]⟩ 32 [1] hI) (broadcastTo ⟨2, ![512, R]⟩ g hB))
      (broadcastTo ⟨2, ![512, R]⟩
        (shapeCast ⟨2, ![512, 1]⟩ (subf (broadcast ⟨2, ![512, 1]⟩ (Scalar.ofBits .f32 0x3F800000#32)) w) hC) hB)
      (broadcast ⟨2, ![512, R]⟩ (Scalar.ofBits .f32 0x00000000#32)))
    (select (cmpi .eq (iota .tc ⟨2, ![512, R]⟩ 32 [1] hI)
        (broadcastTo ⟨2, ![512, R]⟩ (addi g (broadcast ⟨2, ![512, 1]⟩ 1#32)) hB))
      (broadcastTo ⟨2, ![512, R]⟩ (shapeCast ⟨2, ![512, 1]⟩ w hC) hB)
      (broadcast ⟨2, ![512, R]⟩ (Scalar.ofBits .f32 0x00000000#32)))

/-- Line `a`'s weight for point `p` is the hat of the point's cell and weight. -/
theorem lineWeights_apply (hI : (⟨2, ![512, R]⟩ : Shape).Iotas .tc 32 [1])
    (hB : (⟨2, ![512, 1]⟩ : Shape).Broadcasts ⟨2, ![512, R]⟩) (hC : (⟨2, ![512, 1]⟩ : Shape).ShapeCasts ⟨2, ![512, 1]⟩)
    (g : IVec ⟨2, ![512, 1]⟩ 32) (w : FVec Ideal ⟨2, ![512, 1]⟩ .f32) (p : Fin 512) (a : Fin R) :
    lineWeights hI hB hC g w (ix2 p a) = hat (g (ix2 p (0 : Fin 1))) (w (ix2 p (0 : Fin 1))) a.val := by
  unfold lineWeights hat
  show Scalar.select (IntOp.cmpi .eq (iota .tc ⟨2, ![512, R]⟩ 32 [1] hI (ix2 p a)) (broadcastTo ⟨2, ![512, R]⟩ g hB (ix2 p a)))
        (broadcastTo ⟨2, ![512, R]⟩
          (shapeCast ⟨2, ![512, 1]⟩ (subf (broadcast ⟨2, ![512, 1]⟩ (Scalar.ofBits .f32 0x3F800000#32)) w) hC) hB (ix2 p a))
        (Ideal.ofBits .f32 0x00000000#32)
      + Scalar.select (IntOp.cmpi .eq (iota .tc ⟨2, ![512, R]⟩ 32 [1] hI (ix2 p a))
          (broadcastTo ⟨2, ![512, R]⟩ (addi g (broadcast ⟨2, ![512, 1]⟩ 1#32)) hB (ix2 p a)))
        (broadcastTo ⟨2, ![512, R]⟩ (shapeCast ⟨2, ![512, 1]⟩ w hC) hB (ix2 p a))
        (Ideal.ofBits .f32 0x00000000#32) = _
  rw [col_number, spread_col, spread_col, spread_col, spread_col, shapeCast_self, shapeCast_self, select_eq, select_eq]
  rfl

/-- The encoding of a block of 512 points at one resolution, from the two axes' line weights and the grid
    matrix. -/
def blockFeat {K : Nat} (ax ay : FVec Ideal ⟨2, ![512, R]⟩ .f32) (M : Vec Ideal ⟨2, ![R, K]⟩ .f32)
    (hS : (⟨2, ![R, K]⟩ : Shape).ShapeCasts ⟨2, ![R, K]⟩)
    (h3 : (⟨2, ![512, K]⟩ : Shape).ShapeCasts ⟨3, ![512, R, 8]⟩)
    (h1 : (⟨2, ![512, R]⟩ : Shape).ShapeCasts ⟨3, ![512, R, 1]⟩)
    (h2 : (⟨3, ![512, R, 1]⟩ : Shape).Broadcasts ⟨3, ![512, R, 8]⟩)
    (hr : (⟨3, ![512, R, 8]⟩ : Shape).Reduces [1] ⟨2, ![512, 8]⟩) : FVec Ideal ⟨2, ![512, 8]⟩ .f32 :=
  multiReduction .add [1] ⟨2, ![512, 8]⟩
    (mulf (broadcastTo ⟨3, ![512, R, 8]⟩ (shapeCast ⟨3, ![512, R, 1]⟩ ay h1) h2)
      (shapeCast ⟨3, ![512, R, 8]⟩
        (matmul (DotDims.plain 512 R K) none (truncf .bf16 ax (by decide))
          (truncf .bf16 (shapeCast ⟨2, ![R, K]⟩ M hS : FVec Ideal ⟨2, ![R, K]⟩ .f32) (by decide))
          (constant ⟨2, ![512, K]⟩ .f32 0x00000000#32)) h3))
    0x00000000#32 hr (.inl rfl) rfl

/-- Entry (p, f) of the block's encoding: the grid's feature `f` summed against the two axes' weights. -/
theorem blockFeat_apply {K : Nat} (hK : K = R * 8) (ax ay : FVec Ideal ⟨2, ![512, R]⟩ .f32) (M : Vec Ideal ⟨2, ![R, K]⟩ .f32)
    (hS : (⟨2, ![R, K]⟩ : Shape).ShapeCasts ⟨2, ![R, K]⟩)
    (h3 : (⟨2, ![512, K]⟩ : Shape).ShapeCasts ⟨3, ![512, R, 8]⟩)
    (h1 : (⟨2, ![512, R]⟩ : Shape).ShapeCasts ⟨3, ![512, R, 1]⟩)
    (h2 : (⟨3, ![512, R, 1]⟩ : Shape).Broadcasts ⟨3, ![512, R, 8]⟩)
    (hr : (⟨3, ![512, R, 8]⟩ : Shape).Reduces [1] ⟨2, ![512, 8]⟩) (p : Fin 512) (f : Fin 8) :
    blockFeat ax ay M hS h3 h1 h2 hr (ix2 p f)
      = ∑ b : Fin R, ay (ix2 p b) * ∑ a : Fin R, ax (ix2 p a) * M (ix2 a ⟨b.val * 8 + f.val, by
          have := b.isLt; have := f.isLt; rw [hK]; omega⟩) := by
  unfold blockFeat
  refine (mid_sum _ hr (.inl rfl) rfl p f).trans ?_
  refine Finset.sum_congr rfl fun b _ => ?_
  show broadcastTo ⟨3, ![512, R, 8]⟩ (shapeCast ⟨3, ![512, R, 1]⟩ ay h1) h2 (ix3 p b f)
      * shapeCast ⟨3, ![512, R, 8]⟩
          (matmul (DotDims.plain 512 R K) none (truncf .bf16 ax (by decide))
            (truncf .bf16 (shapeCast ⟨2, ![R, K]⟩ M hS : FVec Ideal ⟨2, ![R, K]⟩ .f32) (by decide))
            (constant ⟨2, ![512, K]⟩ .f32 0x00000000#32)) h3
          (ix3 p b f) = _
  rw [spread_last, add_unit_axis,
    cut_groups hK _ h3 p b f ⟨b.val * 8 + f.val, by have := b.isLt; have := f.isLt; rw [hK]; omega⟩ rfl,
    matmul_plain_apply, shapeCast_self]
  rfl

/-- Column 0 of the point array. -/
theorem slice_col0 {n : Nat} (x : (⟨2, ![n, 2]⟩ : Shape).Idx → EReal)
    (h : (⟨2, ![n, 2]⟩ : Shape).Slices ![0, 0] ⟨2, ![n, 1]⟩) (p : Fin n) (q : Fin 1) :
    extractStridedSlice (⟨2, ![n, 1]⟩ : Shape) ![0, 0] x h (ix2 p q) = x (ix2 p (0 : Fin 2)) :=
  slice_col 0 x h p q

/-- Column 1 of the point array. -/
theorem slice_col1 {n : Nat} (x : (⟨2, ![n, 2]⟩ : Shape).Idx → EReal)
    (h : (⟨2, ![n, 2]⟩ : Shape).Slices ![0, 1] ⟨2, ![n, 1]⟩) (p : Fin n) (q : Fin 1) :
    extractStridedSlice (⟨2, ![n, 1]⟩ : Shape) ![0, 1] x h (ix2 p q) = x (ix2 p (1 : Fin 2)) :=
  slice_col 1 x h p q

/-- The grid positions of a column of coordinates at scale `sc`. -/
def posCol (sc : BitVec 32) (u : FVec Ideal ⟨2, ![512, 1]⟩ .f32) : FVec Ideal ⟨2, ![512, 1]⟩ .f32 :=
  addf (mulf u (broadcast ⟨2, ![512, 1]⟩ (Scalar.ofBits .f32 sc))) (broadcast ⟨2, ![512, 1]⟩ (Scalar.ofBits .f32 0x3F000000#32))

/-- The cells' numbers of a column of coordinates. -/
def cellCol (sc : BitVec 32) (u : FVec Ideal ⟨2, ![512, 1]⟩ .f32) : IVec ⟨2, ![512, 1]⟩ 32 :=
  fptosi 32 (floor (posCol sc u))

/-- The smoothstep weights of a column of coordinates. -/
def wgtCol (sc : BitVec 32) (u : FVec Ideal ⟨2, ![512, 1]⟩ .f32) : FVec Ideal ⟨2, ![512, 1]⟩ .f32 :=
  mulf (mulf (subf (posCol sc u) (floor (posCol sc u))) (subf (posCol sc u) (floor (posCol sc u))))
    (subf (broadcast ⟨2, ![512, 1]⟩ (Scalar.ofBits .f32 0x40400000#32))
      (mulf (broadcast ⟨2, ![512, 1]⟩ (Scalar.ofBits .f32 0x40000000#32)) (subf (posCol sc u) (floor (posCol sc u)))))

theorem cellCol_apply (sc : BitVec 32) (u : FVec Ideal ⟨2, ![512, 1]⟩ .f32) (i : (⟨2, ![512, 1]⟩ : Shape).Idx) :
    cellCol sc u i = gidx sc (u i) := rfl

theorem wgtCol_apply (sc : BitVec 32) (u : FVec Ideal ⟨2, ![512, 1]⟩ .f32) (i : (⟨2, ![512, 1]⟩ : Shape).Idx) :
    wgtCol sc u i = wgt sc (u i) := rfl

/-- One resolution's encoding of a block of 512 points, from the points and the grid matrix. -/
def levelBlock {K : Nat} (sc : BitVec 32) (x : Vec Ideal ⟨2, ![512, 2]⟩ .f32) (M : Vec Ideal ⟨2, ![R, K]⟩ .f32)
    (hs0 : (⟨2, ![512, 2]⟩ : Shape).Slices ![0, 0] ⟨2, ![512, 1]⟩) (hs1 : (⟨2, ![512, 2]⟩ : Shape).Slices ![0, 1] ⟨2, ![512, 1]⟩)
    (hI : (⟨2, ![512, R]⟩ : Shape).Iotas .tc 32 [1])
    (hB : (⟨2, ![512, 1]⟩ : Shape).Broadcasts ⟨2, ![512, R]⟩) (hC : (⟨2, ![512, 1]⟩ : Shape).ShapeCasts ⟨2, ![512, 1]⟩)
    (hS : (⟨2, ![R, K]⟩ : Shape).ShapeCasts ⟨2, ![R, K]⟩)
    (h3 : (⟨2, ![512, K]⟩ : Shape).ShapeCasts ⟨3, ![512, R, 8]⟩)
    (h1 : (⟨2, ![512, R]⟩ : Shape).ShapeCasts ⟨3, ![512, R, 1]⟩)
    (h2 : (⟨3, ![512, R, 1]⟩ : Shape).Broadcasts ⟨3, ![512, R, 8]⟩)
    (hr : (⟨3, ![512, R, 8]⟩ : Shape).Reduces [1] ⟨2, ![512, 8]⟩) : FVec Ideal ⟨2, ![512, 8]⟩ .f32 :=
  blockFeat
    (lineWeights hI hB hC (cellCol sc (extractStridedSlice ⟨2, ![512, 1]⟩ ![0, 0] x hs0))
      (wgtCol sc (extractStridedSlice ⟨2, ![512, 1]⟩ ![0, 0] x hs0)))
    (lineWeights hI hB hC (cellCol sc (extractStridedSlice ⟨2, ![512, 1]⟩ ![0, 1] x hs1))
      (wgtCol sc (extractStridedSlice ⟨2, ![512, 1]⟩ ![0, 1] x hs1)))
    M hS h3 h1 h2 hr

/-- Entry (p, f) of a block's encoding at one resolution is the separable interpolation of the grid's feature `f`
    at the point `p`. -/
theorem levelBlock_apply {K : Nat} (hK : K = R * 8) (sc : BitVec 32) (x : Vec Ideal ⟨2, ![512, 2]⟩ .f32)
    (M : Vec Ideal ⟨2, ![R, K]⟩ .f32)
    (hs0 : (⟨2, ![512, 2]⟩ : Shape).Slices ![0, 0] ⟨2, ![512, 1]⟩) (hs1 : (⟨2, ![512, 2]⟩ : Shape).Slices ![0, 1] ⟨2, ![512, 1]⟩)
    (hI : (⟨2, ![512, R]⟩ : Shape).Iotas .tc 32 [1])
    (hB : (⟨2, ![512, 1]⟩ : Shape).Broadcasts ⟨2, ![512, R]⟩) (hC : (⟨2, ![512, 1]⟩ : Shape).ShapeCasts ⟨2, ![512, 1]⟩)
    (hS : (⟨2, ![R, K]⟩ : Shape).ShapeCasts ⟨2, ![R, K]⟩)
    (h3 : (⟨2, ![512, K]⟩ : Shape).ShapeCasts ⟨3, ![512, R, 8]⟩)
    (h1 : (⟨2, ![512, R]⟩ : Shape).ShapeCasts ⟨3, ![512, R, 1]⟩)
    (h2 : (⟨3, ![512, R, 1]⟩ : Shape).Broadcasts ⟨3, ![512, R, 8]⟩)
    (hr : (⟨3, ![512, R, 8]⟩ : Shape).Reduces [1] ⟨2, ![512, 8]⟩) (p : Fin 512) (f : Fin 8) :
    levelBlock sc x M hs0 hs1 hI hB hC hS h3 h1 h2 hr (ix2 p f)
      = tent R sc (x (ix2 p (0 : Fin 2))) (x (ix2 p (1 : Fin 2))) fun a b => M (ix2 a ⟨b.val * 8 + f.val, by
          have := b.isLt; have := f.isLt; rw [hK]; omega⟩) := by
  unfold levelBlock tent
  rw [blockFeat_apply hK]
  refine Finset.sum_congr rfl fun b _ => ?_
  rw [lineWeights_apply, cellCol_apply, wgtCol_apply, slice_col1]
  refine congrArg _ (Finset.sum_congr rfl fun a _ => ?_)
  rw [lineWeights_apply, cellCol_apply, wgtCol_apply, slice_col0]

end

end Cert.Field

end
-- ==== Proof.Mlp.lean ====
/-
  The perceptron on a block of rows, and the concatenation of the eight resolutions' features.

  `mlpRows` is the perceptron as products of whole matrices: the block of encodings times the first weight
  matrix, rectified, times the second, rectified, times the third, rectified, times the last. Row by row it is
  `mlp` of the row's 64 features. Feature `l * 8 + f` of the concatenated encoding is feature `f` of resolution
  `l`.
-/
import proofs.«139053_j36180804501977_2_alg».proof.Proof.Spec
import proofs.«139053_j36180804501977_2_alg».proof.Proof.Layout

noncomputable section

open scoped BigOperators

namespace Cert.Field

open Idealize.ShloMosaic Idealize.ShloMosaic.ValueIdx

/-- The perceptron on `n` rows of 64 features, as matrix products into zero accumulators. -/
def mlpRows {n : Nat} (enc : FVec Ideal ⟨2, ![n, 64]⟩ .f32) (W0 : FVec Ideal ⟨2, ![64, 256]⟩ .f32)
    (W1 W2 : FVec Ideal ⟨2, ![256, 256]⟩ .f32) (W3 : FVec Ideal ⟨2, ![256, 1]⟩ .f32) : FVec Ideal ⟨2, ![n, 1]⟩ .f32 :=
  matmul (DotDims.plain n 256 1) none
    (truncf .bf16
      (maximumf
        (matmul (DotDims.plain n 256 256) none
          (truncf .bf16
            (maximumf
              (matmul (DotDims.plain n 256 256) none
                (truncf .bf16
                  (maximumf
                    (matmul (DotDims.plain n 64 256) none (truncf .bf16 enc (by decide)) (truncf .bf16 W0 (by decide))
                      (constant ⟨2, ![n, 256]⟩ .f32 0x00000000#32))
                    (broadcast ⟨2, ![n, 256]⟩ (Scalar.ofBits .f32 0x00000000#32)))
                  (by decide))
                (truncf .bf16 W1 (by decide)) (constant ⟨2, ![n, 256]⟩ .f32 0x00000000#32))
              (broadcast ⟨2, ![n, 256]⟩ (Scalar.ofBits .f32 0x00000000#32)))
            (by decide))
          (truncf .bf16 W2 (by decide)) (constant ⟨2, ![n, 256]⟩ .f32 0x00000000#32))
        (broadcast ⟨2, ![n, 256]⟩ (Scalar.ofBits .f32 0x00000000#32)))
      (by decide))
    (truncf .bf16 W3 (by decide)) (constant ⟨2, ![n, 1]⟩ .f32 0x00000000#32)

/-- Row `p` of the perceptron's output is `mlp` of row `p` of the encodings. -/
theorem mlpRows_apply {n : Nat} (enc : FVec Ideal ⟨2, ![n, 64]⟩ .f32) (W0 : FVec Ideal ⟨2, ![64, 256]⟩ .f32)
    (W1 W2 : FVec Ideal ⟨2, ![256, 256]⟩ .f32) (W3 : FVec Ideal ⟨2, ![256, 1]⟩ .f32) (p : Fin n) (z : Fin 1) :
    mlpRows enc W0 W1 W2 W3 (ix2 p z)
      = mlp (fun j => enc (ix2 p j)) (fun i j => W0 (ix2 i j)) (fun i j => W1 (ix2 i j)) (fun i j => W2 (ix2 i j))
          (fun i j => W3 (ix2 i j)) := by
  obtain rfl : z = 0 := Subsingleton.elim _ _
  unfold mlpRows mlp dense relu
  simp only [matmul_plain_apply, truncf_apply, maximumf_apply, broadcast_apply]
  rfl

/-- The host's product of an `M × K` and a `K × N` matrix: entry by entry the sum over the contracted position. -/
theorem dotGeneral_plain_apply (M K N : Nat) {φ₁ φ₂ : FTy} (lhs : FVec Ideal ⟨2, ![M, K]⟩ φ₁) (rhs : FVec Ideal ⟨2, ![K, N]⟩ φ₂)
    (p : Fin M) (q : Fin N) :
    Host.dotGeneral (DotDims.plain M K N) none lhs rhs (ix2 p q) = ∑ k : Fin K, lhs (ix2 p k) * rhs (ix2 k q) := by
  have h := matmul_plain_apply M K N lhs rhs p q
  rw [← h]
  show FloatOps.dotGeneral (DotDims.plain M K N) none .single lhs rhs (ix2 p q)
    = FloatOps.matmul (DotDims.plain M K N) none lhs rhs (constant (⟨2, ![M, N]⟩ : Shape) .f32 0x00000000#32) (ix2 p q)
  rw [Ideal.dotGeneral_apply, Ideal.matmul_constant_zero_apply]

/-- The perceptron on `n` rows of 64 features, as the host's matrix products and rectifiers. -/
def mlpHost {n : Nat} (hb : (⟨0, ![]⟩ : Shape).BroadcastsInDim ⟨2, ![n, 256]⟩ ![])
    (enc : FVec Ideal ⟨2, ![n, 64]⟩ .f32) (W0 : FVec Ideal ⟨2, ![64, 256]⟩ .f32)
    (W1 W2 : FVec Ideal ⟨2, ![256, 256]⟩ .f32) (W3 : FVec Ideal ⟨2, ![256, 1]⟩ .f32) : FVec Ideal ⟨2, ![n, 1]⟩ .f32 :=
  Host.dotGeneral (DotDims.plain n 256 1) none
    (maximumf
      (Host.dotGeneral (DotDims.plain n 256 256) none
        (maximumf
          (Host.dotGeneral (DotDims.plain n 256 256) none
            (maximumf (Host.dotGeneral (DotDims.plain n 64 256) none enc W0)
              (broadcastInDim ⟨2, ![n, 256]⟩ ![] hb (constant ⟨0, ![]⟩ .f32 0x00000000#32)))
            W1)
          (broadcastInDim ⟨2, ![n, 256]⟩ ![] hb (constant ⟨0, ![]⟩ .f32 0x00000000#32)))
        W2)
      (broadcastInDim ⟨2, ![n, 256]⟩ ![] hb (constant ⟨0, ![]⟩ .f32 0x00000000#32)))
    W3

/-- Row `p` of the host's perceptron is `mlp` of row `p` of the encodings. -/
theorem mlpHost_apply {n : Nat} (hb : (⟨0, ![]⟩ : Shape).BroadcastsInDim ⟨2, ![n, 256]⟩ ![])
    (enc : FVec Ideal ⟨2, ![n, 64]⟩ .f32) (W0 : FVec Ideal ⟨2, ![64, 256]⟩ .f32)
    (W1 W2 : FVec Ideal ⟨2, ![256, 256]⟩ .f32) (W3 : FVec Ideal ⟨2, ![256, 1]⟩ .f32) (p : Fin n) (z : Fin 1) :
    mlpHost hb enc W0 W1 W2 W3 (ix2 p z)
      = mlp (fun j => enc (ix2 p j)) (fun i j => W0 (ix2 i j)) (fun i j => W1 (ix2 i j)) (fun i j => W2 (ix2 i j))
          (fun i j => W3 (ix2 i j)) := by
  obtain rfl : z = 0 := Subsingleton.elim _ _
  unfold mlpHost mlp dense relu
  simp only [dotGeneral_plain_apply, maximumf_apply, bcast_scalar (α := EReal), constant_apply]

variable {α : Type}

/-- Eight arrays of 8 columns side by side: column `l * 8 + f` of the whole is column `f` of the `l`-th. -/
theorem concat8_apply {n : Nat} (x0 x1 x2 x3 x4 x5 x6 x7 : (⟨2, ![n, 8]⟩ : Shape).Idx → α)
    (h : Shape.Concatenates (([⟨⟨2, ![n, 8]⟩, x0⟩, ⟨⟨2, ![n, 8]⟩, x1⟩, ⟨⟨2, ![n, 8]⟩, x2⟩, ⟨⟨2, ![n, 8]⟩, x3⟩,
      ⟨⟨2, ![n, 8]⟩, x4⟩, ⟨⟨2, ![n, 8]⟩, x5⟩, ⟨⟨2, ![n, 8]⟩, x6⟩, ⟨⟨2, ![n, 8]⟩, x7⟩] :
        List ((s : Shape) × (s.Idx → α))).map (·.1)) ⟨2, ![n, 64]⟩ 1)
    (p : Fin n) (l f : Fin 8) (j : Fin 64) (hj : j.val = l.val * 8 + f.val) :
    concatenate (⟨2, ![n, 64]⟩ : Shape) 1 [⟨⟨2, ![n, 8]⟩, x0⟩, ⟨⟨2, ![n, 8]⟩, x1⟩, ⟨⟨2, ![n, 8]⟩, x2⟩, ⟨⟨2, ![n, 8]⟩, x3⟩,
      ⟨⟨2, ![n, 8]⟩, x4⟩, ⟨⟨2, ![n, 8]⟩, x5⟩, ⟨⟨2, ![n, 8]⟩, x6⟩, ⟨⟨2, ![n, 8]⟩, x7⟩] h (ix2 p j)
      = (![x0, x1, x2, x3, x4, x5, x6, x7] l) (ix2 p f) := by
  have hf := f.isLt
  match l, hj with
  | ⟨0, _⟩, hj =>
    exact concatenate_apply_piece 1 _ h _ 0 (by show 0 < 8; omega) _ x0 rfl rfl 0 (by first | rfl | simp) (ix2 p f)
      (fun b hb => by
        obtain rfl | rfl := two b
        · rfl
        · exact absurd rfl hb)
      (by have hj' : j.val = 0 * 8 + f.val := hj; show 0 + f.val = j.val; omega)
  | ⟨1, _⟩, hj =>
    exact concatenate_apply_piece 1 _ h _ 1 (by show 1 < 8; omega) _ x1 rfl rfl 8 (by first | rfl | simp) (ix2 p f)
      (fun b hb => by
        obtain rfl | rfl := two b
        · rfl
        · exact absurd rfl hb)
      (by have hj' : j.val = 1 * 8 + f.val := hj; show 8 + f.val = j.val; omega)
  | ⟨2, _⟩, hj =>
    exact concatenate_apply_piece 1 _ h _ 2 (by show 2 < 8; omega) _ x2 rfl rfl 16 (by first | rfl | simp) (ix2 p f)
      (fun b hb => by
        obtain rfl | rfl := two b
        · rfl
        · exact absurd rfl hb)
      (by have hj' : j.val = 2 * 8 + f.val := hj; show 16 + f.val = j.val; omega)
  | ⟨3, _⟩, hj =>
    exact concatenate_apply_piece 1 _ h _ 3 (by show 3 < 8; omega) _ x3 rfl rfl 24 (by first | rfl | simp) (ix2 p f)
      (fun b hb => by
        obtain rfl | rfl := two b
        · rfl
        · exact absurd rfl hb)
      (by have hj' : j.val = 3 * 8 + f.val := hj; show 24 + f.val = j.val; omega)
  | ⟨4, _⟩, hj =>
    exact concatenate_apply_piece 1 _ h _ 4 (by show 4 < 8; omega) _ x4 rfl rfl 32 (by first | rfl | simp) (ix2 p f)
      (fun b hb => by
        obtain rfl | rfl := two b
        · rfl
        · exact absurd rfl hb)
      (by have hj' : j.val = 4 * 8 + f.val := hj; show 32 + f.val = j.val; omega)
  | ⟨5, _⟩, hj =>
    exact concatenate_apply_piece 1 _ h _ 5 (by show 5 < 8; omega) _ x5 rfl rfl 40 (by first | rfl | simp) (ix2 p f)
      (fun b hb => by
        obtain rfl | rfl := two b
        · rfl
        · exact absurd rfl hb)
      (by have hj' : j.val = 5 * 8 + f.val := hj; show 40 + f.val = j.val; omega)
  | ⟨6, _⟩, hj =>
    exact concatenate_apply_piece 1 _ h _ 6 (by show 6 < 8; omega) _ x6 rfl rfl 48 (by first | rfl | simp) (ix2 p f)
      (fun b hb => by
        obtain rfl | rfl := two b
        · rfl
        · exact absurd rfl hb)
      (by have hj' : j.val = 6 * 8 + f.val := hj; show 48 + f.val = j.val; omega)
  | ⟨7, _⟩, hj =>
    exact concatenate_apply_piece 1 _ h _ 7 (by show 7 < 8; omega) _ x7 rfl rfl 56 (by first | rfl | simp) (ix2 p f)
      (fun b hb => by
        obtain rfl | rfl := two b
        · rfl
        · exact absurd rfl hb)
      (by have hj' : j.val = 7 * 8 + f.val := hj; show 56 + f.val = j.val; omega)

end Cert.Field

end
-- ==== Proof.KBody.lean ====
/-
  What the kernel's body leaves in a block of the output, from the blocks it reads.

  The body is the eight resolutions' block encodings set side by side and passed through the perceptron; so
  row `p` of the output block is `mlp` of the row's 64 features, feature `l * 8 + f` being the separable
  interpolation, at resolution `l`, of feature `f` of that resolution's grid matrix at the point `p`.
-/
import proofs.«139053_j36180804501977_2_alg».proof.Proof.Gen.KernelIdeal.Frame
import proofs.«139053_j36180804501977_2_alg».proof.Proof.Level
import proofs.«139053_j36180804501977_2_alg».proof.Proof.Mlp

noncomputable section

open scoped BigOperators

namespace Cert.KernelIdeal.Body

open Idealize.ShloMosaic Idealize.ShloMosaic.ValueIdx Cert.KernelIdeal Cert.KernelIdeal.Gen Cert.Field

theorem hz : (![0, 0] : Fin 2 → Nat) = fun _ => 0 := funext fun a => by fin_cases a <;> rfl

/-- The eight block encodings side by side. -/
def encBlock (x0 : Vec Ideal S512x2 .f32) (x1 : Vec Ideal S17x136 .f32) (x2 : Vec Ideal S22x176 .f32) (x3 : Vec Ideal S27x216 .f32)
    (x4 : Vec Ideal S34x272 .f32) (x5 : Vec Ideal S42x336 .f32) (x6 : Vec Ideal S52x416 .f32) (x7 : Vec Ideal S66x528 .f32)
    (x8 : Vec Ideal S82x656 .f32) : FVec Ideal S512x64 .f32 :=
  concatenate S512x64 1
    [⟨S512x8, levelBlock (R := 17) (K := 136) 0x41700000#32 x0 x1 slices_S512x2_o0_0_S512x1 slices_S512x2_o0_1_S512x1 iota_S512x17_d1_w32
          broadcasts_S512x1_S512x17 shapeCasts_S512x1_S512x1 shapeCasts_S17x136_S17x136 shapeCasts_S512x136_S512x17x8
          shapeCasts_S512x17_S512x17x1 broadcasts_S512x17x1_S512x17x8 reduces_S512x17x8_S512x8⟩,
     ⟨S512x8, levelBlock (R := 22) (K := 176) 0x41994518#32 x0 x2 slices_S512x2_o0_0_S512x1 slices_S512x2_o0_1_S512x1 iota_S512x22_d1_w32
          broadcasts_S512x1_S512x22 shapeCasts_S512x1_S512x1 shapeCasts_S22x176_S22x176 shapeCasts_S512x176_S512x22x8
          shapeCasts_S512x22_S512x22x1 broadcasts_S512x22x1_S512x22x8 reduces_S512x22x8_S512x8⟩,
     ⟨S512x8, levelBlock (R := 27) (K := 216) 0x41C32FF6#32 x0 x3 slices_S512x2_o0_0_S512x1 slices_S512x2_o0_1_S512x1 iota_S512x27_d1_w32
          broadcasts_S512x1_S512x27 shapeCasts_S512x1_S512x1 shapeCasts_S27x216_S27x216 shapeCasts_S512x216_S512x27x8
          shapeCasts_S512x27_S512x27x1 broadcasts_S512x27x1_S512x27x8 reduces_S512x27x8_S512x8⟩,
     ⟨S512x8, levelBlock (R := 34) (K := 272) 0x41F80001#32 x0 x4 slices_S512x2_o0_0_S512x1 slices_S512x2_o0_1_S512x1 iota_S512x34_d1_w32
          broadcasts_S512x1_S512x34 shapeCasts_S512x1_S512x1 shapeCasts_S34x272_S34x272 shapeCasts_S512x272_S512x34x8
          shapeCasts_S512x34_S512x34x1 broadcasts_S512x34x1_S512x34x8 reduces_S512x34x8_S512x8⟩,
     ⟨S512x8, levelBlock (R := 42) (K := 336) 0x421D4519#32 x0 x5 slices_S512x2_o0_0_S512x1 slices_S512x2_o0_1_S512x1 iota_S512x42_d1_w32
          broadcasts_S512x1_S512x42 shapeCasts_S512x1_S512x1 shapeCasts_S42x336_S42x336 shapeCasts_S512x336_S512x42x8
          shapeCasts_S512x42_S512x42x1 broadcasts_S512x42x1_S512x42x8 reduces_S512x42x8_S512x8⟩,
     ⟨S512x8, levelBlock (R := 52) (K := 416) 0x42472FF6#32 x0 x6 slices_S512x2_o0_0_S512x1 slices_S512x2_o0_1_S512x1 iota_S512x52_d1_w32
          broadcasts_S512x1_S512x52 shapeCasts_S512x1_S512x1 shapeCasts_S52x416_S52x416 shapeCasts_S512x416_S512x52x8
          shapeCasts_S512x52_S512x52x1 broadcasts_S512x52x1_S512x52x8 reduces_S512x52x8_S512x8⟩,
     ⟨S512x8, levelBlock (R := 66) (K := 528) 0x427C0002#32 x0 x7 slices_S512x2_o0_0_S512x1 slices_S512x2_o0_1_S512x1 iota_S512x66_d1_w32
          broadcasts_S512x1_S512x66 shapeCasts_S512x1_S512x1 shapeCasts_S66x528_S66x528 shapeCasts_S512x528_S512x66x8
          shapeCasts_S512x66_S512x66x1 broadcasts_S512x66x1_S512x66x8 reduces_S512x66x8_S512x8⟩,
     ⟨S512x8, levelBlock (R := 82) (K := 656) 0x429F4519#32 x0 x8 slices_S512x2_o0_0_S512x1 slices_S512x2_o0_1_S512x1 iota_S512x82_d1_w32
          broadcasts_S512x1_S512x82 shapeCasts_S512x1_S512x1 shapeCasts_S82x656_S82x656 shapeCasts_S512x656_S512x82x8
          shapeCasts_S512x82_S512x82x1 broadcasts_S512x82x1_S512x82x8 reduces_S512x82x8_S512x8⟩]
    concatenates_S512x8_S512x8_S512x8_S512x8_S512x8_S512x8_S512x8_S512x8_S512x64_d1

/-- The body's output block is the perceptron of the eight encodings side by side. -/
theorem out_eq (x0 : Vec Ideal S512x2 .f32) (x1 : Vec Ideal S17x136 .f32) (x2 : Vec Ideal S22x176 .f32) (x3 : Vec Ideal S27x216 .f32)
    (x4 : Vec Ideal S34x272 .f32) (x5 : Vec Ideal S42x336 .f32) (x6 : Vec Ideal S52x416 .f32) (x7 : Vec Ideal S66x528 .f32)
    (x8 : Vec Ideal S82x656 .f32) (x9 : Vec Ideal S64x256 .f32) (x10 : Vec Ideal S256x256 .f32) (x11 : Vec Ideal S256x256 .f32)
    (x12 : Vec Ideal S256x1 .f32) :
    out0_13 x0 x1 x2 x3 x4 x5 x6 x7 x8 x9 x10 x11 x12 = mlpRows (n := 512) (encBlock x0 x1 x2 x3 x4 x5 x6 x7 x8) x9 x10 x11 x12 := by
  unfold out0_13
  rw [View.canon_unit_zero hz]
  simp only [View.ld_unit_zero (S := S512x2) hz, View.ld_unit_zero (S := S17x136) hz, View.ld_unit_zero (S := S22x176) hz,
    View.ld_unit_zero (S := S27x216) hz, View.ld_unit_zero (S := S34x272) hz, View.ld_unit_zero (S := S42x336) hz,
    View.ld_unit_zero (S := S52x416) hz, View.ld_unit_zero (S := S66x528) hz, View.ld_unit_zero (S := S82x656) hz,
    View.ld_unit_zero (S := S64x256) hz, View.ld_unit_zero (S := S256x256) hz, View.ld_unit_zero (S := S256x1) hz]
  set_option maxHeartbeats 2000000 in
  rfl

/-- Row `p` of the body's output block: `mlp` of the row's 64 features, feature `l * 8 + f` the separable interpolation
    at resolution `l` of feature `f` of that resolution's grid matrix, at the point in row `p` of the point block. -/
theorem body_row (x0 : Vec Ideal S512x2 .f32) (x1 : Vec Ideal S17x136 .f32) (x2 : Vec Ideal S22x176 .f32) (x3 : Vec Ideal S27x216 .f32)
    (x4 : Vec Ideal S34x272 .f32) (x5 : Vec Ideal S42x336 .f32) (x6 : Vec Ideal S52x416 .f32) (x7 : Vec Ideal S66x528 .f32)
    (x8 : Vec Ideal S82x656 .f32) (x9 : Vec Ideal S64x256 .f32) (x10 : Vec Ideal S256x256 .f32) (x11 : Vec Ideal S256x256 .f32)
    (x12 : Vec Ideal S256x1 .f32) (p : Fin 512) (z : Fin 1) :
    out0_13 x0 x1 x2 x3 x4 x5 x6 x7 x8 x9 x10 x11 x12 (ix2 p z)
      = mlp (fun j : Fin 64 => (![fun f : Fin 8 => tent 17 0x41700000#32 (x0 (ix2 p (0 : Fin 2))) (x0 (ix2 p (1 : Fin 2)))
              (fun a b => x1 (ix2 a ⟨b.val * 8 + f.val, by have := b.isLt; have := f.isLt; omega⟩)),
            fun f : Fin 8 => tent 22 0x41994518#32 (x0 (ix2 p (0 : Fin 2))) (x0 (ix2 p (1 : Fin 2)))
              (fun a b => x2 (ix2 a ⟨b.val * 8 + f.val, by have := b.isLt; have := f.isLt; omega⟩)),
            fun f : Fin 8 => tent 27 0x41C32FF6#32 (x0 (ix2 p (0 : Fin 2))) (x0 (ix2 p (1 : Fin 2)))
              (fun a b => x3 (ix2 a ⟨b.val * 8 + f.val, by have := b.isLt; have := f.isLt; omega⟩)),
            fun f : Fin 8 => tent 34 0x41F80001#32 (x0 (ix2 p (0 : Fin 2))) (x0 (ix2 p (1 : Fin 2)))
              (fun a b => x4 (ix2 a ⟨b.val * 8 + f.val, by have := b.isLt; have := f.isLt; omega⟩)),
            fun f : Fin 8 => tent 42 0x421D4519#32 (x0 (ix2 p (0 : Fin 2))) (x0 (ix2 p (1 : Fin 2)))
              (fun a b => x5 (ix2 a ⟨b.val * 8 + f.val, by have := b.isLt; have := f.isLt; omega⟩)),
            fun f : Fin 8 => tent 52 0x42472FF6#32 (x0 (ix2 p (0 : Fin 2))) (x0 (ix2 p (1 : Fin 2)))
              (fun a b => x6 (ix2 a ⟨b.val * 8 + f.val, by have := b.isLt; have := f.isLt; omega⟩)),
            fun f : Fin 8 => tent 66 0x427C0002#32 (x0 (ix2 p (0 : Fin 2))) (x0 (ix2 p (1 : Fin 2)))
              (fun a b => x7 (ix2 a ⟨b.val * 8 + f.val, by have := b.isLt; have := f.isLt; omega⟩)),
            fun f : Fin 8 => tent 82 0x429F4519#32 (x0 (ix2 p (0 : Fin 2))) (x0 (ix2 p (1 : Fin 2)))
              (fun a b => x8 (ix2 a ⟨b.val * 8 + f.val, by have := b.isLt; have := f.isLt; omega⟩))] :
              Fin 8 → Fin 8 → EReal) ⟨j.val / 8, by omega⟩ ⟨j.val % 8, by omega⟩)
          (fun i j => x9 (ix2 i j)) (fun i j => x10 (ix2 i j)) (fun i j => x11 (ix2 i j)) (fun i j => x12 (ix2 i j)) := by
  rw [out_eq, mlpRows_apply]
  congr 1
  funext j
  unfold encBlock
  rw [concat8_apply _ _ _ _ _ _ _ _ _ p ⟨j.val / 8, by omega⟩ ⟨j.val % 8, by omega⟩ j (by show j.val = j.val / 8 * 8 + j.val % 8; omega)]
  generalize (⟨j.val / 8, by omega⟩ : Fin 8) = l
  generalize (⟨j.val % 8, by omega⟩ : Fin 8) = f
  fin_cases l
  · exact levelBlock_apply (R := 17) (K := 136) rfl _ x0 x1 _ _ _ _ _ _ _ _ _ _ p f
  · exact levelBlock_apply (R := 22) (K := 176) rfl _ x0 x2 _ _ _ _ _ _ _ _ _ _ p f
  · exact levelBlock_apply (R := 27) (K := 216) rfl _ x0 x3 _ _ _ _ _ _ _ _ _ _ p f
  · exact levelBlock_apply (R := 34) (K := 272) rfl _ x0 x4 _ _ _ _ _ _ _ _ _ _ p f
  · exact levelBlock_apply (R := 42) (K := 336) rfl _ x0 x5 _ _ _ _ _ _ _ _ _ _ p f
  · exact levelBlock_apply (R := 52) (K := 416) rfl _ x0 x6 _ _ _ _ _ _ _ _ _ _ p f
  · exact levelBlock_apply (R := 66) (K := 528) rfl _ x0 x7 _ _ _ _ _ _ _ _ _ _ p f
  · exact levelBlock_apply (R := 82) (K := 656) rfl _ x0 x8 _ _ _ _ _ _ _ _ _ _ p f

end Cert.KernelIdeal.Body

end
-- ==== Proof.KValue.lean ====
/-
  The kernel's output array as one function of the arrays it reads.

  Grid point `t` writes rows `512 t … 512 t + 511` of the output; row `p` of what it writes is computed from row `p` of
  the point block it stages — rows `512 t + p` of the point array — and from the whole grid and weight matrices. So
  the blocks tile the output and row `n` of the array after the run is `kOut` at `n`: `mlp` of the separable
  interpolations at point `n`.
-/
import proofs.«139053_j36180804501977_2_alg».proof.Proof.Gen.KernelIdeal.Value
import proofs.«139053_j36180804501977_2_alg».proof.Proof.KBody

noncomputable section

namespace Cert.KernelIdeal.KValue

open Idealize.ShloMosaic Idealize.ShloMosaic.TcCoe Idealize.ShloMosaic.ValueIdx Idealize.SL.Sem Cert.KernelIdeal Cert.KernelIdeal.Gen Cert.Field
open Idealize.ShloMosaic.Pipeline (Dat)

variable (m : (ℓ : Loc nD τ sig) → Buf (Elt Ideal) ℓ) (ρ : Dev nD → PrngReg)

/-- The output array as a function of the point array, the eight grid matrices and the four weight matrices. -/
def kOut (x : S262144x2.Idx → EReal) (M0 : S17x136.Idx → EReal) (M1 : S22x176.Idx → EReal) (M2 : S27x216.Idx → EReal) (M3 : S34x272.Idx → EReal) (M4 : S42x336.Idx → EReal) (M5 : S52x416.Idx → EReal) (M6 : S66x528.Idx → EReal) (M7 : S82x656.Idx → EReal)
    (W0 : S64x256.Idx → EReal) (W1 W2 : S256x256.Idx → EReal) (W3 : S256x1.Idx → EReal) : S262144x1.Idx → EReal :=
  fun i => mlp (fun j : Fin 64 => (![fun f : Fin 8 => tent 17 0x41700000#32 (x (ix2 (i 0) (0 : Fin 2))) (x (ix2 (i 0) (1 : Fin 2)))
          (fun a b => M0 (ix2 a ⟨b.val * 8 + f.val, by have := b.isLt; have := f.isLt; omega⟩)),
        fun f : Fin 8 => tent 22 0x41994518#32 (x (ix2 (i 0) (0 : Fin 2))) (x (ix2 (i 0) (1 : Fin 2)))
          (fun a b => M1 (ix2 a ⟨b.val * 8 + f.val, by have := b.isLt; have := f.isLt; omega⟩)),
        fun f : Fin 8 => tent 27 0x41C32FF6#32 (x (ix2 (i 0) (0 : Fin 2))) (x (ix2 (i 0) (1 : Fin 2)))
          (fun a b => M2 (ix2 a ⟨b.val * 8 + f.val, by have := b.isLt; have := f.isLt; omega⟩)),
        fun f : Fin 8 => tent 34 0x41F80001#32 (x (ix2 (i 0) (0 : Fin 2))) (x (ix2 (i 0) (1 : Fin 2)))
          (fun a b => M3 (ix2 a ⟨b.val * 8 + f.val, by have := b.isLt; have := f.isLt; omega⟩)),
        fun f : Fin 8 => tent 42 0x421D4519#32 (x (ix2 (i 0) (0 : Fin 2))) (x (ix2 (i 0) (1 : Fin 2)))
          (fun a b => M4 (ix2 a ⟨b.val * 8 + f.val, by have := b.isLt; have := f.isLt; omega⟩)),
        fun f : Fin 8 => tent 52 0x42472FF6#32 (x (ix2 (i 0) (0 : Fin 2))) (x (ix2 (i 0) (1 : Fin 2)))
          (fun a b => M5 (ix2 a ⟨b.val * 8 + f.val, by have := b.isLt; have := f.isLt; omega⟩)),
        fun f : Fin 8 => tent 66 0x427C0002#32 (x (ix2 (i 0) (0 : Fin 2))) (x (ix2 (i 0) (1 : Fin 2)))
          (fun a b => M6 (ix2 a ⟨b.val * 8 + f.val, by have := b.isLt; have := f.isLt; omega⟩)),
        fun f : Fin 8 => tent 82 0x429F4519#32 (x (ix2 (i 0) (0 : Fin 2))) (x (ix2 (i 0) (1 : Fin 2)))
          (fun a b => M7 (ix2 a ⟨b.val * 8 + f.val, by have := b.isLt; have := f.isLt; omega⟩))] :
          Fin 8 → Fin 8 → EReal) ⟨j.val / 8, by omega⟩ ⟨j.val % 8, by omega⟩)
      (fun a b => W0 (ix2 a b)) (fun a b => W1 (ix2 a b)) (fun a b => W2 (ix2 a b)) (fun a b => W3 (ix2 a b))

/-! ## The windows' index maps over the grid -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) = t.val ∧ win0_13.index t (1 : Fin 2) = 0 :=
  (by decide +kernel : ∀ t : Fin grid0.N, _)

/-! ## The blocks the body reads -/

/-- Row `p` of point `t`'s block of an array of 262144 rows and 2 columns is row `512 t + p` of the array. -/
theorem read0 (t : Fin cfg0.N) (A : S262144x2.Idx → EReal) (p : Fin 512) (q : Fin 2) (k : Fin 262144)
    (hk : k.val = t.val * 512 + p.val) :
    (((cfg0.win 0).blk t).view.read (Elt Ideal) A : S512x2.Idx → EReal) (ix2 p q) = A (ix2 k q) := by
  obtain ⟨e0, e1⟩ := idx0 t
  rw [View.read_apply]
  refine congrArg A (funext fun a => Fin.ext ?_)
  match a with
  | ⟨0, _⟩ => show win0_0.index t (0 : Fin 2) * 512 + 1 * p.val = k.val; rw [e0, hk]; omega
  | ⟨1, _⟩ => show win0_0.index t (1 : Fin 2) * 2 + 1 * q.val = q.val; rw [e1]; omega

/-- Window 1's block at any point is its whole array. -/
theorem read1 (t : Fin cfg0.N) (A : S17x136.Idx → EReal) :
    (((cfg0.win 1).blk t).view.read (Elt Ideal) A : S17x136.Idx → EReal) = A := by
  obtain ⟨e0, e1⟩ := idx1 t
  funext y
  rw [View.read_apply]
  refine congrArg A (funext fun a => Fin.ext ?_)
  match a with
  | ⟨0, _⟩ => show win0_1.index t (0 : Fin 2) * 17 + 1 * (y 0).val = (y 0).val; rw [e0]; omega
  | ⟨1, _⟩ => show win0_1.index t (1 : Fin 2) * 136 + 1 * (y 1).val = (y 1).val; rw [e1]; omega

/-- Window 2's block at any point is its whole array. -/
theorem read2 (t : Fin cfg0.N) (A : S22x176.Idx → EReal) :
    (((cfg0.win 2).blk t).view.read (Elt Ideal) A : S22x176.Idx → EReal) = A := by
  obtain ⟨e0, e1⟩ := idx2 t
  funext y
  rw [View.read_apply]
  refine congrArg A (funext fun a => Fin.ext ?_)
  match a with
  | ⟨0, _⟩ => show win0_2.index t (0 : Fin 2) * 22 + 1 * (y 0).val = (y 0).val; rw [e0]; omega
  | ⟨1, _⟩ => show win0_2.index t (1 : Fin 2) * 176 + 1 * (y 1).val = (y 1).val; rw [e1]; omega

/-- Window 3's block at any point is its whole array. -/
theorem read3 (t : Fin cfg0.N) (A : S27x216.Idx → EReal) :
    (((cfg0.win 3).blk t).view.read (Elt Ideal) A : S27x216.Idx → EReal) = A := by
  obtain ⟨e0, e1⟩ := idx3 t
  funext y
  rw [View.read_apply]
  refine congrArg A (funext fun a => Fin.ext ?_)
  match a with
  | ⟨0, _⟩ => show win0_3.index t (0 : Fin 2) * 27 + 1 * (y 0).val = (y 0).val; rw [e0]; omega
  | ⟨1, _⟩ => show win0_3.index t (1 : Fin 2) * 216 + 1 * (y 1).val = (y 1).val; rw [e1]; omega

/-- Window 4's block at any point is its whole array. -/
theorem read4 (t : Fin cfg0.N) (A : S34x272.Idx → EReal) :
    (((cfg0.win 4).blk t).view.read (Elt Ideal) A : S34x272.Idx → EReal) = A := by
  obtain ⟨e0, e1⟩ := idx4 t
  funext y
  rw [View.read_apply]
  refine congrArg A (funext fun a => Fin.ext ?_)
  match a with
  | ⟨0, _⟩ => show win0_4.index t (0 : Fin 2) * 34 + 1 * (y 0).val = (y 0).val; rw [e0]; omega
  | ⟨1, _⟩ => show win0_4.index t (1 : Fin 2) * 272 + 1 * (y 1).val = (y 1).val; rw [e1]; omega

/-- Window 5's block at any point is its whole array. -/
theorem read5 (t : Fin cfg0.N) (A : S42x336.Idx → EReal) :
    (((cfg0.win 5).blk t).view.read (Elt Ideal) A : S42x336.Idx → EReal) = A := by
  obtain ⟨e0, e1⟩ := idx5 t
  funext y
  rw [View.read_apply]
  refine congrArg A (funext fun a => Fin.ext ?_)
  match a with
  | ⟨0, _⟩ => show win0_5.index t (0 : Fin 2) * 42 + 1 * (y 0).val = (y 0).val; rw [e0]; omega
  | ⟨1, _⟩ => show win0_5.index t (1 : Fin 2) * 336 + 1 * (y 1).val = (y 1).val; rw [e1]; omega

/-- Window 6's block at any point is its whole array. -/
theorem read6 (t : Fin cfg0.N) (A : S52x416.Idx → EReal) :
    (((cfg0.win 6).blk t).view.read (Elt Ideal) A : S52x416.Idx → EReal) = A := by
  obtain ⟨e0, e1⟩ := idx6 t
  funext y
  rw [View.read_apply]
  refine congrArg A (funext fun a => Fin.ext ?_)
  match a with
  | ⟨0, _⟩ => show win0_6.index t (0 : Fin 2) * 52 + 1 * (y 0).val = (y 0).val; rw [e0]; omega
  | ⟨1, _⟩ => show win0_6.index t (1 : Fin 2) * 416 + 1 * (y 1).val = (y 1).val; rw [e1]; omega

/-- Window 7's block at any point is its whole array. -/
theorem read7 (t : Fin cfg0.N) (A : S66x528.Idx → EReal) :
    (((cfg0.win 7).blk t).view.read (Elt Ideal) A : S66x528.Idx → EReal) = A := by
  obtain ⟨e0, e1⟩ := idx7 t
  funext y
  rw [View.read_apply]
  refine congrArg A (funext fun a => Fin.ext ?_)
  match a with
  | ⟨0, _⟩ => show win0_7.index t (0 : Fin 2) * 66 + 1 * (y 0).val = (y 0).val; rw [e0]; omega
  | ⟨1, _⟩ => show win0_7.index t (1 : Fin 2) * 528 + 1 * (y 1).val = (y 1).val; rw [e1]; omega

/-- Window 8's block at any point is its whole array. -/
theorem read8 (t : Fin cfg0.N) (A : S82x656.Idx → EReal) :
    (((cfg0.win 8).blk t).view.read (Elt Ideal) A : S82x656.Idx → EReal) = A := by
  obtain ⟨e0, e1⟩ := idx8 t
  funext y
  rw [View.read_apply]
  refine congrArg A (funext fun a => Fin.ext ?_)
  match a with
  | ⟨0, _⟩ => show win0_8.index t (0 : Fin 2) * 82 + 1 * (y 0).val = (y 0).val; rw [e0]; omega
  | ⟨1, _⟩ => show win0_8.index t (1 : Fin 2) * 656 + 1 * (y 1).val = (y 1).val; rw [e1]; omega

/-- Window 9's block at any point is its whole array. -/
theorem read9 (t : Fin cfg0.N) (A : S64x256.Idx → EReal) :
    (((cfg0.win 9).blk t).view.read (Elt Ideal) A : S64x256.Idx → EReal) = A := by
  obtain ⟨e0, e1⟩ := idx9 t
  funext y
  rw [View.read_apply]
  refine congrArg A (funext fun a => Fin.ext ?_)
  match a with
  | ⟨0, _⟩ => show win0_9.index t (0 : Fin 2) * 64 + 1 * (y 0).val = (y 0).val; rw [e0]; omega
  | ⟨1, _⟩ => show win0_9.index t (1 : Fin 2) * 256 + 1 * (y 1).val = (y 1).val; rw [e1]; omega

/-- Window 10's block at any point is its whole array. -/
theorem read10 (t : Fin cfg0.N) (A : S256x256.Idx → EReal) :
    (((cfg0.win 10).blk t).view.read (Elt Ideal) A : S256x256.Idx → EReal) = A := by
  obtain ⟨e0, e1⟩ := idx10 t
  funext y
  rw [View.read_apply]
  refine congrArg A (funext fun a => Fin.ext ?_)
  match a with
  | ⟨0, _⟩ => show win0_10.index t (0 : Fin 2) * 256 + 1 * (y 0).val = (y 0).val; rw [e0]; omega
  | ⟨1, _⟩ => show win0_10.index t (1 : Fin 2) * 256 + 1 * (y 1).val = (y 1).val; rw [e1]; omega

/-- Window 11's block at any point is its whole array. -/
theorem read11 (t : Fin cfg0.N) (A : S256x256.Idx → EReal) :
    (((cfg0.win 11).blk t).view.read (Elt Ideal) A : S256x256.Idx → EReal) = A := by
  obtain ⟨e0, e1⟩ := idx11 t
  funext y
  rw [View.read_apply]
  refine congrArg A (funext fun a => Fin.ext ?_)
  match a with
  | ⟨0, _⟩ => show win0_11.index t (0 : Fin 2) * 256 + 1 * (y 0).val = (y 0).val; rw [e0]; omega
  | ⟨1, _⟩ => show win0_11.index t (1 : Fin 2) * 256 + 1 * (y 1).val = (y 1).val; rw [e1]; omega

/-- Window 12's block at any point is its whole array. -/
theorem read12 (t : Fin cfg0.N) (A : S256x1.Idx → EReal) :
    (((cfg0.win 12).blk t).view.read (Elt Ideal) A : S256x1.Idx → EReal) = A := by
  obtain ⟨e0, e1⟩ := idx12 t
  funext y
  rw [View.read_apply]
  refine congrArg A (funext fun a => Fin.ext ?_)
  match a with
  | ⟨0, _⟩ => show win0_12.index t (0 : Fin 2) * 256 + 1 * (y 0).val = (y 0).val; rw [e0]; omega
  | ⟨1, _⟩ => show win0_12.index t (1 : Fin 2) * 1 + 1 * (y 1).val = (y 1).val; rw [e1]; omega

theorem blk0 (c : Dev nD) (t : Fin cfg0.N) (p : Fin 512) (q : Fin 2) (k : Fin 262144) (hk : k.val = t.val * 512 + p.val) :
    (iblk m c 0 t : S512x2.Idx → EReal) (ix2 p q) = (V m c main_arg0 : S262144x2.Idx → EReal) (ix2 k q) :=
  read0 t _ p q k hk

theorem blk1 (c : Dev nD) (t : Fin cfg0.N) : (iblk m c 1 t : S17x136.Idx → EReal) = (V m c main_v20 : S17x136.Idx → EReal) :=
  read1 t _
theorem blk2 (c : Dev nD) (t : Fin cfg0.N) : (iblk m c 2 t : S22x176.Idx → EReal) = (V m c main_v41 : S22x176.Idx → EReal) :=
  read2 t _
theorem blk3 (c : Dev nD) (t : Fin cfg0.N) : (iblk m c 3 t : S27x216.Idx → EReal) = (V m c main_v62 : S27x216.Idx → EReal) :=
  read3 t _
theorem blk4 (c : Dev nD) (t : Fin cfg0.N) : (iblk m c 4 t : S34x272.Idx → EReal) = (V m c main_v83 : S34x272.Idx → EReal) :=
  read4 t _
theorem blk5 (c : Dev nD) (t : Fin cfg0.N) : (iblk m c 5 t : S42x336.Idx → EReal) = (V m c main_v104 : S42x336.Idx → EReal) :=
  read5 t _
theorem blk6 (c : Dev nD) (t : Fin cfg0.N) : (iblk m c 6 t : S52x416.Idx → EReal) = (V m c main_v125 : S52x416.Idx → EReal) :=
  read6 t _
theorem blk7 (c : Dev nD) (t : Fin cfg0.N) : (iblk m c 7 t : S66x528.Idx → EReal) = (V m c main_v146 : S66x528.Idx → EReal) :=
  read7 t _
theorem blk8 (c : Dev nD) (t : Fin cfg0.N) : (iblk m c 8 t : S82x656.Idx → EReal) = (V m c main_v167 : S82x656.Idx → EReal) :=
  read8 t _
theorem blk9 (c : Dev nD) (t : Fin cfg0.N) : (iblk m c 9 t : S64x256.Idx → EReal) = (V m c main_arg2 : S64x256.Idx → EReal) :=
  read9 t _
theorem blk10 (c : Dev nD) (t : Fin cfg0.N) : (iblk m c 10 t : S256x256.Idx → EReal) = (V m c main_arg3 : S256x256.Idx → EReal) :=
  read10 t _
theorem blk11 (c : Dev nD) (t : Fin cfg0.N) : (iblk m c 11 t : S256x256.Idx → EReal) = (V m c main_arg4 : S256x256.Idx → EReal) :=
  read11 t _
theorem blk12 (c : Dev nD) (t : Fin cfg0.N) : (iblk m c 12 t : S256x1.Idx → EReal) = (V m c main_arg5 : S256x1.Idx → EReal) :=
  read12 t _

/-! ## What a point writes back, the cover, the array after the run -/

/-- The output array, from the arrays as the region finds them. -/
abbrev G (c : Dev nD) : S262144x1.Idx → EReal :=
  kOut (V m c main_arg0) (V m c main_v20) (V m c main_v41) (V m c main_v62) (V m c main_v83) (V m c main_v104) (V m c main_v125) (V m c main_v146) (V m c main_v167) (V m c main_arg2) (V m c main_arg3) (V m c main_arg4) (V m c main_arg5)

/-- Point `t` writes back block `t` of `G`. -/
theorem flushed_eq (c : Dev nD) (t : Fin cfg0.N) :
    (dats m 0 c).flushed 13 t = ((cfg0.win 13).blk t).view.read (Elt Ideal) (G m c) := by
  have hN : cfg0.N = 512 := N_0
  obtain ⟨e0, e1⟩ := idx13 t
  show (cfg0.win 13).cut (grid0.coords t) ((dats m 0 c).after 13 t) = _
  rw [after0_13]
  funext j
  obtain ⟨p, z, rfl⟩ : ∃ (p : Fin 512) (z : Fin 1), j = ix2 p z := ⟨j 0, j 1, eq_ix2 j⟩
  have ht := t.isLt
  have hemb : ((cfg0.win 13).blk t).view.emb (ix2 p z) = (ix2 (⟨t.val * 512 + p.val, by omega⟩ : Fin 262144) (0 : Fin 1) : S262144x1.Idx) := by
    funext a
    apply Fin.ext
    match a with
    | ⟨0, _⟩ => show win0_13.index t (0 : Fin 2) * 512 + 1 * p.val = t.val * 512 + p.val; rw [e0]; omega
    | ⟨1, _⟩ => show win0_13.index t (1 : Fin 2) * 1 + 1 * z.val = 0; rw [e1]; omega
  show out0_13 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (ix2 p z) = G m c (((cfg0.win 13).blk t).view.emb (ix2 p z))
  rw [hemb, Body.body_row, blk1, blk2, blk3, blk4, blk5, blk6, blk7, blk8, blk9, blk10, blk11, blk12,
    blk0 m c t p 0 ⟨t.val * 512 + p.val, by omega⟩ rfl, blk0 m c t p 1 ⟨t.val * 512 + p.val, by omega⟩ rfl]
  rfl

/-- An index of the output array is in point `t`'s block iff its row is in the block's rows. -/
theorem mem_blk (t : Fin cfg0.N) (i : S262144x1.Idx) :
    i ∈ ((cfg0.win 13).blk t).view.set ↔ ∀ a : Fin 2, win0_13.index t a * S512x1.size a ≤ (i a).val ∧ (i a).val < win0_13.index t a * S512x1.size a + S512x1.size a := by
  show i ∈ ((View.whole main_v168).slice (win0_13.rect t)).set ↔ _
  rw [View.set_slice_whole, Rect.mem_set_unit]
  exact Iff.rfl

/-- The array after the run is `G`: the blocks tile it. -/
theorem final (c : Dev nD) : (dats m 0 c).arrAt 13 cfg0.N = G m c :=
  (dats m 0 c).arrAt_eq_of_cover 13 (G m c) (fun t _ => flushed_eq m c t) fun i => by
    have hN : cfg0.N = 512 := N_0
    have hi0 : (i 0).val < 262144 := (i 0).isLt
    have hi1 : (i 1).val < 1 := (i 1).isLt
    refine ⟨⟨(i 0).val / 512, by omega⟩, flush0_13 _, ?_⟩
    rw [mem_blk]
    obtain ⟨e0, e1⟩ := idx13 ⟨(i 0).val / 512, by omega⟩
    intro a
    match a with
    | ⟨0, _⟩ => show win0_13.index _ (0 : Fin 2) * 512 ≤ (i 0).val ∧ (i 0).val < win0_13.index _ (0 : Fin 2) * 512 + 512; rw [e0]; show (i 0).val / 512 * 512 ≤ _ ∧ _ < (i 0).val / 512 * 512 + 512; omega
    | ⟨1, _⟩ => show win0_13.index _ (1 : Fin 2) * 1 ≤ (i 1).val ∧ (i 1).val < win0_13.index _ (1 : Fin 2) * 1 + 1; rw [e1]; omega

/-- The kernel's run: its result at `G`, its arguments unchanged. -/
theorem run : θ_run defs (onTc (τ := τ) (main (F := Ideal))) ⟨m, fun _ => 0, ρ⟩ fun r => ∀ c : Dev nD,
      r.2.mem ((c : Thread nD τ).loc main_v168) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.KValue

end
-- ==== Proof.Gather.lean ====
/-
  Reading one element of a gathered array.

  Two gathers occur. A table of 8192 rows of 8 features gathered at an `R × R` array of row numbers gives, at
  (b, a, f), feature `f` of the row whose number stands at (b, a) — the number read as a signed integer and clamped
  into the table. A stack of 8 such tables gathered at `N` pairs (table number, row number) gives, at (n, f),
  feature `f` of that row of that table, both numbers clamped likewise.
-/
import Idealize.ShloMosaic.PureOps.Ideal
import Idealize.ShloMosaic.Lib.ValueIdx

noncomputable section

namespace Cert.Field

open Idealize.ShloMosaic Idealize.ShloMosaic.ValueIdx

variable {α : Type}

/-- The dimension numbers of the gather of table rows at an `R × R` array of row numbers. -/
abbrev gridDims (R : Nat)
    (wf : GatherDims.WF ⟨2, ![8192, 8]⟩ ⟨3, ![R, R, 1]⟩ ⟨3, ![R, R, 8]⟩ [2] [0] [] [0] [] 2 ![1, 8]) :
    GatherDims ⟨2, ![8192, 8]⟩ ⟨3, ![R, R, 1]⟩ ⟨3, ![R, R, 8]⟩ where
  offsetDims := [2]
  collapsedSliceDims := [0]
  operandBatchingDims := []
  startIndicesBatchingDims := []
  startIndexMap := [0]
  indexVectorDim := 2
  sliceSizes := ![1, 8]
  wf := wf

/-- Entry (b, a, f) of the gathered grid is feature `f` of the table row numbered at (b, a). -/
theorem gather_grid_apply {R w : Nat}
    (wf : GatherDims.WF ⟨2, ![8192, 8]⟩ ⟨3, ![R, R, 1]⟩ ⟨3, ![R, R, 8]⟩ [2] [0] [] [0] [] 2 ![1, 8])
    (x : (⟨2, ![8192, 8]⟩ : Shape).Idx → α) (idx : IVec ⟨3, ![R, R, 1]⟩ w) (b a : Fin R) (f : Fin 8) :
    Host.gather (gridDims R wf) x idx (ix3 b a f)
      = x (ix2 ⟨min (idx (ix3 b a (0 : Fin 1))).toInt.toNat 8191, by omega⟩ f) := by
  unfold Host.gather
  congr 1
  funext c
  refine Fin.ext ?_
  show (gridDims R wf).start (ix3 b a f) idx c + (gridDims R wf).batchCoord (ix3 b a f) c
      + (gridDims R wf).offCoord (ix3 b a f) c = _
  rw [GatherDims.batchCoord_eq_zero _ _ _ List.not_mem_nil]
  obtain rfl | rfl : c = 0 ∨ c = 1 := by
    rcases c with ⟨_ | _ | n, h⟩
    · exact Or.inl rfl
    · exact Or.inr rfl
    · exact absurd h (by simp)
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (gridDims R wf).startIndexMap from List.mem_singleton.mpr rfl)]
    have hsi : (gridDims R wf).siIdx (ix3 b a f) ⟨List.idxOf (0 : Fin 2) (gridDims R wf).startIndexMap,
        List.idxOf_lt_length_iff.2 (List.mem_singleton.mpr rfl)⟩ = ix3 b a (0 : Fin 1) := by
      funext e; refine Fin.ext ?_
      match e with
      | ⟨0, _⟩ => rfl
      | ⟨1, _⟩ => rfl
      | ⟨2, _⟩ => rfl
    rw [hsi]
    rfl
  · unfold GatherDims.start
    rw [dif_neg (show ¬((1 : Fin 2) ∈ (gridDims R wf).startIndexMap) by simp)]
    unfold GatherDims.offCoord
    rw [dif_pos (show (1 : Fin 2) ∈ (gridDims R wf).sKept by simp [GatherDims.sKept, Shape.kept])]
    simp only [List.getElem_singleton, Nat.zero_add]
    rfl

/-- The dimension numbers of the gather of rows of a stack of 8 tables at `N` pairs (table, row). -/
abbrev stackDims (N : Nat)
    (wf : GatherDims.WF ⟨3, ![8, 8192, 8]⟩ ⟨2, ![N, 2]⟩ ⟨2, ![N, 8]⟩ [1] [0, 1] [] [0, 1] [] 1 ![1, 1, 8]) :
    GatherDims ⟨3, ![8, 8192, 8]⟩ ⟨2, ![N, 2]⟩ ⟨2, ![N, 8]⟩ where
  offsetDims := [1]
  collapsedSliceDims := [0, 1]
  operandBatchingDims := []
  startIndicesBatchingDims := []
  startIndexMap := [0, 1]
  indexVectorDim := 1
  sliceSizes := ![1, 1, 8]
  wf := wf

/-- Entry (n, f) of the gathered rows is feature `f` of the row and table numbered by pair `n`. -/
theorem gather_stack_apply {N w : Nat}
    (wf : GatherDims.WF ⟨3, ![8, 8192, 8]⟩ ⟨2, ![N, 2]⟩ ⟨2, ![N, 8]⟩ [1] [0, 1] [] [0, 1] [] 1 ![1, 1, 8])
    (x : (⟨3, ![8, 8192, 8]⟩ : Shape).Idx → α) (idx : IVec ⟨2, ![N, 2]⟩ w) (n : Fin N) (f : Fin 8) :
    Host.gather (stackDims N wf) x idx (ix2 n f)
      = x (ix3 ⟨min (idx (ix2 n (0 : Fin 2))).toInt.toNat 7, by omega⟩
            ⟨min (idx (ix2 n (1 : Fin 2))).toInt.toNat 8191, by omega⟩ f) := by
  unfold Host.gather
  congr 1
  funext c
  refine Fin.ext ?_
  show (stackDims N wf).start (ix2 n f) idx c + (stackDims N wf).batchCoord (ix2 n f) c
      + (stackDims N wf).offCoord (ix2 n f) c = _
  rw [GatherDims.batchCoord_eq_zero _ _ _ List.not_mem_nil]
  obtain rfl | rfl | rfl : c = 0 ∨ c = 1 ∨ c = 2 := by
    rcases c with ⟨_ | _ | _ | k, h⟩
    · exact Or.inl rfl
    · exact Or.inr (Or.inl rfl)
    · exact Or.inr (Or.inr rfl)
    · exact absurd h (by simp)
  · rw [GatherDims.offCoord_eq_zero _ _ _ (fun h => ((GatherDims.mem_sKept _ _).mp h).1 (by simp))]
    simp only [Nat.add_zero]
    unfold GatherDims.start
    rw [dif_pos (show (0 : Fin 3) ∈ (stackDims N wf).startIndexMap by simp)]
    have hsi : (stackDims N wf).siIdx (ix2 n f) ⟨List.idxOf (0 : Fin 3) (stackDims N wf).startIndexMap,
        List.idxOf_lt_length_iff.2 (by simp)⟩ = ix2 n (0 : Fin 2) := by
      funext e; refine Fin.ext ?_
      match e with
      | ⟨0, _⟩ => rfl
      | ⟨1, _⟩ => rfl
    rw [hsi]
    rfl
  · rw [GatherDims.offCoord_eq_zero _ _ _ (fun h => ((GatherDims.mem_sKept _ _).mp h).1 (by simp))]
    simp only [Nat.add_zero]
    unfold GatherDims.start
    rw [dif_pos (show (1 : Fin 3) ∈ (stackDims N wf).startIndexMap by simp)]
    have hsi : (stackDims N wf).siIdx (ix2 n f) ⟨List.idxOf (1 : Fin 3) (stackDims N wf).startIndexMap,
        List.idxOf_lt_length_iff.2 (by simp)⟩ = ix2 n (1 : Fin 2) := by
      funext e; refine Fin.ext ?_
      match e with
      | ⟨0, _⟩ => rfl
      | ⟨1, _⟩ => rfl
    rw [hsi]
    rfl
  · unfold GatherDims.start
    rw [dif_neg (show ¬((2 : Fin 3) ∈ (stackDims N wf).startIndexMap) by simp)]
    unfold GatherDims.offCoord
    rw [dif_pos (show (2 : Fin 3) ∈ (stackDims N wf).sKept by simp [GatherDims.sKept, Shape.kept])]
    simp only [List.getElem_singleton, Nat.zero_add]
    rfl

end Cert.Field

end
-- ==== Proof.Rem.lean ====
/-
  The remainder of an array of 32-bit integers by a scalar, with the sign of the scalar (a zero scalar read as one), as
  the operations on whole arrays compute it; entry by entry it is `jmod`.
-/
import proofs.«139053_j36180804501977_2_alg».proof.Proof.Spec
import proofs.«139053_j36180804501977_2_alg».proof.Proof.Layout

noncomputable section

namespace Cert.Field

open Idealize.ShloMosaic Idealize.ShloMosaic.ValueIdx

abbrev Sc : Shape := ⟨0, ![]⟩

/-- The remainder of an array of integers by a scalar, with the scalar's sign. -/
def remArr {s : Shape} (hb : Sc.BroadcastsInDim s ![]) (a : IVec s 32) (n : IVec Sc 32) : IVec s 32 :=
  select
    (andi
      (cmpi .ne
        (cmpi .slt (Host.remsi a (broadcastInDim s ![] hb (select (cmpi .eq (id n) (constantI Sc 32 0#32)) (constantI Sc 32 1#32) (id n))))
          (broadcastInDim s ![] hb (constantI Sc 32 0#32)))
        (broadcastInDim s ![] hb
          (cmpi .slt (select (cmpi .eq (id n) (constantI Sc 32 0#32)) (constantI Sc 32 1#32) (id n)) (constantI Sc 32 0#32))))
      (cmpi .ne (Host.remsi a (broadcastInDim s ![] hb (select (cmpi .eq (id n) (constantI Sc 32 0#32)) (constantI Sc 32 1#32) (id n))))
        (broadcastInDim s ![] hb (constantI Sc 32 0#32))))
    (addi (Host.remsi a (broadcastInDim s ![] hb (select (cmpi .eq (id n) (constantI Sc 32 0#32)) (constantI Sc 32 1#32) (id n))))
      (broadcastInDim s ![] hb (select (cmpi .eq (id n) (constantI Sc 32 0#32)) (constantI Sc 32 1#32) (id n))))
    (Host.remsi a (broadcastInDim s ![] hb (select (cmpi .eq (id n) (constantI Sc 32 0#32)) (constantI Sc 32 1#32) (id n))))

theorem remArr_apply {s : Shape} (hb : Sc.BroadcastsInDim s ![]) (a : IVec s 32) (n : IVec Sc 32) (i : s.Idx) : remArr hb a n i = jmod (a i) (n ix0) := by
  simp only [remArr, jmod, select_apply, cmpi_apply, andi_apply, addi_apply, remsi_apply, constantI_apply, bcast_scalar (α := BitVec 32), bcast_scalar (α := BitVec 1), bcast_scalar (α := EReal), id_eq]

end Cert.Field

end
-- ==== Proof.GridMat.lean ====
/-
  The grid matrix of one resolution, as the host operations before the kernel build it from the stack of tables:
  node (a, b) of the `R × R` grid is numbered `a + b · res` modulo the level's size, the table's rows are gathered at
  these numbers, the two grid axes are exchanged and a grid line's `R` groups of 8 features are run together into one
  row. Entry `b * 8 + f` of row `a` is feature `f` of the table row of node (a, b).
-/
import proofs.«139053_j36180804501977_2_alg».proof.Proof.Spec
import proofs.«139053_j36180804501977_2_alg».proof.Proof.Layout
import proofs.«139053_j36180804501977_2_alg».proof.Proof.Gather
import proofs.«139053_j36180804501977_2_alg».proof.Proof.Rem

noncomputable section

namespace Cert.Field

open Idealize.ShloMosaic Idealize.ShloMosaic.ValueIdx

variable {R K : Nat}

/-- The row numbers of the grid's nodes: node (b, a) ↦ (a + b · res) mod size, a negative number counted from the end. -/
def nodeRows (res size : BitVec 32)
    (r2 : (⟨1, ![R]⟩ : Shape).BroadcastsInDim ⟨2, ![1, R]⟩ ![1]) (c2 : (⟨1, ![R]⟩ : Shape).BroadcastsInDim ⟨2, ![R, 1]⟩ ![0])
    (sc : Sc.BroadcastsInDim ⟨2, ![R, 1]⟩ ![]) (rr : (⟨2, ![1, R]⟩ : Shape).BroadcastsInDim ⟨2, ![R, R]⟩ ![0, 1])
    (cr : (⟨2, ![R, 1]⟩ : Shape).BroadcastsInDim ⟨2, ![R, R]⟩ ![0, 1]) (sq : Sc.BroadcastsInDim ⟨2, ![R, R]⟩ ![]) :
    IVec ⟨2, ![R, R]⟩ 32 :=
  select
    (cmpi .slt
      (remArr sq
        (addi (broadcastInDim ⟨2, ![R, R]⟩ ![0, 1] rr (broadcastInDim ⟨2, ![1, R]⟩ ![1] r2 (iotaInDim ⟨1, ![R]⟩ 32 0)))
          (broadcastInDim ⟨2, ![R, R]⟩ ![0, 1] cr
            (muli (broadcastInDim ⟨2, ![R, 1]⟩ ![0] c2 (iotaInDim ⟨1, ![R]⟩ 32 0)) (broadcastInDim ⟨2, ![R, 1]⟩ ![] sc (constantI Sc 32 res)))))
        (constantI Sc 32 size))
      (broadcastInDim ⟨2, ![R, R]⟩ ![] sq (constantI Sc 32 0#32)))
    (addi
      (remArr sq
        (addi (broadcastInDim ⟨2, ![R, R]⟩ ![0, 1] rr (broadcastInDim ⟨2, ![1, R]⟩ ![1] r2 (iotaInDim ⟨1, ![R]⟩ 32 0)))
          (broadcastInDim ⟨2, ![R, R]⟩ ![0, 1] cr
            (muli (broadcastInDim ⟨2, ![R, 1]⟩ ![0] c2 (iotaInDim ⟨1, ![R]⟩ 32 0)) (broadcastInDim ⟨2, ![R, 1]⟩ ![] sc (constantI Sc 32 res)))))
        (constantI Sc 32 size))
      (broadcastInDim ⟨2, ![R, R]⟩ ![] sq (constantI Sc 32 8192#32)))
    (remArr sq
      (addi (broadcastInDim ⟨2, ![R, R]⟩ ![0, 1] rr (broadcastInDim ⟨2, ![1, R]⟩ ![1] r2 (iotaInDim ⟨1, ![R]⟩ 32 0)))
        (broadcastInDim ⟨2, ![R, R]⟩ ![0, 1] cr
          (muli (broadcastInDim ⟨2, ![R, 1]⟩ ![0] c2 (iotaInDim ⟨1, ![R]⟩ 32 0)) (broadcastInDim ⟨2, ![R, 1]⟩ ![] sc (constantI Sc 32 res)))))
      (constantI Sc 32 size))

theorem nodeRows_apply (res size : BitVec 32)
    (r2 : (⟨1, ![R]⟩ : Shape).BroadcastsInDim ⟨2, ![1, R]⟩ ![1]) (c2 : (⟨1, ![R]⟩ : Shape).BroadcastsInDim ⟨2, ![R, 1]⟩ ![0])
    (sc : Sc.BroadcastsInDim ⟨2, ![R, 1]⟩ ![]) (rr : (⟨2, ![1, R]⟩ : Shape).BroadcastsInDim ⟨2, ![R, R]⟩ ![0, 1])
    (cr : (⟨2, ![R, 1]⟩ : Shape).BroadcastsInDim ⟨2, ![R, R]⟩ ![0, 1]) (sq : Sc.BroadcastsInDim ⟨2, ![R, R]⟩ ![])
    (b a : Fin R) :
    nodeRows res size r2 c2 sc rr cr sq (ix2 b a) = rowWord res size (BitVec.ofNat 32 a.val) (BitVec.ofNat 32 b.val) := by
  simp only [nodeRows, rowWord, wrapNeg, select_apply, cmpi_apply, addi_apply, muli_apply, remArr_apply,
    bcast_scalar (α := BitVec 32), constantI_apply, row_to_sq (α := BitVec 32), vec_to_row (α := BitVec 32),
    col_to_wide (α := BitVec 32), vec_to_col (α := BitVec 32), iotaInDim_apply]
  rfl

/-- The grid matrix of table `l`. -/
def gridMat (l : Nat) (res size : BitVec 32) (tbl : FVec Ideal ⟨3, ![8, 8192, 8]⟩ .f32)
    (r2 : (⟨1, ![R]⟩ : Shape).BroadcastsInDim ⟨2, ![1, R]⟩ ![1]) (c2 : (⟨1, ![R]⟩ : Shape).BroadcastsInDim ⟨2, ![R, 1]⟩ ![0])
    (sc : Sc.BroadcastsInDim ⟨2, ![R, 1]⟩ ![]) (rr : (⟨2, ![1, R]⟩ : Shape).BroadcastsInDim ⟨2, ![R, R]⟩ ![0, 1])
    (cr : (⟨2, ![R, 1]⟩ : Shape).BroadcastsInDim ⟨2, ![R, R]⟩ ![0, 1]) (sq : Sc.BroadcastsInDim ⟨2, ![R, R]⟩ ![])
    (sl : (⟨3, ![8, 8192, 8]⟩ : Shape).Slices ![l, 0, 0] ⟨3, ![1, 8192, 8]⟩)
    (c1 : (⟨3, ![1, 8192, 8]⟩ : Shape).ShapeCasts ⟨2, ![8192, 8]⟩)
    (q3 : (⟨2, ![R, R]⟩ : Shape).BroadcastsInDim ⟨3, ![R, R, 1]⟩ ![0, 1])
    (gw : GatherDims.WF ⟨2, ![8192, 8]⟩ ⟨3, ![R, R, 1]⟩ ⟨3, ![R, R, 8]⟩ [2] [0] [] [0] [] 2 ![1, 8])
    (tr : (⟨3, ![R, R, 8]⟩ : Shape).Transposes [1, 0, 2] ⟨3, ![R, R, 8]⟩)
    (fl : (⟨3, ![R, R, 8]⟩ : Shape).ShapeCasts ⟨2, ![R, K]⟩) : FVec Ideal ⟨2, ![R, K]⟩ .f32 :=
  shapeCast ⟨2, ![R, K]⟩
    (transpose ⟨3, ![R, R, 8]⟩ [1, 0, 2]
      (Host.gather (gridDims R gw)
        (shapeCast ⟨2, ![8192, 8]⟩ (extractStridedSlice ⟨3, ![1, 8192, 8]⟩ ![l, 0, 0] tbl sl) c1)
        (broadcastInDim ⟨3, ![R, R, 1]⟩ ![0, 1] q3 (nodeRows res size r2 c2 sc rr cr sq)))
      tr)
    fl

/-- Entry `b * 8 + f` of row `a` of the grid matrix is feature `f` of the table row of node (a, b). -/
theorem gridMat_apply (hK : K = R * 8) (l : Nat) (hl : l < 8) (res size : BitVec 32) (tbl : FVec Ideal ⟨3, ![8, 8192, 8]⟩ .f32)
    (r2 : (⟨1, ![R]⟩ : Shape).BroadcastsInDim ⟨2, ![1, R]⟩ ![1]) (c2 : (⟨1, ![R]⟩ : Shape).BroadcastsInDim ⟨2, ![R, 1]⟩ ![0])
    (sc : Sc.BroadcastsInDim ⟨2, ![R, 1]⟩ ![]) (rr : (⟨2, ![1, R]⟩ : Shape).BroadcastsInDim ⟨2, ![R, R]⟩ ![0, 1])
    (cr : (⟨2, ![R, 1]⟩ : Shape).BroadcastsInDim ⟨2, ![R, R]⟩ ![0, 1]) (sq : Sc.BroadcastsInDim ⟨2, ![R, R]⟩ ![])
    (sl : (⟨3, ![8, 8192, 8]⟩ : Shape).Slices ![l, 0, 0] ⟨3, ![1, 8192, 8]⟩)
    (c1 : (⟨3, ![1, 8192, 8]⟩ : Shape).ShapeCasts ⟨2, ![8192, 8]⟩)
    (q3 : (⟨2, ![R, R]⟩ : Shape).BroadcastsInDim ⟨3, ![R, R, 1]⟩ ![0, 1])
    (gw : GatherDims.WF ⟨2, ![8192, 8]⟩ ⟨3, ![R, R, 1]⟩ ⟨3, ![R, R, 8]⟩ [2] [0] [] [0] [] 2 ![1, 8])
    (tr : (⟨3, ![R, R, 8]⟩ : Shape).Transposes [1, 0, 2] ⟨3, ![R, R, 8]⟩)
    (fl : (⟨3, ![R, R, 8]⟩ : Shape).ShapeCasts ⟨2, ![R, K]⟩) (a b : Fin R) (f : Fin 8) (q : Fin K)
    (hq : q.val = b.val * 8 + f.val) :
    gridMat l res size tbl r2 c2 sc rr cr sq sl c1 q3 gw tr fl (ix2 a q)
      = tableAt tbl ⟨l, hl⟩ (rowWord res size (BitVec.ofNat 32 a.val) (BitVec.ofNat 32 b.val)) f := by
  unfold gridMat tableAt
  rw [flatten23 hK _ fl a b f q hq, swap01, gather_grid_apply]
  simp only [sq_to_cube (α := BitVec 32), nodeRows_apply]
  exact table_slice l hl tbl sl c1 _ f

end Cert.Field

end
-- ==== Proof.KTables.lean ====
/-
  The grid matrices the kernel reads: what the host operations before the kernel leave in each of the eight
  buffers the kernel's windows 1 to 8 stage is the grid matrix of that resolution, built from the stack of tables.
-/
import proofs.«139053_j36180804501977_2_alg».proof.Proof.Gen.KernelIdeal.Frame
import proofs.«139053_j36180804501977_2_alg».proof.Proof.GridMat

noncomputable section

namespace Cert.KernelIdeal.Tables

open Idealize.ShloMosaic Idealize.ShloMosaic.TcCoe Idealize.ShloMosaic.ValueIdx Idealize.ShloMosaic.StableHlo Idealize.SL.Sem Cert.KernelIdeal
  Cert.KernelIdeal.Gen Cert.Field

variable (m : (ℓ : Loc nD τ sig) → Buf (Elt Ideal) ℓ)

set_option maxRecDepth 65536 in
set_option maxHeartbeats 4000000 in
/-- The buffer window 1 stages holds the grid matrix of resolution 0. -/
theorem grid0 (c : Dev nD) :
    (Gen.V m c main_v20 : S17x136.Idx → EReal)
      = gridMat (R := 17) (K := 136) 0 16#32 256#32 (m ((c : Thread nD τ).loc main_arg1))
        bcast_S17_S1x17_1 bcast_S17_S17x1_0 bcast_S_S17x1 bcast_S1x17_S17x17_0_1 bcast_S17x1_S17x17_0_1 bcast_S_S17x17
        slices_S8x8192x8_S1x8192x8_0_0_0 shapeCasts_S1x8192x8_S8192x8 bcast_S17x17_S17x17x1_0_1
        gather_S8192x8_S17x17x1_S17x17x8_2_0_n_n_0_2_18_wf transposes_S17x17x8_S17x17x8_1_0_2 shapeCasts_S17x17x8_S17x136 := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16,
    List.flatten_cons, List.flatten_nil, List.append_nil, List.cons_append, List.nil_append]
  after_results_simp
  rfl

set_option maxRecDepth 65536 in
set_option maxHeartbeats 4000000 in
/-- The buffer window 2 stages holds the grid matrix of resolution 1. -/
theorem grid1 (c : Dev nD) :
    (Gen.V m c main_v41 : S22x176.Idx → EReal)
      = gridMat (R := 22) (K := 176) 1 21#32 448#32 (m ((c : Thread nD τ).loc main_arg1))
        bcast_S22_S1x22_1 bcast_S22_S22x1_0 bcast_S_S22x1 bcast_S1x22_S22x22_0_1 bcast_S22x1_S22x22_0_1 bcast_S_S22x22
        slices_S8x8192x8_S1x8192x8_1_0_0 shapeCasts_S1x8192x8_S8192x8 bcast_S22x22_S22x22x1_0_1
        gather_S8192x8_S22x22x1_S22x22x8_2_0_n_n_0_2_18_wf transposes_S22x22x8_S22x22x8_1_0_2 shapeCasts_S22x22x8_S22x176 := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16,
    List.flatten_cons, List.flatten_nil, List.append_nil, List.cons_append, List.nil_append]
  after_results_simp
  rfl

set_option maxRecDepth 65536 in
set_option maxHeartbeats 4000000 in
/-- The buffer window 3 stages holds the grid matrix of resolution 2. -/
theorem grid2 (c : Dev nD) :
    (Gen.V m c main_v62 : S27x216.Idx → EReal)
      = gridMat (R := 27) (K := 216) 2 26#32 680#32 (m ((c : Thread nD τ).loc main_arg1))
        bcast_S27_S1x27_1 bcast_S27_S27x1_0 bcast_S_S27x1 bcast_S1x27_S27x27_0_1 bcast_S27x1_S27x27_0_1 bcast_S_S27x27
        slices_S8x8192x8_S1x8192x8_2_0_0 shapeCasts_S1x8192x8_S8192x8 bcast_S27x27_S27x27x1_0_1
        gather_S8192x8_S27x27x1_S27x27x8_2_0_n_n_0_2_18_wf transposes_S27x27x8_S27x27x8_1_0_2 shapeCasts_S27x27x8_S27x216 := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16,
    List.flatten_cons, List.flatten_nil, List.append_nil, List.cons_append, List.nil_append]
  after_results_simp
  rfl

set_option maxRecDepth 65536 in
set_option maxHeartbeats 4000000 in
/-- The buffer window 4 stages holds the grid matrix of resolution 3. -/
theorem grid3 (c : Dev nD) :
    (Gen.V m c main_v83 : S34x272.Idx → EReal)
      = gridMat (R := 34) (K := 272) 3 33#32 1096#32 (m ((c : Thread nD τ).loc main_arg1))
        bcast_S34_S1x34_1 bcast_S34_S34x1_0 bcast_S_S34x1 bcast_S1x34_S34x34_0_1 bcast_S34x1_S34x34_0_1 bcast_S_S34x34
        slices_S8x8192x8_S1x8192x8_3_0_0 shapeCasts_S1x8192x8_S8192x8 bcast_S34x34_S34x34x1_0_1
        gather_S8192x8_S34x34x1_S34x34x8_2_0_n_n_0_2_18_wf transposes_S34x34x8_S34x34x8_1_0_2 shapeCasts_S34x34x8_S34x272 := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16,
    List.flatten_cons, List.flatten_nil, List.append_nil, List.cons_append, List.nil_append]
  after_results_simp
  rfl

set_option maxRecDepth 65536 in
set_option maxHeartbeats 4000000 in
/-- The buffer window 5 stages holds the grid matrix of resolution 4. -/
theorem grid4 (c : Dev nD) :
    (Gen.V m c main_v104 : S42x336.Idx → EReal)
      = gridMat (R := 42) (K := 336) 4 41#32 1688#32 (m ((c : Thread nD τ).loc main_arg1))
        bcast_S42_S1x42_1 bcast_S42_S42x1_0 bcast_S_S42x1 bcast_S1x42_S42x42_0_1 bcast_S42x1_S42x42_0_1 bcast_S_S42x42
        slices_S8x8192x8_S1x8192x8_4_0_0 shapeCasts_S1x8192x8_S8192x8 bcast_S42x42_S42x42x1_0_1
        gather_S8192x8_S42x42x1_S42x42x8_2_0_n_n_0_2_18_wf transposes_S42x42x8_S42x42x8_1_0_2 shapeCasts_S42x42x8_S42x336 := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16,
    List.flatten_cons, List.flatten_nil, List.append_nil, List.cons_append, List.nil_append]
  after_results_simp
  rfl

set_option maxRecDepth 65536 in
set_option maxHeartbeats 4000000 in
/-- The buffer window 6 stages holds the grid matrix of resolution 5. -/
theorem grid5 (c : Dev nD) :
    (Gen.V m c main_v125 : S52x416.Idx → EReal)
      = gridMat (R := 52) (K := 416) 5 51#32 2608#32 (m ((c : Thread nD τ).loc main_arg1))
        bcast_S52_S1x52_1 bcast_S52_S52x1_0 bcast_S_S52x1 bcast_S1x52_S52x52_0_1 bcast_S52x1_S52x52_0_1 bcast_S_S52x52
        slices_S8x8192x8_S1x8192x8_5_0_0 shapeCasts_S1x8192x8_S8192x8 bcast_S52x52_S52x52x1_0_1
        gather_S8192x8_S52x52x1_S52x52x8_2_0_n_n_0_2_18_wf transposes_S52x52x8_S52x52x8_1_0_2 shapeCasts_S52x52x8_S52x416 := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16,
    List.flatten_cons, List.flatten_nil, List.append_nil, List.cons_append, List.nil_append]
  after_results_simp
  rfl

set_option maxRecDepth 65536 in
set_option maxHeartbeats 4000000 in
/-- The buffer window 7 stages holds the grid matrix of resolution 6. -/
theorem grid6 (c : Dev nD) :
    (Gen.V m c main_v146 : S66x528.Idx → EReal)
      = gridMat (R := 66) (K := 528) 6 65#32 4232#32 (m ((c : Thread nD τ).loc main_arg1))
        bcast_S66_S1x66_1 bcast_S66_S66x1_0 bcast_S_S66x1 bcast_S1x66_S66x66_0_1 bcast_S66x1_S66x66_0_1 bcast_S_S66x66
        slices_S8x8192x8_S1x8192x8_6_0_0 shapeCasts_S1x8192x8_S8192x8 bcast_S66x66_S66x66x1_0_1
        gather_S8192x8_S66x66x1_S66x66x8_2_0_n_n_0_2_18_wf transposes_S66x66x8_S66x66x8_1_0_2 shapeCasts_S66x66x8_S66x528 := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16,
    List.flatten_cons, List.flatten_nil, List.append_nil, List.cons_append, List.nil_append]
  after_results_simp
  rfl

set_option maxRecDepth 65536 in
set_option maxHeartbeats 4000000 in
/-- The buffer window 8 stages holds the grid matrix of resolution 7. -/
theorem grid7 (c : Dev nD) :
    (Gen.V m c main_v167 : S82x656.Idx → EReal)
      = gridMat (R := 82) (K := 656) 7 81#32 6568#32 (m ((c : Thread nD τ).loc main_arg1))
        bcast_S82_S1x82_1 bcast_S82_S82x1_0 bcast_S_S82x1 bcast_S1x82_S82x82_0_1 bcast_S82x1_S82x82_0_1 bcast_S_S82x82
        slices_S8x8192x8_S1x8192x8_7_0_0 shapeCasts_S1x8192x8_S8192x8 bcast_S82x82_S82x82x1_0_1
        gather_S8192x8_S82x82x1_S82x82x8_2_0_n_n_0_2_18_wf transposes_S82x82x8_S82x82x8_1_0_2 shapeCasts_S82x82x8_S82x656 := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16,
    List.flatten_cons, List.flatten_nil, List.append_nil, List.cons_append, List.nil_append]
  after_results_simp
  rfl

end Cert.KernelIdeal.Tables

end
-- ==== Proof.RefOps.lean ====
/- The reference's @main as lists of its host operations, one list per window of the printed program, the operations of a called function listed at the call over that call's buffers. -/
import proofs.«139053_j36180804501977_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Two columns set side by side (the reference's concatenation of a table number and a row number per point). -/
def pairCols {α : Type} (a b : S262144x1.Idx → α) : S262144x2.Idx → α :=
  concatenate S262144x2 1 [⟨S262144x1, a⟩, ⟨S262144x1, b⟩] concatenates_S262144x1_S262144x1_S262144x2_d1

abbrev ops_part0 : List (HloOp τ sig (Elt F)) :=
  [ StableHlo.nullary main_cst (constant S_ .f32 0x41700000#32),
    StableHlo.unary main_cst main_v0 (broadcastInDim S262144x2 ![] bcast_S_S262144x2 : (⟨S_, .f32⟩ : BufTy).Contents (Elt F) → (⟨S262144x2, .f32⟩ : BufTy).Contents (Elt F)),
    StableHlo.binary main_arg0 main_v0 main_v1 (mulf : (⟨S262144x2, .f32⟩ : BufTy).Contents (Elt F) → (⟨S262144x2, .f32⟩ : BufTy).Contents (Elt F) → (⟨S262144x2, .f32⟩ : BufTy).Contents (Elt F)),
    StableHlo.nullary main_cst_0 (constant S_ .f32 0x3F000000#32),
    StableHlo.unary main_cst_0 main_v2 (broadcastInDim S262144x2 ![] bcast_S_S262144x2 : (⟨S_, .f32⟩ : BufTy).Contents (Elt F) → (⟨S262144x2, .f32⟩ : BufTy).Contents (Elt F)),
    StableHlo.binary main_v1 main_v2 main_v3 (addf : (⟨S262144x2, .f32⟩ : BufTy).Contents (Elt F) → (⟨S262144x2, .f32⟩ : BufTy).Contents (Elt F) → (⟨S262144x2, .f32⟩ : BufTy).Contents (Elt F)),
    StableHlo.unary main_v3 main_v4 (Host.floor : (⟨S262144x2, .f32⟩ : BufTy).Contents (Elt F) → (⟨S262144x2, .f32⟩ : BufTy).Contents (Elt F)),
    StableHlo.binary main_v3 main_v4 main_v5 (subf : (⟨S262144x2, .f32⟩ : BufTy).Contents (Elt F) → (⟨S262144x2, .f32⟩ : BufTy).Contents (Elt F) → (⟨S262144x2, .f32⟩ : BufTy).Contents (Elt F)),
    StableHlo.unary main_v4 main_v6 (fptosi 32 : (⟨S262144x2, .f32⟩ : BufTy).Contents (Elt F) → (⟨S262144x2, .i32⟩ : BufTy).Contents (Elt F)),
    StableHlo.binary main_v5 main_v5 main_v7 (mulf : (⟨S262144x2, .f32⟩ : BufTy).Contents (Elt F) → (⟨S262144x2, .f32⟩ : BufTy).Contents (Elt F) → (⟨S262144x2, .f32⟩ : BufTy).Contents (Elt F)),
    StableHlo.nullary main_cst_1 (constant S_ .f32 0x40000000#32),
    StableHlo.unary main_cst_1 main_v8 (broadcastInDim S262144x2 ![] bcast_S_S262144x2 : (⟨S_, .f32⟩ : BufTy).Contents (Elt F) → (⟨S262144x2, .f32⟩ : BufTy).Contents (Elt F)),
    StableHlo.binary main_v8 main_v5 main_v9 (mulf : (⟨S262144x2, .f32⟩ : BufTy).Contents (Elt F) → (⟨S262144x2, .f32⟩ : BufTy).Contents (Elt F) → (⟨S262144x2, .f32⟩ : BufTy).Contents (Elt F)),
    StableHlo.nullary main_cst_2 (constant S_ .f32 0x40400000#32),
    StableHlo.unary main_cst_2 main_v10 (broadcastInDim S262144x2 ![] bcast_S_S262144x2 : (⟨S_, .f32⟩ : BufTy).Contents (Elt F) → (⟨S262144x2, .f32⟩ : BufTy).Contents (Elt F)),
    StableHlo.binary main_v10 main_v9 main_v11 (subf : (⟨S262144x2, .f32⟩ : BufTy).Contents (Elt F) → (⟨S262144x2, .f32⟩ : BufTy).Contents (Elt F) → (⟨S262144x2, .f32⟩ : BufTy).Contents (Elt F)),
    StableHlo.binary main_v7 main_v11 main_v12 (mulf : (⟨S262144x2, .f32⟩ : BufTy).Contents (Elt F) → (⟨S262144x2, .f32⟩ : BufTy).Contents (Elt F) → (⟨S262144x2, .f32⟩ : BufTy).Contents (Elt F)),
    StableHlo.nullary main_cst_3 (constant S_ .f32 0x00000000#32),
    StableHlo.unary main_cst_3 main_v13 (broadcastInDim S262144x8 ![] bcast_S_S262144x8 : (⟨S_, .f32⟩ : BufTy).Contents (Elt F) → (⟨S262144x8, .f32⟩ : BufTy).Contents (Elt F)),
    StableHlo.unary main_v12 main_v14 ((extractStridedSlice S262144x1 ![0, 0] · slices_S262144x2_S262144x1_0_0) : (⟨S262144x2, .f32⟩ : BufTy).Contents (Elt F) → (⟨S262144x1, .f32⟩ : BufTy).Contents (Elt F)),
    StableHlo.unary main_v14 main_v15 (fun v => shapeCast S262144 v shapeCasts_S262144x1_S262144),
    StableHlo.nullary main_cst_4 (constant S_ .f32 0x3F800000#32),
    StableHlo.unary main_cst_4 main_v16 (broadcastInDim S262144 ![] bcast_S_S262144 : (⟨S_, .f32⟩ : BufTy).Contents (Elt F) → (⟨S262144, .f32⟩ : BufTy).Contents (Elt F)),
    StableHlo.binary main_v16 main_v15 main_v17 (subf : (⟨S262144, .f32⟩ : BufTy).Contents (Elt F) → (⟨S262144, .f32⟩ : BufTy).Contents (Elt F) → (⟨S262144, .f32⟩ : BufTy).Contents (Elt F)),
    StableHlo.unary main_v12 main_v18 ((extractStridedSlice S262144x1 ![0, 1] · slices_S262144x2_S262144x1_0_1) : (⟨S262144x2, .f32⟩ : BufTy).Contents (Elt F) → (⟨S262144x1, .f32⟩ : BufTy).Contents (Elt F)),
    StableHlo.unary main_v18 main_v19 (fun v => shapeCast S262144 v shapeCasts_S262144x1_S262144),
    StableHlo.nullary main_cst_5 (constant S_ .f32 0x3F800000#32),
    StableHlo.unary main_cst_5 main_v20 (broadcastInDim S262144 ![] bcast_S_S262144 : (⟨S_, .f32⟩ : BufTy).Contents (Elt F) → (⟨S262144, .f32⟩ : BufTy).Contents (Elt F)),
    StableHlo.binary main_v20 main_v19 main_v21 (subf : (⟨S262144, .f32⟩ : BufTy).Contents (Elt F) → (⟨S262144, .f32⟩ : BufTy).Contents (Elt F) → (⟨S262144, .f32⟩ : BufTy).Contents (Elt F)),
    StableHlo.unary main_v6 main_v22 ((extractStridedSlice S262144x1 ![0, 0] · slices_S262144x2_S262144x1_0_0) : (⟨S262144x2, .i32⟩ : BufTy).Contents (Elt F) → (⟨S262144x1, .i32⟩ : BufTy).Contents (Elt F)),
    StableHlo.unary main_v22 main_v23 (fun v => shapeCast S262144 v shapeCasts_S262144x1_S262144),
    StableHlo.nullary main_c (constantI S_ 32 0#32),
    StableHlo.unary main_c main_v24 (broadcastInDim S262144 ![] bcast_S_S262144 : (⟨S_, .i32⟩ : BufTy).Contents (Elt F) → (⟨S262144, .i32⟩ : BufTy).Contents (Elt F)),
    StableHlo.binary main_v23 main_v24 main_v25 (addi : (⟨S262144, .i32⟩ : BufTy).Contents (Elt F) → (⟨S262144, .i32⟩ : BufTy).Contents (Elt F) → (⟨S262144, .i32⟩ : BufTy).Contents (Elt F)),
    StableHlo.unary main_v6 main_v26 ((extractStridedSlice S262144x1 ![0, 1] · slices_S262144x2_S262144x1_0_1) : (⟨S262144x2, .i32⟩ : BufTy).Contents (Elt F) → (⟨S262144x1, .i32⟩ : BufTy).Contents (Elt F)),
    StableHlo.unary main_v26 main_v27 (fun v => shapeCast S262144 v shapeCasts_S262144x1_S262144),
    StableHlo.nullary main_c_6 (constantI S_ 32 0#32),
    StableHlo.unary main_c_6 main_v28 (broadcastInDim S262144 ![] bcast_S_S262144 : (⟨S_, .i32⟩ : BufTy).Contents (Elt F) → (⟨S262144, .i32⟩ : BufTy).Contents (Elt F)),
    StableHlo.binary main_v27 main_v28 main_v29 (addi : (⟨S262144, .i32⟩ : BufTy).Contents (Elt F) → (⟨S262144, .i32⟩ : BufTy).Contents (Elt F) → (⟨S262144, .i32⟩ : BufTy).Contents (Elt F)),
    StableHlo.nullary main_c_7 (constantI S_ 32 16#32),
    StableHlo.unary main_c_7 main_v30 (broadcastInDim S262144 ![] bcast_S_S262144 : (⟨S_, .i32⟩ : BufTy).Contents (Elt F) → (⟨S262144, .i32⟩ : BufTy).Contents (Elt F)),
    StableHlo.binary main_v29 main_v30 main_v31 (muli : (⟨S262144, .i32⟩ : BufTy).Contents (Elt F) → (⟨S262144, .i32⟩ : BufTy).Contents (Elt F) → (⟨S262144, .i32⟩ : BufTy).Contents (Elt F)),
    StableHlo.binary main_v25 main_v31 main_v32 (addi : (⟨S262144, .i32⟩ : BufTy).Contents (Elt F) → (⟨S262144, .i32⟩ : BufTy).Contents (Elt F) → (⟨S262144, .i32⟩ : BufTy).Contents (Elt F)),
    StableHlo.nullary main_c_8 (constantI S_ 32 256#32),
    StableHlo.unary main_c_8 main_call0_v0 id,
    StableHlo.nullary main_call0_c (constantI S_ 32 0#32),
    StableHlo.binary main_call0_v0 main_call0_c main_call0_v1 (cmpi .eq),
    StableHlo.nullary main_call0_c_0 (constantI S_ 32 1#32),
    StableHlo.ternary main_call0_v1 main_call0_c_0 main_call0_v0 main_call0_v2 select,
    StableHlo.unary main_call0_v2 main_call0_v3 (broadcastInDim S262144 ![] bcast_S_S262144),
    StableHlo.binary main_v32 main_call0_v3 main_call0_v4 Host.remsi,
    StableHlo.nullary main_call0_c_1 (constantI S_ 32 0#32),
    StableHlo.unary main_call0_c_1 main_call0_v5 (broadcastInDim S262144 ![] bcast_S_S262144),
    StableHlo.binary main_call0_v4 main_call0_v5 main_call0_v6 (cmpi .ne),
    StableHlo.nullary main_call0_c_2 (constantI S_ 32 0#32),
    StableHlo.unary main_call0_c_2 main_call0_v7 (broadcastInDim S262144 ![] bcast_S_S262144),
    StableHlo.binary main_call0_v4 main_call0_v7 main_call0_v8 (cmpi .slt),
    StableHlo.nullary main_call0_c_3 (constantI S_ 32 0#32),
    StableHlo.binary main_call0_v2 main_call0_c_3 main_call0_v9 (cmpi .slt),
    StableHlo.unary main_call0_v9 main_call0_v10 (broadcastInDim S262144 ![] bcast_S_S262144),
    StableHlo.binary main_call0_v8 main_call0_v10 main_call0_v11 (cmpi .ne),
    StableHlo.binary main_call0_v11 main_call0_v6 main_call0_v12 andi,
    StableHlo.unary main_call0_v2 main_call0_v13 (broadcastInDim S262144 ![] bcast_S_S262144),
    StableHlo.binary main_call0_v4 main_call0_v13 main_call0_v14 addi,
    StableHlo.ternary main_call0_v12 main_call0_v14 main_call0_v4 main_v33 select,
    StableHlo.binary main_v17 main_v21 main_v34 (mulf : (⟨S262144, .f32⟩ : BufTy).Contents (Elt F) → (⟨S262144, .f32⟩ : BufTy).Contents (Elt F) → (⟨S262144, .f32⟩ : BufTy).Contents (Elt F)),
    StableHlo.unary main_v34 main_v35 (broadcastInDim S262144x1 ![0] bcast_S262144_S262144x1_0 : (⟨S262144, .f32⟩ : BufTy).Contents (Elt F) → (⟨S262144x1, .f32⟩ : BufTy).Contents (Elt F)),
    StableHlo.nullary main_c_9 (constantI S_ 32 0#32),
    StableHlo.unary main_c_9 main_v36 (broadcastInDim S262144 ![] bcast_S_S262144 : (⟨S_, .i32⟩ : BufTy).Contents (Elt F) → (⟨S262144, .i32⟩ : BufTy).Contents (Elt F)),
    StableHlo.binary main_v33 main_v36 main_v37 (cmpi .slt : (⟨S262144, .i32⟩ : BufTy).Contents (Elt F) → (⟨S262144, .i32⟩ : BufTy).Contents (Elt F) → (⟨S262144, .i1⟩ : BufTy).Contents (Elt F)),
    StableHlo.nullary main_c_10 (constantI S_ 32 8192#32),
    StableHlo.unary main_c_10 main_v38 (broadcastInDim S262144 ![] bcast_S_S262144 : (⟨S_, .i32⟩ : BufTy).Contents (Elt F) → (⟨S262144, .i32⟩ : BufTy).Contents (Elt F)),
    StableHlo.binary main_v33 main_v38 main_v39 (addi : (⟨S262144, .i32⟩ : BufTy).Contents (Elt F) → (⟨S262144, .i32⟩ : BufTy).Contents (Elt F) → (⟨S262144, .i32⟩ : BufTy).Contents (Elt F)),
    StableHlo.ternary main_v37 main_v39 main_v33 main_v40 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.nullary main_c_11 (constantI S_ 32 0#32),
    StableHlo.unary main_c_11 main_v41 (broadcastInDim S262144 ![] bcast_S_S262144 : (⟨S_, .i32⟩ : BufTy).Contents (Elt F) → (⟨S262144, .i32⟩ : BufTy).Contents (Elt F)),
    StableHlo.unary main_v41 main_v42 (id : (⟨S262144, .i32⟩ : BufTy).Contents (Elt F) → (⟨S262144, .i32⟩ : BufTy).Contents (Elt F)),
    StableHlo.unary main_v42 main_v43 (broadcastInDim S262144x1 ![0] bcast_S262144_S262144x1_0 : (⟨S262144, .i32⟩ : BufTy).Contents (Elt F) → (⟨S262144x1, .i32⟩ : BufTy).Contents (Elt F)),
    StableHlo.unary main_v40 main_v44 (broadcastInDim S262144x1 ![0] bcast_S262144_S262144x1_0 : (⟨S262144, .i32⟩ : BufTy).Contents (Elt F) → (⟨S262144x1, .i32⟩ : BufTy).Contents (Elt F)),
    StableHlo.binary main_v43 main_v44 main_v45 (pairCols (α := BitVec 32)) ]

abbrev ops_part1 : List (HloOp τ sig (Elt F)) :=
  [ StableHlo.binary main_arg1 main_v45 main_v46 ((fun x i => Host.gather gather_S8x8192x8_S262144x2_S262144x8_1_01_n_n_01_1_118 x i) : (⟨S8x8192x8, .f32⟩ : BufTy).Contents (Elt F) → (⟨S262144x2, .i32⟩ : BufTy).Contents (Elt F) → (⟨S262144x8, .f32⟩ : BufTy).Contents (Elt F)),
    StableHlo.unary main_v35 main_v47 (broadcastInDim S262144x8 ![0, 1] bcast_S262144x1_S262144x8_0_1 : (⟨S262144x1, .f32⟩ : BufTy).Contents (Elt F) → (⟨S262144x8, .f32⟩ : BufTy).Contents (Elt F)),
    StableHlo.binary main_v47 main_v46 main_v48 (mulf : (⟨S262144x8, .f32⟩ : BufTy).Contents (Elt F) → (⟨S262144x8, .f32⟩ : BufTy).Contents (Elt F) → (⟨S262144x8, .f32⟩ : BufTy).Contents (Elt F)),
    StableHlo.binary main_v13 main_v48 main_v49 (addf : (⟨S262144x8, .f32⟩ : BufTy).Contents (Elt F) → (⟨S262144x8, .f32⟩ : BufTy).Contents (Elt F) → (⟨S262144x8, .f32⟩ : BufTy).Contents (Elt F)),
    StableHlo.unary main_v12 main_v50 ((extractStridedSlice S262144x1 ![0, 1] · slices_S262144x2_S262144x1_0_1) : (⟨S262144x2, .f32⟩ : BufTy).Contents (Elt F) → (⟨S262144x1, .f32⟩ : BufTy).Contents (Elt F)),
    StableHlo.unary main_v50 main_v51 (fun v => shapeCast S262144 v shapeCasts_S262144x1_S262144),
    StableHlo.unary main_v6 main_v52 ((extractStridedSlice S262144x1 ![0, 0] · slices_S262144x2_S262144x1_0_0) : (⟨S262144x2, .i32⟩ : BufTy).Contents (Elt F) → (⟨S262144x1, .i32⟩ : BufTy).Contents (Elt F)),
    StableHlo.unary main_v52 main_v53 (fun v => shapeCast S262144 v shapeCasts_S262144x1_S262144),
    StableHlo.nullary main_c_12 (constantI S_ 32 0#32),
    StableHlo.unary main_c_12 main_v54 (broadcastInDim S262144 ![] bcast_S_S262144 : (⟨S_, .i32⟩ : BufTy).Contents (Elt F) → (⟨S262144, .i32⟩ : BufTy).Contents (Elt F)),
    StableHlo.binary main_v53 main_v54 main_v55 (addi : (⟨S262144, .i32⟩ : BufTy).Contents (Elt F) → (⟨S262144, .i32⟩ : BufTy).Contents (Elt F) → (⟨S262144, .i32⟩ : BufTy).Contents (Elt F)),
    StableHlo.unary main_v6 main_v56 ((extractStridedSlice S262144x1 ![0, 1] · slices_S262144x2_S262144x1_0_1) : (⟨S262144x2, .i32⟩ : BufTy).Contents (Elt F) → (⟨S262144x1, .i32⟩ : BufTy).Contents (Elt F)),
    StableHlo.unary main_v56 main_v57 (fun v => shapeCast S262144 v shapeCasts_S262144x1_S262144),
    StableHlo.nullary main_c_13 (constantI S_ 32 1#32),
    StableHlo.unary main_c_13 main_v58 (broadcastInDim S262144 ![] bcast_S_S262144 : (⟨S_, .i32⟩ : BufTy).Contents (Elt F) → (⟨S262144, .i32⟩ : BufTy).Contents (Elt F)),
    StableHlo.binary main_v57 main_v58 main_v59 (addi : (⟨S262144, .i32⟩ : BufTy).Contents (Elt F) → (⟨S262144, .i32⟩ : BufTy).Contents (Elt F) → (⟨S262144, .i32⟩ : BufTy).Contents (Elt F)),
    StableHlo.nullary main_c_14 (constantI S_ 32 16#32),
    StableHlo.unary main_c_14 main_v60 (broadcastInDim S262144 ![] bcast_S_S262144 : (⟨S_, .i32⟩ : BufTy).Contents (Elt F) → (⟨S262144, .i32⟩ : BufTy).Contents (Elt F)),
    StableHlo.binary main_v59 main_v60 main_v61 (muli : (⟨S262144, .i32⟩ : BufTy).Contents (Elt F) → (⟨S262144, .i32⟩ : BufTy).Contents (Elt F) → (⟨S262144, .i32⟩ : BufTy).Contents (Elt F)),
    StableHlo.binary main_v55 main_v61 main_v62 (addi : (⟨S262144, .i32⟩ : BufTy).Contents (Elt F) → (⟨S262144, .i32⟩ : BufTy).Contents (Elt F) → (⟨S262144, .i32⟩ : BufTy).Contents (Elt F)),
    StableHlo.nullary main_c_15 (constantI S_ 32 256#32),
    StableHlo.unary main_c_15 main_call1_v0 id,
    StableHlo.nullary main_call1_c (constantI S_ 32 0#32),
    StableHlo.binary main_call1_v0 main_call1_c main_call1_v1 (cmpi .eq),
    StableHlo.nullary main_call1_c_0 (constantI S_ 32 1#32),
    StableHlo.ternary main_call1_v1 main_call1_c_0 main_call1_v0 main_call1_v2 select,
    StableHlo.unary main_call1_v2 main_call1_v3 (broadcastInDim S262144 ![] bcast_S_S262144),
    StableHlo.binary main_v62 main_call1_v3 main_call1_v4 Host.remsi,
    StableHlo.nullary main_call1_c_1 (constantI S_ 32 0#32),
    StableHlo.unary main_call1_c_1 main_call1_v5 (broadcastInDim S262144 ![] bcast_S_S262144),
    StableHlo.binary main_call1_v4 main_call1_v5 main_call1_v6 (cmpi .ne),
    StableHlo.nullary main_call1_c_2 (constantI S_ 32 0#32),
    StableHlo.unary main_call1_c_2 main_call1_v7 (broadcastInDim S262144 ![] bcast_S_S262144),
    StableHlo.binary main_call1_v4 main_call1_v7 main_call1_v8 (cmpi .slt),
    StableHlo.nullary main_call1_c_3 (constantI S_ 32 0#32),
    StableHlo.binary main_call1_v2 main_call1_c_3 main_call1_v9 (cmpi .slt),
    StableHlo.unary main_call1_v9 main_call1_v10 (broadcastInDim S262144 ![] bcast_S_S262144),
    StableHlo.binary main_call1_v8 main_call1_v10 main_call1_v11 (cmpi .ne),
    StableHlo.binary main_call1_v11 main_call1_v6 main_call1_v12 andi,
    StableHlo.unary main_call1_v2 main_call1_v13 (broadcastInDim S262144 ![] bcast_S_S262144),
    StableHlo.binary main_call1_v4 main_call1_v13 main_call1_v14 addi,
    StableHlo.ternary main_call1_v12 main_call1_v14 main_call1_v4 main_v63 select,
    StableHlo.binary main_v17 main_v51 main_v64 (mulf : (⟨S262144, .f32⟩ : BufTy).Contents (Elt F) → (⟨S262144, .f32⟩ : BufTy).Contents (Elt F) → (⟨S262144, .f32⟩ : BufTy).Contents (Elt F)),
    StableHlo.unary main_v64 main_v65 (broadcastInDim S262144x1 ![0] bcast_S262144_S262144x1_0 : (⟨S262144, .f32⟩ : BufTy).Contents (Elt F) → (⟨S262144x1, .f32⟩ : BufTy).Contents (Elt F)),
    StableHlo.nullary main_c_16 (constantI S_ 32 0#32),
    StableHlo.unary main_c_16 main_v66 (broadcastInDim S262144 ![] bcast_S_S262144 : (⟨S_, .i32⟩ : BufTy).Contents (Elt F) → (⟨S262144, .i32⟩ : BufTy).Contents (Elt F)),
    StableHlo.binary main_v63 main_v66 main_v67 (cmpi .slt : (⟨S262144, .i32⟩ : BufTy).Contents (Elt F) → (⟨S262144, .i32⟩ : BufTy).Contents (Elt F) → (⟨S262144, .i1⟩ : BufTy).Contents (Elt F)),
    StableHlo.nullary main_c_17 (constantI S_ 32 8192#32),
    StableHlo.unary main_c_17 main_v68 (broadcastInDim S262144 ![] bcast_S_S262144 : (⟨S_, .i32⟩ : BufTy).Contents (Elt F) → (⟨S262144, .i32⟩ : BufTy).Contents (Elt F)),
    StableHlo.binary main_v63 main_v68 main_v69 (addi : (⟨S262144, .i32⟩ : BufTy).Contents (Elt F) → (⟨S262144, .i32⟩ : BufTy).Contents (Elt F) → (⟨S262144, .i32⟩ : BufTy).Contents (Elt F)),
    StableHlo.ternary main_v67 main_v69 main_v63 main_v70 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.nullary main_c_18 (constantI S_ 32 0#32),
    StableHlo.unary main_c_18 main_v71 (broadcastInDim S262144 ![] bcast_S_S262144 : (⟨S_, .i32⟩ : BufTy).Contents (Elt F) → (⟨S262144, .i32⟩ : BufTy).Contents (Elt F)),
    StableHlo.unary main_v71 main_v72 (id : (⟨S262144, .i32⟩ : BufTy).Contents (Elt F) → (⟨S262144, .i32⟩ : BufTy).Contents (Elt F)),
    StableHlo.unary main_v72 main_v73 (broadcastInDim S262144x1 ![0] bcast_S262144_S262144x1_0 : (⟨S262144, .i32⟩ : BufTy).Contents (Elt F) → (⟨S262144x1, .i32⟩ : BufTy).Contents (Elt F)),
    StableHlo.unary main_v70 main_v74 (broadcastInDim S262144x1 ![0] bcast_S262144_S262144x1_0 : (⟨S262144, .i32⟩ : BufTy).Contents (Elt F) → (⟨S262144x1, .i32⟩ : BufTy).Contents (Elt F)),
    StableHlo.binary main_v73 main_v74 main_v75 (pairCols (α := BitVec 32)),
    StableHlo.binary main_arg1 main_v75 main_v76 ((fun x i => Host.gather gather_S8x8192x8_S262144x2_S262144x8_1_01_n_n_01_1_118 x i) : (⟨S8x8192x8, .f32⟩ : BufTy).Contents (Elt F) → (⟨S262144x2, .i32⟩ : BufTy).Contents (Elt F) → (⟨S262144x8, .f32⟩ : BufTy).Contents (Elt F)),
    StableHlo.unary main_v65 main_v77 (broadcastInDim S262144x8 ![0, 1] bcast_S262144x1_S262144x8_0_1 : (⟨S262144x1, .f32⟩ : BufTy).Contents (Elt F) → (⟨S262144x8, .f32⟩ : BufTy).Contents (Elt F)),
    StableHlo.binary main_v77 main_v76 main_v78 (mulf : (⟨S262144x8, .f32⟩ : BufTy).Contents (Elt F) → (⟨S262144x8, .f32⟩ : BufTy).Contents (Elt F) → (⟨S262144x8, .f32⟩ : BufTy).Contents (Elt F)),
    StableHlo.binary main_v49 main_v78 main_v79 (addf : (⟨S262144x8, .f32⟩ : BufTy).Contents (Elt F) → (⟨S262144x8, .f32⟩ : BufTy).Contents (Elt F) → (⟨S262144x8, .f32⟩ : BufTy).Contents (Elt F)),
    StableHlo.unary main_v12 main_v80 ((extractStridedSlice S262144x1 ![0, 0] · slices_S262144x2_S262144x1_0_0) : (⟨S262144x2, .f32⟩ : BufTy).Contents (Elt F) → (⟨S262144x1, .f32⟩ : BufTy).Contents (Elt F)),
    StableHlo.unary main_v80 main_v81 (fun v => shapeCast S262144 v shapeCasts_S262144x1_S262144),
    StableHlo.unary main_v12 main_v82 ((extractStridedSlice S262144x1 ![0, 1] · slices_S262144x2_S262144x1_0_1) : (⟨S262144x2, .f32⟩ : BufTy).Contents (Elt F) → (⟨S262144x1, .f32⟩ : BufTy).Contents (Elt F)),
    StableHlo.unary main_v82 main_v83 (fun v => shapeCast S262144 v shapeCasts_S262144x1_S262144),
    StableHlo.nullary main_cst_19 (constant S_ .f32 0x3F800000#32),
    StableHlo.unary main_cst_19 main_v84 (broadcastInDim S262144 ![] bcast_S_S262144 : (⟨S_, .f32⟩ : BufTy).Contents (Elt F) → (⟨S262144, .f32⟩ : BufTy).Contents (Elt F)),
    StableHlo.binary main_v84 main_v83 main_v85 (subf : (⟨S262144, .f32⟩ : BufTy).Contents (Elt F) → (⟨S262144, .f32⟩ : BufTy).Contents (Elt F) → (⟨S262144, .f32⟩ : BufTy).Contents (Elt F)),
    StableHlo.unary main_v6 main_v86 ((extractStridedSlice S262144x1 ![0, 0] · slices_S262144x2_S262144x1_0_0) : (⟨S262144x2, .i32⟩ : BufTy).Contents (Elt F) → (⟨S262144x1, .i32⟩ : BufTy).Contents (Elt F)),
    StableHlo.unary main_v86 main_v87 (fun v => shapeCast S262144 v shapeCasts_S262144x1_S262144),
    StableHlo.nullary main_c_20 (constantI S_ 32 1#32),
    StableHlo.unary main_c_20 main_v88 (broadcastInDim S262144 ![] bcast_S_S262144 : (⟨S_, .i32⟩ : BufTy).Contents (Elt F) → (⟨S262144, .i32⟩ : BufTy).Contents (Elt F)),
    StableHlo.binary main_v87 main_v88 main_v89 (addi : (⟨S262144, .i32⟩ : BufTy).Contents (Elt F) → (⟨S262144, .i32⟩ : BufTy).Contents (Elt F) → (⟨S262144, .i32⟩ : BufTy).Contents (Elt F)),
    StableHlo.unary main_v6 main_v90 ((extractStridedSlice S262144x1 ![0, 1] · slices_S262144x2_S262144x1_0_1) : (⟨S262144x2, .i32⟩ : BufTy).Contents (Elt F) → (⟨S262144x1, .i32⟩ : BufTy).Contents (Elt F)),
    StableHlo.unary main_v90 main_v91 (fun v => shapeCast S262144 v shapeCasts_S262144x1_S262144),
    StableHlo.nullary main_c_21 (constantI S_ 32 0#32),
    StableHlo.unary main_c_21 main_v92 (broadcastInDim S262144 ![] bcast_S_S262144 : (⟨S_, .i32⟩ : BufTy).Contents (Elt F) → (⟨S262144, .i32⟩ : BufTy).Contents (Elt F)),
    StableHlo.binary main_v91 main_v92 main_v93 (addi : (⟨S262144, .i32⟩ : BufTy).Contents (Elt F) → (⟨S262144, .i32⟩ : BufTy).Contents (Elt F) → (⟨S262144, .i32⟩ : BufTy).Contents (Elt F)),
    StableHlo.nullary main_c_22 (constantI S_ 32 16#32),
    StableHlo.unary main_c_22 main_v94 (broadcastInDim S262144 ![] bcast_S_S262144 : (⟨S_, .i32⟩ : BufTy).Contents (Elt F) → (⟨S262144, .i32⟩ : BufTy).Contents (Elt F)) ]

abbrev ops_part2 : List (HloOp τ sig (Elt F)) :=
  [ StableHlo.binary main_v93 main_v94 main_v95 (muli : (⟨S262144, .i32⟩ : BufTy).Contents (Elt F) → (⟨S262144, .i32⟩ : BufTy).Contents (Elt F) → (⟨S262144, .i32⟩ : BufTy).Contents (Elt F)),
    StableHlo.binary main_v89 main_v95 main_v96 (addi : (⟨S262144, .i32⟩ : BufTy).Contents (Elt F) → (⟨S262144, .i32⟩ : BufTy).Contents (Elt F) → (⟨S262144, .i32⟩ : BufTy).Contents (Elt F)),
    StableHlo.nullary main_c_23 (constantI S_ 32 256#32),
    StableHlo.unary main_c_23 main_call2_v0 id,
    StableHlo.nullary main_call2_c (constantI S_ 32 0#32),
    StableHlo.binary main_call2_v0 main_call2_c main_call2_v1 (cmpi .eq),
    StableHlo.nullary main_call2_c_0 (constantI S_ 32 1#32),
    StableHlo.ternary main_call2_v1 main_call2_c_0 main_call2_v0 main_call2_v2 select,
    StableHlo.unary main_call2_v2 main_call2_v3 (broadcastInDim S262144 ![] bcast_S_S262144),
    StableHlo.binary main_v96 main_call2_v3 main_call2_v4 Host.remsi,
    StableHlo.nullary main_call2_c_1 (constantI S_ 32 0#32),
    StableHlo.unary main_call2_c_1 main_call2_v5 (broadcastInDim S262144 ![] bcast_S_S262144),
    StableHlo.binary main_call2_v4 main_call2_v5 main_call2_v6 (cmpi .ne),
    StableHlo.nullary main_call2_c_2 (constantI S_ 32 0#32),
    StableHlo.unary main_call2_c_2 main_call2_v7 (broadcastInDim S262144 ![] bcast_S_S262144),
    StableHlo.binary main_call2_v4 main_call2_v7 main_call2_v8 (cmpi .slt),
    StableHlo.nullary main_call2_c_3 (constantI S_ 32 0#32),
    StableHlo.binary main_call2_v2 main_call2_c_3 main_call2_v9 (cmpi .slt),
    StableHlo.unary main_call2_v9 main_call2_v10 (broadcastInDim S262144 ![] bcast_S_S262144),
    StableHlo.binary main_call2_v8 main_call2_v10 main_call2_v11 (cmpi .ne),
    StableHlo.binary main_call2_v11 main_call2_v6 main_call2_v12 andi,
    StableHlo.unary main_call2_v2 main_call2_v13 (broadcastInDim S262144 ![] bcast_S_S262144),
    StableHlo.binary main_call2_v4 main_call2_v13 main_call2_v14 addi,
    StableHlo.ternary main_call2_v12 main_call2_v14 main_call2_v4 main_v97 select,
    StableHlo.binary main_v81 main_v85 main_v98 (mulf : (⟨S262144, .f32⟩ : BufTy).Contents (Elt F) → (⟨S262144, .f32⟩ : BufTy).Contents (Elt F) → (⟨S262144, .f32⟩ : BufTy).Contents (Elt F)),
    StableHlo.unary main_v98 main_v99 (broadcastInDim S262144x1 ![0] bcast_S262144_S262144x1_0 : (⟨S262144, .f32⟩ : BufTy).Contents (Elt F) → (⟨S262144x1, .f32⟩ : BufTy).Contents (Elt F)),
    StableHlo.nullary main_c_24 (constantI S_ 32 0#32),
    StableHlo.unary main_c_24 main_v100 (broadcastInDim S262144 ![] bcast_S_S262144 : (⟨S_, .i32⟩ : BufTy).Contents (Elt F) → (⟨S262144, .i32⟩ : BufTy).Contents (Elt F)),
    StableHlo.binary main_v97 main_v100 main_v101 (cmpi .slt : (⟨S262144, .i32⟩ : BufTy).Contents (Elt F) → (⟨S262144, .i32⟩ : BufTy).Contents (Elt F) → (⟨S262144, .i1⟩ : BufTy).Contents (Elt F)),
    StableHlo.nullary main_c_25 (constantI S_ 32 8192#32),
    StableHlo.unary main_c_25 main_v102 (broadcastInDim S262144 ![] bcast_S_S262144 : (⟨S_, .i32⟩ : BufTy).Contents (Elt F) → (⟨S262144, .i32⟩ : BufTy).Contents (Elt F)),
    StableHlo.binary main_v97 main_v102 main_v103 (addi : (⟨S262144, .i32⟩ : BufTy).Contents (Elt F) → (⟨S262144, .i32⟩ : BufTy).Contents (Elt F) → (⟨S262144, .i32⟩ : BufTy).Contents (Elt F)),
    StableHlo.ternary main_v101 main_v103 main_v97 main_v104 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.nullary main_c_26 (constantI S_ 32 0#32),
    StableHlo.unary main_c_26 main_v105 (broadcastInDim S262144 ![] bcast_S_S262144 : (⟨S_, .i32⟩ : BufTy).Contents (Elt F) → (⟨S262144, .i32⟩ : BufTy).Contents (Elt F)),
    StableHlo.unary main_v105 main_v106 (id : (⟨S262144, .i32⟩ : BufTy).Contents (Elt F) → (⟨S262144, .i32⟩ : BufTy).Contents (Elt F)),
    StableHlo.unary main_v106 main_v107 (broadcastInDim S262144x1 ![0] bcast_S262144_S262144x1_0 : (⟨S262144, .i32⟩ : BufTy).Contents (Elt F) → (⟨S262144x1, .i32⟩ : BufTy).Contents (Elt F)),
    StableHlo.unary main_v104 main_v108 (broadcastInDim S262144x1 ![0] bcast_S262144_S262144x1_0 : (⟨S262144, .i32⟩ : BufTy).Contents (Elt F) → (⟨S262144x1, .i32⟩ : BufTy).Contents (Elt F)),
    StableHlo.binary main_v107 main_v108 main_v109 (pairCols (α := BitVec 32)),
    StableHlo.binary main_arg1 main_v109 main_v110 ((fun x i => Host.gather gather_S8x8192x8_S262144x2_S262144x8_1_01_n_n_01_1_118 x i) : (⟨S8x8192x8, .f32⟩ : BufTy).Contents (Elt F) → (⟨S262144x2, .i32⟩ : BufTy).Contents (Elt F) → (⟨S262144x8, .f32⟩ : BufTy).Contents (Elt F)),
    StableHlo.unary main_v99 main_v111 (broadcastInDim S262144x8 ![0, 1] bcast_S262144x1_S262144x8_0_1 : (⟨S262144x1, .f32⟩ : BufTy).Contents (Elt F) → (⟨S262144x8, .f32⟩ : BufTy).Contents (Elt F)),
    StableHlo.binary main_v111 main_v110 main_v112 (mulf : (⟨S262144x8, .f32⟩ : BufTy).Contents (Elt F) → (⟨S262144x8, .f32⟩ : BufTy).Contents (Elt F) → (⟨S262144x8, .f32⟩ : BufTy).Contents (Elt F)),
    StableHlo.binary main_v79 main_v112 main_v113 (addf : (⟨S262144x8, .f32⟩ : BufTy).Contents (Elt F) → (⟨S262144x8, .f32⟩ : BufTy).Contents (Elt F) → (⟨S262144x8, .f32⟩ : BufTy).Contents (Elt F)),
    StableHlo.unary main_v12 main_v114 ((extractStridedSlice S262144x1 ![0, 1] · slices_S262144x2_S262144x1_0_1) : (⟨S262144x2, .f32⟩ : BufTy).Contents (Elt F) → (⟨S262144x1, .f32⟩ : BufTy).Contents (Elt F)),
    StableHlo.unary main_v114 main_v115 (fun v => shapeCast S262144 v shapeCasts_S262144x1_S262144),
    StableHlo.unary main_v6 main_v116 ((extractStridedSlice S262144x1 ![0, 0] · slices_S262144x2_S262144x1_0_0) : (⟨S262144x2, .i32⟩ : BufTy).Contents (Elt F) → (⟨S262144x1, .i32⟩ : BufTy).Contents (Elt F)),
    StableHlo.unary main_v116 main_v117 (fun v => shapeCast S262144 v shapeCasts_S262144x1_S262144),
    StableHlo.nullary main_c_27 (constantI S_ 32 1#32),
    StableHlo.unary main_c_27 main_v118 (broadcastInDim S262144 ![] bcast_S_S262144 : (⟨S_, .i32⟩ : BufTy).Contents (Elt F) → (⟨S262144, .i32⟩ : BufTy).Contents (Elt F)),
    StableHlo.binary main_v117 main_v118 main_v119 (addi : (⟨S262144, .i32⟩ : BufTy).Contents (Elt F) → (⟨S262144, .i32⟩ : BufTy).Contents (Elt F) → (⟨S262144, .i32⟩ : BufTy).Contents (Elt F)),
    StableHlo.unary main_v6 main_v120 ((extractStridedSlice S262144x1 ![0, 1] · slices_S262144x2_S262144x1_0_1) : (⟨S262144x2, .i32⟩ : BufTy).Contents (Elt F) → (⟨S262144x1, .i32⟩ : BufTy).Contents (Elt F)),
    StableHlo.unary main_v120 main_v121 (fun v => shapeCast S262144 v shapeCasts_S262144x1_S262144),
    StableHlo.nullary main_c_28 (constantI S_ 32 1#32),
    StableHlo.unary main_c_28 main_v122 (broadcastInDim S262144 ![] bcast_S_S262144 : (⟨S_, .i32⟩ : BufTy).Contents (Elt F) → (⟨S262144, .i32⟩ : BufTy).Contents (Elt F)),
    StableHlo.binary main_v121 main_v122 main_v123 (addi : (⟨S262144, .i32⟩ : BufTy).Contents (Elt F) → (⟨S262144, .i32⟩ : BufTy).Contents (Elt F) → (⟨S262144, .i32⟩ : BufTy).Contents (Elt F)),
    StableHlo.nullary main_c_29 (constantI S_ 32 16#32),
    StableHlo.unary main_c_29 main_v124 (broadcastInDim S262144 ![] bcast_S_S262144 : (⟨S_, .i32⟩ : BufTy).Contents (Elt F) → (⟨S262144, .i32⟩ : BufTy).Contents (Elt F)),
    StableHlo.binary main_v123 main_v124 main_v125 (muli : (⟨S262144, .i32⟩ : BufTy).Contents (Elt F) → (⟨S262144, .i32⟩ : BufTy).Contents (Elt F) → (⟨S262144, .i32⟩ : BufTy).Contents (Elt F)),
    StableHlo.binary main_v119 main_v125 main_v126 (addi : (⟨S262144, .i32⟩ : BufTy).Contents (Elt F) → (⟨S262144, .i32⟩ : BufTy).Contents (Elt F) → (⟨S262144, .i32⟩ : BufTy).Contents (Elt F)),
    StableHlo.nullary main_c_30 (constantI S_ 32 256#32),
    StableHlo.unary main_c_30 main_call3_v0 id,
    StableHlo.nullary main_call3_c (constantI S_ 32 0#32),
    StableHlo.binary main_call3_v0 main_call3_c main_call3_v1 (cmpi .eq),
    StableHlo.nullary main_call3_c_0 (constantI S_ 32 1#32),
    StableHlo.ternary main_call3_v1 main_call3_c_0 main_call3_v0 main_call3_v2 select,
    StableHlo.unary main_call3_v2 main_call3_v3 (broadcastInDim S262144 ![] bcast_S_S262144),
    StableHlo.binary main_v126 main_call3_v3 main_call3_v4 Host.remsi,
    StableHlo.nullary main_call3_c_1 (constantI S_ 32 0#32),
    StableHlo.unary main_call3_c_1 main_call3_v5 (broadcastInDim S262144 ![] bcast_S_S262144),
    StableHlo.binary main_call3_v4 main_call3_v5 main_call3_v6 (cmpi .ne),
    StableHlo.nullary main_call3_c_2 (constantI S_ 32 0#32),
    StableHlo.unary main_call3_c_2 main_call3_v7 (broadcastInDim S262144 ![] bcast_S_S262144),
    StableHlo.binary main_call3_v4 main_call3_v7 main_call3_v8 (cmpi .slt),
    StableHlo.nullary main_call3_c_3 (constantI S_ 32 0#32),
    StableHlo.binary main_call3_v2 main_call3_c_3 main_call3_v9 (cmpi .slt),
    StableHlo.unary main_call3_v9 main_call3_v10 (broadcastInDim S262144 ![] bcast_S_S262144),
    StableHlo.binary main_call3_v8 main_call3_v10 main_call3_v11 (cmpi .ne),
    StableHlo.binary main_call3_v11 main_call3_v6 main_call3_v12 andi,
    StableHlo.unary main_call3_v2 main_call3_v13 (broadcastInDim S262144 ![] bcast_S_S262144),
    StableHlo.binary main_call3_v4 main_call3_v13 main_call3_v14 addi,
    StableHlo.ternary main_call3_v12 main_call3_v14 main_call3_v4 main_v127 select,
    StableHlo.binary main_v81 main_v115 main_v128 (mulf : (⟨S262144, .f32⟩ : BufTy).Contents (Elt F) → (⟨S262144, .f32⟩ : BufTy).Contents (Elt F) → (⟨S262144, .f32⟩ : BufTy).Contents (Elt F)),
    StableHlo.unary main_v128 main_v129 (broadcastInDim S262144x1 ![0] bcast_S262144_S262144x1_0 : (⟨S262144, .f32⟩ : BufTy).Contents (Elt F) → (⟨S262144x1, .f32⟩ : BufTy).Contents (Elt F)),
    StableHlo.nullary main_c_31 (constantI S_ 32 0#32),
    StableHlo.unary main_c_31 main_v130 (broadcastInDim S262144 ![] bcast_S_S262144 : (⟨S_, .i32⟩ : BufTy).Contents (Elt F) → (⟨S262144, .i32⟩ : BufTy).Contents (Elt F)),
    StableHlo.binary main_v127 main_v130 main_v131 (cmpi .slt : (⟨S262144, .i32⟩ : BufTy).Contents (Elt F) → (⟨S262144, .i32⟩ : BufTy).Contents (Elt F) → (⟨S262144, .i1⟩ : BufTy).Contents (Elt F)),
    StableHlo.nullary main_c_32 (constantI S_ 32 8192#32),
    StableHlo.unary main_c_32 main_v132 (broadcastInDim S262144 ![] bcast_S_S262144 : (⟨S_, .i32⟩ : BufTy).Contents (Elt F) → (⟨S262144, .i32⟩ : BufTy).Contents (Elt F)),
    StableHlo.binary main_v127 main_v132 main_v133 (addi : (⟨S262144, .i32⟩ : BufTy).Contents (Elt F) → (⟨S262144, .i32⟩ : BufTy).Contents (Elt F) → (⟨S262144, .i32⟩ : BufTy).Contents (Elt F)),
    StableHlo.ternary main_v131 main_v133 main_v127 main_v134 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.nullary main_c_33 (constantI S_ 32 0#32),
    StableHlo.unary main_c_33 main_v135 (broadcastInDim S262144 ![] bcast_S_S262144 : (⟨S_, .i32⟩ : BufTy).Contents (Elt F) → (⟨S262144, .i32⟩ : BufTy).Contents (Elt F)),
    StableHlo.unary main_v135 main_v136 (id : (⟨S262144, .i32⟩ : BufTy).Contents (Elt F) → (⟨S262144, .i32⟩ : BufTy).Contents (Elt F)),
    StableHlo.unary main_v136 main_v137 (broadcastInDim S262144x1 ![0] bcast_S262144_S262144x1_0 : (⟨S262144, .i32⟩ : BufTy).Contents (Elt F) → (⟨S262144x1, .i32⟩ : BufTy).Contents (Elt F)),
    StableHlo.unary main_v134 main_v138 (broadcastInDim S262144x1 ![0] bcast_S262144_S262144x1_0 : (⟨S262144, .i32⟩ : BufTy).Contents (Elt F) → (⟨S262144x1, .i32⟩ : BufTy).Contents (Elt F)),
    StableHlo.binary main_v137 main_v138 main_v139 (pairCols (α := BitVec 32)),
    StableHlo.binary main_arg1 main_v139 main_v140 ((fun x i => Host.gather gather_S8x8192x8_S262144x2_S262144x8_1_01_n_n_01_1_118 x i) : (⟨S8x8192x8, .f32⟩ : BufTy).Contents (Elt F) → (⟨S262144x2, .i32⟩ : BufTy).Contents (Elt F) → (⟨S262144x8, .f32⟩ : BufTy).Contents (Elt F)),
    StableHlo.unary main_v129 main_v141 (broadcastInDim S262144x8 ![0, 1] bcast_S262144x1_S262144x8_0_1 : (⟨S262144x1, .f32⟩ : BufTy).Contents (Elt F) → (⟨S262144x8, .f32⟩ : BufTy).Contents (Elt F)),
    StableHlo.binary main_v141 main_v140 main_v142 (mulf : (⟨S262144x8, .f32⟩ : BufTy).Contents (Elt F) → (⟨S262144x8, .f32⟩ : BufTy).Contents (Elt F) → (⟨S262144x8, .f32⟩ : BufTy).Contents (Elt F)),
    StableHlo.binary main_v113 main_v142 main_v143 (addf : (⟨S262144x8, .f32⟩ : BufTy).Contents (Elt F) → (⟨S262144x8, .f32⟩ : BufTy).Contents (Elt F) → (⟨S262144x8, .f32⟩ : BufTy).Contents (Elt F)) ]

abbrev ops_part3 : List (HloOp τ sig (Elt F)) :=
  [ StableHlo.nullary main_cst_34 (constant S_ .f32 0x41994518#32),
    StableHlo.unary main_cst_34 main_v144 (broadcastInDim S262144x2 ![] bcast_S_S262144x2 : (⟨S_, .f32⟩ : BufTy).Contents (Elt F) → (⟨S262144x2, .f32⟩ : BufTy).Contents (Elt F)),
    StableHlo.binary main_arg0 main_v144 main_v145 (mulf : (⟨S262144x2, .f32⟩ : BufTy).Contents (Elt F) → (⟨S262144x2, .f32⟩ : BufTy).Contents (Elt F) → (⟨S262144x2, .f32⟩ : BufTy).Contents (Elt F)),
    StableHlo.nullary main_cst_35 (constant S_ .f32 0x3F000000#32),
    StableHlo.unary main_cst_35 main_v146 (broadcastInDim S262144x2 ![] bcast_S_S262144x2 : (⟨S_, .f32⟩ : BufTy).Contents (Elt F) → (⟨S262144x2, .f32⟩ : BufTy).Contents (Elt F)),
    StableHlo.binary main_v145 main_v146 main_v147 (addf : (⟨S262144x2, .f32⟩ : BufTy).Contents (Elt F) → (⟨S262144x2, .f32⟩ : BufTy).Contents (Elt F) → (⟨S262144x2, .f32⟩ : BufTy).Contents (Elt F)),
    StableHlo.unary main_v147 main_v148 (Host.floor : (⟨S262144x2, .f32⟩ : BufTy).Contents (Elt F) → (⟨S262144x2, .f32⟩ : BufTy).Contents (Elt F)),
    StableHlo.binary main_v147 main_v148 main_v149 (subf : (⟨S262144x2, .f32⟩ : BufTy).Contents (Elt F) → (⟨S262144x2, .f32⟩ : BufTy).Contents (Elt F) → (⟨S262144x2, .f32⟩ : BufTy).Contents (Elt F)),
    StableHlo.unary main_v148 main_v150 (fptosi 32 : (⟨S262144x2, .f32⟩ : BufTy).Contents (Elt F) → (⟨S262144x2, .i32⟩ : BufTy).Contents (Elt F)),
    StableHlo.binary main_v149 main_v149 main_v151 (mulf : (⟨S262144x2, .f32⟩ : BufTy).Contents (Elt F) → (⟨S262144x2, .f32⟩ : BufTy).Contents (Elt F) → (⟨S262144x2, .f32⟩ : BufTy).Contents (Elt F)),
    StableHlo.nullary main_cst_36 (constant S_ .f32 0x40000000#32),
    StableHlo.unary main_cst_36 main_v152 (broadcastInDim S262144x2 ![] bcast_S_S262144x2 : (⟨S_, .f32⟩ : BufTy).Contents (Elt F) → (⟨S262144x2, .f32⟩ : BufTy).Contents (Elt F)),
    StableHlo.binary main_v152 main_v149 main_v153 (mulf : (⟨S262144x2, .f32⟩ : BufTy).Contents (Elt F) → (⟨S262144x2, .f32⟩ : BufTy).Contents (Elt F) → (⟨S262144x2, .f32⟩ : BufTy).Contents (Elt F)),
    StableHlo.nullary main_cst_37 (constant S_ .f32 0x40400000#32),
    StableHlo.unary main_cst_37 main_v154 (broadcastInDim S262144x2 ![] bcast_S_S262144x2 : (⟨S_, .f32⟩ : BufTy).Contents (Elt F) → (⟨S262144x2, .f32⟩ : BufTy).Contents (Elt F)),
    StableHlo.binary main_v154 main_v153 main_v155 (subf : (⟨S262144x2, .f32⟩ : BufTy).Contents (Elt F) → (⟨S262144x2, .f32⟩ : BufTy).Contents (Elt F) → (⟨S262144x2, .f32⟩ : BufTy).Contents (Elt F)),
    StableHlo.binary main_v151 main_v155 main_v156 (mulf : (⟨S262144x2, .f32⟩ : BufTy).Contents (Elt F) → (⟨S262144x2, .f32⟩ : BufTy).Contents (Elt F) → (⟨S262144x2, .f32⟩ : BufTy).Contents (Elt F)),
    StableHlo.nullary main_cst_38 (constant S_ .f32 0x00000000#32),
    StableHlo.unary main_cst_38 main_v157 (broadcastInDim S262144x8 ![] bcast_S_S262144x8 : (⟨S_, .f32⟩ : BufTy).Contents (Elt F) → (⟨S262144x8, .f32⟩ : BufTy).Contents (Elt F)),
    StableHlo.unary main_v156 main_v158 ((extractStridedSlice S262144x1 ![0, 0] · slices_S262144x2_S262144x1_0_0) : (⟨S262144x2, .f32⟩ : BufTy).Contents (Elt F) → (⟨S262144x1, .f32⟩ : BufTy).Contents (Elt F)),
    StableHlo.unary main_v158 main_v159 (fun v => shapeCast S262144 v shapeCasts_S262144x1_S262144),
    StableHlo.nullary main_cst_39 (constant S_ .f32 0x3F800000#32),
    StableHlo.unary main_cst_39 main_v160 (broadcastInDim S262144 ![] bcast_S_S262144 : (⟨S_, .f32⟩ : BufTy).Contents (Elt F) → (⟨S262144, .f32⟩ : BufTy).Contents (Elt F)),
    StableHlo.binary main_v160 main_v159 main_v161 (subf : (⟨S262144, .f32⟩ : BufTy).Contents (Elt F) → (⟨S262144, .f32⟩ : BufTy).Contents (Elt F) → (⟨S262144, .f32⟩ : BufTy).Contents (Elt F)),
    StableHlo.unary main_v156 main_v162 ((extractStridedSlice S262144x1 ![0, 1] · slices_S262144x2_S262144x1_0_1) : (⟨S262144x2, .f32⟩ : BufTy).Contents (Elt F) → (⟨S262144x1, .f32⟩ : BufTy).Contents (Elt F)),
    StableHlo.unary main_v162 main_v163 (fun v => shapeCast S262144 v shapeCasts_S262144x1_S262144),
    StableHlo.nullary main_cst_40 (constant S_ .f32 0x3F800000#32),
    StableHlo.unary main_cst_40 main_v164 (broadcastInDim S262144 ![] bcast_S_S262144 : (⟨S_, .f32⟩ : BufTy).Contents (Elt F) → (⟨S262144, .f32⟩ : BufTy).Contents (Elt F)),
    StableHlo.binary main_v164 main_v163 main_v165 (subf : (⟨S262144, .f32⟩ : BufTy).Contents (Elt F) → (⟨S262144, .f32⟩ : BufTy).Contents (Elt F) → (⟨S262144, .f32⟩ : BufTy).Contents (Elt F)),
    StableHlo.unary main_v150 main_v166 ((extractStridedSlice S262144x1 ![0, 0] · slices_S262144x2_S262144x1_0_0) : (⟨S262144x2, .i32⟩ : BufTy).Contents (Elt F) → (⟨S262144x1, .i32⟩ : BufTy).Contents (Elt F)),
    StableHlo.unary main_v166 main_v167 (fun v => shapeCast S262144 v shapeCasts_S262144x1_S262144),
    StableHlo.nullary main_c_41 (constantI S_ 32 0#32),
    StableHlo.unary main_c_41 main_v168 (broadcastInDim S262144 ![] bcast_S_S262144 : (⟨S_, .i32⟩ : BufTy).Contents (Elt F) → (⟨S262144, .i32⟩ : BufTy).Contents (Elt F)),
    StableHlo.binary main_v167 main_v168 main_v169 (addi : (⟨S262144, .i32⟩ : BufTy).Contents (Elt F) → (⟨S262144, .i32⟩ : BufTy).Contents (Elt F) → (⟨S262144, .i32⟩ : BufTy).Contents (Elt F)),
    StableHlo.unary main_v150 main_v170 ((extractStridedSlice S262144x1 ![0, 1] · slices_S262144x2_S262144x1_0_1) : (⟨S262144x2, .i32⟩ : BufTy).Contents (Elt F) → (⟨S262144x1, .i32⟩ : BufTy).Contents (Elt F)),
    StableHlo.unary main_v170 main_v171 (fun v => shapeCast S262144 v shapeCasts_S262144x1_S262144),
    StableHlo.nullary main_c_42 (constantI S_ 32 0#32),
    StableHlo.unary main_c_42 main_v172 (broadcastInDim S262144 ![] bcast_S_S262144 : (⟨S_, .i32⟩ : BufTy).Contents (Elt F) → (⟨S262144, .i32⟩ : BufTy).Contents (Elt F)),
    StableHlo.binary main_v171 main_v172 main_v173 (addi : (⟨S262144, .i32⟩ : BufTy).Contents (Elt F) → (⟨S262144, .i32⟩ : BufTy).Contents (Elt F) → (⟨S262144, .i32⟩ : BufTy).Contents (Elt F)),
    StableHlo.nullary main_c_43 (constantI S_ 32 21#32),
    StableHlo.unary main_c_43 main_v174 (broadcastInDim S262144 ![] bcast_S_S262144 : (⟨S_, .i32⟩ : BufTy).Contents (Elt F) → (⟨S262144, .i32⟩ : BufTy).Contents (Elt F)),
    StableHlo.binary main_v173 main_v174 main_v175 (muli : (⟨S262144, .i32⟩ : BufTy).Contents (Elt F) → (⟨S262144, .i32⟩ : BufTy).Contents (Elt F) → (⟨S262144, .i32⟩ : BufTy).Contents (Elt F)),
    StableHlo.binary main_v169 main_v175 main_v176 (addi : (⟨S262144, .i32⟩ : BufTy).Contents (Elt F) → (⟨S262144, .i32⟩ : BufTy).Contents (Elt F) → (⟨S262144, .i32⟩ : BufTy).Contents (Elt F)),
    StableHlo.nullary main_c_44 (constantI S_ 32 448#32),
    StableHlo.unary main_c_44 main_call4_v0 id,
    StableHlo.nullary main_call4_c (constantI S_ 32 0#32),
    StableHlo.binary main_call4_v0 main_call4_c main_call4_v1 (cmpi .eq),
    StableHlo.nullary main_call4_c_0 (constantI S_ 32 1#32),
    StableHlo.ternary main_call4_v1 main_call4_c_0 main_call4_v0 main_call4_v2 select,
    StableHlo.unary main_call4_v2 main_call4_v3 (broadcastInDim S262144 ![] bcast_S_S262144),
    StableHlo.binary main_v176 main_call4_v3 main_call4_v4 Host.remsi,
    StableHlo.nullary main_call4_c_1 (constantI S_ 32 0#32),
    StableHlo.unary main_call4_c_1 main_call4_v5 (broadcastInDim S262144 ![] bcast_S_S262144),
    StableHlo.binary main_call4_v4 main_call4_v5 main_call4_v6 (cmpi .ne),
    StableHlo.nullary main_call4_c_2 (constantI S_ 32 0#32),
    StableHlo.unary main_call4_c_2 main_call4_v7 (broadcastInDim S262144 ![] bcast_S_S262144),
    StableHlo.binary main_call4_v4 main_call4_v7 main_call4_v8 (cmpi .slt),
    StableHlo.nullary main_call4_c_3 (constantI S_ 32 0#32),
    StableHlo.binary main_call4_v2 main_call4_c_3 main_call4_v9 (cmpi .slt),
    StableHlo.unary main_call4_v9 main_call4_v10 (broadcastInDim S262144 ![] bcast_S_S262144),
    StableHlo.binary main_call4_v8 main_call4_v10 main_call4_v11 (cmpi .ne),
    StableHlo.binary main_call4_v11 main_call4_v6 main_call4_v12 andi,
    StableHlo.unary main_call4_v2 main_call4_v13 (broadcastInDim S262144 ![] bcast_S_S262144),
    StableHlo.binary main_call4_v4 main_call4_v13 main_call4_v14 addi,
    StableHlo.ternary main_call4_v12 main_call4_v14 main_call4_v4 main_v177 select,
    StableHlo.binary main_v161 main_v165 main_v178 (mulf : (⟨S262144, .f32⟩ : BufTy).Contents (Elt F) → (⟨S262144, .f32⟩ : BufTy).Contents (Elt F) → (⟨S262144, .f32⟩ : BufTy).Contents (Elt F)),
    StableHlo.unary main_v178 main_v179 (broadcastInDim S262144x1 ![0] bcast_S262144_S262144x1_0 : (⟨S262144, .f32⟩ : BufTy).Contents (Elt F) → (⟨S262144x1, .f32⟩ : BufTy).Contents (Elt F)),
    StableHlo.nullary main_c_45 (constantI S_ 32 0#32),
    StableHlo.unary main_c_45 main_v180 (broadcastInDim S262144 ![] bcast_S_S262144 : (⟨S_, .i32⟩ : BufTy).Contents (Elt F) → (⟨S262144, .i32⟩ : BufTy).Contents (Elt F)),
    StableHlo.binary main_v177 main_v180 main_v181 (cmpi .slt : (⟨S262144, .i32⟩ : BufTy).Contents (Elt F) → (⟨S262144, .i32⟩ : BufTy).Contents (Elt F) → (⟨S262144, .i1⟩ : BufTy).Contents (Elt F)),
    StableHlo.nullary main_c_46 (constantI S_ 32 8192#32),
    StableHlo.unary main_c_46 main_v182 (broadcastInDim S262144 ![] bcast_S_S262144 : (⟨S_, .i32⟩ : BufTy).Contents (Elt F) → (⟨S262144, .i32⟩ : BufTy).Contents (Elt F)),
    StableHlo.binary main_v177 main_v182 main_v183 (addi : (⟨S262144, .i32⟩ : BufTy).Contents (Elt F) → (⟨S262144, .i32⟩ : BufTy).Contents (Elt F) → (⟨S262144, .i32⟩ : BufTy).Contents (Elt F)),
    StableHlo.ternary main_v181 main_v183 main_v177 main_v184 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.nullary main_c_47 (constantI S_ 32 1#32),
    StableHlo.unary main_c_47 main_v185 (broadcastInDim S262144 ![] bcast_S_S262144 : (⟨S_, .i32⟩ : BufTy).Contents (Elt F) → (⟨S262144, .i32⟩ : BufTy).Contents (Elt F)),
    StableHlo.unary main_v185 main_v186 (id : (⟨S262144, .i32⟩ : BufTy).Contents (Elt F) → (⟨S262144, .i32⟩ : BufTy).Contents (Elt F)),
    StableHlo.unary main_v186 main_v187 (broadcastInDim S262144x1 ![0] bcast_S262144_S262144x1_0 : (⟨S262144, .i32⟩ : BufTy).Contents (Elt F) → (⟨S262144x1, .i32⟩ : BufTy).Contents (Elt F)),
    StableHlo.unary main_v184 main_v188 (broadcastInDim S262144x1 ![0] bcast_S262144_S262144x1_0 : (⟨S262144, .i32⟩ : BufTy).Contents (Elt F) → (⟨S262144x1, .i32⟩ : BufTy).Contents (Elt F)),
    StableHlo.binary main_v187 main_v188 main_v189 (pairCols (α := BitVec 32)) ]

abbrev ops_part4 : List (HloOp τ sig (Elt F)) :=
  [ StableHlo.binary main_arg1 main_v189 main_v190 ((fun x i => Host.gather gather_S8x8192x8_S262144x2_S262144x8_1_01_n_n_01_1_118 x i) : (⟨S8x8192x8, .f32⟩ : BufTy).Contents (Elt F) → (⟨S262144x2, .i32⟩ : BufTy).Contents (Elt F) → (⟨S262144x8, .f32⟩ : BufTy).Contents (Elt F)),
    StableHlo.unary main_v179 main_v191 (broadcastInDim S262144x8 ![0, 1] bcast_S262144x1_S262144x8_0_1 : (⟨S262144x1, .f32⟩ : BufTy).Contents (Elt F) → (⟨S262144x8, .f32⟩ : BufTy).Contents (Elt F)),
    StableHlo.binary main_v191 main_v190 main_v192 (mulf : (⟨S262144x8, .f32⟩ : BufTy).Contents (Elt F) → (⟨S262144x8, .f32⟩ : BufTy).Contents (Elt F) → (⟨S262144x8, .f32⟩ : BufTy).Contents (Elt F)),
    StableHlo.binary main_v157 main_v192 main_v193 (addf : (⟨S262144x8, .f32⟩ : BufTy).Contents (Elt F) → (⟨S262144x8, .f32⟩ : BufTy).Contents (Elt F) → (⟨S262144x8, .f32⟩ : BufTy).Contents (Elt F)),
    StableHlo.unary main_v156 main_v194 ((extractStridedSlice S262144x1 ![0, 1] · slices_S262144x2_S262144x1_0_1) : (⟨S262144x2, .f32⟩ : BufTy).Contents (Elt F) → (⟨S262144x1, .f32⟩ : BufTy).Contents (Elt F)),
    StableHlo.unary main_v194 main_v195 (fun v => shapeCast S262144 v shapeCasts_S262144x1_S262144),
    StableHlo.unary main_v150 main_v196 ((extractStridedSlice S262144x1 ![0, 0] · slices_S262144x2_S262144x1_0_0) : (⟨S262144x2, .i32⟩ : BufTy).Contents (Elt F) → (⟨S262144x1, .i32⟩ : BufTy).Contents (Elt F)),
    StableHlo.unary main_v196 main_v197 (fun v => shapeCast S262144 v shapeCasts_S262144x1_S262144),
    StableHlo.nullary main_c_48 (constantI S_ 32 0#32),
    StableHlo.unary main_c_48 main_v198 (broadcastInDim S262144 ![] bcast_S_S262144 : (⟨S_, .i32⟩ : BufTy).Contents (Elt F) → (⟨S262144, .i32⟩ : BufTy).Contents (Elt F)),
    StableHlo.binary main_v197 main_v198 main_v199 (addi : (⟨S262144, .i32⟩ : BufTy).Contents (Elt F) → (⟨S262144, .i32⟩ : BufTy).Contents (Elt F) → (⟨S262144, .i32⟩ : BufTy).Contents (Elt F)),
    StableHlo.unary main_v150 main_v200 ((extractStridedSlice S262144x1 ![0, 1] · slices_S262144x2_S262144x1_0_1) : (⟨S262144x2, .i32⟩ : BufTy).Contents (Elt F) → (⟨S262144x1, .i32⟩ : BufTy).Contents (Elt F)),
    StableHlo.unary main_v200 main_v201 (fun v => shapeCast S262144 v shapeCasts_S262144x1_S262144),
    StableHlo.nullary main_c_49 (constantI S_ 32 1#32),
    StableHlo.unary main_c_49 main_v202 (broadcastInDim S262144 ![] bcast_S_S262144 : (⟨S_, .i32⟩ : BufTy).Contents (Elt F) → (⟨S262144, .i32⟩ : BufTy).Contents (Elt F)),
    StableHlo.binary main_v201 main_v202 main_v203 (addi : (⟨S262144, .i32⟩ : BufTy).Contents (Elt F) → (⟨S262144, .i32⟩ : BufTy).Contents (Elt F) → (⟨S262144, .i32⟩ : BufTy).Contents (Elt F)),
    StableHlo.nullary main_c_50 (constantI S_ 32 21#32),
    StableHlo.unary main_c_50 main_v204 (broadcastInDim S262144 ![] bcast_S_S262144 : (⟨S_, .i32⟩ : BufTy).Contents (Elt F) → (⟨S262144, .i32⟩ : BufTy).Contents (Elt F)),
    StableHlo.binary main_v203 main_v204 main_v205 (muli : (⟨S262144, .i32⟩ : BufTy).Contents (Elt F) → (⟨S262144, .i32⟩ : BufTy).Contents (Elt F) → (⟨S262144, .i32⟩ : BufTy).Contents (Elt F)),
    StableHlo.binary main_v199 main_v205 main_v206 (addi : (⟨S262144, .i32⟩ : BufTy).Contents (Elt F) → (⟨S262144, .i32⟩ : BufTy).Contents (Elt F) → (⟨S262144, .i32⟩ : BufTy).Contents (Elt F)),
    StableHlo.nullary main_c_51 (constantI S_ 32 448#32),
    StableHlo.unary main_c_51 main_call5_v0 id,
    StableHlo.nullary main_call5_c (constantI S_ 32 0#32),
    StableHlo.binary main_call5_v0 main_call5_c main_call5_v1 (cmpi .eq),
    StableHlo.nullary main_call5_c_0 (constantI S_ 32 1#32),
    StableHlo.ternary main_call5_v1 main_call5_c_0 main_call5_v0 main_call5_v2 select,
    StableHlo.unary main_call5_v2 main_call5_v3 (broadcastInDim S262144 ![] bcast_S_S262144),
    StableHlo.binary main_v206 main_call5_v3 main_call5_v4 Host.remsi,
    StableHlo.nullary main_call5_c_1 (constantI S_ 32 0#32),
    StableHlo.unary main_call5_c_1 main_call5_v5 (broadcastInDim S262144 ![] bcast_S_S262144),
    StableHlo.binary main_call5_v4 main_call5_v5 main_call5_v6 (cmpi .ne),
    StableHlo.nullary main_call5_c_2 (constantI S_ 32 0#32),
    StableHlo.unary main_call5_c_2 main_call5_v7 (broadcastInDim S262144 ![] bcast_S_S262144),
    StableHlo.binary main_call5_v4 main_call5_v7 main_call5_v8 (cmpi .slt),
    StableHlo.nullary main_call5_c_3 (constantI S_ 32 0#32),
    StableHlo.binary main_call5_v2 main_call5_c_3 main_call5_v9 (cmpi .slt),
    StableHlo.unary main_call5_v9 main_call5_v10 (broadcastInDim S262144 ![] bcast_S_S262144),
    StableHlo.binary main_call5_v8 main_call5_v10 main_call5_v11 (cmpi .ne),
    StableHlo.binary main_call5_v11 main_call5_v6 main_call5_v12 andi,
    StableHlo.unary main_call5_v2 main_call5_v13 (broadcastInDim S262144 ![] bcast_S_S262144),
    StableHlo.binary main_call5_v4 main_call5_v13 main_call5_v14 addi,
    StableHlo.ternary main_call5_v12 main_call5_v14 main_call5_v4 main_v207 select,
    StableHlo.binary main_v161 main_v195 main_v208 (mulf : (⟨S262144, .f32⟩ : BufTy).Contents (Elt F) → (⟨S262144, .f32⟩ : BufTy).Contents (Elt F) → (⟨S262144, .f32⟩ : BufTy).Contents (Elt F)),
    StableHlo.unary main_v208 main_v209 (broadcastInDim S262144x1 ![0] bcast_S262144_S262144x1_0 : (⟨S262144, .f32⟩ : BufTy).Contents (Elt F) → (⟨S262144x1, .f32⟩ : BufTy).Contents (Elt F)),
    StableHlo.nullary main_c_52 (constantI S_ 32 0#32),
    StableHlo.unary main_c_52 main_v210 (broadcastInDim S262144 ![] bcast_S_S262144 : (⟨S_, .i32⟩ : BufTy).Contents (Elt F) → (⟨S262144, .i32⟩ : BufTy).Contents (Elt F)),
    StableHlo.binary main_v207 main_v210 main_v211 (cmpi .slt : (⟨S262144, .i32⟩ : BufTy).Contents (Elt F) → (⟨S262144, .i32⟩ : BufTy).Contents (Elt F) → (⟨S262144, .i1⟩ : BufTy).Contents (Elt F)),
    StableHlo.nullary main_c_53 (constantI S_ 32 8192#32),
    StableHlo.unary main_c_53 main_v212 (broadcastInDim S262144 ![] bcast_S_S262144 : (⟨S_, .i32⟩ : BufTy).Contents (Elt F) → (⟨S262144, .i32⟩ : BufTy).Contents (Elt F)),
    StableHlo.binary main_v207 main_v212 main_v213 (addi : (⟨S262144, .i32⟩ : BufTy).Contents (Elt F) → (⟨S262144, .i32⟩ : BufTy).Contents (Elt F) → (⟨S262144, .i32⟩ : BufTy).Contents (Elt F)),
    StableHlo.ternary main_v211 main_v213 main_v207 main_v214 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.nullary main_c_54 (constantI S_ 32 1#32),
    StableHlo.unary main_c_54 main_v215 (broadcastInDim S262144 ![] bcast_S_S262144 : (⟨S_, .i32⟩ : BufTy).Contents (Elt F) → (⟨S262144, .i32⟩ : BufTy).Contents (Elt F)),
    StableHlo.unary main_v215 main_v216 (id : (⟨S262144, .i32⟩ : BufTy).Contents (Elt F) → (⟨S262144, .i32⟩ : BufTy).Contents (Elt F)),
    StableHlo.unary main_v216 main_v217 (broadcastInDim S262144x1 ![0] bcast_S262144_S262144x1_0 : (⟨S262144, .i32⟩ : BufTy).Contents (Elt F) → (⟨S262144x1, .i32⟩ : BufTy).Contents (Elt F)),
    StableHlo.unary main_v214 main_v218 (broadcastInDim S262144x1 ![0] bcast_S262144_S262144x1_0 : (⟨S262144, .i32⟩ : BufTy).Contents (Elt F) → (⟨S262144x1, .i32⟩ : BufTy).Contents (Elt F)),
    StableHlo.binary main_v217 main_v218 main_v219 (pairCols (α := BitVec 32)),
    StableHlo.binary main_arg1 main_v219 main_v220 ((fun x i => Host.gather gather_S8x8192x8_S262144x2_S262144x8_1_01_n_n_01_1_118 x i) : (⟨S8x8192x8, .f32⟩ : BufTy).Contents (Elt F) → (⟨S262144x2, .i32⟩ : BufTy).Contents (Elt F) → (⟨S262144x8, .f32⟩ : BufTy).Contents (Elt F)),
    StableHlo.unary main_v209 main_v221 (broadcastInDim S262144x8 ![0, 1] bcast_S262144x1_S262144x8_0_1 : (⟨S262144x1, .f32⟩ : BufTy).Contents (Elt F) → (⟨S262144x8, .f32⟩ : BufTy).Contents (Elt F)),
    StableHlo.binary main_v221 main_v220 main_v222 (mulf : (⟨S262144x8, .f32⟩ : BufTy).Contents (Elt F) → (⟨S262144x8, .f32⟩ : BufTy).Contents (Elt F) → (⟨S262144x8, .f32⟩ : BufTy).Contents (Elt F)),
    StableHlo.binary main_v193 main_v222 main_v223 (addf : (⟨S262144x8, .f32⟩ : BufTy).Contents (Elt F) → (⟨S262144x8, .f32⟩ : BufTy).Contents (Elt F) → (⟨S262144x8, .f32⟩ : BufTy).Contents (Elt F)),
    StableHlo.unary main_v156 main_v224 ((extractStridedSlice S262144x1 ![0, 0] · slices_S262144x2_S262144x1_0_0) : (⟨S262144x2, .f32⟩ : BufTy).Contents (Elt F) → (⟨S262144x1, .f32⟩ : BufTy).Contents (Elt F)),
    StableHlo.unary main_v224 main_v225 (fun v => shapeCast S262144 v shapeCasts_S262144x1_S262144),
    StableHlo.unary main_v156 main_v226 ((extractStridedSlice S262144x1 ![0, 1] · slices_S262144x2_S262144x1_0_1) : (⟨S262144x2, .f32⟩ : BufTy).Contents (Elt F) → (⟨S262144x1, .f32⟩ : BufTy).Contents (Elt F)),
    StableHlo.unary main_v226 main_v227 (fun v => shapeCast S262144 v shapeCasts_S262144x1_S262144),
    StableHlo.nullary main_cst_55 (constant S_ .f32 0x3F800000#32),
    StableHlo.unary main_cst_55 main_v228 (broadcastInDim S262144 ![] bcast_S_S262144 : (⟨S_, .f32⟩ : BufTy).Contents (Elt F) → (⟨S262144, .f32⟩ : BufTy).Contents (Elt F)),
    StableHlo.binary main_v228 main_v227 main_v229 (subf : (⟨S262144, .f32⟩ : BufTy).Contents (Elt F) → (⟨S262144, .f32⟩ : BufTy).Contents (Elt F) → (⟨S262144, .f32⟩ : BufTy).Contents (Elt F)),
    StableHlo.unary main_v150 main_v230 ((extractStridedSlice S262144x1 ![0, 0] · slices_S262144x2_S262144x1_0_0) : (⟨S262144x2, .i32⟩ : BufTy).Contents (Elt F) → (⟨S262144x1, .i32⟩ : BufTy).Contents (Elt F)),
    StableHlo.unary main_v230 main_v231 (fun v => shapeCast S262144 v shapeCasts_S262144x1_S262144),
    StableHlo.nullary main_c_56 (constantI S_ 32 1#32),
    StableHlo.unary main_c_56 main_v232 (broadcastInDim S262144 ![] bcast_S_S262144 : (⟨S_, .i32⟩ : BufTy).Contents (Elt F) → (⟨S262144, .i32⟩ : BufTy).Contents (Elt F)),
    StableHlo.binary main_v231 main_v232 main_v233 (addi : (⟨S262144, .i32⟩ : BufTy).Contents (Elt F) → (⟨S262144, .i32⟩ : BufTy).Contents (Elt F) → (⟨S262144, .i32⟩ : BufTy).Contents (Elt F)),
    StableHlo.unary main_v150 main_v234 ((extractStridedSlice S262144x1 ![0, 1] · slices_S262144x2_S262144x1_0_1) : (⟨S262144x2, .i32⟩ : BufTy).Contents (Elt F) → (⟨S262144x1, .i32⟩ : BufTy).Contents (Elt F)),
    StableHlo.unary main_v234 main_v235 (fun v => shapeCast S262144 v shapeCasts_S262144x1_S262144),
    StableHlo.nullary main_c_57 (constantI S_ 32 0#32),
    StableHlo.unary main_c_57 main_v236 (broadcastInDim S262144 ![] bcast_S_S262144 : (⟨S_, .i32⟩ : BufTy).Contents (Elt F) → (⟨S262144, .i32⟩ : BufTy).Contents (Elt F)),
    StableHlo.binary main_v235 main_v236 main_v237 (addi : (⟨S262144, .i32⟩ : BufTy).Contents (Elt F) → (⟨S262144, .i32⟩ : BufTy).Contents (Elt F) → (⟨S262144, .i32⟩ : BufTy).Contents (Elt F)),
    StableHlo.nullary main_c_58 (constantI S_ 32 21#32),
    StableHlo.unary main_c_58 main_v238 (broadcastInDim S262144 ![] bcast_S_S262144 : (⟨S_, .i32⟩ : BufTy).Contents (Elt F) → (⟨S262144, .i32⟩ : BufTy).Contents (Elt F)) ]

abbrev ops_part5 : List (HloOp τ sig (Elt F)) :=
  [ StableHlo.binary main_v237 main_v238 main_v239 (muli : (⟨S262144, .i32⟩ : BufTy).Contents (Elt F) → (⟨S262144, .i32⟩ : BufTy).Contents (Elt F) → (⟨S262144, .i32⟩ : BufTy).Contents (Elt F)),
    StableHlo.binary main_v233 main_v239 main_v240 (addi : (⟨S262144, .i32⟩ : BufTy).Contents (Elt F) → (⟨S262144, .i32⟩ : BufTy).Contents (Elt F) → (⟨S262144, .i32⟩ : BufTy).Contents (Elt F)),
    StableHlo.nullary main_c_59 (constantI S_ 32 448#32),
    StableHlo.unary main_c_59 main_call6_v0 id,
    StableHlo.nullary main_call6_c (constantI S_ 32 0#32),
    StableHlo.binary main_call6_v0 main_call6_c main_call6_v1 (cmpi .eq),
    StableHlo.nullary main_call6_c_0 (constantI S_ 32 1#32),
    StableHlo.ternary main_call6_v1 main_call6_c_0 main_call6_v0 main_call6_v2 select,
    StableHlo.unary main_call6_v2 main_call6_v3 (broadcastInDim S262144 ![] bcast_S_S262144),
    StableHlo.binary main_v240 main_call6_v3 main_call6_v4 Host.remsi,
    StableHlo.nullary main_call6_c_1 (constantI S_ 32 0#32),
    StableHlo.unary main_call6_c_1 main_call6_v5 (broadcastInDim S262144 ![] bcast_S_S262144),
    StableHlo.binary main_call6_v4 main_call6_v5 main_call6_v6 (cmpi .ne),
    StableHlo.nullary main_call6_c_2 (constantI S_ 32 0#32),
    StableHlo.unary main_call6_c_2 main_call6_v7 (broadcastInDim S262144 ![] bcast_S_S262144),
    StableHlo.binary main_call6_v4 main_call6_v7 main_call6_v8 (cmpi .slt),
    StableHlo.nullary main_call6_c_3 (constantI S_ 32 0#32),
    StableHlo.binary main_call6_v2 main_call6_c_3 main_call6_v9 (cmpi .slt),
    StableHlo.unary main_call6_v9 main_call6_v10 (broadcastInDim S262144 ![] bcast_S_S262144),
    StableHlo.binary main_call6_v8 main_call6_v10 main_call6_v11 (cmpi .ne),
    StableHlo.binary main_call6_v11 main_call6_v6 main_call6_v12 andi,
    StableHlo.unary main_call6_v2 main_call6_v13 (broadcastInDim S262144 ![] bcast_S_S262144),
    StableHlo.binary main_call6_v4 main_call6_v13 main_call6_v14 addi,
    StableHlo.ternary main_call6_v12 main_call6_v14 main_call6_v4 main_v241 select,
    StableHlo.binary main_v225 main_v229 main_v242 (mulf : (⟨S262144, .f32⟩ : BufTy).Contents (Elt F) → (⟨S262144, .f32⟩ : BufTy).Contents (Elt F) → (⟨S262144, .f32⟩ : BufTy).Contents (Elt F)),
    StableHlo.unary main_v242 main_v243 (broadcastInDim S262144x1 ![0] bcast_S262144_S262144x1_0 : (⟨S262144, .f32⟩ : BufTy).Contents (Elt F) → (⟨S262144x1, .f32⟩ : BufTy).Contents (Elt F)),
    StableHlo.nullary main_c_60 (constantI S_ 32 0#32),
    StableHlo.unary main_c_60 main_v244 (broadcastInDim S262144 ![] bcast_S_S262144 : (⟨S_, .i32⟩ : BufTy).Contents (Elt F) → (⟨S262144, .i32⟩ : BufTy).Contents (Elt F)),
    StableHlo.binary main_v241 main_v244 main_v245 (cmpi .slt : (⟨S262144, .i32⟩ : BufTy).Contents (Elt F) → (⟨S262144, .i32⟩ : BufTy).Contents (Elt F) → (⟨S262144, .i1⟩ : BufTy).Contents (Elt F)),
    StableHlo.nullary main_c_61 (constantI S_ 32 8192#32),
    StableHlo.unary main_c_61 main_v246 (broadcastInDim S262144 ![] bcast_S_S262144 : (⟨S_, .i32⟩ : BufTy).Contents (Elt F) → (⟨S262144, .i32⟩ : BufTy).Contents (Elt F)),
    StableHlo.binary main_v241 main_v246 main_v247 (addi : (⟨S262144, .i32⟩ : BufTy).Contents (Elt F) → (⟨S262144, .i32⟩ : BufTy).Contents (Elt F) → (⟨S262144, .i32⟩ : BufTy).Contents (Elt F)),
    StableHlo.ternary main_v245 main_v247 main_v241 main_v248 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.nullary main_c_62 (constantI S_ 32 1#32),
    StableHlo.unary main_c_62 main_v249 (broadcastInDim S262144 ![] bcast_S_S262144 : (⟨S_, .i32⟩ : BufTy).Contents (Elt F) → (⟨S262144, .i32⟩ : BufTy).Contents (Elt F)),
    StableHlo.unary main_v249 main_v250 (id : (⟨S262144, .i32⟩ : BufTy).Contents (Elt F) → (⟨S262144, .i32⟩ : BufTy).Contents (Elt F)),
    StableHlo.unary main_v250 main_v251 (broadcastInDim S262144x1 ![0] bcast_S262144_S262144x1_0 : (⟨S262144, .i32⟩ : BufTy).Contents (Elt F) → (⟨S262144x1, .i32⟩ : BufTy).Contents (Elt F)),
    StableHlo.unary main_v248 main_v252 (broadcastInDim S262144x1 ![0] bcast_S262144_S262144x1_0 : (⟨S262144, .i32⟩ : BufTy).Contents (Elt F) → (⟨S262144x1, .i32⟩ : BufTy).Contents (Elt F)),
    StableHlo.binary main_v251 main_v252 main_v253 (pairCols (α := BitVec 32)),
    StableHlo.binary main_arg1 main_v253 main_v254 ((fun x i => Host.gather gather_S8x8192x8_S262144x2_S262144x8_1_01_n_n_01_1_118 x i) : (⟨S8x8192x8, .f32⟩ : BufTy).Contents (Elt F) → (⟨S262144x2, .i32⟩ : BufTy).Contents (Elt F) → (⟨S262144x8, .f32⟩ : BufTy).Contents (Elt F)),
    StableHlo.unary main_v243 main_v255 (broadcastInDim S262144x8 ![0, 1] bcast_S262144x1_S262144x8_0_1 : (⟨S262144x1, .f32⟩ : BufTy).Contents (Elt F) → (⟨S262144x8, .f32⟩ : BufTy).Contents (Elt F)),
    StableHlo.binary main_v255 main_v254 main_v256 (mulf : (⟨S262144x8, .f32⟩ : BufTy).Contents (Elt F) → (⟨S262144x8, .f32⟩ : BufTy).Contents (Elt F) → (⟨S262144x8, .f32⟩ : BufTy).Contents (Elt F)),
    StableHlo.binary main_v223 main_v256 main_v257 (addf : (⟨S262144x8, .f32⟩ : BufTy).Contents (Elt F) → (⟨S262144x8, .f32⟩ : BufTy).Contents (Elt F) → (⟨S262144x8, .f32⟩ : BufTy).Contents (Elt F)),
    StableHlo.unary main_v156 main_v258 ((extractStridedSlice S262144x1 ![0, 1] · slices_S262144x2_S262144x1_0_1) : (⟨S262144x2, .f32⟩ : BufTy).Contents (Elt F) → (⟨S262144x1, .f32⟩ : BufTy).Contents (Elt F)),
    StableHlo.unary main_v258 main_v259 (fun v => shapeCast S262144 v shapeCasts_S262144x1_S262144),
    StableHlo.unary main_v150 main_v260 ((extractStridedSlice S262144x1 ![0, 0] · slices_S262144x2_S262144x1_0_0) : (⟨S262144x2, .i32⟩ : BufTy).Contents (Elt F) → (⟨S262144x1, .i32⟩ : BufTy).Contents (Elt F)),
    StableHlo.unary main_v260 main_v261 (fun v => shapeCast S262144 v shapeCasts_S262144x1_S262144),
    StableHlo.nullary main_c_63 (constantI S_ 32 1#32),
    StableHlo.unary main_c_63 main_v262 (broadcastInDim S262144 ![] bcast_S_S262144 : (⟨S_, .i32⟩ : BufTy).Contents (Elt F) → (⟨S262144, .i32⟩ : BufTy).Contents (Elt F)),
    StableHlo.binary main_v261 main_v262 main_v263 (addi : (⟨S262144, .i32⟩ : BufTy).Contents (Elt F) → (⟨S262144, .i32⟩ : BufTy).Contents (Elt F) → (⟨S262144, .i32⟩ : BufTy).Contents (Elt F)),
    StableHlo.unary main_v150 main_v264 ((extractStridedSlice S262144x1 ![0, 1] · slices_S262144x2_S262144x1_0_1) : (⟨S262144x2, .i32⟩ : BufTy).Contents (Elt F) → (⟨S262144x1, .i32⟩ : BufTy).Contents (Elt F)),
    StableHlo.unary main_v264 main_v265 (fun v => shapeCast S262144 v shapeCasts_S262144x1_S262144),
    StableHlo.nullary main_c_64 (constantI S_ 32 1#32),
    StableHlo.unary main_c_64 main_v266 (broadcastInDim S262144 ![] bcast_S_S262144 : (⟨S_, .i32⟩ : BufTy).Contents (Elt F) → (⟨S262144, .i32⟩ : BufTy).Contents (Elt F)),
    StableHlo.binary main_v265 main_v266 main_v267 (addi : (⟨S262144, .i32⟩ : BufTy).Contents (Elt F) → (⟨S262144, .i32⟩ : BufTy).Contents (Elt F) → (⟨S262144, .i32⟩ : BufTy).Contents (Elt F)),
    StableHlo.nullary main_c_65 (constantI S_ 32 21#32),
    StableHlo.unary main_c_65 main_v268 (broadcastInDim S262144 ![] bcast_S_S262144 : (⟨S_, .i32⟩ : BufTy).Contents (Elt F) → (⟨S262144, .i32⟩ : BufTy).Contents (Elt F)),
    StableHlo.binary main_v267 main_v268 main_v269 (muli : (⟨S262144, .i32⟩ : BufTy).Contents (Elt F) → (⟨S262144, .i32⟩ : BufTy).Contents (Elt F) → (⟨S262144, .i32⟩ : BufTy).Contents (Elt F)),
    StableHlo.binary main_v263 main_v269 main_v270 (addi : (⟨S262144, .i32⟩ : BufTy).Contents (Elt F) → (⟨S262144, .i32⟩ : BufTy).Contents (Elt F) → (⟨S262144, .i32⟩ : BufTy).Contents (Elt F)),
    StableHlo.nullary main_c_66 (constantI S_ 32 448#32),
    StableHlo.unary main_c_66 main_call7_v0 id,
    StableHlo.nullary main_call7_c (constantI S_ 32 0#32),
    StableHlo.binary main_call7_v0 main_call7_c main_call7_v1 (cmpi .eq),
    StableHlo.nullary main_call7_c_0 (constantI S_ 32 1#32),
    StableHlo.ternary main_call7_v1 main_call7_c_0 main_call7_v0 main_call7_v2 select,
    StableHlo.unary main_call7_v2 main_call7_v3 (broadcastInDim S262144 ![] bcast_S_S262144),
    StableHlo.binary main_v270 main_call7_v3 main_call7_v4 Host.remsi,
    StableHlo.nullary main_call7_c_1 (constantI S_ 32 0#32),
    StableHlo.unary main_call7_c_1 main_call7_v5 (broadcastInDim S262144 ![] bcast_S_S262144),
    StableHlo.binary main_call7_v4 main_call7_v5 main_call7_v6 (cmpi .ne),
    StableHlo.nullary main_call7_c_2 (constantI S_ 32 0#32),
    StableHlo.unary main_call7_c_2 main_call7_v7 (broadcastInDim S262144 ![] bcast_S_S262144),
    StableHlo.binary main_call7_v4 main_call7_v7 main_call7_v8 (cmpi .slt),
    StableHlo.nullary main_call7_c_3 (constantI S_ 32 0#32),
    StableHlo.binary main_call7_v2 main_call7_c_3 main_call7_v9 (cmpi .slt),
    StableHlo.unary main_call7_v9 main_call7_v10 (broadcastInDim S262144 ![] bcast_S_S262144),
    StableHlo.binary main_call7_v8 main_call7_v10 main_call7_v11 (cmpi .ne),
    StableHlo.binary main_call7_v11 main_call7_v6 main_call7_v12 andi,
    StableHlo.unary main_call7_v2 main_call7_v13 (broadcastInDim S262144 ![] bcast_S_S262144),
    StableHlo.binary main_call7_v4 main_call7_v13 main_call7_v14 addi,
    StableHlo.ternary main_call7_v12 main_call7_v14 main_call7_v4 main_v271 select,
    StableHlo.binary main_v225 main_v259 main_v272 (mulf : (⟨S262144, .f32⟩ : BufTy).Contents (Elt F) → (⟨S262144, .f32⟩ : BufTy).Contents (Elt F) → (⟨S262144, .f32⟩ : BufTy).Contents (Elt F)),
    StableHlo.unary main_v272 main_v273 (broadcastInDim S262144x1 ![0] bcast_S262144_S262144x1_0 : (⟨S262144, .f32⟩ : BufTy).Contents (Elt F) → (⟨S262144x1, .f32⟩ : BufTy).Contents (Elt F)),
    StableHlo.nullary main_c_67 (constantI S_ 32 0#32),
    StableHlo.unary main_c_67 main_v274 (broadcastInDim S262144 ![] bcast_S_S262144 : (⟨S_, .i32⟩ : BufTy).Contents (Elt F) → (⟨S262144, .i32⟩ : BufTy).Contents (Elt F)),
    StableHlo.binary main_v271 main_v274 main_v275 (cmpi .slt : (⟨S262144, .i32⟩ : BufTy).Contents (Elt F) → (⟨S262144, .i32⟩ : BufTy).Contents (Elt F) → (⟨S262144, .i1⟩ : BufTy).Contents (Elt F)),
    StableHlo.nullary main_c_68 (constantI S_ 32 8192#32),
    StableHlo.unary main_c_68 main_v276 (broadcastInDim S262144 ![] bcast_S_S262144 : (⟨S_, .i32⟩ : BufTy).Contents (Elt F) → (⟨S262144, .i32⟩ : BufTy).Contents (Elt F)),
    StableHlo.binary main_v271 main_v276 main_v277 (addi : (⟨S262144, .i32⟩ : BufTy).Contents (Elt F) → (⟨S262144, .i32⟩ : BufTy).Contents (Elt F) → (⟨S262144, .i32⟩ : BufTy).Contents (Elt F)),
    StableHlo.ternary main_v275 main_v277 main_v271 main_v278 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.nullary main_c_69 (constantI S_ 32 1#32),
    StableHlo.unary main_c_69 main_v279 (broadcastInDim S262144 ![] bcast_S_S262144 : (⟨S_, .i32⟩ : BufTy).Contents (Elt F) → (⟨S262144, .i32⟩ : BufTy).Contents (Elt F)),
    StableHlo.unary main_v279 main_v280 (id : (⟨S262144, .i32⟩ : BufTy).Contents (Elt F) → (⟨S262144, .i32⟩ : BufTy).Contents (Elt F)),
    StableHlo.unary main_v280 main_v281 (broadcastInDim S262144x1 ![0] bcast_S262144_S262144x1_0 : (⟨S262144, .i32⟩ : BufTy).Contents (Elt F) → (⟨S262144x1, .i32⟩ : BufTy).Contents (Elt F)),
    StableHlo.unary main_v278 main_v282 (broadcastInDim S262144x1 ![0] bcast_S262144_S262144x1_0 : (⟨S262144, .i32⟩ : BufTy).Contents (Elt F) → (⟨S262144x1, .i32⟩ : BufTy).Contents (Elt F)),
    StableHlo.binary main_v281 main_v282 main_v283 (pairCols (α := BitVec 32)),
    StableHlo.binary main_arg1 main_v283 main_v284 ((fun x i => Host.gather gather_S8x8192x8_S262144x2_S262144x8_1_01_n_n_01_1_118 x i) : (⟨S8x8192x8, .f32⟩ : BufTy).Contents (Elt F) → (⟨S262144x2, .i32⟩ : BufTy).Contents (Elt F) → (⟨S262144x8, .f32⟩ : BufTy).Contents (Elt F)),
    StableHlo.unary main_v273 main_v285 (broadcastInDim S262144x8 ![0, 1] bcast_S262144x1_S262144x8_0_1 : (⟨S262144x1, .f32⟩ : BufTy).Contents (Elt F) → (⟨S262144x8, .f32⟩ : BufTy).Contents (Elt F)),
    StableHlo.binary main_v285 main_v284 main_v286 (mulf : (⟨S262144x8, .f32⟩ : BufTy).Contents (Elt F) → (⟨S262144x8, .f32⟩ : BufTy).Contents (Elt F) → (⟨S262144x8, .f32⟩ : BufTy).Contents (Elt F)),
    StableHlo.binary main_v257 main_v286 main_v287 (addf : (⟨S262144x8, .f32⟩ : BufTy).Contents (Elt F) → (⟨S262144x8, .f32⟩ : BufTy).Contents (Elt F) → (⟨S262144x8, .f32⟩ : BufTy).Contents (Elt F)) ]

abbrev ops_part6 : List (HloOp τ sig (Elt F)) :=
  [ StableHlo.nullary main_cst_70 (constant S_ .f32 0x41C32FF6#32),
    StableHlo.unary main_cst_70 main_v288 (broadcastInDim S262144x2 ![] bcast_S_S262144x2 : (⟨S_, .f32⟩ : BufTy).Contents (Elt F) → (⟨S262144x2, .f32⟩ : BufTy).Contents (Elt F)),
    StableHlo.binary main_arg0 main_v288 main_v289 (mulf : (⟨S262144x2, .f32⟩ : BufTy).Contents (Elt F) → (⟨S262144x2, .f32⟩ : BufTy).Contents (Elt F) → (⟨S262144x2, .f32⟩ : BufTy).Contents (Elt F)),
    StableHlo.nullary main_cst_71 (constant S_ .f32 0x3F000000#32),
    StableHlo.unary main_cst_71 main_v290 (broadcastInDim S262144x2 ![] bcast_S_S262144x2 : (⟨S_, .f32⟩ : BufTy).Contents (Elt F) → (⟨S262144x2, .f32⟩ : BufTy).Contents (Elt F)),
    StableHlo.binary main_v289 main_v290 main_v291 (addf : (⟨S262144x2, .f32⟩ : BufTy).Contents (Elt F) → (⟨S262144x2, .f32⟩ : BufTy).Contents (Elt F) → (⟨S262144x2, .f32⟩ : BufTy).Contents (Elt F)),
    StableHlo.unary main_v291 main_v292 (Host.floor : (⟨S262144x2, .f32⟩ : BufTy).Contents (Elt F) → (⟨S262144x2, .f32⟩ : BufTy).Contents (Elt F)),
    StableHlo.binary main_v291 main_v292 main_v293 (subf : (⟨S262144x2, .f32⟩ : BufTy).Contents (Elt F) → (⟨S262144x2, .f32⟩ : BufTy).Contents (Elt F) → (⟨S262144x2, .f32⟩ : BufTy).Contents (Elt F)),
    StableHlo.unary main_v292 main_v294 (fptosi 32 : (⟨S262144x2, .f32⟩ : BufTy).Contents (Elt F) → (⟨S262144x2, .i32⟩ : BufTy).Contents (Elt F)),
    StableHlo.binary main_v293 main_v293 main_v295 (mulf : (⟨S262144x2, .f32⟩ : BufTy).Contents (Elt F) → (⟨S262144x2, .f32⟩ : BufTy).Contents (Elt F) → (⟨S262144x2, .f32⟩ : BufTy).Contents (Elt F)),
    StableHlo.nullary main_cst_72 (constant S_ .f32 0x40000000#32),
    StableHlo.unary main_cst_72 main_v296 (broadcastInDim S262144x2 ![] bcast_S_S262144x2 : (⟨S_, .f32⟩ : BufTy).Contents (Elt F) → (⟨S262144x2, .f32⟩ : BufTy).Contents (Elt F)),
    StableHlo.binary main_v296 main_v293 main_v297 (mulf : (⟨S262144x2, .f32⟩ : BufTy).Contents (Elt F) → (⟨S262144x2, .f32⟩ : BufTy).Contents (Elt F) → (⟨S262144x2, .f32⟩ : BufTy).Contents (Elt F)),
    StableHlo.nullary main_cst_73 (constant S_ .f32 0x40400000#32),
    StableHlo.unary main_cst_73 main_v298 (broadcastInDim S262144x2 ![] bcast_S_S262144x2 : (⟨S_, .f32⟩ : BufTy).Contents (Elt F) → (⟨S262144x2, .f32⟩ : BufTy).Contents (Elt F)),
    StableHlo.binary main_v298 main_v297 main_v299 (subf : (⟨S262144x2, .f32⟩ : BufTy).Contents (Elt F) → (⟨S262144x2, .f32⟩ : BufTy).Contents (Elt F) → (⟨S262144x2, .f32⟩ : BufTy).Contents (Elt F)),
    StableHlo.binary main_v295 main_v299 main_v300 (mulf : (⟨S262144x2, .f32⟩ : BufTy).Contents (Elt F) → (⟨S262144x2, .f32⟩ : BufTy).Contents (Elt F) → (⟨S262144x2, .f32⟩ : BufTy).Contents (Elt F)),
    StableHlo.nullary main_cst_74 (constant S_ .f32 0x00000000#32),
    StableHlo.unary main_cst_74 main_v301 (broadcastInDim S262144x8 ![] bcast_S_S262144x8 : (⟨S_, .f32⟩ : BufTy).Contents (Elt F) → (⟨S262144x8, .f32⟩ : BufTy).Contents (Elt F)),
    StableHlo.unary main_v300 main_v302 ((extractStridedSlice S262144x1 ![0, 0] · slices_S262144x2_S262144x1_0_0) : (⟨S262144x2, .f32⟩ : BufTy).Contents (Elt F) → (⟨S262144x1, .f32⟩ : BufTy).Contents (Elt F)),
    StableHlo.unary main_v302 main_v303 (fun v => shapeCast S262144 v shapeCasts_S262144x1_S262144),
    StableHlo.nullary main_cst_75 (constant S_ .f32 0x3F800000#32),
    StableHlo.unary main_cst_75 main_v304 (broadcastInDim S262144 ![] bcast_S_S262144 : (⟨S_, .f32⟩ : BufTy).Contents (Elt F) → (⟨S262144, .f32⟩ : BufTy).Contents (Elt F)),
    StableHlo.binary main_v304 main_v303 main_v305 (subf : (⟨S262144, .f32⟩ : BufTy).Contents (Elt F) → (⟨S262144, .f32⟩ : BufTy).Contents (Elt F) → (⟨S262144, .f32⟩ : BufTy).Contents (Elt F)),
    StableHlo.unary main_v300 main_v306 ((extractStridedSlice S262144x1 ![0, 1] · slices_S262144x2_S262144x1_0_1) : (⟨S262144x2, .f32⟩ : BufTy).Contents (Elt F) → (⟨S262144x1, .f32⟩ : BufTy).Contents (Elt F)),
    StableHlo.unary main_v306 main_v307 (fun v => shapeCast S262144 v shapeCasts_S262144x1_S262144),
    StableHlo.nullary main_cst_76 (constant S_ .f32 0x3F800000#32),
    StableHlo.unary main_cst_76 main_v308 (broadcastInDim S262144 ![] bcast_S_S262144 : (⟨S_, .f32⟩ : BufTy).Contents (Elt F) → (⟨S262144, .f32⟩ : BufTy).Contents (Elt F)),
    StableHlo.binary main_v308 main_v307 main_v309 (subf : (⟨S262144, .f32⟩ : BufTy).Contents (Elt F) → (⟨S262144, .f32⟩ : BufTy).Contents (Elt F) → (⟨S262144, .f32⟩ : BufTy).Contents (Elt F)),
    StableHlo.unary main_v294 main_v310 ((extractStridedSlice S262144x1 ![0, 0] · slices_S262144x2_S262144x1_0_0) : (⟨S262144x2, .i32⟩ : BufTy).Contents (Elt F) → (⟨S262144x1, .i32⟩ : BufTy).Contents (Elt F)),
    StableHlo.unary main_v310 main_v311 (fun v => shapeCast S262144 v shapeCasts_S262144x1_S262144),
    StableHlo.nullary main_c_77 (constantI S_ 32 0#32),
    StableHlo.unary main_c_77 main_v312 (broadcastInDim S262144 ![] bcast_S_S262144 : (⟨S_, .i32⟩ : BufTy).Contents (Elt F) → (⟨S262144, .i32⟩ : BufTy).Contents (Elt F)),
    StableHlo.binary main_v311 main_v312 main_v313 (addi : (⟨S262144, .i32⟩ : BufTy).Contents (Elt F) → (⟨S262144, .i32⟩ : BufTy).Contents (Elt F) → (⟨S262144, .i32⟩ : BufTy).Contents (Elt F)),
    StableHlo.unary main_v294 main_v314 ((extractStridedSlice S262144x1 ![0, 1] · slices_S262144x2_S262144x1_0_1) : (⟨S262144x2, .i32⟩ : BufTy).Contents (Elt F) → (⟨S262144x1, .i32⟩ : BufTy).Contents (Elt F)),
    StableHlo.unary main_v314 main_v315 (fun v => shapeCast S262144 v shapeCasts_S262144x1_S262144),
    StableHlo.nullary main_c_78 (constantI S_ 32 0#32),
    StableHlo.unary main_c_78 main_v316 (broadcastInDim S262144 ![] bcast_S_S262144 : (⟨S_, .i32⟩ : BufTy).Contents (Elt F) → (⟨S262144, .i32⟩ : BufTy).Contents (Elt F)),
    StableHlo.binary main_v315 main_v316 main_v317 (addi : (⟨S262144, .i32⟩ : BufTy).Contents (Elt F) → (⟨S262144, .i32⟩ : BufTy).Contents (Elt F) → (⟨S262144, .i32⟩ : BufTy).Contents (Elt F)),
    StableHlo.nullary main_c_79 (constantI S_ 32 26#32),
    StableHlo.unary main_c_79 main_v318 (broadcastInDim S262144 ![] bcast_S_S262144 : (⟨S_, .i32⟩ : BufTy).Contents (Elt F) → (⟨S262144, .i32⟩ : BufTy).Contents (Elt F)),
    StableHlo.binary main_v317 main_v318 main_v319 (muli : (⟨S262144, .i32⟩ : BufTy).Contents (Elt F) → (⟨S262144, .i32⟩ : BufTy).Contents (Elt F) → (⟨S262144, .i32⟩ : BufTy).Contents (Elt F)),
    StableHlo.binary main_v313 main_v319 main_v320 (addi : (⟨S262144, .i32⟩ : BufTy).Contents (Elt F) → (⟨S262144, .i32⟩ : BufTy).Contents (Elt F) → (⟨S262144, .i32⟩ : BufTy).Contents (Elt F)),
    StableHlo.nullary main_c_80 (constantI S_ 32 680#32),
    StableHlo.unary main_c_80 main_call8_v0 id,
    StableHlo.nullary main_call8_c (constantI S_ 32 0#32),
    StableHlo.binary main_call8_v0 main_call8_c main_call8_v1 (cmpi .eq),
    StableHlo.nullary main_call8_c_0 (constantI S_ 32 1#32),
    StableHlo.ternary main_call8_v1 main_call8_c_0 main_call8_v0 main_call8_v2 select,
    StableHlo.unary main_call8_v2 main_call8_v3 (broadcastInDim S262144 ![] bcast_S_S262144),
    StableHlo.binary main_v320 main_call8_v3 main_call8_v4 Host.remsi,
    StableHlo.nullary main_call8_c_1 (constantI S_ 32 0#32),
    StableHlo.unary main_call8_c_1 main_call8_v5 (broadcastInDim S262144 ![] bcast_S_S262144),
    StableHlo.binary main_call8_v4 main_call8_v5 main_call8_v6 (cmpi .ne),
    StableHlo.nullary main_call8_c_2 (constantI S_ 32 0#32),
    StableHlo.unary main_call8_c_2 main_call8_v7 (broadcastInDim S262144 ![] bcast_S_S262144),
    StableHlo.binary main_call8_v4 main_call8_v7 main_call8_v8 (cmpi .slt),
    StableHlo.nullary main_call8_c_3 (constantI S_ 32 0#32),
    StableHlo.binary main_call8_v2 main_call8_c_3 main_call8_v9 (cmpi .slt),
    StableHlo.unary main_call8_v9 main_call8_v10 (broadcastInDim S262144 ![] bcast_S_S262144),
    StableHlo.binary main_call8_v8 main_call8_v10 main_call8_v11 (cmpi .ne),
    StableHlo.binary main_call8_v11 main_call8_v6 main_call8_v12 andi,
    StableHlo.unary main_call8_v2 main_call8_v13 (broadcastInDim S262144 ![] bcast_S_S262144),
    StableHlo.binary main_call8_v4 main_call8_v13 main_call8_v14 addi,
    StableHlo.ternary main_call8_v12 main_call8_v14 main_call8_v4 main_v321 select,
    StableHlo.binary main_v305 main_v309 main_v322 (mulf : (⟨S262144, .f32⟩ : BufTy).Contents (Elt F) → (⟨S262144, .f32⟩ : BufTy).Contents (Elt F) → (⟨S262144, .f32⟩ : BufTy).Contents (Elt F)),
    StableHlo.unary main_v322 main_v323 (broadcastInDim S262144x1 ![0] bcast_S262144_S262144x1_0 : (⟨S262144, .f32⟩ : BufTy).Contents (Elt F) → (⟨S262144x1, .f32⟩ : BufTy).Contents (Elt F)),
    StableHlo.nullary main_c_81 (constantI S_ 32 0#32),
    StableHlo.unary main_c_81 main_v324 (broadcastInDim S262144 ![] bcast_S_S262144 : (⟨S_, .i32⟩ : BufTy).Contents (Elt F) → (⟨S262144, .i32⟩ : BufTy).Contents (Elt F)),
    StableHlo.binary main_v321 main_v324 main_v325 (cmpi .slt : (⟨S262144, .i32⟩ : BufTy).Contents (Elt F) → (⟨S262144, .i32⟩ : BufTy).Contents (Elt F) → (⟨S262144, .i1⟩ : BufTy).Contents (Elt F)),
    StableHlo.nullary main_c_82 (constantI S_ 32 8192#32),
    StableHlo.unary main_c_82 main_v326 (broadcastInDim S262144 ![] bcast_S_S262144 : (⟨S_, .i32⟩ : BufTy).Contents (Elt F) → (⟨S262144, .i32⟩ : BufTy).Contents (Elt F)),
    StableHlo.binary main_v321 main_v326 main_v327 (addi : (⟨S262144, .i32⟩ : BufTy).Contents (Elt F) → (⟨S262144, .i32⟩ : BufTy).Contents (Elt F) → (⟨S262144, .i32⟩ : BufTy).Contents (Elt F)),
    StableHlo.ternary main_v325 main_v327 main_v321 main_v328 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.nullary main_c_83 (constantI S_ 32 2#32),
    StableHlo.unary main_c_83 main_v329 (broadcastInDim S262144 ![] bcast_S_S262144 : (⟨S_, .i32⟩ : BufTy).Contents (Elt F) → (⟨S262144, .i32⟩ : BufTy).Contents (Elt F)),
    StableHlo.unary main_v329 main_v330 (id : (⟨S262144, .i32⟩ : BufTy).Contents (Elt F) → (⟨S262144, .i32⟩ : BufTy).Contents (Elt F)),
    StableHlo.unary main_v330 main_v331 (broadcastInDim S262144x1 ![0] bcast_S262144_S262144x1_0 : (⟨S262144, .i32⟩ : BufTy).Contents (Elt F) → (⟨S262144x1, .i32⟩ : BufTy).Contents (Elt F)),
    StableHlo.unary main_v328 main_v332 (broadcastInDim S262144x1 ![0] bcast_S262144_S262144x1_0 : (⟨S262144, .i32⟩ : BufTy).Contents (Elt F) → (⟨S262144x1, .i32⟩ : BufTy).Contents (Elt F)),
    StableHlo.binary main_v331 main_v332 main_v333 (pairCols (α := BitVec 32)) ]

abbrev ops_part7 : List (HloOp τ sig (Elt F)) :=
  [ StableHlo.binary main_arg1 main_v333 main_v334 ((fun x i => Host.gather gather_S8x8192x8_S262144x2_S262144x8_1_01_n_n_01_1_118 x i) : (⟨S8x8192x8, .f32⟩ : BufTy).Contents (Elt F) → (⟨S262144x2, .i32⟩ : BufTy).Contents (Elt F) → (⟨S262144x8, .f32⟩ : BufTy).Contents (Elt F)),
    StableHlo.unary main_v323 main_v335 (broadcastInDim S262144x8 ![0, 1] bcast_S262144x1_S262144x8_0_1 : (⟨S262144x1, .f32⟩ : BufTy).Contents (Elt F) → (⟨S262144x8, .f32⟩ : BufTy).Contents (Elt F)),
    StableHlo.binary main_v335 main_v334 main_v336 (mulf : (⟨S262144x8, .f32⟩ : BufTy).Contents (Elt F) → (⟨S262144x8, .f32⟩ : BufTy).Contents (Elt F) → (⟨S262144x8, .f32⟩ : BufTy).Contents (Elt F)),
    StableHlo.binary main_v301 main_v336 main_v337 (addf : (⟨S262144x8, .f32⟩ : BufTy).Contents (Elt F) → (⟨S262144x8, .f32⟩ : BufTy).Contents (Elt F) → (⟨S262144x8, .f32⟩ : BufTy).Contents (Elt F)),
    StableHlo.unary main_v300 main_v338 ((extractStridedSlice S262144x1 ![0, 1] · slices_S262144x2_S262144x1_0_1) : (⟨S262144x2, .f32⟩ : BufTy).Contents (Elt F) → (⟨S262144x1, .f32⟩ : BufTy).Contents (Elt F)),
    StableHlo.unary main_v338 main_v339 (fun v => shapeCast S262144 v shapeCasts_S262144x1_S262144),
    StableHlo.unary main_v294 main_v340 ((extractStridedSlice S262144x1 ![0, 0] · slices_S262144x2_S262144x1_0_0) : (⟨S262144x2, .i32⟩ : BufTy).Contents (Elt F) → (⟨S262144x1, .i32⟩ : BufTy).Contents (Elt F)),
    StableHlo.unary main_v340 main_v341 (fun v => shapeCast S262144 v shapeCasts_S262144x1_S262144),
    StableHlo.nullary main_c_84 (constantI S_ 32 0#32),
    StableHlo.unary main_c_84 main_v342 (broadcastInDim S262144 ![] bcast_S_S262144 : (⟨S_, .i32⟩ : BufTy).Contents (Elt F) → (⟨S262144, .i32⟩ : BufTy).Contents (Elt F)),
    StableHlo.binary main_v341 main_v342 main_v343 (addi : (⟨S262144, .i32⟩ : BufTy).Contents (Elt F) → (⟨S262144, .i32⟩ : BufTy).Contents (Elt F) → (⟨S262144, .i32⟩ : BufTy).Contents (Elt F)),
    StableHlo.unary main_v294 main_v344 ((extractStridedSlice S262144x1 ![0, 1] · slices_S262144x2_S262144x1_0_1) : (⟨S262144x2, .i32⟩ : BufTy).Contents (Elt F) → (⟨S262144x1, .i32⟩ : BufTy).Contents (Elt F)),
    StableHlo.unary main_v344 main_v345 (fun v => shapeCast S262144 v shapeCasts_S262144x1_S262144),
    StableHlo.nullary main_c_85 (constantI S_ 32 1#32),
    StableHlo.unary main_c_85 main_v346 (broadcastInDim S262144 ![] bcast_S_S262144 : (⟨S_, .i32⟩ : BufTy).Contents (Elt F) → (⟨S262144, .i32⟩ : BufTy).Contents (Elt F)),
    StableHlo.binary main_v345 main_v346 main_v347 (addi : (⟨S262144, .i32⟩ : BufTy).Contents (Elt F) → (⟨S262144, .i32⟩ : BufTy).Contents (Elt F) → (⟨S262144, .i32⟩ : BufTy).Contents (Elt F)),
    StableHlo.nullary main_c_86 (constantI S_ 32 26#32),
    StableHlo.unary main_c_86 main_v348 (broadcastInDim S262144 ![] bcast_S_S262144 : (⟨S_, .i32⟩ : BufTy).Contents (Elt F) → (⟨S262144, .i32⟩ : BufTy).Contents (Elt F)),
    StableHlo.binary main_v347 main_v348 main_v349 (muli : (⟨S262144, .i32⟩ : BufTy).Contents (Elt F) → (⟨S262144, .i32⟩ : BufTy).Contents (Elt F) → (⟨S262144, .i32⟩ : BufTy).Contents (Elt F)),
    StableHlo.binary main_v343 main_v349 main_v350 (addi : (⟨S262144, .i32⟩ : BufTy).Contents (Elt F) → (⟨S262144, .i32⟩ : BufTy).Contents (Elt F) → (⟨S262144, .i32⟩ : BufTy).Contents (Elt F)),
    StableHlo.nullary main_c_87 (constantI S_ 32 680#32),
    StableHlo.unary main_c_87 main_call9_v0 id,
    StableHlo.nullary main_call9_c (constantI S_ 32 0#32),
    StableHlo.binary main_call9_v0 main_call9_c main_call9_v1 (cmpi .eq),
    StableHlo.nullary main_call9_c_0 (constantI S_ 32 1#32),
    StableHlo.ternary main_call9_v1 main_call9_c_0 main_call9_v0 main_call9_v2 select,
    StableHlo.unary main_call9_v2 main_call9_v3 (broadcastInDim S262144 ![] bcast_S_S262144),
    StableHlo.binary main_v350 main_call9_v3 main_call9_v4 Host.remsi,
    StableHlo.nullary main_call9_c_1 (constantI S_ 32 0#32),
    StableHlo.unary main_call9_c_1 main_call9_v5 (broadcastInDim S262144 ![] bcast_S_S262144),
    StableHlo.binary main_call9_v4 main_call9_v5 main_call9_v6 (cmpi .ne),
    StableHlo.nullary main_call9_c_2 (constantI S_ 32 0#32),
    StableHlo.unary main_call9_c_2 main_call9_v7 (broadcastInDim S262144 ![] bcast_S_S262144),
    StableHlo.binary main_call9_v4 main_call9_v7 main_call9_v8 (cmpi .slt),
    StableHlo.nullary main_call9_c_3 (constantI S_ 32 0#32),
    StableHlo.binary main_call9_v2 main_call9_c_3 main_call9_v9 (cmpi .slt),
    StableHlo.unary main_call9_v9 main_call9_v10 (broadcastInDim S262144 ![] bcast_S_S262144),
    StableHlo.binary main_call9_v8 main_call9_v10 main_call9_v11 (cmpi .ne),
    StableHlo.binary main_call9_v11 main_call9_v6 main_call9_v12 andi,
    StableHlo.unary main_call9_v2 main_call9_v13 (broadcastInDim S262144 ![] bcast_S_S262144),
    StableHlo.binary main_call9_v4 main_call9_v13 main_call9_v14 addi,
    StableHlo.ternary main_call9_v12 main_call9_v14 main_call9_v4 main_v351 select,
    StableHlo.binary main_v305 main_v339 main_v352 (mulf : (⟨S262144, .f32⟩ : BufTy).Contents (Elt F) → (⟨S262144, .f32⟩ : BufTy).Contents (Elt F) → (⟨S262144, .f32⟩ : BufTy).Contents (Elt F)),
    StableHlo.unary main_v352 main_v353 (broadcastInDim S262144x1 ![0] bcast_S262144_S262144x1_0 : (⟨S262144, .f32⟩ : BufTy).Contents (Elt F) → (⟨S262144x1, .f32⟩ : BufTy).Contents (Elt F)),
    StableHlo.nullary main_c_88 (constantI S_ 32 0#32),
    StableHlo.unary main_c_88 main_v354 (broadcastInDim S262144 ![] bcast_S_S262144 : (⟨S_, .i32⟩ : BufTy).Contents (Elt F) → (⟨S262144, .i32⟩ : BufTy).Contents (Elt F)),
    StableHlo.binary main_v351 main_v354 main_v355 (cmpi .slt : (⟨S262144, .i32⟩ : BufTy).Contents (Elt F) → (⟨S262144, .i32⟩ : BufTy).Contents (Elt F) → (⟨S262144, .i1⟩ : BufTy).Contents (Elt F)),
    StableHlo.nullary main_c_89 (constantI S_ 32 8192#32),
    StableHlo.unary main_c_89 main_v356 (broadcastInDim S262144 ![] bcast_S_S262144 : (⟨S_, .i32⟩ : BufTy).Contents (Elt F) → (⟨S262144, .i32⟩ : BufTy).Contents (Elt F)),
    StableHlo.binary main_v351 main_v356 main_v357 (addi : (⟨S262144, .i32⟩ : BufTy).Contents (Elt F) → (⟨S262144, .i32⟩ : BufTy).Contents (Elt F) → (⟨S262144, .i32⟩ : BufTy).Contents (Elt F)),
    StableHlo.ternary main_v355 main_v357 main_v351 main_v358 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.nullary main_c_90 (constantI S_ 32 2#32),
    StableHlo.unary main_c_90 main_v359 (broadcastInDim S262144 ![] bcast_S_S262144 : (⟨S_, .i32⟩ : BufTy).Contents (Elt F) → (⟨S262144, .i32⟩ : BufTy).Contents (Elt F)),
    StableHlo.unary main_v359 main_v360 (id : (⟨S262144, .i32⟩ : BufTy).Contents (Elt F) → (⟨S262144, .i32⟩ : BufTy).Contents (Elt F)),
    StableHlo.unary main_v360 main_v361 (broadcastInDim S262144x1 ![0] bcast_S262144_S262144x1_0 : (⟨S262144, .i32⟩ : BufTy).Contents (Elt F) → (⟨S262144x1, .i32⟩ : BufTy).Contents (Elt F)),
    StableHlo.unary main_v358 main_v362 (broadcastInDim S262144x1 ![0] bcast_S262144_S262144x1_0 : (⟨S262144, .i32⟩ : BufTy).Contents (Elt F) → (⟨S262144x1, .i32⟩ : BufTy).Contents (Elt F)),
    StableHlo.binary main_v361 main_v362 main_v363 (pairCols (α := BitVec 32)),
    StableHlo.binary main_arg1 main_v363 main_v364 ((fun x i => Host.gather gather_S8x8192x8_S262144x2_S262144x8_1_01_n_n_01_1_118 x i) : (⟨S8x8192x8, .f32⟩ : BufTy).Contents (Elt F) → (⟨S262144x2, .i32⟩ : BufTy).Contents (Elt F) → (⟨S262144x8, .f32⟩ : BufTy).Contents (Elt F)),
    StableHlo.unary main_v353 main_v365 (broadcastInDim S262144x8 ![0, 1] bcast_S262144x1_S262144x8_0_1 : (⟨S262144x1, .f32⟩ : BufTy).Contents (Elt F) → (⟨S262144x8, .f32⟩ : BufTy).Contents (Elt F)),
    StableHlo.binary main_v365 main_v364 main_v366 (mulf : (⟨S262144x8, .f32⟩ : BufTy).Contents (Elt F) → (⟨S262144x8, .f32⟩ : BufTy).Contents (Elt F) → (⟨S262144x8, .f32⟩ : BufTy).Contents (Elt F)),
    StableHlo.binary main_v337 main_v366 main_v367 (addf : (⟨S262144x8, .f32⟩ : BufTy).Contents (Elt F) → (⟨S262144x8, .f32⟩ : BufTy).Contents (Elt F) → (⟨S262144x8, .f32⟩ : BufTy).Contents (Elt F)),
    StableHlo.unary main_v300 main_v368 ((extractStridedSlice S262144x1 ![0, 0] · slices_S262144x2_S262144x1_0_0) : (⟨S262144x2, .f32⟩ : BufTy).Contents (Elt F) → (⟨S262144x1, .f32⟩ : BufTy).Contents (Elt F)),
    StableHlo.unary main_v368 main_v369 (fun v => shapeCast S262144 v shapeCasts_S262144x1_S262144),
    StableHlo.unary main_v300 main_v370 ((extractStridedSlice S262144x1 ![0, 1] · slices_S262144x2_S262144x1_0_1) : (⟨S262144x2, .f32⟩ : BufTy).Contents (Elt F) → (⟨S262144x1, .f32⟩ : BufTy).Contents (Elt F)),
    StableHlo.unary main_v370 main_v371 (fun v => shapeCast S262144 v shapeCasts_S262144x1_S262144),
    StableHlo.nullary main_cst_91 (constant S_ .f32 0x3F800000#32),
    StableHlo.unary main_cst_91 main_v372 (broadcastInDim S262144 ![] bcast_S_S262144 : (⟨S_, .f32⟩ : BufTy).Contents (Elt F) → (⟨S262144, .f32⟩ : BufTy).Contents (Elt F)),
    StableHlo.binary main_v372 main_v371 main_v373 (subf : (⟨S262144, .f32⟩ : BufTy).Contents (Elt F) → (⟨S262144, .f32⟩ : BufTy).Contents (Elt F) → (⟨S262144, .f32⟩ : BufTy).Contents (Elt F)),
    StableHlo.unary main_v294 main_v374 ((extractStridedSlice S262144x1 ![0, 0] · slices_S262144x2_S262144x1_0_0) : (⟨S262144x2, .i32⟩ : BufTy).Contents (Elt F) → (⟨S262144x1, .i32⟩ : BufTy).Contents (Elt F)),
    StableHlo.unary main_v374 main_v375 (fun v => shapeCast S262144 v shapeCasts_S262144x1_S262144),
    StableHlo.nullary main_c_92 (constantI S_ 32 1#32),
    StableHlo.unary main_c_92 main_v376 (broadcastInDim S262144 ![] bcast_S_S262144 : (⟨S_, .i32⟩ : BufTy).Contents (Elt F) → (⟨S262144, .i32⟩ : BufTy).Contents (Elt F)),
    StableHlo.binary main_v375 main_v376 main_v377 (addi : (⟨S262144, .i32⟩ : BufTy).Contents (Elt F) → (⟨S262144, .i32⟩ : BufTy).Contents (Elt F) → (⟨S262144, .i32⟩ : BufTy).Contents (Elt F)),
    StableHlo.unary main_v294 main_v378 ((extractStridedSlice S262144x1 ![0, 1] · slices_S262144x2_S262144x1_0_1) : (⟨S262144x2, .i32⟩ : BufTy).Contents (Elt F) → (⟨S262144x1, .i32⟩ : BufTy).Contents (Elt F)),
    StableHlo.unary main_v378 main_v379 (fun v => shapeCast S262144 v shapeCasts_S262144x1_S262144),
    StableHlo.nullary main_c_93 (constantI S_ 32 0#32),
    StableHlo.unary main_c_93 main_v380 (broadcastInDim S262144 ![] bcast_S_S262144 : (⟨S_, .i32⟩ : BufTy).Contents (Elt F) → (⟨S262144, .i32⟩ : BufTy).Contents (Elt F)),
    StableHlo.binary main_v379 main_v380 main_v381 (addi : (⟨S262144, .i32⟩ : BufTy).Contents (Elt F) → (⟨S262144, .i32⟩ : BufTy).Contents (Elt F) → (⟨S262144, .i32⟩ : BufTy).Contents (Elt F)),
    StableHlo.nullary main_c_94 (constantI S_ 32 26#32),
    StableHlo.unary main_c_94 main_v382 (broadcastInDim S262144 ![] bcast_S_S262144 : (⟨S_, .i32⟩ : BufTy).Contents (Elt F) → (⟨S262144, .i32⟩ : BufTy).Contents (Elt F)) ]

abbrev ops_part8 : List (HloOp τ sig (Elt F)) :=
  [ StableHlo.binary main_v381 main_v382 main_v383 (muli : (⟨S262144, .i32⟩ : BufTy).Contents (Elt F) → (⟨S262144, .i32⟩ : BufTy).Contents (Elt F) → (⟨S262144, .i32⟩ : BufTy).Contents (Elt F)),
    StableHlo.binary main_v377 main_v383 main_v384 (addi : (⟨S262144, .i32⟩ : BufTy).Contents (Elt F) → (⟨S262144, .i32⟩ : BufTy).Contents (Elt F) → (⟨S262144, .i32⟩ : BufTy).Contents (Elt F)),
    StableHlo.nullary main_c_95 (constantI S_ 32 680#32),
    StableHlo.unary main_c_95 main_call10_v0 id,
    StableHlo.nullary main_call10_c (constantI S_ 32 0#32),
    StableHlo.binary main_call10_v0 main_call10_c main_call10_v1 (cmpi .eq),
    StableHlo.nullary main_call10_c_0 (constantI S_ 32 1#32),
    StableHlo.ternary main_call10_v1 main_call10_c_0 main_call10_v0 main_call10_v2 select,
    StableHlo.unary main_call10_v2 main_call10_v3 (broadcastInDim S262144 ![] bcast_S_S262144),
    StableHlo.binary main_v384 main_call10_v3 main_call10_v4 Host.remsi,
    StableHlo.nullary main_call10_c_1 (constantI S_ 32 0#32),
    StableHlo.unary main_call10_c_1 main_call10_v5 (broadcastInDim S262144 ![] bcast_S_S262144),
    StableHlo.binary main_call10_v4 main_call10_v5 main_call10_v6 (cmpi .ne),
    StableHlo.nullary main_call10_c_2 (constantI S_ 32 0#32),
    StableHlo.unary main_call10_c_2 main_call10_v7 (broadcastInDim S262144 ![] bcast_S_S262144),
    StableHlo.binary main_call10_v4 main_call10_v7 main_call10_v8 (cmpi .slt),
    StableHlo.nullary main_call10_c_3 (constantI S_ 32 0#32),
    StableHlo.binary main_call10_v2 main_call10_c_3 main_call10_v9 (cmpi .slt),
    StableHlo.unary main_call10_v9 main_call10_v10 (broadcastInDim S262144 ![] bcast_S_S262144),
    StableHlo.binary main_call10_v8 main_call10_v10 main_call10_v11 (cmpi .ne),
    StableHlo.binary main_call10_v11 main_call10_v6 main_call10_v12 andi,
    StableHlo.unary main_call10_v2 main_call10_v13 (broadcastInDim S262144 ![] bcast_S_S262144),
    StableHlo.binary main_call10_v4 main_call10_v13 main_call10_v14 addi,
    StableHlo.ternary main_call10_v12 main_call10_v14 main_call10_v4 main_v385 select,
    StableHlo.binary main_v369 main_v373 main_v386 (mulf : (⟨S262144, .f32⟩ : BufTy).Contents (Elt F) → (⟨S262144, .f32⟩ : BufTy).Contents (Elt F) → (⟨S262144, .f32⟩ : BufTy).Contents (Elt F)),
    StableHlo.unary main_v386 main_v387 (broadcastInDim S262144x1 ![0] bcast_S262144_S262144x1_0 : (⟨S262144, .f32⟩ : BufTy).Contents (Elt F) → (⟨S262144x1, .f32⟩ : BufTy).Contents (Elt F)),
    StableHlo.nullary main_c_96 (constantI S_ 32 0#32),
    StableHlo.unary main_c_96 main_v388 (broadcastInDim S262144 ![] bcast_S_S262144 : (⟨S_, .i32⟩ : BufTy).Contents (Elt F) → (⟨S262144, .i32⟩ : BufTy).Contents (Elt F)),
    StableHlo.binary main_v385 main_v388 main_v389 (cmpi .slt : (⟨S262144, .i32⟩ : BufTy).Contents (Elt F) → (⟨S262144, .i32⟩ : BufTy).Contents (Elt F) → (⟨S262144, .i1⟩ : BufTy).Contents (Elt F)),
    StableHlo.nullary main_c_97 (constantI S_ 32 8192#32),
    StableHlo.unary main_c_97 main_v390 (broadcastInDim S262144 ![] bcast_S_S262144 : (⟨S_, .i32⟩ : BufTy).Contents (Elt F) → (⟨S262144, .i32⟩ : BufTy).Contents (Elt F)),
    StableHlo.binary main_v385 main_v390 main_v391 (addi : (⟨S262144, .i32⟩ : BufTy).Contents (Elt F) → (⟨S262144, .i32⟩ : BufTy).Contents (Elt F) → (⟨S262144, .i32⟩ : BufTy).Contents (Elt F)),
    StableHlo.ternary main_v389 main_v391 main_v385 main_v392 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.nullary main_c_98 (constantI S_ 32 2#32),
    StableHlo.unary main_c_98 main_v393 (broadcastInDim S262144 ![] bcast_S_S262144 : (⟨S_, .i32⟩ : BufTy).Contents (Elt F) → (⟨S262144, .i32⟩ : BufTy).Contents (Elt F)),
    StableHlo.unary main_v393 main_v394 (id : (⟨S262144, .i32⟩ : BufTy).Contents (Elt F) → (⟨S262144, .i32⟩ : BufTy).Contents (Elt F)),
    StableHlo.unary main_v394 main_v395 (broadcastInDim S262144x1 ![0] bcast_S262144_S262144x1_0 : (⟨S262144, .i32⟩ : BufTy).Contents (Elt F) → (⟨S262144x1, .i32⟩ : BufTy).Contents (Elt F)),
    StableHlo.unary main_v392 main_v396 (broadcastInDim S262144x1 ![0] bcast_S262144_S262144x1_0 : (⟨S262144, .i32⟩ : BufTy).Contents (Elt F) → (⟨S262144x1, .i32⟩ : BufTy).Contents (Elt F)),
    StableHlo.binary main_v395 main_v396 main_v397 (pairCols (α := BitVec 32)),
    StableHlo.binary main_arg1 main_v397 main_v398 ((fun x i => Host.gather gather_S8x8192x8_S262144x2_S262144x8_1_01_n_n_01_1_118 x i) : (⟨S8x8192x8, .f32⟩ : BufTy).Contents (Elt F) → (⟨S262144x2, .i32⟩ : BufTy).Contents (Elt F) → (⟨S262144x8, .f32⟩ : BufTy).Contents (Elt F)),
    StableHlo.unary main_v387 main_v399 (broadcastInDim S262144x8 ![0, 1] bcast_S262144x1_S262144x8_0_1 : (⟨S262144x1, .f32⟩ : BufTy).Contents (Elt F) → (⟨S262144x8, .f32⟩ : BufTy).Contents (Elt F)),
    StableHlo.binary main_v399 main_v398 main_v400 (mulf : (⟨S262144x8, .f32⟩ : BufTy).Contents (Elt F) → (⟨S262144x8, .f32⟩ : BufTy).Contents (Elt F) → (⟨S262144x8, .f32⟩ : BufTy).Contents (Elt F)),
    StableHlo.binary main_v367 main_v400 main_v401 (addf : (⟨S262144x8, .f32⟩ : BufTy).Contents (Elt F) → (⟨S262144x8, .f32⟩ : BufTy).Contents (Elt F) → (⟨S262144x8, .f32⟩ : BufTy).Contents (Elt F)),
    StableHlo.unary main_v300 main_v402 ((extractStridedSlice S262144x1 ![0, 1] · slices_S262144x2_S262144x1_0_1) : (⟨S262144x2, .f32⟩ : BufTy).Contents (Elt F) → (⟨S262144x1, .f32⟩ : BufTy).Contents (Elt F)),
    StableHlo.unary main_v402 main_v403 (fun v => shapeCast S262144 v shapeCasts_S262144x1_S262144),
    StableHlo.unary main_v294 main_v404 ((extractStridedSlice S262144x1 ![0, 0] · slices_S262144x2_S262144x1_0_0) : (⟨S262144x2, .i32⟩ : BufTy).Contents (Elt F) → (⟨S262144x1, .i32⟩ : BufTy).Contents (Elt F)),
    StableHlo.unary main_v404 main_v405 (fun v => shapeCast S262144 v shapeCasts_S262144x1_S262144),
    StableHlo.nullary main_c_99 (constantI S_ 32 1#32),
    StableHlo.unary main_c_99 main_v406 (broadcastInDim S262144 ![] bcast_S_S262144 : (⟨S_, .i32⟩ : BufTy).Contents (Elt F) → (⟨S262144, .i32⟩ : BufTy).Contents (Elt F)),
    StableHlo.binary main_v405 main_v406 main_v407 (addi : (⟨S262144, .i32⟩ : BufTy).Contents (Elt F) → (⟨S262144, .i32⟩ : BufTy).Contents (Elt F) → (⟨S262144, .i32⟩ : BufTy).Contents (Elt F)),
    StableHlo.unary main_v294 main_v408 ((extractStridedSlice S262144x1 ![0, 1] · slices_S262144x2_S262144x1_0_1) : (⟨S262144x2, .i32⟩ : BufTy).Contents (Elt F) → (⟨S262144x1, .i32⟩ : BufTy).Contents (Elt F)),
    StableHlo.unary main_v408 main_v409 (fun v => shapeCast S262144 v shapeCasts_S262144x1_S262144),
    StableHlo.nullary main_c_100 (constantI S_ 32 1#32),
    StableHlo.unary main_c_100 main_v410 (broadcastInDim S262144 ![] bcast_S_S262144 : (⟨S_, .i32⟩ : BufTy).Contents (Elt F) → (⟨S262144, .i32⟩ : BufTy).Contents (Elt F)),
    StableHlo.binary main_v409 main_v410 main_v411 (addi : (⟨S262144, .i32⟩ : BufTy).Contents (Elt F) → (⟨S262144, .i32⟩ : BufTy).Contents (Elt F) → (⟨S262144, .i32⟩ : BufTy).Contents (Elt F)),
    StableHlo.nullary main_c_101 (constantI S_ 32 26#32),
    StableHlo.unary main_c_101 main_v412 (broadcastInDim S262144 ![] bcast_S_S262144 : (⟨S_, .i32⟩ : BufTy).Contents (Elt F) → (⟨S262144, .i32⟩ : BufTy).Contents (Elt F)),
    StableHlo.binary main_v411 main_v412 main_v413 (muli : (⟨S262144, .i32⟩ : BufTy).Contents (Elt F) → (⟨S262144, .i32⟩ : BufTy).Contents (Elt F) → (⟨S262144, .i32⟩ : BufTy).Contents (Elt F)),
    StableHlo.binary main_v407 main_v413 main_v414 (addi : (⟨S262144, .i32⟩ : BufTy).Contents (Elt F) → (⟨S262144, .i32⟩ : BufTy).Contents (Elt F) → (⟨S262144, .i32⟩ : BufTy).Contents (Elt F)),
    StableHlo.nullary main_c_102 (constantI S_ 32 680#32),
    StableHlo.unary main_c_102 main_call11_v0 id,
    StableHlo.nullary main_call11_c (constantI S_ 32 0#32),
    StableHlo.binary main_call11_v0 main_call11_c main_call11_v1 (cmpi .eq),
    StableHlo.nullary main_call11_c_0 (constantI S_ 32 1#32),
    StableHlo.ternary main_call11_v1 main_call11_c_0 main_call11_v0 main_call11_v2 select,
    StableHlo.unary main_call11_v2 main_call11_v3 (broadcastInDim S262144 ![] bcast_S_S262144),
    StableHlo.binary main_v414 main_call11_v3 main_call11_v4 Host.remsi,
    StableHlo.nullary main_call11_c_1 (constantI S_ 32 0#32),
    StableHlo.unary main_call11_c_1 main_call11_v5 (broadcastInDim S262144 ![] bcast_S_S262144),
    StableHlo.binary main_call11_v4 main_call11_v5 main_call11_v6 (cmpi .ne),
    StableHlo.nullary main_call11_c_2 (constantI S_ 32 0#32),
    StableHlo.unary main_call11_c_2 main_call11_v7 (broadcastInDim S262144 ![] bcast_S_S262144),
    StableHlo.binary main_call11_v4 main_call11_v7 main_call11_v8 (cmpi .slt),
    StableHlo.nullary main_call11_c_3 (constantI S_ 32 0#32),
    StableHlo.binary main_call11_v2 main_call11_c_3 main_call11_v9 (cmpi .slt),
    StableHlo.unary main_call11_v9 main_call11_v10 (broadcastInDim S262144 ![] bcast_S_S262144),
    StableHlo.binary main_call11_v8 main_call11_v10 main_call11_v11 (cmpi .ne),
    StableHlo.binary main_call11_v11 main_call11_v6 main_call11_v12 andi,
    StableHlo.unary main_call11_v2 main_call11_v13 (broadcastInDim S262144 ![] bcast_S_S262144),
    StableHlo.binary main_call11_v4 main_call11_v13 main_call11_v14 addi,
    StableHlo.ternary main_call11_v12 main_call11_v14 main_call11_v4 main_v415 select,
    StableHlo.binary main_v369 main_v403 main_v416 (mulf : (⟨S262144, .f32⟩ : BufTy).Contents (Elt F) → (⟨S262144, .f32⟩ : BufTy).Contents (Elt F) → (⟨S262144, .f32⟩ : BufTy).Contents (Elt F)),
    StableHlo.unary main_v416 main_v417 (broadcastInDim S262144x1 ![0] bcast_S262144_S262144x1_0 : (⟨S262144, .f32⟩ : BufTy).Contents (Elt F) → (⟨S262144x1, .f32⟩ : BufTy).Contents (Elt F)),
    StableHlo.nullary main_c_103 (constantI S_ 32 0#32),
    StableHlo.unary main_c_103 main_v418 (broadcastInDim S262144 ![] bcast_S_S262144 : (⟨S_, .i32⟩ : BufTy).Contents (Elt F) → (⟨S262144, .i32⟩ : BufTy).Contents (Elt F)),
    StableHlo.binary main_v415 main_v418 main_v419 (cmpi .slt : (⟨S262144, .i32⟩ : BufTy).Contents (Elt F) → (⟨S262144, .i32⟩ : BufTy).Contents (Elt F) → (⟨S262144, .i1⟩ : BufTy).Contents (Elt F)),
    StableHlo.nullary main_c_104 (constantI S_ 32 8192#32),
    StableHlo.unary main_c_104 main_v420 (broadcastInDim S262144 ![] bcast_S_S262144 : (⟨S_, .i32⟩ : BufTy).Contents (Elt F) → (⟨S262144, .i32⟩ : BufTy).Contents (Elt F)),
    StableHlo.binary main_v415 main_v420 main_v421 (addi : (⟨S262144, .i32⟩ : BufTy).Contents (Elt F) → (⟨S262144, .i32⟩ : BufTy).Contents (Elt F) → (⟨S262144, .i32⟩ : BufTy).Contents (Elt F)),
    StableHlo.ternary main_v419 main_v421 main_v415 main_v422 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.nullary main_c_105 (constantI S_ 32 2#32),
    StableHlo.unary main_c_105 main_v423 (broadcastInDim S262144 ![] bcast_S_S262144 : (⟨S_, .i32⟩ : BufTy).Contents (Elt F) → (⟨S262144, .i32⟩ : BufTy).Contents (Elt F)),
    StableHlo.unary main_v423 main_v424 (id : (⟨S262144, .i32⟩ : BufTy).Contents (Elt F) → (⟨S262144, .i32⟩ : BufTy).Contents (Elt F)),
    StableHlo.unary main_v424 main_v425 (broadcastInDim S262144x1 ![0] bcast_S262144_S262144x1_0 : (⟨S262144, .i32⟩ : BufTy).Contents (Elt F) → (⟨S262144x1, .i32⟩ : BufTy).Contents (Elt F)),
    StableHlo.unary main_v422 main_v426 (broadcastInDim S262144x1 ![0] bcast_S262144_S262144x1_0 : (⟨S262144, .i32⟩ : BufTy).Contents (Elt F) → (⟨S262144x1, .i32⟩ : BufTy).Contents (Elt F)),
    StableHlo.binary main_v425 main_v426 main_v427 (pairCols (α := BitVec 32)),
    StableHlo.binary main_arg1 main_v427 main_v428 ((fun x i => Host.gather gather_S8x8192x8_S262144x2_S262144x8_1_01_n_n_01_1_118 x i) : (⟨S8x8192x8, .f32⟩ : BufTy).Contents (Elt F) → (⟨S262144x2, .i32⟩ : BufTy).Contents (Elt F) → (⟨S262144x8, .f32⟩ : BufTy).Contents (Elt F)),
    StableHlo.unary main_v417 main_v429 (broadcastInDim S262144x8 ![0, 1] bcast_S262144x1_S262144x8_0_1 : (⟨S262144x1, .f32⟩ : BufTy).Contents (Elt F) → (⟨S262144x8, .f32⟩ : BufTy).Contents (Elt F)),
    StableHlo.binary main_v429 main_v428 main_v430 (mulf : (⟨S262144x8, .f32⟩ : BufTy).Contents (Elt F) → (⟨S262144x8, .f32⟩ : BufTy).Contents (Elt F) → (⟨S262144x8, .f32⟩ : BufTy).Contents (Elt F)),
    StableHlo.binary main_v401 main_v430 main_v431 (addf : (⟨S262144x8, .f32⟩ : BufTy).Contents (Elt F) → (⟨S262144x8, .f32⟩ : BufTy).Contents (Elt F) → (⟨S262144x8, .f32⟩ : BufTy).Contents (Elt F)) ]

abbrev ops_part9 : List (HloOp τ sig (Elt F)) :=
  [ StableHlo.nullary main_cst_106 (constant S_ .f32 0x41F80001#32),
    StableHlo.unary main_cst_106 main_v432 (broadcastInDim S262144x2 ![] bcast_S_S262144x2 : (⟨S_, .f32⟩ : BufTy).Contents (Elt F) → (⟨S262144x2, .f32⟩ : BufTy).Contents (Elt F)),
    StableHlo.binary main_arg0 main_v432 main_v433 (mulf : (⟨S262144x2, .f32⟩ : BufTy).Contents (Elt F) → (⟨S262144x2, .f32⟩ : BufTy).Contents (Elt F) → (⟨S262144x2, .f32⟩ : BufTy).Contents (Elt F)),
    StableHlo.nullary main_cst_107 (constant S_ .f32 0x3F000000#32),
    StableHlo.unary main_cst_107 main_v434 (broadcastInDim S262144x2 ![] bcast_S_S262144x2 : (⟨S_, .f32⟩ : BufTy).Contents (Elt F) → (⟨S262144x2, .f32⟩ : BufTy).Contents (Elt F)),
    StableHlo.binary main_v433 main_v434 main_v435 (addf : (⟨S262144x2, .f32⟩ : BufTy).Contents (Elt F) → (⟨S262144x2, .f32⟩ : BufTy).Contents (Elt F) → (⟨S262144x2, .f32⟩ : BufTy).Contents (Elt F)),
    StableHlo.unary main_v435 main_v436 (Host.floor : (⟨S262144x2, .f32⟩ : BufTy).Contents (Elt F) → (⟨S262144x2, .f32⟩ : BufTy).Contents (Elt F)),
    StableHlo.binary main_v435 main_v436 main_v437 (subf : (⟨S262144x2, .f32⟩ : BufTy).Contents (Elt F) → (⟨S262144x2, .f32⟩ : BufTy).Contents (Elt F) → (⟨S262144x2, .f32⟩ : BufTy).Contents (Elt F)),
    StableHlo.unary main_v436 main_v438 (fptosi 32 : (⟨S262144x2, .f32⟩ : BufTy).Contents (Elt F) → (⟨S262144x2, .i32⟩ : BufTy).Contents (Elt F)),
    StableHlo.binary main_v437 main_v437 main_v439 (mulf : (⟨S262144x2, .f32⟩ : BufTy).Contents (Elt F) → (⟨S262144x2, .f32⟩ : BufTy).Contents (Elt F) → (⟨S262144x2, .f32⟩ : BufTy).Contents (Elt F)),
    StableHlo.nullary main_cst_108 (constant S_ .f32 0x40000000#32),
    StableHlo.unary main_cst_108 main_v440 (broadcastInDim S262144x2 ![] bcast_S_S262144x2 : (⟨S_, .f32⟩ : BufTy).Contents (Elt F) → (⟨S262144x2, .f32⟩ : BufTy).Contents (Elt F)),
    StableHlo.binary main_v440 main_v437 main_v441 (mulf : (⟨S262144x2, .f32⟩ : BufTy).Contents (Elt F) → (⟨S262144x2, .f32⟩ : BufTy).Contents (Elt F) → (⟨S262144x2, .f32⟩ : BufTy).Contents (Elt F)),
    StableHlo.nullary main_cst_109 (constant S_ .f32 0x40400000#32),
    StableHlo.unary main_cst_109 main_v442 (broadcastInDim S262144x2 ![] bcast_S_S262144x2 : (⟨S_, .f32⟩ : BufTy).Contents (Elt F) → (⟨S262144x2, .f32⟩ : BufTy).Contents (Elt F)),
    StableHlo.binary main_v442 main_v441 main_v443 (subf : (⟨S262144x2, .f32⟩ : BufTy).Contents (Elt F) → (⟨S262144x2, .f32⟩ : BufTy).Contents (Elt F) → (⟨S262144x2, .f32⟩ : BufTy).Contents (Elt F)),
    StableHlo.binary main_v439 main_v443 main_v444 (mulf : (⟨S262144x2, .f32⟩ : BufTy).Contents (Elt F) → (⟨S262144x2, .f32⟩ : BufTy).Contents (Elt F) → (⟨S262144x2, .f32⟩ : BufTy).Contents (Elt F)),
    StableHlo.nullary main_cst_110 (constant S_ .f32 0x00000000#32),
    StableHlo.unary main_cst_110 main_v445 (broadcastInDim S262144x8 ![] bcast_S_S262144x8 : (⟨S_, .f32⟩ : BufTy).Contents (Elt F) → (⟨S262144x8, .f32⟩ : BufTy).Contents (Elt F)),
    StableHlo.unary main_v444 main_v446 ((extractStridedSlice S262144x1 ![0, 0] · slices_S262144x2_S262144x1_0_0) : (⟨S262144x2, .f32⟩ : BufTy).Contents (Elt F) → (⟨S262144x1, .f32⟩ : BufTy).Contents (Elt F)),
    StableHlo.unary main_v446 main_v447 (fun v => shapeCast S262144 v shapeCasts_S262144x1_S262144),
    StableHlo.nullary main_cst_111 (constant S_ .f32 0x3F800000#32),
    StableHlo.unary main_cst_111 main_v448 (broadcastInDim S262144 ![] bcast_S_S262144 : (⟨S_, .f32⟩ : BufTy).Contents (Elt F) → (⟨S262144, .f32⟩ : BufTy).Contents (Elt F)),
    StableHlo.binary main_v448 main_v447 main_v449 (subf : (⟨S262144, .f32⟩ : BufTy).Contents (Elt F) → (⟨S262144, .f32⟩ : BufTy).Contents (Elt F) → (⟨S262144, .f32⟩ : BufTy).Contents (Elt F)),
    StableHlo.unary main_v444 main_v450 ((extractStridedSlice S262144x1 ![0, 1] · slices_S262144x2_S262144x1_0_1) : (⟨S262144x2, .f32⟩ : BufTy).Contents (Elt F) → (⟨S262144x1, .f32⟩ : BufTy).Contents (Elt F)),
    StableHlo.unary main_v450 main_v451 (fun v => shapeCast S262144 v shapeCasts_S262144x1_S262144),
    StableHlo.nullary main_cst_112 (constant S_ .f32 0x3F800000#32),
    StableHlo.unary main_cst_112 main_v452 (broadcastInDim S262144 ![] bcast_S_S262144 : (⟨S_, .f32⟩ : BufTy).Contents (Elt F) → (⟨S262144, .f32⟩ : BufTy).Contents (Elt F)),
    StableHlo.binary main_v452 main_v451 main_v453 (subf : (⟨S262144, .f32⟩ : BufTy).Contents (Elt F) → (⟨S262144, .f32⟩ : BufTy).Contents (Elt F) → (⟨S262144, .f32⟩ : BufTy).Contents (Elt F)),
    StableHlo.unary main_v438 main_v454 ((extractStridedSlice S262144x1 ![0, 0] · slices_S262144x2_S262144x1_0_0) : (⟨S262144x2, .i32⟩ : BufTy).Contents (Elt F) → (⟨S262144x1, .i32⟩ : BufTy).Contents (Elt F)),
    StableHlo.unary main_v454 main_v455 (fun v => shapeCast S262144 v shapeCasts_S262144x1_S262144),
    StableHlo.nullary main_c_113 (constantI S_ 32 0#32),
    StableHlo.unary main_c_113 main_v456 (broadcastInDim S262144 ![] bcast_S_S262144 : (⟨S_, .i32⟩ : BufTy).Contents (Elt F) → (⟨S262144, .i32⟩ : BufTy).Contents (Elt F)),
    StableHlo.binary main_v455 main_v456 main_v457 (addi : (⟨S262144, .i32⟩ : BufTy).Contents (Elt F) → (⟨S262144, .i32⟩ : BufTy).Contents (Elt F) → (⟨S262144, .i32⟩ : BufTy).Contents (Elt F)),
    StableHlo.unary main_v438 main_v458 ((extractStridedSlice S262144x1 ![0, 1] · slices_S262144x2_S262144x1_0_1) : (⟨S262144x2, .i32⟩ : BufTy).Contents (Elt F) → (⟨S262144x1, .i32⟩ : BufTy).Contents (Elt F)),
    StableHlo.unary main_v458 main_v459 (fun v => shapeCast S262144 v shapeCasts_S262144x1_S262144),
    StableHlo.nullary main_c_114 (constantI S_ 32 0#32),
    StableHlo.unary main_c_114 main_v460 (broadcastInDim S262144 ![] bcast_S_S262144 : (⟨S_, .i32⟩ : BufTy).Contents (Elt F) → (⟨S262144, .i32⟩ : BufTy).Contents (Elt F)),
    StableHlo.binary main_v459 main_v460 main_v461 (addi : (⟨S262144, .i32⟩ : BufTy).Contents (Elt F) → (⟨S262144, .i32⟩ : BufTy).Contents (Elt F) → (⟨S262144, .i32⟩ : BufTy).Contents (Elt F)),
    StableHlo.nullary main_c_115 (constantI S_ 32 33#32),
    StableHlo.unary main_c_115 main_v462 (broadcastInDim S262144 ![] bcast_S_S262144 : (⟨S_, .i32⟩ : BufTy).Contents (Elt F) → (⟨S262144, .i32⟩ : BufTy).Contents (Elt F)),
    StableHlo.binary main_v461 main_v462 main_v463 (muli : (⟨S262144, .i32⟩ : BufTy).Contents (Elt F) → (⟨S262144, .i32⟩ : BufTy).Contents (Elt F) → (⟨S262144, .i32⟩ : BufTy).Contents (Elt F)),
    StableHlo.binary main_v457 main_v463 main_v464 (addi : (⟨S262144, .i32⟩ : BufTy).Contents (Elt F) → (⟨S262144, .i32⟩ : BufTy).Contents (Elt F) → (⟨S262144, .i32⟩ : BufTy).Contents (Elt F)),
    StableHlo.nullary main_c_116 (constantI S_ 32 1096#32),
    StableHlo.unary main_c_116 main_call12_v0 id,
    StableHlo.nullary main_call12_c (constantI S_ 32 0#32),
    StableHlo.binary main_call12_v0 main_call12_c main_call12_v1 (cmpi .eq),
    StableHlo.nullary main_call12_c_0 (constantI S_ 32 1#32),
    StableHlo.ternary main_call12_v1 main_call12_c_0 main_call12_v0 main_call12_v2 select,
    StableHlo.unary main_call12_v2 main_call12_v3 (broadcastInDim S262144 ![] bcast_S_S262144),
    StableHlo.binary main_v464 main_call12_v3 main_call12_v4 Host.remsi,
    StableHlo.nullary main_call12_c_1 (constantI S_ 32 0#32),
    StableHlo.unary main_call12_c_1 main_call12_v5 (broadcastInDim S262144 ![] bcast_S_S262144),
    StableHlo.binary main_call12_v4 main_call12_v5 main_call12_v6 (cmpi .ne),
    StableHlo.nullary main_call12_c_2 (constantI S_ 32 0#32),
    StableHlo.unary main_call12_c_2 main_call12_v7 (broadcastInDim S262144 ![] bcast_S_S262144),
    StableHlo.binary main_call12_v4 main_call12_v7 main_call12_v8 (cmpi .slt),
    StableHlo.nullary main_call12_c_3 (constantI S_ 32 0#32),
    StableHlo.binary main_call12_v2 main_call12_c_3 main_call12_v9 (cmpi .slt),
    StableHlo.unary main_call12_v9 main_call12_v10 (broadcastInDim S262144 ![] bcast_S_S262144),
    StableHlo.binary main_call12_v8 main_call12_v10 main_call12_v11 (cmpi .ne),
    StableHlo.binary main_call12_v11 main_call12_v6 main_call12_v12 andi,
    StableHlo.unary main_call12_v2 main_call12_v13 (broadcastInDim S262144 ![] bcast_S_S262144),
    StableHlo.binary main_call12_v4 main_call12_v13 main_call12_v14 addi,
    StableHlo.ternary main_call12_v12 main_call12_v14 main_call12_v4 main_v465 select,
    StableHlo.binary main_v449 main_v453 main_v466 (mulf : (⟨S262144, .f32⟩ : BufTy).Contents (Elt F) → (⟨S262144, .f32⟩ : BufTy).Contents (Elt F) → (⟨S262144, .f32⟩ : BufTy).Contents (Elt F)),
    StableHlo.unary main_v466 main_v467 (broadcastInDim S262144x1 ![0] bcast_S262144_S262144x1_0 : (⟨S262144, .f32⟩ : BufTy).Contents (Elt F) → (⟨S262144x1, .f32⟩ : BufTy).Contents (Elt F)),
    StableHlo.nullary main_c_117 (constantI S_ 32 0#32),
    StableHlo.unary main_c_117 main_v468 (broadcastInDim S262144 ![] bcast_S_S262144 : (⟨S_, .i32⟩ : BufTy).Contents (Elt F) → (⟨S262144, .i32⟩ : BufTy).Contents (Elt F)),
    StableHlo.binary main_v465 main_v468 main_v469 (cmpi .slt : (⟨S262144, .i32⟩ : BufTy).Contents (Elt F) → (⟨S262144, .i32⟩ : BufTy).Contents (Elt F) → (⟨S262144, .i1⟩ : BufTy).Contents (Elt F)),
    StableHlo.nullary main_c_118 (constantI S_ 32 8192#32),
    StableHlo.unary main_c_118 main_v470 (broadcastInDim S262144 ![] bcast_S_S262144 : (⟨S_, .i32⟩ : BufTy).Contents (Elt F) → (⟨S262144, .i32⟩ : BufTy).Contents (Elt F)),
    StableHlo.binary main_v465 main_v470 main_v471 (addi : (⟨S262144, .i32⟩ : BufTy).Contents (Elt F) → (⟨S262144, .i32⟩ : BufTy).Contents (Elt F) → (⟨S262144, .i32⟩ : BufTy).Contents (Elt F)),
    StableHlo.ternary main_v469 main_v471 main_v465 main_v472 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.nullary main_c_119 (constantI S_ 32 3#32),
    StableHlo.unary main_c_119 main_v473 (broadcastInDim S262144 ![] bcast_S_S262144 : (⟨S_, .i32⟩ : BufTy).Contents (Elt F) → (⟨S262144, .i32⟩ : BufTy).Contents (Elt F)),
    StableHlo.unary main_v473 main_v474 (id : (⟨S262144, .i32⟩ : BufTy).Contents (Elt F) → (⟨S262144, .i32⟩ : BufTy).Contents (Elt F)),
    StableHlo.unary main_v474 main_v475 (broadcastInDim S262144x1 ![0] bcast_S262144_S262144x1_0 : (⟨S262144, .i32⟩ : BufTy).Contents (Elt F) → (⟨S262144x1, .i32⟩ : BufTy).Contents (Elt F)),
    StableHlo.unary main_v472 main_v476 (broadcastInDim S262144x1 ![0] bcast_S262144_S262144x1_0 : (⟨S262144, .i32⟩ : BufTy).Contents (Elt F) → (⟨S262144x1, .i32⟩ : BufTy).Contents (Elt F)),
    StableHlo.binary main_v475 main_v476 main_v477 (pairCols (α := BitVec 32)) ]

abbrev ops_part10 : List (HloOp τ sig (Elt F)) :=
  [ StableHlo.binary main_arg1 main_v477 main_v478 ((fun x i => Host.gather gather_S8x8192x8_S262144x2_S262144x8_1_01_n_n_01_1_118 x i) : (⟨S8x8192x8, .f32⟩ : BufTy).Contents (Elt F) → (⟨S262144x2, .i32⟩ : BufTy).Contents (Elt F) → (⟨S262144x8, .f32⟩ : BufTy).Contents (Elt F)),
    StableHlo.unary main_v467 main_v479 (broadcastInDim S262144x8 ![0, 1] bcast_S262144x1_S262144x8_0_1 : (⟨S262144x1, .f32⟩ : BufTy).Contents (Elt F) → (⟨S262144x8, .f32⟩ : BufTy).Contents (Elt F)),
    StableHlo.binary main_v479 main_v478 main_v480 (mulf : (⟨S262144x8, .f32⟩ : BufTy).Contents (Elt F) → (⟨S262144x8, .f32⟩ : BufTy).Contents (Elt F) → (⟨S262144x8, .f32⟩ : BufTy).Contents (Elt F)),
    StableHlo.binary main_v445 main_v480 main_v481 (addf : (⟨S262144x8, .f32⟩ : BufTy).Contents (Elt F) → (⟨S262144x8, .f32⟩ : BufTy).Contents (Elt F) → (⟨S262144x8, .f32⟩ : BufTy).Contents (Elt F)),
    StableHlo.unary main_v444 main_v482 ((extractStridedSlice S262144x1 ![0, 1] · slices_S262144x2_S262144x1_0_1) : (⟨S262144x2, .f32⟩ : BufTy).Contents (Elt F) → (⟨S262144x1, .f32⟩ : BufTy).Contents (Elt F)),
    StableHlo.unary main_v482 main_v483 (fun v => shapeCast S262144 v shapeCasts_S262144x1_S262144),
    StableHlo.unary main_v438 main_v484 ((extractStridedSlice S262144x1 ![0, 0] · slices_S262144x2_S262144x1_0_0) : (⟨S262144x2, .i32⟩ : BufTy).Contents (Elt F) → (⟨S262144x1, .i32⟩ : BufTy).Contents (Elt F)),
    StableHlo.unary main_v484 main_v485 (fun v => shapeCast S262144 v shapeCasts_S262144x1_S262144),
    StableHlo.nullary main_c_120 (constantI S_ 32 0#32),
    StableHlo.unary main_c_120 main_v486 (broadcastInDim S262144 ![] bcast_S_S262144 : (⟨S_, .i32⟩ : BufTy).Contents (Elt F) → (⟨S262144, .i32⟩ : BufTy).Contents (Elt F)),
    StableHlo.binary main_v485 main_v486 main_v487 (addi : (⟨S262144, .i32⟩ : BufTy).Contents (Elt F) → (⟨S262144, .i32⟩ : BufTy).Contents (Elt F) → (⟨S262144, .i32⟩ : BufTy).Contents (Elt F)),
    StableHlo.unary main_v438 main_v488 ((extractStridedSlice S262144x1 ![0, 1] · slices_S262144x2_S262144x1_0_1) : (⟨S262144x2, .i32⟩ : BufTy).Contents (Elt F) → (⟨S262144x1, .i32⟩ : BufTy).Contents (Elt F)),
    StableHlo.unary main_v488 main_v489 (fun v => shapeCast S262144 v shapeCasts_S262144x1_S262144),
    StableHlo.nullary main_c_121 (constantI S_ 32 1#32),
    StableHlo.unary main_c_121 main_v490 (broadcastInDim S262144 ![] bcast_S_S262144 : (⟨S_, .i32⟩ : BufTy).Contents (Elt F) → (⟨S262144, .i32⟩ : BufTy).Contents (Elt F)),
    StableHlo.binary main_v489 main_v490 main_v491 (addi : (⟨S262144, .i32⟩ : BufTy).Contents (Elt F) → (⟨S262144, .i32⟩ : BufTy).Contents (Elt F) → (⟨S262144, .i32⟩ : BufTy).Contents (Elt F)),
    StableHlo.nullary main_c_122 (constantI S_ 32 33#32),
    StableHlo.unary main_c_122 main_v492 (broadcastInDim S262144 ![] bcast_S_S262144 : (⟨S_, .i32⟩ : BufTy).Contents (Elt F) → (⟨S262144, .i32⟩ : BufTy).Contents (Elt F)),
    StableHlo.binary main_v491 main_v492 main_v493 (muli : (⟨S262144, .i32⟩ : BufTy).Contents (Elt F) → (⟨S262144, .i32⟩ : BufTy).Contents (Elt F) → (⟨S262144, .i32⟩ : BufTy).Contents (Elt F)),
    StableHlo.binary main_v487 main_v493 main_v494 (addi : (⟨S262144, .i32⟩ : BufTy).Contents (Elt F) → (⟨S262144, .i32⟩ : BufTy).Contents (Elt F) → (⟨S262144, .i32⟩ : BufTy).Contents (Elt F)),
    StableHlo.nullary main_c_123 (constantI S_ 32 1096#32),
    StableHlo.unary main_c_123 main_call13_v0 id,
    StableHlo.nullary main_call13_c (constantI S_ 32 0#32),
    StableHlo.binary main_call13_v0 main_call13_c main_call13_v1 (cmpi .eq),
    StableHlo.nullary main_call13_c_0 (constantI S_ 32 1#32),
    StableHlo.ternary main_call13_v1 main_call13_c_0 main_call13_v0 main_call13_v2 select,
    StableHlo.unary main_call13_v2 main_call13_v3 (broadcastInDim S262144 ![] bcast_S_S262144),
    StableHlo.binary main_v494 main_call13_v3 main_call13_v4 Host.remsi,
    StableHlo.nullary main_call13_c_1 (constantI S_ 32 0#32),
    StableHlo.unary main_call13_c_1 main_call13_v5 (broadcastInDim S262144 ![] bcast_S_S262144),
    StableHlo.binary main_call13_v4 main_call13_v5 main_call13_v6 (cmpi .ne),
    StableHlo.nullary main_call13_c_2 (constantI S_ 32 0#32),
    StableHlo.unary main_call13_c_2 main_call13_v7 (broadcastInDim S262144 ![] bcast_S_S262144),
    StableHlo.binary main_call13_v4 main_call13_v7 main_call13_v8 (cmpi .slt),
    StableHlo.nullary main_call13_c_3 (constantI S_ 32 0#32),
    StableHlo.binary main_call13_v2 main_call13_c_3 main_call13_v9 (cmpi .slt),
    StableHlo.unary main_call13_v9 main_call13_v10 (broadcastInDim S262144 ![] bcast_S_S262144),
    StableHlo.binary main_call13_v8 main_call13_v10 main_call13_v11 (cmpi .ne),
    StableHlo.binary main_call13_v11 main_call13_v6 main_call13_v12 andi,
    StableHlo.unary main_call13_v2 main_call13_v13 (broadcastInDim S262144 ![] bcast_S_S262144),
    StableHlo.binary main_call13_v4 main_call13_v13 main_call13_v14 addi,
    StableHlo.ternary main_call13_v12 main_call13_v14 main_call13_v4 main_v495 select,
    StableHlo.binary main_v449 main_v483 main_v496 (mulf : (⟨S262144, .f32⟩ : BufTy).Contents (Elt F) → (⟨S262144, .f32⟩ : BufTy).Contents (Elt F) → (⟨S262144, .f32⟩ : BufTy).Contents (Elt F)),
    StableHlo.unary main_v496 main_v497 (broadcastInDim S262144x1 ![0] bcast_S262144_S262144x1_0 : (⟨S262144, .f32⟩ : BufTy).Contents (Elt F) → (⟨S262144x1, .f32⟩ : BufTy).Contents (Elt F)),
    StableHlo.nullary main_c_124 (constantI S_ 32 0#32),
    StableHlo.unary main_c_124 main_v498 (broadcastInDim S262144 ![] bcast_S_S262144 : (⟨S_, .i32⟩ : BufTy).Contents (Elt F) → (⟨S262144, .i32⟩ : BufTy).Contents (Elt F)),
    StableHlo.binary main_v495 main_v498 main_v499 (cmpi .slt : (⟨S262144, .i32⟩ : BufTy).Contents (Elt F) → (⟨S262144, .i32⟩ : BufTy).Contents (Elt F) → (⟨S262144, .i1⟩ : BufTy).Contents (Elt F)),
    StableHlo.nullary main_c_125 (constantI S_ 32 8192#32),
    StableHlo.unary main_c_125 main_v500 (broadcastInDim S262144 ![] bcast_S_S262144 : (⟨S_, .i32⟩ : BufTy).Contents (Elt F) → (⟨S262144, .i32⟩ : BufTy).Contents (Elt F)),
    StableHlo.binary main_v495 main_v500 main_v501 (addi : (⟨S262144, .i32⟩ : BufTy).Contents (Elt F) → (⟨S262144, .i32⟩ : BufTy).Contents (Elt F) → (⟨S262144, .i32⟩ : BufTy).Contents (Elt F)),
    StableHlo.ternary main_v499 main_v501 main_v495 main_v502 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.nullary main_c_126 (constantI S_ 32 3#32),
    StableHlo.unary main_c_126 main_v503 (broadcastInDim S262144 ![] bcast_S_S262144 : (⟨S_, .i32⟩ : BufTy).Contents (Elt F) → (⟨S262144, .i32⟩ : BufTy).Contents (Elt F)),
    StableHlo.unary main_v503 main_v504 (id : (⟨S262144, .i32⟩ : BufTy).Contents (Elt F) → (⟨S262144, .i32⟩ : BufTy).Contents (Elt F)),
    StableHlo.unary main_v504 main_v505 (broadcastInDim S262144x1 ![0] bcast_S262144_S262144x1_0 : (⟨S262144, .i32⟩ : BufTy).Contents (Elt F) → (⟨S262144x1, .i32⟩ : BufTy).Contents (Elt F)),
    StableHlo.unary main_v502 main_v506 (broadcastInDim S262144x1 ![0] bcast_S262144_S262144x1_0 : (⟨S262144, .i32⟩ : BufTy).Contents (Elt F) → (⟨S262144x1, .i32⟩ : BufTy).Contents (Elt F)),
    StableHlo.binary main_v505 main_v506 main_v507 (pairCols (α := BitVec 32)),
    StableHlo.binary main_arg1 main_v507 main_v508 ((fun x i => Host.gather gather_S8x8192x8_S262144x2_S262144x8_1_01_n_n_01_1_118 x i) : (⟨S8x8192x8, .f32⟩ : BufTy).Contents (Elt F) → (⟨S262144x2, .i32⟩ : BufTy).Contents (Elt F) → (⟨S262144x8, .f32⟩ : BufTy).Contents (Elt F)),
    StableHlo.unary main_v497 main_v509 (broadcastInDim S262144x8 ![0, 1] bcast_S262144x1_S262144x8_0_1 : (⟨S262144x1, .f32⟩ : BufTy).Contents (Elt F) → (⟨S262144x8, .f32⟩ : BufTy).Contents (Elt F)),
    StableHlo.binary main_v509 main_v508 main_v510 (mulf : (⟨S262144x8, .f32⟩ : BufTy).Contents (Elt F) → (⟨S262144x8, .f32⟩ : BufTy).Contents (Elt F) → (⟨S262144x8, .f32⟩ : BufTy).Contents (Elt F)),
    StableHlo.binary main_v481 main_v510 main_v511 (addf : (⟨S262144x8, .f32⟩ : BufTy).Contents (Elt F) → (⟨S262144x8, .f32⟩ : BufTy).Contents (Elt F) → (⟨S262144x8, .f32⟩ : BufTy).Contents (Elt F)),
    StableHlo.unary main_v444 main_v512 ((extractStridedSlice S262144x1 ![0, 0] · slices_S262144x2_S262144x1_0_0) : (⟨S262144x2, .f32⟩ : BufTy).Contents (Elt F) → (⟨S262144x1, .f32⟩ : BufTy).Contents (Elt F)),
    StableHlo.unary main_v512 main_v513 (fun v => shapeCast S262144 v shapeCasts_S262144x1_S262144),
    StableHlo.unary main_v444 main_v514 ((extractStridedSlice S262144x1 ![0, 1] · slices_S262144x2_S262144x1_0_1) : (⟨S262144x2, .f32⟩ : BufTy).Contents (Elt F) → (⟨S262144x1, .f32⟩ : BufTy).Contents (Elt F)),
    StableHlo.unary main_v514 main_v515 (fun v => shapeCast S262144 v shapeCasts_S262144x1_S262144),
    StableHlo.nullary main_cst_127 (constant S_ .f32 0x3F800000#32),
    StableHlo.unary main_cst_127 main_v516 (broadcastInDim S262144 ![] bcast_S_S262144 : (⟨S_, .f32⟩ : BufTy).Contents (Elt F) → (⟨S262144, .f32⟩ : BufTy).Contents (Elt F)),
    StableHlo.binary main_v516 main_v515 main_v517 (subf : (⟨S262144, .f32⟩ : BufTy).Contents (Elt F) → (⟨S262144, .f32⟩ : BufTy).Contents (Elt F) → (⟨S262144, .f32⟩ : BufTy).Contents (Elt F)),
    StableHlo.unary main_v438 main_v518 ((extractStridedSlice S262144x1 ![0, 0] · slices_S262144x2_S262144x1_0_0) : (⟨S262144x2, .i32⟩ : BufTy).Contents (Elt F) → (⟨S262144x1, .i32⟩ : BufTy).Contents (Elt F)),
    StableHlo.unary main_v518 main_v519 (fun v => shapeCast S262144 v shapeCasts_S262144x1_S262144),
    StableHlo.nullary main_c_128 (constantI S_ 32 1#32),
    StableHlo.unary main_c_128 main_v520 (broadcastInDim S262144 ![] bcast_S_S262144 : (⟨S_, .i32⟩ : BufTy).Contents (Elt F) → (⟨S262144, .i32⟩ : BufTy).Contents (Elt F)),
    StableHlo.binary main_v519 main_v520 main_v521 (addi : (⟨S262144, .i32⟩ : BufTy).Contents (Elt F) → (⟨S262144, .i32⟩ : BufTy).Contents (Elt F) → (⟨S262144, .i32⟩ : BufTy).Contents (Elt F)),
    StableHlo.unary main_v438 main_v522 ((extractStridedSlice S262144x1 ![0, 1] · slices_S262144x2_S262144x1_0_1) : (⟨S262144x2, .i32⟩ : BufTy).Contents (Elt F) → (⟨S262144x1, .i32⟩ : BufTy).Contents (Elt F)),
    StableHlo.unary main_v522 main_v523 (fun v => shapeCast S262144 v shapeCasts_S262144x1_S262144),
    StableHlo.nullary main_c_129 (constantI S_ 32 0#32),
    StableHlo.unary main_c_129 main_v524 (broadcastInDim S262144 ![] bcast_S_S262144 : (⟨S_, .i32⟩ : BufTy).Contents (Elt F) → (⟨S262144, .i32⟩ : BufTy).Contents (Elt F)),
    StableHlo.binary main_v523 main_v524 main_v525 (addi : (⟨S262144, .i32⟩ : BufTy).Contents (Elt F) → (⟨S262144, .i32⟩ : BufTy).Contents (Elt F) → (⟨S262144, .i32⟩ : BufTy).Contents (Elt F)),
    StableHlo.nullary main_c_130 (constantI S_ 32 33#32),
    StableHlo.unary main_c_130 main_v526 (broadcastInDim S262144 ![] bcast_S_S262144 : (⟨S_, .i32⟩ : BufTy).Contents (Elt F) → (⟨S262144, .i32⟩ : BufTy).Contents (Elt F)) ]

abbrev ops_part11 : List (HloOp τ sig (Elt F)) :=
  [ StableHlo.binary main_v525 main_v526 main_v527 (muli : (⟨S262144, .i32⟩ : BufTy).Contents (Elt F) → (⟨S262144, .i32⟩ : BufTy).Contents (Elt F) → (⟨S262144, .i32⟩ : BufTy).Contents (Elt F)),
    StableHlo.binary main_v521 main_v527 main_v528 (addi : (⟨S262144, .i32⟩ : BufTy).Contents (Elt F) → (⟨S262144, .i32⟩ : BufTy).Contents (Elt F) → (⟨S262144, .i32⟩ : BufTy).Contents (Elt F)),
    StableHlo.nullary main_c_131 (constantI S_ 32 1096#32),
    StableHlo.unary main_c_131 main_call14_v0 id,
    StableHlo.nullary main_call14_c (constantI S_ 32 0#32),
    StableHlo.binary main_call14_v0 main_call14_c main_call14_v1 (cmpi .eq),
    StableHlo.nullary main_call14_c_0 (constantI S_ 32 1#32),
    StableHlo.ternary main_call14_v1 main_call14_c_0 main_call14_v0 main_call14_v2 select,
    StableHlo.unary main_call14_v2 main_call14_v3 (broadcastInDim S262144 ![] bcast_S_S262144),
    StableHlo.binary main_v528 main_call14_v3 main_call14_v4 Host.remsi,
    StableHlo.nullary main_call14_c_1 (constantI S_ 32 0#32),
    StableHlo.unary main_call14_c_1 main_call14_v5 (broadcastInDim S262144 ![] bcast_S_S262144),
    StableHlo.binary main_call14_v4 main_call14_v5 main_call14_v6 (cmpi .ne),
    StableHlo.nullary main_call14_c_2 (constantI S_ 32 0#32),
    StableHlo.unary main_call14_c_2 main_call14_v7 (broadcastInDim S262144 ![] bcast_S_S262144),
    StableHlo.binary main_call14_v4 main_call14_v7 main_call14_v8 (cmpi .slt),
    StableHlo.nullary main_call14_c_3 (constantI S_ 32 0#32),
    StableHlo.binary main_call14_v2 main_call14_c_3 main_call14_v9 (cmpi .slt),
    StableHlo.unary main_call14_v9 main_call14_v10 (broadcastInDim S262144 ![] bcast_S_S262144),
    StableHlo.binary main_call14_v8 main_call14_v10 main_call14_v11 (cmpi .ne),
    StableHlo.binary main_call14_v11 main_call14_v6 main_call14_v12 andi,
    StableHlo.unary main_call14_v2 main_call14_v13 (broadcastInDim S262144 ![] bcast_S_S262144),
    StableHlo.binary main_call14_v4 main_call14_v13 main_call14_v14 addi,
    StableHlo.ternary main_call14_v12 main_call14_v14 main_call14_v4 main_v529 select,
    StableHlo.binary main_v513 main_v517 main_v530 (mulf : (⟨S262144, .f32⟩ : BufTy).Contents (Elt F) → (⟨S262144, .f32⟩ : BufTy).Contents (Elt F) → (⟨S262144, .f32⟩ : BufTy).Contents (Elt F)),
    StableHlo.unary main_v530 main_v531 (broadcastInDim S262144x1 ![0] bcast_S262144_S262144x1_0 : (⟨S262144, .f32⟩ : BufTy).Contents (Elt F) → (⟨S262144x1, .f32⟩ : BufTy).Contents (Elt F)),
    StableHlo.nullary main_c_132 (constantI S_ 32 0#32),
    StableHlo.unary main_c_132 main_v532 (broadcastInDim S262144 ![] bcast_S_S262144 : (⟨S_, .i32⟩ : BufTy).Contents (Elt F) → (⟨S262144, .i32⟩ : BufTy).Contents (Elt F)),
    StableHlo.binary main_v529 main_v532 main_v533 (cmpi .slt : (⟨S262144, .i32⟩ : BufTy).Contents (Elt F) → (⟨S262144, .i32⟩ : BufTy).Contents (Elt F) → (⟨S262144, .i1⟩ : BufTy).Contents (Elt F)),
    StableHlo.nullary main_c_133 (constantI S_ 32 8192#32),
    StableHlo.unary main_c_133 main_v534 (broadcastInDim S262144 ![] bcast_S_S262144 : (⟨S_, .i32⟩ : BufTy).Contents (Elt F) → (⟨S262144, .i32⟩ : BufTy).Contents (Elt F)),
    StableHlo.binary main_v529 main_v534 main_v535 (addi : (⟨S262144, .i32⟩ : BufTy).Contents (Elt F) → (⟨S262144, .i32⟩ : BufTy).Contents (Elt F) → (⟨S262144, .i32⟩ : BufTy).Contents (Elt F)),
    StableHlo.ternary main_v533 main_v535 main_v529 main_v536 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.nullary main_c_134 (constantI S_ 32 3#32),
    StableHlo.unary main_c_134 main_v537 (broadcastInDim S262144 ![] bcast_S_S262144 : (⟨S_, .i32⟩ : BufTy).Contents (Elt F) → (⟨S262144, .i32⟩ : BufTy).Contents (Elt F)),
    StableHlo.unary main_v537 main_v538 (id : (⟨S262144, .i32⟩ : BufTy).Contents (Elt F) → (⟨S262144, .i32⟩ : BufTy).Contents (Elt F)),
    StableHlo.unary main_v538 main_v539 (broadcastInDim S262144x1 ![0] bcast_S262144_S262144x1_0 : (⟨S262144, .i32⟩ : BufTy).Contents (Elt F) → (⟨S262144x1, .i32⟩ : BufTy).Contents (Elt F)),
    StableHlo.unary main_v536 main_v540 (broadcastInDim S262144x1 ![0] bcast_S262144_S262144x1_0 : (⟨S262144, .i32⟩ : BufTy).Contents (Elt F) → (⟨S262144x1, .i32⟩ : BufTy).Contents (Elt F)),
    StableHlo.binary main_v539 main_v540 main_v541 (pairCols (α := BitVec 32)),
    StableHlo.binary main_arg1 main_v541 main_v542 ((fun x i => Host.gather gather_S8x8192x8_S262144x2_S262144x8_1_01_n_n_01_1_118 x i) : (⟨S8x8192x8, .f32⟩ : BufTy).Contents (Elt F) → (⟨S262144x2, .i32⟩ : BufTy).Contents (Elt F) → (⟨S262144x8, .f32⟩ : BufTy).Contents (Elt F)),
    StableHlo.unary main_v531 main_v543 (broadcastInDim S262144x8 ![0, 1] bcast_S262144x1_S262144x8_0_1 : (⟨S262144x1, .f32⟩ : BufTy).Contents (Elt F) → (⟨S262144x8, .f32⟩ : BufTy).Contents (Elt F)),
    StableHlo.binary main_v543 main_v542 main_v544 (mulf : (⟨S262144x8, .f32⟩ : BufTy).Contents (Elt F) → (⟨S262144x8, .f32⟩ : BufTy).Contents (Elt F) → (⟨S262144x8, .f32⟩ : BufTy).Contents (Elt F)),
    StableHlo.binary main_v511 main_v544 main_v545 (addf : (⟨S262144x8, .f32⟩ : BufTy).Contents (Elt F) → (⟨S262144x8, .f32⟩ : BufTy).Contents (Elt F) → (⟨S262144x8, .f32⟩ : BufTy).Contents (Elt F)),
    StableHlo.unary main_v444 main_v546 ((extractStridedSlice S262144x1 ![0, 1] · slices_S262144x2_S262144x1_0_1) : (⟨S262144x2, .f32⟩ : BufTy).Contents (Elt F) → (⟨S262144x1, .f32⟩ : BufTy).Contents (Elt F)),
    StableHlo.unary main_v546 main_v547 (fun v => shapeCast S262144 v shapeCasts_S262144x1_S262144),
    StableHlo.unary main_v438 main_v548 ((extractStridedSlice S262144x1 ![0, 0] · slices_S262144x2_S262144x1_0_0) : (⟨S262144x2, .i32⟩ : BufTy).Contents (Elt F) → (⟨S262144x1, .i32⟩ : BufTy).Contents (Elt F)),
    StableHlo.unary main_v548 main_v549 (fun v => shapeCast S262144 v shapeCasts_S262144x1_S262144),
    StableHlo.nullary main_c_135 (constantI S_ 32 1#32),
    StableHlo.unary main_c_135 main_v550 (broadcastInDim S262144 ![] bcast_S_S262144 : (⟨S_, .i32⟩ : BufTy).Contents (Elt F) → (⟨S262144, .i32⟩ : BufTy).Contents (Elt F)),
    StableHlo.binary main_v549 main_v550 main_v551 (addi : (⟨S262144, .i32⟩ : BufTy).Contents (Elt F) → (⟨S262144, .i32⟩ : BufTy).Contents (Elt F) → (⟨S262144, .i32⟩ : BufTy).Contents (Elt F)),
    StableHlo.unary main_v438 main_v552 ((extractStridedSlice S262144x1 ![0, 1] · slices_S262144x2_S262144x1_0_1) : (⟨S262144x2, .i32⟩ : BufTy).Contents (Elt F) → (⟨S262144x1, .i32⟩ : BufTy).Contents (Elt F)),
    StableHlo.unary main_v552 main_v553 (fun v => shapeCast S262144 v shapeCasts_S262144x1_S262144),
    StableHlo.nullary main_c_136 (constantI S_ 32 1#32),
    StableHlo.unary main_c_136 main_v554 (broadcastInDim S262144 ![] bcast_S_S262144 : (⟨S_, .i32⟩ : BufTy).Contents (Elt F) → (⟨S262144, .i32⟩ : BufTy).Contents (Elt F)),
    StableHlo.binary main_v553 main_v554 main_v555 (addi : (⟨S262144, .i32⟩ : BufTy).Contents (Elt F) → (⟨S262144, .i32⟩ : BufTy).Contents (Elt F) → (⟨S262144, .i32⟩ : BufTy).Contents (Elt F)),
    StableHlo.nullary main_c_137 (constantI S_ 32 33#32),
    StableHlo.unary main_c_137 main_v556 (broadcastInDim S262144 ![] bcast_S_S262144 : (⟨S_, .i32⟩ : BufTy).Contents (Elt F) → (⟨S262144, .i32⟩ : BufTy).Contents (Elt F)),
    StableHlo.binary main_v555 main_v556 main_v557 (muli : (⟨S262144, .i32⟩ : BufTy).Contents (Elt F) → (⟨S262144, .i32⟩ : BufTy).Contents (Elt F) → (⟨S262144, .i32⟩ : BufTy).Contents (Elt F)),
    StableHlo.binary main_v551 main_v557 main_v558 (addi : (⟨S262144, .i32⟩ : BufTy).Contents (Elt F) → (⟨S262144, .i32⟩ : BufTy).Contents (Elt F) → (⟨S262144, .i32⟩ : BufTy).Contents (Elt F)),
    StableHlo.nullary main_c_138 (constantI S_ 32 1096#32),
    StableHlo.unary main_c_138 main_call15_v0 id,
    StableHlo.nullary main_call15_c (constantI S_ 32 0#32),
    StableHlo.binary main_call15_v0 main_call15_c main_call15_v1 (cmpi .eq),
    StableHlo.nullary main_call15_c_0 (constantI S_ 32 1#32),
    StableHlo.ternary main_call15_v1 main_call15_c_0 main_call15_v0 main_call15_v2 select,
    StableHlo.unary main_call15_v2 main_call15_v3 (broadcastInDim S262144 ![] bcast_S_S262144),
    StableHlo.binary main_v558 main_call15_v3 main_call15_v4 Host.remsi,
    StableHlo.nullary main_call15_c_1 (constantI S_ 32 0#32),
    StableHlo.unary main_call15_c_1 main_call15_v5 (broadcastInDim S262144 ![] bcast_S_S262144),
    StableHlo.binary main_call15_v4 main_call15_v5 main_call15_v6 (cmpi .ne),
    StableHlo.nullary main_call15_c_2 (constantI S_ 32 0#32),
    StableHlo.unary main_call15_c_2 main_call15_v7 (broadcastInDim S262144 ![] bcast_S_S262144),
    StableHlo.binary main_call15_v4 main_call15_v7 main_call15_v8 (cmpi .slt),
    StableHlo.nullary main_call15_c_3 (constantI S_ 32 0#32),
    StableHlo.binary main_call15_v2 main_call15_c_3 main_call15_v9 (cmpi .slt),
    StableHlo.unary main_call15_v9 main_call15_v10 (broadcastInDim S262144 ![] bcast_S_S262144),
    StableHlo.binary main_call15_v8 main_call15_v10 main_call15_v11 (cmpi .ne),
    StableHlo.binary main_call15_v11 main_call15_v6 main_call15_v12 andi,
    StableHlo.unary main_call15_v2 main_call15_v13 (broadcastInDim S262144 ![] bcast_S_S262144),
    StableHlo.binary main_call15_v4 main_call15_v13 main_call15_v14 addi,
    StableHlo.ternary main_call15_v12 main_call15_v14 main_call15_v4 main_v559 select,
    StableHlo.binary main_v513 main_v547 main_v560 (mulf : (⟨S262144, .f32⟩ : BufTy).Contents (Elt F) → (⟨S262144, .f32⟩ : BufTy).Contents (Elt F) → (⟨S262144, .f32⟩ : BufTy).Contents (Elt F)),
    StableHlo.unary main_v560 main_v561 (broadcastInDim S262144x1 ![0] bcast_S262144_S262144x1_0 : (⟨S262144, .f32⟩ : BufTy).Contents (Elt F) → (⟨S262144x1, .f32⟩ : BufTy).Contents (Elt F)),
    StableHlo.nullary main_c_139 (constantI S_ 32 0#32),
    StableHlo.unary main_c_139 main_v562 (broadcastInDim S262144 ![] bcast_S_S262144 : (⟨S_, .i32⟩ : BufTy).Contents (Elt F) → (⟨S262144, .i32⟩ : BufTy).Contents (Elt F)),
    StableHlo.binary main_v559 main_v562 main_v563 (cmpi .slt : (⟨S262144, .i32⟩ : BufTy).Contents (Elt F) → (⟨S262144, .i32⟩ : BufTy).Contents (Elt F) → (⟨S262144, .i1⟩ : BufTy).Contents (Elt F)),
    StableHlo.nullary main_c_140 (constantI S_ 32 8192#32),
    StableHlo.unary main_c_140 main_v564 (broadcastInDim S262144 ![] bcast_S_S262144 : (⟨S_, .i32⟩ : BufTy).Contents (Elt F) → (⟨S262144, .i32⟩ : BufTy).Contents (Elt F)),
    StableHlo.binary main_v559 main_v564 main_v565 (addi : (⟨S262144, .i32⟩ : BufTy).Contents (Elt F) → (⟨S262144, .i32⟩ : BufTy).Contents (Elt F) → (⟨S262144, .i32⟩ : BufTy).Contents (Elt F)),
    StableHlo.ternary main_v563 main_v565 main_v559 main_v566 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.nullary main_c_141 (constantI S_ 32 3#32),
    StableHlo.unary main_c_141 main_v567 (broadcastInDim S262144 ![] bcast_S_S262144 : (⟨S_, .i32⟩ : BufTy).Contents (Elt F) → (⟨S262144, .i32⟩ : BufTy).Contents (Elt F)),
    StableHlo.unary main_v567 main_v568 (id : (⟨S262144, .i32⟩ : BufTy).Contents (Elt F) → (⟨S262144, .i32⟩ : BufTy).Contents (Elt F)),
    StableHlo.unary main_v568 main_v569 (broadcastInDim S262144x1 ![0] bcast_S262144_S262144x1_0 : (⟨S262144, .i32⟩ : BufTy).Contents (Elt F) → (⟨S262144x1, .i32⟩ : BufTy).Contents (Elt F)),
    StableHlo.unary main_v566 main_v570 (broadcastInDim S262144x1 ![0] bcast_S262144_S262144x1_0 : (⟨S262144, .i32⟩ : BufTy).Contents (Elt F) → (⟨S262144x1, .i32⟩ : BufTy).Contents (Elt F)),
    StableHlo.binary main_v569 main_v570 main_v571 (pairCols (α := BitVec 32)),
    StableHlo.binary main_arg1 main_v571 main_v572 ((fun x i => Host.gather gather_S8x8192x8_S262144x2_S262144x8_1_01_n_n_01_1_118 x i) : (⟨S8x8192x8, .f32⟩ : BufTy).Contents (Elt F) → (⟨S262144x2, .i32⟩ : BufTy).Contents (Elt F) → (⟨S262144x8, .f32⟩ : BufTy).Contents (Elt F)),
    StableHlo.unary main_v561 main_v573 (broadcastInDim S262144x8 ![0, 1] bcast_S262144x1_S262144x8_0_1 : (⟨S262144x1, .f32⟩ : BufTy).Contents (Elt F) → (⟨S262144x8, .f32⟩ : BufTy).Contents (Elt F)),
    StableHlo.binary main_v573 main_v572 main_v574 (mulf : (⟨S262144x8, .f32⟩ : BufTy).Contents (Elt F) → (⟨S262144x8, .f32⟩ : BufTy).Contents (Elt F) → (⟨S262144x8, .f32⟩ : BufTy).Contents (Elt F)),
    StableHlo.binary main_v545 main_v574 main_v575 (addf : (⟨S262144x8, .f32⟩ : BufTy).Contents (Elt F) → (⟨S262144x8, .f32⟩ : BufTy).Contents (Elt F) → (⟨S262144x8, .f32⟩ : BufTy).Contents (Elt F)) ]

abbrev ops_part12 : List (HloOp τ sig (Elt F)) :=
  [ StableHlo.nullary main_cst_142 (constant S_ .f32 0x421D4519#32),
    StableHlo.unary main_cst_142 main_v576 (broadcastInDim S262144x2 ![] bcast_S_S262144x2 : (⟨S_, .f32⟩ : BufTy).Contents (Elt F) → (⟨S262144x2, .f32⟩ : BufTy).Contents (Elt F)),
    StableHlo.binary main_arg0 main_v576 main_v577 (mulf : (⟨S262144x2, .f32⟩ : BufTy).Contents (Elt F) → (⟨S262144x2, .f32⟩ : BufTy).Contents (Elt F) → (⟨S262144x2, .f32⟩ : BufTy).Contents (Elt F)),
    StableHlo.nullary main_cst_143 (constant S_ .f32 0x3F000000#32),
    StableHlo.unary main_cst_143 main_v578 (broadcastInDim S262144x2 ![] bcast_S_S262144x2 : (⟨S_, .f32⟩ : BufTy).Contents (Elt F) → (⟨S262144x2, .f32⟩ : BufTy).Contents (Elt F)),
    StableHlo.binary main_v577 main_v578 main_v579 (addf : (⟨S262144x2, .f32⟩ : BufTy).Contents (Elt F) → (⟨S262144x2, .f32⟩ : BufTy).Contents (Elt F) → (⟨S262144x2, .f32⟩ : BufTy).Contents (Elt F)),
    StableHlo.unary main_v579 main_v580 (Host.floor : (⟨S262144x2, .f32⟩ : BufTy).Contents (Elt F) → (⟨S262144x2, .f32⟩ : BufTy).Contents (Elt F)),
    StableHlo.binary main_v579 main_v580 main_v581 (subf : (⟨S262144x2, .f32⟩ : BufTy).Contents (Elt F) → (⟨S262144x2, .f32⟩ : BufTy).Contents (Elt F) → (⟨S262144x2, .f32⟩ : BufTy).Contents (Elt F)),
    StableHlo.unary main_v580 main_v582 (fptosi 32 : (⟨S262144x2, .f32⟩ : BufTy).Contents (Elt F) → (⟨S262144x2, .i32⟩ : BufTy).Contents (Elt F)),
    StableHlo.binary main_v581 main_v581 main_v583 (mulf : (⟨S262144x2, .f32⟩ : BufTy).Contents (Elt F) → (⟨S262144x2, .f32⟩ : BufTy).Contents (Elt F) → (⟨S262144x2, .f32⟩ : BufTy).Contents (Elt F)),
    StableHlo.nullary main_cst_144 (constant S_ .f32 0x40000000#32),
    StableHlo.unary main_cst_144 main_v584 (broadcastInDim S262144x2 ![] bcast_S_S262144x2 : (⟨S_, .f32⟩ : BufTy).Contents (Elt F) → (⟨S262144x2, .f32⟩ : BufTy).Contents (Elt F)),
    StableHlo.binary main_v584 main_v581 main_v585 (mulf : (⟨S262144x2, .f32⟩ : BufTy).Contents (Elt F) → (⟨S262144x2, .f32⟩ : BufTy).Contents (Elt F) → (⟨S262144x2, .f32⟩ : BufTy).Contents (Elt F)),
    StableHlo.nullary main_cst_145 (constant S_ .f32 0x40400000#32),
    StableHlo.unary main_cst_145 main_v586 (broadcastInDim S262144x2 ![] bcast_S_S262144x2 : (⟨S_, .f32⟩ : BufTy).Contents (Elt F) → (⟨S262144x2, .f32⟩ : BufTy).Contents (Elt F)),
    StableHlo.binary main_v586 main_v585 main_v587 (subf : (⟨S262144x2, .f32⟩ : BufTy).Contents (Elt F) → (⟨S262144x2, .f32⟩ : BufTy).Contents (Elt F) → (⟨S262144x2, .f32⟩ : BufTy).Contents (Elt F)),
    StableHlo.binary main_v583 main_v587 main_v588 (mulf : (⟨S262144x2, .f32⟩ : BufTy).Contents (Elt F) → (⟨S262144x2, .f32⟩ : BufTy).Contents (Elt F) → (⟨S262144x2, .f32⟩ : BufTy).Contents (Elt F)),
    StableHlo.nullary main_cst_146 (constant S_ .f32 0x00000000#32),
    StableHlo.unary main_cst_146 main_v589 (broadcastInDim S262144x8 ![] bcast_S_S262144x8 : (⟨S_, .f32⟩ : BufTy).Contents (Elt F) → (⟨S262144x8, .f32⟩ : BufTy).Contents (Elt F)),
    StableHlo.unary main_v588 main_v590 ((extractStridedSlice S262144x1 ![0, 0] · slices_S262144x2_S262144x1_0_0) : (⟨S262144x2, .f32⟩ : BufTy).Contents (Elt F) → (⟨S262144x1, .f32⟩ : BufTy).Contents (Elt F)),
    StableHlo.unary main_v590 main_v591 (fun v => shapeCast S262144 v shapeCasts_S262144x1_S262144),
    StableHlo.nullary main_cst_147 (constant S_ .f32 0x3F800000#32),
    StableHlo.unary main_cst_147 main_v592 (broadcastInDim S262144 ![] bcast_S_S262144 : (⟨S_, .f32⟩ : BufTy).Contents (Elt F) → (⟨S262144, .f32⟩ : BufTy).Contents (Elt F)),
    StableHlo.binary main_v592 main_v591 main_v593 (subf : (⟨S262144, .f32⟩ : BufTy).Contents (Elt F) → (⟨S262144, .f32⟩ : BufTy).Contents (Elt F) → (⟨S262144, .f32⟩ : BufTy).Contents (Elt F)),
    StableHlo.unary main_v588 main_v594 ((extractStridedSlice S262144x1 ![0, 1] · slices_S262144x2_S262144x1_0_1) : (⟨S262144x2, .f32⟩ : BufTy).Contents (Elt F) → (⟨S262144x1, .f32⟩ : BufTy).Contents (Elt F)),
    StableHlo.unary main_v594 main_v595 (fun v => shapeCast S262144 v shapeCasts_S262144x1_S262144),
    StableHlo.nullary main_cst_148 (constant S_ .f32 0x3F800000#32),
    StableHlo.unary main_cst_148 main_v596 (broadcastInDim S262144 ![] bcast_S_S262144 : (⟨S_, .f32⟩ : BufTy).Contents (Elt F) → (⟨S262144, .f32⟩ : BufTy).Contents (Elt F)),
    StableHlo.binary main_v596 main_v595 main_v597 (subf : (⟨S262144, .f32⟩ : BufTy).Contents (Elt F) → (⟨S262144, .f32⟩ : BufTy).Contents (Elt F) → (⟨S262144, .f32⟩ : BufTy).Contents (Elt F)),
    StableHlo.unary main_v582 main_v598 ((extractStridedSlice S262144x1 ![0, 0] · slices_S262144x2_S262144x1_0_0) : (⟨S262144x2, .i32⟩ : BufTy).Contents (Elt F) → (⟨S262144x1, .i32⟩ : BufTy).Contents (Elt F)),
    StableHlo.unary main_v598 main_v599 (fun v => shapeCast S262144 v shapeCasts_S262144x1_S262144),
    StableHlo.nullary main_c_149 (constantI S_ 32 0#32),
    StableHlo.unary main_c_149 main_v600 (broadcastInDim S262144 ![] bcast_S_S262144 : (⟨S_, .i32⟩ : BufTy).Contents (Elt F) → (⟨S262144, .i32⟩ : BufTy).Contents (Elt F)),
    StableHlo.binary main_v599 main_v600 main_v601 (addi : (⟨S262144, .i32⟩ : BufTy).Contents (Elt F) → (⟨S262144, .i32⟩ : BufTy).Contents (Elt F) → (⟨S262144, .i32⟩ : BufTy).Contents (Elt F)),
    StableHlo.unary main_v582 main_v602 ((extractStridedSlice S262144x1 ![0, 1] · slices_S262144x2_S262144x1_0_1) : (⟨S262144x2, .i32⟩ : BufTy).Contents (Elt F) → (⟨S262144x1, .i32⟩ : BufTy).Contents (Elt F)),
    StableHlo.unary main_v602 main_v603 (fun v => shapeCast S262144 v shapeCasts_S262144x1_S262144),
    StableHlo.nullary main_c_150 (constantI S_ 32 0#32),
    StableHlo.unary main_c_150 main_v604 (broadcastInDim S262144 ![] bcast_S_S262144 : (⟨S_, .i32⟩ : BufTy).Contents (Elt F) → (⟨S262144, .i32⟩ : BufTy).Contents (Elt F)),
    StableHlo.binary main_v603 main_v604 main_v605 (addi : (⟨S262144, .i32⟩ : BufTy).Contents (Elt F) → (⟨S262144, .i32⟩ : BufTy).Contents (Elt F) → (⟨S262144, .i32⟩ : BufTy).Contents (Elt F)),
    StableHlo.nullary main_c_151 (constantI S_ 32 41#32),
    StableHlo.unary main_c_151 main_v606 (broadcastInDim S262144 ![] bcast_S_S262144 : (⟨S_, .i32⟩ : BufTy).Contents (Elt F) → (⟨S262144, .i32⟩ : BufTy).Contents (Elt F)),
    StableHlo.binary main_v605 main_v606 main_v607 (muli : (⟨S262144, .i32⟩ : BufTy).Contents (Elt F) → (⟨S262144, .i32⟩ : BufTy).Contents (Elt F) → (⟨S262144, .i32⟩ : BufTy).Contents (Elt F)),
    StableHlo.binary main_v601 main_v607 main_v608 (addi : (⟨S262144, .i32⟩ : BufTy).Contents (Elt F) → (⟨S262144, .i32⟩ : BufTy).Contents (Elt F) → (⟨S262144, .i32⟩ : BufTy).Contents (Elt F)),
    StableHlo.nullary main_c_152 (constantI S_ 32 1688#32),
    StableHlo.unary main_c_152 main_call16_v0 id,
    StableHlo.nullary main_call16_c (constantI S_ 32 0#32),
    StableHlo.binary main_call16_v0 main_call16_c main_call16_v1 (cmpi .eq),
    StableHlo.nullary main_call16_c_0 (constantI S_ 32 1#32),
    StableHlo.ternary main_call16_v1 main_call16_c_0 main_call16_v0 main_call16_v2 select,
    StableHlo.unary main_call16_v2 main_call16_v3 (broadcastInDim S262144 ![] bcast_S_S262144),
    StableHlo.binary main_v608 main_call16_v3 main_call16_v4 Host.remsi,
    StableHlo.nullary main_call16_c_1 (constantI S_ 32 0#32),
    StableHlo.unary main_call16_c_1 main_call16_v5 (broadcastInDim S262144 ![] bcast_S_S262144),
    StableHlo.binary main_call16_v4 main_call16_v5 main_call16_v6 (cmpi .ne),
    StableHlo.nullary main_call16_c_2 (constantI S_ 32 0#32),
    StableHlo.unary main_call16_c_2 main_call16_v7 (broadcastInDim S262144 ![] bcast_S_S262144),
    StableHlo.binary main_call16_v4 main_call16_v7 main_call16_v8 (cmpi .slt),
    StableHlo.nullary main_call16_c_3 (constantI S_ 32 0#32),
    StableHlo.binary main_call16_v2 main_call16_c_3 main_call16_v9 (cmpi .slt),
    StableHlo.unary main_call16_v9 main_call16_v10 (broadcastInDim S262144 ![] bcast_S_S262144),
    StableHlo.binary main_call16_v8 main_call16_v10 main_call16_v11 (cmpi .ne),
    StableHlo.binary main_call16_v11 main_call16_v6 main_call16_v12 andi,
    StableHlo.unary main_call16_v2 main_call16_v13 (broadcastInDim S262144 ![] bcast_S_S262144),
    StableHlo.binary main_call16_v4 main_call16_v13 main_call16_v14 addi,
    StableHlo.ternary main_call16_v12 main_call16_v14 main_call16_v4 main_v609 select,
    StableHlo.binary main_v593 main_v597 main_v610 (mulf : (⟨S262144, .f32⟩ : BufTy).Contents (Elt F) → (⟨S262144, .f32⟩ : BufTy).Contents (Elt F) → (⟨S262144, .f32⟩ : BufTy).Contents (Elt F)),
    StableHlo.unary main_v610 main_v611 (broadcastInDim S262144x1 ![0] bcast_S262144_S262144x1_0 : (⟨S262144, .f32⟩ : BufTy).Contents (Elt F) → (⟨S262144x1, .f32⟩ : BufTy).Contents (Elt F)),
    StableHlo.nullary main_c_153 (constantI S_ 32 0#32),
    StableHlo.unary main_c_153 main_v612 (broadcastInDim S262144 ![] bcast_S_S262144 : (⟨S_, .i32⟩ : BufTy).Contents (Elt F) → (⟨S262144, .i32⟩ : BufTy).Contents (Elt F)),
    StableHlo.binary main_v609 main_v612 main_v613 (cmpi .slt : (⟨S262144, .i32⟩ : BufTy).Contents (Elt F) → (⟨S262144, .i32⟩ : BufTy).Contents (Elt F) → (⟨S262144, .i1⟩ : BufTy).Contents (Elt F)),
    StableHlo.nullary main_c_154 (constantI S_ 32 8192#32),
    StableHlo.unary main_c_154 main_v614 (broadcastInDim S262144 ![] bcast_S_S262144 : (⟨S_, .i32⟩ : BufTy).Contents (Elt F) → (⟨S262144, .i32⟩ : BufTy).Contents (Elt F)),
    StableHlo.binary main_v609 main_v614 main_v615 (addi : (⟨S262144, .i32⟩ : BufTy).Contents (Elt F) → (⟨S262144, .i32⟩ : BufTy).Contents (Elt F) → (⟨S262144, .i32⟩ : BufTy).Contents (Elt F)),
    StableHlo.ternary main_v613 main_v615 main_v609 main_v616 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.nullary main_c_155 (constantI S_ 32 4#32),
    StableHlo.unary main_c_155 main_v617 (broadcastInDim S262144 ![] bcast_S_S262144 : (⟨S_, .i32⟩ : BufTy).Contents (Elt F) → (⟨S262144, .i32⟩ : BufTy).Contents (Elt F)),
    StableHlo.unary main_v617 main_v618 (id : (⟨S262144, .i32⟩ : BufTy).Contents (Elt F) → (⟨S262144, .i32⟩ : BufTy).Contents (Elt F)),
    StableHlo.unary main_v618 main_v619 (broadcastInDim S262144x1 ![0] bcast_S262144_S262144x1_0 : (⟨S262144, .i32⟩ : BufTy).Contents (Elt F) → (⟨S262144x1, .i32⟩ : BufTy).Contents (Elt F)),
    StableHlo.unary main_v616 main_v620 (broadcastInDim S262144x1 ![0] bcast_S262144_S262144x1_0 : (⟨S262144, .i32⟩ : BufTy).Contents (Elt F) → (⟨S262144x1, .i32⟩ : BufTy).Contents (Elt F)),
    StableHlo.binary main_v619 main_v620 main_v621 (pairCols (α := BitVec 32)) ]

abbrev ops_part13 : List (HloOp τ sig (Elt F)) :=
  [ StableHlo.binary main_arg1 main_v621 main_v622 ((fun x i => Host.gather gather_S8x8192x8_S262144x2_S262144x8_1_01_n_n_01_1_118 x i) : (⟨S8x8192x8, .f32⟩ : BufTy).Contents (Elt F) → (⟨S262144x2, .i32⟩ : BufTy).Contents (Elt F) → (⟨S262144x8, .f32⟩ : BufTy).Contents (Elt F)),
    StableHlo.unary main_v611 main_v623 (broadcastInDim S262144x8 ![0, 1] bcast_S262144x1_S262144x8_0_1 : (⟨S262144x1, .f32⟩ : BufTy).Contents (Elt F) → (⟨S262144x8, .f32⟩ : BufTy).Contents (Elt F)),
    StableHlo.binary main_v623 main_v622 main_v624 (mulf : (⟨S262144x8, .f32⟩ : BufTy).Contents (Elt F) → (⟨S262144x8, .f32⟩ : BufTy).Contents (Elt F) → (⟨S262144x8, .f32⟩ : BufTy).Contents (Elt F)),
    StableHlo.binary main_v589 main_v624 main_v625 (addf : (⟨S262144x8, .f32⟩ : BufTy).Contents (Elt F) → (⟨S262144x8, .f32⟩ : BufTy).Contents (Elt F) → (⟨S262144x8, .f32⟩ : BufTy).Contents (Elt F)),
    StableHlo.unary main_v588 main_v626 ((extractStridedSlice S262144x1 ![0, 1] · slices_S262144x2_S262144x1_0_1) : (⟨S262144x2, .f32⟩ : BufTy).Contents (Elt F) → (⟨S262144x1, .f32⟩ : BufTy).Contents (Elt F)),
    StableHlo.unary main_v626 main_v627 (fun v => shapeCast S262144 v shapeCasts_S262144x1_S262144),
    StableHlo.unary main_v582 main_v628 ((extractStridedSlice S262144x1 ![0, 0] · slices_S262144x2_S262144x1_0_0) : (⟨S262144x2, .i32⟩ : BufTy).Contents (Elt F) → (⟨S262144x1, .i32⟩ : BufTy).Contents (Elt F)),
    StableHlo.unary main_v628 main_v629 (fun v => shapeCast S262144 v shapeCasts_S262144x1_S262144),
    StableHlo.nullary main_c_156 (constantI S_ 32 0#32),
    StableHlo.unary main_c_156 main_v630 (broadcastInDim S262144 ![] bcast_S_S262144 : (⟨S_, .i32⟩ : BufTy).Contents (Elt F) → (⟨S262144, .i32⟩ : BufTy).Contents (Elt F)),
    StableHlo.binary main_v629 main_v630 main_v631 (addi : (⟨S262144, .i32⟩ : BufTy).Contents (Elt F) → (⟨S262144, .i32⟩ : BufTy).Contents (Elt F) → (⟨S262144, .i32⟩ : BufTy).Contents (Elt F)),
    StableHlo.unary main_v582 main_v632 ((extractStridedSlice S262144x1 ![0, 1] · slices_S262144x2_S262144x1_0_1) : (⟨S262144x2, .i32⟩ : BufTy).Contents (Elt F) → (⟨S262144x1, .i32⟩ : BufTy).Contents (Elt F)),
    StableHlo.unary main_v632 main_v633 (fun v => shapeCast S262144 v shapeCasts_S262144x1_S262144),
    StableHlo.nullary main_c_157 (constantI S_ 32 1#32),
    StableHlo.unary main_c_157 main_v634 (broadcastInDim S262144 ![] bcast_S_S262144 : (⟨S_, .i32⟩ : BufTy).Contents (Elt F) → (⟨S262144, .i32⟩ : BufTy).Contents (Elt F)),
    StableHlo.binary main_v633 main_v634 main_v635 (addi : (⟨S262144, .i32⟩ : BufTy).Contents (Elt F) → (⟨S262144, .i32⟩ : BufTy).Contents (Elt F) → (⟨S262144, .i32⟩ : BufTy).Contents (Elt F)),
    StableHlo.nullary main_c_158 (constantI S_ 32 41#32),
    StableHlo.unary main_c_158 main_v636 (broadcastInDim S262144 ![] bcast_S_S262144 : (⟨S_, .i32⟩ : BufTy).Contents (Elt F) → (⟨S262144, .i32⟩ : BufTy).Contents (Elt F)),
    StableHlo.binary main_v635 main_v636 main_v637 (muli : (⟨S262144, .i32⟩ : BufTy).Contents (Elt F) → (⟨S262144, .i32⟩ : BufTy).Contents (Elt F) → (⟨S262144, .i32⟩ : BufTy).Contents (Elt F)),
    StableHlo.binary main_v631 main_v637 main_v638 (addi : (⟨S262144, .i32⟩ : BufTy).Contents (Elt F) → (⟨S262144, .i32⟩ : BufTy).Contents (Elt F) → (⟨S262144, .i32⟩ : BufTy).Contents (Elt F)),
    StableHlo.nullary main_c_159 (constantI S_ 32 1688#32),
    StableHlo.unary main_c_159 main_call17_v0 id,
    StableHlo.nullary main_call17_c (constantI S_ 32 0#32),
    StableHlo.binary main_call17_v0 main_call17_c main_call17_v1 (cmpi .eq),
    StableHlo.nullary main_call17_c_0 (constantI S_ 32 1#32),
    StableHlo.ternary main_call17_v1 main_call17_c_0 main_call17_v0 main_call17_v2 select,
    StableHlo.unary main_call17_v2 main_call17_v3 (broadcastInDim S262144 ![] bcast_S_S262144),
    StableHlo.binary main_v638 main_call17_v3 main_call17_v4 Host.remsi,
    StableHlo.nullary main_call17_c_1 (constantI S_ 32 0#32),
    StableHlo.unary main_call17_c_1 main_call17_v5 (broadcastInDim S262144 ![] bcast_S_S262144),
    StableHlo.binary main_call17_v4 main_call17_v5 main_call17_v6 (cmpi .ne),
    StableHlo.nullary main_call17_c_2 (constantI S_ 32 0#32),
    StableHlo.unary main_call17_c_2 main_call17_v7 (broadcastInDim S262144 ![] bcast_S_S262144),
    StableHlo.binary main_call17_v4 main_call17_v7 main_call17_v8 (cmpi .slt),
    StableHlo.nullary main_call17_c_3 (constantI S_ 32 0#32),
    StableHlo.binary main_call17_v2 main_call17_c_3 main_call17_v9 (cmpi .slt),
    StableHlo.unary main_call17_v9 main_call17_v10 (broadcastInDim S262144 ![] bcast_S_S262144),
    StableHlo.binary main_call17_v8 main_call17_v10 main_call17_v11 (cmpi .ne),
    StableHlo.binary main_call17_v11 main_call17_v6 main_call17_v12 andi,
    StableHlo.unary main_call17_v2 main_call17_v13 (broadcastInDim S262144 ![] bcast_S_S262144),
    StableHlo.binary main_call17_v4 main_call17_v13 main_call17_v14 addi,
    StableHlo.ternary main_call17_v12 main_call17_v14 main_call17_v4 main_v639 select,
    StableHlo.binary main_v593 main_v627 main_v640 (mulf : (⟨S262144, .f32⟩ : BufTy).Contents (Elt F) → (⟨S262144, .f32⟩ : BufTy).Contents (Elt F) → (⟨S262144, .f32⟩ : BufTy).Contents (Elt F)),
    StableHlo.unary main_v640 main_v641 (broadcastInDim S262144x1 ![0] bcast_S262144_S262144x1_0 : (⟨S262144, .f32⟩ : BufTy).Contents (Elt F) → (⟨S262144x1, .f32⟩ : BufTy).Contents (Elt F)),
    StableHlo.nullary main_c_160 (constantI S_ 32 0#32),
    StableHlo.unary main_c_160 main_v642 (broadcastInDim S262144 ![] bcast_S_S262144 : (⟨S_, .i32⟩ : BufTy).Contents (Elt F) → (⟨S262144, .i32⟩ : BufTy).Contents (Elt F)),
    StableHlo.binary main_v639 main_v642 main_v643 (cmpi .slt : (⟨S262144, .i32⟩ : BufTy).Contents (Elt F) → (⟨S262144, .i32⟩ : BufTy).Contents (Elt F) → (⟨S262144, .i1⟩ : BufTy).Contents (Elt F)),
    StableHlo.nullary main_c_161 (constantI S_ 32 8192#32),
    StableHlo.unary main_c_161 main_v644 (broadcastInDim S262144 ![] bcast_S_S262144 : (⟨S_, .i32⟩ : BufTy).Contents (Elt F) → (⟨S262144, .i32⟩ : BufTy).Contents (Elt F)),
    StableHlo.binary main_v639 main_v644 main_v645 (addi : (⟨S262144, .i32⟩ : BufTy).Contents (Elt F) → (⟨S262144, .i32⟩ : BufTy).Contents (Elt F) → (⟨S262144, .i32⟩ : BufTy).Contents (Elt F)),
    StableHlo.ternary main_v643 main_v645 main_v639 main_v646 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.nullary main_c_162 (constantI S_ 32 4#32),
    StableHlo.unary main_c_162 main_v647 (broadcastInDim S262144 ![] bcast_S_S262144 : (⟨S_, .i32⟩ : BufTy).Contents (Elt F) → (⟨S262144, .i32⟩ : BufTy).Contents (Elt F)),
    StableHlo.unary main_v647 main_v648 (id : (⟨S262144, .i32⟩ : BufTy).Contents (Elt F) → (⟨S262144, .i32⟩ : BufTy).Contents (Elt F)),
    StableHlo.unary main_v648 main_v649 (broadcastInDim S262144x1 ![0] bcast_S262144_S262144x1_0 : (⟨S262144, .i32⟩ : BufTy).Contents (Elt F) → (⟨S262144x1, .i32⟩ : BufTy).Contents (Elt F)),
    StableHlo.unary main_v646 main_v650 (broadcastInDim S262144x1 ![0] bcast_S262144_S262144x1_0 : (⟨S262144, .i32⟩ : BufTy).Contents (Elt F) → (⟨S262144x1, .i32⟩ : BufTy).Contents (Elt F)),
    StableHlo.binary main_v649 main_v650 main_v651 (pairCols (α := BitVec 32)),
    StableHlo.binary main_arg1 main_v651 main_v652 ((fun x i => Host.gather gather_S8x8192x8_S262144x2_S262144x8_1_01_n_n_01_1_118 x i) : (⟨S8x8192x8, .f32⟩ : BufTy).Contents (Elt F) → (⟨S262144x2, .i32⟩ : BufTy).Contents (Elt F) → (⟨S262144x8, .f32⟩ : BufTy).Contents (Elt F)),
    StableHlo.unary main_v641 main_v653 (broadcastInDim S262144x8 ![0, 1] bcast_S262144x1_S262144x8_0_1 : (⟨S262144x1, .f32⟩ : BufTy).Contents (Elt F) → (⟨S262144x8, .f32⟩ : BufTy).Contents (Elt F)),
    StableHlo.binary main_v653 main_v652 main_v654 (mulf : (⟨S262144x8, .f32⟩ : BufTy).Contents (Elt F) → (⟨S262144x8, .f32⟩ : BufTy).Contents (Elt F) → (⟨S262144x8, .f32⟩ : BufTy).Contents (Elt F)),
    StableHlo.binary main_v625 main_v654 main_v655 (addf : (⟨S262144x8, .f32⟩ : BufTy).Contents (Elt F) → (⟨S262144x8, .f32⟩ : BufTy).Contents (Elt F) → (⟨S262144x8, .f32⟩ : BufTy).Contents (Elt F)),
    StableHlo.unary main_v588 main_v656 ((extractStridedSlice S262144x1 ![0, 0] · slices_S262144x2_S262144x1_0_0) : (⟨S262144x2, .f32⟩ : BufTy).Contents (Elt F) → (⟨S262144x1, .f32⟩ : BufTy).Contents (Elt F)),
    StableHlo.unary main_v656 main_v657 (fun v => shapeCast S262144 v shapeCasts_S262144x1_S262144),
    StableHlo.unary main_v588 main_v658 ((extractStridedSlice S262144x1 ![0, 1] · slices_S262144x2_S262144x1_0_1) : (⟨S262144x2, .f32⟩ : BufTy).Contents (Elt F) → (⟨S262144x1, .f32⟩ : BufTy).Contents (Elt F)),
    StableHlo.unary main_v658 main_v659 (fun v => shapeCast S262144 v shapeCasts_S262144x1_S262144),
    StableHlo.nullary main_cst_163 (constant S_ .f32 0x3F800000#32),
    StableHlo.unary main_cst_163 main_v660 (broadcastInDim S262144 ![] bcast_S_S262144 : (⟨S_, .f32⟩ : BufTy).Contents (Elt F) → (⟨S262144, .f32⟩ : BufTy).Contents (Elt F)),
    StableHlo.binary main_v660 main_v659 main_v661 (subf : (⟨S262144, .f32⟩ : BufTy).Contents (Elt F) → (⟨S262144, .f32⟩ : BufTy).Contents (Elt F) → (⟨S262144, .f32⟩ : BufTy).Contents (Elt F)),
    StableHlo.unary main_v582 main_v662 ((extractStridedSlice S262144x1 ![0, 0] · slices_S262144x2_S262144x1_0_0) : (⟨S262144x2, .i32⟩ : BufTy).Contents (Elt F) → (⟨S262144x1, .i32⟩ : BufTy).Contents (Elt F)),
    StableHlo.unary main_v662 main_v663 (fun v => shapeCast S262144 v shapeCasts_S262144x1_S262144),
    StableHlo.nullary main_c_164 (constantI S_ 32 1#32),
    StableHlo.unary main_c_164 main_v664 (broadcastInDim S262144 ![] bcast_S_S262144 : (⟨S_, .i32⟩ : BufTy).Contents (Elt F) → (⟨S262144, .i32⟩ : BufTy).Contents (Elt F)),
    StableHlo.binary main_v663 main_v664 main_v665 (addi : (⟨S262144, .i32⟩ : BufTy).Contents (Elt F) → (⟨S262144, .i32⟩ : BufTy).Contents (Elt F) → (⟨S262144, .i32⟩ : BufTy).Contents (Elt F)),
    StableHlo.unary main_v582 main_v666 ((extractStridedSlice S262144x1 ![0, 1] · slices_S262144x2_S262144x1_0_1) : (⟨S262144x2, .i32⟩ : BufTy).Contents (Elt F) → (⟨S262144x1, .i32⟩ : BufTy).Contents (Elt F)),
    StableHlo.unary main_v666 main_v667 (fun v => shapeCast S262144 v shapeCasts_S262144x1_S262144),
    StableHlo.nullary main_c_165 (constantI S_ 32 0#32),
    StableHlo.unary main_c_165 main_v668 (broadcastInDim S262144 ![] bcast_S_S262144 : (⟨S_, .i32⟩ : BufTy).Contents (Elt F) → (⟨S262144, .i32⟩ : BufTy).Contents (Elt F)),
    StableHlo.binary main_v667 main_v668 main_v669 (addi : (⟨S262144, .i32⟩ : BufTy).Contents (Elt F) → (⟨S262144, .i32⟩ : BufTy).Contents (Elt F) → (⟨S262144, .i32⟩ : BufTy).Contents (Elt F)),
    StableHlo.nullary main_c_166 (constantI S_ 32 41#32),
    StableHlo.unary main_c_166 main_v670 (broadcastInDim S262144 ![] bcast_S_S262144 : (⟨S_, .i32⟩ : BufTy).Contents (Elt F) → (⟨S262144, .i32⟩ : BufTy).Contents (Elt F)) ]

abbrev ops_part14 : List (HloOp τ sig (Elt F)) :=
  [ StableHlo.binary main_v669 main_v670 main_v671 (muli : (⟨S262144, .i32⟩ : BufTy).Contents (Elt F) → (⟨S262144, .i32⟩ : BufTy).Contents (Elt F) → (⟨S262144, .i32⟩ : BufTy).Contents (Elt F)),
    StableHlo.binary main_v665 main_v671 main_v672 (addi : (⟨S262144, .i32⟩ : BufTy).Contents (Elt F) → (⟨S262144, .i32⟩ : BufTy).Contents (Elt F) → (⟨S262144, .i32⟩ : BufTy).Contents (Elt F)),
    StableHlo.nullary main_c_167 (constantI S_ 32 1688#32),
    StableHlo.unary main_c_167 main_call18_v0 id,
    StableHlo.nullary main_call18_c (constantI S_ 32 0#32),
    StableHlo.binary main_call18_v0 main_call18_c main_call18_v1 (cmpi .eq),
    StableHlo.nullary main_call18_c_0 (constantI S_ 32 1#32),
    StableHlo.ternary main_call18_v1 main_call18_c_0 main_call18_v0 main_call18_v2 select,
    StableHlo.unary main_call18_v2 main_call18_v3 (broadcastInDim S262144 ![] bcast_S_S262144),
    StableHlo.binary main_v672 main_call18_v3 main_call18_v4 Host.remsi,
    StableHlo.nullary main_call18_c_1 (constantI S_ 32 0#32),
    StableHlo.unary main_call18_c_1 main_call18_v5 (broadcastInDim S262144 ![] bcast_S_S262144),
    StableHlo.binary main_call18_v4 main_call18_v5 main_call18_v6 (cmpi .ne),
    StableHlo.nullary main_call18_c_2 (constantI S_ 32 0#32),
    StableHlo.unary main_call18_c_2 main_call18_v7 (broadcastInDim S262144 ![] bcast_S_S262144),
    StableHlo.binary main_call18_v4 main_call18_v7 main_call18_v8 (cmpi .slt),
    StableHlo.nullary main_call18_c_3 (constantI S_ 32 0#32),
    StableHlo.binary main_call18_v2 main_call18_c_3 main_call18_v9 (cmpi .slt),
    StableHlo.unary main_call18_v9 main_call18_v10 (broadcastInDim S262144 ![] bcast_S_S262144),
    StableHlo.binary main_call18_v8 main_call18_v10 main_call18_v11 (cmpi .ne),
    StableHlo.binary main_call18_v11 main_call18_v6 main_call18_v12 andi,
    StableHlo.unary main_call18_v2 main_call18_v13 (broadcastInDim S262144 ![] bcast_S_S262144),
    StableHlo.binary main_call18_v4 main_call18_v13 main_call18_v14 addi,
    StableHlo.ternary main_call18_v12 main_call18_v14 main_call18_v4 main_v673 select,
    StableHlo.binary main_v657 main_v661 main_v674 (mulf : (⟨S262144, .f32⟩ : BufTy).Contents (Elt F) → (⟨S262144, .f32⟩ : BufTy).Contents (Elt F) → (⟨S262144, .f32⟩ : BufTy).Contents (Elt F)),
    StableHlo.unary main_v674 main_v675 (broadcastInDim S262144x1 ![0] bcast_S262144_S262144x1_0 : (⟨S262144, .f32⟩ : BufTy).Contents (Elt F) → (⟨S262144x1, .f32⟩ : BufTy).Contents (Elt F)),
    StableHlo.nullary main_c_168 (constantI S_ 32 0#32),
    StableHlo.unary main_c_168 main_v676 (broadcastInDim S262144 ![] bcast_S_S262144 : (⟨S_, .i32⟩ : BufTy).Contents (Elt F) → (⟨S262144, .i32⟩ : BufTy).Contents (Elt F)),
    StableHlo.binary main_v673 main_v676 main_v677 (cmpi .slt : (⟨S262144, .i32⟩ : BufTy).Contents (Elt F) → (⟨S262144, .i32⟩ : BufTy).Contents (Elt F) → (⟨S262144, .i1⟩ : BufTy).Contents (Elt F)),
    StableHlo.nullary main_c_169 (constantI S_ 32 8192#32),
    StableHlo.unary main_c_169 main_v678 (broadcastInDim S262144 ![] bcast_S_S262144 : (⟨S_, .i32⟩ : BufTy).Contents (Elt F) → (⟨S262144, .i32⟩ : BufTy).Contents (Elt F)),
    StableHlo.binary main_v673 main_v678 main_v679 (addi : (⟨S262144, .i32⟩ : BufTy).Contents (Elt F) → (⟨S262144, .i32⟩ : BufTy).Contents (Elt F) → (⟨S262144, .i32⟩ : BufTy).Contents (Elt F)),
    StableHlo.ternary main_v677 main_v679 main_v673 main_v680 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.nullary main_c_170 (constantI S_ 32 4#32),
    StableHlo.unary main_c_170 main_v681 (broadcastInDim S262144 ![] bcast_S_S262144 : (⟨S_, .i32⟩ : BufTy).Contents (Elt F) → (⟨S262144, .i32⟩ : BufTy).Contents (Elt F)),
    StableHlo.unary main_v681 main_v682 (id : (⟨S262144, .i32⟩ : BufTy).Contents (Elt F) → (⟨S262144, .i32⟩ : BufTy).Contents (Elt F)),
    StableHlo.unary main_v682 main_v683 (broadcastInDim S262144x1 ![0] bcast_S262144_S262144x1_0 : (⟨S262144, .i32⟩ : BufTy).Contents (Elt F) → (⟨S262144x1, .i32⟩ : BufTy).Contents (Elt F)),
    StableHlo.unary main_v680 main_v684 (broadcastInDim S262144x1 ![0] bcast_S262144_S262144x1_0 : (⟨S262144, .i32⟩ : BufTy).Contents (Elt F) → (⟨S262144x1, .i32⟩ : BufTy).Contents (Elt F)),
    StableHlo.binary main_v683 main_v684 main_v685 (pairCols (α := BitVec 32)),
    StableHlo.binary main_arg1 main_v685 main_v686 ((fun x i => Host.gather gather_S8x8192x8_S262144x2_S262144x8_1_01_n_n_01_1_118 x i) : (⟨S8x8192x8, .f32⟩ : BufTy).Contents (Elt F) → (⟨S262144x2, .i32⟩ : BufTy).Contents (Elt F) → (⟨S262144x8, .f32⟩ : BufTy).Contents (Elt F)),
    StableHlo.unary main_v675 main_v687 (broadcastInDim S262144x8 ![0, 1] bcast_S262144x1_S262144x8_0_1 : (⟨S262144x1, .f32⟩ : BufTy).Contents (Elt F) → (⟨S262144x8, .f32⟩ : BufTy).Contents (Elt F)),
    StableHlo.binary main_v687 main_v686 main_v688 (mulf : (⟨S262144x8, .f32⟩ : BufTy).Contents (Elt F) → (⟨S262144x8, .f32⟩ : BufTy).Contents (Elt F) → (⟨S262144x8, .f32⟩ : BufTy).Contents (Elt F)),
    StableHlo.binary main_v655 main_v688 main_v689 (addf : (⟨S262144x8, .f32⟩ : BufTy).Contents (Elt F) → (⟨S262144x8, .f32⟩ : BufTy).Contents (Elt F) → (⟨S262144x8, .f32⟩ : BufTy).Contents (Elt F)),
    StableHlo.unary main_v588 main_v690 ((extractStridedSlice S262144x1 ![0, 1] · slices_S262144x2_S262144x1_0_1) : (⟨S262144x2, .f32⟩ : BufTy).Contents (Elt F) → (⟨S262144x1, .f32⟩ : BufTy).Contents (Elt F)),
    StableHlo.unary main_v690 main_v691 (fun v => shapeCast S262144 v shapeCasts_S262144x1_S262144),
    StableHlo.unary main_v582 main_v692 ((extractStridedSlice S262144x1 ![0, 0] · slices_S262144x2_S262144x1_0_0) : (⟨S262144x2, .i32⟩ : BufTy).Contents (Elt F) → (⟨S262144x1, .i32⟩ : BufTy).Contents (Elt F)),
    StableHlo.unary main_v692 main_v693 (fun v => shapeCast S262144 v shapeCasts_S262144x1_S262144),
    StableHlo.nullary main_c_171 (constantI S_ 32 1#32),
    StableHlo.unary main_c_171 main_v694 (broadcastInDim S262144 ![] bcast_S_S262144 : (⟨S_, .i32⟩ : BufTy).Contents (Elt F) → (⟨S262144, .i32⟩ : BufTy).Contents (Elt F)),
    StableHlo.binary main_v693 main_v694 main_v695 (addi : (⟨S262144, .i32⟩ : BufTy).Contents (Elt F) → (⟨S262144, .i32⟩ : BufTy).Contents (Elt F) → (⟨S262144, .i32⟩ : BufTy).Contents (Elt F)),
    StableHlo.unary main_v582 main_v696 ((extractStridedSlice S262144x1 ![0, 1] · slices_S262144x2_S262144x1_0_1) : (⟨S262144x2, .i32⟩ : BufTy).Contents (Elt F) → (⟨S262144x1, .i32⟩ : BufTy).Contents (Elt F)),
    StableHlo.unary main_v696 main_v697 (fun v => shapeCast S262144 v shapeCasts_S262144x1_S262144),
    StableHlo.nullary main_c_172 (constantI S_ 32 1#32),
    StableHlo.unary main_c_172 main_v698 (broadcastInDim S262144 ![] bcast_S_S262144 : (⟨S_, .i32⟩ : BufTy).Contents (Elt F) → (⟨S262144, .i32⟩ : BufTy).Contents (Elt F)),
    StableHlo.binary main_v697 main_v698 main_v699 (addi : (⟨S262144, .i32⟩ : BufTy).Contents (Elt F) → (⟨S262144, .i32⟩ : BufTy).Contents (Elt F) → (⟨S262144, .i32⟩ : BufTy).Contents (Elt F)),
    StableHlo.nullary main_c_173 (constantI S_ 32 41#32),
    StableHlo.unary main_c_173 main_v700 (broadcastInDim S262144 ![] bcast_S_S262144 : (⟨S_, .i32⟩ : BufTy).Contents (Elt F) → (⟨S262144, .i32⟩ : BufTy).Contents (Elt F)),
    StableHlo.binary main_v699 main_v700 main_v701 (muli : (⟨S262144, .i32⟩ : BufTy).Contents (Elt F) → (⟨S262144, .i32⟩ : BufTy).Contents (Elt F) → (⟨S262144, .i32⟩ : BufTy).Contents (Elt F)),
    StableHlo.binary main_v695 main_v701 main_v702 (addi : (⟨S262144, .i32⟩ : BufTy).Contents (Elt F) → (⟨S262144, .i32⟩ : BufTy).Contents (Elt F) → (⟨S262144, .i32⟩ : BufTy).Contents (Elt F)),
    StableHlo.nullary main_c_174 (constantI S_ 32 1688#32),
    StableHlo.unary main_c_174 main_call19_v0 id,
    StableHlo.nullary main_call19_c (constantI S_ 32 0#32),
    StableHlo.binary main_call19_v0 main_call19_c main_call19_v1 (cmpi .eq),
    StableHlo.nullary main_call19_c_0 (constantI S_ 32 1#32),
    StableHlo.ternary main_call19_v1 main_call19_c_0 main_call19_v0 main_call19_v2 select,
    StableHlo.unary main_call19_v2 main_call19_v3 (broadcastInDim S262144 ![] bcast_S_S262144),
    StableHlo.binary main_v702 main_call19_v3 main_call19_v4 Host.remsi,
    StableHlo.nullary main_call19_c_1 (constantI S_ 32 0#32),
    StableHlo.unary main_call19_c_1 main_call19_v5 (broadcastInDim S262144 ![] bcast_S_S262144),
    StableHlo.binary main_call19_v4 main_call19_v5 main_call19_v6 (cmpi .ne),
    StableHlo.nullary main_call19_c_2 (constantI S_ 32 0#32),
    StableHlo.unary main_call19_c_2 main_call19_v7 (broadcastInDim S262144 ![] bcast_S_S262144),
    StableHlo.binary main_call19_v4 main_call19_v7 main_call19_v8 (cmpi .slt),
    StableHlo.nullary main_call19_c_3 (constantI S_ 32 0#32),
    StableHlo.binary main_call19_v2 main_call19_c_3 main_call19_v9 (cmpi .slt),
    StableHlo.unary main_call19_v9 main_call19_v10 (broadcastInDim S262144 ![] bcast_S_S262144),
    StableHlo.binary main_call19_v8 main_call19_v10 main_call19_v11 (cmpi .ne),
    StableHlo.binary main_call19_v11 main_call19_v6 main_call19_v12 andi,
    StableHlo.unary main_call19_v2 main_call19_v13 (broadcastInDim S262144 ![] bcast_S_S262144),
    StableHlo.binary main_call19_v4 main_call19_v13 main_call19_v14 addi,
    StableHlo.ternary main_call19_v12 main_call19_v14 main_call19_v4 main_v703 select,
    StableHlo.binary main_v657 main_v691 main_v704 (mulf : (⟨S262144, .f32⟩ : BufTy).Contents (Elt F) → (⟨S262144, .f32⟩ : BufTy).Contents (Elt F) → (⟨S262144, .f32⟩ : BufTy).Contents (Elt F)),
    StableHlo.unary main_v704 main_v705 (broadcastInDim S262144x1 ![0] bcast_S262144_S262144x1_0 : (⟨S262144, .f32⟩ : BufTy).Contents (Elt F) → (⟨S262144x1, .f32⟩ : BufTy).Contents (Elt F)),
    StableHlo.nullary main_c_175 (constantI S_ 32 0#32),
    StableHlo.unary main_c_175 main_v706 (broadcastInDim S262144 ![] bcast_S_S262144 : (⟨S_, .i32⟩ : BufTy).Contents (Elt F) → (⟨S262144, .i32⟩ : BufTy).Contents (Elt F)),
    StableHlo.binary main_v703 main_v706 main_v707 (cmpi .slt : (⟨S262144, .i32⟩ : BufTy).Contents (Elt F) → (⟨S262144, .i32⟩ : BufTy).Contents (Elt F) → (⟨S262144, .i1⟩ : BufTy).Contents (Elt F)),
    StableHlo.nullary main_c_176 (constantI S_ 32 8192#32),
    StableHlo.unary main_c_176 main_v708 (broadcastInDim S262144 ![] bcast_S_S262144 : (⟨S_, .i32⟩ : BufTy).Contents (Elt F) → (⟨S262144, .i32⟩ : BufTy).Contents (Elt F)),
    StableHlo.binary main_v703 main_v708 main_v709 (addi : (⟨S262144, .i32⟩ : BufTy).Contents (Elt F) → (⟨S262144, .i32⟩ : BufTy).Contents (Elt F) → (⟨S262144, .i32⟩ : BufTy).Contents (Elt F)),
    StableHlo.ternary main_v707 main_v709 main_v703 main_v710 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.nullary main_c_177 (constantI S_ 32 4#32),
    StableHlo.unary main_c_177 main_v711 (broadcastInDim S262144 ![] bcast_S_S262144 : (⟨S_, .i32⟩ : BufTy).Contents (Elt F) → (⟨S262144, .i32⟩ : BufTy).Contents (Elt F)),
    StableHlo.unary main_v711 main_v712 (id : (⟨S262144, .i32⟩ : BufTy).Contents (Elt F) → (⟨S262144, .i32⟩ : BufTy).Contents (Elt F)),
    StableHlo.unary main_v712 main_v713 (broadcastInDim S262144x1 ![0] bcast_S262144_S262144x1_0 : (⟨S262144, .i32⟩ : BufTy).Contents (Elt F) → (⟨S262144x1, .i32⟩ : BufTy).Contents (Elt F)),
    StableHlo.unary main_v710 main_v714 (broadcastInDim S262144x1 ![0] bcast_S262144_S262144x1_0 : (⟨S262144, .i32⟩ : BufTy).Contents (Elt F) → (⟨S262144x1, .i32⟩ : BufTy).Contents (Elt F)),
    StableHlo.binary main_v713 main_v714 main_v715 (pairCols (α := BitVec 32)),
    StableHlo.binary main_arg1 main_v715 main_v716 ((fun x i => Host.gather gather_S8x8192x8_S262144x2_S262144x8_1_01_n_n_01_1_118 x i) : (⟨S8x8192x8, .f32⟩ : BufTy).Contents (Elt F) → (⟨S262144x2, .i32⟩ : BufTy).Contents (Elt F) → (⟨S262144x8, .f32⟩ : BufTy).Contents (Elt F)),
    StableHlo.unary main_v705 main_v717 (broadcastInDim S262144x8 ![0, 1] bcast_S262144x1_S262144x8_0_1 : (⟨S262144x1, .f32⟩ : BufTy).Contents (Elt F) → (⟨S262144x8, .f32⟩ : BufTy).Contents (Elt F)),
    StableHlo.binary main_v717 main_v716 main_v718 (mulf : (⟨S262144x8, .f32⟩ : BufTy).Contents (Elt F) → (⟨S262144x8, .f32⟩ : BufTy).Contents (Elt F) → (⟨S262144x8, .f32⟩ : BufTy).Contents (Elt F)),
    StableHlo.binary main_v689 main_v718 main_v719 (addf : (⟨S262144x8, .f32⟩ : BufTy).Contents (Elt F) → (⟨S262144x8, .f32⟩ : BufTy).Contents (Elt F) → (⟨S262144x8, .f32⟩ : BufTy).Contents (Elt F)) ]

abbrev ops_part15 : List (HloOp τ sig (Elt F)) :=
  [ StableHlo.nullary main_cst_178 (constant S_ .f32 0x42472FF6#32),
    StableHlo.unary main_cst_178 main_v720 (broadcastInDim S262144x2 ![] bcast_S_S262144x2 : (⟨S_, .f32⟩ : BufTy).Contents (Elt F) → (⟨S262144x2, .f32⟩ : BufTy).Contents (Elt F)),
    StableHlo.binary main_arg0 main_v720 main_v721 (mulf : (⟨S262144x2, .f32⟩ : BufTy).Contents (Elt F) → (⟨S262144x2, .f32⟩ : BufTy).Contents (Elt F) → (⟨S262144x2, .f32⟩ : BufTy).Contents (Elt F)),
    StableHlo.nullary main_cst_179 (constant S_ .f32 0x3F000000#32),
    StableHlo.unary main_cst_179 main_v722 (broadcastInDim S262144x2 ![] bcast_S_S262144x2 : (⟨S_, .f32⟩ : BufTy).Contents (Elt F) → (⟨S262144x2, .f32⟩ : BufTy).Contents (Elt F)),
    StableHlo.binary main_v721 main_v722 main_v723 (addf : (⟨S262144x2, .f32⟩ : BufTy).Contents (Elt F) → (⟨S262144x2, .f32⟩ : BufTy).Contents (Elt F) → (⟨S262144x2, .f32⟩ : BufTy).Contents (Elt F)),
    StableHlo.unary main_v723 main_v724 (Host.floor : (⟨S262144x2, .f32⟩ : BufTy).Contents (Elt F) → (⟨S262144x2, .f32⟩ : BufTy).Contents (Elt F)),
    StableHlo.binary main_v723 main_v724 main_v725 (subf : (⟨S262144x2, .f32⟩ : BufTy).Contents (Elt F) → (⟨S262144x2, .f32⟩ : BufTy).Contents (Elt F) → (⟨S262144x2, .f32⟩ : BufTy).Contents (Elt F)),
    StableHlo.unary main_v724 main_v726 (fptosi 32 : (⟨S262144x2, .f32⟩ : BufTy).Contents (Elt F) → (⟨S262144x2, .i32⟩ : BufTy).Contents (Elt F)),
    StableHlo.binary main_v725 main_v725 main_v727 (mulf : (⟨S262144x2, .f32⟩ : BufTy).Contents (Elt F) → (⟨S262144x2, .f32⟩ : BufTy).Contents (Elt F) → (⟨S262144x2, .f32⟩ : BufTy).Contents (Elt F)),
    StableHlo.nullary main_cst_180 (constant S_ .f32 0x40000000#32),
    StableHlo.unary main_cst_180 main_v728 (broadcastInDim S262144x2 ![] bcast_S_S262144x2 : (⟨S_, .f32⟩ : BufTy).Contents (Elt F) → (⟨S262144x2, .f32⟩ : BufTy).Contents (Elt F)),
    StableHlo.binary main_v728 main_v725 main_v729 (mulf : (⟨S262144x2, .f32⟩ : BufTy).Contents (Elt F) → (⟨S262144x2, .f32⟩ : BufTy).Contents (Elt F) → (⟨S262144x2, .f32⟩ : BufTy).Contents (Elt F)),
    StableHlo.nullary main_cst_181 (constant S_ .f32 0x40400000#32),
    StableHlo.unary main_cst_181 main_v730 (broadcastInDim S262144x2 ![] bcast_S_S262144x2 : (⟨S_, .f32⟩ : BufTy).Contents (Elt F) → (⟨S262144x2, .f32⟩ : BufTy).Contents (Elt F)),
    StableHlo.binary main_v730 main_v729 main_v731 (subf : (⟨S262144x2, .f32⟩ : BufTy).Contents (Elt F) → (⟨S262144x2, .f32⟩ : BufTy).Contents (Elt F) → (⟨S262144x2, .f32⟩ : BufTy).Contents (Elt F)),
    StableHlo.binary main_v727 main_v731 main_v732 (mulf : (⟨S262144x2, .f32⟩ : BufTy).Contents (Elt F) → (⟨S262144x2, .f32⟩ : BufTy).Contents (Elt F) → (⟨S262144x2, .f32⟩ : BufTy).Contents (Elt F)),
    StableHlo.nullary main_cst_182 (constant S_ .f32 0x00000000#32),
    StableHlo.unary main_cst_182 main_v733 (broadcastInDim S262144x8 ![] bcast_S_S262144x8 : (⟨S_, .f32⟩ : BufTy).Contents (Elt F) → (⟨S262144x8, .f32⟩ : BufTy).Contents (Elt F)),
    StableHlo.unary main_v732 main_v734 ((extractStridedSlice S262144x1 ![0, 0] · slices_S262144x2_S262144x1_0_0) : (⟨S262144x2, .f32⟩ : BufTy).Contents (Elt F) → (⟨S262144x1, .f32⟩ : BufTy).Contents (Elt F)),
    StableHlo.unary main_v734 main_v735 (fun v => shapeCast S262144 v shapeCasts_S262144x1_S262144),
    StableHlo.nullary main_cst_183 (constant S_ .f32 0x3F800000#32),
    StableHlo.unary main_cst_183 main_v736 (broadcastInDim S262144 ![] bcast_S_S262144 : (⟨S_, .f32⟩ : BufTy).Contents (Elt F) → (⟨S262144, .f32⟩ : BufTy).Contents (Elt F)),
    StableHlo.binary main_v736 main_v735 main_v737 (subf : (⟨S262144, .f32⟩ : BufTy).Contents (Elt F) → (⟨S262144, .f32⟩ : BufTy).Contents (Elt F) → (⟨S262144, .f32⟩ : BufTy).Contents (Elt F)),
    StableHlo.unary main_v732 main_v738 ((extractStridedSlice S262144x1 ![0, 1] · slices_S262144x2_S262144x1_0_1) : (⟨S262144x2, .f32⟩ : BufTy).Contents (Elt F) → (⟨S262144x1, .f32⟩ : BufTy).Contents (Elt F)),
    StableHlo.unary main_v738 main_v739 (fun v => shapeCast S262144 v shapeCasts_S262144x1_S262144),
    StableHlo.nullary main_cst_184 (constant S_ .f32 0x3F800000#32),
    StableHlo.unary main_cst_184 main_v740 (broadcastInDim S262144 ![] bcast_S_S262144 : (⟨S_, .f32⟩ : BufTy).Contents (Elt F) → (⟨S262144, .f32⟩ : BufTy).Contents (Elt F)),
    StableHlo.binary main_v740 main_v739 main_v741 (subf : (⟨S262144, .f32⟩ : BufTy).Contents (Elt F) → (⟨S262144, .f32⟩ : BufTy).Contents (Elt F) → (⟨S262144, .f32⟩ : BufTy).Contents (Elt F)),
    StableHlo.unary main_v726 main_v742 ((extractStridedSlice S262144x1 ![0, 0] · slices_S262144x2_S262144x1_0_0) : (⟨S262144x2, .i32⟩ : BufTy).Contents (Elt F) → (⟨S262144x1, .i32⟩ : BufTy).Contents (Elt F)),
    StableHlo.unary main_v742 main_v743 (fun v => shapeCast S262144 v shapeCasts_S262144x1_S262144),
    StableHlo.nullary main_c_185 (constantI S_ 32 0#32),
    StableHlo.unary main_c_185 main_v744 (broadcastInDim S262144 ![] bcast_S_S262144 : (⟨S_, .i32⟩ : BufTy).Contents (Elt F) → (⟨S262144, .i32⟩ : BufTy).Contents (Elt F)),
    StableHlo.binary main_v743 main_v744 main_v745 (addi : (⟨S262144, .i32⟩ : BufTy).Contents (Elt F) → (⟨S262144, .i32⟩ : BufTy).Contents (Elt F) → (⟨S262144, .i32⟩ : BufTy).Contents (Elt F)),
    StableHlo.unary main_v726 main_v746 ((extractStridedSlice S262144x1 ![0, 1] · slices_S262144x2_S262144x1_0_1) : (⟨S262144x2, .i32⟩ : BufTy).Contents (Elt F) → (⟨S262144x1, .i32⟩ : BufTy).Contents (Elt F)),
    StableHlo.unary main_v746 main_v747 (fun v => shapeCast S262144 v shapeCasts_S262144x1_S262144),
    StableHlo.nullary main_c_186 (constantI S_ 32 0#32),
    StableHlo.unary main_c_186 main_v748 (broadcastInDim S262144 ![] bcast_S_S262144 : (⟨S_, .i32⟩ : BufTy).Contents (Elt F) → (⟨S262144, .i32⟩ : BufTy).Contents (Elt F)),
    StableHlo.binary main_v747 main_v748 main_v749 (addi : (⟨S262144, .i32⟩ : BufTy).Contents (Elt F) → (⟨S262144, .i32⟩ : BufTy).Contents (Elt F) → (⟨S262144, .i32⟩ : BufTy).Contents (Elt F)),
    StableHlo.nullary main_c_187 (constantI S_ 32 51#32),
    StableHlo.unary main_c_187 main_v750 (broadcastInDim S262144 ![] bcast_S_S262144 : (⟨S_, .i32⟩ : BufTy).Contents (Elt F) → (⟨S262144, .i32⟩ : BufTy).Contents (Elt F)),
    StableHlo.binary main_v749 main_v750 main_v751 (muli : (⟨S262144, .i32⟩ : BufTy).Contents (Elt F) → (⟨S262144, .i32⟩ : BufTy).Contents (Elt F) → (⟨S262144, .i32⟩ : BufTy).Contents (Elt F)),
    StableHlo.binary main_v745 main_v751 main_v752 (addi : (⟨S262144, .i32⟩ : BufTy).Contents (Elt F) → (⟨S262144, .i32⟩ : BufTy).Contents (Elt F) → (⟨S262144, .i32⟩ : BufTy).Contents (Elt F)),
    StableHlo.nullary main_c_188 (constantI S_ 32 2608#32),
    StableHlo.unary main_c_188 main_call20_v0 id,
    StableHlo.nullary main_call20_c (constantI S_ 32 0#32),
    StableHlo.binary main_call20_v0 main_call20_c main_call20_v1 (cmpi .eq),
    StableHlo.nullary main_call20_c_0 (constantI S_ 32 1#32),
    StableHlo.ternary main_call20_v1 main_call20_c_0 main_call20_v0 main_call20_v2 select,
    StableHlo.unary main_call20_v2 main_call20_v3 (broadcastInDim S262144 ![] bcast_S_S262144),
    StableHlo.binary main_v752 main_call20_v3 main_call20_v4 Host.remsi,
    StableHlo.nullary main_call20_c_1 (constantI S_ 32 0#32),
    StableHlo.unary main_call20_c_1 main_call20_v5 (broadcastInDim S262144 ![] bcast_S_S262144),
    StableHlo.binary main_call20_v4 main_call20_v5 main_call20_v6 (cmpi .ne),
    StableHlo.nullary main_call20_c_2 (constantI S_ 32 0#32),
    StableHlo.unary main_call20_c_2 main_call20_v7 (broadcastInDim S262144 ![] bcast_S_S262144),
    StableHlo.binary main_call20_v4 main_call20_v7 main_call20_v8 (cmpi .slt),
    StableHlo.nullary main_call20_c_3 (constantI S_ 32 0#32),
    StableHlo.binary main_call20_v2 main_call20_c_3 main_call20_v9 (cmpi .slt),
    StableHlo.unary main_call20_v9 main_call20_v10 (broadcastInDim S262144 ![] bcast_S_S262144),
    StableHlo.binary main_call20_v8 main_call20_v10 main_call20_v11 (cmpi .ne),
    StableHlo.binary main_call20_v11 main_call20_v6 main_call20_v12 andi,
    StableHlo.unary main_call20_v2 main_call20_v13 (broadcastInDim S262144 ![] bcast_S_S262144),
    StableHlo.binary main_call20_v4 main_call20_v13 main_call20_v14 addi,
    StableHlo.ternary main_call20_v12 main_call20_v14 main_call20_v4 main_v753 select,
    StableHlo.binary main_v737 main_v741 main_v754 (mulf : (⟨S262144, .f32⟩ : BufTy).Contents (Elt F) → (⟨S262144, .f32⟩ : BufTy).Contents (Elt F) → (⟨S262144, .f32⟩ : BufTy).Contents (Elt F)),
    StableHlo.unary main_v754 main_v755 (broadcastInDim S262144x1 ![0] bcast_S262144_S262144x1_0 : (⟨S262144, .f32⟩ : BufTy).Contents (Elt F) → (⟨S262144x1, .f32⟩ : BufTy).Contents (Elt F)),
    StableHlo.nullary main_c_189 (constantI S_ 32 0#32),
    StableHlo.unary main_c_189 main_v756 (broadcastInDim S262144 ![] bcast_S_S262144 : (⟨S_, .i32⟩ : BufTy).Contents (Elt F) → (⟨S262144, .i32⟩ : BufTy).Contents (Elt F)),
    StableHlo.binary main_v753 main_v756 main_v757 (cmpi .slt : (⟨S262144, .i32⟩ : BufTy).Contents (Elt F) → (⟨S262144, .i32⟩ : BufTy).Contents (Elt F) → (⟨S262144, .i1⟩ : BufTy).Contents (Elt F)),
    StableHlo.nullary main_c_190 (constantI S_ 32 8192#32),
    StableHlo.unary main_c_190 main_v758 (broadcastInDim S262144 ![] bcast_S_S262144 : (⟨S_, .i32⟩ : BufTy).Contents (Elt F) → (⟨S262144, .i32⟩ : BufTy).Contents (Elt F)),
    StableHlo.binary main_v753 main_v758 main_v759 (addi : (⟨S262144, .i32⟩ : BufTy).Contents (Elt F) → (⟨S262144, .i32⟩ : BufTy).Contents (Elt F) → (⟨S262144, .i32⟩ : BufTy).Contents (Elt F)),
    StableHlo.ternary main_v757 main_v759 main_v753 main_v760 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.nullary main_c_191 (constantI S_ 32 5#32),
    StableHlo.unary main_c_191 main_v761 (broadcastInDim S262144 ![] bcast_S_S262144 : (⟨S_, .i32⟩ : BufTy).Contents (Elt F) → (⟨S262144, .i32⟩ : BufTy).Contents (Elt F)),
    StableHlo.unary main_v761 main_v762 (id : (⟨S262144, .i32⟩ : BufTy).Contents (Elt F) → (⟨S262144, .i32⟩ : BufTy).Contents (Elt F)),
    StableHlo.unary main_v762 main_v763 (broadcastInDim S262144x1 ![0] bcast_S262144_S262144x1_0 : (⟨S262144, .i32⟩ : BufTy).Contents (Elt F) → (⟨S262144x1, .i32⟩ : BufTy).Contents (Elt F)),
    StableHlo.unary main_v760 main_v764 (broadcastInDim S262144x1 ![0] bcast_S262144_S262144x1_0 : (⟨S262144, .i32⟩ : BufTy).Contents (Elt F) → (⟨S262144x1, .i32⟩ : BufTy).Contents (Elt F)),
    StableHlo.binary main_v763 main_v764 main_v765 (pairCols (α := BitVec 32)) ]

abbrev ops_part16 : List (HloOp τ sig (Elt F)) :=
  [ StableHlo.binary main_arg1 main_v765 main_v766 ((fun x i => Host.gather gather_S8x8192x8_S262144x2_S262144x8_1_01_n_n_01_1_118 x i) : (⟨S8x8192x8, .f32⟩ : BufTy).Contents (Elt F) → (⟨S262144x2, .i32⟩ : BufTy).Contents (Elt F) → (⟨S262144x8, .f32⟩ : BufTy).Contents (Elt F)),
    StableHlo.unary main_v755 main_v767 (broadcastInDim S262144x8 ![0, 1] bcast_S262144x1_S262144x8_0_1 : (⟨S262144x1, .f32⟩ : BufTy).Contents (Elt F) → (⟨S262144x8, .f32⟩ : BufTy).Contents (Elt F)),
    StableHlo.binary main_v767 main_v766 main_v768 (mulf : (⟨S262144x8, .f32⟩ : BufTy).Contents (Elt F) → (⟨S262144x8, .f32⟩ : BufTy).Contents (Elt F) → (⟨S262144x8, .f32⟩ : BufTy).Contents (Elt F)),
    StableHlo.binary main_v733 main_v768 main_v769 (addf : (⟨S262144x8, .f32⟩ : BufTy).Contents (Elt F) → (⟨S262144x8, .f32⟩ : BufTy).Contents (Elt F) → (⟨S262144x8, .f32⟩ : BufTy).Contents (Elt F)),
    StableHlo.unary main_v732 main_v770 ((extractStridedSlice S262144x1 ![0, 1] · slices_S262144x2_S262144x1_0_1) : (⟨S262144x2, .f32⟩ : BufTy).Contents (Elt F) → (⟨S262144x1, .f32⟩ : BufTy).Contents (Elt F)),
    StableHlo.unary main_v770 main_v771 (fun v => shapeCast S262144 v shapeCasts_S262144x1_S262144),
    StableHlo.unary main_v726 main_v772 ((extractStridedSlice S262144x1 ![0, 0] · slices_S262144x2_S262144x1_0_0) : (⟨S262144x2, .i32⟩ : BufTy).Contents (Elt F) → (⟨S262144x1, .i32⟩ : BufTy).Contents (Elt F)),
    StableHlo.unary main_v772 main_v773 (fun v => shapeCast S262144 v shapeCasts_S262144x1_S262144),
    StableHlo.nullary main_c_192 (constantI S_ 32 0#32),
    StableHlo.unary main_c_192 main_v774 (broadcastInDim S262144 ![] bcast_S_S262144 : (⟨S_, .i32⟩ : BufTy).Contents (Elt F) → (⟨S262144, .i32⟩ : BufTy).Contents (Elt F)),
    StableHlo.binary main_v773 main_v774 main_v775 (addi : (⟨S262144, .i32⟩ : BufTy).Contents (Elt F) → (⟨S262144, .i32⟩ : BufTy).Contents (Elt F) → (⟨S262144, .i32⟩ : BufTy).Contents (Elt F)),
    StableHlo.unary main_v726 main_v776 ((extractStridedSlice S262144x1 ![0, 1] · slices_S262144x2_S262144x1_0_1) : (⟨S262144x2, .i32⟩ : BufTy).Contents (Elt F) → (⟨S262144x1, .i32⟩ : BufTy).Contents (Elt F)),
    StableHlo.unary main_v776 main_v777 (fun v => shapeCast S262144 v shapeCasts_S262144x1_S262144),
    StableHlo.nullary main_c_193 (constantI S_ 32 1#32),
    StableHlo.unary main_c_193 main_v778 (broadcastInDim S262144 ![] bcast_S_S262144 : (⟨S_, .i32⟩ : BufTy).Contents (Elt F) → (⟨S262144, .i32⟩ : BufTy).Contents (Elt F)),
    StableHlo.binary main_v777 main_v778 main_v779 (addi : (⟨S262144, .i32⟩ : BufTy).Contents (Elt F) → (⟨S262144, .i32⟩ : BufTy).Contents (Elt F) → (⟨S262144, .i32⟩ : BufTy).Contents (Elt F)),
    StableHlo.nullary main_c_194 (constantI S_ 32 51#32),
    StableHlo.unary main_c_194 main_v780 (broadcastInDim S262144 ![] bcast_S_S262144 : (⟨S_, .i32⟩ : BufTy).Contents (Elt F) → (⟨S262144, .i32⟩ : BufTy).Contents (Elt F)),
    StableHlo.binary main_v779 main_v780 main_v781 (muli : (⟨S262144, .i32⟩ : BufTy).Contents (Elt F) → (⟨S262144, .i32⟩ : BufTy).Contents (Elt F) → (⟨S262144, .i32⟩ : BufTy).Contents (Elt F)),
    StableHlo.binary main_v775 main_v781 main_v782 (addi : (⟨S262144, .i32⟩ : BufTy).Contents (Elt F) → (⟨S262144, .i32⟩ : BufTy).Contents (Elt F) → (⟨S262144, .i32⟩ : BufTy).Contents (Elt F)),
    StableHlo.nullary main_c_195 (constantI S_ 32 2608#32),
    StableHlo.unary main_c_195 main_call21_v0 id,
    StableHlo.nullary main_call21_c (constantI S_ 32 0#32),
    StableHlo.binary main_call21_v0 main_call21_c main_call21_v1 (cmpi .eq),
    StableHlo.nullary main_call21_c_0 (constantI S_ 32 1#32),
    StableHlo.ternary main_call21_v1 main_call21_c_0 main_call21_v0 main_call21_v2 select,
    StableHlo.unary main_call21_v2 main_call21_v3 (broadcastInDim S262144 ![] bcast_S_S262144),
    StableHlo.binary main_v782 main_call21_v3 main_call21_v4 Host.remsi,
    StableHlo.nullary main_call21_c_1 (constantI S_ 32 0#32),
    StableHlo.unary main_call21_c_1 main_call21_v5 (broadcastInDim S262144 ![] bcast_S_S262144),
    StableHlo.binary main_call21_v4 main_call21_v5 main_call21_v6 (cmpi .ne),
    StableHlo.nullary main_call21_c_2 (constantI S_ 32 0#32),
    StableHlo.unary main_call21_c_2 main_call21_v7 (broadcastInDim S262144 ![] bcast_S_S262144),
    StableHlo.binary main_call21_v4 main_call21_v7 main_call21_v8 (cmpi .slt),
    StableHlo.nullary main_call21_c_3 (constantI S_ 32 0#32),
    StableHlo.binary main_call21_v2 main_call21_c_3 main_call21_v9 (cmpi .slt),
    StableHlo.unary main_call21_v9 main_call21_v10 (broadcastInDim S262144 ![] bcast_S_S262144),
    StableHlo.binary main_call21_v8 main_call21_v10 main_call21_v11 (cmpi .ne),
    StableHlo.binary main_call21_v11 main_call21_v6 main_call21_v12 andi,
    StableHlo.unary main_call21_v2 main_call21_v13 (broadcastInDim S262144 ![] bcast_S_S262144),
    StableHlo.binary main_call21_v4 main_call21_v13 main_call21_v14 addi,
    StableHlo.ternary main_call21_v12 main_call21_v14 main_call21_v4 main_v783 select,
    StableHlo.binary main_v737 main_v771 main_v784 (mulf : (⟨S262144, .f32⟩ : BufTy).Contents (Elt F) → (⟨S262144, .f32⟩ : BufTy).Contents (Elt F) → (⟨S262144, .f32⟩ : BufTy).Contents (Elt F)),
    StableHlo.unary main_v784 main_v785 (broadcastInDim S262144x1 ![0] bcast_S262144_S262144x1_0 : (⟨S262144, .f32⟩ : BufTy).Contents (Elt F) → (⟨S262144x1, .f32⟩ : BufTy).Contents (Elt F)),
    StableHlo.nullary main_c_196 (constantI S_ 32 0#32),
    StableHlo.unary main_c_196 main_v786 (broadcastInDim S262144 ![] bcast_S_S262144 : (⟨S_, .i32⟩ : BufTy).Contents (Elt F) → (⟨S262144, .i32⟩ : BufTy).Contents (Elt F)),
    StableHlo.binary main_v783 main_v786 main_v787 (cmpi .slt : (⟨S262144, .i32⟩ : BufTy).Contents (Elt F) → (⟨S262144, .i32⟩ : BufTy).Contents (Elt F) → (⟨S262144, .i1⟩ : BufTy).Contents (Elt F)),
    StableHlo.nullary main_c_197 (constantI S_ 32 8192#32),
    StableHlo.unary main_c_197 main_v788 (broadcastInDim S262144 ![] bcast_S_S262144 : (⟨S_, .i32⟩ : BufTy).Contents (Elt F) → (⟨S262144, .i32⟩ : BufTy).Contents (Elt F)),
    StableHlo.binary main_v783 main_v788 main_v789 (addi : (⟨S262144, .i32⟩ : BufTy).Contents (Elt F) → (⟨S262144, .i32⟩ : BufTy).Contents (Elt F) → (⟨S262144, .i32⟩ : BufTy).Contents (Elt F)),
    StableHlo.ternary main_v787 main_v789 main_v783 main_v790 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.nullary main_c_198 (constantI S_ 32 5#32),
    StableHlo.unary main_c_198 main_v791 (broadcastInDim S262144 ![] bcast_S_S262144 : (⟨S_, .i32⟩ : BufTy).Contents (Elt F) → (⟨S262144, .i32⟩ : BufTy).Contents (Elt F)),
    StableHlo.unary main_v791 main_v792 (id : (⟨S262144, .i32⟩ : BufTy).Contents (Elt F) → (⟨S262144, .i32⟩ : BufTy).Contents (Elt F)),
    StableHlo.unary main_v792 main_v793 (broadcastInDim S262144x1 ![0] bcast_S262144_S262144x1_0 : (⟨S262144, .i32⟩ : BufTy).Contents (Elt F) → (⟨S262144x1, .i32⟩ : BufTy).Contents (Elt F)),
    StableHlo.unary main_v790 main_v794 (broadcastInDim S262144x1 ![0] bcast_S262144_S262144x1_0 : (⟨S262144, .i32⟩ : BufTy).Contents (Elt F) → (⟨S262144x1, .i32⟩ : BufTy).Contents (Elt F)),
    StableHlo.binary main_v793 main_v794 main_v795 (pairCols (α := BitVec 32)),
    StableHlo.binary main_arg1 main_v795 main_v796 ((fun x i => Host.gather gather_S8x8192x8_S262144x2_S262144x8_1_01_n_n_01_1_118 x i) : (⟨S8x8192x8, .f32⟩ : BufTy).Contents (Elt F) → (⟨S262144x2, .i32⟩ : BufTy).Contents (Elt F) → (⟨S262144x8, .f32⟩ : BufTy).Contents (Elt F)),
    StableHlo.unary main_v785 main_v797 (broadcastInDim S262144x8 ![0, 1] bcast_S262144x1_S262144x8_0_1 : (⟨S262144x1, .f32⟩ : BufTy).Contents (Elt F) → (⟨S262144x8, .f32⟩ : BufTy).Contents (Elt F)),
    StableHlo.binary main_v797 main_v796 main_v798 (mulf : (⟨S262144x8, .f32⟩ : BufTy).Contents (Elt F) → (⟨S262144x8, .f32⟩ : BufTy).Contents (Elt F) → (⟨S262144x8, .f32⟩ : BufTy).Contents (Elt F)),
    StableHlo.binary main_v769 main_v798 main_v799 (addf : (⟨S262144x8, .f32⟩ : BufTy).Contents (Elt F) → (⟨S262144x8, .f32⟩ : BufTy).Contents (Elt F) → (⟨S262144x8, .f32⟩ : BufTy).Contents (Elt F)),
    StableHlo.unary main_v732 main_v800 ((extractStridedSlice S262144x1 ![0, 0] · slices_S262144x2_S262144x1_0_0) : (⟨S262144x2, .f32⟩ : BufTy).Contents (Elt F) → (⟨S262144x1, .f32⟩ : BufTy).Contents (Elt F)),
    StableHlo.unary main_v800 main_v801 (fun v => shapeCast S262144 v shapeCasts_S262144x1_S262144),
    StableHlo.unary main_v732 main_v802 ((extractStridedSlice S262144x1 ![0, 1] · slices_S262144x2_S262144x1_0_1) : (⟨S262144x2, .f32⟩ : BufTy).Contents (Elt F) → (⟨S262144x1, .f32⟩ : BufTy).Contents (Elt F)),
    StableHlo.unary main_v802 main_v803 (fun v => shapeCast S262144 v shapeCasts_S262144x1_S262144),
    StableHlo.nullary main_cst_199 (constant S_ .f32 0x3F800000#32),
    StableHlo.unary main_cst_199 main_v804 (broadcastInDim S262144 ![] bcast_S_S262144 : (⟨S_, .f32⟩ : BufTy).Contents (Elt F) → (⟨S262144, .f32⟩ : BufTy).Contents (Elt F)),
    StableHlo.binary main_v804 main_v803 main_v805 (subf : (⟨S262144, .f32⟩ : BufTy).Contents (Elt F) → (⟨S262144, .f32⟩ : BufTy).Contents (Elt F) → (⟨S262144, .f32⟩ : BufTy).Contents (Elt F)),
    StableHlo.unary main_v726 main_v806 ((extractStridedSlice S262144x1 ![0, 0] · slices_S262144x2_S262144x1_0_0) : (⟨S262144x2, .i32⟩ : BufTy).Contents (Elt F) → (⟨S262144x1, .i32⟩ : BufTy).Contents (Elt F)),
    StableHlo.unary main_v806 main_v807 (fun v => shapeCast S262144 v shapeCasts_S262144x1_S262144),
    StableHlo.nullary main_c_200 (constantI S_ 32 1#32),
    StableHlo.unary main_c_200 main_v808 (broadcastInDim S262144 ![] bcast_S_S262144 : (⟨S_, .i32⟩ : BufTy).Contents (Elt F) → (⟨S262144, .i32⟩ : BufTy).Contents (Elt F)),
    StableHlo.binary main_v807 main_v808 main_v809 (addi : (⟨S262144, .i32⟩ : BufTy).Contents (Elt F) → (⟨S262144, .i32⟩ : BufTy).Contents (Elt F) → (⟨S262144, .i32⟩ : BufTy).Contents (Elt F)),
    StableHlo.unary main_v726 main_v810 ((extractStridedSlice S262144x1 ![0, 1] · slices_S262144x2_S262144x1_0_1) : (⟨S262144x2, .i32⟩ : BufTy).Contents (Elt F) → (⟨S262144x1, .i32⟩ : BufTy).Contents (Elt F)),
    StableHlo.unary main_v810 main_v811 (fun v => shapeCast S262144 v shapeCasts_S262144x1_S262144),
    StableHlo.nullary main_c_201 (constantI S_ 32 0#32),
    StableHlo.unary main_c_201 main_v812 (broadcastInDim S262144 ![] bcast_S_S262144 : (⟨S_, .i32⟩ : BufTy).Contents (Elt F) → (⟨S262144, .i32⟩ : BufTy).Contents (Elt F)),
    StableHlo.binary main_v811 main_v812 main_v813 (addi : (⟨S262144, .i32⟩ : BufTy).Contents (Elt F) → (⟨S262144, .i32⟩ : BufTy).Contents (Elt F) → (⟨S262144, .i32⟩ : BufTy).Contents (Elt F)),
    StableHlo.nullary main_c_202 (constantI S_ 32 51#32),
    StableHlo.unary main_c_202 main_v814 (broadcastInDim S262144 ![] bcast_S_S262144 : (⟨S_, .i32⟩ : BufTy).Contents (Elt F) → (⟨S262144, .i32⟩ : BufTy).Contents (Elt F)) ]

abbrev ops_part17 : List (HloOp τ sig (Elt F)) :=
  [ StableHlo.binary main_v813 main_v814 main_v815 (muli : (⟨S262144, .i32⟩ : BufTy).Contents (Elt F) → (⟨S262144, .i32⟩ : BufTy).Contents (Elt F) → (⟨S262144, .i32⟩ : BufTy).Contents (Elt F)),
    StableHlo.binary main_v809 main_v815 main_v816 (addi : (⟨S262144, .i32⟩ : BufTy).Contents (Elt F) → (⟨S262144, .i32⟩ : BufTy).Contents (Elt F) → (⟨S262144, .i32⟩ : BufTy).Contents (Elt F)),
    StableHlo.nullary main_c_203 (constantI S_ 32 2608#32),
    StableHlo.unary main_c_203 main_call22_v0 id,
    StableHlo.nullary main_call22_c (constantI S_ 32 0#32),
    StableHlo.binary main_call22_v0 main_call22_c main_call22_v1 (cmpi .eq),
    StableHlo.nullary main_call22_c_0 (constantI S_ 32 1#32),
    StableHlo.ternary main_call22_v1 main_call22_c_0 main_call22_v0 main_call22_v2 select,
    StableHlo.unary main_call22_v2 main_call22_v3 (broadcastInDim S262144 ![] bcast_S_S262144),
    StableHlo.binary main_v816 main_call22_v3 main_call22_v4 Host.remsi,
    StableHlo.nullary main_call22_c_1 (constantI S_ 32 0#32),
    StableHlo.unary main_call22_c_1 main_call22_v5 (broadcastInDim S262144 ![] bcast_S_S262144),
    StableHlo.binary main_call22_v4 main_call22_v5 main_call22_v6 (cmpi .ne),
    StableHlo.nullary main_call22_c_2 (constantI S_ 32 0#32),
    StableHlo.unary main_call22_c_2 main_call22_v7 (broadcastInDim S262144 ![] bcast_S_S262144),
    StableHlo.binary main_call22_v4 main_call22_v7 main_call22_v8 (cmpi .slt),
    StableHlo.nullary main_call22_c_3 (constantI S_ 32 0#32),
    StableHlo.binary main_call22_v2 main_call22_c_3 main_call22_v9 (cmpi .slt),
    StableHlo.unary main_call22_v9 main_call22_v10 (broadcastInDim S262144 ![] bcast_S_S262144),
    StableHlo.binary main_call22_v8 main_call22_v10 main_call22_v11 (cmpi .ne),
    StableHlo.binary main_call22_v11 main_call22_v6 main_call22_v12 andi,
    StableHlo.unary main_call22_v2 main_call22_v13 (broadcastInDim S262144 ![] bcast_S_S262144),
    StableHlo.binary main_call22_v4 main_call22_v13 main_call22_v14 addi,
    StableHlo.ternary main_call22_v12 main_call22_v14 main_call22_v4 main_v817 select,
    StableHlo.binary main_v801 main_v805 main_v818 (mulf : (⟨S262144, .f32⟩ : BufTy).Contents (Elt F) → (⟨S262144, .f32⟩ : BufTy).Contents (Elt F) → (⟨S262144, .f32⟩ : BufTy).Contents (Elt F)),
    StableHlo.unary main_v818 main_v819 (broadcastInDim S262144x1 ![0] bcast_S262144_S262144x1_0 : (⟨S262144, .f32⟩ : BufTy).Contents (Elt F) → (⟨S262144x1, .f32⟩ : BufTy).Contents (Elt F)),
    StableHlo.nullary main_c_204 (constantI S_ 32 0#32),
    StableHlo.unary main_c_204 main_v820 (broadcastInDim S262144 ![] bcast_S_S262144 : (⟨S_, .i32⟩ : BufTy).Contents (Elt F) → (⟨S262144, .i32⟩ : BufTy).Contents (Elt F)),
    StableHlo.binary main_v817 main_v820 main_v821 (cmpi .slt : (⟨S262144, .i32⟩ : BufTy).Contents (Elt F) → (⟨S262144, .i32⟩ : BufTy).Contents (Elt F) → (⟨S262144, .i1⟩ : BufTy).Contents (Elt F)),
    StableHlo.nullary main_c_205 (constantI S_ 32 8192#32),
    StableHlo.unary main_c_205 main_v822 (broadcastInDim S262144 ![] bcast_S_S262144 : (⟨S_, .i32⟩ : BufTy).Contents (Elt F) → (⟨S262144, .i32⟩ : BufTy).Contents (Elt F)),
    StableHlo.binary main_v817 main_v822 main_v823 (addi : (⟨S262144, .i32⟩ : BufTy).Contents (Elt F) → (⟨S262144, .i32⟩ : BufTy).Contents (Elt F) → (⟨S262144, .i32⟩ : BufTy).Contents (Elt F)),
    StableHlo.ternary main_v821 main_v823 main_v817 main_v824 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.nullary main_c_206 (constantI S_ 32 5#32),
    StableHlo.unary main_c_206 main_v825 (broadcastInDim S262144 ![] bcast_S_S262144 : (⟨S_, .i32⟩ : BufTy).Contents (Elt F) → (⟨S262144, .i32⟩ : BufTy).Contents (Elt F)),
    StableHlo.unary main_v825 main_v826 (id : (⟨S262144, .i32⟩ : BufTy).Contents (Elt F) → (⟨S262144, .i32⟩ : BufTy).Contents (Elt F)),
    StableHlo.unary main_v826 main_v827 (broadcastInDim S262144x1 ![0] bcast_S262144_S262144x1_0 : (⟨S262144, .i32⟩ : BufTy).Contents (Elt F) → (⟨S262144x1, .i32⟩ : BufTy).Contents (Elt F)),
    StableHlo.unary main_v824 main_v828 (broadcastInDim S262144x1 ![0] bcast_S262144_S262144x1_0 : (⟨S262144, .i32⟩ : BufTy).Contents (Elt F) → (⟨S262144x1, .i32⟩ : BufTy).Contents (Elt F)),
    StableHlo.binary main_v827 main_v828 main_v829 (pairCols (α := BitVec 32)),
    StableHlo.binary main_arg1 main_v829 main_v830 ((fun x i => Host.gather gather_S8x8192x8_S262144x2_S262144x8_1_01_n_n_01_1_118 x i) : (⟨S8x8192x8, .f32⟩ : BufTy).Contents (Elt F) → (⟨S262144x2, .i32⟩ : BufTy).Contents (Elt F) → (⟨S262144x8, .f32⟩ : BufTy).Contents (Elt F)),
    StableHlo.unary main_v819 main_v831 (broadcastInDim S262144x8 ![0, 1] bcast_S262144x1_S262144x8_0_1 : (⟨S262144x1, .f32⟩ : BufTy).Contents (Elt F) → (⟨S262144x8, .f32⟩ : BufTy).Contents (Elt F)),
    StableHlo.binary main_v831 main_v830 main_v832 (mulf : (⟨S262144x8, .f32⟩ : BufTy).Contents (Elt F) → (⟨S262144x8, .f32⟩ : BufTy).Contents (Elt F) → (⟨S262144x8, .f32⟩ : BufTy).Contents (Elt F)),
    StableHlo.binary main_v799 main_v832 main_v833 (addf : (⟨S262144x8, .f32⟩ : BufTy).Contents (Elt F) → (⟨S262144x8, .f32⟩ : BufTy).Contents (Elt F) → (⟨S262144x8, .f32⟩ : BufTy).Contents (Elt F)),
    StableHlo.unary main_v732 main_v834 ((extractStridedSlice S262144x1 ![0, 1] · slices_S262144x2_S262144x1_0_1) : (⟨S262144x2, .f32⟩ : BufTy).Contents (Elt F) → (⟨S262144x1, .f32⟩ : BufTy).Contents (Elt F)),
    StableHlo.unary main_v834 main_v835 (fun v => shapeCast S262144 v shapeCasts_S262144x1_S262144),
    StableHlo.unary main_v726 main_v836 ((extractStridedSlice S262144x1 ![0, 0] · slices_S262144x2_S262144x1_0_0) : (⟨S262144x2, .i32⟩ : BufTy).Contents (Elt F) → (⟨S262144x1, .i32⟩ : BufTy).Contents (Elt F)),
    StableHlo.unary main_v836 main_v837 (fun v => shapeCast S262144 v shapeCasts_S262144x1_S262144),
    StableHlo.nullary main_c_207 (constantI S_ 32 1#32),
    StableHlo.unary main_c_207 main_v838 (broadcastInDim S262144 ![] bcast_S_S262144 : (⟨S_, .i32⟩ : BufTy).Contents (Elt F) → (⟨S262144, .i32⟩ : BufTy).Contents (Elt F)),
    StableHlo.binary main_v837 main_v838 main_v839 (addi : (⟨S262144, .i32⟩ : BufTy).Contents (Elt F) → (⟨S262144, .i32⟩ : BufTy).Contents (Elt F) → (⟨S262144, .i32⟩ : BufTy).Contents (Elt F)),
    StableHlo.unary main_v726 main_v840 ((extractStridedSlice S262144x1 ![0, 1] · slices_S262144x2_S262144x1_0_1) : (⟨S262144x2, .i32⟩ : BufTy).Contents (Elt F) → (⟨S262144x1, .i32⟩ : BufTy).Contents (Elt F)),
    StableHlo.unary main_v840 main_v841 (fun v => shapeCast S262144 v shapeCasts_S262144x1_S262144),
    StableHlo.nullary main_c_208 (constantI S_ 32 1#32),
    StableHlo.unary main_c_208 main_v842 (broadcastInDim S262144 ![] bcast_S_S262144 : (⟨S_, .i32⟩ : BufTy).Contents (Elt F) → (⟨S262144, .i32⟩ : BufTy).Contents (Elt F)),
    StableHlo.binary main_v841 main_v842 main_v843 (addi : (⟨S262144, .i32⟩ : BufTy).Contents (Elt F) → (⟨S262144, .i32⟩ : BufTy).Contents (Elt F) → (⟨S262144, .i32⟩ : BufTy).Contents (Elt F)),
    StableHlo.nullary main_c_209 (constantI S_ 32 51#32),
    StableHlo.unary main_c_209 main_v844 (broadcastInDim S262144 ![] bcast_S_S262144 : (⟨S_, .i32⟩ : BufTy).Contents (Elt F) → (⟨S262144, .i32⟩ : BufTy).Contents (Elt F)),
    StableHlo.binary main_v843 main_v844 main_v845 (muli : (⟨S262144, .i32⟩ : BufTy).Contents (Elt F) → (⟨S262144, .i32⟩ : BufTy).Contents (Elt F) → (⟨S262144, .i32⟩ : BufTy).Contents (Elt F)),
    StableHlo.binary main_v839 main_v845 main_v846 (addi : (⟨S262144, .i32⟩ : BufTy).Contents (Elt F) → (⟨S262144, .i32⟩ : BufTy).Contents (Elt F) → (⟨S262144, .i32⟩ : BufTy).Contents (Elt F)),
    StableHlo.nullary main_c_210 (constantI S_ 32 2608#32),
    StableHlo.unary main_c_210 main_call23_v0 id,
    StableHlo.nullary main_call23_c (constantI S_ 32 0#32),
    StableHlo.binary main_call23_v0 main_call23_c main_call23_v1 (cmpi .eq),
    StableHlo.nullary main_call23_c_0 (constantI S_ 32 1#32),
    StableHlo.ternary main_call23_v1 main_call23_c_0 main_call23_v0 main_call23_v2 select,
    StableHlo.unary main_call23_v2 main_call23_v3 (broadcastInDim S262144 ![] bcast_S_S262144),
    StableHlo.binary main_v846 main_call23_v3 main_call23_v4 Host.remsi,
    StableHlo.nullary main_call23_c_1 (constantI S_ 32 0#32),
    StableHlo.unary main_call23_c_1 main_call23_v5 (broadcastInDim S262144 ![] bcast_S_S262144),
    StableHlo.binary main_call23_v4 main_call23_v5 main_call23_v6 (cmpi .ne),
    StableHlo.nullary main_call23_c_2 (constantI S_ 32 0#32),
    StableHlo.unary main_call23_c_2 main_call23_v7 (broadcastInDim S262144 ![] bcast_S_S262144),
    StableHlo.binary main_call23_v4 main_call23_v7 main_call23_v8 (cmpi .slt),
    StableHlo.nullary main_call23_c_3 (constantI S_ 32 0#32),
    StableHlo.binary main_call23_v2 main_call23_c_3 main_call23_v9 (cmpi .slt),
    StableHlo.unary main_call23_v9 main_call23_v10 (broadcastInDim S262144 ![] bcast_S_S262144),
    StableHlo.binary main_call23_v8 main_call23_v10 main_call23_v11 (cmpi .ne),
    StableHlo.binary main_call23_v11 main_call23_v6 main_call23_v12 andi,
    StableHlo.unary main_call23_v2 main_call23_v13 (broadcastInDim S262144 ![] bcast_S_S262144),
    StableHlo.binary main_call23_v4 main_call23_v13 main_call23_v14 addi,
    StableHlo.ternary main_call23_v12 main_call23_v14 main_call23_v4 main_v847 select,
    StableHlo.binary main_v801 main_v835 main_v848 (mulf : (⟨S262144, .f32⟩ : BufTy).Contents (Elt F) → (⟨S262144, .f32⟩ : BufTy).Contents (Elt F) → (⟨S262144, .f32⟩ : BufTy).Contents (Elt F)),
    StableHlo.unary main_v848 main_v849 (broadcastInDim S262144x1 ![0] bcast_S262144_S262144x1_0 : (⟨S262144, .f32⟩ : BufTy).Contents (Elt F) → (⟨S262144x1, .f32⟩ : BufTy).Contents (Elt F)),
    StableHlo.nullary main_c_211 (constantI S_ 32 0#32),
    StableHlo.unary main_c_211 main_v850 (broadcastInDim S262144 ![] bcast_S_S262144 : (⟨S_, .i32⟩ : BufTy).Contents (Elt F) → (⟨S262144, .i32⟩ : BufTy).Contents (Elt F)),
    StableHlo.binary main_v847 main_v850 main_v851 (cmpi .slt : (⟨S262144, .i32⟩ : BufTy).Contents (Elt F) → (⟨S262144, .i32⟩ : BufTy).Contents (Elt F) → (⟨S262144, .i1⟩ : BufTy).Contents (Elt F)),
    StableHlo.nullary main_c_212 (constantI S_ 32 8192#32),
    StableHlo.unary main_c_212 main_v852 (broadcastInDim S262144 ![] bcast_S_S262144 : (⟨S_, .i32⟩ : BufTy).Contents (Elt F) → (⟨S262144, .i32⟩ : BufTy).Contents (Elt F)),
    StableHlo.binary main_v847 main_v852 main_v853 (addi : (⟨S262144, .i32⟩ : BufTy).Contents (Elt F) → (⟨S262144, .i32⟩ : BufTy).Contents (Elt F) → (⟨S262144, .i32⟩ : BufTy).Contents (Elt F)),
    StableHlo.ternary main_v851 main_v853 main_v847 main_v854 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.nullary main_c_213 (constantI S_ 32 5#32),
    StableHlo.unary main_c_213 main_v855 (broadcastInDim S262144 ![] bcast_S_S262144 : (⟨S_, .i32⟩ : BufTy).Contents (Elt F) → (⟨S262144, .i32⟩ : BufTy).Contents (Elt F)),
    StableHlo.unary main_v855 main_v856 (id : (⟨S262144, .i32⟩ : BufTy).Contents (Elt F) → (⟨S262144, .i32⟩ : BufTy).Contents (Elt F)),
    StableHlo.unary main_v856 main_v857 (broadcastInDim S262144x1 ![0] bcast_S262144_S262144x1_0 : (⟨S262144, .i32⟩ : BufTy).Contents (Elt F) → (⟨S262144x1, .i32⟩ : BufTy).Contents (Elt F)),
    StableHlo.unary main_v854 main_v858 (broadcastInDim S262144x1 ![0] bcast_S262144_S262144x1_0 : (⟨S262144, .i32⟩ : BufTy).Contents (Elt F) → (⟨S262144x1, .i32⟩ : BufTy).Contents (Elt F)),
    StableHlo.binary main_v857 main_v858 main_v859 (pairCols (α := BitVec 32)),
    StableHlo.binary main_arg1 main_v859 main_v860 ((fun x i => Host.gather gather_S8x8192x8_S262144x2_S262144x8_1_01_n_n_01_1_118 x i) : (⟨S8x8192x8, .f32⟩ : BufTy).Contents (Elt F) → (⟨S262144x2, .i32⟩ : BufTy).Contents (Elt F) → (⟨S262144x8, .f32⟩ : BufTy).Contents (Elt F)),
    StableHlo.unary main_v849 main_v861 (broadcastInDim S262144x8 ![0, 1] bcast_S262144x1_S262144x8_0_1 : (⟨S262144x1, .f32⟩ : BufTy).Contents (Elt F) → (⟨S262144x8, .f32⟩ : BufTy).Contents (Elt F)),
    StableHlo.binary main_v861 main_v860 main_v862 (mulf : (⟨S262144x8, .f32⟩ : BufTy).Contents (Elt F) → (⟨S262144x8, .f32⟩ : BufTy).Contents (Elt F) → (⟨S262144x8, .f32⟩ : BufTy).Contents (Elt F)),
    StableHlo.binary main_v833 main_v862 main_v863 (addf : (⟨S262144x8, .f32⟩ : BufTy).Contents (Elt F) → (⟨S262144x8, .f32⟩ : BufTy).Contents (Elt F) → (⟨S262144x8, .f32⟩ : BufTy).Contents (Elt F)) ]

abbrev ops_part18 : List (HloOp τ sig (Elt F)) :=
  [ StableHlo.nullary main_cst_214 (constant S_ .f32 0x427C0002#32),
    StableHlo.unary main_cst_214 main_v864 (broadcastInDim S262144x2 ![] bcast_S_S262144x2 : (⟨S_, .f32⟩ : BufTy).Contents (Elt F) → (⟨S262144x2, .f32⟩ : BufTy).Contents (Elt F)),
    StableHlo.binary main_arg0 main_v864 main_v865 (mulf : (⟨S262144x2, .f32⟩ : BufTy).Contents (Elt F) → (⟨S262144x2, .f32⟩ : BufTy).Contents (Elt F) → (⟨S262144x2, .f32⟩ : BufTy).Contents (Elt F)),
    StableHlo.nullary main_cst_215 (constant S_ .f32 0x3F000000#32),
    StableHlo.unary main_cst_215 main_v866 (broadcastInDim S262144x2 ![] bcast_S_S262144x2 : (⟨S_, .f32⟩ : BufTy).Contents (Elt F) → (⟨S262144x2, .f32⟩ : BufTy).Contents (Elt F)),
    StableHlo.binary main_v865 main_v866 main_v867 (addf : (⟨S262144x2, .f32⟩ : BufTy).Contents (Elt F) → (⟨S262144x2, .f32⟩ : BufTy).Contents (Elt F) → (⟨S262144x2, .f32⟩ : BufTy).Contents (Elt F)),
    StableHlo.unary main_v867 main_v868 (Host.floor : (⟨S262144x2, .f32⟩ : BufTy).Contents (Elt F) → (⟨S262144x2, .f32⟩ : BufTy).Contents (Elt F)),
    StableHlo.binary main_v867 main_v868 main_v869 (subf : (⟨S262144x2, .f32⟩ : BufTy).Contents (Elt F) → (⟨S262144x2, .f32⟩ : BufTy).Contents (Elt F) → (⟨S262144x2, .f32⟩ : BufTy).Contents (Elt F)),
    StableHlo.unary main_v868 main_v870 (fptosi 32 : (⟨S262144x2, .f32⟩ : BufTy).Contents (Elt F) → (⟨S262144x2, .i32⟩ : BufTy).Contents (Elt F)),
    StableHlo.binary main_v869 main_v869 main_v871 (mulf : (⟨S262144x2, .f32⟩ : BufTy).Contents (Elt F) → (⟨S262144x2, .f32⟩ : BufTy).Contents (Elt F) → (⟨S262144x2, .f32⟩ : BufTy).Contents (Elt F)),
    StableHlo.nullary main_cst_216 (constant S_ .f32 0x40000000#32),
    StableHlo.unary main_cst_216 main_v872 (broadcastInDim S262144x2 ![] bcast_S_S262144x2 : (⟨S_, .f32⟩ : BufTy).Contents (Elt F) → (⟨S262144x2, .f32⟩ : BufTy).Contents (Elt F)),
    StableHlo.binary main_v872 main_v869 main_v873 (mulf : (⟨S262144x2, .f32⟩ : BufTy).Contents (Elt F) → (⟨S262144x2, .f32⟩ : BufTy).Contents (Elt F) → (⟨S262144x2, .f32⟩ : BufTy).Contents (Elt F)),
    StableHlo.nullary main_cst_217 (constant S_ .f32 0x40400000#32),
    StableHlo.unary main_cst_217 main_v874 (broadcastInDim S262144x2 ![] bcast_S_S262144x2 : (⟨S_, .f32⟩ : BufTy).Contents (Elt F) → (⟨S262144x2, .f32⟩ : BufTy).Contents (Elt F)),
    StableHlo.binary main_v874 main_v873 main_v875 (subf : (⟨S262144x2, .f32⟩ : BufTy).Contents (Elt F) → (⟨S262144x2, .f32⟩ : BufTy).Contents (Elt F) → (⟨S262144x2, .f32⟩ : BufTy).Contents (Elt F)),
    StableHlo.binary main_v871 main_v875 main_v876 (mulf : (⟨S262144x2, .f32⟩ : BufTy).Contents (Elt F) → (⟨S262144x2, .f32⟩ : BufTy).Contents (Elt F) → (⟨S262144x2, .f32⟩ : BufTy).Contents (Elt F)),
    StableHlo.nullary main_cst_218 (constant S_ .f32 0x00000000#32),
    StableHlo.unary main_cst_218 main_v877 (broadcastInDim S262144x8 ![] bcast_S_S262144x8 : (⟨S_, .f32⟩ : BufTy).Contents (Elt F) → (⟨S262144x8, .f32⟩ : BufTy).Contents (Elt F)),
    StableHlo.unary main_v876 main_v878 ((extractStridedSlice S262144x1 ![0, 0] · slices_S262144x2_S262144x1_0_0) : (⟨S262144x2, .f32⟩ : BufTy).Contents (Elt F) → (⟨S262144x1, .f32⟩ : BufTy).Contents (Elt F)),
    StableHlo.unary main_v878 main_v879 (fun v => shapeCast S262144 v shapeCasts_S262144x1_S262144),
    StableHlo.nullary main_cst_219 (constant S_ .f32 0x3F800000#32),
    StableHlo.unary main_cst_219 main_v880 (broadcastInDim S262144 ![] bcast_S_S262144 : (⟨S_, .f32⟩ : BufTy).Contents (Elt F) → (⟨S262144, .f32⟩ : BufTy).Contents (Elt F)),
    StableHlo.binary main_v880 main_v879 main_v881 (subf : (⟨S262144, .f32⟩ : BufTy).Contents (Elt F) → (⟨S262144, .f32⟩ : BufTy).Contents (Elt F) → (⟨S262144, .f32⟩ : BufTy).Contents (Elt F)),
    StableHlo.unary main_v876 main_v882 ((extractStridedSlice S262144x1 ![0, 1] · slices_S262144x2_S262144x1_0_1) : (⟨S262144x2, .f32⟩ : BufTy).Contents (Elt F) → (⟨S262144x1, .f32⟩ : BufTy).Contents (Elt F)),
    StableHlo.unary main_v882 main_v883 (fun v => shapeCast S262144 v shapeCasts_S262144x1_S262144),
    StableHlo.nullary main_cst_220 (constant S_ .f32 0x3F800000#32),
    StableHlo.unary main_cst_220 main_v884 (broadcastInDim S262144 ![] bcast_S_S262144 : (⟨S_, .f32⟩ : BufTy).Contents (Elt F) → (⟨S262144, .f32⟩ : BufTy).Contents (Elt F)),
    StableHlo.binary main_v884 main_v883 main_v885 (subf : (⟨S262144, .f32⟩ : BufTy).Contents (Elt F) → (⟨S262144, .f32⟩ : BufTy).Contents (Elt F) → (⟨S262144, .f32⟩ : BufTy).Contents (Elt F)),
    StableHlo.unary main_v870 main_v886 ((extractStridedSlice S262144x1 ![0, 0] · slices_S262144x2_S262144x1_0_0) : (⟨S262144x2, .i32⟩ : BufTy).Contents (Elt F) → (⟨S262144x1, .i32⟩ : BufTy).Contents (Elt F)),
    StableHlo.unary main_v886 main_v887 (fun v => shapeCast S262144 v shapeCasts_S262144x1_S262144),
    StableHlo.nullary main_c_221 (constantI S_ 32 0#32),
    StableHlo.unary main_c_221 main_v888 (broadcastInDim S262144 ![] bcast_S_S262144 : (⟨S_, .i32⟩ : BufTy).Contents (Elt F) → (⟨S262144, .i32⟩ : BufTy).Contents (Elt F)),
    StableHlo.binary main_v887 main_v888 main_v889 (addi : (⟨S262144, .i32⟩ : BufTy).Contents (Elt F) → (⟨S262144, .i32⟩ : BufTy).Contents (Elt F) → (⟨S262144, .i32⟩ : BufTy).Contents (Elt F)),
    StableHlo.unary main_v870 main_v890 ((extractStridedSlice S262144x1 ![0, 1] · slices_S262144x2_S262144x1_0_1) : (⟨S262144x2, .i32⟩ : BufTy).Contents (Elt F) → (⟨S262144x1, .i32⟩ : BufTy).Contents (Elt F)),
    StableHlo.unary main_v890 main_v891 (fun v => shapeCast S262144 v shapeCasts_S262144x1_S262144),
    StableHlo.nullary main_c_222 (constantI S_ 32 0#32),
    StableHlo.unary main_c_222 main_v892 (broadcastInDim S262144 ![] bcast_S_S262144 : (⟨S_, .i32⟩ : BufTy).Contents (Elt F) → (⟨S262144, .i32⟩ : BufTy).Contents (Elt F)),
    StableHlo.binary main_v891 main_v892 main_v893 (addi : (⟨S262144, .i32⟩ : BufTy).Contents (Elt F) → (⟨S262144, .i32⟩ : BufTy).Contents (Elt F) → (⟨S262144, .i32⟩ : BufTy).Contents (Elt F)),
    StableHlo.nullary main_c_223 (constantI S_ 32 65#32),
    StableHlo.unary main_c_223 main_v894 (broadcastInDim S262144 ![] bcast_S_S262144 : (⟨S_, .i32⟩ : BufTy).Contents (Elt F) → (⟨S262144, .i32⟩ : BufTy).Contents (Elt F)),
    StableHlo.binary main_v893 main_v894 main_v895 (muli : (⟨S262144, .i32⟩ : BufTy).Contents (Elt F) → (⟨S262144, .i32⟩ : BufTy).Contents (Elt F) → (⟨S262144, .i32⟩ : BufTy).Contents (Elt F)),
    StableHlo.binary main_v889 main_v895 main_v896 (addi : (⟨S262144, .i32⟩ : BufTy).Contents (Elt F) → (⟨S262144, .i32⟩ : BufTy).Contents (Elt F) → (⟨S262144, .i32⟩ : BufTy).Contents (Elt F)),
    StableHlo.nullary main_c_224 (constantI S_ 32 4232#32),
    StableHlo.unary main_c_224 main_call24_v0 id,
    StableHlo.nullary main_call24_c (constantI S_ 32 0#32),
    StableHlo.binary main_call24_v0 main_call24_c main_call24_v1 (cmpi .eq),
    StableHlo.nullary main_call24_c_0 (constantI S_ 32 1#32),
    StableHlo.ternary main_call24_v1 main_call24_c_0 main_call24_v0 main_call24_v2 select,
    StableHlo.unary main_call24_v2 main_call24_v3 (broadcastInDim S262144 ![] bcast_S_S262144),
    StableHlo.binary main_v896 main_call24_v3 main_call24_v4 Host.remsi,
    StableHlo.nullary main_call24_c_1 (constantI S_ 32 0#32),
    StableHlo.unary main_call24_c_1 main_call24_v5 (broadcastInDim S262144 ![] bcast_S_S262144),
    StableHlo.binary main_call24_v4 main_call24_v5 main_call24_v6 (cmpi .ne),
    StableHlo.nullary main_call24_c_2 (constantI S_ 32 0#32),
    StableHlo.unary main_call24_c_2 main_call24_v7 (broadcastInDim S262144 ![] bcast_S_S262144),
    StableHlo.binary main_call24_v4 main_call24_v7 main_call24_v8 (cmpi .slt),
    StableHlo.nullary main_call24_c_3 (constantI S_ 32 0#32),
    StableHlo.binary main_call24_v2 main_call24_c_3 main_call24_v9 (cmpi .slt),
    StableHlo.unary main_call24_v9 main_call24_v10 (broadcastInDim S262144 ![] bcast_S_S262144),
    StableHlo.binary main_call24_v8 main_call24_v10 main_call24_v11 (cmpi .ne),
    StableHlo.binary main_call24_v11 main_call24_v6 main_call24_v12 andi,
    StableHlo.unary main_call24_v2 main_call24_v13 (broadcastInDim S262144 ![] bcast_S_S262144),
    StableHlo.binary main_call24_v4 main_call24_v13 main_call24_v14 addi,
    StableHlo.ternary main_call24_v12 main_call24_v14 main_call24_v4 main_v897 select,
    StableHlo.binary main_v881 main_v885 main_v898 (mulf : (⟨S262144, .f32⟩ : BufTy).Contents (Elt F) → (⟨S262144, .f32⟩ : BufTy).Contents (Elt F) → (⟨S262144, .f32⟩ : BufTy).Contents (Elt F)),
    StableHlo.unary main_v898 main_v899 (broadcastInDim S262144x1 ![0] bcast_S262144_S262144x1_0 : (⟨S262144, .f32⟩ : BufTy).Contents (Elt F) → (⟨S262144x1, .f32⟩ : BufTy).Contents (Elt F)),
    StableHlo.nullary main_c_225 (constantI S_ 32 0#32),
    StableHlo.unary main_c_225 main_v900 (broadcastInDim S262144 ![] bcast_S_S262144 : (⟨S_, .i32⟩ : BufTy).Contents (Elt F) → (⟨S262144, .i32⟩ : BufTy).Contents (Elt F)),
    StableHlo.binary main_v897 main_v900 main_v901 (cmpi .slt : (⟨S262144, .i32⟩ : BufTy).Contents (Elt F) → (⟨S262144, .i32⟩ : BufTy).Contents (Elt F) → (⟨S262144, .i1⟩ : BufTy).Contents (Elt F)),
    StableHlo.nullary main_c_226 (constantI S_ 32 8192#32),
    StableHlo.unary main_c_226 main_v902 (broadcastInDim S262144 ![] bcast_S_S262144 : (⟨S_, .i32⟩ : BufTy).Contents (Elt F) → (⟨S262144, .i32⟩ : BufTy).Contents (Elt F)),
    StableHlo.binary main_v897 main_v902 main_v903 (addi : (⟨S262144, .i32⟩ : BufTy).Contents (Elt F) → (⟨S262144, .i32⟩ : BufTy).Contents (Elt F) → (⟨S262144, .i32⟩ : BufTy).Contents (Elt F)),
    StableHlo.ternary main_v901 main_v903 main_v897 main_v904 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.nullary main_c_227 (constantI S_ 32 6#32),
    StableHlo.unary main_c_227 main_v905 (broadcastInDim S262144 ![] bcast_S_S262144 : (⟨S_, .i32⟩ : BufTy).Contents (Elt F) → (⟨S262144, .i32⟩ : BufTy).Contents (Elt F)),
    StableHlo.unary main_v905 main_v906 (id : (⟨S262144, .i32⟩ : BufTy).Contents (Elt F) → (⟨S262144, .i32⟩ : BufTy).Contents (Elt F)),
    StableHlo.unary main_v906 main_v907 (broadcastInDim S262144x1 ![0] bcast_S262144_S262144x1_0 : (⟨S262144, .i32⟩ : BufTy).Contents (Elt F) → (⟨S262144x1, .i32⟩ : BufTy).Contents (Elt F)),
    StableHlo.unary main_v904 main_v908 (broadcastInDim S262144x1 ![0] bcast_S262144_S262144x1_0 : (⟨S262144, .i32⟩ : BufTy).Contents (Elt F) → (⟨S262144x1, .i32⟩ : BufTy).Contents (Elt F)),
    StableHlo.binary main_v907 main_v908 main_v909 (pairCols (α := BitVec 32)) ]

abbrev ops_part19 : List (HloOp τ sig (Elt F)) :=
  [ StableHlo.binary main_arg1 main_v909 main_v910 ((fun x i => Host.gather gather_S8x8192x8_S262144x2_S262144x8_1_01_n_n_01_1_118 x i) : (⟨S8x8192x8, .f32⟩ : BufTy).Contents (Elt F) → (⟨S262144x2, .i32⟩ : BufTy).Contents (Elt F) → (⟨S262144x8, .f32⟩ : BufTy).Contents (Elt F)),
    StableHlo.unary main_v899 main_v911 (broadcastInDim S262144x8 ![0, 1] bcast_S262144x1_S262144x8_0_1 : (⟨S262144x1, .f32⟩ : BufTy).Contents (Elt F) → (⟨S262144x8, .f32⟩ : BufTy).Contents (Elt F)),
    StableHlo.binary main_v911 main_v910 main_v912 (mulf : (⟨S262144x8, .f32⟩ : BufTy).Contents (Elt F) → (⟨S262144x8, .f32⟩ : BufTy).Contents (Elt F) → (⟨S262144x8, .f32⟩ : BufTy).Contents (Elt F)),
    StableHlo.binary main_v877 main_v912 main_v913 (addf : (⟨S262144x8, .f32⟩ : BufTy).Contents (Elt F) → (⟨S262144x8, .f32⟩ : BufTy).Contents (Elt F) → (⟨S262144x8, .f32⟩ : BufTy).Contents (Elt F)),
    StableHlo.unary main_v876 main_v914 ((extractStridedSlice S262144x1 ![0, 1] · slices_S262144x2_S262144x1_0_1) : (⟨S262144x2, .f32⟩ : BufTy).Contents (Elt F) → (⟨S262144x1, .f32⟩ : BufTy).Contents (Elt F)),
    StableHlo.unary main_v914 main_v915 (fun v => shapeCast S262144 v shapeCasts_S262144x1_S262144),
    StableHlo.unary main_v870 main_v916 ((extractStridedSlice S262144x1 ![0, 0] · slices_S262144x2_S262144x1_0_0) : (⟨S262144x2, .i32⟩ : BufTy).Contents (Elt F) → (⟨S262144x1, .i32⟩ : BufTy).Contents (Elt F)),
    StableHlo.unary main_v916 main_v917 (fun v => shapeCast S262144 v shapeCasts_S262144x1_S262144),
    StableHlo.nullary main_c_228 (constantI S_ 32 0#32),
    StableHlo.unary main_c_228 main_v918 (broadcastInDim S262144 ![] bcast_S_S262144 : (⟨S_, .i32⟩ : BufTy).Contents (Elt F) → (⟨S262144, .i32⟩ : BufTy).Contents (Elt F)),
    StableHlo.binary main_v917 main_v918 main_v919 (addi : (⟨S262144, .i32⟩ : BufTy).Contents (Elt F) → (⟨S262144, .i32⟩ : BufTy).Contents (Elt F) → (⟨S262144, .i32⟩ : BufTy).Contents (Elt F)),
    StableHlo.unary main_v870 main_v920 ((extractStridedSlice S262144x1 ![0, 1] · slices_S262144x2_S262144x1_0_1) : (⟨S262144x2, .i32⟩ : BufTy).Contents (Elt F) → (⟨S262144x1, .i32⟩ : BufTy).Contents (Elt F)),
    StableHlo.unary main_v920 main_v921 (fun v => shapeCast S262144 v shapeCasts_S262144x1_S262144),
    StableHlo.nullary main_c_229 (constantI S_ 32 1#32),
    StableHlo.unary main_c_229 main_v922 (broadcastInDim S262144 ![] bcast_S_S262144 : (⟨S_, .i32⟩ : BufTy).Contents (Elt F) → (⟨S262144, .i32⟩ : BufTy).Contents (Elt F)),
    StableHlo.binary main_v921 main_v922 main_v923 (addi : (⟨S262144, .i32⟩ : BufTy).Contents (Elt F) → (⟨S262144, .i32⟩ : BufTy).Contents (Elt F) → (⟨S262144, .i32⟩ : BufTy).Contents (Elt F)),
    StableHlo.nullary main_c_230 (constantI S_ 32 65#32),
    StableHlo.unary main_c_230 main_v924 (broadcastInDim S262144 ![] bcast_S_S262144 : (⟨S_, .i32⟩ : BufTy).Contents (Elt F) → (⟨S262144, .i32⟩ : BufTy).Contents (Elt F)),
    StableHlo.binary main_v923 main_v924 main_v925 (muli : (⟨S262144, .i32⟩ : BufTy).Contents (Elt F) → (⟨S262144, .i32⟩ : BufTy).Contents (Elt F) → (⟨S262144, .i32⟩ : BufTy).Contents (Elt F)),
    StableHlo.binary main_v919 main_v925 main_v926 (addi : (⟨S262144, .i32⟩ : BufTy).Contents (Elt F) → (⟨S262144, .i32⟩ : BufTy).Contents (Elt F) → (⟨S262144, .i32⟩ : BufTy).Contents (Elt F)),
    StableHlo.nullary main_c_231 (constantI S_ 32 4232#32),
    StableHlo.unary main_c_231 main_call25_v0 id,
    StableHlo.nullary main_call25_c (constantI S_ 32 0#32),
    StableHlo.binary main_call25_v0 main_call25_c main_call25_v1 (cmpi .eq),
    StableHlo.nullary main_call25_c_0 (constantI S_ 32 1#32),
    StableHlo.ternary main_call25_v1 main_call25_c_0 main_call25_v0 main_call25_v2 select,
    StableHlo.unary main_call25_v2 main_call25_v3 (broadcastInDim S262144 ![] bcast_S_S262144),
    StableHlo.binary main_v926 main_call25_v3 main_call25_v4 Host.remsi,
    StableHlo.nullary main_call25_c_1 (constantI S_ 32 0#32),
    StableHlo.unary main_call25_c_1 main_call25_v5 (broadcastInDim S262144 ![] bcast_S_S262144),
    StableHlo.binary main_call25_v4 main_call25_v5 main_call25_v6 (cmpi .ne),
    StableHlo.nullary main_call25_c_2 (constantI S_ 32 0#32),
    StableHlo.unary main_call25_c_2 main_call25_v7 (broadcastInDim S262144 ![] bcast_S_S262144),
    StableHlo.binary main_call25_v4 main_call25_v7 main_call25_v8 (cmpi .slt),
    StableHlo.nullary main_call25_c_3 (constantI S_ 32 0#32),
    StableHlo.binary main_call25_v2 main_call25_c_3 main_call25_v9 (cmpi .slt),
    StableHlo.unary main_call25_v9 main_call25_v10 (broadcastInDim S262144 ![] bcast_S_S262144),
    StableHlo.binary main_call25_v8 main_call25_v10 main_call25_v11 (cmpi .ne),
    StableHlo.binary main_call25_v11 main_call25_v6 main_call25_v12 andi,
    StableHlo.unary main_call25_v2 main_call25_v13 (broadcastInDim S262144 ![] bcast_S_S262144),
    StableHlo.binary main_call25_v4 main_call25_v13 main_call25_v14 addi,
    StableHlo.ternary main_call25_v12 main_call25_v14 main_call25_v4 main_v927 select,
    StableHlo.binary main_v881 main_v915 main_v928 (mulf : (⟨S262144, .f32⟩ : BufTy).Contents (Elt F) → (⟨S262144, .f32⟩ : BufTy).Contents (Elt F) → (⟨S262144, .f32⟩ : BufTy).Contents (Elt F)),
    StableHlo.unary main_v928 main_v929 (broadcastInDim S262144x1 ![0] bcast_S262144_S262144x1_0 : (⟨S262144, .f32⟩ : BufTy).Contents (Elt F) → (⟨S262144x1, .f32⟩ : BufTy).Contents (Elt F)),
    StableHlo.nullary main_c_232 (constantI S_ 32 0#32),
    StableHlo.unary main_c_232 main_v930 (broadcastInDim S262144 ![] bcast_S_S262144 : (⟨S_, .i32⟩ : BufTy).Contents (Elt F) → (⟨S262144, .i32⟩ : BufTy).Contents (Elt F)),
    StableHlo.binary main_v927 main_v930 main_v931 (cmpi .slt : (⟨S262144, .i32⟩ : BufTy).Contents (Elt F) → (⟨S262144, .i32⟩ : BufTy).Contents (Elt F) → (⟨S262144, .i1⟩ : BufTy).Contents (Elt F)),
    StableHlo.nullary main_c_233 (constantI S_ 32 8192#32),
    StableHlo.unary main_c_233 main_v932 (broadcastInDim S262144 ![] bcast_S_S262144 : (⟨S_, .i32⟩ : BufTy).Contents (Elt F) → (⟨S262144, .i32⟩ : BufTy).Contents (Elt F)),
    StableHlo.binary main_v927 main_v932 main_v933 (addi : (⟨S262144, .i32⟩ : BufTy).Contents (Elt F) → (⟨S262144, .i32⟩ : BufTy).Contents (Elt F) → (⟨S262144, .i32⟩ : BufTy).Contents (Elt F)),
    StableHlo.ternary main_v931 main_v933 main_v927 main_v934 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.nullary main_c_234 (constantI S_ 32 6#32),
    StableHlo.unary main_c_234 main_v935 (broadcastInDim S262144 ![] bcast_S_S262144 : (⟨S_, .i32⟩ : BufTy).Contents (Elt F) → (⟨S262144, .i32⟩ : BufTy).Contents (Elt F)),
    StableHlo.unary main_v935 main_v936 (id : (⟨S262144, .i32⟩ : BufTy).Contents (Elt F) → (⟨S262144, .i32⟩ : BufTy).Contents (Elt F)),
    StableHlo.unary main_v936 main_v937 (broadcastInDim S262144x1 ![0] bcast_S262144_S262144x1_0 : (⟨S262144, .i32⟩ : BufTy).Contents (Elt F) → (⟨S262144x1, .i32⟩ : BufTy).Contents (Elt F)),
    StableHlo.unary main_v934 main_v938 (broadcastInDim S262144x1 ![0] bcast_S262144_S262144x1_0 : (⟨S262144, .i32⟩ : BufTy).Contents (Elt F) → (⟨S262144x1, .i32⟩ : BufTy).Contents (Elt F)),
    StableHlo.binary main_v937 main_v938 main_v939 (pairCols (α := BitVec 32)),
    StableHlo.binary main_arg1 main_v939 main_v940 ((fun x i => Host.gather gather_S8x8192x8_S262144x2_S262144x8_1_01_n_n_01_1_118 x i) : (⟨S8x8192x8, .f32⟩ : BufTy).Contents (Elt F) → (⟨S262144x2, .i32⟩ : BufTy).Contents (Elt F) → (⟨S262144x8, .f32⟩ : BufTy).Contents (Elt F)),
    StableHlo.unary main_v929 main_v941 (broadcastInDim S262144x8 ![0, 1] bcast_S262144x1_S262144x8_0_1 : (⟨S262144x1, .f32⟩ : BufTy).Contents (Elt F) → (⟨S262144x8, .f32⟩ : BufTy).Contents (Elt F)),
    StableHlo.binary main_v941 main_v940 main_v942 (mulf : (⟨S262144x8, .f32⟩ : BufTy).Contents (Elt F) → (⟨S262144x8, .f32⟩ : BufTy).Contents (Elt F) → (⟨S262144x8, .f32⟩ : BufTy).Contents (Elt F)),
    StableHlo.binary main_v913 main_v942 main_v943 (addf : (⟨S262144x8, .f32⟩ : BufTy).Contents (Elt F) → (⟨S262144x8, .f32⟩ : BufTy).Contents (Elt F) → (⟨S262144x8, .f32⟩ : BufTy).Contents (Elt F)),
    StableHlo.unary main_v876 main_v944 ((extractStridedSlice S262144x1 ![0, 0] · slices_S262144x2_S262144x1_0_0) : (⟨S262144x2, .f32⟩ : BufTy).Contents (Elt F) → (⟨S262144x1, .f32⟩ : BufTy).Contents (Elt F)),
    StableHlo.unary main_v944 main_v945 (fun v => shapeCast S262144 v shapeCasts_S262144x1_S262144),
    StableHlo.unary main_v876 main_v946 ((extractStridedSlice S262144x1 ![0, 1] · slices_S262144x2_S262144x1_0_1) : (⟨S262144x2, .f32⟩ : BufTy).Contents (Elt F) → (⟨S262144x1, .f32⟩ : BufTy).Contents (Elt F)),
    StableHlo.unary main_v946 main_v947 (fun v => shapeCast S262144 v shapeCasts_S262144x1_S262144),
    StableHlo.nullary main_cst_235 (constant S_ .f32 0x3F800000#32),
    StableHlo.unary main_cst_235 main_v948 (broadcastInDim S262144 ![] bcast_S_S262144 : (⟨S_, .f32⟩ : BufTy).Contents (Elt F) → (⟨S262144, .f32⟩ : BufTy).Contents (Elt F)),
    StableHlo.binary main_v948 main_v947 main_v949 (subf : (⟨S262144, .f32⟩ : BufTy).Contents (Elt F) → (⟨S262144, .f32⟩ : BufTy).Contents (Elt F) → (⟨S262144, .f32⟩ : BufTy).Contents (Elt F)),
    StableHlo.unary main_v870 main_v950 ((extractStridedSlice S262144x1 ![0, 0] · slices_S262144x2_S262144x1_0_0) : (⟨S262144x2, .i32⟩ : BufTy).Contents (Elt F) → (⟨S262144x1, .i32⟩ : BufTy).Contents (Elt F)),
    StableHlo.unary main_v950 main_v951 (fun v => shapeCast S262144 v shapeCasts_S262144x1_S262144),
    StableHlo.nullary main_c_236 (constantI S_ 32 1#32),
    StableHlo.unary main_c_236 main_v952 (broadcastInDim S262144 ![] bcast_S_S262144 : (⟨S_, .i32⟩ : BufTy).Contents (Elt F) → (⟨S262144, .i32⟩ : BufTy).Contents (Elt F)),
    StableHlo.binary main_v951 main_v952 main_v953 (addi : (⟨S262144, .i32⟩ : BufTy).Contents (Elt F) → (⟨S262144, .i32⟩ : BufTy).Contents (Elt F) → (⟨S262144, .i32⟩ : BufTy).Contents (Elt F)),
    StableHlo.unary main_v870 main_v954 ((extractStridedSlice S262144x1 ![0, 1] · slices_S262144x2_S262144x1_0_1) : (⟨S262144x2, .i32⟩ : BufTy).Contents (Elt F) → (⟨S262144x1, .i32⟩ : BufTy).Contents (Elt F)),
    StableHlo.unary main_v954 main_v955 (fun v => shapeCast S262144 v shapeCasts_S262144x1_S262144),
    StableHlo.nullary main_c_237 (constantI S_ 32 0#32),
    StableHlo.unary main_c_237 main_v956 (broadcastInDim S262144 ![] bcast_S_S262144 : (⟨S_, .i32⟩ : BufTy).Contents (Elt F) → (⟨S262144, .i32⟩ : BufTy).Contents (Elt F)),
    StableHlo.binary main_v955 main_v956 main_v957 (addi : (⟨S262144, .i32⟩ : BufTy).Contents (Elt F) → (⟨S262144, .i32⟩ : BufTy).Contents (Elt F) → (⟨S262144, .i32⟩ : BufTy).Contents (Elt F)),
    StableHlo.nullary main_c_238 (constantI S_ 32 65#32),
    StableHlo.unary main_c_238 main_v958 (broadcastInDim S262144 ![] bcast_S_S262144 : (⟨S_, .i32⟩ : BufTy).Contents (Elt F) → (⟨S262144, .i32⟩ : BufTy).Contents (Elt F)) ]

abbrev ops_part20 : List (HloOp τ sig (Elt F)) :=
  [ StableHlo.binary main_v957 main_v958 main_v959 (muli : (⟨S262144, .i32⟩ : BufTy).Contents (Elt F) → (⟨S262144, .i32⟩ : BufTy).Contents (Elt F) → (⟨S262144, .i32⟩ : BufTy).Contents (Elt F)),
    StableHlo.binary main_v953 main_v959 main_v960 (addi : (⟨S262144, .i32⟩ : BufTy).Contents (Elt F) → (⟨S262144, .i32⟩ : BufTy).Contents (Elt F) → (⟨S262144, .i32⟩ : BufTy).Contents (Elt F)),
    StableHlo.nullary main_c_239 (constantI S_ 32 4232#32),
    StableHlo.unary main_c_239 main_call26_v0 id,
    StableHlo.nullary main_call26_c (constantI S_ 32 0#32),
    StableHlo.binary main_call26_v0 main_call26_c main_call26_v1 (cmpi .eq),
    StableHlo.nullary main_call26_c_0 (constantI S_ 32 1#32),
    StableHlo.ternary main_call26_v1 main_call26_c_0 main_call26_v0 main_call26_v2 select,
    StableHlo.unary main_call26_v2 main_call26_v3 (broadcastInDim S262144 ![] bcast_S_S262144),
    StableHlo.binary main_v960 main_call26_v3 main_call26_v4 Host.remsi,
    StableHlo.nullary main_call26_c_1 (constantI S_ 32 0#32),
    StableHlo.unary main_call26_c_1 main_call26_v5 (broadcastInDim S262144 ![] bcast_S_S262144),
    StableHlo.binary main_call26_v4 main_call26_v5 main_call26_v6 (cmpi .ne),
    StableHlo.nullary main_call26_c_2 (constantI S_ 32 0#32),
    StableHlo.unary main_call26_c_2 main_call26_v7 (broadcastInDim S262144 ![] bcast_S_S262144),
    StableHlo.binary main_call26_v4 main_call26_v7 main_call26_v8 (cmpi .slt),
    StableHlo.nullary main_call26_c_3 (constantI S_ 32 0#32),
    StableHlo.binary main_call26_v2 main_call26_c_3 main_call26_v9 (cmpi .slt),
    StableHlo.unary main_call26_v9 main_call26_v10 (broadcastInDim S262144 ![] bcast_S_S262144),
    StableHlo.binary main_call26_v8 main_call26_v10 main_call26_v11 (cmpi .ne),
    StableHlo.binary main_call26_v11 main_call26_v6 main_call26_v12 andi,
    StableHlo.unary main_call26_v2 main_call26_v13 (broadcastInDim S262144 ![] bcast_S_S262144),
    StableHlo.binary main_call26_v4 main_call26_v13 main_call26_v14 addi,
    StableHlo.ternary main_call26_v12 main_call26_v14 main_call26_v4 main_v961 select,
    StableHlo.binary main_v945 main_v949 main_v962 (mulf : (⟨S262144, .f32⟩ : BufTy).Contents (Elt F) → (⟨S262144, .f32⟩ : BufTy).Contents (Elt F) → (⟨S262144, .f32⟩ : BufTy).Contents (Elt F)),
    StableHlo.unary main_v962 main_v963 (broadcastInDim S262144x1 ![0] bcast_S262144_S262144x1_0 : (⟨S262144, .f32⟩ : BufTy).Contents (Elt F) → (⟨S262144x1, .f32⟩ : BufTy).Contents (Elt F)),
    StableHlo.nullary main_c_240 (constantI S_ 32 0#32),
    StableHlo.unary main_c_240 main_v964 (broadcastInDim S262144 ![] bcast_S_S262144 : (⟨S_, .i32⟩ : BufTy).Contents (Elt F) → (⟨S262144, .i32⟩ : BufTy).Contents (Elt F)),
    StableHlo.binary main_v961 main_v964 main_v965 (cmpi .slt : (⟨S262144, .i32⟩ : BufTy).Contents (Elt F) → (⟨S262144, .i32⟩ : BufTy).Contents (Elt F) → (⟨S262144, .i1⟩ : BufTy).Contents (Elt F)),
    StableHlo.nullary main_c_241 (constantI S_ 32 8192#32),
    StableHlo.unary main_c_241 main_v966 (broadcastInDim S262144 ![] bcast_S_S262144 : (⟨S_, .i32⟩ : BufTy).Contents (Elt F) → (⟨S262144, .i32⟩ : BufTy).Contents (Elt F)),
    StableHlo.binary main_v961 main_v966 main_v967 (addi : (⟨S262144, .i32⟩ : BufTy).Contents (Elt F) → (⟨S262144, .i32⟩ : BufTy).Contents (Elt F) → (⟨S262144, .i32⟩ : BufTy).Contents (Elt F)),
    StableHlo.ternary main_v965 main_v967 main_v961 main_v968 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.nullary main_c_242 (constantI S_ 32 6#32),
    StableHlo.unary main_c_242 main_v969 (broadcastInDim S262144 ![] bcast_S_S262144 : (⟨S_, .i32⟩ : BufTy).Contents (Elt F) → (⟨S262144, .i32⟩ : BufTy).Contents (Elt F)),
    StableHlo.unary main_v969 main_v970 (id : (⟨S262144, .i32⟩ : BufTy).Contents (Elt F) → (⟨S262144, .i32⟩ : BufTy).Contents (Elt F)),
    StableHlo.unary main_v970 main_v971 (broadcastInDim S262144x1 ![0] bcast_S262144_S262144x1_0 : (⟨S262144, .i32⟩ : BufTy).Contents (Elt F) → (⟨S262144x1, .i32⟩ : BufTy).Contents (Elt F)),
    StableHlo.unary main_v968 main_v972 (broadcastInDim S262144x1 ![0] bcast_S262144_S262144x1_0 : (⟨S262144, .i32⟩ : BufTy).Contents (Elt F) → (⟨S262144x1, .i32⟩ : BufTy).Contents (Elt F)),
    StableHlo.binary main_v971 main_v972 main_v973 (pairCols (α := BitVec 32)),
    StableHlo.binary main_arg1 main_v973 main_v974 ((fun x i => Host.gather gather_S8x8192x8_S262144x2_S262144x8_1_01_n_n_01_1_118 x i) : (⟨S8x8192x8, .f32⟩ : BufTy).Contents (Elt F) → (⟨S262144x2, .i32⟩ : BufTy).Contents (Elt F) → (⟨S262144x8, .f32⟩ : BufTy).Contents (Elt F)),
    StableHlo.unary main_v963 main_v975 (broadcastInDim S262144x8 ![0, 1] bcast_S262144x1_S262144x8_0_1 : (⟨S262144x1, .f32⟩ : BufTy).Contents (Elt F) → (⟨S262144x8, .f32⟩ : BufTy).Contents (Elt F)),
    StableHlo.binary main_v975 main_v974 main_v976 (mulf : (⟨S262144x8, .f32⟩ : BufTy).Contents (Elt F) → (⟨S262144x8, .f32⟩ : BufTy).Contents (Elt F) → (⟨S262144x8, .f32⟩ : BufTy).Contents (Elt F)),
    StableHlo.binary main_v943 main_v976 main_v977 (addf : (⟨S262144x8, .f32⟩ : BufTy).Contents (Elt F) → (⟨S262144x8, .f32⟩ : BufTy).Contents (Elt F) → (⟨S262144x8, .f32⟩ : BufTy).Contents (Elt F)),
    StableHlo.unary main_v876 main_v978 ((extractStridedSlice S262144x1 ![0, 1] · slices_S262144x2_S262144x1_0_1) : (⟨S262144x2, .f32⟩ : BufTy).Contents (Elt F) → (⟨S262144x1, .f32⟩ : BufTy).Contents (Elt F)),
    StableHlo.unary main_v978 main_v979 (fun v => shapeCast S262144 v shapeCasts_S262144x1_S262144),
    StableHlo.unary main_v870 main_v980 ((extractStridedSlice S262144x1 ![0, 0] · slices_S262144x2_S262144x1_0_0) : (⟨S262144x2, .i32⟩ : BufTy).Contents (Elt F) → (⟨S262144x1, .i32⟩ : BufTy).Contents (Elt F)),
    StableHlo.unary main_v980 main_v981 (fun v => shapeCast S262144 v shapeCasts_S262144x1_S262144),
    StableHlo.nullary main_c_243 (constantI S_ 32 1#32),
    StableHlo.unary main_c_243 main_v982 (broadcastInDim S262144 ![] bcast_S_S262144 : (⟨S_, .i32⟩ : BufTy).Contents (Elt F) → (⟨S262144, .i32⟩ : BufTy).Contents (Elt F)),
    StableHlo.binary main_v981 main_v982 main_v983 (addi : (⟨S262144, .i32⟩ : BufTy).Contents (Elt F) → (⟨S262144, .i32⟩ : BufTy).Contents (Elt F) → (⟨S262144, .i32⟩ : BufTy).Contents (Elt F)),
    StableHlo.unary main_v870 main_v984 ((extractStridedSlice S262144x1 ![0, 1] · slices_S262144x2_S262144x1_0_1) : (⟨S262144x2, .i32⟩ : BufTy).Contents (Elt F) → (⟨S262144x1, .i32⟩ : BufTy).Contents (Elt F)),
    StableHlo.unary main_v984 main_v985 (fun v => shapeCast S262144 v shapeCasts_S262144x1_S262144),
    StableHlo.nullary main_c_244 (constantI S_ 32 1#32),
    StableHlo.unary main_c_244 main_v986 (broadcastInDim S262144 ![] bcast_S_S262144 : (⟨S_, .i32⟩ : BufTy).Contents (Elt F) → (⟨S262144, .i32⟩ : BufTy).Contents (Elt F)),
    StableHlo.binary main_v985 main_v986 main_v987 (addi : (⟨S262144, .i32⟩ : BufTy).Contents (Elt F) → (⟨S262144, .i32⟩ : BufTy).Contents (Elt F) → (⟨S262144, .i32⟩ : BufTy).Contents (Elt F)),
    StableHlo.nullary main_c_245 (constantI S_ 32 65#32),
    StableHlo.unary main_c_245 main_v988 (broadcastInDim S262144 ![] bcast_S_S262144 : (⟨S_, .i32⟩ : BufTy).Contents (Elt F) → (⟨S262144, .i32⟩ : BufTy).Contents (Elt F)),
    StableHlo.binary main_v987 main_v988 main_v989 (muli : (⟨S262144, .i32⟩ : BufTy).Contents (Elt F) → (⟨S262144, .i32⟩ : BufTy).Contents (Elt F) → (⟨S262144, .i32⟩ : BufTy).Contents (Elt F)),
    StableHlo.binary main_v983 main_v989 main_v990 (addi : (⟨S262144, .i32⟩ : BufTy).Contents (Elt F) → (⟨S262144, .i32⟩ : BufTy).Contents (Elt F) → (⟨S262144, .i32⟩ : BufTy).Contents (Elt F)),
    StableHlo.nullary main_c_246 (constantI S_ 32 4232#32),
    StableHlo.unary main_c_246 main_call27_v0 id,
    StableHlo.nullary main_call27_c (constantI S_ 32 0#32),
    StableHlo.binary main_call27_v0 main_call27_c main_call27_v1 (cmpi .eq),
    StableHlo.nullary main_call27_c_0 (constantI S_ 32 1#32),
    StableHlo.ternary main_call27_v1 main_call27_c_0 main_call27_v0 main_call27_v2 select,
    StableHlo.unary main_call27_v2 main_call27_v3 (broadcastInDim S262144 ![] bcast_S_S262144),
    StableHlo.binary main_v990 main_call27_v3 main_call27_v4 Host.remsi,
    StableHlo.nullary main_call27_c_1 (constantI S_ 32 0#32),
    StableHlo.unary main_call27_c_1 main_call27_v5 (broadcastInDim S262144 ![] bcast_S_S262144),
    StableHlo.binary main_call27_v4 main_call27_v5 main_call27_v6 (cmpi .ne),
    StableHlo.nullary main_call27_c_2 (constantI S_ 32 0#32),
    StableHlo.unary main_call27_c_2 main_call27_v7 (broadcastInDim S262144 ![] bcast_S_S262144),
    StableHlo.binary main_call27_v4 main_call27_v7 main_call27_v8 (cmpi .slt),
    StableHlo.nullary main_call27_c_3 (constantI S_ 32 0#32),
    StableHlo.binary main_call27_v2 main_call27_c_3 main_call27_v9 (cmpi .slt),
    StableHlo.unary main_call27_v9 main_call27_v10 (broadcastInDim S262144 ![] bcast_S_S262144),
    StableHlo.binary main_call27_v8 main_call27_v10 main_call27_v11 (cmpi .ne),
    StableHlo.binary main_call27_v11 main_call27_v6 main_call27_v12 andi,
    StableHlo.unary main_call27_v2 main_call27_v13 (broadcastInDim S262144 ![] bcast_S_S262144),
    StableHlo.binary main_call27_v4 main_call27_v13 main_call27_v14 addi,
    StableHlo.ternary main_call27_v12 main_call27_v14 main_call27_v4 main_v991 select,
    StableHlo.binary main_v945 main_v979 main_v992 (mulf : (⟨S262144, .f32⟩ : BufTy).Contents (Elt F) → (⟨S262144, .f32⟩ : BufTy).Contents (Elt F) → (⟨S262144, .f32⟩ : BufTy).Contents (Elt F)),
    StableHlo.unary main_v992 main_v993 (broadcastInDim S262144x1 ![0] bcast_S262144_S262144x1_0 : (⟨S262144, .f32⟩ : BufTy).Contents (Elt F) → (⟨S262144x1, .f32⟩ : BufTy).Contents (Elt F)),
    StableHlo.nullary main_c_247 (constantI S_ 32 0#32),
    StableHlo.unary main_c_247 main_v994 (broadcastInDim S262144 ![] bcast_S_S262144 : (⟨S_, .i32⟩ : BufTy).Contents (Elt F) → (⟨S262144, .i32⟩ : BufTy).Contents (Elt F)),
    StableHlo.binary main_v991 main_v994 main_v995 (cmpi .slt : (⟨S262144, .i32⟩ : BufTy).Contents (Elt F) → (⟨S262144, .i32⟩ : BufTy).Contents (Elt F) → (⟨S262144, .i1⟩ : BufTy).Contents (Elt F)),
    StableHlo.nullary main_c_248 (constantI S_ 32 8192#32),
    StableHlo.unary main_c_248 main_v996 (broadcastInDim S262144 ![] bcast_S_S262144 : (⟨S_, .i32⟩ : BufTy).Contents (Elt F) → (⟨S262144, .i32⟩ : BufTy).Contents (Elt F)),
    StableHlo.binary main_v991 main_v996 main_v997 (addi : (⟨S262144, .i32⟩ : BufTy).Contents (Elt F) → (⟨S262144, .i32⟩ : BufTy).Contents (Elt F) → (⟨S262144, .i32⟩ : BufTy).Contents (Elt F)),
    StableHlo.ternary main_v995 main_v997 main_v991 main_v998 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.nullary main_c_249 (constantI S_ 32 6#32),
    StableHlo.unary main_c_249 main_v999 (broadcastInDim S262144 ![] bcast_S_S262144 : (⟨S_, .i32⟩ : BufTy).Contents (Elt F) → (⟨S262144, .i32⟩ : BufTy).Contents (Elt F)),
    StableHlo.unary main_v999 main_v1000 (id : (⟨S262144, .i32⟩ : BufTy).Contents (Elt F) → (⟨S262144, .i32⟩ : BufTy).Contents (Elt F)),
    StableHlo.unary main_v1000 main_v1001 (broadcastInDim S262144x1 ![0] bcast_S262144_S262144x1_0 : (⟨S262144, .i32⟩ : BufTy).Contents (Elt F) → (⟨S262144x1, .i32⟩ : BufTy).Contents (Elt F)),
    StableHlo.unary main_v998 main_v1002 (broadcastInDim S262144x1 ![0] bcast_S262144_S262144x1_0 : (⟨S262144, .i32⟩ : BufTy).Contents (Elt F) → (⟨S262144x1, .i32⟩ : BufTy).Contents (Elt F)),
    StableHlo.binary main_v1001 main_v1002 main_v1003 (pairCols (α := BitVec 32)),
    StableHlo.binary main_arg1 main_v1003 main_v1004 ((fun x i => Host.gather gather_S8x8192x8_S262144x2_S262144x8_1_01_n_n_01_1_118 x i) : (⟨S8x8192x8, .f32⟩ : BufTy).Contents (Elt F) → (⟨S262144x2, .i32⟩ : BufTy).Contents (Elt F) → (⟨S262144x8, .f32⟩ : BufTy).Contents (Elt F)),
    StableHlo.unary main_v993 main_v1005 (broadcastInDim S262144x8 ![0, 1] bcast_S262144x1_S262144x8_0_1 : (⟨S262144x1, .f32⟩ : BufTy).Contents (Elt F) → (⟨S262144x8, .f32⟩ : BufTy).Contents (Elt F)),
    StableHlo.binary main_v1005 main_v1004 main_v1006 (mulf : (⟨S262144x8, .f32⟩ : BufTy).Contents (Elt F) → (⟨S262144x8, .f32⟩ : BufTy).Contents (Elt F) → (⟨S262144x8, .f32⟩ : BufTy).Contents (Elt F)),
    StableHlo.binary main_v977 main_v1006 main_v1007 (addf : (⟨S262144x8, .f32⟩ : BufTy).Contents (Elt F) → (⟨S262144x8, .f32⟩ : BufTy).Contents (Elt F) → (⟨S262144x8, .f32⟩ : BufTy).Contents (Elt F)) ]

abbrev ops_part21 : List (HloOp τ sig (Elt F)) :=
  [ StableHlo.nullary main_cst_250 (constant S_ .f32 0x429F4519#32),
    StableHlo.unary main_cst_250 main_v1008 (broadcastInDim S262144x2 ![] bcast_S_S262144x2 : (⟨S_, .f32⟩ : BufTy).Contents (Elt F) → (⟨S262144x2, .f32⟩ : BufTy).Contents (Elt F)),
    StableHlo.binary main_arg0 main_v1008 main_v1009 (mulf : (⟨S262144x2, .f32⟩ : BufTy).Contents (Elt F) → (⟨S262144x2, .f32⟩ : BufTy).Contents (Elt F) → (⟨S262144x2, .f32⟩ : BufTy).Contents (Elt F)),
    StableHlo.nullary main_cst_251 (constant S_ .f32 0x3F000000#32),
    StableHlo.unary main_cst_251 main_v1010 (broadcastInDim S262144x2 ![] bcast_S_S262144x2 : (⟨S_, .f32⟩ : BufTy).Contents (Elt F) → (⟨S262144x2, .f32⟩ : BufTy).Contents (Elt F)),
    StableHlo.binary main_v1009 main_v1010 main_v1011 (addf : (⟨S262144x2, .f32⟩ : BufTy).Contents (Elt F) → (⟨S262144x2, .f32⟩ : BufTy).Contents (Elt F) → (⟨S262144x2, .f32⟩ : BufTy).Contents (Elt F)),
    StableHlo.unary main_v1011 main_v1012 (Host.floor : (⟨S262144x2, .f32⟩ : BufTy).Contents (Elt F) → (⟨S262144x2, .f32⟩ : BufTy).Contents (Elt F)),
    StableHlo.binary main_v1011 main_v1012 main_v1013 (subf : (⟨S262144x2, .f32⟩ : BufTy).Contents (Elt F) → (⟨S262144x2, .f32⟩ : BufTy).Contents (Elt F) → (⟨S262144x2, .f32⟩ : BufTy).Contents (Elt F)),
    StableHlo.unary main_v1012 main_v1014 (fptosi 32 : (⟨S262144x2, .f32⟩ : BufTy).Contents (Elt F) → (⟨S262144x2, .i32⟩ : BufTy).Contents (Elt F)),
    StableHlo.binary main_v1013 main_v1013 main_v1015 (mulf : (⟨S262144x2, .f32⟩ : BufTy).Contents (Elt F) → (⟨S262144x2, .f32⟩ : BufTy).Contents (Elt F) → (⟨S262144x2, .f32⟩ : BufTy).Contents (Elt F)),
    StableHlo.nullary main_cst_252 (constant S_ .f32 0x40000000#32),
    StableHlo.unary main_cst_252 main_v1016 (broadcastInDim S262144x2 ![] bcast_S_S262144x2 : (⟨S_, .f32⟩ : BufTy).Contents (Elt F) → (⟨S262144x2, .f32⟩ : BufTy).Contents (Elt F)),
    StableHlo.binary main_v1016 main_v1013 main_v1017 (mulf : (⟨S262144x2, .f32⟩ : BufTy).Contents (Elt F) → (⟨S262144x2, .f32⟩ : BufTy).Contents (Elt F) → (⟨S262144x2, .f32⟩ : BufTy).Contents (Elt F)),
    StableHlo.nullary main_cst_253 (constant S_ .f32 0x40400000#32),
    StableHlo.unary main_cst_253 main_v1018 (broadcastInDim S262144x2 ![] bcast_S_S262144x2 : (⟨S_, .f32⟩ : BufTy).Contents (Elt F) → (⟨S262144x2, .f32⟩ : BufTy).Contents (Elt F)),
    StableHlo.binary main_v1018 main_v1017 main_v1019 (subf : (⟨S262144x2, .f32⟩ : BufTy).Contents (Elt F) → (⟨S262144x2, .f32⟩ : BufTy).Contents (Elt F) → (⟨S262144x2, .f32⟩ : BufTy).Contents (Elt F)),
    StableHlo.binary main_v1015 main_v1019 main_v1020 (mulf : (⟨S262144x2, .f32⟩ : BufTy).Contents (Elt F) → (⟨S262144x2, .f32⟩ : BufTy).Contents (Elt F) → (⟨S262144x2, .f32⟩ : BufTy).Contents (Elt F)),
    StableHlo.nullary main_cst_254 (constant S_ .f32 0x00000000#32),
    StableHlo.unary main_cst_254 main_v1021 (broadcastInDim S262144x8 ![] bcast_S_S262144x8 : (⟨S_, .f32⟩ : BufTy).Contents (Elt F) → (⟨S262144x8, .f32⟩ : BufTy).Contents (Elt F)),
    StableHlo.unary main_v1020 main_v1022 ((extractStridedSlice S262144x1 ![0, 0] · slices_S262144x2_S262144x1_0_0) : (⟨S262144x2, .f32⟩ : BufTy).Contents (Elt F) → (⟨S262144x1, .f32⟩ : BufTy).Contents (Elt F)),
    StableHlo.unary main_v1022 main_v1023 (fun v => shapeCast S262144 v shapeCasts_S262144x1_S262144),
    StableHlo.nullary main_cst_255 (constant S_ .f32 0x3F800000#32),
    StableHlo.unary main_cst_255 main_v1024 (broadcastInDim S262144 ![] bcast_S_S262144 : (⟨S_, .f32⟩ : BufTy).Contents (Elt F) → (⟨S262144, .f32⟩ : BufTy).Contents (Elt F)),
    StableHlo.binary main_v1024 main_v1023 main_v1025 (subf : (⟨S262144, .f32⟩ : BufTy).Contents (Elt F) → (⟨S262144, .f32⟩ : BufTy).Contents (Elt F) → (⟨S262144, .f32⟩ : BufTy).Contents (Elt F)),
    StableHlo.unary main_v1020 main_v1026 ((extractStridedSlice S262144x1 ![0, 1] · slices_S262144x2_S262144x1_0_1) : (⟨S262144x2, .f32⟩ : BufTy).Contents (Elt F) → (⟨S262144x1, .f32⟩ : BufTy).Contents (Elt F)),
    StableHlo.unary main_v1026 main_v1027 (fun v => shapeCast S262144 v shapeCasts_S262144x1_S262144),
    StableHlo.nullary main_cst_256 (constant S_ .f32 0x3F800000#32),
    StableHlo.unary main_cst_256 main_v1028 (broadcastInDim S262144 ![] bcast_S_S262144 : (⟨S_, .f32⟩ : BufTy).Contents (Elt F) → (⟨S262144, .f32⟩ : BufTy).Contents (Elt F)),
    StableHlo.binary main_v1028 main_v1027 main_v1029 (subf : (⟨S262144, .f32⟩ : BufTy).Contents (Elt F) → (⟨S262144, .f32⟩ : BufTy).Contents (Elt F) → (⟨S262144, .f32⟩ : BufTy).Contents (Elt F)),
    StableHlo.unary main_v1014 main_v1030 ((extractStridedSlice S262144x1 ![0, 0] · slices_S262144x2_S262144x1_0_0) : (⟨S262144x2, .i32⟩ : BufTy).Contents (Elt F) → (⟨S262144x1, .i32⟩ : BufTy).Contents (Elt F)),
    StableHlo.unary main_v1030 main_v1031 (fun v => shapeCast S262144 v shapeCasts_S262144x1_S262144),
    StableHlo.nullary main_c_257 (constantI S_ 32 0#32),
    StableHlo.unary main_c_257 main_v1032 (broadcastInDim S262144 ![] bcast_S_S262144 : (⟨S_, .i32⟩ : BufTy).Contents (Elt F) → (⟨S262144, .i32⟩ : BufTy).Contents (Elt F)),
    StableHlo.binary main_v1031 main_v1032 main_v1033 (addi : (⟨S262144, .i32⟩ : BufTy).Contents (Elt F) → (⟨S262144, .i32⟩ : BufTy).Contents (Elt F) → (⟨S262144, .i32⟩ : BufTy).Contents (Elt F)),
    StableHlo.unary main_v1014 main_v1034 ((extractStridedSlice S262144x1 ![0, 1] · slices_S262144x2_S262144x1_0_1) : (⟨S262144x2, .i32⟩ : BufTy).Contents (Elt F) → (⟨S262144x1, .i32⟩ : BufTy).Contents (Elt F)),
    StableHlo.unary main_v1034 main_v1035 (fun v => shapeCast S262144 v shapeCasts_S262144x1_S262144),
    StableHlo.nullary main_c_258 (constantI S_ 32 0#32),
    StableHlo.unary main_c_258 main_v1036 (broadcastInDim S262144 ![] bcast_S_S262144 : (⟨S_, .i32⟩ : BufTy).Contents (Elt F) → (⟨S262144, .i32⟩ : BufTy).Contents (Elt F)),
    StableHlo.binary main_v1035 main_v1036 main_v1037 (addi : (⟨S262144, .i32⟩ : BufTy).Contents (Elt F) → (⟨S262144, .i32⟩ : BufTy).Contents (Elt F) → (⟨S262144, .i32⟩ : BufTy).Contents (Elt F)),
    StableHlo.nullary main_c_259 (constantI S_ 32 81#32),
    StableHlo.unary main_c_259 main_v1038 (broadcastInDim S262144 ![] bcast_S_S262144 : (⟨S_, .i32⟩ : BufTy).Contents (Elt F) → (⟨S262144, .i32⟩ : BufTy).Contents (Elt F)),
    StableHlo.binary main_v1037 main_v1038 main_v1039 (muli : (⟨S262144, .i32⟩ : BufTy).Contents (Elt F) → (⟨S262144, .i32⟩ : BufTy).Contents (Elt F) → (⟨S262144, .i32⟩ : BufTy).Contents (Elt F)),
    StableHlo.binary main_v1033 main_v1039 main_v1040 (addi : (⟨S262144, .i32⟩ : BufTy).Contents (Elt F) → (⟨S262144, .i32⟩ : BufTy).Contents (Elt F) → (⟨S262144, .i32⟩ : BufTy).Contents (Elt F)),
    StableHlo.nullary main_c_260 (constantI S_ 32 6568#32),
    StableHlo.unary main_c_260 main_call28_v0 id,
    StableHlo.nullary main_call28_c (constantI S_ 32 0#32),
    StableHlo.binary main_call28_v0 main_call28_c main_call28_v1 (cmpi .eq),
    StableHlo.nullary main_call28_c_0 (constantI S_ 32 1#32),
    StableHlo.ternary main_call28_v1 main_call28_c_0 main_call28_v0 main_call28_v2 select,
    StableHlo.unary main_call28_v2 main_call28_v3 (broadcastInDim S262144 ![] bcast_S_S262144),
    StableHlo.binary main_v1040 main_call28_v3 main_call28_v4 Host.remsi,
    StableHlo.nullary main_call28_c_1 (constantI S_ 32 0#32),
    StableHlo.unary main_call28_c_1 main_call28_v5 (broadcastInDim S262144 ![] bcast_S_S262144),
    StableHlo.binary main_call28_v4 main_call28_v5 main_call28_v6 (cmpi .ne),
    StableHlo.nullary main_call28_c_2 (constantI S_ 32 0#32),
    StableHlo.unary main_call28_c_2 main_call28_v7 (broadcastInDim S262144 ![] bcast_S_S262144),
    StableHlo.binary main_call28_v4 main_call28_v7 main_call28_v8 (cmpi .slt),
    StableHlo.nullary main_call28_c_3 (constantI S_ 32 0#32),
    StableHlo.binary main_call28_v2 main_call28_c_3 main_call28_v9 (cmpi .slt),
    StableHlo.unary main_call28_v9 main_call28_v10 (broadcastInDim S262144 ![] bcast_S_S262144),
    StableHlo.binary main_call28_v8 main_call28_v10 main_call28_v11 (cmpi .ne),
    StableHlo.binary main_call28_v11 main_call28_v6 main_call28_v12 andi,
    StableHlo.unary main_call28_v2 main_call28_v13 (broadcastInDim S262144 ![] bcast_S_S262144),
    StableHlo.binary main_call28_v4 main_call28_v13 main_call28_v14 addi,
    StableHlo.ternary main_call28_v12 main_call28_v14 main_call28_v4 main_v1041 select,
    StableHlo.binary main_v1025 main_v1029 main_v1042 (mulf : (⟨S262144, .f32⟩ : BufTy).Contents (Elt F) → (⟨S262144, .f32⟩ : BufTy).Contents (Elt F) → (⟨S262144, .f32⟩ : BufTy).Contents (Elt F)),
    StableHlo.unary main_v1042 main_v1043 (broadcastInDim S262144x1 ![0] bcast_S262144_S262144x1_0 : (⟨S262144, .f32⟩ : BufTy).Contents (Elt F) → (⟨S262144x1, .f32⟩ : BufTy).Contents (Elt F)),
    StableHlo.nullary main_c_261 (constantI S_ 32 0#32),
    StableHlo.unary main_c_261 main_v1044 (broadcastInDim S262144 ![] bcast_S_S262144 : (⟨S_, .i32⟩ : BufTy).Contents (Elt F) → (⟨S262144, .i32⟩ : BufTy).Contents (Elt F)),
    StableHlo.binary main_v1041 main_v1044 main_v1045 (cmpi .slt : (⟨S262144, .i32⟩ : BufTy).Contents (Elt F) → (⟨S262144, .i32⟩ : BufTy).Contents (Elt F) → (⟨S262144, .i1⟩ : BufTy).Contents (Elt F)),
    StableHlo.nullary main_c_262 (constantI S_ 32 8192#32),
    StableHlo.unary main_c_262 main_v1046 (broadcastInDim S262144 ![] bcast_S_S262144 : (⟨S_, .i32⟩ : BufTy).Contents (Elt F) → (⟨S262144, .i32⟩ : BufTy).Contents (Elt F)),
    StableHlo.binary main_v1041 main_v1046 main_v1047 (addi : (⟨S262144, .i32⟩ : BufTy).Contents (Elt F) → (⟨S262144, .i32⟩ : BufTy).Contents (Elt F) → (⟨S262144, .i32⟩ : BufTy).Contents (Elt F)),
    StableHlo.ternary main_v1045 main_v1047 main_v1041 main_v1048 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.nullary main_c_263 (constantI S_ 32 7#32),
    StableHlo.unary main_c_263 main_v1049 (broadcastInDim S262144 ![] bcast_S_S262144 : (⟨S_, .i32⟩ : BufTy).Contents (Elt F) → (⟨S262144, .i32⟩ : BufTy).Contents (Elt F)),
    StableHlo.unary main_v1049 main_v1050 (id : (⟨S262144, .i32⟩ : BufTy).Contents (Elt F) → (⟨S262144, .i32⟩ : BufTy).Contents (Elt F)),
    StableHlo.unary main_v1050 main_v1051 (broadcastInDim S262144x1 ![0] bcast_S262144_S262144x1_0 : (⟨S262144, .i32⟩ : BufTy).Contents (Elt F) → (⟨S262144x1, .i32⟩ : BufTy).Contents (Elt F)),
    StableHlo.unary main_v1048 main_v1052 (broadcastInDim S262144x1 ![0] bcast_S262144_S262144x1_0 : (⟨S262144, .i32⟩ : BufTy).Contents (Elt F) → (⟨S262144x1, .i32⟩ : BufTy).Contents (Elt F)),
    StableHlo.binary main_v1051 main_v1052 main_v1053 (pairCols (α := BitVec 32)) ]

abbrev ops_part22 : List (HloOp τ sig (Elt F)) :=
  [ StableHlo.binary main_arg1 main_v1053 main_v1054 ((fun x i => Host.gather gather_S8x8192x8_S262144x2_S262144x8_1_01_n_n_01_1_118 x i) : (⟨S8x8192x8, .f32⟩ : BufTy).Contents (Elt F) → (⟨S262144x2, .i32⟩ : BufTy).Contents (Elt F) → (⟨S262144x8, .f32⟩ : BufTy).Contents (Elt F)),
    StableHlo.unary main_v1043 main_v1055 (broadcastInDim S262144x8 ![0, 1] bcast_S262144x1_S262144x8_0_1 : (⟨S262144x1, .f32⟩ : BufTy).Contents (Elt F) → (⟨S262144x8, .f32⟩ : BufTy).Contents (Elt F)),
    StableHlo.binary main_v1055 main_v1054 main_v1056 (mulf : (⟨S262144x8, .f32⟩ : BufTy).Contents (Elt F) → (⟨S262144x8, .f32⟩ : BufTy).Contents (Elt F) → (⟨S262144x8, .f32⟩ : BufTy).Contents (Elt F)),
    StableHlo.binary main_v1021 main_v1056 main_v1057 (addf : (⟨S262144x8, .f32⟩ : BufTy).Contents (Elt F) → (⟨S262144x8, .f32⟩ : BufTy).Contents (Elt F) → (⟨S262144x8, .f32⟩ : BufTy).Contents (Elt F)),
    StableHlo.unary main_v1020 main_v1058 ((extractStridedSlice S262144x1 ![0, 1] · slices_S262144x2_S262144x1_0_1) : (⟨S262144x2, .f32⟩ : BufTy).Contents (Elt F) → (⟨S262144x1, .f32⟩ : BufTy).Contents (Elt F)),
    StableHlo.unary main_v1058 main_v1059 (fun v => shapeCast S262144 v shapeCasts_S262144x1_S262144),
    StableHlo.unary main_v1014 main_v1060 ((extractStridedSlice S262144x1 ![0, 0] · slices_S262144x2_S262144x1_0_0) : (⟨S262144x2, .i32⟩ : BufTy).Contents (Elt F) → (⟨S262144x1, .i32⟩ : BufTy).Contents (Elt F)),
    StableHlo.unary main_v1060 main_v1061 (fun v => shapeCast S262144 v shapeCasts_S262144x1_S262144),
    StableHlo.nullary main_c_264 (constantI S_ 32 0#32),
    StableHlo.unary main_c_264 main_v1062 (broadcastInDim S262144 ![] bcast_S_S262144 : (⟨S_, .i32⟩ : BufTy).Contents (Elt F) → (⟨S262144, .i32⟩ : BufTy).Contents (Elt F)),
    StableHlo.binary main_v1061 main_v1062 main_v1063 (addi : (⟨S262144, .i32⟩ : BufTy).Contents (Elt F) → (⟨S262144, .i32⟩ : BufTy).Contents (Elt F) → (⟨S262144, .i32⟩ : BufTy).Contents (Elt F)),
    StableHlo.unary main_v1014 main_v1064 ((extractStridedSlice S262144x1 ![0, 1] · slices_S262144x2_S262144x1_0_1) : (⟨S262144x2, .i32⟩ : BufTy).Contents (Elt F) → (⟨S262144x1, .i32⟩ : BufTy).Contents (Elt F)),
    StableHlo.unary main_v1064 main_v1065 (fun v => shapeCast S262144 v shapeCasts_S262144x1_S262144),
    StableHlo.nullary main_c_265 (constantI S_ 32 1#32),
    StableHlo.unary main_c_265 main_v1066 (broadcastInDim S262144 ![] bcast_S_S262144 : (⟨S_, .i32⟩ : BufTy).Contents (Elt F) → (⟨S262144, .i32⟩ : BufTy).Contents (Elt F)),
    StableHlo.binary main_v1065 main_v1066 main_v1067 (addi : (⟨S262144, .i32⟩ : BufTy).Contents (Elt F) → (⟨S262144, .i32⟩ : BufTy).Contents (Elt F) → (⟨S262144, .i32⟩ : BufTy).Contents (Elt F)),
    StableHlo.nullary main_c_266 (constantI S_ 32 81#32),
    StableHlo.unary main_c_266 main_v1068 (broadcastInDim S262144 ![] bcast_S_S262144 : (⟨S_, .i32⟩ : BufTy).Contents (Elt F) → (⟨S262144, .i32⟩ : BufTy).Contents (Elt F)),
    StableHlo.binary main_v1067 main_v1068 main_v1069 (muli : (⟨S262144, .i32⟩ : BufTy).Contents (Elt F) → (⟨S262144, .i32⟩ : BufTy).Contents (Elt F) → (⟨S262144, .i32⟩ : BufTy).Contents (Elt F)),
    StableHlo.binary main_v1063 main_v1069 main_v1070 (addi : (⟨S262144, .i32⟩ : BufTy).Contents (Elt F) → (⟨S262144, .i32⟩ : BufTy).Contents (Elt F) → (⟨S262144, .i32⟩ : BufTy).Contents (Elt F)),
    StableHlo.nullary main_c_267 (constantI S_ 32 6568#32),
    StableHlo.unary main_c_267 main_call29_v0 id,
    StableHlo.nullary main_call29_c (constantI S_ 32 0#32),
    StableHlo.binary main_call29_v0 main_call29_c main_call29_v1 (cmpi .eq),
    StableHlo.nullary main_call29_c_0 (constantI S_ 32 1#32),
    StableHlo.ternary main_call29_v1 main_call29_c_0 main_call29_v0 main_call29_v2 select,
    StableHlo.unary main_call29_v2 main_call29_v3 (broadcastInDim S262144 ![] bcast_S_S262144),
    StableHlo.binary main_v1070 main_call29_v3 main_call29_v4 Host.remsi,
    StableHlo.nullary main_call29_c_1 (constantI S_ 32 0#32),
    StableHlo.unary main_call29_c_1 main_call29_v5 (broadcastInDim S262144 ![] bcast_S_S262144),
    StableHlo.binary main_call29_v4 main_call29_v5 main_call29_v6 (cmpi .ne),
    StableHlo.nullary main_call29_c_2 (constantI S_ 32 0#32),
    StableHlo.unary main_call29_c_2 main_call29_v7 (broadcastInDim S262144 ![] bcast_S_S262144),
    StableHlo.binary main_call29_v4 main_call29_v7 main_call29_v8 (cmpi .slt),
    StableHlo.nullary main_call29_c_3 (constantI S_ 32 0#32),
    StableHlo.binary main_call29_v2 main_call29_c_3 main_call29_v9 (cmpi .slt),
    StableHlo.unary main_call29_v9 main_call29_v10 (broadcastInDim S262144 ![] bcast_S_S262144),
    StableHlo.binary main_call29_v8 main_call29_v10 main_call29_v11 (cmpi .ne),
    StableHlo.binary main_call29_v11 main_call29_v6 main_call29_v12 andi,
    StableHlo.unary main_call29_v2 main_call29_v13 (broadcastInDim S262144 ![] bcast_S_S262144),
    StableHlo.binary main_call29_v4 main_call29_v13 main_call29_v14 addi,
    StableHlo.ternary main_call29_v12 main_call29_v14 main_call29_v4 main_v1071 select,
    StableHlo.binary main_v1025 main_v1059 main_v1072 (mulf : (⟨S262144, .f32⟩ : BufTy).Contents (Elt F) → (⟨S262144, .f32⟩ : BufTy).Contents (Elt F) → (⟨S262144, .f32⟩ : BufTy).Contents (Elt F)),
    StableHlo.unary main_v1072 main_v1073 (broadcastInDim S262144x1 ![0] bcast_S262144_S262144x1_0 : (⟨S262144, .f32⟩ : BufTy).Contents (Elt F) → (⟨S262144x1, .f32⟩ : BufTy).Contents (Elt F)),
    StableHlo.nullary main_c_268 (constantI S_ 32 0#32),
    StableHlo.unary main_c_268 main_v1074 (broadcastInDim S262144 ![] bcast_S_S262144 : (⟨S_, .i32⟩ : BufTy).Contents (Elt F) → (⟨S262144, .i32⟩ : BufTy).Contents (Elt F)),
    StableHlo.binary main_v1071 main_v1074 main_v1075 (cmpi .slt : (⟨S262144, .i32⟩ : BufTy).Contents (Elt F) → (⟨S262144, .i32⟩ : BufTy).Contents (Elt F) → (⟨S262144, .i1⟩ : BufTy).Contents (Elt F)),
    StableHlo.nullary main_c_269 (constantI S_ 32 8192#32),
    StableHlo.unary main_c_269 main_v1076 (broadcastInDim S262144 ![] bcast_S_S262144 : (⟨S_, .i32⟩ : BufTy).Contents (Elt F) → (⟨S262144, .i32⟩ : BufTy).Contents (Elt F)),
    StableHlo.binary main_v1071 main_v1076 main_v1077 (addi : (⟨S262144, .i32⟩ : BufTy).Contents (Elt F) → (⟨S262144, .i32⟩ : BufTy).Contents (Elt F) → (⟨S262144, .i32⟩ : BufTy).Contents (Elt F)),
    StableHlo.ternary main_v1075 main_v1077 main_v1071 main_v1078 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.nullary main_c_270 (constantI S_ 32 7#32),
    StableHlo.unary main_c_270 main_v1079 (broadcastInDim S262144 ![] bcast_S_S262144 : (⟨S_, .i32⟩ : BufTy).Contents (Elt F) → (⟨S262144, .i32⟩ : BufTy).Contents (Elt F)),
    StableHlo.unary main_v1079 main_v1080 (id : (⟨S262144, .i32⟩ : BufTy).Contents (Elt F) → (⟨S262144, .i32⟩ : BufTy).Contents (Elt F)),
    StableHlo.unary main_v1080 main_v1081 (broadcastInDim S262144x1 ![0] bcast_S262144_S262144x1_0 : (⟨S262144, .i32⟩ : BufTy).Contents (Elt F) → (⟨S262144x1, .i32⟩ : BufTy).Contents (Elt F)),
    StableHlo.unary main_v1078 main_v1082 (broadcastInDim S262144x1 ![0] bcast_S262144_S262144x1_0 : (⟨S262144, .i32⟩ : BufTy).Contents (Elt F) → (⟨S262144x1, .i32⟩ : BufTy).Contents (Elt F)),
    StableHlo.binary main_v1081 main_v1082 main_v1083 (pairCols (α := BitVec 32)),
    StableHlo.binary main_arg1 main_v1083 main_v1084 ((fun x i => Host.gather gather_S8x8192x8_S262144x2_S262144x8_1_01_n_n_01_1_118 x i) : (⟨S8x8192x8, .f32⟩ : BufTy).Contents (Elt F) → (⟨S262144x2, .i32⟩ : BufTy).Contents (Elt F) → (⟨S262144x8, .f32⟩ : BufTy).Contents (Elt F)),
    StableHlo.unary main_v1073 main_v1085 (broadcastInDim S262144x8 ![0, 1] bcast_S262144x1_S262144x8_0_1 : (⟨S262144x1, .f32⟩ : BufTy).Contents (Elt F) → (⟨S262144x8, .f32⟩ : BufTy).Contents (Elt F)),
    StableHlo.binary main_v1085 main_v1084 main_v1086 (mulf : (⟨S262144x8, .f32⟩ : BufTy).Contents (Elt F) → (⟨S262144x8, .f32⟩ : BufTy).Contents (Elt F) → (⟨S262144x8, .f32⟩ : BufTy).Contents (Elt F)),
    StableHlo.binary main_v1057 main_v1086 main_v1087 (addf : (⟨S262144x8, .f32⟩ : BufTy).Contents (Elt F) → (⟨S262144x8, .f32⟩ : BufTy).Contents (Elt F) → (⟨S262144x8, .f32⟩ : BufTy).Contents (Elt F)),
    StableHlo.unary main_v1020 main_v1088 ((extractStridedSlice S262144x1 ![0, 0] · slices_S262144x2_S262144x1_0_0) : (⟨S262144x2, .f32⟩ : BufTy).Contents (Elt F) → (⟨S262144x1, .f32⟩ : BufTy).Contents (Elt F)),
    StableHlo.unary main_v1088 main_v1089 (fun v => shapeCast S262144 v shapeCasts_S262144x1_S262144),
    StableHlo.unary main_v1020 main_v1090 ((extractStridedSlice S262144x1 ![0, 1] · slices_S262144x2_S262144x1_0_1) : (⟨S262144x2, .f32⟩ : BufTy).Contents (Elt F) → (⟨S262144x1, .f32⟩ : BufTy).Contents (Elt F)),
    StableHlo.unary main_v1090 main_v1091 (fun v => shapeCast S262144 v shapeCasts_S262144x1_S262144),
    StableHlo.nullary main_cst_271 (constant S_ .f32 0x3F800000#32),
    StableHlo.unary main_cst_271 main_v1092 (broadcastInDim S262144 ![] bcast_S_S262144 : (⟨S_, .f32⟩ : BufTy).Contents (Elt F) → (⟨S262144, .f32⟩ : BufTy).Contents (Elt F)),
    StableHlo.binary main_v1092 main_v1091 main_v1093 (subf : (⟨S262144, .f32⟩ : BufTy).Contents (Elt F) → (⟨S262144, .f32⟩ : BufTy).Contents (Elt F) → (⟨S262144, .f32⟩ : BufTy).Contents (Elt F)),
    StableHlo.unary main_v1014 main_v1094 ((extractStridedSlice S262144x1 ![0, 0] · slices_S262144x2_S262144x1_0_0) : (⟨S262144x2, .i32⟩ : BufTy).Contents (Elt F) → (⟨S262144x1, .i32⟩ : BufTy).Contents (Elt F)),
    StableHlo.unary main_v1094 main_v1095 (fun v => shapeCast S262144 v shapeCasts_S262144x1_S262144),
    StableHlo.nullary main_c_272 (constantI S_ 32 1#32),
    StableHlo.unary main_c_272 main_v1096 (broadcastInDim S262144 ![] bcast_S_S262144 : (⟨S_, .i32⟩ : BufTy).Contents (Elt F) → (⟨S262144, .i32⟩ : BufTy).Contents (Elt F)),
    StableHlo.binary main_v1095 main_v1096 main_v1097 (addi : (⟨S262144, .i32⟩ : BufTy).Contents (Elt F) → (⟨S262144, .i32⟩ : BufTy).Contents (Elt F) → (⟨S262144, .i32⟩ : BufTy).Contents (Elt F)),
    StableHlo.unary main_v1014 main_v1098 ((extractStridedSlice S262144x1 ![0, 1] · slices_S262144x2_S262144x1_0_1) : (⟨S262144x2, .i32⟩ : BufTy).Contents (Elt F) → (⟨S262144x1, .i32⟩ : BufTy).Contents (Elt F)),
    StableHlo.unary main_v1098 main_v1099 (fun v => shapeCast S262144 v shapeCasts_S262144x1_S262144),
    StableHlo.nullary main_c_273 (constantI S_ 32 0#32),
    StableHlo.unary main_c_273 main_v1100 (broadcastInDim S262144 ![] bcast_S_S262144 : (⟨S_, .i32⟩ : BufTy).Contents (Elt F) → (⟨S262144, .i32⟩ : BufTy).Contents (Elt F)),
    StableHlo.binary main_v1099 main_v1100 main_v1101 (addi : (⟨S262144, .i32⟩ : BufTy).Contents (Elt F) → (⟨S262144, .i32⟩ : BufTy).Contents (Elt F) → (⟨S262144, .i32⟩ : BufTy).Contents (Elt F)),
    StableHlo.nullary main_c_274 (constantI S_ 32 81#32),
    StableHlo.unary main_c_274 main_v1102 (broadcastInDim S262144 ![] bcast_S_S262144 : (⟨S_, .i32⟩ : BufTy).Contents (Elt F) → (⟨S262144, .i32⟩ : BufTy).Contents (Elt F)) ]

abbrev ops_part23 : List (HloOp τ sig (Elt F)) :=
  [ StableHlo.binary main_v1101 main_v1102 main_v1103 (muli : (⟨S262144, .i32⟩ : BufTy).Contents (Elt F) → (⟨S262144, .i32⟩ : BufTy).Contents (Elt F) → (⟨S262144, .i32⟩ : BufTy).Contents (Elt F)),
    StableHlo.binary main_v1097 main_v1103 main_v1104 (addi : (⟨S262144, .i32⟩ : BufTy).Contents (Elt F) → (⟨S262144, .i32⟩ : BufTy).Contents (Elt F) → (⟨S262144, .i32⟩ : BufTy).Contents (Elt F)),
    StableHlo.nullary main_c_275 (constantI S_ 32 6568#32),
    StableHlo.unary main_c_275 main_call30_v0 id,
    StableHlo.nullary main_call30_c (constantI S_ 32 0#32),
    StableHlo.binary main_call30_v0 main_call30_c main_call30_v1 (cmpi .eq),
    StableHlo.nullary main_call30_c_0 (constantI S_ 32 1#32),
    StableHlo.ternary main_call30_v1 main_call30_c_0 main_call30_v0 main_call30_v2 select,
    StableHlo.unary main_call30_v2 main_call30_v3 (broadcastInDim S262144 ![] bcast_S_S262144),
    StableHlo.binary main_v1104 main_call30_v3 main_call30_v4 Host.remsi,
    StableHlo.nullary main_call30_c_1 (constantI S_ 32 0#32),
    StableHlo.unary main_call30_c_1 main_call30_v5 (broadcastInDim S262144 ![] bcast_S_S262144),
    StableHlo.binary main_call30_v4 main_call30_v5 main_call30_v6 (cmpi .ne),
    StableHlo.nullary main_call30_c_2 (constantI S_ 32 0#32),
    StableHlo.unary main_call30_c_2 main_call30_v7 (broadcastInDim S262144 ![] bcast_S_S262144),
    StableHlo.binary main_call30_v4 main_call30_v7 main_call30_v8 (cmpi .slt),
    StableHlo.nullary main_call30_c_3 (constantI S_ 32 0#32),
    StableHlo.binary main_call30_v2 main_call30_c_3 main_call30_v9 (cmpi .slt),
    StableHlo.unary main_call30_v9 main_call30_v10 (broadcastInDim S262144 ![] bcast_S_S262144),
    StableHlo.binary main_call30_v8 main_call30_v10 main_call30_v11 (cmpi .ne),
    StableHlo.binary main_call30_v11 main_call30_v6 main_call30_v12 andi,
    StableHlo.unary main_call30_v2 main_call30_v13 (broadcastInDim S262144 ![] bcast_S_S262144),
    StableHlo.binary main_call30_v4 main_call30_v13 main_call30_v14 addi,
    StableHlo.ternary main_call30_v12 main_call30_v14 main_call30_v4 main_v1105 select,
    StableHlo.binary main_v1089 main_v1093 main_v1106 (mulf : (⟨S262144, .f32⟩ : BufTy).Contents (Elt F) → (⟨S262144, .f32⟩ : BufTy).Contents (Elt F) → (⟨S262144, .f32⟩ : BufTy).Contents (Elt F)),
    StableHlo.unary main_v1106 main_v1107 (broadcastInDim S262144x1 ![0] bcast_S262144_S262144x1_0 : (⟨S262144, .f32⟩ : BufTy).Contents (Elt F) → (⟨S262144x1, .f32⟩ : BufTy).Contents (Elt F)),
    StableHlo.nullary main_c_276 (constantI S_ 32 0#32),
    StableHlo.unary main_c_276 main_v1108 (broadcastInDim S262144 ![] bcast_S_S262144 : (⟨S_, .i32⟩ : BufTy).Contents (Elt F) → (⟨S262144, .i32⟩ : BufTy).Contents (Elt F)),
    StableHlo.binary main_v1105 main_v1108 main_v1109 (cmpi .slt : (⟨S262144, .i32⟩ : BufTy).Contents (Elt F) → (⟨S262144, .i32⟩ : BufTy).Contents (Elt F) → (⟨S262144, .i1⟩ : BufTy).Contents (Elt F)),
    StableHlo.nullary main_c_277 (constantI S_ 32 8192#32),
    StableHlo.unary main_c_277 main_v1110 (broadcastInDim S262144 ![] bcast_S_S262144 : (⟨S_, .i32⟩ : BufTy).Contents (Elt F) → (⟨S262144, .i32⟩ : BufTy).Contents (Elt F)),
    StableHlo.binary main_v1105 main_v1110 main_v1111 (addi : (⟨S262144, .i32⟩ : BufTy).Contents (Elt F) → (⟨S262144, .i32⟩ : BufTy).Contents (Elt F) → (⟨S262144, .i32⟩ : BufTy).Contents (Elt F)),
    StableHlo.ternary main_v1109 main_v1111 main_v1105 main_v1112 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.nullary main_c_278 (constantI S_ 32 7#32),
    StableHlo.unary main_c_278 main_v1113 (broadcastInDim S262144 ![] bcast_S_S262144 : (⟨S_, .i32⟩ : BufTy).Contents (Elt F) → (⟨S262144, .i32⟩ : BufTy).Contents (Elt F)),
    StableHlo.unary main_v1113 main_v1114 (id : (⟨S262144, .i32⟩ : BufTy).Contents (Elt F) → (⟨S262144, .i32⟩ : BufTy).Contents (Elt F)),
    StableHlo.unary main_v1114 main_v1115 (broadcastInDim S262144x1 ![0] bcast_S262144_S262144x1_0 : (⟨S262144, .i32⟩ : BufTy).Contents (Elt F) → (⟨S262144x1, .i32⟩ : BufTy).Contents (Elt F)),
    StableHlo.unary main_v1112 main_v1116 (broadcastInDim S262144x1 ![0] bcast_S262144_S262144x1_0 : (⟨S262144, .i32⟩ : BufTy).Contents (Elt F) → (⟨S262144x1, .i32⟩ : BufTy).Contents (Elt F)),
    StableHlo.binary main_v1115 main_v1116 main_v1117 (pairCols (α := BitVec 32)),
    StableHlo.binary main_arg1 main_v1117 main_v1118 ((fun x i => Host.gather gather_S8x8192x8_S262144x2_S262144x8_1_01_n_n_01_1_118 x i) : (⟨S8x8192x8, .f32⟩ : BufTy).Contents (Elt F) → (⟨S262144x2, .i32⟩ : BufTy).Contents (Elt F) → (⟨S262144x8, .f32⟩ : BufTy).Contents (Elt F)),
    StableHlo.unary main_v1107 main_v1119 (broadcastInDim S262144x8 ![0, 1] bcast_S262144x1_S262144x8_0_1 : (⟨S262144x1, .f32⟩ : BufTy).Contents (Elt F) → (⟨S262144x8, .f32⟩ : BufTy).Contents (Elt F)),
    StableHlo.binary main_v1119 main_v1118 main_v1120 (mulf : (⟨S262144x8, .f32⟩ : BufTy).Contents (Elt F) → (⟨S262144x8, .f32⟩ : BufTy).Contents (Elt F) → (⟨S262144x8, .f32⟩ : BufTy).Contents (Elt F)),
    StableHlo.binary main_v1087 main_v1120 main_v1121 (addf : (⟨S262144x8, .f32⟩ : BufTy).Contents (Elt F) → (⟨S262144x8, .f32⟩ : BufTy).Contents (Elt F) → (⟨S262144x8, .f32⟩ : BufTy).Contents (Elt F)),
    StableHlo.unary main_v1020 main_v1122 ((extractStridedSlice S262144x1 ![0, 1] · slices_S262144x2_S262144x1_0_1) : (⟨S262144x2, .f32⟩ : BufTy).Contents (Elt F) → (⟨S262144x1, .f32⟩ : BufTy).Contents (Elt F)),
    StableHlo.unary main_v1122 main_v1123 (fun v => shapeCast S262144 v shapeCasts_S262144x1_S262144),
    StableHlo.unary main_v1014 main_v1124 ((extractStridedSlice S262144x1 ![0, 0] · slices_S262144x2_S262144x1_0_0) : (⟨S262144x2, .i32⟩ : BufTy).Contents (Elt F) → (⟨S262144x1, .i32⟩ : BufTy).Contents (Elt F)),
    StableHlo.unary main_v1124 main_v1125 (fun v => shapeCast S262144 v shapeCasts_S262144x1_S262144),
    StableHlo.nullary main_c_279 (constantI S_ 32 1#32),
    StableHlo.unary main_c_279 main_v1126 (broadcastInDim S262144 ![] bcast_S_S262144 : (⟨S_, .i32⟩ : BufTy).Contents (Elt F) → (⟨S262144, .i32⟩ : BufTy).Contents (Elt F)),
    StableHlo.binary main_v1125 main_v1126 main_v1127 (addi : (⟨S262144, .i32⟩ : BufTy).Contents (Elt F) → (⟨S262144, .i32⟩ : BufTy).Contents (Elt F) → (⟨S262144, .i32⟩ : BufTy).Contents (Elt F)),
    StableHlo.unary main_v1014 main_v1128 ((extractStridedSlice S262144x1 ![0, 1] · slices_S262144x2_S262144x1_0_1) : (⟨S262144x2, .i32⟩ : BufTy).Contents (Elt F) → (⟨S262144x1, .i32⟩ : BufTy).Contents (Elt F)),
    StableHlo.unary main_v1128 main_v1129 (fun v => shapeCast S262144 v shapeCasts_S262144x1_S262144),
    StableHlo.nullary main_c_280 (constantI S_ 32 1#32),
    StableHlo.unary main_c_280 main_v1130 (broadcastInDim S262144 ![] bcast_S_S262144 : (⟨S_, .i32⟩ : BufTy).Contents (Elt F) → (⟨S262144, .i32⟩ : BufTy).Contents (Elt F)),
    StableHlo.binary main_v1129 main_v1130 main_v1131 (addi : (⟨S262144, .i32⟩ : BufTy).Contents (Elt F) → (⟨S262144, .i32⟩ : BufTy).Contents (Elt F) → (⟨S262144, .i32⟩ : BufTy).Contents (Elt F)),
    StableHlo.nullary main_c_281 (constantI S_ 32 81#32),
    StableHlo.unary main_c_281 main_v1132 (broadcastInDim S262144 ![] bcast_S_S262144 : (⟨S_, .i32⟩ : BufTy).Contents (Elt F) → (⟨S262144, .i32⟩ : BufTy).Contents (Elt F)),
    StableHlo.binary main_v1131 main_v1132 main_v1133 (muli : (⟨S262144, .i32⟩ : BufTy).Contents (Elt F) → (⟨S262144, .i32⟩ : BufTy).Contents (Elt F) → (⟨S262144, .i32⟩ : BufTy).Contents (Elt F)),
    StableHlo.binary main_v1127 main_v1133 main_v1134 (addi : (⟨S262144, .i32⟩ : BufTy).Contents (Elt F) → (⟨S262144, .i32⟩ : BufTy).Contents (Elt F) → (⟨S262144, .i32⟩ : BufTy).Contents (Elt F)),
    StableHlo.nullary main_c_282 (constantI S_ 32 6568#32),
    StableHlo.unary main_c_282 main_call31_v0 id,
    StableHlo.nullary main_call31_c (constantI S_ 32 0#32),
    StableHlo.binary main_call31_v0 main_call31_c main_call31_v1 (cmpi .eq),
    StableHlo.nullary main_call31_c_0 (constantI S_ 32 1#32),
    StableHlo.ternary main_call31_v1 main_call31_c_0 main_call31_v0 main_call31_v2 select,
    StableHlo.unary main_call31_v2 main_call31_v3 (broadcastInDim S262144 ![] bcast_S_S262144),
    StableHlo.binary main_v1134 main_call31_v3 main_call31_v4 Host.remsi,
    StableHlo.nullary main_call31_c_1 (constantI S_ 32 0#32),
    StableHlo.unary main_call31_c_1 main_call31_v5 (broadcastInDim S262144 ![] bcast_S_S262144),
    StableHlo.binary main_call31_v4 main_call31_v5 main_call31_v6 (cmpi .ne),
    StableHlo.nullary main_call31_c_2 (constantI S_ 32 0#32),
    StableHlo.unary main_call31_c_2 main_call31_v7 (broadcastInDim S262144 ![] bcast_S_S262144),
    StableHlo.binary main_call31_v4 main_call31_v7 main_call31_v8 (cmpi .slt),
    StableHlo.nullary main_call31_c_3 (constantI S_ 32 0#32),
    StableHlo.binary main_call31_v2 main_call31_c_3 main_call31_v9 (cmpi .slt),
    StableHlo.unary main_call31_v9 main_call31_v10 (broadcastInDim S262144 ![] bcast_S_S262144),
    StableHlo.binary main_call31_v8 main_call31_v10 main_call31_v11 (cmpi .ne),
    StableHlo.binary main_call31_v11 main_call31_v6 main_call31_v12 andi,
    StableHlo.unary main_call31_v2 main_call31_v13 (broadcastInDim S262144 ![] bcast_S_S262144),
    StableHlo.binary main_call31_v4 main_call31_v13 main_call31_v14 addi,
    StableHlo.ternary main_call31_v12 main_call31_v14 main_call31_v4 main_v1135 select,
    StableHlo.binary main_v1089 main_v1123 main_v1136 (mulf : (⟨S262144, .f32⟩ : BufTy).Contents (Elt F) → (⟨S262144, .f32⟩ : BufTy).Contents (Elt F) → (⟨S262144, .f32⟩ : BufTy).Contents (Elt F)),
    StableHlo.unary main_v1136 main_v1137 (broadcastInDim S262144x1 ![0] bcast_S262144_S262144x1_0 : (⟨S262144, .f32⟩ : BufTy).Contents (Elt F) → (⟨S262144x1, .f32⟩ : BufTy).Contents (Elt F)),
    StableHlo.nullary main_c_283 (constantI S_ 32 0#32),
    StableHlo.unary main_c_283 main_v1138 (broadcastInDim S262144 ![] bcast_S_S262144 : (⟨S_, .i32⟩ : BufTy).Contents (Elt F) → (⟨S262144, .i32⟩ : BufTy).Contents (Elt F)),
    StableHlo.binary main_v1135 main_v1138 main_v1139 (cmpi .slt : (⟨S262144, .i32⟩ : BufTy).Contents (Elt F) → (⟨S262144, .i32⟩ : BufTy).Contents (Elt F) → (⟨S262144, .i1⟩ : BufTy).Contents (Elt F)),
    StableHlo.nullary main_c_284 (constantI S_ 32 8192#32),
    StableHlo.unary main_c_284 main_v1140 (broadcastInDim S262144 ![] bcast_S_S262144 : (⟨S_, .i32⟩ : BufTy).Contents (Elt F) → (⟨S262144, .i32⟩ : BufTy).Contents (Elt F)),
    StableHlo.binary main_v1135 main_v1140 main_v1141 (addi : (⟨S262144, .i32⟩ : BufTy).Contents (Elt F) → (⟨S262144, .i32⟩ : BufTy).Contents (Elt F) → (⟨S262144, .i32⟩ : BufTy).Contents (Elt F)),
    StableHlo.ternary main_v1139 main_v1141 main_v1135 main_v1142 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.nullary main_c_285 (constantI S_ 32 7#32),
    StableHlo.unary main_c_285 main_v1143 (broadcastInDim S262144 ![] bcast_S_S262144 : (⟨S_, .i32⟩ : BufTy).Contents (Elt F) → (⟨S262144, .i32⟩ : BufTy).Contents (Elt F)),
    StableHlo.unary main_v1143 main_v1144 (id : (⟨S262144, .i32⟩ : BufTy).Contents (Elt F) → (⟨S262144, .i32⟩ : BufTy).Contents (Elt F)),
    StableHlo.unary main_v1144 main_v1145 (broadcastInDim S262144x1 ![0] bcast_S262144_S262144x1_0 : (⟨S262144, .i32⟩ : BufTy).Contents (Elt F) → (⟨S262144x1, .i32⟩ : BufTy).Contents (Elt F)),
    StableHlo.unary main_v1142 main_v1146 (broadcastInDim S262144x1 ![0] bcast_S262144_S262144x1_0 : (⟨S262144, .i32⟩ : BufTy).Contents (Elt F) → (⟨S262144x1, .i32⟩ : BufTy).Contents (Elt F)),
    StableHlo.binary main_v1145 main_v1146 main_v1147 (pairCols (α := BitVec 32)),
    StableHlo.binary main_arg1 main_v1147 main_v1148 ((fun x i => Host.gather gather_S8x8192x8_S262144x2_S262144x8_1_01_n_n_01_1_118 x i) : (⟨S8x8192x8, .f32⟩ : BufTy).Contents (Elt F) → (⟨S262144x2, .i32⟩ : BufTy).Contents (Elt F) → (⟨S262144x8, .f32⟩ : BufTy).Contents (Elt F)),
    StableHlo.unary main_v1137 main_v1149 (broadcastInDim S262144x8 ![0, 1] bcast_S262144x1_S262144x8_0_1 : (⟨S262144x1, .f32⟩ : BufTy).Contents (Elt F) → (⟨S262144x8, .f32⟩ : BufTy).Contents (Elt F)),
    StableHlo.binary main_v1149 main_v1148 main_v1150 (mulf : (⟨S262144x8, .f32⟩ : BufTy).Contents (Elt F) → (⟨S262144x8, .f32⟩ : BufTy).Contents (Elt F) → (⟨S262144x8, .f32⟩ : BufTy).Contents (Elt F)),
    StableHlo.binary main_v1121 main_v1150 main_v1151 (addf : (⟨S262144x8, .f32⟩ : BufTy).Contents (Elt F) → (⟨S262144x8, .f32⟩ : BufTy).Contents (Elt F) → (⟨S262144x8, .f32⟩ : BufTy).Contents (Elt F)) ]

abbrev ops_part24 : List (HloOp τ sig (Elt F)) :=
  [ StableHlo.nary ![main_v143, main_v287, main_v431, main_v575, main_v719, main_v863, main_v1007, main_v1151] main_v1152 (fun u => concatenate S262144x64 1 [⟨S262144x8, u 0⟩, ⟨S262144x8, u 1⟩, ⟨S262144x8, u 2⟩, ⟨S262144x8, u 3⟩, ⟨S262144x8, u 4⟩, ⟨S262144x8, u 5⟩, ⟨S262144x8, u 6⟩, ⟨S262144x8, u 7⟩] concatenates_S262144x8_S262144x8_S262144x8_S262144x8_S262144x8_S262144x8_S262144x8_S262144x8_S262144x64_d1),
    StableHlo.binary main_v1152 main_arg2 main_v1153 ((fun l r => Host.dotGeneral dot_S262144x64_S64x256_S262144x256_1_0_0_1_n_n none l r) : (⟨S262144x64, .f32⟩ : BufTy).Contents (Elt F) → (⟨S64x256, .f32⟩ : BufTy).Contents (Elt F) → (⟨S262144x256, .f32⟩ : BufTy).Contents (Elt F)),
    StableHlo.nullary main_call32_cst (constant S_ .f32 0x00000000#32),
    StableHlo.unary main_call32_cst main_call32_v0 (broadcastInDim S262144x256 ![] bcast_S_S262144x256),
    StableHlo.binary main_v1153 main_call32_v0 main_v1154 maximumf,
    StableHlo.binary main_v1154 main_arg3 main_v1155 ((fun l r => Host.dotGeneral dot_S262144x256_S256x256_S262144x256_1_0_0_1_n_n none l r) : (⟨S262144x256, .f32⟩ : BufTy).Contents (Elt F) → (⟨S256x256, .f32⟩ : BufTy).Contents (Elt F) → (⟨S262144x256, .f32⟩ : BufTy).Contents (Elt F)),
    StableHlo.nullary main_call33_cst (constant S_ .f32 0x00000000#32),
    StableHlo.unary main_call33_cst main_call33_v0 (broadcastInDim S262144x256 ![] bcast_S_S262144x256),
    StableHlo.binary main_v1155 main_call33_v0 main_v1156 maximumf,
    StableHlo.binary main_v1156 main_arg4 main_v1157 ((fun l r => Host.dotGeneral dot_S262144x256_S256x256_S262144x256_1_0_0_1_n_n none l r) : (⟨S262144x256, .f32⟩ : BufTy).Contents (Elt F) → (⟨S256x256, .f32⟩ : BufTy).Contents (Elt F) → (⟨S262144x256, .f32⟩ : BufTy).Contents (Elt F)),
    StableHlo.nullary main_call34_cst (constant S_ .f32 0x00000000#32),
    StableHlo.unary main_call34_cst main_call34_v0 (broadcastInDim S262144x256 ![] bcast_S_S262144x256),
    StableHlo.binary main_v1157 main_call34_v0 main_v1158 maximumf,
    StableHlo.binary main_v1158 main_arg5 main_v1159 ((fun l r => Host.dotGeneral dot_S262144x256_S256x1_S262144x1_1_0_0_1_n_n none l r) : (⟨S262144x256, .f32⟩ : BufTy).Contents (Elt F) → (⟨S256x1, .f32⟩ : BufTy).Contents (Elt F) → (⟨S262144x1, .f32⟩ : BufTy).Contents (Elt F)) ]

end Cert.ReferenceIdeal.RefRun

end
-- ==== Proof.RefPart0.lean ====
/- Window 0 of the reference's @main is its operation list run in order; its operations touch TensorCore buffers only, determine their results, and write the listed buffers. -/
import proofs.«139053_j36180804501977_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem main_part0_eq (c : Dev nD) : main_part0 (F := F) c = seq ops_part0 := rfl

set_option maxRecDepth 8192 in
theorem ops_part0_sub : (ops_part0 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., binary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., unary_bufs_sub .., unary_bufs_sub .., nullary_bufs_sub .., unary_bufs_sub .., binary_bufs_sub .., unary_bufs_sub .., unary_bufs_sub .., nullary_bufs_sub .., unary_bufs_sub .., binary_bufs_sub .., unary_bufs_sub .., unary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub ..⟩

theorem ops_part0_fresh : (ops_part0 : List (HloOp τ sig (Elt F))).Forall fun op => op.fresh = ∅ := by
  simp only [List.Forall]; repeat' constructor

abbrev ops_part0_W : List (Ref sig .tc) := [main_cst, main_v0, main_v1, main_cst_0, main_v2, main_v3, main_v4, main_v5, main_v6, main_v7, main_cst_1, main_v8, main_v9, main_cst_2, main_v10, main_v11, main_v12, main_cst_3, main_v13, main_v14, main_v15, main_cst_4, main_v16, main_v17, main_v18, main_v19, main_cst_5, main_v20, main_v21, main_v22, main_v23, main_c, main_v24, main_v25, main_v26, main_v27, main_c_6, main_v28, main_v29, main_c_7, main_v30, main_v31, main_v32, main_c_8, main_call0_v0, main_call0_c, main_call0_v1, main_call0_c_0, main_call0_v2, main_call0_v3, main_call0_v4, main_call0_c_1, main_call0_v5, main_call0_v6, main_call0_c_2, main_call0_v7, main_call0_v8, main_call0_c_3, main_call0_v9, main_call0_v10, main_call0_v11, main_call0_v12, main_call0_v13, main_call0_v14, main_v33, main_v34, main_v35, main_c_9, main_v36, main_v37, main_c_10, main_v38, main_v39, main_v40, main_c_11, main_v41, main_v42, main_v43, main_v44, main_v45]
set_option maxRecDepth 8192 in
theorem ops_part0_writes : (ops_part0 : List (HloOp τ sig (Elt F))).Forall fun op => op.writes ⊆ (ops_part0_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩

/-- A buffer the window does not write keeps its contents through it. -/
theorem ops_part0_keep (V : Valuation τ sig (Elt F)) (r : Ref sig .tc) (h : r ∉ ops_part0_W) :
    after ops_part0 V (Proc.devRef .tc r) = V (Proc.devRef .tc r) :=
  after_of_writes_sub ops_part0 _ ops_part0_writes h

end Cert.ReferenceIdeal.RefRun

end
-- ==== Proof.RefPart1.lean ====
/- Window 1 of the reference's @main is its operation list run in order; its operations touch TensorCore buffers only, determine their results, and write the listed buffers. -/
import proofs.«139053_j36180804501977_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem main_part1_eq (c : Dev nD) : main_part1 (F := F) c = seq ops_part1 := rfl

set_option maxRecDepth 8192 in
theorem ops_part1_sub : (ops_part1 : List (HloOp τ sig (Elt F))).Forall fun op => op.bufs ⊆ tcRefs τ sig :=
  ⟨binary_bufs_sub .., unary_bufs_sub .., binary_bufs_sub .., binary_bufs_sub .., unary_bufs_sub .., unary_bufs_sub .., unary_bufs_sub .., unary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub .., binary_bufs_sub .., unary_bufs_sub .., binary_bufs_sub .., binary_bufs_sub .., unary_bufs_sub .., unary_bufs_sub .., unary_bufs_sub .., unary_bufs_sub .., nullary_bufs_sub .., unary_bufs_sub .., binary_bufs_sub .., unary_bufs_sub .., unary_bufs_sub .., nullary_bufs_sub .., unary_bufs_sub .., binary_bufs_sub .., unary_bufs_sub .., unary_bufs_sub .., nullary_bufs_sub .., unary_bufs_sub .., binary_bufs_sub .., nullary_bufs_sub .., unary_bufs_sub ..⟩

theorem ops_part1_fresh : (ops_part1 : List (HloOp τ sig (Elt F))).Forall fun op => op.fresh = ∅ := by
  simp only [List.Forall]; repeat' constructor

abbrev ops_part1_W : List (Ref sig .tc) := [main_v46, main_v47, main_v48, main_v49, main_v50, main_v51, main_v52, main_v53, main_c_12, main_v54, main_v55, main_v56, main_v57, main_c_13, main_v58, main_v59, main_c_14, main_v60, main_v61, main_v62, main_c_15, main_call1_v0, main_call1_c, main_call1_v1, main_call1_c_0, main_call1_v2, main_call1_v3, main_call1_v4, main_call1_c_1, main_call1_v5, main_call1_v6, main_call1_c_2, main_call1_v7, main_call1_v8, main_call1_c_3, main_call1_v9, main_call1_v10, main_call1_v11, main_call1_v12, main_call1_v13, main_call1_v14, main_v63, main_v64, main_v65, main_c_16, main_v66, main_v67, main_c_17, main_v68, main_v69, main_v70, main_c_18, main_v71, main_v72, main_v73, main_v74, main_v75, main_v76, main_v77, main_v78, main_v79, main_v80, main_v81, main_v82, main_v83, main_cst_19, main_v84, main_v85, main_v86, main_v87, main_c_20, main_v88, main_v89, main_v90, main_v91, main_c_21, main_v92, main_v93, main_c_22, main_v94]
set_option maxRecDepth 8192 in
theorem ops_part1_writes : (ops_part1 : List (HloOp τ sig (Elt F))).Forall fun op => op.writes ⊆ (ops_part1_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩

/-- A buffer the window does not write keeps its contents through it. -/
theorem ops_part1_keep (V : Valuation τ sig (Elt F)) (r : Ref sig .tc) (h : r ∉ ops_part1_W) :
    after ops_part1 V (Proc.devRef .tc r) = V (Proc.devRef .tc r) :=
  after_of_writes_sub ops_part1 _ ops_part1_writes h

end Cert.ReferenceIdeal.RefRun

end
-- ==== Proof.RefPart2.lean ====
/- Window 2 of the reference's @main is its operation list run in order; its operations touch TensorCore buffers only, determine their results, and write the listed buffers. -/
import proofs.«139053_j36180804501977_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem main_part2_eq (c : Dev nD) : main_part2 (F := F) c = seq ops_part2 := rfl

set_option maxRecDepth 8192 in
theorem ops_part2_sub : (ops_part2 : List (HloOp τ sig (Elt F))).Forall fun op => op.bufs ⊆ tcRefs τ sig :=
  ⟨binary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub .., binary_bufs_sub .., unary_bufs_sub .., binary_bufs_sub .., binary_bufs_sub .., unary_bufs_sub .., unary_bufs_sub .., unary_bufs_sub .., unary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub .., binary_bufs_sub .., unary_bufs_sub .., binary_bufs_sub .., binary_bufs_sub ..⟩

theorem ops_part2_fresh : (ops_part2 : List (HloOp τ sig (Elt F))).Forall fun op => op.fresh = ∅ := by
  simp only [List.Forall]; repeat' constructor

abbrev ops_part2_W : List (Ref sig .tc) := [main_v95, main_v96, main_c_23, main_call2_v0, main_call2_c, main_call2_v1, main_call2_c_0, main_call2_v2, main_call2_v3, main_call2_v4, main_call2_c_1, main_call2_v5, main_call2_v6, main_call2_c_2, main_call2_v7, main_call2_v8, main_call2_c_3, main_call2_v9, main_call2_v10, main_call2_v11, main_call2_v12, main_call2_v13, main_call2_v14, main_v97, main_v98, main_v99, main_c_24, main_v100, main_v101, main_c_25, main_v102, main_v103, main_v104, main_c_26, main_v105, main_v106, main_v107, main_v108, main_v109, main_v110, main_v111, main_v112, main_v113, main_v114, main_v115, main_v116, main_v117, main_c_27, main_v118, main_v119, main_v120, main_v121, main_c_28, main_v122, main_v123, main_c_29, main_v124, main_v125, main_v126, main_c_30, main_call3_v0, main_call3_c, main_call3_v1, main_call3_c_0, main_call3_v2, main_call3_v3, main_call3_v4, main_call3_c_1, main_call3_v5, main_call3_v6, main_call3_c_2, main_call3_v7, main_call3_v8, main_call3_c_3, main_call3_v9, main_call3_v10, main_call3_v11, main_call3_v12, main_call3_v13, main_call3_v14, main_v127, main_v128, main_v129, main_c_31, main_v130, main_v131, main_c_32, main_v132, main_v133, main_v134, main_c_33, main_v135, main_v136, main_v137, main_v138, main_v139, main_v140, main_v141, main_v142, main_v143]
set_option maxRecDepth 8192 in
theorem ops_part2_writes : (ops_part2 : List (HloOp τ sig (Elt F))).Forall fun op => op.writes ⊆ (ops_part2_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩

/-- A buffer the window does not write keeps its contents through it. -/
theorem ops_part2_keep (V : Valuation τ sig (Elt F)) (r : Ref sig .tc) (h : r ∉ ops_part2_W) :
    after ops_part2 V (Proc.devRef .tc r) = V (Proc.devRef .tc r) :=
  after_of_writes_sub ops_part2 _ ops_part2_writes h

end Cert.ReferenceIdeal.RefRun

end
-- ==== Proof.RefPart3.lean ====
/- Window 3 of the reference's @main is its operation list run in order; its operations touch TensorCore buffers only, determine their results, and write the listed buffers. -/
import proofs.«139053_j36180804501977_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem main_part3_eq (c : Dev nD) : main_part3 (F := F) c = seq ops_part3 := rfl

set_option maxRecDepth 8192 in
theorem ops_part3_sub : (ops_part3 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., binary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., unary_bufs_sub .., unary_bufs_sub .., nullary_bufs_sub .., unary_bufs_sub .., binary_bufs_sub .., unary_bufs_sub .., unary_bufs_sub .., nullary_bufs_sub .., unary_bufs_sub .., binary_bufs_sub .., unary_bufs_sub .., unary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub ..⟩

theorem ops_part3_fresh : (ops_part3 : List (HloOp τ sig (Elt F))).Forall fun op => op.fresh = ∅ := by
  simp only [List.Forall]; repeat' constructor

abbrev ops_part3_W : List (Ref sig .tc) := [main_cst_34, main_v144, main_v145, main_cst_35, main_v146, main_v147, main_v148, main_v149, main_v150, main_v151, main_cst_36, main_v152, main_v153, main_cst_37, main_v154, main_v155, main_v156, main_cst_38, main_v157, main_v158, main_v159, main_cst_39, main_v160, main_v161, main_v162, main_v163, main_cst_40, main_v164, main_v165, main_v166, main_v167, main_c_41, main_v168, main_v169, main_v170, main_v171, main_c_42, main_v172, main_v173, main_c_43, main_v174, main_v175, main_v176, main_c_44, main_call4_v0, main_call4_c, main_call4_v1, main_call4_c_0, main_call4_v2, main_call4_v3, main_call4_v4, main_call4_c_1, main_call4_v5, main_call4_v6, main_call4_c_2, main_call4_v7, main_call4_v8, main_call4_c_3, main_call4_v9, main_call4_v10, main_call4_v11, main_call4_v12, main_call4_v13, main_call4_v14, main_v177, main_v178, main_v179, main_c_45, main_v180, main_v181, main_c_46, main_v182, main_v183, main_v184, main_c_47, main_v185, main_v186, main_v187, main_v188, main_v189]
set_option maxRecDepth 8192 in
theorem ops_part3_writes : (ops_part3 : List (HloOp τ sig (Elt F))).Forall fun op => op.writes ⊆ (ops_part3_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩

/-- A buffer the window does not write keeps its contents through it. -/
theorem ops_part3_keep (V : Valuation τ sig (Elt F)) (r : Ref sig .tc) (h : r ∉ ops_part3_W) :
    after ops_part3 V (Proc.devRef .tc r) = V (Proc.devRef .tc r) :=
  after_of_writes_sub ops_part3 _ ops_part3_writes h

end Cert.ReferenceIdeal.RefRun

end
-- ==== Proof.RefPart4.lean ====
/- Window 4 of the reference's @main is its operation list run in order; its operations touch TensorCore buffers only, determine their results, and write the listed buffers. -/
import proofs.«139053_j36180804501977_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem main_part4_eq (c : Dev nD) : main_part4 (F := F) c = seq ops_part4 := rfl

set_option maxRecDepth 8192 in
theorem ops_part4_sub : (ops_part4 : List (HloOp τ sig (Elt F))).Forall fun op => op.bufs ⊆ tcRefs τ sig :=
  ⟨binary_bufs_sub .., unary_bufs_sub .., binary_bufs_sub .., binary_bufs_sub .., unary_bufs_sub .., unary_bufs_sub .., unary_bufs_sub .., unary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub .., binary_bufs_sub .., unary_bufs_sub .., binary_bufs_sub .., binary_bufs_sub .., unary_bufs_sub .., unary_bufs_sub .., unary_bufs_sub .., unary_bufs_sub .., nullary_bufs_sub .., unary_bufs_sub .., binary_bufs_sub .., unary_bufs_sub .., unary_bufs_sub .., nullary_bufs_sub .., unary_bufs_sub .., binary_bufs_sub .., unary_bufs_sub .., unary_bufs_sub .., nullary_bufs_sub .., unary_bufs_sub .., binary_bufs_sub .., nullary_bufs_sub .., unary_bufs_sub ..⟩

theorem ops_part4_fresh : (ops_part4 : List (HloOp τ sig (Elt F))).Forall fun op => op.fresh = ∅ := by
  simp only [List.Forall]; repeat' constructor

abbrev ops_part4_W : List (Ref sig .tc) := [main_v190, main_v191, main_v192, main_v193, main_v194, main_v195, main_v196, main_v197, main_c_48, main_v198, main_v199, main_v200, main_v201, main_c_49, main_v202, main_v203, main_c_50, main_v204, main_v205, main_v206, main_c_51, main_call5_v0, main_call5_c, main_call5_v1, main_call5_c_0, main_call5_v2, main_call5_v3, main_call5_v4, main_call5_c_1, main_call5_v5, main_call5_v6, main_call5_c_2, main_call5_v7, main_call5_v8, main_call5_c_3, main_call5_v9, main_call5_v10, main_call5_v11, main_call5_v12, main_call5_v13, main_call5_v14, main_v207, main_v208, main_v209, main_c_52, main_v210, main_v211, main_c_53, main_v212, main_v213, main_v214, main_c_54, main_v215, main_v216, main_v217, main_v218, main_v219, main_v220, main_v221, main_v222, main_v223, main_v224, main_v225, main_v226, main_v227, main_cst_55, main_v228, main_v229, main_v230, main_v231, main_c_56, main_v232, main_v233, main_v234, main_v235, main_c_57, main_v236, main_v237, main_c_58, main_v238]
set_option maxRecDepth 8192 in
theorem ops_part4_writes : (ops_part4 : List (HloOp τ sig (Elt F))).Forall fun op => op.writes ⊆ (ops_part4_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩

/-- A buffer the window does not write keeps its contents through it. -/
theorem ops_part4_keep (V : Valuation τ sig (Elt F)) (r : Ref sig .tc) (h : r ∉ ops_part4_W) :
    after ops_part4 V (Proc.devRef .tc r) = V (Proc.devRef .tc r) :=
  after_of_writes_sub ops_part4 _ ops_part4_writes h

end Cert.ReferenceIdeal.RefRun

end
-- ==== Proof.RefPart5.lean ====
/- Window 5 of the reference's @main is its operation list run in order; its operations touch TensorCore buffers only, determine their results, and write the listed buffers. -/
import proofs.«139053_j36180804501977_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem main_part5_eq (c : Dev nD) : main_part5 (F := F) c = seq ops_part5 := rfl

set_option maxRecDepth 8192 in
theorem ops_part5_sub : (ops_part5 : List (HloOp τ sig (Elt F))).Forall fun op => op.bufs ⊆ tcRefs τ sig :=
  ⟨binary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub .., binary_bufs_sub .., unary_bufs_sub .., binary_bufs_sub .., binary_bufs_sub .., unary_bufs_sub .., unary_bufs_sub .., unary_bufs_sub .., unary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub .., binary_bufs_sub .., unary_bufs_sub .., binary_bufs_sub .., binary_bufs_sub ..⟩

theorem ops_part5_fresh : (ops_part5 : List (HloOp τ sig (Elt F))).Forall fun op => op.fresh = ∅ := by
  simp only [List.Forall]; repeat' constructor

abbrev ops_part5_W : List (Ref sig .tc) := [main_v239, main_v240, main_c_59, main_call6_v0, main_call6_c, main_call6_v1, main_call6_c_0, main_call6_v2, main_call6_v3, main_call6_v4, main_call6_c_1, main_call6_v5, main_call6_v6, main_call6_c_2, main_call6_v7, main_call6_v8, main_call6_c_3, main_call6_v9, main_call6_v10, main_call6_v11, main_call6_v12, main_call6_v13, main_call6_v14, main_v241, main_v242, main_v243, main_c_60, main_v244, main_v245, main_c_61, main_v246, main_v247, main_v248, main_c_62, main_v249, main_v250, main_v251, main_v252, main_v253, main_v254, main_v255, main_v256, main_v257, main_v258, main_v259, main_v260, main_v261, main_c_63, main_v262, main_v263, main_v264, main_v265, main_c_64, main_v266, main_v267, main_c_65, main_v268, main_v269, main_v270, main_c_66, main_call7_v0, main_call7_c, main_call7_v1, main_call7_c_0, main_call7_v2, main_call7_v3, main_call7_v4, main_call7_c_1, main_call7_v5, main_call7_v6, main_call7_c_2, main_call7_v7, main_call7_v8, main_call7_c_3, main_call7_v9, main_call7_v10, main_call7_v11, main_call7_v12, main_call7_v13, main_call7_v14, main_v271, main_v272, main_v273, main_c_67, main_v274, main_v275, main_c_68, main_v276, main_v277, main_v278, main_c_69, main_v279, main_v280, main_v281, main_v282, main_v283, main_v284, main_v285, main_v286, main_v287]
set_option maxRecDepth 8192 in
theorem ops_part5_writes : (ops_part5 : List (HloOp τ sig (Elt F))).Forall fun op => op.writes ⊆ (ops_part5_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩

/-- A buffer the window does not write keeps its contents through it. -/
theorem ops_part5_keep (V : Valuation τ sig (Elt F)) (r : Ref sig .tc) (h : r ∉ ops_part5_W) :
    after ops_part5 V (Proc.devRef .tc r) = V (Proc.devRef .tc r) :=
  after_of_writes_sub ops_part5 _ ops_part5_writes h

end Cert.ReferenceIdeal.RefRun

end
-- ==== Proof.RefPart6.lean ====
/- Window 6 of the reference's @main is its operation list run in order; its operations touch TensorCore buffers only, determine their results, and write the listed buffers. -/
import proofs.«139053_j36180804501977_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem main_part6_eq (c : Dev nD) : main_part6 (F := F) c = seq ops_part6 := rfl

set_option maxRecDepth 8192 in
theorem ops_part6_sub : (ops_part6 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., binary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., unary_bufs_sub .., unary_bufs_sub .., nullary_bufs_sub .., unary_bufs_sub .., binary_bufs_sub .., unary_bufs_sub .., unary_bufs_sub .., nullary_bufs_sub .., unary_bufs_sub .., binary_bufs_sub .., unary_bufs_sub .., unary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub ..⟩

theorem ops_part6_fresh : (ops_part6 : List (HloOp τ sig (Elt F))).Forall fun op => op.fresh = ∅ := by
  simp only [List.Forall]; repeat' constructor

abbrev ops_part6_W : List (Ref sig .tc) := [main_cst_70, main_v288, main_v289, main_cst_71, main_v290, main_v291, main_v292, main_v293, main_v294, main_v295, main_cst_72, main_v296, main_v297, main_cst_73, main_v298, main_v299, main_v300, main_cst_74, main_v301, main_v302, main_v303, main_cst_75, main_v304, main_v305, main_v306, main_v307, main_cst_76, main_v308, main_v309, main_v310, main_v311, main_c_77, main_v312, main_v313, main_v314, main_v315, main_c_78, main_v316, main_v317, main_c_79, main_v318, main_v319, main_v320, main_c_80, main_call8_v0, main_call8_c, main_call8_v1, main_call8_c_0, main_call8_v2, main_call8_v3, main_call8_v4, main_call8_c_1, main_call8_v5, main_call8_v6, main_call8_c_2, main_call8_v7, main_call8_v8, main_call8_c_3, main_call8_v9, main_call8_v10, main_call8_v11, main_call8_v12, main_call8_v13, main_call8_v14, main_v321, main_v322, main_v323, main_c_81, main_v324, main_v325, main_c_82, main_v326, main_v327, main_v328, main_c_83, main_v329, main_v330, main_v331, main_v332, main_v333]
set_option maxRecDepth 8192 in
theorem ops_part6_writes : (ops_part6 : List (HloOp τ sig (Elt F))).Forall fun op => op.writes ⊆ (ops_part6_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩

/-- A buffer the window does not write keeps its contents through it. -/
theorem ops_part6_keep (V : Valuation τ sig (Elt F)) (r : Ref sig .tc) (h : r ∉ ops_part6_W) :
    after ops_part6 V (Proc.devRef .tc r) = V (Proc.devRef .tc r) :=
  after_of_writes_sub ops_part6 _ ops_part6_writes h

end Cert.ReferenceIdeal.RefRun

end
-- ==== Proof.RefPart7.lean ====
/- Window 7 of the reference's @main is its operation list run in order; its operations touch TensorCore buffers only, determine their results, and write the listed buffers. -/
import proofs.«139053_j36180804501977_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem main_part7_eq (c : Dev nD) : main_part7 (F := F) c = seq ops_part7 := rfl

set_option maxRecDepth 8192 in
theorem ops_part7_sub : (ops_part7 : List (HloOp τ sig (Elt F))).Forall fun op => op.bufs ⊆ tcRefs τ sig :=
  ⟨binary_bufs_sub .., unary_bufs_sub .., binary_bufs_sub .., binary_bufs_sub .., unary_bufs_sub .., unary_bufs_sub .., unary_bufs_sub .., unary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub .., binary_bufs_sub .., unary_bufs_sub .., binary_bufs_sub .., binary_bufs_sub .., unary_bufs_sub .., unary_bufs_sub .., unary_bufs_sub .., unary_bufs_sub .., nullary_bufs_sub .., unary_bufs_sub .., binary_bufs_sub .., unary_bufs_sub .., unary_bufs_sub .., nullary_bufs_sub .., unary_bufs_sub .., binary_bufs_sub .., unary_bufs_sub .., unary_bufs_sub .., nullary_bufs_sub .., unary_bufs_sub .., binary_bufs_sub .., nullary_bufs_sub .., unary_bufs_sub ..⟩

theorem ops_part7_fresh : (ops_part7 : List (HloOp τ sig (Elt F))).Forall fun op => op.fresh = ∅ := by
  simp only [List.Forall]; repeat' constructor

abbrev ops_part7_W : List (Ref sig .tc) := [main_v334, main_v335, main_v336, main_v337, main_v338, main_v339, main_v340, main_v341, main_c_84, main_v342, main_v343, main_v344, main_v345, main_c_85, main_v346, main_v347, main_c_86, main_v348, main_v349, main_v350, main_c_87, main_call9_v0, main_call9_c, main_call9_v1, main_call9_c_0, main_call9_v2, main_call9_v3, main_call9_v4, main_call9_c_1, main_call9_v5, main_call9_v6, main_call9_c_2, main_call9_v7, main_call9_v8, main_call9_c_3, main_call9_v9, main_call9_v10, main_call9_v11, main_call9_v12, main_call9_v13, main_call9_v14, main_v351, main_v352, main_v353, main_c_88, main_v354, main_v355, main_c_89, main_v356, main_v357, main_v358, main_c_90, main_v359, main_v360, main_v361, main_v362, main_v363, main_v364, main_v365, main_v366, main_v367, main_v368, main_v369, main_v370, main_v371, main_cst_91, main_v372, main_v373, main_v374, main_v375, main_c_92, main_v376, main_v377, main_v378, main_v379, main_c_93, main_v380, main_v381, main_c_94, main_v382]
set_option maxRecDepth 8192 in
theorem ops_part7_writes : (ops_part7 : List (HloOp τ sig (Elt F))).Forall fun op => op.writes ⊆ (ops_part7_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩

/-- A buffer the window does not write keeps its contents through it. -/
theorem ops_part7_keep (V : Valuation τ sig (Elt F)) (r : Ref sig .tc) (h : r ∉ ops_part7_W) :
    after ops_part7 V (Proc.devRef .tc r) = V (Proc.devRef .tc r) :=
  after_of_writes_sub ops_part7 _ ops_part7_writes h

end Cert.ReferenceIdeal.RefRun

end
-- ==== Proof.RefPart8.lean ====
/- Window 8 of the reference's @main is its operation list run in order; its operations touch TensorCore buffers only, determine their results, and write the listed buffers. -/
import proofs.«139053_j36180804501977_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem main_part8_eq (c : Dev nD) : main_part8 (F := F) c = seq ops_part8 := rfl

set_option maxRecDepth 8192 in
theorem ops_part8_sub : (ops_part8 : List (HloOp τ sig (Elt F))).Forall fun op => op.bufs ⊆ tcRefs τ sig :=
  ⟨binary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub .., binary_bufs_sub .., unary_bufs_sub .., binary_bufs_sub .., binary_bufs_sub .., unary_bufs_sub .., unary_bufs_sub .., unary_bufs_sub .., unary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub .., binary_bufs_sub .., unary_bufs_sub .., binary_bufs_sub .., binary_bufs_sub ..⟩

theorem ops_part8_fresh : (ops_part8 : List (HloOp τ sig (Elt F))).Forall fun op => op.fresh = ∅ := by
  simp only [List.Forall]; repeat' constructor

abbrev ops_part8_W : List (Ref sig .tc) := [main_v383, main_v384, main_c_95, main_call10_v0, main_call10_c, main_call10_v1, main_call10_c_0, main_call10_v2, main_call10_v3, main_call10_v4, main_call10_c_1, main_call10_v5, main_call10_v6, main_call10_c_2, main_call10_v7, main_call10_v8, main_call10_c_3, main_call10_v9, main_call10_v10, main_call10_v11, main_call10_v12, main_call10_v13, main_call10_v14, main_v385, main_v386, main_v387, main_c_96, main_v388, main_v389, main_c_97, main_v390, main_v391, main_v392, main_c_98, main_v393, main_v394, main_v395, main_v396, main_v397, main_v398, main_v399, main_v400, main_v401, main_v402, main_v403, main_v404, main_v405, main_c_99, main_v406, main_v407, main_v408, main_v409, main_c_100, main_v410, main_v411, main_c_101, main_v412, main_v413, main_v414, main_c_102, main_call11_v0, main_call11_c, main_call11_v1, main_call11_c_0, main_call11_v2, main_call11_v3, main_call11_v4, main_call11_c_1, main_call11_v5, main_call11_v6, main_call11_c_2, main_call11_v7, main_call11_v8, main_call11_c_3, main_call11_v9, main_call11_v10, main_call11_v11, main_call11_v12, main_call11_v13, main_call11_v14, main_v415, main_v416, main_v417, main_c_103, main_v418, main_v419, main_c_104, main_v420, main_v421, main_v422, main_c_105, main_v423, main_v424, main_v425, main_v426, main_v427, main_v428, main_v429, main_v430, main_v431]
set_option maxRecDepth 8192 in
theorem ops_part8_writes : (ops_part8 : List (HloOp τ sig (Elt F))).Forall fun op => op.writes ⊆ (ops_part8_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩

/-- A buffer the window does not write keeps its contents through it. -/
theorem ops_part8_keep (V : Valuation τ sig (Elt F)) (r : Ref sig .tc) (h : r ∉ ops_part8_W) :
    after ops_part8 V (Proc.devRef .tc r) = V (Proc.devRef .tc r) :=
  after_of_writes_sub ops_part8 _ ops_part8_writes h

end Cert.ReferenceIdeal.RefRun

end
-- ==== Proof.RefPart9.lean ====
/- Window 9 of the reference's @main is its operation list run in order; its operations touch TensorCore buffers only, determine their results, and write the listed buffers. -/
import proofs.«139053_j36180804501977_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem main_part9_eq (c : Dev nD) : main_part9 (F := F) c = seq ops_part9 := rfl

set_option maxRecDepth 8192 in
theorem ops_part9_sub : (ops_part9 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., binary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., unary_bufs_sub .., unary_bufs_sub .., nullary_bufs_sub .., unary_bufs_sub .., binary_bufs_sub .., unary_bufs_sub .., unary_bufs_sub .., nullary_bufs_sub .., unary_bufs_sub .., binary_bufs_sub .., unary_bufs_sub .., unary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub ..⟩

theorem ops_part9_fresh : (ops_part9 : List (HloOp τ sig (Elt F))).Forall fun op => op.fresh = ∅ := by
  simp only [List.Forall]; repeat' constructor

abbrev ops_part9_W : List (Ref sig .tc) := [main_cst_106, main_v432, main_v433, main_cst_107, main_v434, main_v435, main_v436, main_v437, main_v438, main_v439, main_cst_108, main_v440, main_v441, main_cst_109, main_v442, main_v443, main_v444, main_cst_110, main_v445, main_v446, main_v447, main_cst_111, main_v448, main_v449, main_v450, main_v451, main_cst_112, main_v452, main_v453, main_v454, main_v455, main_c_113, main_v456, main_v457, main_v458, main_v459, main_c_114, main_v460, main_v461, main_c_115, main_v462, main_v463, main_v464, main_c_116, main_call12_v0, main_call12_c, main_call12_v1, main_call12_c_0, main_call12_v2, main_call12_v3, main_call12_v4, main_call12_c_1, main_call12_v5, main_call12_v6, main_call12_c_2, main_call12_v7, main_call12_v8, main_call12_c_3, main_call12_v9, main_call12_v10, main_call12_v11, main_call12_v12, main_call12_v13, main_call12_v14, main_v465, main_v466, main_v467, main_c_117, main_v468, main_v469, main_c_118, main_v470, main_v471, main_v472, main_c_119, main_v473, main_v474, main_v475, main_v476, main_v477]
set_option maxRecDepth 8192 in
theorem ops_part9_writes : (ops_part9 : List (HloOp τ sig (Elt F))).Forall fun op => op.writes ⊆ (ops_part9_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩

/-- A buffer the window does not write keeps its contents through it. -/
theorem ops_part9_keep (V : Valuation τ sig (Elt F)) (r : Ref sig .tc) (h : r ∉ ops_part9_W) :
    after ops_part9 V (Proc.devRef .tc r) = V (Proc.devRef .tc r) :=
  after_of_writes_sub ops_part9 _ ops_part9_writes h

end Cert.ReferenceIdeal.RefRun

end
-- ==== Proof.RefPart10.lean ====
/- Window 10 of the reference's @main is its operation list run in order; its operations touch TensorCore buffers only, determine their results, and write the listed buffers. -/
import proofs.«139053_j36180804501977_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem main_part10_eq (c : Dev nD) : main_part10 (F := F) c = seq ops_part10 := rfl

set_option maxRecDepth 8192 in
theorem ops_part10_sub : (ops_part10 : List (HloOp τ sig (Elt F))).Forall fun op => op.bufs ⊆ tcRefs τ sig :=
  ⟨binary_bufs_sub .., unary_bufs_sub .., binary_bufs_sub .., binary_bufs_sub .., unary_bufs_sub .., unary_bufs_sub .., unary_bufs_sub .., unary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub .., binary_bufs_sub .., unary_bufs_sub .., binary_bufs_sub .., binary_bufs_sub .., unary_bufs_sub .., unary_bufs_sub .., unary_bufs_sub .., unary_bufs_sub .., nullary_bufs_sub .., unary_bufs_sub .., binary_bufs_sub .., unary_bufs_sub .., unary_bufs_sub .., nullary_bufs_sub .., unary_bufs_sub .., binary_bufs_sub .., unary_bufs_sub .., unary_bufs_sub .., nullary_bufs_sub .., unary_bufs_sub .., binary_bufs_sub .., nullary_bufs_sub .., unary_bufs_sub ..⟩

theorem ops_part10_fresh : (ops_part10 : List (HloOp τ sig (Elt F))).Forall fun op => op.fresh = ∅ := by
  simp only [List.Forall]; repeat' constructor

abbrev ops_part10_W : List (Ref sig .tc) := [main_v478, main_v479, main_v480, main_v481, main_v482, main_v483, main_v484, main_v485, main_c_120, main_v486, main_v487, main_v488, main_v489, main_c_121, main_v490, main_v491, main_c_122, main_v492, main_v493, main_v494, main_c_123, main_call13_v0, main_call13_c, main_call13_v1, main_call13_c_0, main_call13_v2, main_call13_v3, main_call13_v4, main_call13_c_1, main_call13_v5, main_call13_v6, main_call13_c_2, main_call13_v7, main_call13_v8, main_call13_c_3, main_call13_v9, main_call13_v10, main_call13_v11, main_call13_v12, main_call13_v13, main_call13_v14, main_v495, main_v496, main_v497, main_c_124, main_v498, main_v499, main_c_125, main_v500, main_v501, main_v502, main_c_126, main_v503, main_v504, main_v505, main_v506, main_v507, main_v508, main_v509, main_v510, main_v511, main_v512, main_v513, main_v514, main_v515, main_cst_127, main_v516, main_v517, main_v518, main_v519, main_c_128, main_v520, main_v521, main_v522, main_v523, main_c_129, main_v524, main_v525, main_c_130, main_v526]
set_option maxRecDepth 8192 in
theorem ops_part10_writes : (ops_part10 : List (HloOp τ sig (Elt F))).Forall fun op => op.writes ⊆ (ops_part10_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩

/-- A buffer the window does not write keeps its contents through it. -/
theorem ops_part10_keep (V : Valuation τ sig (Elt F)) (r : Ref sig .tc) (h : r ∉ ops_part10_W) :
    after ops_part10 V (Proc.devRef .tc r) = V (Proc.devRef .tc r) :=
  after_of_writes_sub ops_part10 _ ops_part10_writes h

end Cert.ReferenceIdeal.RefRun

end
-- ==== Proof.RefPart11.lean ====
/- Window 11 of the reference's @main is its operation list run in order; its operations touch TensorCore buffers only, determine their results, and write the listed buffers. -/
import proofs.«139053_j36180804501977_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem main_part11_eq (c : Dev nD) : main_part11 (F := F) c = seq ops_part11 := rfl

set_option maxRecDepth 8192 in
theorem ops_part11_sub : (ops_part11 : List (HloOp τ sig (Elt F))).Forall fun op => op.bufs ⊆ tcRefs τ sig :=
  ⟨binary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub .., binary_bufs_sub .., unary_bufs_sub .., binary_bufs_sub .., binary_bufs_sub .., unary_bufs_sub .., unary_bufs_sub .., unary_bufs_sub .., unary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub .., binary_bufs_sub .., unary_bufs_sub .., binary_bufs_sub .., binary_bufs_sub ..⟩

theorem ops_part11_fresh : (ops_part11 : List (HloOp τ sig (Elt F))).Forall fun op => op.fresh = ∅ := by
  simp only [List.Forall]; repeat' constructor

abbrev ops_part11_W : List (Ref sig .tc) := [main_v527, main_v528, main_c_131, main_call14_v0, main_call14_c, main_call14_v1, main_call14_c_0, main_call14_v2, main_call14_v3, main_call14_v4, main_call14_c_1, main_call14_v5, main_call14_v6, main_call14_c_2, main_call14_v7, main_call14_v8, main_call14_c_3, main_call14_v9, main_call14_v10, main_call14_v11, main_call14_v12, main_call14_v13, main_call14_v14, main_v529, main_v530, main_v531, main_c_132, main_v532, main_v533, main_c_133, main_v534, main_v535, main_v536, main_c_134, main_v537, main_v538, main_v539, main_v540, main_v541, main_v542, main_v543, main_v544, main_v545, main_v546, main_v547, main_v548, main_v549, main_c_135, main_v550, main_v551, main_v552, main_v553, main_c_136, main_v554, main_v555, main_c_137, main_v556, main_v557, main_v558, main_c_138, main_call15_v0, main_call15_c, main_call15_v1, main_call15_c_0, main_call15_v2, main_call15_v3, main_call15_v4, main_call15_c_1, main_call15_v5, main_call15_v6, main_call15_c_2, main_call15_v7, main_call15_v8, main_call15_c_3, main_call15_v9, main_call15_v10, main_call15_v11, main_call15_v12, main_call15_v13, main_call15_v14, main_v559, main_v560, main_v561, main_c_139, main_v562, main_v563, main_c_140, main_v564, main_v565, main_v566, main_c_141, main_v567, main_v568, main_v569, main_v570, main_v571, main_v572, main_v573, main_v574, main_v575]
set_option maxRecDepth 8192 in
theorem ops_part11_writes : (ops_part11 : List (HloOp τ sig (Elt F))).Forall fun op => op.writes ⊆ (ops_part11_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩

/-- A buffer the window does not write keeps its contents through it. -/
theorem ops_part11_keep (V : Valuation τ sig (Elt F)) (r : Ref sig .tc) (h : r ∉ ops_part11_W) :
    after ops_part11 V (Proc.devRef .tc r) = V (Proc.devRef .tc r) :=
  after_of_writes_sub ops_part11 _ ops_part11_writes h

end Cert.ReferenceIdeal.RefRun

end
-- ==== Proof.RefPart12.lean ====
/- Window 12 of the reference's @main is its operation list run in order; its operations touch TensorCore buffers only, determine their results, and write the listed buffers. -/
import proofs.«139053_j36180804501977_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem main_part12_eq (c : Dev nD) : main_part12 (F := F) c = seq ops_part12 := rfl

set_option maxRecDepth 8192 in
theorem ops_part12_sub : (ops_part12 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., binary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., unary_bufs_sub .., unary_bufs_sub .., nullary_bufs_sub .., unary_bufs_sub .., binary_bufs_sub .., unary_bufs_sub .., unary_bufs_sub .., nullary_bufs_sub .., unary_bufs_sub .., binary_bufs_sub .., unary_bufs_sub .., unary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub ..⟩

theorem ops_part12_fresh : (ops_part12 : List (HloOp τ sig (Elt F))).Forall fun op => op.fresh = ∅ := by
  simp only [List.Forall]; repeat' constructor

abbrev ops_part12_W : List (Ref sig .tc) := [main_cst_142, main_v576, main_v577, main_cst_143, main_v578, main_v579, main_v580, main_v581, main_v582, main_v583, main_cst_144, main_v584, main_v585, main_cst_145, main_v586, main_v587, main_v588, main_cst_146, main_v589, main_v590, main_v591, main_cst_147, main_v592, main_v593, main_v594, main_v595, main_cst_148, main_v596, main_v597, main_v598, main_v599, main_c_149, main_v600, main_v601, main_v602, main_v603, main_c_150, main_v604, main_v605, main_c_151, main_v606, main_v607, main_v608, main_c_152, main_call16_v0, main_call16_c, main_call16_v1, main_call16_c_0, main_call16_v2, main_call16_v3, main_call16_v4, main_call16_c_1, main_call16_v5, main_call16_v6, main_call16_c_2, main_call16_v7, main_call16_v8, main_call16_c_3, main_call16_v9, main_call16_v10, main_call16_v11, main_call16_v12, main_call16_v13, main_call16_v14, main_v609, main_v610, main_v611, main_c_153, main_v612, main_v613, main_c_154, main_v614, main_v615, main_v616, main_c_155, main_v617, main_v618, main_v619, main_v620, main_v621]
set_option maxRecDepth 8192 in
theorem ops_part12_writes : (ops_part12 : List (HloOp τ sig (Elt F))).Forall fun op => op.writes ⊆ (ops_part12_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩

/-- A buffer the window does not write keeps its contents through it. -/
theorem ops_part12_keep (V : Valuation τ sig (Elt F)) (r : Ref sig .tc) (h : r ∉ ops_part12_W) :
    after ops_part12 V (Proc.devRef .tc r) = V (Proc.devRef .tc r) :=
  after_of_writes_sub ops_part12 _ ops_part12_writes h

end Cert.ReferenceIdeal.RefRun

end
-- ==== Proof.RefPart13.lean ====
/- Window 13 of the reference's @main is its operation list run in order; its operations touch TensorCore buffers only, determine their results, and write the listed buffers. -/
import proofs.«139053_j36180804501977_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem main_part13_eq (c : Dev nD) : main_part13 (F := F) c = seq ops_part13 := rfl

set_option maxRecDepth 8192 in
theorem ops_part13_sub : (ops_part13 : List (HloOp τ sig (Elt F))).Forall fun op => op.bufs ⊆ tcRefs τ sig :=
  ⟨binary_bufs_sub .., unary_bufs_sub .., binary_bufs_sub .., binary_bufs_sub .., unary_bufs_sub .., unary_bufs_sub .., unary_bufs_sub .., unary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub .., binary_bufs_sub .., unary_bufs_sub .., binary_bufs_sub .., binary_bufs_sub .., unary_bufs_sub .., unary_bufs_sub .., unary_bufs_sub .., unary_bufs_sub .., nullary_bufs_sub .., unary_bufs_sub .., binary_bufs_sub .., unary_bufs_sub .., unary_bufs_sub .., nullary_bufs_sub .., unary_bufs_sub .., binary_bufs_sub .., unary_bufs_sub .., unary_bufs_sub .., nullary_bufs_sub .., unary_bufs_sub .., binary_bufs_sub .., nullary_bufs_sub .., unary_bufs_sub ..⟩

theorem ops_part13_fresh : (ops_part13 : List (HloOp τ sig (Elt F))).Forall fun op => op.fresh = ∅ := by
  simp only [List.Forall]; repeat' constructor

abbrev ops_part13_W : List (Ref sig .tc) := [main_v622, main_v623, main_v624, main_v625, main_v626, main_v627, main_v628, main_v629, main_c_156, main_v630, main_v631, main_v632, main_v633, main_c_157, main_v634, main_v635, main_c_158, main_v636, main_v637, main_v638, main_c_159, main_call17_v0, main_call17_c, main_call17_v1, main_call17_c_0, main_call17_v2, main_call17_v3, main_call17_v4, main_call17_c_1, main_call17_v5, main_call17_v6, main_call17_c_2, main_call17_v7, main_call17_v8, main_call17_c_3, main_call17_v9, main_call17_v10, main_call17_v11, main_call17_v12, main_call17_v13, main_call17_v14, main_v639, main_v640, main_v641, main_c_160, main_v642, main_v643, main_c_161, main_v644, main_v645, main_v646, main_c_162, main_v647, main_v648, main_v649, main_v650, main_v651, main_v652, main_v653, main_v654, main_v655, main_v656, main_v657, main_v658, main_v659, main_cst_163, main_v660, main_v661, main_v662, main_v663, main_c_164, main_v664, main_v665, main_v666, main_v667, main_c_165, main_v668, main_v669, main_c_166, main_v670]
set_option maxRecDepth 8192 in
theorem ops_part13_writes : (ops_part13 : List (HloOp τ sig (Elt F))).Forall fun op => op.writes ⊆ (ops_part13_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩

/-- A buffer the window does not write keeps its contents through it. -/
theorem ops_part13_keep (V : Valuation τ sig (Elt F)) (r : Ref sig .tc) (h : r ∉ ops_part13_W) :
    after ops_part13 V (Proc.devRef .tc r) = V (Proc.devRef .tc r) :=
  after_of_writes_sub ops_part13 _ ops_part13_writes h

end Cert.ReferenceIdeal.RefRun

end
-- ==== Proof.RefPart14.lean ====
/- Window 14 of the reference's @main is its operation list run in order; its operations touch TensorCore buffers only, determine their results, and write the listed buffers. -/
import proofs.«139053_j36180804501977_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem main_part14_eq (c : Dev nD) : main_part14 (F := F) c = seq ops_part14 := rfl

set_option maxRecDepth 8192 in
theorem ops_part14_sub : (ops_part14 : List (HloOp τ sig (Elt F))).Forall fun op => op.bufs ⊆ tcRefs τ sig :=
  ⟨binary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub .., binary_bufs_sub .., unary_bufs_sub .., binary_bufs_sub .., binary_bufs_sub .., unary_bufs_sub .., unary_bufs_sub .., unary_bufs_sub .., unary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub .., binary_bufs_sub .., unary_bufs_sub .., binary_bufs_sub .., binary_bufs_sub ..⟩

theorem ops_part14_fresh : (ops_part14 : List (HloOp τ sig (Elt F))).Forall fun op => op.fresh = ∅ := by
  simp only [List.Forall]; repeat' constructor

abbrev ops_part14_W : List (Ref sig .tc) := [main_v671, main_v672, main_c_167, main_call18_v0, main_call18_c, main_call18_v1, main_call18_c_0, main_call18_v2, main_call18_v3, main_call18_v4, main_call18_c_1, main_call18_v5, main_call18_v6, main_call18_c_2, main_call18_v7, main_call18_v8, main_call18_c_3, main_call18_v9, main_call18_v10, main_call18_v11, main_call18_v12, main_call18_v13, main_call18_v14, main_v673, main_v674, main_v675, main_c_168, main_v676, main_v677, main_c_169, main_v678, main_v679, main_v680, main_c_170, main_v681, main_v682, main_v683, main_v684, main_v685, main_v686, main_v687, main_v688, main_v689, main_v690, main_v691, main_v692, main_v693, main_c_171, main_v694, main_v695, main_v696, main_v697, main_c_172, main_v698, main_v699, main_c_173, main_v700, main_v701, main_v702, main_c_174, main_call19_v0, main_call19_c, main_call19_v1, main_call19_c_0, main_call19_v2, main_call19_v3, main_call19_v4, main_call19_c_1, main_call19_v5, main_call19_v6, main_call19_c_2, main_call19_v7, main_call19_v8, main_call19_c_3, main_call19_v9, main_call19_v10, main_call19_v11, main_call19_v12, main_call19_v13, main_call19_v14, main_v703, main_v704, main_v705, main_c_175, main_v706, main_v707, main_c_176, main_v708, main_v709, main_v710, main_c_177, main_v711, main_v712, main_v713, main_v714, main_v715, main_v716, main_v717, main_v718, main_v719]
set_option maxRecDepth 8192 in
theorem ops_part14_writes : (ops_part14 : List (HloOp τ sig (Elt F))).Forall fun op => op.writes ⊆ (ops_part14_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩

/-- A buffer the window does not write keeps its contents through it. -/
theorem ops_part14_keep (V : Valuation τ sig (Elt F)) (r : Ref sig .tc) (h : r ∉ ops_part14_W) :
    after ops_part14 V (Proc.devRef .tc r) = V (Proc.devRef .tc r) :=
  after_of_writes_sub ops_part14 _ ops_part14_writes h

end Cert.ReferenceIdeal.RefRun

end
-- ==== Proof.RefPart15.lean ====
/- Window 15 of the reference's @main is its operation list run in order; its operations touch TensorCore buffers only, determine their results, and write the listed buffers. -/
import proofs.«139053_j36180804501977_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem main_part15_eq (c : Dev nD) : main_part15 (F := F) c = seq ops_part15 := rfl

set_option maxRecDepth 8192 in
theorem ops_part15_sub : (ops_part15 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., binary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., unary_bufs_sub .., unary_bufs_sub .., nullary_bufs_sub .., unary_bufs_sub .., binary_bufs_sub .., unary_bufs_sub .., unary_bufs_sub .., nullary_bufs_sub .., unary_bufs_sub .., binary_bufs_sub .., unary_bufs_sub .., unary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub ..⟩

theorem ops_part15_fresh : (ops_part15 : List (HloOp τ sig (Elt F))).Forall fun op => op.fresh = ∅ := by
  simp only [List.Forall]; repeat' constructor

abbrev ops_part15_W : List (Ref sig .tc) := [main_cst_178, main_v720, main_v721, main_cst_179, main_v722, main_v723, main_v724, main_v725, main_v726, main_v727, main_cst_180, main_v728, main_v729, main_cst_181, main_v730, main_v731, main_v732, main_cst_182, main_v733, main_v734, main_v735, main_cst_183, main_v736, main_v737, main_v738, main_v739, main_cst_184, main_v740, main_v741, main_v742, main_v743, main_c_185, main_v744, main_v745, main_v746, main_v747, main_c_186, main_v748, main_v749, main_c_187, main_v750, main_v751, main_v752, main_c_188, main_call20_v0, main_call20_c, main_call20_v1, main_call20_c_0, main_call20_v2, main_call20_v3, main_call20_v4, main_call20_c_1, main_call20_v5, main_call20_v6, main_call20_c_2, main_call20_v7, main_call20_v8, main_call20_c_3, main_call20_v9, main_call20_v10, main_call20_v11, main_call20_v12, main_call20_v13, main_call20_v14, main_v753, main_v754, main_v755, main_c_189, main_v756, main_v757, main_c_190, main_v758, main_v759, main_v760, main_c_191, main_v761, main_v762, main_v763, main_v764, main_v765]
set_option maxRecDepth 8192 in
theorem ops_part15_writes : (ops_part15 : List (HloOp τ sig (Elt F))).Forall fun op => op.writes ⊆ (ops_part15_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩

/-- A buffer the window does not write keeps its contents through it. -/
theorem ops_part15_keep (V : Valuation τ sig (Elt F)) (r : Ref sig .tc) (h : r ∉ ops_part15_W) :
    after ops_part15 V (Proc.devRef .tc r) = V (Proc.devRef .tc r) :=
  after_of_writes_sub ops_part15 _ ops_part15_writes h

end Cert.ReferenceIdeal.RefRun

end
-- ==== Proof.RefPart16.lean ====
/- Window 16 of the reference's @main is its operation list run in order; its operations touch TensorCore buffers only, determine their results, and write the listed buffers. -/
import proofs.«139053_j36180804501977_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem main_part16_eq (c : Dev nD) : main_part16 (F := F) c = seq ops_part16 := rfl

set_option maxRecDepth 8192 in
theorem ops_part16_sub : (ops_part16 : List (HloOp τ sig (Elt F))).Forall fun op => op.bufs ⊆ tcRefs τ sig :=
  ⟨binary_bufs_sub .., unary_bufs_sub .., binary_bufs_sub .., binary_bufs_sub .., unary_bufs_sub .., unary_bufs_sub .., unary_bufs_sub .., unary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub .., binary_bufs_sub .., unary_bufs_sub .., binary_bufs_sub .., binary_bufs_sub .., unary_bufs_sub .., unary_bufs_sub .., unary_bufs_sub .., unary_bufs_sub .., nullary_bufs_sub .., unary_bufs_sub .., binary_bufs_sub .., unary_bufs_sub .., unary_bufs_sub .., nullary_bufs_sub .., unary_bufs_sub .., binary_bufs_sub .., unary_bufs_sub .., unary_bufs_sub .., nullary_bufs_sub .., unary_bufs_sub .., binary_bufs_sub .., nullary_bufs_sub .., unary_bufs_sub ..⟩

theorem ops_part16_fresh : (ops_part16 : List (HloOp τ sig (Elt F))).Forall fun op => op.fresh = ∅ := by
  simp only [List.Forall]; repeat' constructor

abbrev ops_part16_W : List (Ref sig .tc) := [main_v766, main_v767, main_v768, main_v769, main_v770, main_v771, main_v772, main_v773, main_c_192, main_v774, main_v775, main_v776, main_v777, main_c_193, main_v778, main_v779, main_c_194, main_v780, main_v781, main_v782, main_c_195, main_call21_v0, main_call21_c, main_call21_v1, main_call21_c_0, main_call21_v2, main_call21_v3, main_call21_v4, main_call21_c_1, main_call21_v5, main_call21_v6, main_call21_c_2, main_call21_v7, main_call21_v8, main_call21_c_3, main_call21_v9, main_call21_v10, main_call21_v11, main_call21_v12, main_call21_v13, main_call21_v14, main_v783, main_v784, main_v785, main_c_196, main_v786, main_v787, main_c_197, main_v788, main_v789, main_v790, main_c_198, main_v791, main_v792, main_v793, main_v794, main_v795, main_v796, main_v797, main_v798, main_v799, main_v800, main_v801, main_v802, main_v803, main_cst_199, main_v804, main_v805, main_v806, main_v807, main_c_200, main_v808, main_v809, main_v810, main_v811, main_c_201, main_v812, main_v813, main_c_202, main_v814]
set_option maxRecDepth 8192 in
theorem ops_part16_writes : (ops_part16 : List (HloOp τ sig (Elt F))).Forall fun op => op.writes ⊆ (ops_part16_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩

/-- A buffer the window does not write keeps its contents through it. -/
theorem ops_part16_keep (V : Valuation τ sig (Elt F)) (r : Ref sig .tc) (h : r ∉ ops_part16_W) :
    after ops_part16 V (Proc.devRef .tc r) = V (Proc.devRef .tc r) :=
  after_of_writes_sub ops_part16 _ ops_part16_writes h

end Cert.ReferenceIdeal.RefRun

end
-- ==== Proof.RefPart17.lean ====
/- Window 17 of the reference's @main is its operation list run in order; its operations touch TensorCore buffers only, determine their results, and write the listed buffers. -/
import proofs.«139053_j36180804501977_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem main_part17_eq (c : Dev nD) : main_part17 (F := F) c = seq ops_part17 := rfl

set_option maxRecDepth 8192 in
theorem ops_part17_sub : (ops_part17 : List (HloOp τ sig (Elt F))).Forall fun op => op.bufs ⊆ tcRefs τ sig :=
  ⟨binary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub .., binary_bufs_sub .., unary_bufs_sub .., binary_bufs_sub .., binary_bufs_sub .., unary_bufs_sub .., unary_bufs_sub .., unary_bufs_sub .., unary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub .., binary_bufs_sub .., unary_bufs_sub .., binary_bufs_sub .., binary_bufs_sub ..⟩

theorem ops_part17_fresh : (ops_part17 : List (HloOp τ sig (Elt F))).Forall fun op => op.fresh = ∅ := by
  simp only [List.Forall]; repeat' constructor

abbrev ops_part17_W : List (Ref sig .tc) := [main_v815, main_v816, main_c_203, main_call22_v0, main_call22_c, main_call22_v1, main_call22_c_0, main_call22_v2, main_call22_v3, main_call22_v4, main_call22_c_1, main_call22_v5, main_call22_v6, main_call22_c_2, main_call22_v7, main_call22_v8, main_call22_c_3, main_call22_v9, main_call22_v10, main_call22_v11, main_call22_v12, main_call22_v13, main_call22_v14, main_v817, main_v818, main_v819, main_c_204, main_v820, main_v821, main_c_205, main_v822, main_v823, main_v824, main_c_206, main_v825, main_v826, main_v827, main_v828, main_v829, main_v830, main_v831, main_v832, main_v833, main_v834, main_v835, main_v836, main_v837, main_c_207, main_v838, main_v839, main_v840, main_v841, main_c_208, main_v842, main_v843, main_c_209, main_v844, main_v845, main_v846, main_c_210, main_call23_v0, main_call23_c, main_call23_v1, main_call23_c_0, main_call23_v2, main_call23_v3, main_call23_v4, main_call23_c_1, main_call23_v5, main_call23_v6, main_call23_c_2, main_call23_v7, main_call23_v8, main_call23_c_3, main_call23_v9, main_call23_v10, main_call23_v11, main_call23_v12, main_call23_v13, main_call23_v14, main_v847, main_v848, main_v849, main_c_211, main_v850, main_v851, main_c_212, main_v852, main_v853, main_v854, main_c_213, main_v855, main_v856, main_v857, main_v858, main_v859, main_v860, main_v861, main_v862, main_v863]
set_option maxRecDepth 8192 in
theorem ops_part17_writes : (ops_part17 : List (HloOp τ sig (Elt F))).Forall fun op => op.writes ⊆ (ops_part17_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩

/-- A buffer the window does not write keeps its contents through it. -/
theorem ops_part17_keep (V : Valuation τ sig (Elt F)) (r : Ref sig .tc) (h : r ∉ ops_part17_W) :
    after ops_part17 V (Proc.devRef .tc r) = V (Proc.devRef .tc r) :=
  after_of_writes_sub ops_part17 _ ops_part17_writes h

end Cert.ReferenceIdeal.RefRun

end
-- ==== Proof.RefPart18.lean ====
/- Window 18 of the reference's @main is its operation list run in order; its operations touch TensorCore buffers only, determine their results, and write the listed buffers. -/
import proofs.«139053_j36180804501977_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem main_part18_eq (c : Dev nD) : main_part18 (F := F) c = seq ops_part18 := rfl

set_option maxRecDepth 8192 in
theorem ops_part18_sub : (ops_part18 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., binary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., unary_bufs_sub .., unary_bufs_sub .., nullary_bufs_sub .., unary_bufs_sub .., binary_bufs_sub .., unary_bufs_sub .., unary_bufs_sub .., nullary_bufs_sub .., unary_bufs_sub .., binary_bufs_sub .., unary_bufs_sub .., unary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub ..⟩

theorem ops_part18_fresh : (ops_part18 : List (HloOp τ sig (Elt F))).Forall fun op => op.fresh = ∅ := by
  simp only [List.Forall]; repeat' constructor

abbrev ops_part18_W : List (Ref sig .tc) := [main_cst_214, main_v864, main_v865, main_cst_215, main_v866, main_v867, main_v868, main_v869, main_v870, main_v871, main_cst_216, main_v872, main_v873, main_cst_217, main_v874, main_v875, main_v876, main_cst_218, main_v877, main_v878, main_v879, main_cst_219, main_v880, main_v881, main_v882, main_v883, main_cst_220, main_v884, main_v885, main_v886, main_v887, main_c_221, main_v888, main_v889, main_v890, main_v891, main_c_222, main_v892, main_v893, main_c_223, main_v894, main_v895, main_v896, main_c_224, main_call24_v0, main_call24_c, main_call24_v1, main_call24_c_0, main_call24_v2, main_call24_v3, main_call24_v4, main_call24_c_1, main_call24_v5, main_call24_v6, main_call24_c_2, main_call24_v7, main_call24_v8, main_call24_c_3, main_call24_v9, main_call24_v10, main_call24_v11, main_call24_v12, main_call24_v13, main_call24_v14, main_v897, main_v898, main_v899, main_c_225, main_v900, main_v901, main_c_226, main_v902, main_v903, main_v904, main_c_227, main_v905, main_v906, main_v907, main_v908, main_v909]
set_option maxRecDepth 8192 in
theorem ops_part18_writes : (ops_part18 : List (HloOp τ sig (Elt F))).Forall fun op => op.writes ⊆ (ops_part18_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩

/-- A buffer the window does not write keeps its contents through it. -/
theorem ops_part18_keep (V : Valuation τ sig (Elt F)) (r : Ref sig .tc) (h : r ∉ ops_part18_W) :
    after ops_part18 V (Proc.devRef .tc r) = V (Proc.devRef .tc r) :=
  after_of_writes_sub ops_part18 _ ops_part18_writes h

end Cert.ReferenceIdeal.RefRun

end
-- ==== Proof.RefPart19.lean ====
/- Window 19 of the reference's @main is its operation list run in order; its operations touch TensorCore buffers only, determine their results, and write the listed buffers. -/
import proofs.«139053_j36180804501977_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem main_part19_eq (c : Dev nD) : main_part19 (F := F) c = seq ops_part19 := rfl

set_option maxRecDepth 8192 in
theorem ops_part19_sub : (ops_part19 : List (HloOp τ sig (Elt F))).Forall fun op => op.bufs ⊆ tcRefs τ sig :=
  ⟨binary_bufs_sub .., unary_bufs_sub .., binary_bufs_sub .., binary_bufs_sub .., unary_bufs_sub .., unary_bufs_sub .., unary_bufs_sub .., unary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub .., binary_bufs_sub .., unary_bufs_sub .., binary_bufs_sub .., binary_bufs_sub .., unary_bufs_sub .., unary_bufs_sub .., unary_bufs_sub .., unary_bufs_sub .., nullary_bufs_sub .., unary_bufs_sub .., binary_bufs_sub .., unary_bufs_sub .., unary_bufs_sub .., nullary_bufs_sub .., unary_bufs_sub .., binary_bufs_sub .., unary_bufs_sub .., unary_bufs_sub .., nullary_bufs_sub .., unary_bufs_sub .., binary_bufs_sub .., nullary_bufs_sub .., unary_bufs_sub ..⟩

theorem ops_part19_fresh : (ops_part19 : List (HloOp τ sig (Elt F))).Forall fun op => op.fresh = ∅ := by
  simp only [List.Forall]; repeat' constructor

abbrev ops_part19_W : List (Ref sig .tc) := [main_v910, main_v911, main_v912, main_v913, main_v914, main_v915, main_v916, main_v917, main_c_228, main_v918, main_v919, main_v920, main_v921, main_c_229, main_v922, main_v923, main_c_230, main_v924, main_v925, main_v926, main_c_231, main_call25_v0, main_call25_c, main_call25_v1, main_call25_c_0, main_call25_v2, main_call25_v3, main_call25_v4, main_call25_c_1, main_call25_v5, main_call25_v6, main_call25_c_2, main_call25_v7, main_call25_v8, main_call25_c_3, main_call25_v9, main_call25_v10, main_call25_v11, main_call25_v12, main_call25_v13, main_call25_v14, main_v927, main_v928, main_v929, main_c_232, main_v930, main_v931, main_c_233, main_v932, main_v933, main_v934, main_c_234, main_v935, main_v936, main_v937, main_v938, main_v939, main_v940, main_v941, main_v942, main_v943, main_v944, main_v945, main_v946, main_v947, main_cst_235, main_v948, main_v949, main_v950, main_v951, main_c_236, main_v952, main_v953, main_v954, main_v955, main_c_237, main_v956, main_v957, main_c_238, main_v958]
set_option maxRecDepth 8192 in
theorem ops_part19_writes : (ops_part19 : List (HloOp τ sig (Elt F))).Forall fun op => op.writes ⊆ (ops_part19_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩

/-- A buffer the window does not write keeps its contents through it. -/
theorem ops_part19_keep (V : Valuation τ sig (Elt F)) (r : Ref sig .tc) (h : r ∉ ops_part19_W) :
    after ops_part19 V (Proc.devRef .tc r) = V (Proc.devRef .tc r) :=
  after_of_writes_sub ops_part19 _ ops_part19_writes h

end Cert.ReferenceIdeal.RefRun

end
-- ==== Proof.RefPart20.lean ====
/- Window 20 of the reference's @main is its operation list run in order; its operations touch TensorCore buffers only, determine their results, and write the listed buffers. -/
import proofs.«139053_j36180804501977_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem main_part20_eq (c : Dev nD) : main_part20 (F := F) c = seq ops_part20 := rfl

set_option maxRecDepth 8192 in
theorem ops_part20_sub : (ops_part20 : List (HloOp τ sig (Elt F))).Forall fun op => op.bufs ⊆ tcRefs τ sig :=
  ⟨binary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub .., binary_bufs_sub .., unary_bufs_sub .., binary_bufs_sub .., binary_bufs_sub .., unary_bufs_sub .., unary_bufs_sub .., unary_bufs_sub .., unary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub .., binary_bufs_sub .., unary_bufs_sub .., binary_bufs_sub .., binary_bufs_sub ..⟩

theorem ops_part20_fresh : (ops_part20 : List (HloOp τ sig (Elt F))).Forall fun op => op.fresh = ∅ := by
  simp only [List.Forall]; repeat' constructor

abbrev ops_part20_W : List (Ref sig .tc) := [main_v959, main_v960, main_c_239, main_call26_v0, main_call26_c, main_call26_v1, main_call26_c_0, main_call26_v2, main_call26_v3, main_call26_v4, main_call26_c_1, main_call26_v5, main_call26_v6, main_call26_c_2, main_call26_v7, main_call26_v8, main_call26_c_3, main_call26_v9, main_call26_v10, main_call26_v11, main_call26_v12, main_call26_v13, main_call26_v14, main_v961, main_v962, main_v963, main_c_240, main_v964, main_v965, main_c_241, main_v966, main_v967, main_v968, main_c_242, main_v969, main_v970, main_v971, main_v972, main_v973, main_v974, main_v975, main_v976, main_v977, main_v978, main_v979, main_v980, main_v981, main_c_243, main_v982, main_v983, main_v984, main_v985, main_c_244, main_v986, main_v987, main_c_245, main_v988, main_v989, main_v990, main_c_246, main_call27_v0, main_call27_c, main_call27_v1, main_call27_c_0, main_call27_v2, main_call27_v3, main_call27_v4, main_call27_c_1, main_call27_v5, main_call27_v6, main_call27_c_2, main_call27_v7, main_call27_v8, main_call27_c_3, main_call27_v9, main_call27_v10, main_call27_v11, main_call27_v12, main_call27_v13, main_call27_v14, main_v991, main_v992, main_v993, main_c_247, main_v994, main_v995, main_c_248, main_v996, main_v997, main_v998, main_c_249, main_v999, main_v1000, main_v1001, main_v1002, main_v1003, main_v1004, main_v1005, main_v1006, main_v1007]
set_option maxRecDepth 8192 in
theorem ops_part20_writes : (ops_part20 : List (HloOp τ sig (Elt F))).Forall fun op => op.writes ⊆ (ops_part20_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩

/-- A buffer the window does not write keeps its contents through it. -/
theorem ops_part20_keep (V : Valuation τ sig (Elt F)) (r : Ref sig .tc) (h : r ∉ ops_part20_W) :
    after ops_part20 V (Proc.devRef .tc r) = V (Proc.devRef .tc r) :=
  after_of_writes_sub ops_part20 _ ops_part20_writes h

end Cert.ReferenceIdeal.RefRun

end
-- ==== Proof.RefPart21.lean ====
/- Window 21 of the reference's @main is its operation list run in order; its operations touch TensorCore buffers only, determine their results, and write the listed buffers. -/
import proofs.«139053_j36180804501977_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem main_part21_eq (c : Dev nD) : main_part21 (F := F) c = seq ops_part21 := rfl

set_option maxRecDepth 8192 in
theorem ops_part21_sub : (ops_part21 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., binary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., unary_bufs_sub .., unary_bufs_sub .., nullary_bufs_sub .., unary_bufs_sub .., binary_bufs_sub .., unary_bufs_sub .., unary_bufs_sub .., nullary_bufs_sub .., unary_bufs_sub .., binary_bufs_sub .., unary_bufs_sub .., unary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub ..⟩

theorem ops_part21_fresh : (ops_part21 : List (HloOp τ sig (Elt F))).Forall fun op => op.fresh = ∅ := by
  simp only [List.Forall]; repeat' constructor

abbrev ops_part21_W : List (Ref sig .tc) := [main_cst_250, main_v1008, main_v1009, main_cst_251, main_v1010, main_v1011, main_v1012, main_v1013, main_v1014, main_v1015, main_cst_252, main_v1016, main_v1017, main_cst_253, main_v1018, main_v1019, main_v1020, main_cst_254, main_v1021, main_v1022, main_v1023, main_cst_255, main_v1024, main_v1025, main_v1026, main_v1027, main_cst_256, main_v1028, main_v1029, main_v1030, main_v1031, main_c_257, main_v1032, main_v1033, main_v1034, main_v1035, main_c_258, main_v1036, main_v1037, main_c_259, main_v1038, main_v1039, main_v1040, main_c_260, main_call28_v0, main_call28_c, main_call28_v1, main_call28_c_0, main_call28_v2, main_call28_v3, main_call28_v4, main_call28_c_1, main_call28_v5, main_call28_v6, main_call28_c_2, main_call28_v7, main_call28_v8, main_call28_c_3, main_call28_v9, main_call28_v10, main_call28_v11, main_call28_v12, main_call28_v13, main_call28_v14, main_v1041, main_v1042, main_v1043, main_c_261, main_v1044, main_v1045, main_c_262, main_v1046, main_v1047, main_v1048, main_c_263, main_v1049, main_v1050, main_v1051, main_v1052, main_v1053]
set_option maxRecDepth 8192 in
theorem ops_part21_writes : (ops_part21 : List (HloOp τ sig (Elt F))).Forall fun op => op.writes ⊆ (ops_part21_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩

/-- A buffer the window does not write keeps its contents through it. -/
theorem ops_part21_keep (V : Valuation τ sig (Elt F)) (r : Ref sig .tc) (h : r ∉ ops_part21_W) :
    after ops_part21 V (Proc.devRef .tc r) = V (Proc.devRef .tc r) :=
  after_of_writes_sub ops_part21 _ ops_part21_writes h

end Cert.ReferenceIdeal.RefRun

end
-- ==== Proof.RefPart22.lean ====
/- Window 22 of the reference's @main is its operation list run in order; its operations touch TensorCore buffers only, determine their results, and write the listed buffers. -/
import proofs.«139053_j36180804501977_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem main_part22_eq (c : Dev nD) : main_part22 (F := F) c = seq ops_part22 := rfl

set_option maxRecDepth 8192 in
theorem ops_part22_sub : (ops_part22 : List (HloOp τ sig (Elt F))).Forall fun op => op.bufs ⊆ tcRefs τ sig :=
  ⟨binary_bufs_sub .., unary_bufs_sub .., binary_bufs_sub .., binary_bufs_sub .., unary_bufs_sub .., unary_bufs_sub .., unary_bufs_sub .., unary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub .., binary_bufs_sub .., unary_bufs_sub .., binary_bufs_sub .., binary_bufs_sub .., unary_bufs_sub .., unary_bufs_sub .., unary_bufs_sub .., unary_bufs_sub .., nullary_bufs_sub .., unary_bufs_sub .., binary_bufs_sub .., unary_bufs_sub .., unary_bufs_sub .., nullary_bufs_sub .., unary_bufs_sub .., binary_bufs_sub .., unary_bufs_sub .., unary_bufs_sub .., nullary_bufs_sub .., unary_bufs_sub .., binary_bufs_sub .., nullary_bufs_sub .., unary_bufs_sub ..⟩

theorem ops_part22_fresh : (ops_part22 : List (HloOp τ sig (Elt F))).Forall fun op => op.fresh = ∅ := by
  simp only [List.Forall]; repeat' constructor

abbrev ops_part22_W : List (Ref sig .tc) := [main_v1054, main_v1055, main_v1056, main_v1057, main_v1058, main_v1059, main_v1060, main_v1061, main_c_264, main_v1062, main_v1063, main_v1064, main_v1065, main_c_265, main_v1066, main_v1067, main_c_266, main_v1068, main_v1069, main_v1070, main_c_267, main_call29_v0, main_call29_c, main_call29_v1, main_call29_c_0, main_call29_v2, main_call29_v3, main_call29_v4, main_call29_c_1, main_call29_v5, main_call29_v6, main_call29_c_2, main_call29_v7, main_call29_v8, main_call29_c_3, main_call29_v9, main_call29_v10, main_call29_v11, main_call29_v12, main_call29_v13, main_call29_v14, main_v1071, main_v1072, main_v1073, main_c_268, main_v1074, main_v1075, main_c_269, main_v1076, main_v1077, main_v1078, main_c_270, main_v1079, main_v1080, main_v1081, main_v1082, main_v1083, main_v1084, main_v1085, main_v1086, main_v1087, main_v1088, main_v1089, main_v1090, main_v1091, main_cst_271, main_v1092, main_v1093, main_v1094, main_v1095, main_c_272, main_v1096, main_v1097, main_v1098, main_v1099, main_c_273, main_v1100, main_v1101, main_c_274, main_v1102]
set_option maxRecDepth 8192 in
theorem ops_part22_writes : (ops_part22 : List (HloOp τ sig (Elt F))).Forall fun op => op.writes ⊆ (ops_part22_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩

/-- A buffer the window does not write keeps its contents through it. -/
theorem ops_part22_keep (V : Valuation τ sig (Elt F)) (r : Ref sig .tc) (h : r ∉ ops_part22_W) :
    after ops_part22 V (Proc.devRef .tc r) = V (Proc.devRef .tc r) :=
  after_of_writes_sub ops_part22 _ ops_part22_writes h

end Cert.ReferenceIdeal.RefRun

end
-- ==== Proof.RefPart23.lean ====
/- Window 23 of the reference's @main is its operation list run in order; its operations touch TensorCore buffers only, determine their results, and write the listed buffers. -/
import proofs.«139053_j36180804501977_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem main_part23_eq (c : Dev nD) : main_part23 (F := F) c = seq ops_part23 := rfl

set_option maxRecDepth 8192 in
theorem ops_part23_sub : (ops_part23 : List (HloOp τ sig (Elt F))).Forall fun op => op.bufs ⊆ tcRefs τ sig :=
  ⟨binary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub .., binary_bufs_sub .., unary_bufs_sub .., binary_bufs_sub .., binary_bufs_sub .., unary_bufs_sub .., unary_bufs_sub .., unary_bufs_sub .., unary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub .., binary_bufs_sub .., unary_bufs_sub .., binary_bufs_sub .., binary_bufs_sub ..⟩

theorem ops_part23_fresh : (ops_part23 : List (HloOp τ sig (Elt F))).Forall fun op => op.fresh = ∅ := by
  simp only [List.Forall]; repeat' constructor

abbrev ops_part23_W : List (Ref sig .tc) := [main_v1103, main_v1104, main_c_275, main_call30_v0, main_call30_c, main_call30_v1, main_call30_c_0, main_call30_v2, main_call30_v3, main_call30_v4, main_call30_c_1, main_call30_v5, main_call30_v6, main_call30_c_2, main_call30_v7, main_call30_v8, main_call30_c_3, main_call30_v9, main_call30_v10, main_call30_v11, main_call30_v12, main_call30_v13, main_call30_v14, main_v1105, main_v1106, main_v1107, main_c_276, main_v1108, main_v1109, main_c_277, main_v1110, main_v1111, main_v1112, main_c_278, main_v1113, main_v1114, main_v1115, main_v1116, main_v1117, main_v1118, main_v1119, main_v1120, main_v1121, main_v1122, main_v1123, main_v1124, main_v1125, main_c_279, main_v1126, main_v1127, main_v1128, main_v1129, main_c_280, main_v1130, main_v1131, main_c_281, main_v1132, main_v1133, main_v1134, main_c_282, main_call31_v0, main_call31_c, main_call31_v1, main_call31_c_0, main_call31_v2, main_call31_v3, main_call31_v4, main_call31_c_1, main_call31_v5, main_call31_v6, main_call31_c_2, main_call31_v7, main_call31_v8, main_call31_c_3, main_call31_v9, main_call31_v10, main_call31_v11, main_call31_v12, main_call31_v13, main_call31_v14, main_v1135, main_v1136, main_v1137, main_c_283, main_v1138, main_v1139, main_c_284, main_v1140, main_v1141, main_v1142, main_c_285, main_v1143, main_v1144, main_v1145, main_v1146, main_v1147, main_v1148, main_v1149, main_v1150, main_v1151]
set_option maxRecDepth 8192 in
theorem ops_part23_writes : (ops_part23 : List (HloOp τ sig (Elt F))).Forall fun op => op.writes ⊆ (ops_part23_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩

/-- A buffer the window does not write keeps its contents through it. -/
theorem ops_part23_keep (V : Valuation τ sig (Elt F)) (r : Ref sig .tc) (h : r ∉ ops_part23_W) :
    after ops_part23 V (Proc.devRef .tc r) = V (Proc.devRef .tc r) :=
  after_of_writes_sub ops_part23 _ ops_part23_writes h

end Cert.ReferenceIdeal.RefRun

end
-- ==== Proof.RefPart24.lean ====
/- Window 24 of the reference's @main is its operation list run in order; its operations touch TensorCore buffers only, determine their results, and write the listed buffers. -/
import proofs.«139053_j36180804501977_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem main_part24_eq (c : Dev nD) : main_part24 (F := F) c = seq ops_part24 := rfl

set_option maxRecDepth 8192 in
theorem ops_part24_sub : (ops_part24 : List (HloOp τ sig (Elt F))).Forall fun op => op.bufs ⊆ tcRefs τ sig :=
  ⟨nary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub ..⟩

theorem ops_part24_fresh : (ops_part24 : List (HloOp τ sig (Elt F))).Forall fun op => op.fresh = ∅ := by
  simp only [List.Forall]; repeat' constructor

abbrev ops_part24_W : List (Ref sig .tc) := [main_v1152, main_v1153, main_call32_cst, main_call32_v0, main_v1154, main_v1155, main_call33_cst, main_call33_v0, main_v1156, main_v1157, main_call34_cst, main_call34_v0, main_v1158, main_v1159]
set_option maxRecDepth 8192 in
theorem ops_part24_writes : (ops_part24 : List (HloOp τ sig (Elt F))).Forall fun op => op.writes ⊆ (ops_part24_W.map (Proc.devRef (τ := τ) .tc)).toFinset := by
  simp only [List.Forall]; exact ⟨by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide), by simp only [nullary_writes, unary_writes, binary_writes, ternary_writes, quaternary_writes, reshape_writes, nary_writes, Finset.singleton_subset_iff, List.mem_toFinset]; exact List.mem_map_of_mem (by decide)⟩

/-- A buffer the window does not write keeps its contents through it. -/
theorem ops_part24_keep (V : Valuation τ sig (Elt F)) (r : Ref sig .tc) (h : r ∉ ops_part24_W) :
    after ops_part24 V (Proc.devRef .tc r) = V (Proc.devRef .tc r) :=
  after_of_writes_sub ops_part24 _ ops_part24_writes h

end Cert.ReferenceIdeal.RefRun

end
-- ==== Proof.RefRun.lean ====
/- The reference's @main is its windows' operation lists run in order, and every weakly fair execution ends with each buffer at the fold of the operations over the launch contents. -/
import proofs.«139053_j36180804501977_2_alg».proof.Proof.RefPart0
import proofs.«139053_j36180804501977_2_alg».proof.Proof.RefPart1
import proofs.«139053_j36180804501977_2_alg».proof.Proof.RefPart2
import proofs.«139053_j36180804501977_2_alg».proof.Proof.RefPart3
import proofs.«139053_j36180804501977_2_alg».proof.Proof.RefPart4
import proofs.«139053_j36180804501977_2_alg».proof.Proof.RefPart5
import proofs.«139053_j36180804501977_2_alg».proof.Proof.RefPart6
import proofs.«139053_j36180804501977_2_alg».proof.Proof.RefPart7
import proofs.«139053_j36180804501977_2_alg».proof.Proof.RefPart8
import proofs.«139053_j36180804501977_2_alg».proof.Proof.RefPart9
import proofs.«139053_j36180804501977_2_alg».proof.Proof.RefPart10
import proofs.«139053_j36180804501977_2_alg».proof.Proof.RefPart11
import proofs.«139053_j36180804501977_2_alg».proof.Proof.RefPart12
import proofs.«139053_j36180804501977_2_alg».proof.Proof.RefPart13
import proofs.«139053_j36180804501977_2_alg».proof.Proof.RefPart14
import proofs.«139053_j36180804501977_2_alg».proof.Proof.RefPart15
import proofs.«139053_j36180804501977_2_alg».proof.Proof.RefPart16
import proofs.«139053_j36180804501977_2_alg».proof.Proof.RefPart17
import proofs.«139053_j36180804501977_2_alg».proof.Proof.RefPart18
import proofs.«139053_j36180804501977_2_alg».proof.Proof.RefPart19
import proofs.«139053_j36180804501977_2_alg».proof.Proof.RefPart20
import proofs.«139053_j36180804501977_2_alg».proof.Proof.RefPart21
import proofs.«139053_j36180804501977_2_alg».proof.Proof.RefPart22
import proofs.«139053_j36180804501977_2_alg».proof.Proof.RefPart23
import proofs.«139053_j36180804501977_2_alg».proof.Proof.RefPart24

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) :=
  ops_part0 ++ (ops_part1 ++ (ops_part2 ++ (ops_part3 ++ (ops_part4 ++ (ops_part5 ++ (ops_part6 ++ (ops_part7 ++ (ops_part8 ++ (ops_part9 ++ (ops_part10 ++ (ops_part11 ++ (ops_part12 ++ (ops_part13 ++ (ops_part14 ++ (ops_part15 ++ (ops_part16 ++ (ops_part17 ++ (ops_part18 ++ (ops_part19 ++ (ops_part20 ++ (ops_part21 ++ (ops_part22 ++ (ops_part23 ++ (ops_part24))))))))))))))))))))))))

set_option maxRecDepth 8192 in
theorem main_eq (c : Dev nD) : main (F := F) c = seq ops := by
  simp only [ops, seq_append, ← main_part0_eq c, ← main_part1_eq c, ← main_part2_eq c, ← main_part3_eq c, ← main_part4_eq c, ← main_part5_eq c, ← main_part6_eq c, ← main_part7_eq c, ← main_part8_eq c, ← main_part9_eq c, ← main_part10_eq c, ← main_part11_eq c, ← main_part12_eq c, ← main_part13_eq c, ← main_part14_eq c, ← main_part15_eq c, ← main_part16_eq c, ← main_part17_eq c, ← main_part18_eq c, ← main_part19_eq c, ← main_part20_eq c, ← main_part21_eq c, ← main_part22_eq c, ← main_part23_eq c, ← main_part24_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h | h | h | h | h | h | h | h | h | h | h | h | h | h | h
    exacts [List.forall_iff_forall_mem.mp ops_part0_sub op h, List.forall_iff_forall_mem.mp ops_part1_sub op h, List.forall_iff_forall_mem.mp ops_part2_sub op h, List.forall_iff_forall_mem.mp ops_part3_sub op h, List.forall_iff_forall_mem.mp ops_part4_sub op h, List.forall_iff_forall_mem.mp ops_part5_sub op h, List.forall_iff_forall_mem.mp ops_part6_sub op h, List.forall_iff_forall_mem.mp ops_part7_sub op h, List.forall_iff_forall_mem.mp ops_part8_sub op h, List.forall_iff_forall_mem.mp ops_part9_sub op h, List.forall_iff_forall_mem.mp ops_part10_sub op h, List.forall_iff_forall_mem.mp ops_part11_sub op h, List.forall_iff_forall_mem.mp ops_part12_sub op h, List.forall_iff_forall_mem.mp ops_part13_sub op h, List.forall_iff_forall_mem.mp ops_part14_sub op h, List.forall_iff_forall_mem.mp ops_part15_sub op h, List.forall_iff_forall_mem.mp ops_part16_sub op h, List.forall_iff_forall_mem.mp ops_part17_sub op h, List.forall_iff_forall_mem.mp ops_part18_sub op h, List.forall_iff_forall_mem.mp ops_part19_sub op h, List.forall_iff_forall_mem.mp ops_part20_sub op h, List.forall_iff_forall_mem.mp ops_part21_sub op h, List.forall_iff_forall_mem.mp ops_part22_sub op h, List.forall_iff_forall_mem.mp ops_part23_sub op h, List.forall_iff_forall_mem.mp ops_part24_sub op h]

theorem ops_fresh : ∀ op ∈ (ops : List (HloOp τ sig (Elt F))), op.fresh = ∅ := fun op h => by
  simp only [ops, List.mem_append] at h
  rcases h with h | h | h | h | h | h | h | h | h | h | h | h | h | h | h | h | h | h | h | h | h | h | h | h | h
  exacts [List.forall_iff_forall_mem.mp ops_part0_fresh op h, List.forall_iff_forall_mem.mp ops_part1_fresh op h, List.forall_iff_forall_mem.mp ops_part2_fresh op h, List.forall_iff_forall_mem.mp ops_part3_fresh op h, List.forall_iff_forall_mem.mp ops_part4_fresh op h, List.forall_iff_forall_mem.mp ops_part5_fresh op h, List.forall_iff_forall_mem.mp ops_part6_fresh op h, List.forall_iff_forall_mem.mp ops_part7_fresh op h, List.forall_iff_forall_mem.mp ops_part8_fresh op h, List.forall_iff_forall_mem.mp ops_part9_fresh op h, List.forall_iff_forall_mem.mp ops_part10_fresh op h, List.forall_iff_forall_mem.mp ops_part11_fresh op h, List.forall_iff_forall_mem.mp ops_part12_fresh op h, List.forall_iff_forall_mem.mp ops_part13_fresh op h, List.forall_iff_forall_mem.mp ops_part14_fresh op h, List.forall_iff_forall_mem.mp ops_part15_fresh op h, List.forall_iff_forall_mem.mp ops_part16_fresh op h, List.forall_iff_forall_mem.mp ops_part17_fresh op h, List.forall_iff_forall_mem.mp ops_part18_fresh op h, List.forall_iff_forall_mem.mp ops_part19_fresh op h, List.forall_iff_forall_mem.mp ops_part20_fresh op h, List.forall_iff_forall_mem.mp ops_part21_fresh op h, List.forall_iff_forall_mem.mp ops_part22_fresh op h, List.forall_iff_forall_mem.mp ops_part23_fresh op h, List.forall_iff_forall_mem.mp ops_part24_fresh op h]

/-- Every weakly fair execution of @main terminates, each buffer at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.RefRun

end
-- ==== Proof.RefLevel.lean ====
/-
  One resolution of the encoding, as the reference computes it on all points at once.

  From the point array: positions, cells, offsets and smoothstep weights of both coordinates; then the four
  corners of each point's cell in turn — the corner's node number `(gx + dx) + (gy + dy) · res` reduced modulo
  the level's table size, the table row gathered there, scaled by the product of the corner's two weights and
  added to the running sum. Entry (n, f) is `corners` at the point `n`.
-/
import proofs.«139053_j36180804501977_2_alg».proof.Proof.Spec
import proofs.«139053_j36180804501977_2_alg».proof.Proof.Layout
import proofs.«139053_j36180804501977_2_alg».proof.Proof.Gather
import proofs.«139053_j36180804501977_2_alg».proof.Proof.Rem

noncomputable section

namespace Cert.Field

open Idealize.ShloMosaic Idealize.ShloMosaic.ValueIdx

abbrev P1 : Shape := ⟨1, ![262144]⟩
abbrev P11 : Shape := ⟨2, ![262144, 1]⟩
abbrev P2 : Shape := ⟨2, ![262144, 2]⟩
abbrev P8 : Shape := ⟨2, ![262144, 8]⟩
abbrev Tb : Shape := ⟨3, ![8, 8192, 8]⟩

/-- The shape facts the reference's operations cite. -/
structure RefFacts : Prop where
  b1 : Sc.BroadcastsInDim P1 ![]
  b2 : Sc.BroadcastsInDim P2 ![]
  b8 : Sc.BroadcastsInDim P8 ![]
  v2c : P1.BroadcastsInDim P11 ![0]
  c2w : P11.BroadcastsInDim P8 ![0, 1]
  s0 : P2.Slices ![0, 0] P11
  s1 : P2.Slices ![0, 1] P11
  c2v : P11.ShapeCasts P1
  cat : Shape.Concatenates [P11, P11] P2 1
  gw : GatherDims.WF Tb P2 P8 [1] [0, 1] [] [0, 1] [] 1 ![1, 1, 8]

variable (H : RefFacts)

/-- The smoothstep weights of both coordinates of every point. -/
def wgt2 (sc : BitVec 32) (x : FVec Ideal P2 .f32) : FVec Ideal P2 .f32 :=
  mulf
    (mulf
      (subf (addf (mulf x (broadcastInDim P2 ![] H.b2 (constant Sc .f32 sc))) (broadcastInDim P2 ![] H.b2 (constant Sc .f32 0x3F000000#32)))
        (Host.floor (addf (mulf x (broadcastInDim P2 ![] H.b2 (constant Sc .f32 sc))) (broadcastInDim P2 ![] H.b2 (constant Sc .f32 0x3F000000#32)))))
      (subf (addf (mulf x (broadcastInDim P2 ![] H.b2 (constant Sc .f32 sc))) (broadcastInDim P2 ![] H.b2 (constant Sc .f32 0x3F000000#32)))
        (Host.floor (addf (mulf x (broadcastInDim P2 ![] H.b2 (constant Sc .f32 sc))) (broadcastInDim P2 ![] H.b2 (constant Sc .f32 0x3F000000#32))))))
    (subf (broadcastInDim P2 ![] H.b2 (constant Sc .f32 0x40400000#32))
      (mulf (broadcastInDim P2 ![] H.b2 (constant Sc .f32 0x40000000#32))
        (subf (addf (mulf x (broadcastInDim P2 ![] H.b2 (constant Sc .f32 sc))) (broadcastInDim P2 ![] H.b2 (constant Sc .f32 0x3F000000#32)))
          (Host.floor (addf (mulf x (broadcastInDim P2 ![] H.b2 (constant Sc .f32 sc))) (broadcastInDim P2 ![] H.b2 (constant Sc .f32 0x3F000000#32)))))))

/-- The cell numbers of both coordinates of every point. -/
def cell2 (sc : BitVec 32) (x : FVec Ideal P2 .f32) : IVec P2 32 :=
  fptosi 32
    (Host.floor (addf (mulf x (broadcastInDim P2 ![] H.b2 (constant Sc .f32 sc))) (broadcastInDim P2 ![] H.b2 (constant Sc .f32 0x3F000000#32))))

theorem wgt2_apply (sc : BitVec 32) (x : FVec Ideal P2 .f32) (i : P2.Idx) : wgt2 H sc x i = wgt sc (x i) := by
  simp only [wgt2, wgt, pos, cell, mulf_apply, subf_apply, addf_apply, hfloor_apply, bcast_scalar (α := BitVec 32), bcast_scalar (α := BitVec 1), bcast_scalar (α := EReal), constant_apply]

theorem cell2_apply (sc : BitVec 32) (x : FVec Ideal P2 .f32) (i : P2.Idx) : cell2 H sc x i = gidx sc (x i) := by
  simp only [cell2, gidx, cell, pos, fptosi_apply, mulf_apply, addf_apply, hfloor_apply, bcast_scalar (α := BitVec 32), bcast_scalar (α := BitVec 1), bcast_scalar (α := EReal), constant_apply]

/-- One corner added to the running sum: its row gathered and scaled by the product of its weights. -/
def cornerAdd (wxv wyv : FVec Ideal P1 .f32) (pg : IVec P2 32) (dx dy res size lvl : BitVec 32)
    (tbl : FVec Ideal Tb .f32) (acc : FVec Ideal P8 .f32) : FVec Ideal P8 .f32 :=
  addf acc
    (mulf (broadcastInDim P8 ![0, 1] H.c2w (broadcastInDim P11 ![0] H.v2c (mulf wxv wyv)))
      (Host.gather (stackDims 262144 H.gw) tbl
        (concatenate P2 1
          [⟨P11, broadcastInDim P11 ![0] H.v2c (id (broadcastInDim P1 ![] H.b1 (constantI Sc 32 lvl)))⟩,
           ⟨P11, broadcastInDim P11 ![0] H.v2c
              (select
                (cmpi .slt
                  (remArr H.b1
                    (addi (addi (shapeCast P1 (extractStridedSlice P11 ![0, 0] pg H.s0) H.c2v) (broadcastInDim P1 ![] H.b1 (constantI Sc 32 dx)))
                      (muli (addi (shapeCast P1 (extractStridedSlice P11 ![0, 1] pg H.s1) H.c2v) (broadcastInDim P1 ![] H.b1 (constantI Sc 32 dy)))
                        (broadcastInDim P1 ![] H.b1 (constantI Sc 32 res))))
                    (constantI Sc 32 size))
                  (broadcastInDim P1 ![] H.b1 (constantI Sc 32 0#32)))
                (addi
                  (remArr H.b1
                    (addi (addi (shapeCast P1 (extractStridedSlice P11 ![0, 0] pg H.s0) H.c2v) (broadcastInDim P1 ![] H.b1 (constantI Sc 32 dx)))
                      (muli (addi (shapeCast P1 (extractStridedSlice P11 ![0, 1] pg H.s1) H.c2v) (broadcastInDim P1 ![] H.b1 (constantI Sc 32 dy)))
                        (broadcastInDim P1 ![] H.b1 (constantI Sc 32 res))))
                    (constantI Sc 32 size))
                  (broadcastInDim P1 ![] H.b1 (constantI Sc 32 8192#32)))
                (remArr H.b1
                  (addi (addi (shapeCast P1 (extractStridedSlice P11 ![0, 0] pg H.s0) H.c2v) (broadcastInDim P1 ![] H.b1 (constantI Sc 32 dx)))
                    (muli (addi (shapeCast P1 (extractStridedSlice P11 ![0, 1] pg H.s1) H.c2v) (broadcastInDim P1 ![] H.b1 (constantI Sc 32 dy)))
                      (broadcastInDim P1 ![] H.b1 (constantI Sc 32 res))))
                  (constantI Sc 32 size)))⟩]
          H.cat)))

/-- Entry (n, f) after a corner is added: the running sum plus the product of the corner's weights times the
    corner's table entry. -/
theorem cornerAdd_apply (wxv wyv : FVec Ideal P1 .f32) (pg : IVec P2 32) (dx dy res size lvl : BitVec 32) (lv : Fin 8)
    (hlv : min lvl.toInt.toNat 7 = lv.val) (tbl : FVec Ideal Tb .f32) (acc : FVec Ideal P8 .f32) (n : Fin 262144) (f : Fin 8) :
    cornerAdd H wxv wyv pg dx dy res size lvl tbl acc (ix2 n f)
      = acc (ix2 n f) + (wxv (ix1 n) * wyv (ix1 n))
          * tableAt tbl lv (rowWord res size (IntOp.addi (pg (ix2 n (0 : Fin 2))) dx) (IntOp.addi (pg (ix2 n (1 : Fin 2))) dy)) f := by
  simp only [cornerAdd, tableAt, rowWord, wrapNeg, addf_apply, mulf_apply, col_to_wide (α := EReal), vec_to_col (α := EReal),
    vec_to_col (α := BitVec 32), gather_stack_apply (α := EReal), pair_left (α := BitVec 32), pair_right (α := BitVec 32),
    select_apply, cmpi_apply, addi_apply, muli_apply, remArr_apply, bcast_scalar (α := BitVec 32), bcast_scalar (α := BitVec 1),
    bcast_scalar (α := EReal), constantI_apply, id_eq, col_to_vec (α := BitVec 32), slice_c0 (α := BitVec 32),
    slice_c1 (α := BitVec 32)]
  have hl : (⟨min lvl.toInt.toNat 7, by omega⟩ : Fin 8) = lv := Fin.ext hlv
  rw [hl]

/-- One resolution's features of all points: the four corners added in turn to zero. -/
def refLevelArr (sc res size lvl : BitVec 32) (x : FVec Ideal P2 .f32) (tbl : FVec Ideal Tb .f32) : FVec Ideal P8 .f32 :=
  cornerAdd H
    (shapeCast P1 (extractStridedSlice P11 ![0, 0] (wgt2 H sc x) H.s0) H.c2v)
    (shapeCast P1 (extractStridedSlice P11 ![0, 1] (wgt2 H sc x) H.s1) H.c2v)
    (cell2 H sc x) 1#32 1#32 res size lvl tbl
    (cornerAdd H
      (shapeCast P1 (extractStridedSlice P11 ![0, 0] (wgt2 H sc x) H.s0) H.c2v)
      (subf (broadcastInDim P1 ![] H.b1 (constant Sc .f32 0x3F800000#32))
        (shapeCast P1 (extractStridedSlice P11 ![0, 1] (wgt2 H sc x) H.s1) H.c2v))
      (cell2 H sc x) 1#32 0#32 res size lvl tbl
      (cornerAdd H
        (subf (broadcastInDim P1 ![] H.b1 (constant Sc .f32 0x3F800000#32))
          (shapeCast P1 (extractStridedSlice P11 ![0, 0] (wgt2 H sc x) H.s0) H.c2v))
        (shapeCast P1 (extractStridedSlice P11 ![0, 1] (wgt2 H sc x) H.s1) H.c2v)
        (cell2 H sc x) 0#32 1#32 res size lvl tbl
        (cornerAdd H
          (subf (broadcastInDim P1 ![] H.b1 (constant Sc .f32 0x3F800000#32))
            (shapeCast P1 (extractStridedSlice P11 ![0, 0] (wgt2 H sc x) H.s0) H.c2v))
          (subf (broadcastInDim P1 ![] H.b1 (constant Sc .f32 0x3F800000#32))
            (shapeCast P1 (extractStridedSlice P11 ![0, 1] (wgt2 H sc x) H.s1) H.c2v))
          (cell2 H sc x) 0#32 0#32 res size lvl tbl
          (broadcastInDim P8 ![] H.b8 (constant Sc .f32 0x00000000#32)))))

/-- Entry (n, f): the four corners of point `n`'s cell. -/
theorem refLevelArr_apply (sc res size lvl : BitVec 32) (lv : Fin 8) (hlv : min lvl.toInt.toNat 7 = lv.val)
    (x : FVec Ideal P2 .f32) (tbl : FVec Ideal Tb .f32) (n : Fin 262144) (f : Fin 8) :
    refLevelArr H sc res size lvl x tbl (ix2 n f)
      = corners sc res size lv (x (ix2 n (0 : Fin 2))) (x (ix2 n (1 : Fin 2))) tbl f := by
  unfold refLevelArr corners
  rw [cornerAdd_apply H _ _ _ _ _ _ _ _ lv hlv, cornerAdd_apply H _ _ _ _ _ _ _ _ lv hlv,
    cornerAdd_apply H _ _ _ _ _ _ _ _ lv hlv, cornerAdd_apply H _ _ _ _ _ _ _ _ lv hlv]
  simp only [subf_apply, bcast_scalar (α := EReal), constant_apply, col_to_vec (α := EReal), slice_c0 (α := EReal),
    slice_c1 (α := EReal), wgt2_apply, cell2_apply]

end Cert.Field

end
-- ==== Proof.RefFacts.lean ====
/-
  The shape facts the reference's operations cite, gathered.
-/
import proofs.«139053_j36180804501977_2_alg».proof.Proof.Gen.ReferenceIdeal
import proofs.«139053_j36180804501977_2_alg».proof.Proof.RefLevel

noncomputable section

namespace Cert.ReferenceIdeal.RefValue

open Cert.ReferenceIdeal Cert.ReferenceIdeal.Gen Idealize.ShloMosaic Cert.Field

theorem refFacts : RefFacts :=
  ⟨bcast_S_S262144, bcast_S_S262144x2, bcast_S_S262144x8, bcast_S262144_S262144x1_0, bcast_S262144x1_S262144x8_0_1,
    slices_S262144x2_S262144x1_0_0, slices_S262144x2_S262144x1_0_1, shapeCasts_S262144x1_S262144,
    concatenates_S262144x1_S262144x1_S262144x2_d1, gather_S8x8192x8_S262144x2_S262144x8_1_01_n_n_01_1_118_wf⟩

end Cert.ReferenceIdeal.RefValue

end
-- ==== Proof.RefEval0.lean ====
/-
  Resolution 0 of the reference: the three windows of operations that compute it leave its features of all points in its
  buffer, as `refLevelArr` of the point array and the stack of tables, and change no buffer they do not write.
-/
import proofs.«139053_j36180804501977_2_alg».proof.Proof.RefPart0
import proofs.«139053_j36180804501977_2_alg».proof.Proof.RefPart1
import proofs.«139053_j36180804501977_2_alg».proof.Proof.RefPart2
import proofs.«139053_j36180804501977_2_alg».proof.Proof.RefFacts
import Idealize.ShloMosaic.Lib.Pipeline.Frame

noncomputable section

namespace Cert.ReferenceIdeal.RefValue

open Cert.ReferenceIdeal Cert.ReferenceIdeal.Gen Cert.ReferenceIdeal.RefRun Idealize.ShloMosaic Idealize.ShloMosaic.TcCoe Idealize.SL.Sem
  Idealize.ShloMosaic.StableHlo Idealize.ShloMosaic.ValueIdx Cert.Field

set_option maxRecDepth 65536 in
set_option maxHeartbeats 2000000 in
theorem level0_eval (V : Valuation τ sig (Elt Ideal)) :
    (after (ops_part0 ++ (ops_part1 ++ ops_part2) : List (HloOp τ sig (Elt Ideal))) V (Proc.devRef .tc main_v143) : P8.Idx → EReal)
      = refLevelArr refFacts 0x41700000#32 16#32 256#32 0#32 (V (Proc.devRef .tc main_arg0)) (V (Proc.devRef .tc main_arg1)) := by
  simp only [ops_part0, ops_part1, ops_part2, List.cons_append, List.nil_append]
  after_results_simp
  rfl

theorem level0_keep (V : Valuation τ sig (Elt Ideal)) (r : Ref sig .tc) (h0 : r ∉ ops_part0_W) (h1 : r ∉ ops_part1_W)
    (h2 : r ∉ ops_part2_W) : after (ops_part0 ++ (ops_part1 ++ ops_part2) : List (HloOp τ sig (Elt Ideal))) V (Proc.devRef .tc r) = V (Proc.devRef .tc r) := by
  rw [StableHlo.after_append, StableHlo.after_append, ops_part2_keep _ r h2, ops_part1_keep _ r h1, ops_part0_keep _ r h0]

end Cert.ReferenceIdeal.RefValue

end
-- ==== Proof.RefEval1.lean ====
/-
  Resolution 1 of the reference: the three windows of operations that compute it leave its features of all points in its
  buffer, as `refLevelArr` of the point array and the stack of tables, and change no buffer they do not write.
-/
import proofs.«139053_j36180804501977_2_alg».proof.Proof.RefPart3
import proofs.«139053_j36180804501977_2_alg».proof.Proof.RefPart4
import proofs.«139053_j36180804501977_2_alg».proof.Proof.RefPart5
import proofs.«139053_j36180804501977_2_alg».proof.Proof.RefFacts
import Idealize.ShloMosaic.Lib.Pipeline.Frame

noncomputable section

namespace Cert.ReferenceIdeal.RefValue

open Cert.ReferenceIdeal Cert.ReferenceIdeal.Gen Cert.ReferenceIdeal.RefRun Idealize.ShloMosaic Idealize.ShloMosaic.TcCoe Idealize.SL.Sem
  Idealize.ShloMosaic.StableHlo Idealize.ShloMosaic.ValueIdx Cert.Field

set_option maxRecDepth 65536 in
set_option maxHeartbeats 2000000 in
theorem level1_eval (V : Valuation τ sig (Elt Ideal)) :
    (after (ops_part3 ++ (ops_part4 ++ ops_part5) : List (HloOp τ sig (Elt Ideal))) V (Proc.devRef .tc main_v287) : P8.Idx → EReal)
      = refLevelArr refFacts 0x41994518#32 21#32 448#32 1#32 (V (Proc.devRef .tc main_arg0)) (V (Proc.devRef .tc main_arg1)) := by
  simp only [ops_part3, ops_part4, ops_part5, List.cons_append, List.nil_append]
  after_results_simp
  rfl

theorem level1_keep (V : Valuation τ sig (Elt Ideal)) (r : Ref sig .tc) (h0 : r ∉ ops_part3_W) (h1 : r ∉ ops_part4_W)
    (h2 : r ∉ ops_part5_W) : after (ops_part3 ++ (ops_part4 ++ ops_part5) : List (HloOp τ sig (Elt Ideal))) V (Proc.devRef .tc r) = V (Proc.devRef .tc r) := by
  rw [StableHlo.after_append, StableHlo.after_append, ops_part5_keep _ r h2, ops_part4_keep _ r h1, ops_part3_keep _ r h0]

end Cert.ReferenceIdeal.RefValue

end
-- ==== Proof.RefEval2.lean ====
/-
  Resolution 2 of the reference: the three windows of operations that compute it leave its features of all points in its
  buffer, as `refLevelArr` of the point array and the stack of tables, and change no buffer they do not write.
-/
import proofs.«139053_j36180804501977_2_alg».proof.Proof.RefPart6
import proofs.«139053_j36180804501977_2_alg».proof.Proof.RefPart7
import proofs.«139053_j36180804501977_2_alg».proof.Proof.RefPart8
import proofs.«139053_j36180804501977_2_alg».proof.Proof.RefFacts
import Idealize.ShloMosaic.Lib.Pipeline.Frame

noncomputable section

namespace Cert.ReferenceIdeal.RefValue

open Cert.ReferenceIdeal Cert.ReferenceIdeal.Gen Cert.ReferenceIdeal.RefRun Idealize.ShloMosaic Idealize.ShloMosaic.TcCoe Idealize.SL.Sem
  Idealize.ShloMosaic.StableHlo Idealize.ShloMosaic.ValueIdx Cert.Field

set_option maxRecDepth 65536 in
set_option maxHeartbeats 2000000 in
theorem level2_eval (V : Valuation τ sig (Elt Ideal)) :
    (after (ops_part6 ++ (ops_part7 ++ ops_part8) : List (HloOp τ sig (Elt Ideal))) V (Proc.devRef .tc main_v431) : P8.Idx → EReal)
      = refLevelArr refFacts 0x41C32FF6#32 26#32 680#32 2#32 (V (Proc.devRef .tc main_arg0)) (V (Proc.devRef .tc main_arg1)) := by
  simp only [ops_part6, ops_part7, ops_part8, List.cons_append, List.nil_append]
  after_results_simp
  rfl

theorem level2_keep (V : Valuation τ sig (Elt Ideal)) (r : Ref sig .tc) (h0 : r ∉ ops_part6_W) (h1 : r ∉ ops_part7_W)
    (h2 : r ∉ ops_part8_W) : after (ops_part6 ++ (ops_part7 ++ ops_part8) : List (HloOp τ sig (Elt Ideal))) V (Proc.devRef .tc r) = V (Proc.devRef .tc r) := by
  rw [StableHlo.after_append, StableHlo.after_append, ops_part8_keep _ r h2, ops_part7_keep _ r h1, ops_part6_keep _ r h0]

end Cert.ReferenceIdeal.RefValue

end
-- ==== Proof.RefEval3.lean ====
/-
  Resolution 3 of the reference: the three windows of operations that compute it leave its features of all points in its
  buffer, as `refLevelArr` of the point array and the stack of tables, and change no buffer they do not write.
-/
import proofs.«139053_j36180804501977_2_alg».proof.Proof.RefPart9
import proofs.«139053_j36180804501977_2_alg».proof.Proof.RefPart10
import proofs.«139053_j36180804501977_2_alg».proof.Proof.RefPart11
import proofs.«139053_j36180804501977_2_alg».proof.Proof.RefFacts
import Idealize.ShloMosaic.Lib.Pipeline.Frame

noncomputable section

namespace Cert.ReferenceIdeal.RefValue

open Cert.ReferenceIdeal Cert.ReferenceIdeal.Gen Cert.ReferenceIdeal.RefRun Idealize.ShloMosaic Idealize.ShloMosaic.TcCoe Idealize.SL.Sem
  Idealize.ShloMosaic.StableHlo Idealize.ShloMosaic.ValueIdx Cert.Field

set_option maxRecDepth 65536 in
set_option maxHeartbeats 2000000 in
theorem level3_eval (V : Valuation τ sig (Elt Ideal)) :
    (after (ops_part9 ++ (ops_part10 ++ ops_part11) : List (HloOp τ sig (Elt Ideal))) V (Proc.devRef .tc main_v575) : P8.Idx → EReal)
      = refLevelArr refFacts 0x41F80001#32 33#32 1096#32 3#32 (V (Proc.devRef .tc main_arg0)) (V (Proc.devRef .tc main_arg1)) := by
  simp only [ops_part9, ops_part10, ops_part11, List.cons_append, List.nil_append]
  after_results_simp
  rfl

theorem level3_keep (V : Valuation τ sig (Elt Ideal)) (r : Ref sig .tc) (h0 : r ∉ ops_part9_W) (h1 : r ∉ ops_part10_W)
    (h2 : r ∉ ops_part11_W) : after (ops_part9 ++ (ops_part10 ++ ops_part11) : List (HloOp τ sig (Elt Ideal))) V (Proc.devRef .tc r) = V (Proc.devRef .tc r) := by
  rw [StableHlo.after_append, StableHlo.after_append, ops_part11_keep _ r h2, ops_part10_keep _ r h1, ops_part9_keep _ r h0]

end Cert.ReferenceIdeal.RefValue

end
-- ==== Proof.RefEval4.lean ====
/-
  Resolution 4 of the reference: the three windows of operations that compute it leave its features of all points in its
  buffer, as `refLevelArr` of the point array and the stack of tables, and change no buffer they do not write.
-/
import proofs.«139053_j36180804501977_2_alg».proof.Proof.RefPart12
import proofs.«139053_j36180804501977_2_alg».proof.Proof.RefPart13
import proofs.«139053_j36180804501977_2_alg».proof.Proof.RefPart14
import proofs.«139053_j36180804501977_2_alg».proof.Proof.RefFacts
import Idealize.ShloMosaic.Lib.Pipeline.Frame

noncomputable section

namespace Cert.ReferenceIdeal.RefValue

open Cert.ReferenceIdeal Cert.ReferenceIdeal.Gen Cert.ReferenceIdeal.RefRun Idealize.ShloMosaic Idealize.ShloMosaic.TcCoe Idealize.SL.Sem
  Idealize.ShloMosaic.StableHlo Idealize.ShloMosaic.ValueIdx Cert.Field

set_option maxRecDepth 65536 in
set_option maxHeartbeats 2000000 in
theorem level4_eval (V : Valuation τ sig (Elt Ideal)) :
    (after (ops_part12 ++ (ops_part13 ++ ops_part14) : List (HloOp τ sig (Elt Ideal))) V (Proc.devRef .tc main_v719) : P8.Idx → EReal)
      = refLevelArr refFacts 0x421D4519#32 41#32 1688#32 4#32 (V (Proc.devRef .tc main_arg0)) (V (Proc.devRef .tc main_arg1)) := by
  simp only [ops_part12, ops_part13, ops_part14, List.cons_append, List.nil_append]
  after_results_simp
  rfl

theorem level4_keep (V : Valuation τ sig (Elt Ideal)) (r : Ref sig .tc) (h0 : r ∉ ops_part12_W) (h1 : r ∉ ops_part13_W)
    (h2 : r ∉ ops_part14_W) : after (ops_part12 ++ (ops_part13 ++ ops_part14) : List (HloOp τ sig (Elt Ideal))) V (Proc.devRef .tc r) = V (Proc.devRef .tc r) := by
  rw [StableHlo.after_append, StableHlo.after_append, ops_part14_keep _ r h2, ops_part13_keep _ r h1, ops_part12_keep _ r h0]

end Cert.ReferenceIdeal.RefValue

end
-- ==== Proof.RefEval5.lean ====
/-
  Resolution 5 of the reference: the three windows of operations that compute it leave its features of all points in its
  buffer, as `refLevelArr` of the point array and the stack of tables, and change no buffer they do not write.
-/
import proofs.«139053_j36180804501977_2_alg».proof.Proof.RefPart15
import proofs.«139053_j36180804501977_2_alg».proof.Proof.RefPart16
import proofs.«139053_j36180804501977_2_alg».proof.Proof.RefPart17
import proofs.«139053_j36180804501977_2_alg».proof.Proof.RefFacts
import Idealize.ShloMosaic.Lib.Pipeline.Frame

noncomputable section

namespace Cert.ReferenceIdeal.RefValue

open Cert.ReferenceIdeal Cert.ReferenceIdeal.Gen Cert.ReferenceIdeal.RefRun Idealize.ShloMosaic Idealize.ShloMosaic.TcCoe Idealize.SL.Sem
  Idealize.ShloMosaic.StableHlo Idealize.ShloMosaic.ValueIdx Cert.Field

set_option maxRecDepth 65536 in
set_option maxHeartbeats 2000000 in
theorem level5_eval (V : Valuation τ sig (Elt Ideal)) :
    (after (ops_part15 ++ (ops_part16 ++ ops_part17) : List (HloOp τ sig (Elt Ideal))) V (Proc.devRef .tc main_v863) : P8.Idx → EReal)
      = refLevelArr refFacts 0x42472FF6#32 51#32 2608#32 5#32 (V (Proc.devRef .tc main_arg0)) (V (Proc.devRef .tc main_arg1)) := by
  simp only [ops_part15, ops_part16, ops_part17, List.cons_append, List.nil_append]
  after_results_simp
  rfl

theorem level5_keep (V : Valuation τ sig (Elt Ideal)) (r : Ref sig .tc) (h0 : r ∉ ops_part15_W) (h1 : r ∉ ops_part16_W)
    (h2 : r ∉ ops_part17_W) : after (ops_part15 ++ (ops_part16 ++ ops_part17) : List (HloOp τ sig (Elt Ideal))) V (Proc.devRef .tc r) = V (Proc.devRef .tc r) := by
  rw [StableHlo.after_append, StableHlo.after_append, ops_part17_keep _ r h2, ops_part16_keep _ r h1, ops_part15_keep _ r h0]

end Cert.ReferenceIdeal.RefValue

end
-- ==== Proof.RefEval6.lean ====
/-
  Resolution 6 of the reference: the three windows of operations that compute it leave its features of all points in its
  buffer, as `refLevelArr` of the point array and the stack of tables, and change no buffer they do not write.
-/
import proofs.«139053_j36180804501977_2_alg».proof.Proof.RefPart18
import proofs.«139053_j36180804501977_2_alg».proof.Proof.RefPart19
import proofs.«139053_j36180804501977_2_alg».proof.Proof.RefPart20
import proofs.«139053_j36180804501977_2_alg».proof.Proof.RefFacts
import Idealize.ShloMosaic.Lib.Pipeline.Frame

noncomputable section

namespace Cert.ReferenceIdeal.RefValue

open Cert.ReferenceIdeal Cert.ReferenceIdeal.Gen Cert.ReferenceIdeal.RefRun Idealize.ShloMosaic Idealize.ShloMosaic.TcCoe Idealize.SL.Sem
  Idealize.ShloMosaic.StableHlo Idealize.ShloMosaic.ValueIdx Cert.Field

set_option maxRecDepth 65536 in
set_option maxHeartbeats 2000000 in
theorem level6_eval (V : Valuation τ sig (Elt Ideal)) :
    (after (ops_part18 ++ (ops_part19 ++ ops_part20) : List (HloOp τ sig (Elt Ideal))) V (Proc.devRef .tc main_v1007) : P8.Idx → EReal)
      = refLevelArr refFacts 0x427C0002#32 65#32 4232#32 6#32 (V (Proc.devRef .tc main_arg0)) (V (Proc.devRef .tc main_arg1)) := by
  simp only [ops_part18, ops_part19, ops_part20, List.cons_append, List.nil_append]
  after_results_simp
  rfl

theorem level6_keep (V : Valuation τ sig (Elt Ideal)) (r : Ref sig .tc) (h0 : r ∉ ops_part18_W) (h1 : r ∉ ops_part19_W)
    (h2 : r ∉ ops_part20_W) : after (ops_part18 ++ (ops_part19 ++ ops_part20) : List (HloOp τ sig (Elt Ideal))) V (Proc.devRef .tc r) = V (Proc.devRef .tc r) := by
  rw [StableHlo.after_append, StableHlo.after_append, ops_part20_keep _ r h2, ops_part19_keep _ r h1, ops_part18_keep _ r h0]

end Cert.ReferenceIdeal.RefValue

end
-- ==== Proof.RefEval7.lean ====
/-
  Resolution 7 of the reference: the three windows of operations that compute it leave its features of all points in its
  buffer, as `refLevelArr` of the point array and the stack of tables, and change no buffer they do not write.
-/
import proofs.«139053_j36180804501977_2_alg».proof.Proof.RefPart21
import proofs.«139053_j36180804501977_2_alg».proof.Proof.RefPart22
import proofs.«139053_j36180804501977_2_alg».proof.Proof.RefPart23
import proofs.«139053_j36180804501977_2_alg».proof.Proof.RefFacts
import Idealize.ShloMosaic.Lib.Pipeline.Frame

noncomputable section

namespace Cert.ReferenceIdeal.RefValue

open Cert.ReferenceIdeal Cert.ReferenceIdeal.Gen Cert.ReferenceIdeal.RefRun Idealize.ShloMosaic Idealize.ShloMosaic.TcCoe Idealize.SL.Sem
  Idealize.ShloMosaic.StableHlo Idealize.ShloMosaic.ValueIdx Cert.Field

set_option maxRecDepth 65536 in
set_option maxHeartbeats 2000000 in
theorem level7_eval (V : Valuation τ sig (Elt Ideal)) :
    (after (ops_part21 ++ (ops_part22 ++ ops_part23) : List (HloOp τ sig (Elt Ideal))) V (Proc.devRef .tc main_v1151) : P8.Idx → EReal)
      = refLevelArr refFacts 0x429F4519#32 81#32 6568#32 7#32 (V (Proc.devRef .tc main_arg0)) (V (Proc.devRef .tc main_arg1)) := by
  simp only [ops_part21, ops_part22, ops_part23, List.cons_append, List.nil_append]
  after_results_simp
  rfl

theorem level7_keep (V : Valuation τ sig (Elt Ideal)) (r : Ref sig .tc) (h0 : r ∉ ops_part21_W) (h1 : r ∉ ops_part22_W)
    (h2 : r ∉ ops_part23_W) : after (ops_part21 ++ (ops_part22 ++ ops_part23) : List (HloOp τ sig (Elt Ideal))) V (Proc.devRef .tc r) = V (Proc.devRef .tc r) := by
  rw [StableHlo.after_append, StableHlo.after_append, ops_part23_keep _ r h2, ops_part22_keep _ r h1, ops_part21_keep _ r h0]

end Cert.ReferenceIdeal.RefValue

end
-- ==== Proof.RefValue.lean ====
/-
  The reference's result as one function of its arguments.

  The operation lists of the reference's windows, three to a resolution, leave in that resolution's buffer its features
  of all points (`refLevelArr`) and touch no earlier resolution's buffer nor an argument; the last window sets the eight
  feature arrays side by side and applies the perceptron. So the fold of all the operations over any contents is
  `refOut` of the argument arrays, and entry (n, 0) of it is `mlp` of the point's 64 features, each the four-corner sum.
-/
import proofs.«139053_j36180804501977_2_alg».proof.Proof.RefRun
import proofs.«139053_j36180804501977_2_alg».proof.Proof.RefEval0
import proofs.«139053_j36180804501977_2_alg».proof.Proof.RefEval1
import proofs.«139053_j36180804501977_2_alg».proof.Proof.RefEval2
import proofs.«139053_j36180804501977_2_alg».proof.Proof.RefEval3
import proofs.«139053_j36180804501977_2_alg».proof.Proof.RefEval4
import proofs.«139053_j36180804501977_2_alg».proof.Proof.RefEval5
import proofs.«139053_j36180804501977_2_alg».proof.Proof.RefEval6
import proofs.«139053_j36180804501977_2_alg».proof.Proof.RefEval7
import proofs.«139053_j36180804501977_2_alg».proof.Proof.Mlp

noncomputable section

namespace Cert.ReferenceIdeal.RefValue

open Cert.ReferenceIdeal Cert.ReferenceIdeal.Gen Cert.ReferenceIdeal.RefRun Idealize.ShloMosaic Idealize.ShloMosaic.TcCoe Idealize.SL.Sem
  Idealize.ShloMosaic.StableHlo Idealize.ShloMosaic.ValueIdx Cert.Field

/-! ### The contents after the first k resolutions -/

abbrev U0 (V : Valuation τ sig (Elt Ideal)) : Valuation τ sig (Elt Ideal) := V
abbrev U1 (V : Valuation τ sig (Elt Ideal)) : Valuation τ sig (Elt Ideal) := after (ops_part0 ++ (ops_part1 ++ ops_part2) : List (HloOp τ sig (Elt Ideal))) (U0 V)
abbrev U2 (V : Valuation τ sig (Elt Ideal)) : Valuation τ sig (Elt Ideal) := after (ops_part3 ++ (ops_part4 ++ ops_part5) : List (HloOp τ sig (Elt Ideal))) (U1 V)
abbrev U3 (V : Valuation τ sig (Elt Ideal)) : Valuation τ sig (Elt Ideal) := after (ops_part6 ++ (ops_part7 ++ ops_part8) : List (HloOp τ sig (Elt Ideal))) (U2 V)
abbrev U4 (V : Valuation τ sig (Elt Ideal)) : Valuation τ sig (Elt Ideal) := after (ops_part9 ++ (ops_part10 ++ ops_part11) : List (HloOp τ sig (Elt Ideal))) (U3 V)
abbrev U5 (V : Valuation τ sig (Elt Ideal)) : Valuation τ sig (Elt Ideal) := after (ops_part12 ++ (ops_part13 ++ ops_part14) : List (HloOp τ sig (Elt Ideal))) (U4 V)
abbrev U6 (V : Valuation τ sig (Elt Ideal)) : Valuation τ sig (Elt Ideal) := after (ops_part15 ++ (ops_part16 ++ ops_part17) : List (HloOp τ sig (Elt Ideal))) (U5 V)
abbrev U7 (V : Valuation τ sig (Elt Ideal)) : Valuation τ sig (Elt Ideal) := after (ops_part18 ++ (ops_part19 ++ ops_part20) : List (HloOp τ sig (Elt Ideal))) (U6 V)
abbrev U8 (V : Valuation τ sig (Elt Ideal)) : Valuation τ sig (Elt Ideal) := after (ops_part21 ++ (ops_part22 ++ ops_part23) : List (HloOp τ sig (Elt Ideal))) (U7 V)

theorem U1_arg0 (V : Valuation τ sig (Elt Ideal)) : U1 V (Proc.devRef .tc main_arg0) = V (Proc.devRef .tc main_arg0) :=
  (level0_keep _ main_arg0 (by decide) (by decide) (by decide))
theorem U1_arg1 (V : Valuation τ sig (Elt Ideal)) : U1 V (Proc.devRef .tc main_arg1) = V (Proc.devRef .tc main_arg1) :=
  (level0_keep _ main_arg1 (by decide) (by decide) (by decide))
theorem U1_arg2 (V : Valuation τ sig (Elt Ideal)) : U1 V (Proc.devRef .tc main_arg2) = V (Proc.devRef .tc main_arg2) :=
  (level0_keep _ main_arg2 (by decide) (by decide) (by decide))
theorem U1_arg3 (V : Valuation τ sig (Elt Ideal)) : U1 V (Proc.devRef .tc main_arg3) = V (Proc.devRef .tc main_arg3) :=
  (level0_keep _ main_arg3 (by decide) (by decide) (by decide))
theorem U1_arg4 (V : Valuation τ sig (Elt Ideal)) : U1 V (Proc.devRef .tc main_arg4) = V (Proc.devRef .tc main_arg4) :=
  (level0_keep _ main_arg4 (by decide) (by decide) (by decide))
theorem U1_arg5 (V : Valuation τ sig (Elt Ideal)) : U1 V (Proc.devRef .tc main_arg5) = V (Proc.devRef .tc main_arg5) :=
  (level0_keep _ main_arg5 (by decide) (by decide) (by decide))
theorem U1_out0 (V : Valuation τ sig (Elt Ideal)) :
    (U1 V (Proc.devRef .tc main_v143) : P8.Idx → EReal) = refLevelArr refFacts 0x41700000#32 16#32 256#32 0#32 (V (Proc.devRef .tc main_arg0)) (V (Proc.devRef .tc main_arg1)) :=
  (level0_eval _).trans rfl

theorem U2_arg0 (V : Valuation τ sig (Elt Ideal)) : U2 V (Proc.devRef .tc main_arg0) = V (Proc.devRef .tc main_arg0) :=
  (level1_keep _ main_arg0 (by decide) (by decide) (by decide)).trans (U1_arg0 V)
theorem U2_arg1 (V : Valuation τ sig (Elt Ideal)) : U2 V (Proc.devRef .tc main_arg1) = V (Proc.devRef .tc main_arg1) :=
  (level1_keep _ main_arg1 (by decide) (by decide) (by decide)).trans (U1_arg1 V)
theorem U2_arg2 (V : Valuation τ sig (Elt Ideal)) : U2 V (Proc.devRef .tc main_arg2) = V (Proc.devRef .tc main_arg2) :=
  (level1_keep _ main_arg2 (by decide) (by decide) (by decide)).trans (U1_arg2 V)
theorem U2_arg3 (V : Valuation τ sig (Elt Ideal)) : U2 V (Proc.devRef .tc main_arg3) = V (Proc.devRef .tc main_arg3) :=
  (level1_keep _ main_arg3 (by decide) (by decide) (by decide)).trans (U1_arg3 V)
theorem U2_arg4 (V : Valuation τ sig (Elt Ideal)) : U2 V (Proc.devRef .tc main_arg4) = V (Proc.devRef .tc main_arg4) :=
  (level1_keep _ main_arg4 (by decide) (by decide) (by decide)).trans (U1_arg4 V)
theorem U2_arg5 (V : Valuation τ sig (Elt Ideal)) : U2 V (Proc.devRef .tc main_arg5) = V (Proc.devRef .tc main_arg5) :=
  (level1_keep _ main_arg5 (by decide) (by decide) (by decide)).trans (U1_arg5 V)
theorem U2_out0 (V : Valuation τ sig (Elt Ideal)) :
    (U2 V (Proc.devRef .tc main_v143) : P8.Idx → EReal) = refLevelArr refFacts 0x41700000#32 16#32 256#32 0#32 (V (Proc.devRef .tc main_arg0)) (V (Proc.devRef .tc main_arg1)) :=
  (level1_keep _ main_v143 (by decide) (by decide) (by decide)).trans (U1_out0 V)
theorem U2_out1 (V : Valuation τ sig (Elt Ideal)) :
    (U2 V (Proc.devRef .tc main_v287) : P8.Idx → EReal) = refLevelArr refFacts 0x41994518#32 21#32 448#32 1#32 (V (Proc.devRef .tc main_arg0)) (V (Proc.devRef .tc main_arg1)) :=
  (level1_eval _).trans (by rw [U1_arg0, U1_arg1])

theorem U3_arg0 (V : Valuation τ sig (Elt Ideal)) : U3 V (Proc.devRef .tc main_arg0) = V (Proc.devRef .tc main_arg0) :=
  (level2_keep _ main_arg0 (by decide) (by decide) (by decide)).trans (U2_arg0 V)
theorem U3_arg1 (V : Valuation τ sig (Elt Ideal)) : U3 V (Proc.devRef .tc main_arg1) = V (Proc.devRef .tc main_arg1) :=
  (level2_keep _ main_arg1 (by decide) (by decide) (by decide)).trans (U2_arg1 V)
theorem U3_arg2 (V : Valuation τ sig (Elt Ideal)) : U3 V (Proc.devRef .tc main_arg2) = V (Proc.devRef .tc main_arg2) :=
  (level2_keep _ main_arg2 (by decide) (by decide) (by decide)).trans (U2_arg2 V)
theorem U3_arg3 (V : Valuation τ sig (Elt Ideal)) : U3 V (Proc.devRef .tc main_arg3) = V (Proc.devRef .tc main_arg3) :=
  (level2_keep _ main_arg3 (by decide) (by decide) (by decide)).trans (U2_arg3 V)
theorem U3_arg4 (V : Valuation τ sig (Elt Ideal)) : U3 V (Proc.devRef .tc main_arg4) = V (Proc.devRef .tc main_arg4) :=
  (level2_keep _ main_arg4 (by decide) (by decide) (by decide)).trans (U2_arg4 V)
theorem U3_arg5 (V : Valuation τ sig (Elt Ideal)) : U3 V (Proc.devRef .tc main_arg5) = V (Proc.devRef .tc main_arg5) :=
  (level2_keep _ main_arg5 (by decide) (by decide) (by decide)).trans (U2_arg5 V)
theorem U3_out0 (V : Valuation τ sig (Elt Ideal)) :
    (U3 V (Proc.devRef .tc main_v143) : P8.Idx → EReal) = refLevelArr refFacts 0x41700000#32 16#32 256#32 0#32 (V (Proc.devRef .tc main_arg0)) (V (Proc.devRef .tc main_arg1)) :=
  (level2_keep _ main_v143 (by decide) (by decide) (by decide)).trans (U2_out0 V)
theorem U3_out1 (V : Valuation τ sig (Elt Ideal)) :
    (U3 V (Proc.devRef .tc main_v287) : P8.Idx → EReal) = refLevelArr refFacts 0x41994518#32 21#32 448#32 1#32 (V (Proc.devRef .tc main_arg0)) (V (Proc.devRef .tc main_arg1)) :=
  (level2_keep _ main_v287 (by decide) (by decide) (by decide)).trans (U2_out1 V)
theorem U3_out2 (V : Valuation τ sig (Elt Ideal)) :
    (U3 V (Proc.devRef .tc main_v431) : P8.Idx → EReal) = refLevelArr refFacts 0x41C32FF6#32 26#32 680#32 2#32 (V (Proc.devRef .tc main_arg0)) (V (Proc.devRef .tc main_arg1)) :=
  (level2_eval _).trans (by rw [U2_arg0, U2_arg1])

theorem U4_arg0 (V : Valuation τ sig (Elt Ideal)) : U4 V (Proc.devRef .tc main_arg0) = V (Proc.devRef .tc main_arg0) :=
  (level3_keep _ main_arg0 (by decide) (by decide) (by decide)).trans (U3_arg0 V)
theorem U4_arg1 (V : Valuation τ sig (Elt Ideal)) : U4 V (Proc.devRef .tc main_arg1) = V (Proc.devRef .tc main_arg1) :=
  (level3_keep _ main_arg1 (by decide) (by decide) (by decide)).trans (U3_arg1 V)
theorem U4_arg2 (V : Valuation τ sig (Elt Ideal)) : U4 V (Proc.devRef .tc main_arg2) = V (Proc.devRef .tc main_arg2) :=
  (level3_keep _ main_arg2 (by decide) (by decide) (by decide)).trans (U3_arg2 V)
theorem U4_arg3 (V : Valuation τ sig (Elt Ideal)) : U4 V (Proc.devRef .tc main_arg3) = V (Proc.devRef .tc main_arg3) :=
  (level3_keep _ main_arg3 (by decide) (by decide) (by decide)).trans (U3_arg3 V)
theorem U4_arg4 (V : Valuation τ sig (Elt Ideal)) : U4 V (Proc.devRef .tc main_arg4) = V (Proc.devRef .tc main_arg4) :=
  (level3_keep _ main_arg4 (by decide) (by decide) (by decide)).trans (U3_arg4 V)
theorem U4_arg5 (V : Valuation τ sig (Elt Ideal)) : U4 V (Proc.devRef .tc main_arg5) = V (Proc.devRef .tc main_arg5) :=
  (level3_keep _ main_arg5 (by decide) (by decide) (by decide)).trans (U3_arg5 V)
theorem U4_out0 (V : Valuation τ sig (Elt Ideal)) :
    (U4 V (Proc.devRef .tc main_v143) : P8.Idx → EReal) = refLevelArr refFacts 0x41700000#32 16#32 256#32 0#32 (V (Proc.devRef .tc main_arg0)) (V (Proc.devRef .tc main_arg1)) :=
  (level3_keep _ main_v143 (by decide) (by decide) (by decide)).trans (U3_out0 V)
theorem U4_out1 (V : Valuation τ sig (Elt Ideal)) :
    (U4 V (Proc.devRef .tc main_v287) : P8.Idx → EReal) = refLevelArr refFacts 0x41994518#32 21#32 448#32 1#32 (V (Proc.devRef .tc main_arg0)) (V (Proc.devRef .tc main_arg1)) :=
  (level3_keep _ main_v287 (by decide) (by decide) (by decide)).trans (U3_out1 V)
theorem U4_out2 (V : Valuation τ sig (Elt Ideal)) :
    (U4 V (Proc.devRef .tc main_v431) : P8.Idx → EReal) = refLevelArr refFacts 0x41C32FF6#32 26#32 680#32 2#32 (V (Proc.devRef .tc main_arg0)) (V (Proc.devRef .tc main_arg1)) :=
  (level3_keep _ main_v431 (by decide) (by decide) (by decide)).trans (U3_out2 V)
theorem U4_out3 (V : Valuation τ sig (Elt Ideal)) :
    (U4 V (Proc.devRef .tc main_v575) : P8.Idx → EReal) = refLevelArr refFacts 0x41F80001#32 33#32 1096#32 3#32 (V (Proc.devRef .tc main_arg0)) (V (Proc.devRef .tc main_arg1)) :=
  (level3_eval _).trans (by rw [U3_arg0, U3_arg1])

theorem U5_arg0 (V : Valuation τ sig (Elt Ideal)) : U5 V (Proc.devRef .tc main_arg0) = V (Proc.devRef .tc main_arg0) :=
  (level4_keep _ main_arg0 (by decide) (by decide) (by decide)).trans (U4_arg0 V)
theorem U5_arg1 (V : Valuation τ sig (Elt Ideal)) : U5 V (Proc.devRef .tc main_arg1) = V (Proc.devRef .tc main_arg1) :=
  (level4_keep _ main_arg1 (by decide) (by decide) (by decide)).trans (U4_arg1 V)
theorem U5_arg2 (V : Valuation τ sig (Elt Ideal)) : U5 V (Proc.devRef .tc main_arg2) = V (Proc.devRef .tc main_arg2) :=
  (level4_keep _ main_arg2 (by decide) (by decide) (by decide)).trans (U4_arg2 V)
theorem U5_arg3 (V : Valuation τ sig (Elt Ideal)) : U5 V (Proc.devRef .tc main_arg3) = V (Proc.devRef .tc main_arg3) :=
  (level4_keep _ main_arg3 (by decide) (by decide) (by decide)).trans (U4_arg3 V)
theorem U5_arg4 (V : Valuation τ sig (Elt Ideal)) : U5 V (Proc.devRef .tc main_arg4) = V (Proc.devRef .tc main_arg4) :=
  (level4_keep _ main_arg4 (by decide) (by decide) (by decide)).trans (U4_arg4 V)
theorem U5_arg5 (V : Valuation τ sig (Elt Ideal)) : U5 V (Proc.devRef .tc main_arg5) = V (Proc.devRef .tc main_arg5) :=
  (level4_keep _ main_arg5 (by decide) (by decide) (by decide)).trans (U4_arg5 V)
theorem U5_out0 (V : Valuation τ sig (Elt Ideal)) :
    (U5 V (Proc.devRef .tc main_v143) : P8.Idx → EReal) = refLevelArr refFacts 0x41700000#32 16#32 256#32 0#32 (V (Proc.devRef .tc main_arg0)) (V (Proc.devRef .tc main_arg1)) :=
  (level4_keep _ main_v143 (by decide) (by decide) (by decide)).trans (U4_out0 V)
theorem U5_out1 (V : Valuation τ sig (Elt Ideal)) :
    (U5 V (Proc.devRef .tc main_v287) : P8.Idx → EReal) = refLevelArr refFacts 0x41994518#32 21#32 448#32 1#32 (V (Proc.devRef .tc main_arg0)) (V (Proc.devRef .tc main_arg1)) :=
  (level4_keep _ main_v287 (by decide) (by decide) (by decide)).trans (U4_out1 V)
theorem U5_out2 (V : Valuation τ sig (Elt Ideal)) :
    (U5 V (Proc.devRef .tc main_v431) : P8.Idx → EReal) = refLevelArr refFacts 0x41C32FF6#32 26#32 680#32 2#32 (V (Proc.devRef .tc main_arg0)) (V (Proc.devRef .tc main_arg1)) :=
  (level4_keep _ main_v431 (by decide) (by decide) (by decide)).trans (U4_out2 V)
theorem U5_out3 (V : Valuation τ sig (Elt Ideal)) :
    (U5 V (Proc.devRef .tc main_v575) : P8.Idx → EReal) = refLevelArr refFacts 0x41F80001#32 33#32 1096#32 3#32 (V (Proc.devRef .tc main_arg0)) (V (Proc.devRef .tc main_arg1)) :=
  (level4_keep _ main_v575 (by decide) (by decide) (by decide)).trans (U4_out3 V)
theorem U5_out4 (V : Valuation τ sig (Elt Ideal)) :
    (U5 V (Proc.devRef .tc main_v719) : P8.Idx → EReal) = refLevelArr refFacts 0x421D4519#32 41#32 1688#32 4#32 (V (Proc.devRef .tc main_arg0)) (V (Proc.devRef .tc main_arg1)) :=
  (level4_eval _).trans (by rw [U4_arg0, U4_arg1])

theorem U6_arg0 (V : Valuation τ sig (Elt Ideal)) : U6 V (Proc.devRef .tc main_arg0) = V (Proc.devRef .tc main_arg0) :=
  (level5_keep _ main_arg0 (by decide) (by decide) (by decide)).trans (U5_arg0 V)
theorem U6_arg1 (V : Valuation τ sig (Elt Ideal)) : U6 V (Proc.devRef .tc main_arg1) = V (Proc.devRef .tc main_arg1) :=
  (level5_keep _ main_arg1 (by decide) (by decide) (by decide)).trans (U5_arg1 V)
theorem U6_arg2 (V : Valuation τ sig (Elt Ideal)) : U6 V (Proc.devRef .tc main_arg2) = V (Proc.devRef .tc main_arg2) :=
  (level5_keep _ main_arg2 (by decide) (by decide) (by decide)).trans (U5_arg2 V)
theorem U6_arg3 (V : Valuation τ sig (Elt Ideal)) : U6 V (Proc.devRef .tc main_arg3) = V (Proc.devRef .tc main_arg3) :=
  (level5_keep _ main_arg3 (by decide) (by decide) (by decide)).trans (U5_arg3 V)
theorem U6_arg4 (V : Valuation τ sig (Elt Ideal)) : U6 V (Proc.devRef .tc main_arg4) = V (Proc.devRef .tc main_arg4) :=
  (level5_keep _ main_arg4 (by decide) (by decide) (by decide)).trans (U5_arg4 V)
theorem U6_arg5 (V : Valuation τ sig (Elt Ideal)) : U6 V (Proc.devRef .tc main_arg5) = V (Proc.devRef .tc main_arg5) :=
  (level5_keep _ main_arg5 (by decide) (by decide) (by decide)).trans (U5_arg5 V)
theorem U6_out0 (V : Valuation τ sig (Elt Ideal)) :
    (U6 V (Proc.devRef .tc main_v143) : P8.Idx → EReal) = refLevelArr refFacts 0x41700000#32 16#32 256#32 0#32 (V (Proc.devRef .tc main_arg0)) (V (Proc.devRef .tc main_arg1)) :=
  (level5_keep _ main_v143 (by decide) (by decide) (by decide)).trans (U5_out0 V)
theorem U6_out1 (V : Valuation τ sig (Elt Ideal)) :
    (U6 V (Proc.devRef .tc main_v287) : P8.Idx → EReal) = refLevelArr refFacts 0x41994518#32 21#32 448#32 1#32 (V (Proc.devRef .tc main_arg0)) (V (Proc.devRef .tc main_arg1)) :=
  (level5_keep _ main_v287 (by decide) (by decide) (by decide)).trans (U5_out1 V)
theorem U6_out2 (V : Valuation τ sig (Elt Ideal)) :
    (U6 V (Proc.devRef .tc main_v431) : P8.Idx → EReal) = refLevelArr refFacts 0x41C32FF6#32 26#32 680#32 2#32 (V (Proc.devRef .tc main_arg0)) (V (Proc.devRef .tc main_arg1)) :=
  (level5_keep _ main_v431 (by decide) (by decide) (by decide)).trans (U5_out2 V)
theorem U6_out3 (V : Valuation τ sig (Elt Ideal)) :
    (U6 V (Proc.devRef .tc main_v575) : P8.Idx → EReal) = refLevelArr refFacts 0x41F80001#32 33#32 1096#32 3#32 (V (Proc.devRef .tc main_arg0)) (V (Proc.devRef .tc main_arg1)) :=
  (level5_keep _ main_v575 (by decide) (by decide) (by decide)).trans (U5_out3 V)
theorem U6_out4 (V : Valuation τ sig (Elt Ideal)) :
    (U6 V (Proc.devRef .tc main_v719) : P8.Idx → EReal) = refLevelArr refFacts 0x421D4519#32 41#32 1688#32 4#32 (V (Proc.devRef .tc main_arg0)) (V (Proc.devRef .tc main_arg1)) :=
  (level5_keep _ main_v719 (by decide) (by decide) (by decide)).trans (U5_out4 V)
theorem U6_out5 (V : Valuation τ sig (Elt Ideal)) :
    (U6 V (Proc.devRef .tc main_v863) : P8.Idx → EReal) = refLevelArr refFacts 0x42472FF6#32 51#32 2608#32 5#32 (V (Proc.devRef .tc main_arg0)) (V (Proc.devRef .tc main_arg1)) :=
  (level5_eval _).trans (by rw [U5_arg0, U5_arg1])

theorem U7_arg0 (V : Valuation τ sig (Elt Ideal)) : U7 V (Proc.devRef .tc main_arg0) = V (Proc.devRef .tc main_arg0) :=
  (level6_keep _ main_arg0 (by decide) (by decide) (by decide)).trans (U6_arg0 V)
theorem U7_arg1 (V : Valuation τ sig (Elt Ideal)) : U7 V (Proc.devRef .tc main_arg1) = V (Proc.devRef .tc main_arg1) :=
  (level6_keep _ main_arg1 (by decide) (by decide) (by decide)).trans (U6_arg1 V)
theorem U7_arg2 (V : Valuation τ sig (Elt Ideal)) : U7 V (Proc.devRef .tc main_arg2) = V (Proc.devRef .tc main_arg2) :=
  (level6_keep _ main_arg2 (by decide) (by decide) (by decide)).trans (U6_arg2 V)
theorem U7_arg3 (V : Valuation τ sig (Elt Ideal)) : U7 V (Proc.devRef .tc main_arg3) = V (Proc.devRef .tc main_arg3) :=
  (level6_keep _ main_arg3 (by decide) (by decide) (by decide)).trans (U6_arg3 V)
theorem U7_arg4 (V : Valuation τ sig (Elt Ideal)) : U7 V (Proc.devRef .tc main_arg4) = V (Proc.devRef .tc main_arg4) :=
  (level6_keep _ main_arg4 (by decide) (by decide) (by decide)).trans (U6_arg4 V)
theorem U7_arg5 (V : Valuation τ sig (Elt Ideal)) : U7 V (Proc.devRef .tc main_arg5) = V (Proc.devRef .tc main_arg5) :=
  (level6_keep _ main_arg5 (by decide) (by decide) (by decide)).trans (U6_arg5 V)
theorem U7_out0 (V : Valuation τ sig (Elt Ideal)) :
    (U7 V (Proc.devRef .tc main_v143) : P8.Idx → EReal) = refLevelArr refFacts 0x41700000#32 16#32 256#32 0#32 (V (Proc.devRef .tc main_arg0)) (V (Proc.devRef .tc main_arg1)) :=
  (level6_keep _ main_v143 (by decide) (by decide) (by decide)).trans (U6_out0 V)
theorem U7_out1 (V : Valuation τ sig (Elt Ideal)) :
    (U7 V (Proc.devRef .tc main_v287) : P8.Idx → EReal) = refLevelArr refFacts 0x41994518#32 21#32 448#32 1#32 (V (Proc.devRef .tc main_arg0)) (V (Proc.devRef .tc main_arg1)) :=
  (level6_keep _ main_v287 (by decide) (by decide) (by decide)).trans (U6_out1 V)
theorem U7_out2 (V : Valuation τ sig (Elt Ideal)) :
    (U7 V (Proc.devRef .tc main_v431) : P8.Idx → EReal) = refLevelArr refFacts 0x41C32FF6#32 26#32 680#32 2#32 (V (Proc.devRef .tc main_arg0)) (V (Proc.devRef .tc main_arg1)) :=
  (level6_keep _ main_v431 (by decide) (by decide) (by decide)).trans (U6_out2 V)
theorem U7_out3 (V : Valuation τ sig (Elt Ideal)) :
    (U7 V (Proc.devRef .tc main_v575) : P8.Idx → EReal) = refLevelArr refFacts 0x41F80001#32 33#32 1096#32 3#32 (V (Proc.devRef .tc main_arg0)) (V (Proc.devRef .tc main_arg1)) :=
  (level6_keep _ main_v575 (by decide) (by decide) (by decide)).trans (U6_out3 V)
theorem U7_out4 (V : Valuation τ sig (Elt Ideal)) :
    (U7 V (Proc.devRef .tc main_v719) : P8.Idx → EReal) = refLevelArr refFacts 0x421D4519#32 41#32 1688#32 4#32 (V (Proc.devRef .tc main_arg0)) (V (Proc.devRef .tc main_arg1)) :=
  (level6_keep _ main_v719 (by decide) (by decide) (by decide)).trans (U6_out4 V)
theorem U7_out5 (V : Valuation τ sig (Elt Ideal)) :
    (U7 V (Proc.devRef .tc main_v863) : P8.Idx → EReal) = refLevelArr refFacts 0x42472FF6#32 51#32 2608#32 5#32 (V (Proc.devRef .tc main_arg0)) (V (Proc.devRef .tc main_arg1)) :=
  (level6_keep _ main_v863 (by decide) (by decide) (by decide)).trans (U6_out5 V)
theorem U7_out6 (V : Valuation τ sig (Elt Ideal)) :
    (U7 V (Proc.devRef .tc main_v1007) : P8.Idx → EReal) = refLevelArr refFacts 0x427C0002#32 65#32 4232#32 6#32 (V (Proc.devRef .tc main_arg0)) (V (Proc.devRef .tc main_arg1)) :=
  (level6_eval _).trans (by rw [U6_arg0, U6_arg1])

theorem U8_arg0 (V : Valuation τ sig (Elt Ideal)) : U8 V (Proc.devRef .tc main_arg0) = V (Proc.devRef .tc main_arg0) :=
  (level7_keep _ main_arg0 (by decide) (by decide) (by decide)).trans (U7_arg0 V)
theorem U8_arg1 (V : Valuation τ sig (Elt Ideal)) : U8 V (Proc.devRef .tc main_arg1) = V (Proc.devRef .tc main_arg1) :=
  (level7_keep _ main_arg1 (by decide) (by decide) (by decide)).trans (U7_arg1 V)
theorem U8_arg2 (V : Valuation τ sig (Elt Ideal)) : U8 V (Proc.devRef .tc main_arg2) = V (Proc.devRef .tc main_arg2) :=
  (level7_keep _ main_arg2 (by decide) (by decide) (by decide)).trans (U7_arg2 V)
theorem U8_arg3 (V : Valuation τ sig (Elt Ideal)) : U8 V (Proc.devRef .tc main_arg3) = V (Proc.devRef .tc main_arg3) :=
  (level7_keep _ main_arg3 (by decide) (by decide) (by decide)).trans (U7_arg3 V)
theorem U8_arg4 (V : Valuation τ sig (Elt Ideal)) : U8 V (Proc.devRef .tc main_arg4) = V (Proc.devRef .tc main_arg4) :=
  (level7_keep _ main_arg4 (by decide) (by decide) (by decide)).trans (U7_arg4 V)
theorem U8_arg5 (V : Valuation τ sig (Elt Ideal)) : U8 V (Proc.devRef .tc main_arg5) = V (Proc.devRef .tc main_arg5) :=
  (level7_keep _ main_arg5 (by decide) (by decide) (by decide)).trans (U7_arg5 V)
theorem U8_out0 (V : Valuation τ sig (Elt Ideal)) :
    (U8 V (Proc.devRef .tc main_v143) : P8.Idx → EReal) = refLevelArr refFacts 0x41700000#32 16#32 256#32 0#32 (V (Proc.devRef .tc main_arg0)) (V (Proc.devRef .tc main_arg1)) :=
  (level7_keep _ main_v143 (by decide) (by decide) (by decide)).trans (U7_out0 V)
theorem U8_out1 (V : Valuation τ sig (Elt Ideal)) :
    (U8 V (Proc.devRef .tc main_v287) : P8.Idx → EReal) = refLevelArr refFacts 0x41994518#32 21#32 448#32 1#32 (V (Proc.devRef .tc main_arg0)) (V (Proc.devRef .tc main_arg1)) :=
  (level7_keep _ main_v287 (by decide) (by decide) (by decide)).trans (U7_out1 V)
theorem U8_out2 (V : Valuation τ sig (Elt Ideal)) :
    (U8 V (Proc.devRef .tc main_v431) : P8.Idx → EReal) = refLevelArr refFacts 0x41C32FF6#32 26#32 680#32 2#32 (V (Proc.devRef .tc main_arg0)) (V (Proc.devRef .tc main_arg1)) :=
  (level7_keep _ main_v431 (by decide) (by decide) (by decide)).trans (U7_out2 V)
theorem U8_out3 (V : Valuation τ sig (Elt Ideal)) :
    (U8 V (Proc.devRef .tc main_v575) : P8.Idx → EReal) = refLevelArr refFacts 0x41F80001#32 33#32 1096#32 3#32 (V (Proc.devRef .tc main_arg0)) (V (Proc.devRef .tc main_arg1)) :=
  (level7_keep _ main_v575 (by decide) (by decide) (by decide)).trans (U7_out3 V)
theorem U8_out4 (V : Valuation τ sig (Elt Ideal)) :
    (U8 V (Proc.devRef .tc main_v719) : P8.Idx → EReal) = refLevelArr refFacts 0x421D4519#32 41#32 1688#32 4#32 (V (Proc.devRef .tc main_arg0)) (V (Proc.devRef .tc main_arg1)) :=
  (level7_keep _ main_v719 (by decide) (by decide) (by decide)).trans (U7_out4 V)
theorem U8_out5 (V : Valuation τ sig (Elt Ideal)) :
    (U8 V (Proc.devRef .tc main_v863) : P8.Idx → EReal) = refLevelArr refFacts 0x42472FF6#32 51#32 2608#32 5#32 (V (Proc.devRef .tc main_arg0)) (V (Proc.devRef .tc main_arg1)) :=
  (level7_keep _ main_v863 (by decide) (by decide) (by decide)).trans (U7_out5 V)
theorem U8_out6 (V : Valuation τ sig (Elt Ideal)) :
    (U8 V (Proc.devRef .tc main_v1007) : P8.Idx → EReal) = refLevelArr refFacts 0x427C0002#32 65#32 4232#32 6#32 (V (Proc.devRef .tc main_arg0)) (V (Proc.devRef .tc main_arg1)) :=
  (level7_keep _ main_v1007 (by decide) (by decide) (by decide)).trans (U7_out6 V)
theorem U8_out7 (V : Valuation τ sig (Elt Ideal)) :
    (U8 V (Proc.devRef .tc main_v1151) : P8.Idx → EReal) = refLevelArr refFacts 0x429F4519#32 81#32 6568#32 7#32 (V (Proc.devRef .tc main_arg0)) (V (Proc.devRef .tc main_arg1)) :=
  (level7_eval _).trans (by rw [U7_arg0, U7_arg1])

set_option maxRecDepth 65536 in
/-- All the operations: the first eight resolutions' windows, then the last window. -/
theorem after_ops (V : Valuation τ sig (Elt Ideal)) : after (ops : List (HloOp τ sig (Elt Ideal))) V = after ops_part24 (U8 V) := by
  simp only [ops, U8, U7, U6, U5, U4, U3, U2, U1, U0, StableHlo.after_append]

/-- The reference's result: the perceptron of the eight resolutions' features side by side. -/
def refOut (x : FVec Ideal P2 .f32) (tbl : FVec Ideal Tb .f32) (W0 : FVec Ideal S64x256 .f32) (W1 W2 : FVec Ideal S256x256 .f32)
    (W3 : FVec Ideal S256x1 .f32) : FVec Ideal S262144x1 .f32 :=
  mlpHost (n := 262144) bcast_S_S262144x256
    (concatenate S262144x64 1
      [⟨S262144x8, refLevelArr refFacts 0x41700000#32 16#32 256#32 0#32 x tbl⟩,
       ⟨S262144x8, refLevelArr refFacts 0x41994518#32 21#32 448#32 1#32 x tbl⟩,
       ⟨S262144x8, refLevelArr refFacts 0x41C32FF6#32 26#32 680#32 2#32 x tbl⟩,
       ⟨S262144x8, refLevelArr refFacts 0x41F80001#32 33#32 1096#32 3#32 x tbl⟩,
       ⟨S262144x8, refLevelArr refFacts 0x421D4519#32 41#32 1688#32 4#32 x tbl⟩,
       ⟨S262144x8, refLevelArr refFacts 0x42472FF6#32 51#32 2608#32 5#32 x tbl⟩,
       ⟨S262144x8, refLevelArr refFacts 0x427C0002#32 65#32 4232#32 6#32 x tbl⟩,
       ⟨S262144x8, refLevelArr refFacts 0x429F4519#32 81#32 6568#32 7#32 x tbl⟩]
      concatenates_S262144x8_S262144x8_S262144x8_S262144x8_S262144x8_S262144x8_S262144x8_S262144x8_S262144x64_d1)
    W0 W1 W2 W3

set_option maxRecDepth 65536 in
set_option maxHeartbeats 4000000 in
/-- The last window: the concatenation and the perceptron, from any contents. -/
theorem tail_eval (W : Valuation τ sig (Elt Ideal)) :
    (after (ops_part24 : List (HloOp τ sig (Elt Ideal))) W (Proc.devRef .tc main_v1159) : S262144x1.Idx → EReal)
      = mlpHost (n := 262144) bcast_S_S262144x256
          (concatenate S262144x64 1
            [⟨S262144x8, W (Proc.devRef .tc main_v143)⟩, ⟨S262144x8, W (Proc.devRef .tc main_v287)⟩, ⟨S262144x8, W (Proc.devRef .tc main_v431)⟩, ⟨S262144x8, W (Proc.devRef .tc main_v575)⟩, ⟨S262144x8, W (Proc.devRef .tc main_v719)⟩, ⟨S262144x8, W (Proc.devRef .tc main_v863)⟩, ⟨S262144x8, W (Proc.devRef .tc main_v1007)⟩, ⟨S262144x8, W (Proc.devRef .tc main_v1151)⟩]
            concatenates_S262144x8_S262144x8_S262144x8_S262144x8_S262144x8_S262144x8_S262144x8_S262144x8_S262144x64_d1)
          (W (Proc.devRef .tc main_arg2)) (W (Proc.devRef .tc main_arg3)) (W (Proc.devRef .tc main_arg4)) (W (Proc.devRef .tc main_arg5)) := by
  simp only [ops_part24]
  after_results_simp
  rfl

set_option maxRecDepth 65536 in
set_option maxHeartbeats 4000000 in
/-- The fold of all the reference's operations at its result buffer is `refOut` of the arguments. -/
theorem result_eq (V : Valuation τ sig (Elt Ideal)) :
    (after (ops : List (HloOp τ sig (Elt Ideal))) V (Proc.devRef .tc main_v1159) : S262144x1.Idx → EReal)
      = refOut (V (Proc.devRef .tc main_arg0)) (V (Proc.devRef .tc main_arg1)) (V (Proc.devRef .tc main_arg2)) (V (Proc.devRef .tc main_arg3)) (V (Proc.devRef .tc main_arg4)) (V (Proc.devRef .tc main_arg5)) := by
  refine (congrFun (after_ops V) _).trans ((tail_eval (U8 V)).trans ?_)
  rw [U8_out0, U8_out1, U8_out2, U8_out3, U8_out4, U8_out5, U8_out6, U8_out7, U8_arg2, U8_arg3, U8_arg4, U8_arg5]
  rfl

theorem arg0_kept (V : Valuation τ sig (Elt Ideal)) : after (ops : List (HloOp τ sig (Elt Ideal))) V (Proc.devRef .tc main_arg0) = V (Proc.devRef .tc main_arg0) :=
  (congrFun (after_ops V) _).trans ((ops_part24_keep _ main_arg0 (by decide)).trans (U8_arg0 V))
theorem arg1_kept (V : Valuation τ sig (Elt Ideal)) : after (ops : List (HloOp τ sig (Elt Ideal))) V (Proc.devRef .tc main_arg1) = V (Proc.devRef .tc main_arg1) :=
  (congrFun (after_ops V) _).trans ((ops_part24_keep _ main_arg1 (by decide)).trans (U8_arg1 V))
theorem arg2_kept (V : Valuation τ sig (Elt Ideal)) : after (ops : List (HloOp τ sig (Elt Ideal))) V (Proc.devRef .tc main_arg2) = V (Proc.devRef .tc main_arg2) :=
  (congrFun (after_ops V) _).trans ((ops_part24_keep _ main_arg2 (by decide)).trans (U8_arg2 V))
theorem arg3_kept (V : Valuation τ sig (Elt Ideal)) : after (ops : List (HloOp τ sig (Elt Ideal))) V (Proc.devRef .tc main_arg3) = V (Proc.devRef .tc main_arg3) :=
  (congrFun (after_ops V) _).trans ((ops_part24_keep _ main_arg3 (by decide)).trans (U8_arg3 V))
theorem arg4_kept (V : Valuation τ sig (Elt Ideal)) : after (ops : List (HloOp τ sig (Elt Ideal))) V (Proc.devRef .tc main_arg4) = V (Proc.devRef .tc main_arg4) :=
  (congrFun (after_ops V) _).trans ((ops_part24_keep _ main_arg4 (by decide)).trans (U8_arg4 V))
theorem arg5_kept (V : Valuation τ sig (Elt Ideal)) : after (ops : List (HloOp τ sig (Elt Ideal))) V (Proc.devRef .tc main_arg5) = V (Proc.devRef .tc main_arg5) :=
  (congrFun (after_ops V) _).trans ((ops_part24_keep _ main_arg5 (by decide)).trans (U8_arg5 V))

/-- Entry (n, 0) of the reference's result: `mlp` of the point's 64 features, feature `l * 8 + f` the four-corner sum
    of feature `f` at resolution `l`. -/
theorem refOut_apply (x : FVec Ideal P2 .f32) (tbl : FVec Ideal Tb .f32) (W0 : FVec Ideal S64x256 .f32) (W1 W2 : FVec Ideal S256x256 .f32)
    (W3 : FVec Ideal S256x1 .f32) (n : Fin 262144) (z : Fin 1) :
    refOut x tbl W0 W1 W2 W3 (ix2 n z)
      = mlp (fun j : Fin 64 => (![corners 0x41700000#32 16#32 256#32 0 (x (ix2 n (0 : Fin 2))) (x (ix2 n (1 : Fin 2))) tbl,
            corners 0x41994518#32 21#32 448#32 1 (x (ix2 n (0 : Fin 2))) (x (ix2 n (1 : Fin 2))) tbl,
            corners 0x41C32FF6#32 26#32 680#32 2 (x (ix2 n (0 : Fin 2))) (x (ix2 n (1 : Fin 2))) tbl,
            corners 0x41F80001#32 33#32 1096#32 3 (x (ix2 n (0 : Fin 2))) (x (ix2 n (1 : Fin 2))) tbl,
            corners 0x421D4519#32 41#32 1688#32 4 (x (ix2 n (0 : Fin 2))) (x (ix2 n (1 : Fin 2))) tbl,
            corners 0x42472FF6#32 51#32 2608#32 5 (x (ix2 n (0 : Fin 2))) (x (ix2 n (1 : Fin 2))) tbl,
            corners 0x427C0002#32 65#32 4232#32 6 (x (ix2 n (0 : Fin 2))) (x (ix2 n (1 : Fin 2))) tbl,
            corners 0x429F4519#32 81#32 6568#32 7 (x (ix2 n (0 : Fin 2))) (x (ix2 n (1 : Fin 2))) tbl] :
              Fin 8 → Fin 8 → EReal) ⟨j.val / 8, by omega⟩ ⟨j.val % 8, by omega⟩)
          (fun i j => W0 (ix2 i j)) (fun i j => W1 (ix2 i j)) (fun i j => W2 (ix2 i j)) (fun i j => W3 (ix2 i j)) := by
  unfold refOut
  rw [mlpHost_apply]
  congr 1
  funext j
  rw [concat8_apply _ _ _ _ _ _ _ _ _ n ⟨j.val / 8, by omega⟩ ⟨j.val % 8, by omega⟩ j (by show j.val = j.val / 8 * 8 + j.val % 8; omega)]
  have hj : j.val / 8 < 8 := by omega
  generalize hl : (⟨j.val / 8, by omega⟩ : Fin 8) = l
  generalize (⟨j.val % 8, by omega⟩ : Fin 8) = f
  fin_cases l
  · exact refLevelArr_apply refFacts _ _ _ _ 0 (by decide) x tbl n f
  · exact refLevelArr_apply refFacts _ _ _ _ 1 (by decide) x tbl n f
  · exact refLevelArr_apply refFacts _ _ _ _ 2 (by decide) x tbl n f
  · exact refLevelArr_apply refFacts _ _ _ _ 3 (by decide) x tbl n f
  · exact refLevelArr_apply refFacts _ _ _ _ 4 (by decide) x tbl n f
  · exact refLevelArr_apply refFacts _ _ _ _ 5 (by decide) x tbl n f
  · exact refLevelArr_apply refFacts _ _ _ _ 6 (by decide) x tbl n f
  · exact refLevelArr_apply refFacts _ _ _ _ 7 (by decide) x tbl n f

/-- Every weakly fair execution of the reference terminates with its result at `refOut` of the arguments and the
    arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1159)
          = refOut (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v1159).trans (result_eq _),
      (h c main_arg0).trans (arg0_kept _),
      (h c main_arg1).trans (arg1_kept _),
      (h c main_arg2).trans (arg2_kept _),
      (h c main_arg3).trans (arg3_kept _),
      (h c main_arg4).trans (arg4_kept _),
      (h c main_arg5).trans (arg5_kept _)⟩)
    (RefRun.run_main m ρ)

end Cert.ReferenceIdeal.RefValue

end
-- ==== Proof.Interp.lean ====
/-
  The interpolation laws.

  (1) The hat weights of a point whose cell is `k` vanish off the lines `k` and `k + 1`; so a sum against them
  has two terms, `(1 - w) · F k + w · F (k + 1)` — whatever the summands are, since zero times anything is zero.
  (2) For real weights and real grid values, the separable form of the bilinear interpolation is the sum of the
  four corners, each with the product of its weights (a polynomial identity).
  (3) A coordinate `0 ≤ u < 1` at a scale `0 ≤ s` falls in a cell `k = ⌊u s + 1/2⌋ ≤ s + 1/2`; its number as
  a word is `k`, and its weight is a real number.
-/
import proofs.«139053_j36180804501977_2_alg».proof.Proof.Spec
import Idealize.ShloMosaic.PureOps.Ideal.Laws

noncomputable section

open scoped BigOperators

namespace Cert.Field

open Idealize.ShloMosaic

/-- Small numbers are told apart by their 32-bit words. -/
theorem ofNat_inj {a b : Nat} (ha : a < 2 ^ 32) (hb : b < 2 ^ 32) : BitVec.ofNat 32 a = BitVec.ofNat 32 b ↔ a = b := by
  constructor
  · intro h
    have := congrArg BitVec.toNat h
    simp only [BitVec.toNat_ofNat] at this
    rwa [Nat.mod_eq_of_lt ha, Nat.mod_eq_of_lt hb] at this
  · rintro rfl; rfl

/-- The word after `k`'s is `k + 1`'s. -/
theorem ofNat_succ (k : Nat) : BitVec.ofNat 32 k + 1#32 = BitVec.ofNat 32 (k + 1) :=
  (BitVec.ofNat_add k 1).symm

/-- A sum against the hat weights of cell `k` keeps the two lines `k` and `k + 1`. -/
theorem hat_sum {R : Nat} (hR : R ≤ 2 ^ 32) (k : Nat) (hk : k + 1 < R) (w : EReal) (F : Fin R → EReal) :
    ∑ a : Fin R, hat (BitVec.ofNat 32 k) w a.val * F a
      = (Ideal.ofBits .f32 0x3F800000#32 - w) * F ⟨k, by omega⟩ + w * F ⟨k + 1, hk⟩ := by
  have hz : Ideal.ofBits .f32 0x00000000#32 = 0 := Ideal.ofBits_zero_f32
  have e0 : hat (BitVec.ofNat 32 k) w k = Ideal.ofBits .f32 0x3F800000#32 - w := by
    unfold hat
    rw [if_pos rfl, ofNat_succ, if_neg (fun h => by
      have := (ofNat_inj (by omega) (by omega)).mp h; omega), hz, add_zero]
  have e1 : hat (BitVec.ofNat 32 k) w (k + 1) = w := by
    unfold hat
    rw [if_neg (fun h => by have := (ofNat_inj (by omega) (by omega)).mp h; omega), ofNat_succ, if_pos rfl, hz, zero_add]
  have e2 : ∀ a : Nat, a < R → a ≠ k → a ≠ k + 1 → hat (BitVec.ofNat 32 k) w a = 0 := by
    intro a ha h1 h2
    unfold hat
    rw [if_neg (fun h => h1 ((ofNat_inj (by omega) (by omega)).mp h)), ofNat_succ,
      if_neg (fun h => h2 ((ofNat_inj (by omega) (by omega)).mp h)), hz, add_zero]
  rw [Finset.sum_eq_add (⟨k, by omega⟩ : Fin R) ⟨k + 1, hk⟩ (by intro h; have := congrArg Fin.val h; simp at this)
    (fun c _ hc => by
      rw [e2 c.val c.isLt (fun h => hc.1 (Fin.ext h)) (fun h => hc.2 (Fin.ext h)), zero_mul])
    (fun h => absurd (Finset.mem_univ _) h) (fun h => absurd (Finset.mem_univ _) h)]
  show hat (BitVec.ofNat 32 k) w k * _ + hat (BitVec.ofNat 32 k) w (k + 1) * _ = _
  rw [e0, e1]

/-- The separable bilinear interpolation is the sum of the four corners (real weights and values). -/
theorem bilinear (wx wy a b c d : ℝ) :
    ((1 : EReal) - (wy : EReal)) * (((1 : EReal) - (wx : EReal)) * (a : EReal) + (wx : EReal) * (c : EReal))
        + (wy : EReal) * (((1 : EReal) - (wx : EReal)) * (b : EReal) + (wx : EReal) * (d : EReal))
      = (((0 + (((1 : EReal) - (wx : EReal)) * ((1 : EReal) - (wy : EReal))) * (a : EReal))
            + (((1 : EReal) - (wx : EReal)) * (wy : EReal)) * (b : EReal))
          + ((wx : EReal) * ((1 : EReal) - (wy : EReal))) * (c : EReal))
        + ((wx : EReal) * (wy : EReal)) * (d : EReal) := by
  have h : ((1 - wy) * ((1 - wx) * a + wx * c) + wy * ((1 - wx) * b + wx * d) : ℝ)
      = (((0 + ((1 - wx) * (1 - wy)) * a) + ((1 - wx) * wy) * b) + (wx * (1 - wy)) * c) + (wx * wy) * d := by ring
  exact_mod_cast congrArg (fun r : ℝ => (r : EReal)) h

/-- A coordinate in [0, 1) at a scale `0 ≤ s`: its cell `k` is at most `s + 1/2`, its cell's word is `k`'s,
    and its weight is real. -/
theorem cell_of_unit (sc : BitVec 32) (s : ℝ) (hs : Ideal.ofBits .f32 sc = (s : EReal)) (hs0 : 0 ≤ s) (hs1 : s ≤ 1000)
    (u : ℝ) (hu0 : 0 ≤ u) (hu1 : u < 1) :
    ∃ k : Nat, (k : ℝ) ≤ s + 1 / 2 ∧ gidx sc (u : EReal) = BitVec.ofNat 32 k ∧ ∃ w : ℝ, wgt sc (u : EReal) = (w : EReal) := by
  have hhalf : Ideal.ofBits .f32 0x3F000000#32 = ((1 / 2 : ℝ) : EReal) := by
    simp [Ideal.ofBits, Ideal.ieee, -EReal.coe_mul]; norm_num
  have h3 : Ideal.ofBits .f32 0x40400000#32 = ((3 : ℝ) : EReal) := by
    simp [Ideal.ofBits, Ideal.ieee, -EReal.coe_mul]; norm_num
  have h2 : Ideal.ofBits .f32 0x40000000#32 = ((2 : ℝ) : EReal) := by
    simp [Ideal.ofBits, Ideal.ieee, -EReal.coe_mul]; norm_num
  have hpos : pos sc (u : EReal) = ((u * s + 1 / 2 : ℝ) : EReal) := by
    unfold pos; rw [hs, hhalf]; norm_cast
  have hp0 : 0 ≤ u * s + 1 / 2 := by positivity
  have hp1 : u * s + 1 / 2 ≤ s + 1 / 2 := by nlinarith
  have hcell : cell sc (u : EReal) = (((⌊u * s + 1 / 2⌋ : ℤ) : ℝ) : EReal) := by
    unfold cell; rw [hpos]; rfl
  have hfl0 : 0 ≤ ⌊u * s + 1 / 2⌋ := Int.floor_nonneg.mpr hp0
  have hfl1 : ((⌊u * s + 1 / 2⌋ : ℤ) : ℝ) ≤ s + 1 / 2 := le_trans (Int.floor_le _) hp1
  refine ⟨⌊u * s + 1 / 2⌋.toNat, ?_, ?_, ?_⟩
  · have : ((⌊u * s + 1 / 2⌋.toNat : ℤ) : ℝ) = ((⌊u * s + 1 / 2⌋ : ℤ) : ℝ) := by rw [Int.toNat_of_nonneg hfl0]
    calc ((⌊u * s + 1 / 2⌋.toNat : ℕ) : ℝ) = ((⌊u * s + 1 / 2⌋.toNat : ℤ) : ℝ) := by norm_cast
      _ = _ := this
      _ ≤ _ := hfl1
  · unfold gidx; rw [hcell]
    unfold Ideal.fptosi
    rw [Ideal.toIntClamped_coe]
    have hnn : (0 : ℝ) ≤ ((⌊u * s + 1 / 2⌋ : ℤ) : ℝ) := by exact_mod_cast hfl0
    rw [if_pos hnn, Int.floor_intCast]
    have hub : ⌊u * s + 1 / 2⌋ ≤ 1001 := by
      have : ((⌊u * s + 1 / 2⌋ : ℤ) : ℝ) ≤ 1001 := by linarith
      exact_mod_cast this
    have hmin : min (((2 ^ (32 - 1) : ℕ) : ℤ) - 1) ⌊u * s + 1 / 2⌋ = ⌊u * s + 1 / 2⌋ := by
      apply min_eq_right; norm_num; omega
    have hmax : max (-((2 ^ (32 - 1) : ℕ) : ℤ)) ⌊u * s + 1 / 2⌋ = ⌊u * s + 1 / 2⌋ := by
      apply max_eq_right; norm_num; omega
    rw [hmin, hmax]
    conv_lhs => rw [← Int.toNat_of_nonneg hfl0]
    rfl
  · refine ⟨((u * s + 1 / 2 - ⌊u * s + 1 / 2⌋) * (u * s + 1 / 2 - ⌊u * s + 1 / 2⌋))
      * (3 - 2 * (u * s + 1 / 2 - ⌊u * s + 1 / 2⌋)), ?_⟩
    unfold wgt; rw [hpos, hcell, h3, h2]; norm_cast

end Cert.Field

end
-- ==== Proof.LevelEq.lean ====
/-
  At one resolution the two spellings agree: for a point with both coordinates in [0, 1) and a table of real numbers, the
  separable interpolation over the grid matrix is the sum of the four corners of the point's cell.

  The point's cells are `kx, ky ≤ s + 1/2 < R - 1`, so the hat weights along each axis keep the two lines of the cell,
  and what is left is the polynomial identity between the two arrangements of the bilinear form.
-/
import proofs.«139053_j36180804501977_2_alg».proof.Proof.Spec
import proofs.«139053_j36180804501977_2_alg».proof.Proof.Interp

noncomputable section

open scoped BigOperators

namespace Cert.Field

open Idealize.ShloMosaic Idealize.ShloMosaic.ValueIdx

theorem ofBits_one : Ideal.ofBits .f32 0x3F800000#32 = 1 := by
  simp [Ideal.ofBits, Ideal.ieee, -EReal.coe_mul]; norm_num

theorem level_eq {R K : Nat} (hK : K = R * 8) (hR : R ≤ 2 ^ 32) (sc res size : BitVec 32) (lv : Fin 8)
    (s : ℝ) (hs : Ideal.ofBits .f32 sc = (s : EReal)) (hs0 : 0 ≤ s) (hsR : s + 3 / 2 < R) (hs1 : s ≤ 1000)
    (u v : ℝ) (hu0 : 0 ≤ u) (hu1 : u < 1) (hv0 : 0 ≤ v) (hv1 : v < 1)
    (tbl : (⟨3, ![8, 8192, 8]⟩ : Shape).Idx → EReal) (htbl : ∀ i, ∃ r : ℝ, tbl i = (r : EReal))
    (M : (⟨2, ![R, K]⟩ : Shape).Idx → EReal)
    (hM : ∀ (a b : Fin R) (f : Fin 8) (q : Fin K), q.val = b.val * 8 + f.val →
      M (ix2 a q) = tableAt tbl lv (rowWord res size (BitVec.ofNat 32 a.val) (BitVec.ofNat 32 b.val)) f)
    (f : Fin 8) :
    tent R sc (u : EReal) (v : EReal) (fun a b => M (ix2 a ⟨b.val * 8 + f.val, by
        have := b.isLt; have := f.isLt; rw [hK]; omega⟩))
      = corners sc res size lv (u : EReal) (v : EReal) tbl f := by
  obtain ⟨kx, hkx, hgx, wx, hwx⟩ := cell_of_unit sc s hs hs0 hs1 u hu0 hu1
  obtain ⟨ky, hky, hgy, wy, hwy⟩ := cell_of_unit sc s hs hs0 hs1 v hv0 hv1
  have hkxR : kx + 1 < R := by
    have : (kx : ℝ) + 1 < R := by linarith
    exact_mod_cast this
  have hkyR : ky + 1 < R := by
    have : (ky : ℝ) + 1 < R := by linarith
    exact_mod_cast this
  unfold tent corners
  rw [hgx, hgy, hwx, hwy, hat_sum hR ky hkyR, hat_sum hR kx hkxR, hat_sum hR kx hkxR]
  beta_reduce
  rw [hM ⟨kx, by omega⟩ ⟨ky, by omega⟩ f _ rfl, hM ⟨kx + 1, hkxR⟩ ⟨ky, by omega⟩ f _ rfl,
    hM ⟨kx, by omega⟩ ⟨ky + 1, hkyR⟩ f _ rfl, hM ⟨kx + 1, hkxR⟩ ⟨ky + 1, hkyR⟩ f _ rfl]
  have a0 : ∀ x : BitVec 32, IntOp.addi x 0#32 = x := fun x => BitVec.add_zero x
  have a1 : ∀ k : Nat, IntOp.addi (BitVec.ofNat 32 k) 1#32 = BitVec.ofNat 32 (k + 1) := fun k => ofNat_succ k
  rw [a0, a0, a1, a1]
  obtain ⟨t00, h00⟩ := htbl (ix3 lv ⟨min (rowWord res size (BitVec.ofNat 32 kx) (BitVec.ofNat 32 ky)).toInt.toNat 8191, by omega⟩ f)
  obtain ⟨t01, h01⟩ := htbl (ix3 lv ⟨min (rowWord res size (BitVec.ofNat 32 kx) (BitVec.ofNat 32 (ky + 1))).toInt.toNat 8191, by omega⟩ f)
  obtain ⟨t10, h10⟩ := htbl (ix3 lv ⟨min (rowWord res size (BitVec.ofNat 32 (kx + 1)) (BitVec.ofNat 32 ky)).toInt.toNat 8191, by omega⟩ f)
  obtain ⟨t11, h11⟩ := htbl (ix3 lv ⟨min (rowWord res size (BitVec.ofNat 32 (kx + 1)) (BitVec.ofNat 32 (ky + 1))).toInt.toNat 8191, by omega⟩ f)
  unfold tableAt
  rw [h00, h01, h10, h11, ofBits_one, Ideal.ofBits_zero_f32]
  exact bilinear wx wy t00 t01 t10 t11

end Cert.Field

end
-- ==== Proof.Scales.lean ====
/-
  The eight resolutions' scales, as the real numbers their 32-bit patterns denote.
-/
import Idealize.ShloMosaic.PureOps.Ideal

noncomputable section

namespace Cert.Field

open Idealize.ShloMosaic

theorem scale0 : Ideal.ofBits .f32 0x41700000#32 = (((15728640 : ℝ) / 1048576 : ℝ) : EReal) := by
  simp [Ideal.ofBits, Ideal.ieee, -EReal.coe_mul]; norm_num

theorem scale1 : Ideal.ofBits .f32 0x41994518#32 = (((10044696 : ℝ) / 524288 : ℝ) : EReal) := by
  simp [Ideal.ofBits, Ideal.ieee, -EReal.coe_mul]; norm_num

theorem scale2 : Ideal.ofBits .f32 0x41C32FF6#32 = (((12791798 : ℝ) / 524288 : ℝ) : EReal) := by
  simp [Ideal.ofBits, Ideal.ieee, -EReal.coe_mul]; norm_num

theorem scale3 : Ideal.ofBits .f32 0x41F80001#32 = (((16252929 : ℝ) / 524288 : ℝ) : EReal) := by
  simp [Ideal.ofBits, Ideal.ieee, -EReal.coe_mul]; norm_num

theorem scale4 : Ideal.ofBits .f32 0x421D4519#32 = (((10306841 : ℝ) / 262144 : ℝ) : EReal) := by
  simp [Ideal.ofBits, Ideal.ieee, -EReal.coe_mul]; norm_num

theorem scale5 : Ideal.ofBits .f32 0x42472FF6#32 = (((13053942 : ℝ) / 262144 : ℝ) : EReal) := by
  simp [Ideal.ofBits, Ideal.ieee, -EReal.coe_mul]; norm_num

theorem scale6 : Ideal.ofBits .f32 0x427C0002#32 = (((16515074 : ℝ) / 262144 : ℝ) : EReal) := by
  simp [Ideal.ofBits, Ideal.ieee, -EReal.coe_mul]; norm_num

theorem scale7 : Ideal.ofBits .f32 0x429F4519#32 = (((10437913 : ℝ) / 131072 : ℝ) : EReal) := by
  simp [Ideal.ofBits, Ideal.ieee, -EReal.coe_mul]; norm_num

end Cert.Field

end
-- ==== Proof.Pre.lean ====
/-
  What the precondition gives: every coordinate of every point is a real number in [0, 1), and every table entry is a
  real number. (The precondition is the conjunction of "all entries finite" for each argument and "all coordinates in
  [0, 1)"; each "all" is a reduction by `and` that is 1 only if every entry's test is 1.)
-/
import proofs.«139053_j36180804501977_2_alg».proof.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.Pre_finite_inputs.Decode

open Idealize.ShloMosaic Idealize.ShloMosaic.ValueIdx Cert.Pre_finite_inputs

variable [Facts]
open Facts

instance : Subsingleton S_.Idx := ⟨fun a b => funext fun d => d.elim0⟩

/-- The pattern of +∞ denotes ⊤, of 1.0 the number one. -/
theorem ofBits_inf : Ideal.ofBits .f32 0x7F800000#32 = ⊤ := by simp [Ideal.ofBits, Ideal.ieee]
theorem ofBits_one : Ideal.ofBits .f32 0x3F800000#32 = 1 := by
  simp [Ideal.ofBits, Ideal.ieee, -EReal.coe_mul]; norm_num

/-- A test that is 1 holds. -/
theorem of_cmp_olt {x y : EReal} (h : Ideal.cmp .olt x y = 1#1) : x < y := by
  unfold Ideal.cmp at h
  by_contra hn
  simp [hn] at h
theorem of_cmp_oge {x y : EReal} (h : Ideal.cmp .oge x y = 1#1) : y ≤ x := by
  unfold Ideal.cmp at h
  by_contra hn
  simp [hn] at h

/-- An extended real whose absolute value is below ⊤ is a real number. -/
theorem real_of_abs_lt_top {a : EReal} (h : max a (-a) < ⊤) : ∃ r : ℝ, a = (r : EReal) := by
  induction a using EReal.rec with
  | bot => simp at h
  | coe r => exact ⟨r, rfl⟩
  | top => simp at h

theorem decode (a0 : FVec Ideal S262144x2 .f32) (a1 : FVec Ideal S8x8192x8 .f32) (a2 : FVec Ideal S64x256 .f32)
    (a3 a4 : FVec Ideal S256x256 .f32) (a5 : FVec Ideal S256x1 .f32)
    (h : fn (F := Ideal) a0 a1 a2 a3 a4 a5 = fun _ => 1#1) :
    (∀ i, ∃ r : ℝ, a0 i = (r : EReal) ∧ 0 ≤ r ∧ r < 1) ∧ (∀ i, ∃ r : ℝ, a1 i = (r : EReal)) := by
  have h0 := congrFun h ix0
  dsimp only [fn, fn_part1, fn_part2] at h0
  obtain ⟨h28, h34⟩ := IntOp.andi_eq_one.mp h0
  obtain ⟨h23, -⟩ := IntOp.andi_eq_one.mp h28
  obtain ⟨h18, -⟩ := IntOp.andi_eq_one.mp h23
  obtain ⟨h13, -⟩ := IntOp.andi_eq_one.mp h18
  obtain ⟨h8, -⟩ := IntOp.andi_eq_one.mp h13
  obtain ⟨h3, h7⟩ := IntOp.andi_eq_one.mp h8
  have f0 := Host.reduce_andi_all _ _ _ _ _ h3
  have f1 := Host.reduce_andi_all _ _ _ _ _ h7
  have f2 := Host.reduce_andi_all _ _ _ _ _ h34
  refine ⟨fun i => ?_, fun i => ?_⟩
  · obtain ⟨r, hr⟩ := real_of_abs_lt_top (a := a0 i) (by
      have := of_cmp_olt (f0 i)
      rwa [show broadcastInDim S262144x2 ![] bcast_S_S262144x2 (constant (F := Ideal) S_ .f32 0x7F800000#32) i
        = Ideal.ofBits .f32 0x7F800000#32 from rfl, ofBits_inf] at this)
    obtain ⟨g1, g2⟩ := IntOp.andi_eq_one.mp (f2 i)
    have q1 := of_cmp_oge g1
    have q2 := of_cmp_olt g2
    rw [show broadcastInDim S262144x2 ![] bcast_S_S262144x2 (constant (F := Ideal) S_ .f32 0x00000000#32) i
      = Ideal.ofBits .f32 0x00000000#32 from rfl, Ideal.ofBits_zero_f32, hr] at q1
    rw [show broadcastInDim S262144x2 ![] bcast_S_S262144x2 (constant (F := Ideal) S_ .f32 0x3F800000#32) i
      = Ideal.ofBits .f32 0x3F800000#32 from rfl, ofBits_one, hr] at q2
    exact ⟨r, hr, by exact_mod_cast q1, by exact_mod_cast q2⟩
  · exact real_of_abs_lt_top (a := a1 i) (by
      have := of_cmp_olt (f1 i)
      rwa [show broadcastInDim S8x8192x8 ![] bcast_S_S8x8192x8 (constant (F := Ideal) S_ .f32 0x7F800000#32) i
        = Ideal.ofBits .f32 0x7F800000#32 from rfl, ofBits_inf] at this)

end Cert.Pre_finite_inputs.Decode

end
-- ==== Proof.Final.lean ====
/-
  The kernel's output array is the reference's result.

  Under the precondition every point has both coordinates real and in [0, 1) and every table entry is real. Row `n` of
  the kernel's output is `mlp` of the separable interpolations at point `n` over the grid matrices, which the host
  operations build from the tables; row `n` of the reference's result is `mlp` of the four-corner sums over the tables.
  Resolution by resolution the two interpolations agree (`level_eq`), the weight matrices are the same arguments, so the
  rows agree.
-/
import proofs.«139053_j36180804501977_2_alg».proof.Proof.KValue
import proofs.«139053_j36180804501977_2_alg».proof.Proof.KTables
import proofs.«139053_j36180804501977_2_alg».proof.Proof.RefValue
import proofs.«139053_j36180804501977_2_alg».proof.Proof.LevelEq
import proofs.«139053_j36180804501977_2_alg».proof.Proof.Scales
import proofs.«139053_j36180804501977_2_alg».proof.Proof.Pre

noncomputable section

namespace Cert.Final

open Idealize.ShloMosaic Idealize.ShloMosaic.TcCoe Idealize.ShloMosaic.ValueIdx Idealize.SL.Sem Cert.Field

/-- One resolution: the separable interpolation over the grid matrix the host operations build is the four-corner sum
    over the tables. -/
theorem level0 (tbl : FVec Ideal ⟨3, ![8, 8192, 8]⟩ .f32) (htbl : ∀ i, ∃ r : ℝ, tbl i = (r : EReal)) (u v : ℝ) (hu0 : 0 ≤ u) (hu1 : u < 1)
    (hv0 : 0 ≤ v) (hv1 : v < 1) (f : Fin 8) :
    tent 17 0x41700000#32 (u : EReal) (v : EReal)
        (fun a b => (gridMat (R := 17) (K := 136) 0 16#32 256#32 tbl
          Cert.KernelIdeal.Gen.bcast_S17_S1x17_1 Cert.KernelIdeal.Gen.bcast_S17_S17x1_0 Cert.KernelIdeal.Gen.bcast_S_S17x1 Cert.KernelIdeal.Gen.bcast_S1x17_S17x17_0_1 Cert.KernelIdeal.Gen.bcast_S17x1_S17x17_0_1 Cert.KernelIdeal.Gen.bcast_S_S17x17 Cert.KernelIdeal.Gen.slices_S8x8192x8_S1x8192x8_0_0_0 Cert.KernelIdeal.Gen.shapeCasts_S1x8192x8_S8192x8 Cert.KernelIdeal.Gen.bcast_S17x17_S17x17x1_0_1 Cert.KernelIdeal.Gen.gather_S8192x8_S17x17x1_S17x17x8_2_0_n_n_0_2_18_wf Cert.KernelIdeal.Gen.transposes_S17x17x8_S17x17x8_1_0_2 Cert.KernelIdeal.Gen.shapeCasts_S17x17x8_S17x136) (ix2 a ⟨b.val * 8 + f.val, by have := b.isLt; have := f.isLt; omega⟩))
      = corners 0x41700000#32 16#32 256#32 0 (u : EReal) (v : EReal) tbl f :=
  level_eq (R := 17) (K := 136) rfl (by norm_num) 0x41700000#32 16#32 256#32 0 ((15728640 : ℝ) / 1048576) scale0 (by norm_num) (by norm_num)
    (by norm_num) u v hu0 hu1 hv0 hv1 tbl htbl _
    (fun a b f q hq => gridMat_apply rfl 0 (by norm_num) 16#32 256#32 tbl _ _ _ _ _ _ _ _ _ _ _ _ a b f q hq) f

theorem level1 (tbl : FVec Ideal ⟨3, ![8, 8192, 8]⟩ .f32) (htbl : ∀ i, ∃ r : ℝ, tbl i = (r : EReal)) (u v : ℝ) (hu0 : 0 ≤ u) (hu1 : u < 1)
    (hv0 : 0 ≤ v) (hv1 : v < 1) (f : Fin 8) :
    tent 22 0x41994518#32 (u : EReal) (v : EReal)
        (fun a b => (gridMat (R := 22) (K := 176) 1 21#32 448#32 tbl
          Cert.KernelIdeal.Gen.bcast_S22_S1x22_1 Cert.KernelIdeal.Gen.bcast_S22_S22x1_0 Cert.KernelIdeal.Gen.bcast_S_S22x1 Cert.KernelIdeal.Gen.bcast_S1x22_S22x22_0_1 Cert.KernelIdeal.Gen.bcast_S22x1_S22x22_0_1 Cert.KernelIdeal.Gen.bcast_S_S22x22 Cert.KernelIdeal.Gen.slices_S8x8192x8_S1x8192x8_1_0_0 Cert.KernelIdeal.Gen.shapeCasts_S1x8192x8_S8192x8 Cert.KernelIdeal.Gen.bcast_S22x22_S22x22x1_0_1 Cert.KernelIdeal.Gen.gather_S8192x8_S22x22x1_S22x22x8_2_0_n_n_0_2_18_wf Cert.KernelIdeal.Gen.transposes_S22x22x8_S22x22x8_1_0_2 Cert.KernelIdeal.Gen.shapeCasts_S22x22x8_S22x176) (ix2 a ⟨b.val * 8 + f.val, by have := b.isLt; have := f.isLt; omega⟩))
      = corners 0x41994518#32 21#32 448#32 1 (u : EReal) (v : EReal) tbl f :=
  level_eq (R := 22) (K := 176) rfl (by norm_num) 0x41994518#32 21#32 448#32 1 ((10044696 : ℝ) / 524288) scale1 (by norm_num) (by norm_num)
    (by norm_num) u v hu0 hu1 hv0 hv1 tbl htbl _
    (fun a b f q hq => gridMat_apply rfl 1 (by norm_num) 21#32 448#32 tbl _ _ _ _ _ _ _ _ _ _ _ _ a b f q hq) f

theorem level2 (tbl : FVec Ideal ⟨3, ![8, 8192, 8]⟩ .f32) (htbl : ∀ i, ∃ r : ℝ, tbl i = (r : EReal)) (u v : ℝ) (hu0 : 0 ≤ u) (hu1 : u < 1)
    (hv0 : 0 ≤ v) (hv1 : v < 1) (f : Fin 8) :
    tent 27 0x41C32FF6#32 (u : EReal) (v : EReal)
        (fun a b => (gridMat (R := 27) (K := 216) 2 26#32 680#32 tbl
          Cert.KernelIdeal.Gen.bcast_S27_S1x27_1 Cert.KernelIdeal.Gen.bcast_S27_S27x1_0 Cert.KernelIdeal.Gen.bcast_S_S27x1 Cert.KernelIdeal.Gen.bcast_S1x27_S27x27_0_1 Cert.KernelIdeal.Gen.bcast_S27x1_S27x27_0_1 Cert.KernelIdeal.Gen.bcast_S_S27x27 Cert.KernelIdeal.Gen.slices_S8x8192x8_S1x8192x8_2_0_0 Cert.KernelIdeal.Gen.shapeCasts_S1x8192x8_S8192x8 Cert.KernelIdeal.Gen.bcast_S27x27_S27x27x1_0_1 Cert.KernelIdeal.Gen.gather_S8192x8_S27x27x1_S27x27x8_2_0_n_n_0_2_18_wf Cert.KernelIdeal.Gen.transposes_S27x27x8_S27x27x8_1_0_2 Cert.KernelIdeal.Gen.shapeCasts_S27x27x8_S27x216) (ix2 a ⟨b.val * 8 + f.val, by have := b.isLt; have := f.isLt; omega⟩))
      = corners 0x41C32FF6#32 26#32 680#32 2 (u : EReal) (v : EReal) tbl f :=
  level_eq (R := 27) (K := 216) rfl (by norm_num) 0x41C32FF6#32 26#32 680#32 2 ((12791798 : ℝ) / 524288) scale2 (by norm_num) (by norm_num)
    (by norm_num) u v hu0 hu1 hv0 hv1 tbl htbl _
    (fun a b f q hq => gridMat_apply rfl 2 (by norm_num) 26#32 680#32 tbl _ _ _ _ _ _ _ _ _ _ _ _ a b f q hq) f

theorem level3 (tbl : FVec Ideal ⟨3, ![8, 8192, 8]⟩ .f32) (htbl : ∀ i, ∃ r : ℝ, tbl i = (r : EReal)) (u v : ℝ) (hu0 : 0 ≤ u) (hu1 : u < 1)
    (hv0 : 0 ≤ v) (hv1 : v < 1) (f : Fin 8) :
    tent 34 0x41F80001#32 (u : EReal) (v : EReal)
        (fun a b => (gridMat (R := 34) (K := 272) 3 33#32 1096#32 tbl
          Cert.KernelIdeal.Gen.bcast_S34_S1x34_1 Cert.KernelIdeal.Gen.bcast_S34_S34x1_0 Cert.KernelIdeal.Gen.bcast_S_S34x1 Cert.KernelIdeal.Gen.bcast_S1x34_S34x34_0_1 Cert.KernelIdeal.Gen.bcast_S34x1_S34x34_0_1 Cert.KernelIdeal.Gen.bcast_S_S34x34 Cert.KernelIdeal.Gen.slices_S8x8192x8_S1x8192x8_3_0_0 Cert.KernelIdeal.Gen.shapeCasts_S1x8192x8_S8192x8 Cert.KernelIdeal.Gen.bcast_S34x34_S34x34x1_0_1 Cert.KernelIdeal.Gen.gather_S8192x8_S34x34x1_S34x34x8_2_0_n_n_0_2_18_wf Cert.KernelIdeal.Gen.transposes_S34x34x8_S34x34x8_1_0_2 Cert.KernelIdeal.Gen.shapeCasts_S34x34x8_S34x272) (ix2 a ⟨b.val * 8 + f.val, by have := b.isLt; have := f.isLt; omega⟩))
      = corners 0x41F80001#32 33#32 1096#32 3 (u : EReal) (v : EReal) tbl f :=
  level_eq (R := 34) (K := 272) rfl (by norm_num) 0x41F80001#32 33#32 1096#32 3 ((16252929 : ℝ) / 524288) scale3 (by norm_num) (by norm_num)
    (by norm_num) u v hu0 hu1 hv0 hv1 tbl htbl _
    (fun a b f q hq => gridMat_apply rfl 3 (by norm_num) 33#32 1096#32 tbl _ _ _ _ _ _ _ _ _ _ _ _ a b f q hq) f

theorem level4 (tbl : FVec Ideal ⟨3, ![8, 8192, 8]⟩ .f32) (htbl : ∀ i, ∃ r : ℝ, tbl i = (r : EReal)) (u v : ℝ) (hu0 : 0 ≤ u) (hu1 : u < 1)
    (hv0 : 0 ≤ v) (hv1 : v < 1) (f : Fin 8) :
    tent 42 0x421D4519#32 (u : EReal) (v : EReal)
        (fun a b => (gridMat (R := 42) (K := 336) 4 41#32 1688#32 tbl
          Cert.KernelIdeal.Gen.bcast_S42_S1x42_1 Cert.KernelIdeal.Gen.bcast_S42_S42x1_0 Cert.KernelIdeal.Gen.bcast_S_S42x1 Cert.KernelIdeal.Gen.bcast_S1x42_S42x42_0_1 Cert.KernelIdeal.Gen.bcast_S42x1_S42x42_0_1 Cert.KernelIdeal.Gen.bcast_S_S42x42 Cert.KernelIdeal.Gen.slices_S8x8192x8_S1x8192x8_4_0_0 Cert.KernelIdeal.Gen.shapeCasts_S1x8192x8_S8192x8 Cert.KernelIdeal.Gen.bcast_S42x42_S42x42x1_0_1 Cert.KernelIdeal.Gen.gather_S8192x8_S42x42x1_S42x42x8_2_0_n_n_0_2_18_wf Cert.KernelIdeal.Gen.transposes_S42x42x8_S42x42x8_1_0_2 Cert.KernelIdeal.Gen.shapeCasts_S42x42x8_S42x336) (ix2 a ⟨b.val * 8 + f.val, by have := b.isLt; have := f.isLt; omega⟩))
      = corners 0x421D4519#32 41#32 1688#32 4 (u : EReal) (v : EReal) tbl f :=
  level_eq (R := 42) (K := 336) rfl (by norm_num) 0x421D4519#32 41#32 1688#32 4 ((10306841 : ℝ) / 262144) scale4 (by norm_num) (by norm_num)
    (by norm_num) u v hu0 hu1 hv0 hv1 tbl htbl _
    (fun a b f q hq => gridMat_apply rfl 4 (by norm_num) 41#32 1688#32 tbl _ _ _ _ _ _ _ _ _ _ _ _ a b f q hq) f

theorem level5 (tbl : FVec Ideal ⟨3, ![8, 8192, 8]⟩ .f32) (htbl : ∀ i, ∃ r : ℝ, tbl i = (r : EReal)) (u v : ℝ) (hu0 : 0 ≤ u) (hu1 : u < 1)
    (hv0 : 0 ≤ v) (hv1 : v < 1) (f : Fin 8) :
    tent 52 0x42472FF6#32 (u : EReal) (v : EReal)
        (fun a b => (gridMat (R := 52) (K := 416) 5 51#32 2608#32 tbl
          Cert.KernelIdeal.Gen.bcast_S52_S1x52_1 Cert.KernelIdeal.Gen.bcast_S52_S52x1_0 Cert.KernelIdeal.Gen.bcast_S_S52x1 Cert.KernelIdeal.Gen.bcast_S1x52_S52x52_0_1 Cert.KernelIdeal.Gen.bcast_S52x1_S52x52_0_1 Cert.KernelIdeal.Gen.bcast_S_S52x52 Cert.KernelIdeal.Gen.slices_S8x8192x8_S1x8192x8_5_0_0 Cert.KernelIdeal.Gen.shapeCasts_S1x8192x8_S8192x8 Cert.KernelIdeal.Gen.bcast_S52x52_S52x52x1_0_1 Cert.KernelIdeal.Gen.gather_S8192x8_S52x52x1_S52x52x8_2_0_n_n_0_2_18_wf Cert.KernelIdeal.Gen.transposes_S52x52x8_S52x52x8_1_0_2 Cert.KernelIdeal.Gen.shapeCasts_S52x52x8_S52x416) (ix2 a ⟨b.val * 8 + f.val, by have := b.isLt; have := f.isLt; omega⟩))
      = corners 0x42472FF6#32 51#32 2608#32 5 (u : EReal) (v : EReal) tbl f :=
  level_eq (R := 52) (K := 416) rfl (by norm_num) 0x42472FF6#32 51#32 2608#32 5 ((13053942 : ℝ) / 262144) scale5 (by norm_num) (by norm_num)
    (by norm_num) u v hu0 hu1 hv0 hv1 tbl htbl _
    (fun a b f q hq => gridMat_apply rfl 5 (by norm_num) 51#32 2608#32 tbl _ _ _ _ _ _ _ _ _ _ _ _ a b f q hq) f

theorem level6 (tbl : FVec Ideal ⟨3, ![8, 8192, 8]⟩ .f32) (htbl : ∀ i, ∃ r : ℝ, tbl i = (r : EReal)) (u v : ℝ) (hu0 : 0 ≤ u) (hu1 : u < 1)
    (hv0 : 0 ≤ v) (hv1 : v < 1) (f : Fin 8) :
    tent 66 0x427C0002#32 (u : EReal) (v : EReal)
        (fun a b => (gridMat (R := 66) (K := 528) 6 65#32 4232#32 tbl
          Cert.KernelIdeal.Gen.bcast_S66_S1x66_1 Cert.KernelIdeal.Gen.bcast_S66_S66x1_0 Cert.KernelIdeal.Gen.bcast_S_S66x1 Cert.KernelIdeal.Gen.bcast_S1x66_S66x66_0_1 Cert.KernelIdeal.Gen.bcast_S66x1_S66x66_0_1 Cert.KernelIdeal.Gen.bcast_S_S66x66 Cert.KernelIdeal.Gen.slices_S8x8192x8_S1x8192x8_6_0_0 Cert.KernelIdeal.Gen.shapeCasts_S1x8192x8_S8192x8 Cert.KernelIdeal.Gen.bcast_S66x66_S66x66x1_0_1 Cert.KernelIdeal.Gen.gather_S8192x8_S66x66x1_S66x66x8_2_0_n_n_0_2_18_wf Cert.KernelIdeal.Gen.transposes_S66x66x8_S66x66x8_1_0_2 Cert.KernelIdeal.Gen.shapeCasts_S66x66x8_S66x528) (ix2 a ⟨b.val * 8 + f.val, by have := b.isLt; have := f.isLt; omega⟩))
      = corners 0x427C0002#32 65#32 4232#32 6 (u : EReal) (v : EReal) tbl f :=
  level_eq (R := 66) (K := 528) rfl (by norm_num) 0x427C0002#32 65#32 4232#32 6 ((16515074 : ℝ) / 262144) scale6 (by norm_num) (by norm_num)
    (by norm_num) u v hu0 hu1 hv0 hv1 tbl htbl _
    (fun a b f q hq => gridMat_apply rfl 6 (by norm_num) 65#32 4232#32 tbl _ _ _ _ _ _ _ _ _ _ _ _ a b f q hq) f

theorem level7 (tbl : FVec Ideal ⟨3, ![8, 8192, 8]⟩ .f32) (htbl : ∀ i, ∃ r : ℝ, tbl i = (r : EReal)) (u v : ℝ) (hu0 : 0 ≤ u) (hu1 : u < 1)
    (hv0 : 0 ≤ v) (hv1 : v < 1) (f : Fin 8) :
    tent 82 0x429F4519#32 (u : EReal) (v : EReal)
        (fun a b => (gridMat (R := 82) (K := 656) 7 81#32 6568#32 tbl
          Cert.KernelIdeal.Gen.bcast_S82_S1x82_1 Cert.KernelIdeal.Gen.bcast_S82_S82x1_0 Cert.KernelIdeal.Gen.bcast_S_S82x1 Cert.KernelIdeal.Gen.bcast_S1x82_S82x82_0_1 Cert.KernelIdeal.Gen.bcast_S82x1_S82x82_0_1 Cert.KernelIdeal.Gen.bcast_S_S82x82 Cert.KernelIdeal.Gen.slices_S8x8192x8_S1x8192x8_7_0_0 Cert.KernelIdeal.Gen.shapeCasts_S1x8192x8_S8192x8 Cert.KernelIdeal.Gen.bcast_S82x82_S82x82x1_0_1 Cert.KernelIdeal.Gen.gather_S8192x8_S82x82x1_S82x82x8_2_0_n_n_0_2_18_wf Cert.KernelIdeal.Gen.transposes_S82x82x8_S82x82x8_1_0_2 Cert.KernelIdeal.Gen.shapeCasts_S82x82x8_S82x656) (ix2 a ⟨b.val * 8 + f.val, by have := b.isLt; have := f.isLt; omega⟩))
      = corners 0x429F4519#32 81#32 6568#32 7 (u : EReal) (v : EReal) tbl f :=
  level_eq (R := 82) (K := 656) rfl (by norm_num) 0x429F4519#32 81#32 6568#32 7 ((10437913 : ℝ) / 131072) scale7 (by norm_num) (by norm_num)
    (by norm_num) u v hu0 hu1 hv0 hv1 tbl htbl _
    (fun a b f q hq => gridMat_apply rfl 7 (by norm_num) 81#32 6568#32 tbl _ _ _ _ _ _ _ _ _ _ _ _ a b f q hq) f

set_option maxHeartbeats 4000000 in
open Cert.KernelIdeal Cert.KernelIdeal.Gen in
/-- The kernel's output array, from a launch memory satisfying the precondition, is the reference's result of the same
    arguments. -/
theorem out_eq [Cert.Pre_finite_inputs.Facts] (m : (ℓ : Loc nD τ sig) → Buf (Elt Ideal) ℓ) (c : Dev nD)
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) = fun _ => 1#1) :
    Cert.KernelIdeal.KValue.G m c
      = Cert.ReferenceIdeal.RefValue.refOut (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  obtain ⟨hx, htbl⟩ := Cert.Pre_finite_inputs.Decode.decode _ _ _ _ _ _ hpre
  funext i
  obtain ⟨n, z, rfl⟩ : ∃ (n : Fin 262144) (z : Fin 1), i = ix2 n z := ⟨i 0, i 1, eq_ix2 i⟩
  rw [Cert.ReferenceIdeal.RefValue.refOut_apply]
  show Cert.KernelIdeal.KValue.kOut (V m c main_arg0) (V m c main_v20) (V m c main_v41) (V m c main_v62) (V m c main_v83) (V m c main_v104) (V m c main_v125) (V m c main_v146) (V m c main_v167) (V m c main_arg2) (V m c main_arg3)
      (V m c main_arg4) (V m c main_arg5) (ix2 n z) = _
  rw [V_main_arg0, V_main_arg2, V_main_arg3, V_main_arg4, V_main_arg5, Cert.KernelIdeal.Tables.grid0, Cert.KernelIdeal.Tables.grid1, Cert.KernelIdeal.Tables.grid2, Cert.KernelIdeal.Tables.grid3, Cert.KernelIdeal.Tables.grid4, Cert.KernelIdeal.Tables.grid5, Cert.KernelIdeal.Tables.grid6, Cert.KernelIdeal.Tables.grid7]
  obtain ⟨u, hu, hu0, hu1⟩ := hx (ix2 n (0 : Fin 2))
  obtain ⟨v, hv, hv0, hv1⟩ := hx (ix2 n (1 : Fin 2))
  have hu' : m ((c : Thread nD τ).loc main_arg0) (ix2 ((ix2 n z : S262144x1.Idx) 0) (0 : Fin 2)) = (u : EReal) := hu
  have hv' : m ((c : Thread nD τ).loc main_arg0) (ix2 ((ix2 n z : S262144x1.Idx) 0) (1 : Fin 2)) = (v : EReal) := hv
  unfold Cert.KernelIdeal.KValue.kOut
  simp only [hu', hv']
  show mlp _ _ _ _ _ = mlp _ _ _ _ _
  congr 1
  funext j
  generalize (⟨j.val / 8, by omega⟩ : Fin 8) = l
  generalize (⟨j.val % 8, by omega⟩ : Fin 8) = f
  fin_cases l
  · exact level0 _ htbl u v hu0 hu1 hv0 hv1 f
  · exact level1 _ htbl u v hu0 hu1 hv0 hv1 f
  · exact level2 _ htbl u v hu0 hu1 hv0 hv1 f
  · exact level3 _ htbl u v hu0 hu1 hv0 hv1 f
  · exact level4 _ htbl u v hu0 hu1 hv0 hv1 f
  · exact level5 _ htbl u v hu0 hu1 hv0 hv1 f
  · exact level6 _ htbl u v hu0 hu1 hv0 hv1 f
  · exact level7 _ htbl u v hu0 hu1 hv0 hv1 f

end Cert.Final

end
-- ==== Proof.lean ====
/-
  The certificate: the kernel against its reference, on the extended reals.

  The kernel encodes each of 262144 points of the plane at eight resolutions and passes the 64 features through a
  perceptron. It takes 512 points at a time and does the interpolation as two matrix products against a grid matrix that
  host operations build from the stack of feature tables beforehand: a point's weights along each grid axis vanish off the
  two lines of its cell. The reference gathers the four corners of the cell from the tables and adds them with the
  products of their weights. For a point in the unit square and real table entries the two are one bilinear form; outside
  the unit square the kernel's grid does not reach, which is why the claim is made for coordinates in [0, 1).

  The three frames: the two kernel programs' are the runs of their pipelines; the reference's is its run with the result
  dropped. The ideal pass rewrote nothing. The value claim sets the kernel's run (the output array as one function of
  the arrays it reads) beside the reference's (its result as one function of its arguments) and identifies the two.
-/
import proofs.«139053_j36180804501977_2_alg».proof.Defs
import proofs.«139053_j36180804501977_2_alg».proof.Proof.Gen.Kernel
import proofs.«139053_j36180804501977_2_alg».proof.Proof.Gen.Kernel.Skeleton
import proofs.«139053_j36180804501977_2_alg».proof.Proof.Gen.Kernel.Launch
import proofs.«139053_j36180804501977_2_alg».proof.Proof.Gen.Kernel.Points
import proofs.«139053_j36180804501977_2_alg».proof.Proof.Gen.Kernel.Frame
import proofs.«139053_j36180804501977_2_alg».proof.Proof.Gen.KernelIdeal
import proofs.«139053_j36180804501977_2_alg».proof.Proof.Gen.KernelIdeal.Skeleton
import proofs.«139053_j36180804501977_2_alg».proof.Proof.Gen.KernelIdeal.Launch
import proofs.«139053_j36180804501977_2_alg».proof.Proof.Gen.KernelIdeal.Points
import proofs.«139053_j36180804501977_2_alg».proof.Proof.Gen.KernelIdeal.Frame
import proofs.«139053_j36180804501977_2_alg».proof.Proof.Gen.KernelIdeal.Value
import proofs.«139053_j36180804501977_2_alg».proof.Proof.Gen.ReferenceIdeal
import proofs.«139053_j36180804501977_2_alg».proof.Proof.Gen.Pre_finite_inputs
import proofs.«139053_j36180804501977_2_alg».proof.Proof.Final
import Idealize.ShloMosaic.Adequacy
import Idealize.ShloMosaic.Init

noncomputable section

namespace Cert.Proof

open Idealize.ShloMosaic Idealize.SL.Sem

/-- The kernel's word-level program runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run, the result dropped. -/
theorem frame_ri : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- From memories agreeing on the arguments, the idealized kernel's output array and the idealized reference's result
    are the same array of extended reals. -/
theorem algebraic : Cert.algebraic_KernelIdeal_ReferenceIdeal := by
  intro m ρ m' ρ' hpre hagree
  refine ⟨fun c => Cert.KernelIdeal.KValue.G m c, Cert.KernelIdeal.KValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2.1, (hagree c).2.2.2.2.2]
  exact (Cert.Final.out_eq m c (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
